-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000000x64 : Shape := ⟨2, ![1000000, 64]⟩
abbrev S16384x64 : Shape := ⟨2, ![16384, 64]⟩
abbrev S512 : Shape := ⟨1, ![512]⟩
abbrev S512x64 : Shape := ⟨2, ![512, 64]⟩
abbrev S2x16x8x64 : Shape := ⟨4, ![2, 16, 8, 64]⟩
abbrev S_ : Shape := ⟨0, ![]⟩
abbrev S16 : Shape := ⟨1, ![16]⟩
abbrev S1 : Shape := ⟨1, ![1]⟩
abbrev S1x1x8x64 : Shape := ⟨4, ![1, 1, 8, 64]⟩
abbrev S8x64 : Shape := ⟨2, ![8, 64]⟩
abbrev S1x1x1x16 : Shape := ⟨4, ![1, 1, 1, 16]⟩
abbrev S1x16 : Shape := ⟨2, ![1, 16]⟩

abbrev nBuf : Table → Nat
  | .hbm => 5
  | .local .scVector .vmem => 5
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S1000000x64, .f32⟩
  | .hbm, ⟨3, _⟩ => ⟨S1000000x64, .f32⟩
  | .hbm, ⟨4, _⟩ => ⟨S16384x64, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S512x64, .f32⟩
  | .local .scVector .vmem, ⟨4, _⟩ => ⟨S2x16x8x64, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_mult1 (v391 : BitVec 32) : BitVec 32 :=
  v391

def k0_off2 (v391 : BitVec 32) : Fin 2 → Nat :=
  let v392 : BitVec 32 := v391
  let c0_i32_130 : BitVec 32 := 0#32
  ![v392.toNat, 0]

def k0_chk1 (v391 : BitVec 32) : Prop :=
  (8 ∣ (k0_mult1 v391).toNat) ∧
  (∀ a, (k0_off2 v391) a + S8x64.size a ≤ S1000000x64.size a)
instance k0_chk1.dec : ∀ (v391 : BitVec 32), Decidable (k0_chk1 v391) := fun v391 => decidable_of_iff' _ (Iff.of_eq (k0_chk1.eq_1 v391))
theorem k0_mult1_dvd : ∀ (v391 : BitVec 32) (k0_hw1 : k0_chk1 v391), 8 ∣ (k0_mult1 v391).toNat := fun v391 k0_hw1 => k0_hw1.1
theorem k0_off2_inb : ∀ (v391 : BitVec 32) (k0_hw1 : k0_chk1 v391), ∀ a, (k0_off2 v391) a + S8x64.size a ≤ S1000000x64.size a := fun v391 k0_hw1 => k0_hw1.2

def k0_mult2 (v400 : BitVec 32) : BitVec 32 :=
  v400

def k0_off3 (v400 : BitVec 32) : Fin 2 → Nat :=
  let v401 : BitVec 32 := v400
  let c0_i32_137 : BitVec 32 := 0#32
  ![v401.toNat, 0]

def k0_chk2 (v400 : BitVec 32) : Prop :=
  (8 ∣ (k0_mult2 v400).toNat) ∧
  (∀ a, (k0_off3 v400) a + S8x64.size a ≤ S1000000x64.size a)
instance k0_chk2.dec : ∀ (v400 : BitVec 32), Decidable (k0_chk2 v400) := fun v400 => decidable_of_iff' _ (Iff.of_eq (k0_chk2.eq_1 v400))
theorem k0_mult2_dvd : ∀ (v400 : BitVec 32) (k0_hw2 : k0_chk2 v400), 8 ∣ (k0_mult2 v400).toNat := fun v400 k0_hw2 => k0_hw2.1
theorem k0_off3_inb : ∀ (v400 : BitVec 32) (k0_hw2 : k0_chk2 v400), ∀ a, (k0_off3 v400) a + S8x64.size a ≤ S1000000x64.size a := fun v400 k0_hw2 => k0_hw2.2

def k0_mult3 (v409 : BitVec 32) : BitVec 32 :=
  v409

def k0_off4 (v409 : BitVec 32) : Fin 2 → Nat :=
  let v410 : BitVec 32 := v409
  let c0_i32_145 : BitVec 32 := 0#32
  ![v410.toNat, 0]

def k0_chk3 (v409 : BitVec 32) : Prop :=
  (8 ∣ (k0_mult3 v409).toNat) ∧
  (∀ a, (k0_off4 v409) a + S8x64.size a ≤ S1000000x64.size a)
instance k0_chk3.dec : ∀ (v409 : BitVec 32), Decidable (k0_chk3 v409) := fun v409 => decidable_of_iff' _ (Iff.of_eq (k0_chk3.eq_1 v409))
theorem k0_mult3_dvd : ∀ (v409 : BitVec 32) (k0_hw3 : k0_chk3 v409), 8 ∣ (k0_mult3 v409).toNat := fun v409 k0_hw3 => k0_hw3.1
theorem k0_off4_inb : ∀ (v409 : BitVec 32) (k0_hw3 : k0_chk3 v409), ∀ a, (k0_off4 v409) a + S8x64.size a ≤ S1000000x64.size a := fun v409 k0_hw3 => k0_hw3.2

def k0_mult4 (v418 : BitVec 32) : BitVec 32 :=
  v418

def k0_off5 (v418 : BitVec 32) : Fin 2 → Nat :=
  let v419 : BitVec 32 := v418
  let c0_i32_152 : BitVec 32 := 0#32
  ![v419.toNat, 0]

def k0_chk4 (v418 : BitVec 32) : Prop :=
  (8 ∣ (k0_mult4 v418).toNat) ∧
  (∀ a, (k0_off5 v418) a + S8x64.size a ≤ S1000000x64.size a)
instance k0_chk4.dec : ∀ (v418 : BitVec 32), Decidable (k0_chk4 v418) := fun v418 => decidable_of_iff' _ (Iff.of_eq (k0_chk4.eq_1 v418))
theorem k0_mult4_dvd : ∀ (v418 : BitVec 32) (k0_hw4 : k0_chk4 v418), 8 ∣ (k0_mult4 v418).toNat := fun v418 k0_hw4 => k0_hw4.1
theorem k0_off5_inb : ∀ (v418 : BitVec 32) (k0_hw4 : k0_chk4 v418), ∀ a, (k0_off5 v418) a + S8x64.size a ≤ S1000000x64.size a := fun v418 k0_hw4 => k0_hw4.2

def k0_mult5 (v427 : BitVec 32) : BitVec 32 :=
  v427

def k0_off6 (v427 : BitVec 32) : Fin 2 → Nat :=
  let v428 : BitVec 32 := v427
  let c0_i32_159 : BitVec 32 := 0#32
  ![v428.toNat, 0]

def k0_chk5 (v427 : BitVec 32) : Prop :=
  (8 ∣ (k0_mult5 v427).toNat) ∧
  (∀ a, (k0_off6 v427) a + S8x64.size a ≤ S1000000x64.size a)
instance k0_chk5.dec : ∀ (v427 : BitVec 32), Decidable (k0_chk5 v427) := fun v427 => decidable_of_iff' _ (Iff.of_eq (k0_chk5.eq_1 v427))
theorem k0_mult5_dvd : ∀ (v427 : BitVec 32) (k0_hw5 : k0_chk5 v427), 8 ∣ (k0_mult5 v427).toNat := fun v427 k0_hw5 => k0_hw5.1
theorem k0_off6_inb : ∀ (v427 : BitVec 32) (k0_hw5 : k0_chk5 v427), ∀ a, (k0_off6 v427) a + S8x64.size a ≤ S1000000x64.size a := fun v427 k0_hw5 => k0_hw5.2

def k0_mult6 (v436 : BitVec 32) : BitVec 32 :=
  v436

def k0_off7 (v436 : BitVec 32) : Fin 2 → Nat :=
  let v437 : BitVec 32 := v436
  let c0_i32_166 : BitVec 32 := 0#32
  ![v437.toNat, 0]

def k0_chk6 (v436 : BitVec 32) : Prop :=
  (8 ∣ (k0_mult6 v436).toNat) ∧
  (∀ a, (k0_off7 v436) a + S8x64.size a ≤ S1000000x64.size a)
instance k0_chk6.dec : ∀ (v436 : BitVec 32), Decidable (k0_chk6 v436) := fun v436 => decidable_of_iff' _ (Iff.of_eq (k0_chk6.eq_1 v436))
theorem k0_mult6_dvd : ∀ (v436 : BitVec 32) (k0_hw6 : k0_chk6 v436), 8 ∣ (k0_mult6 v436).toNat := fun v436 k0_hw6 => k0_hw6.1
theorem k0_off7_inb : ∀ (v436 : BitVec 32) (k0_hw6 : k0_chk6 v436), ∀ a, (k0_off7 v436) a + S8x64.size a ≤ S1000000x64.size a := fun v436 k0_hw6 => k0_hw6.2

def k0_mult7 (v445 : BitVec 32) : BitVec 32 :=
  v445

def k0_off8 (v445 : BitVec 32) : Fin 2 → Nat :=
  let v446 : BitVec 32 := v445
  let c0_i32_173 : BitVec 32 := 0#32
  ![v446.toNat, 0]

def k0_chk7 (v445 : BitVec 32) : Prop :=
  (8 ∣ (k0_mult7 v445).toNat) ∧
  (∀ a, (k0_off8 v445) a + S8x64.size a ≤ S1000000x64.size a)
instance k0_chk7.dec : ∀ (v445 : BitVec 32), Decidable (k0_chk7 v445) := fun v445 => decidable_of_iff' _ (Iff.of_eq (k0_chk7.eq_1 v445))
theorem k0_mult7_dvd : ∀ (v445 : BitVec 32) (k0_hw7 : k0_chk7 v445), 8 ∣ (k0_mult7 v445).toNat := fun v445 k0_hw7 => k0_hw7.1
theorem k0_off8_inb : ∀ (v445 : BitVec 32) (k0_hw7 : k0_chk7 v445), ∀ a, (k0_off8 v445) a + S8x64.size a ≤ S1000000x64.size a := fun v445 k0_hw7 => k0_hw7.2

def k0_mult8 (v454 : BitVec 32) : BitVec 32 :=
  v454

def k0_off9 (v454 : BitVec 32) : Fin 2 → Nat :=
  let v455 : BitVec 32 := v454
  let c0_i32_181 : BitVec 32 := 0#32
  ![v455.toNat, 0]

def k0_chk8 (v454 : BitVec 32) : Prop :=
  (8 ∣ (k0_mult8 v454).toNat) ∧
  (∀ a, (k0_off9 v454) a + S8x64.size a ≤ S1000000x64.size a)
instance k0_chk8.dec : ∀ (v454 : BitVec 32), Decidable (k0_chk8 v454) := fun v454 => decidable_of_iff' _ (Iff.of_eq (k0_chk8.eq_1 v454))
theorem k0_mult8_dvd : ∀ (v454 : BitVec 32) (k0_hw8 : k0_chk8 v454), 8 ∣ (k0_mult8 v454).toNat := fun v454 k0_hw8 => k0_hw8.1
theorem k0_off9_inb : ∀ (v454 : BitVec 32) (k0_hw8 : k0_chk8 v454), ∀ a, (k0_off9 v454) a + S8x64.size a ≤ S1000000x64.size a := fun v454 k0_hw8 => k0_hw8.2

def k0_mult9 (v463 : BitVec 32) : BitVec 32 :=
  v463

def k0_off10 (v463 : BitVec 32) : Fin 2 → Nat :=
  let v464 : BitVec 32 := v463
  let c0_i32_188 : BitVec 32 := 0#32
  ![v464.toNat, 0]

def k0_chk9 (v463 : BitVec 32) : Prop :=
  (8 ∣ (k0_mult9 v463).toNat) ∧
  (∀ a, (k0_off10 v463) a + S8x64.size a ≤ S1000000x64.size a)
instance k0_chk9.dec : ∀ (v463 : BitVec 32), Decidable (k0_chk9 v463) := fun v463 => decidable_of_iff' _ (Iff.of_eq (k0_chk9.eq_1 v463))
theorem k0_mult9_dvd : ∀ (v463 : BitVec 32) (k0_hw9 : k0_chk9 v463), 8 ∣ (k0_mult9 v463).toNat := fun v463 k0_hw9 => k0_hw9.1
theorem k0_off10_inb : ∀ (v463 : BitVec 32) (k0_hw9 : k0_chk9 v463), ∀ a, (k0_off10 v463) a + S8x64.size a ≤ S1000000x64.size a := fun v463 k0_hw9 => k0_hw9.2

def k0_mult10 (v472 : BitVec 32) : BitVec 32 :=
  v472

def k0_off11 (v472 : BitVec 32) : Fin 2 → Nat :=
  let v473 : BitVec 32 := v472
  let c0_i32_195 : BitVec 32 := 0#32
  ![v473.toNat, 0]

def k0_chk10 (v472 : BitVec 32) : Prop :=
  (8 ∣ (k0_mult10 v472).toNat) ∧
  (∀ a, (k0_off11 v472) a + S8x64.size a ≤ S1000000x64.size a)
instance k0_chk10.dec : ∀ (v472 : BitVec 32), Decidable (k0_chk10 v472) := fun v472 => decidable_of_iff' _ (Iff.of_eq (k0_chk10.eq_1 v472))
theorem k0_mult10_dvd : ∀ (v472 : BitVec 32) (k0_hw10 : k0_chk10 v472), 8 ∣ (k0_mult10 v472).toNat := fun v472 k0_hw10 => k0_hw10.1
theorem k0_off11_inb : ∀ (v472 : BitVec 32) (k0_hw10 : k0_chk10 v472), ∀ a, (k0_off11 v472) a + S8x64.size a ≤ S1000000x64.size a := fun v472 k0_hw10 => k0_hw10.2

def k0_mult11 (v481 : BitVec 32) : BitVec 32 :=
  v481

def k0_off12 (v481 : BitVec 32) : Fin 2 → Nat :=
  let v482 : BitVec 32 := v481
  let c0_i32_202 : BitVec 32 := 0#32
  ![v482.toNat, 0]

def k0_chk11 (v481 : BitVec 32) : Prop :=
  (8 ∣ (k0_mult11 v481).toNat) ∧
  (∀ a, (k0_off12 v481) a + S8x64.size a ≤ S1000000x64.size a)
instance k0_chk11.dec : ∀ (v481 : BitVec 32), Decidable (k0_chk11 v481) := fun v481 => decidable_of_iff' _ (Iff.of_eq (k0_chk11.eq_1 v481))
theorem k0_mult11_dvd : ∀ (v481 : BitVec 32) (k0_hw11 : k0_chk11 v481), 8 ∣ (k0_mult11 v481).toNat := fun v481 k0_hw11 => k0_hw11.1
theorem k0_off12_inb : ∀ (v481 : BitVec 32) (k0_hw11 : k0_chk11 v481), ∀ a, (k0_off12 v481) a + S8x64.size a ≤ S1000000x64.size a := fun v481 k0_hw11 => k0_hw11.2

def k0_mult12 (v490 : BitVec 32) : BitVec 32 :=
  v490

def k0_off13 (v490 : BitVec 32) : Fin 2 → Nat :=
  let v491 : BitVec 32 := v490
  let c0_i32_209 : BitVec 32 := 0#32
  ![v491.toNat, 0]

def k0_chk12 (v490 : BitVec 32) : Prop :=
  (8 ∣ (k0_mult12 v490).toNat) ∧
  (∀ a, (k0_off13 v490) a + S8x64.size a ≤ S1000000x64.size a)
instance k0_chk12.dec : ∀ (v490 : BitVec 32), Decidable (k0_chk12 v490) := fun v490 => decidable_of_iff' _ (Iff.of_eq (k0_chk12.eq_1 v490))
theorem k0_mult12_dvd : ∀ (v490 : BitVec 32) (k0_hw12 : k0_chk12 v490), 8 ∣ (k0_mult12 v490).toNat := fun v490 k0_hw12 => k0_hw12.1
theorem k0_off13_inb : ∀ (v490 : BitVec 32) (k0_hw12 : k0_chk12 v490), ∀ a, (k0_off13 v490) a + S8x64.size a ≤ S1000000x64.size a := fun v490 k0_hw12 => k0_hw12.2

def k0_mult13 (v499 : BitVec 32) : BitVec 32 :=
  v499

def k0_off14 (v499 : BitVec 32) : Fin 2 → Nat :=
  let v500 : BitVec 32 := v499
  let c0_i32_216 : BitVec 32 := 0#32
  ![v500.toNat, 0]

def k0_chk13 (v499 : BitVec 32) : Prop :=
  (8 ∣ (k0_mult13 v499).toNat) ∧
  (∀ a, (k0_off14 v499) a + S8x64.size a ≤ S1000000x64.size a)
instance k0_chk13.dec : ∀ (v499 : BitVec 32), Decidable (k0_chk13 v499) := fun v499 => decidable_of_iff' _ (Iff.of_eq (k0_chk13.eq_1 v499))
theorem k0_mult13_dvd : ∀ (v499 : BitVec 32) (k0_hw13 : k0_chk13 v499), 8 ∣ (k0_mult13 v499).toNat := fun v499 k0_hw13 => k0_hw13.1
theorem k0_off14_inb : ∀ (v499 : BitVec 32) (k0_hw13 : k0_chk13 v499), ∀ a, (k0_off14 v499) a + S8x64.size a ≤ S1000000x64.size a := fun v499 k0_hw13 => k0_hw13.2

def k0_mult14 (v508 : BitVec 32) : BitVec 32 :=
  v508

def k0_off15 (v508 : BitVec 32) : Fin 2 → Nat :=
  let v509 : BitVec 32 := v508
  let c0_i32_223 : BitVec 32 := 0#32
  ![v509.toNat, 0]

def k0_chk14 (v508 : BitVec 32) : Prop :=
  (8 ∣ (k0_mult14 v508).toNat) ∧
  (∀ a, (k0_off15 v508) a + S8x64.size a ≤ S1000000x64.size a)
instance k0_chk14.dec : ∀ (v508 : BitVec 32), Decidable (k0_chk14 v508) := fun v508 => decidable_of_iff' _ (Iff.of_eq (k0_chk14.eq_1 v508))
theorem k0_mult14_dvd : ∀ (v508 : BitVec 32) (k0_hw14 : k0_chk14 v508), 8 ∣ (k0_mult14 v508).toNat := fun v508 k0_hw14 => k0_hw14.1
theorem k0_off15_inb : ∀ (v508 : BitVec 32) (k0_hw14 : k0_chk14 v508), ∀ a, (k0_off15 v508) a + S8x64.size a ≤ S1000000x64.size a := fun v508 k0_hw14 => k0_hw14.2

def k0_mult15 (v517 : BitVec 32) : BitVec 32 :=
  v517

def k0_off16 (v517 : BitVec 32) : Fin 2 → Nat :=
  let v518 : BitVec 32 := v517
  let c0_i32_230 : BitVec 32 := 0#32
  ![v518.toNat, 0]

def k0_chk15 (v517 : BitVec 32) : Prop :=
  (8 ∣ (k0_mult15 v517).toNat) ∧
  (∀ a, (k0_off16 v517) a + S8x64.size a ≤ S1000000x64.size a)
instance k0_chk15.dec : ∀ (v517 : BitVec 32), Decidable (k0_chk15 v517) := fun v517 => decidable_of_iff' _ (Iff.of_eq (k0_chk15.eq_1 v517))
theorem k0_mult15_dvd : ∀ (v517 : BitVec 32) (k0_hw15 : k0_chk15 v517), 8 ∣ (k0_mult15 v517).toNat := fun v517 k0_hw15 => k0_hw15.1
theorem k0_off16_inb : ∀ (v517 : BitVec 32) (k0_hw15 : k0_chk15 v517), ∀ a, (k0_off16 v517) a + S8x64.size a ≤ S1000000x64.size a := fun v517 k0_hw15 => k0_hw15.2

def k0_mult16 (v526 : BitVec 32) : BitVec 32 :=
  v526

def k0_off17 (v526 : BitVec 32) : Fin 2 → Nat :=
  let v527 : BitVec 32 := v526
  let c0_i32_237 : BitVec 32 := 0#32
  ![v527.toNat, 0]

def k0_chk16 (v526 : BitVec 32) : Prop :=
  (8 ∣ (k0_mult16 v526).toNat) ∧
  (∀ a, (k0_off17 v526) a + S8x64.size a ≤ S1000000x64.size a)
instance k0_chk16.dec : ∀ (v526 : BitVec 32), Decidable (k0_chk16 v526) := fun v526 => decidable_of_iff' _ (Iff.of_eq (k0_chk16.eq_1 v526))
theorem k0_mult16_dvd : ∀ (v526 : BitVec 32) (k0_hw16 : k0_chk16 v526), 8 ∣ (k0_mult16 v526).toNat := fun v526 k0_hw16 => k0_hw16.1
theorem k0_off17_inb : ∀ (v526 : BitVec 32) (k0_hw16 : k0_chk16 v526), ∀ a, (k0_off17 v526) a + S8x64.size a ≤ S1000000x64.size a := fun v526 k0_hw16 => k0_hw16.2

def k0_mult17 (v537 : BitVec 32) : BitVec 32 :=
  v537

def k0_off18 (v537 : BitVec 32) : Fin 2 → Nat :=
  let v538 : BitVec 32 := v537
  let c0_i32_246 : BitVec 32 := 0#32
  ![v538.toNat, 0]

def k0_chk17 (v537 : BitVec 32) : Prop :=
  (8 ∣ (k0_mult17 v537).toNat) ∧
  (∀ a, (k0_off18 v537) a + S8x64.size a ≤ S1000000x64.size a)
instance k0_chk17.dec : ∀ (v537 : BitVec 32), Decidable (k0_chk17 v537) := fun v537 => decidable_of_iff' _ (Iff.of_eq (k0_chk17.eq_1 v537))
theorem k0_mult17_dvd : ∀ (v537 : BitVec 32) (k0_hw17 : k0_chk17 v537), 8 ∣ (k0_mult17 v537).toNat := fun v537 k0_hw17 => k0_hw17.1
theorem k0_off18_inb : ∀ (v537 : BitVec 32) (k0_hw17 : k0_chk17 v537), ∀ a, (k0_off18 v537) a + S8x64.size a ≤ S1000000x64.size a := fun v537 k0_hw17 => k0_hw17.2

def k0_mult18 (v546 : BitVec 32) : BitVec 32 :=
  v546

def k0_off19 (v546 : BitVec 32) : Fin 2 → Nat :=
  let v547 : BitVec 32 := v546
  let c0_i32_254 : BitVec 32 := 0#32
  ![v547.toNat, 0]

def k0_chk18 (v546 : BitVec 32) : Prop :=
  (8 ∣ (k0_mult18 v546).toNat) ∧
  (∀ a, (k0_off19 v546) a + S8x64.size a ≤ S1000000x64.size a)
instance k0_chk18.dec : ∀ (v546 : BitVec 32), Decidable (k0_chk18 v546) := fun v546 => decidable_of_iff' _ (Iff.of_eq (k0_chk18.eq_1 v546))
theorem k0_mult18_dvd : ∀ (v546 : BitVec 32) (k0_hw18 : k0_chk18 v546), 8 ∣ (k0_mult18 v546).toNat := fun v546 k0_hw18 => k0_hw18.1
theorem k0_off19_inb : ∀ (v546 : BitVec 32) (k0_hw18 : k0_chk18 v546), ∀ a, (k0_off19 v546) a + S8x64.size a ≤ S1000000x64.size a := fun v546 k0_hw18 => k0_hw18.2

def k0_mult19 (v555 : BitVec 32) : BitVec 32 :=
  v555

def k0_off20 (v555 : BitVec 32) : Fin 2 → Nat :=
  let v556 : BitVec 32 := v555
  let c0_i32_262 : BitVec 32 := 0#32
  ![v556.toNat, 0]

def k0_chk19 (v555 : BitVec 32) : Prop :=
  (8 ∣ (k0_mult19 v555).toNat) ∧
  (∀ a, (k0_off20 v555) a + S8x64.size a ≤ S1000000x64.size a)
instance k0_chk19.dec : ∀ (v555 : BitVec 32), Decidable (k0_chk19 v555) := fun v555 => decidable_of_iff' _ (Iff.of_eq (k0_chk19.eq_1 v555))
theorem k0_mult19_dvd : ∀ (v555 : BitVec 32) (k0_hw19 : k0_chk19 v555), 8 ∣ (k0_mult19 v555).toNat := fun v555 k0_hw19 => k0_hw19.1
theorem k0_off20_inb : ∀ (v555 : BitVec 32) (k0_hw19 : k0_chk19 v555), ∀ a, (k0_off20 v555) a + S8x64.size a ≤ S1000000x64.size a := fun v555 k0_hw19 => k0_hw19.2

def k0_mult20 (v564 : BitVec 32) : BitVec 32 :=
  v564

def k0_off21 (v564 : BitVec 32) : Fin 2 → Nat :=
  let v565 : BitVec 32 := v564
  let c0_i32_270 : BitVec 32 := 0#32
  ![v565.toNat, 0]

def k0_chk20 (v564 : BitVec 32) : Prop :=
  (8 ∣ (k0_mult20 v564).toNat) ∧
  (∀ a, (k0_off21 v564) a + S8x64.size a ≤ S1000000x64.size a)
instance k0_chk20.dec : ∀ (v564 : BitVec 32), Decidable (k0_chk20 v564) := fun v564 => decidable_of_iff' _ (Iff.of_eq (k0_chk20.eq_1 v564))
theorem k0_mult20_dvd : ∀ (v564 : BitVec 32) (k0_hw20 : k0_chk20 v564), 8 ∣ (k0_mult20 v564).toNat := fun v564 k0_hw20 => k0_hw20.1
theorem k0_off21_inb : ∀ (v564 : BitVec 32) (k0_hw20 : k0_chk20 v564), ∀ a, (k0_off21 v564) a + S8x64.size a ≤ S1000000x64.size a := fun v564 k0_hw20 => k0_hw20.2

def k0_mult21 (v573 : BitVec 32) : BitVec 32 :=
  v573

def k0_off22 (v573 : BitVec 32) : Fin 2 → Nat :=
  let v574 : BitVec 32 := v573
  let c0_i32_278 : BitVec 32 := 0#32
  ![v574.toNat, 0]

def k0_chk21 (v573 : BitVec 32) : Prop :=
  (8 ∣ (k0_mult21 v573).toNat) ∧
  (∀ a, (k0_off22 v573) a + S8x64.size a ≤ S1000000x64.size a)
instance k0_chk21.dec : ∀ (v573 : BitVec 32), Decidable (k0_chk21 v573) := fun v573 => decidable_of_iff' _ (Iff.of_eq (k0_chk21.eq_1 v573))
theorem k0_mult21_dvd : ∀ (v573 : BitVec 32) (k0_hw21 : k0_chk21 v573), 8 ∣ (k0_mult21 v573).toNat := fun v573 k0_hw21 => k0_hw21.1
theorem k0_off22_inb : ∀ (v573 : BitVec 32) (k0_hw21 : k0_chk21 v573), ∀ a, (k0_off22 v573) a + S8x64.size a ≤ S1000000x64.size a := fun v573 k0_hw21 => k0_hw21.2

def k0_mult22 (v582 : BitVec 32) : BitVec 32 :=
  v582

def k0_off23 (v582 : BitVec 32) : Fin 2 → Nat :=
  let v583 : BitVec 32 := v582
  let c0_i32_286 : BitVec 32 := 0#32
  ![v583.toNat, 0]

def k0_chk22 (v582 : BitVec 32) : Prop :=
  (8 ∣ (k0_mult22 v582).toNat) ∧
  (∀ a, (k0_off23 v582) a + S8x64.size a ≤ S1000000x64.size a)
instance k0_chk22.dec : ∀ (v582 : BitVec 32), Decidable (k0_chk22 v582) := fun v582 => decidable_of_iff' _ (Iff.of_eq (k0_chk22.eq_1 v582))
theorem k0_mult22_dvd : ∀ (v582 : BitVec 32) (k0_hw22 : k0_chk22 v582), 8 ∣ (k0_mult22 v582).toNat := fun v582 k0_hw22 => k0_hw22.1
theorem k0_off23_inb : ∀ (v582 : BitVec 32) (k0_hw22 : k0_chk22 v582), ∀ a, (k0_off23 v582) a + S8x64.size a ≤ S1000000x64.size a := fun v582 k0_hw22 => k0_hw22.2

def k0_mult23 (v591 : BitVec 32) : BitVec 32 :=
  v591

def k0_off24 (v591 : BitVec 32) : Fin 2 → Nat :=
  let v592 : BitVec 32 := v591
  let c0_i32_294 : BitVec 32 := 0#32
  ![v592.toNat, 0]

def k0_chk23 (v591 : BitVec 32) : Prop :=
  (8 ∣ (k0_mult23 v591).toNat) ∧
  (∀ a, (k0_off24 v591) a + S8x64.size a ≤ S1000000x64.size a)
instance k0_chk23.dec : ∀ (v591 : BitVec 32), Decidable (k0_chk23 v591) := fun v591 => decidable_of_iff' _ (Iff.of_eq (k0_chk23.eq_1 v591))
theorem k0_mult23_dvd : ∀ (v591 : BitVec 32) (k0_hw23 : k0_chk23 v591), 8 ∣ (k0_mult23 v591).toNat := fun v591 k0_hw23 => k0_hw23.1
theorem k0_off24_inb : ∀ (v591 : BitVec 32) (k0_hw23 : k0_chk23 v591), ∀ a, (k0_off24 v591) a + S8x64.size a ≤ S1000000x64.size a := fun v591 k0_hw23 => k0_hw23.2

def k0_mult24 (v600 : BitVec 32) : BitVec 32 :=
  v600

def k0_off25 (v600 : BitVec 32) : Fin 2 → Nat :=
  let v601 : BitVec 32 := v600
  let c0_i32_302 : BitVec 32 := 0#32
  ![v601.toNat, 0]

def k0_chk24 (v600 : BitVec 32) : Prop :=
  (8 ∣ (k0_mult24 v600).toNat) ∧
  (∀ a, (k0_off25 v600) a + S8x64.size a ≤ S1000000x64.size a)
instance k0_chk24.dec : ∀ (v600 : BitVec 32), Decidable (k0_chk24 v600) := fun v600 => decidable_of_iff' _ (Iff.of_eq (k0_chk24.eq_1 v600))
theorem k0_mult24_dvd : ∀ (v600 : BitVec 32) (k0_hw24 : k0_chk24 v600), 8 ∣ (k0_mult24 v600).toNat := fun v600 k0_hw24 => k0_hw24.1
theorem k0_off25_inb : ∀ (v600 : BitVec 32) (k0_hw24 : k0_chk24 v600), ∀ a, (k0_off25 v600) a + S8x64.size a ≤ S1000000x64.size a := fun v600 k0_hw24 => k0_hw24.2

def k0_mult25 (v609 : BitVec 32) : BitVec 32 :=
  v609

def k0_off26 (v609 : BitVec 32) : Fin 2 → Nat :=
  let v610 : BitVec 32 := v609
  let c0_i32_310 : BitVec 32 := 0#32
  ![v610.toNat, 0]

def k0_chk25 (v609 : BitVec 32) : Prop :=
  (8 ∣ (k0_mult25 v609).toNat) ∧
  (∀ a, (k0_off26 v609) a + S8x64.size a ≤ S1000000x64.size a)
instance k0_chk25.dec : ∀ (v609 : BitVec 32), Decidable (k0_chk25 v609) := fun v609 => decidable_of_iff' _ (Iff.of_eq (k0_chk25.eq_1 v609))
theorem k0_mult25_dvd : ∀ (v609 : BitVec 32) (k0_hw25 : k0_chk25 v609), 8 ∣ (k0_mult25 v609).toNat := fun v609 k0_hw25 => k0_hw25.1
theorem k0_off26_inb : ∀ (v609 : BitVec 32) (k0_hw25 : k0_chk25 v609), ∀ a, (k0_off26 v609) a + S8x64.size a ≤ S1000000x64.size a := fun v609 k0_hw25 => k0_hw25.2

def k0_mult26 (v618 : BitVec 32) : BitVec 32 :=
  v618

def k0_off27 (v618 : BitVec 32) : Fin 2 → Nat :=
  let v619 : BitVec 32 := v618
  let c0_i32_318 : BitVec 32 := 0#32
  ![v619.toNat, 0]

def k0_chk26 (v618 : BitVec 32) : Prop :=
  (8 ∣ (k0_mult26 v618).toNat) ∧
  (∀ a, (k0_off27 v618) a + S8x64.size a ≤ S1000000x64.size a)
instance k0_chk26.dec : ∀ (v618 : BitVec 32), Decidable (k0_chk26 v618) := fun v618 => decidable_of_iff' _ (Iff.of_eq (k0_chk26.eq_1 v618))
theorem k0_mult26_dvd : ∀ (v618 : BitVec 32) (k0_hw26 : k0_chk26 v618), 8 ∣ (k0_mult26 v618).toNat := fun v618 k0_hw26 => k0_hw26.1
theorem k0_off27_inb : ∀ (v618 : BitVec 32) (k0_hw26 : k0_chk26 v618), ∀ a, (k0_off27 v618) a + S8x64.size a ≤ S1000000x64.size a := fun v618 k0_hw26 => k0_hw26.2

def k0_mult27 (v627 : BitVec 32) : BitVec 32 :=
  v627

def k0_off28 (v627 : BitVec 32) : Fin 2 → Nat :=
  let v628 : BitVec 32 := v627
  let c0_i32_326 : BitVec 32 := 0#32
  ![v628.toNat, 0]

def k0_chk27 (v627 : BitVec 32) : Prop :=
  (8 ∣ (k0_mult27 v627).toNat) ∧
  (∀ a, (k0_off28 v627) a + S8x64.size a ≤ S1000000x64.size a)
instance k0_chk27.dec : ∀ (v627 : BitVec 32), Decidable (k0_chk27 v627) := fun v627 => decidable_of_iff' _ (Iff.of_eq (k0_chk27.eq_1 v627))
theorem k0_mult27_dvd : ∀ (v627 : BitVec 32) (k0_hw27 : k0_chk27 v627), 8 ∣ (k0_mult27 v627).toNat := fun v627 k0_hw27 => k0_hw27.1
theorem k0_off28_inb : ∀ (v627 : BitVec 32) (k0_hw27 : k0_chk27 v627), ∀ a, (k0_off28 v627) a + S8x64.size a ≤ S1000000x64.size a := fun v627 k0_hw27 => k0_hw27.2

def k0_mult28 (v636 : BitVec 32) : BitVec 32 :=
  v636

def k0_off29 (v636 : BitVec 32) : Fin 2 → Nat :=
  let v637 : BitVec 32 := v636
  let c0_i32_334 : BitVec 32 := 0#32
  ![v637.toNat, 0]

def k0_chk28 (v636 : BitVec 32) : Prop :=
  (8 ∣ (k0_mult28 v636).toNat) ∧
  (∀ a, (k0_off29 v636) a + S8x64.size a ≤ S1000000x64.size a)
instance k0_chk28.dec : ∀ (v636 : BitVec 32), Decidable (k0_chk28 v636) := fun v636 => decidable_of_iff' _ (Iff.of_eq (k0_chk28.eq_1 v636))
theorem k0_mult28_dvd : ∀ (v636 : BitVec 32) (k0_hw28 : k0_chk28 v636), 8 ∣ (k0_mult28 v636).toNat := fun v636 k0_hw28 => k0_hw28.1
theorem k0_off29_inb : ∀ (v636 : BitVec 32) (k0_hw28 : k0_chk28 v636), ∀ a, (k0_off29 v636) a + S8x64.size a ≤ S1000000x64.size a := fun v636 k0_hw28 => k0_hw28.2

def k0_mult29 (v645 : BitVec 32) : BitVec 32 :=
  v645

def k0_off30 (v645 : BitVec 32) : Fin 2 → Nat :=
  let v646 : BitVec 32 := v645
  let c0_i32_342 : BitVec 32 := 0#32
  ![v646.toNat, 0]

def k0_chk29 (v645 : BitVec 32) : Prop :=
  (8 ∣ (k0_mult29 v645).toNat) ∧
  (∀ a, (k0_off30 v645) a + S8x64.size a ≤ S1000000x64.size a)
instance k0_chk29.dec : ∀ (v645 : BitVec 32), Decidable (k0_chk29 v645) := fun v645 => decidable_of_iff' _ (Iff.of_eq (k0_chk29.eq_1 v645))
theorem k0_mult29_dvd : ∀ (v645 : BitVec 32) (k0_hw29 : k0_chk29 v645), 8 ∣ (k0_mult29 v645).toNat := fun v645 k0_hw29 => k0_hw29.1
theorem k0_off30_inb : ∀ (v645 : BitVec 32) (k0_hw29 : k0_chk29 v645), ∀ a, (k0_off30 v645) a + S8x64.size a ≤ S1000000x64.size a := fun v645 k0_hw29 => k0_hw29.2

def k0_mult30 (v654 : BitVec 32) : BitVec 32 :=
  v654

def k0_off31 (v654 : BitVec 32) : Fin 2 → Nat :=
  let v655 : BitVec 32 := v654
  let c0_i32_350 : BitVec 32 := 0#32
  ![v655.toNat, 0]

def k0_chk30 (v654 : BitVec 32) : Prop :=
  (8 ∣ (k0_mult30 v654).toNat) ∧
  (∀ a, (k0_off31 v654) a + S8x64.size a ≤ S1000000x64.size a)
instance k0_chk30.dec : ∀ (v654 : BitVec 32), Decidable (k0_chk30 v654) := fun v654 => decidable_of_iff' _ (Iff.of_eq (k0_chk30.eq_1 v654))
theorem k0_mult30_dvd : ∀ (v654 : BitVec 32) (k0_hw30 : k0_chk30 v654), 8 ∣ (k0_mult30 v654).toNat := fun v654 k0_hw30 => k0_hw30.1
theorem k0_off31_inb : ∀ (v654 : BitVec 32) (k0_hw30 : k0_chk30 v654), ∀ a, (k0_off31 v654) a + S8x64.size a ≤ S1000000x64.size a := fun v654 k0_hw30 => k0_hw30.2

def k0_mult31 (v663 : BitVec 32) : BitVec 32 :=
  v663

def k0_off32 (v663 : BitVec 32) : Fin 2 → Nat :=
  let v664 : BitVec 32 := v663
  let c0_i32_358 : BitVec 32 := 0#32
  ![v664.toNat, 0]

def k0_chk31 (v663 : BitVec 32) : Prop :=
  (8 ∣ (k0_mult31 v663).toNat) ∧
  (∀ a, (k0_off32 v663) a + S8x64.size a ≤ S1000000x64.size a)
instance k0_chk31.dec : ∀ (v663 : BitVec 32), Decidable (k0_chk31 v663) := fun v663 => decidable_of_iff' _ (Iff.of_eq (k0_chk31.eq_1 v663))
theorem k0_mult31_dvd : ∀ (v663 : BitVec 32) (k0_hw31 : k0_chk31 v663), 8 ∣ (k0_mult31 v663).toNat := fun v663 k0_hw31 => k0_hw31.1
theorem k0_off32_inb : ∀ (v663 : BitVec 32) (k0_hw31 : k0_chk31 v663), ∀ a, (k0_off32 v663) a + S8x64.size a ≤ S1000000x64.size a := fun v663 k0_hw31 => k0_hw31.2

def k0_mult32 (v672 : BitVec 32) : BitVec 32 :=
  v672

def k0_off33 (v672 : BitVec 32) : Fin 2 → Nat :=
  let v673 : BitVec 32 := v672
  let c0_i32_366 : BitVec 32 := 0#32
  ![v673.toNat, 0]

def k0_chk32 (v672 : BitVec 32) : Prop :=
  (8 ∣ (k0_mult32 v672).toNat) ∧
  (∀ a, (k0_off33 v672) a + S8x64.size a ≤ S1000000x64.size a)
instance k0_chk32.dec : ∀ (v672 : BitVec 32), Decidable (k0_chk32 v672) := fun v672 => decidable_of_iff' _ (Iff.of_eq (k0_chk32.eq_1 v672))
theorem k0_mult32_dvd : ∀ (v672 : BitVec 32) (k0_hw32 : k0_chk32 v672), 8 ∣ (k0_mult32 v672).toNat := fun v672 k0_hw32 => k0_hw32.1
theorem k0_off33_inb : ∀ (v672 : BitVec 32) (k0_hw32 : k0_chk32 v672), ∀ a, (k0_off33 v672) a + S8x64.size a ≤ S1000000x64.size a := fun v672 k0_hw32 => k0_hw32.2

@[reducible] def k0_t1_loop : Scf.Loop 32 :=
  let c0_i32_371 : BitVec 32 := 0#32
  let c16_i32 : BitVec 32 := 16#32
  let v680 : BitVec 32 := Scalar.addi c0_i32_371 c16_i32
  let c1_i32_372 : BitVec 32 := 1#32
  ⟨c0_i32_371, v680, c1_i32_372⟩
def k0_off34 (k0_t1 : Fin k0_t1_loop.trips) : Fin 1 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_535 : BitVec 32 := 16#32
  let v778 : BitVec 32 := Scalar.muli v681 c16_i32_535
  let v779 : Index := Scalar.indexCast v778
  ![v779.toNat]
def k0_off35 (v783 : BitVec 32) : Fin 4 → Nat :=
  let c0_i32_538 : BitVec 32 := 0#32
  let v786 : Index := Scalar.indexCast c0_i32_538
  let c0_i32_539 : BitVec 32 := 0#32
  let v787 : Index := Scalar.indexCast c0_i32_539
  let v788 : Index := Scalar.indexCast v783
  let c0_540 : Index := 0#32
  ![0, 0, v788.toNat, 0]

def k0_off36 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_536 : BitVec 32 := 16#32
  let v784 : BitVec 32 := Scalar.muli v681 c16_i32_536
  let c0_i32_537 : BitVec 32 := 0#32
  let v785 : BitVec 32 := Scalar.addi v784 c0_i32_537
  let v791 : Index := Scalar.indexCast v785
  let c0_541 : Index := 0#32
  ![v791.toNat, 0]
def k0_off37 (v783 : BitVec 32) : Fin 4 → Nat :=
  let c0_i32_542 : BitVec 32 := 0#32
  let v795 : Index := Scalar.indexCast c0_i32_542
  let c0_i32_543 : BitVec 32 := 0#32
  let v796 : Index := Scalar.indexCast c0_i32_543
  let v797 : Index := Scalar.indexCast v783
  let c16_544 : Index := 16#32
  ![0, 0, v797.toNat, 16]
def k0_off38 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_536 : BitVec 32 := 16#32
  let v784 : BitVec 32 := Scalar.muli v681 c16_i32_536
  let c0_i32_537 : BitVec 32 := 0#32
  let v785 : BitVec 32 := Scalar.addi v784 c0_i32_537
  let v800 : Index := Scalar.indexCast v785
  let c16_545 : Index := 16#32
  ![v800.toNat, 16]
def k0_off39 (v783 : BitVec 32) : Fin 4 → Nat :=
  let c0_i32_546 : BitVec 32 := 0#32
  let v804 : Index := Scalar.indexCast c0_i32_546
  let c0_i32_547 : BitVec 32 := 0#32
  let v805 : Index := Scalar.indexCast c0_i32_547
  let v806 : Index := Scalar.indexCast v783
  let c32_548 : Index := 32#32
  ![0, 0, v806.toNat, 32]
def k0_off40 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_536 : BitVec 32 := 16#32
  let v784 : BitVec 32 := Scalar.muli v681 c16_i32_536
  let c0_i32_537 : BitVec 32 := 0#32
  let v785 : BitVec 32 := Scalar.addi v784 c0_i32_537
  let v809 : Index := Scalar.indexCast v785
  let c32_549 : Index := 32#32
  ![v809.toNat, 32]
def k0_off41 (v783 : BitVec 32) : Fin 4 → Nat :=
  let c0_i32_550 : BitVec 32 := 0#32
  let v813 : Index := Scalar.indexCast c0_i32_550
  let c0_i32_551 : BitVec 32 := 0#32
  let v814 : Index := Scalar.indexCast c0_i32_551
  let v815 : Index := Scalar.indexCast v783
  let c48_552 : Index := 48#32
  ![0, 0, v815.toNat, 48]

def k0_chk33 (v783 : BitVec 32) : Prop :=
  (∀ a, (k0_off35 v783) a + S1x1x1x16.size a ≤ S2x16x8x64.size a) ∧
  (∀ a, (k0_off37 v783) a + S1x1x1x16.size a ≤ S2x16x8x64.size a) ∧
  (∀ a, (k0_off39 v783) a + S1x1x1x16.size a ≤ S2x16x8x64.size a) ∧
  (∀ a, (k0_off41 v783) a + S1x1x1x16.size a ≤ S2x16x8x64.size a)
instance k0_chk33.dec : ∀ (v783 : BitVec 32), Decidable (k0_chk33 v783) := fun v783 => decidable_of_iff' _ (Iff.of_eq (k0_chk33.eq_1 v783))
theorem k0_off35_inb : ∀ (v783 : BitVec 32) (k0_hw33 : k0_chk33 v783), ∀ a, (k0_off35 v783) a + S1x1x1x16.size a ≤ S2x16x8x64.size a := fun v783 k0_hw33 => k0_hw33.1
theorem k0_off37_inb : ∀ (v783 : BitVec 32) (k0_hw33 : k0_chk33 v783), ∀ a, (k0_off37 v783) a + S1x1x1x16.size a ≤ S2x16x8x64.size a := fun v783 k0_hw33 => k0_hw33.2.1
theorem k0_off39_inb : ∀ (v783 : BitVec 32) (k0_hw33 : k0_chk33 v783), ∀ a, (k0_off39 v783) a + S1x1x1x16.size a ≤ S2x16x8x64.size a := fun v783 k0_hw33 => k0_hw33.2.2.1
theorem k0_off41_inb : ∀ (v783 : BitVec 32) (k0_hw33 : k0_chk33 v783), ∀ a, (k0_off41 v783) a + S1x1x1x16.size a ≤ S2x16x8x64.size a := fun v783 k0_hw33 => k0_hw33.2.2.2

def k0_off42 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_536 : BitVec 32 := 16#32
  let v784 : BitVec 32 := Scalar.muli v681 c16_i32_536
  let c0_i32_537 : BitVec 32 := 0#32
  let v785 : BitVec 32 := Scalar.addi v784 c0_i32_537
  let v818 : Index := Scalar.indexCast v785
  let c48_553 : Index := 48#32
  ![v818.toNat, 48]
def k0_off43 (v823 : BitVec 32) : Fin 4 → Nat :=
  let c0_i32_556 : BitVec 32 := 0#32
  let v826 : Index := Scalar.indexCast c0_i32_556
  let c1_i32_557 : BitVec 32 := 1#32
  let v827 : Index := Scalar.indexCast c1_i32_557
  let v828 : Index := Scalar.indexCast v823
  let c0_558 : Index := 0#32
  ![0, 1, v828.toNat, 0]

def k0_off44 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_554 : BitVec 32 := 16#32
  let v824 : BitVec 32 := Scalar.muli v681 c16_i32_554
  let c1_i32_555 : BitVec 32 := 1#32
  let v825 : BitVec 32 := Scalar.addi v824 c1_i32_555
  let v831 : Index := Scalar.indexCast v825
  let c0_559 : Index := 0#32
  ![v831.toNat, 0]
def k0_off45 (v823 : BitVec 32) : Fin 4 → Nat :=
  let c0_i32_560 : BitVec 32 := 0#32
  let v835 : Index := Scalar.indexCast c0_i32_560
  let c1_i32_561 : BitVec 32 := 1#32
  let v836 : Index := Scalar.indexCast c1_i32_561
  let v837 : Index := Scalar.indexCast v823
  let c16_562 : Index := 16#32
  ![0, 1, v837.toNat, 16]
def k0_off46 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_554 : BitVec 32 := 16#32
  let v824 : BitVec 32 := Scalar.muli v681 c16_i32_554
  let c1_i32_555 : BitVec 32 := 1#32
  let v825 : BitVec 32 := Scalar.addi v824 c1_i32_555
  let v840 : Index := Scalar.indexCast v825
  let c16_563 : Index := 16#32
  ![v840.toNat, 16]
def k0_off47 (v823 : BitVec 32) : Fin 4 → Nat :=
  let c0_i32_564 : BitVec 32 := 0#32
  let v844 : Index := Scalar.indexCast c0_i32_564
  let c1_i32_565 : BitVec 32 := 1#32
  let v845 : Index := Scalar.indexCast c1_i32_565
  let v846 : Index := Scalar.indexCast v823
  let c32_566 : Index := 32#32
  ![0, 1, v846.toNat, 32]
def k0_off48 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_554 : BitVec 32 := 16#32
  let v824 : BitVec 32 := Scalar.muli v681 c16_i32_554
  let c1_i32_555 : BitVec 32 := 1#32
  let v825 : BitVec 32 := Scalar.addi v824 c1_i32_555
  let v849 : Index := Scalar.indexCast v825
  let c32_567 : Index := 32#32
  ![v849.toNat, 32]
def k0_off49 (v823 : BitVec 32) : Fin 4 → Nat :=
  let c0_i32_568 : BitVec 32 := 0#32
  let v853 : Index := Scalar.indexCast c0_i32_568
  let c1_i32_569 : BitVec 32 := 1#32
  let v854 : Index := Scalar.indexCast c1_i32_569
  let v855 : Index := Scalar.indexCast v823
  let c48_570 : Index := 48#32
  ![0, 1, v855.toNat, 48]

def k0_chk34 (v823 : BitVec 32) : Prop :=
  (∀ a, (k0_off43 v823) a + S1x1x1x16.size a ≤ S2x16x8x64.size a) ∧
  (∀ a, (k0_off45 v823) a + S1x1x1x16.size a ≤ S2x16x8x64.size a) ∧
  (∀ a, (k0_off47 v823) a + S1x1x1x16.size a ≤ S2x16x8x64.size a) ∧
  (∀ a, (k0_off49 v823) a + S1x1x1x16.size a ≤ S2x16x8x64.size a)
instance k0_chk34.dec : ∀ (v823 : BitVec 32), Decidable (k0_chk34 v823) := fun v823 => decidable_of_iff' _ (Iff.of_eq (k0_chk34.eq_1 v823))
theorem k0_off43_inb : ∀ (v823 : BitVec 32) (k0_hw34 : k0_chk34 v823), ∀ a, (k0_off43 v823) a + S1x1x1x16.size a ≤ S2x16x8x64.size a := fun v823 k0_hw34 => k0_hw34.1
theorem k0_off45_inb : ∀ (v823 : BitVec 32) (k0_hw34 : k0_chk34 v823), ∀ a, (k0_off45 v823) a + S1x1x1x16.size a ≤ S2x16x8x64.size a := fun v823 k0_hw34 => k0_hw34.2.1
theorem k0_off47_inb : ∀ (v823 : BitVec 32) (k0_hw34 : k0_chk34 v823), ∀ a, (k0_off47 v823) a + S1x1x1x16.size a ≤ S2x16x8x64.size a := fun v823 k0_hw34 => k0_hw34.2.2.1
theorem k0_off49_inb : ∀ (v823 : BitVec 32) (k0_hw34 : k0_chk34 v823), ∀ a, (k0_off49 v823) a + S1x1x1x16.size a ≤ S2x16x8x64.size a := fun v823 k0_hw34 => k0_hw34.2.2.2

def k0_off50 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_554 : BitVec 32 := 16#32
  let v824 : BitVec 32 := Scalar.muli v681 c16_i32_554
  let c1_i32_555 : BitVec 32 := 1#32
  let v825 : BitVec 32 := Scalar.addi v824 c1_i32_555
  let v858 : Index := Scalar.indexCast v825
  let c48_571 : Index := 48#32
  ![v858.toNat, 48]
def k0_off51 (v863 : BitVec 32) : Fin 4 → Nat :=
  let c0_i32_574 : BitVec 32 := 0#32
  let v866 : Index := Scalar.indexCast c0_i32_574
  let c2_i32_575 : BitVec 32 := 2#32
  let v867 : Index := Scalar.indexCast c2_i32_575
  let v868 : Index := Scalar.indexCast v863
  let c0_576 : Index := 0#32
  ![0, 2, v868.toNat, 0]

def k0_off52 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_572 : BitVec 32 := 16#32
  let v864 : BitVec 32 := Scalar.muli v681 c16_i32_572
  let c2_i32_573 : BitVec 32 := 2#32
  let v865 : BitVec 32 := Scalar.addi v864 c2_i32_573
  let v871 : Index := Scalar.indexCast v865
  let c0_577 : Index := 0#32
  ![v871.toNat, 0]
def k0_off53 (v863 : BitVec 32) : Fin 4 → Nat :=
  let c0_i32_578 : BitVec 32 := 0#32
  let v875 : Index := Scalar.indexCast c0_i32_578
  let c2_i32_579 : BitVec 32 := 2#32
  let v876 : Index := Scalar.indexCast c2_i32_579
  let v877 : Index := Scalar.indexCast v863
  let c16_580 : Index := 16#32
  ![0, 2, v877.toNat, 16]
def k0_off54 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_572 : BitVec 32 := 16#32
  let v864 : BitVec 32 := Scalar.muli v681 c16_i32_572
  let c2_i32_573 : BitVec 32 := 2#32
  let v865 : BitVec 32 := Scalar.addi v864 c2_i32_573
  let v880 : Index := Scalar.indexCast v865
  let c16_581 : Index := 16#32
  ![v880.toNat, 16]
def k0_off55 (v863 : BitVec 32) : Fin 4 → Nat :=
  let c0_i32_582 : BitVec 32 := 0#32
  let v884 : Index := Scalar.indexCast c0_i32_582
  let c2_i32_583 : BitVec 32 := 2#32
  let v885 : Index := Scalar.indexCast c2_i32_583
  let v886 : Index := Scalar.indexCast v863
  let c32_584 : Index := 32#32
  ![0, 2, v886.toNat, 32]
def k0_off56 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_572 : BitVec 32 := 16#32
  let v864 : BitVec 32 := Scalar.muli v681 c16_i32_572
  let c2_i32_573 : BitVec 32 := 2#32
  let v865 : BitVec 32 := Scalar.addi v864 c2_i32_573
  let v889 : Index := Scalar.indexCast v865
  let c32_585 : Index := 32#32
  ![v889.toNat, 32]
def k0_off57 (v863 : BitVec 32) : Fin 4 → Nat :=
  let c0_i32_586 : BitVec 32 := 0#32
  let v893 : Index := Scalar.indexCast c0_i32_586
  let c2_i32_587 : BitVec 32 := 2#32
  let v894 : Index := Scalar.indexCast c2_i32_587
  let v895 : Index := Scalar.indexCast v863
  let c48_588 : Index := 48#32
  ![0, 2, v895.toNat, 48]

def k0_chk35 (v863 : BitVec 32) : Prop :=
  (∀ a, (k0_off51 v863) a + S1x1x1x16.size a ≤ S2x16x8x64.size a) ∧
  (∀ a, (k0_off53 v863) a + S1x1x1x16.size a ≤ S2x16x8x64.size a) ∧
  (∀ a, (k0_off55 v863) a + S1x1x1x16.size a ≤ S2x16x8x64.size a) ∧
  (∀ a, (k0_off57 v863) a + S1x1x1x16.size a ≤ S2x16x8x64.size a)
instance k0_chk35.dec : ∀ (v863 : BitVec 32), Decidable (k0_chk35 v863) := fun v863 => decidable_of_iff' _ (Iff.of_eq (k0_chk35.eq_1 v863))
theorem k0_off51_inb : ∀ (v863 : BitVec 32) (k0_hw35 : k0_chk35 v863), ∀ a, (k0_off51 v863) a + S1x1x1x16.size a ≤ S2x16x8x64.size a := fun v863 k0_hw35 => k0_hw35.1
theorem k0_off53_inb : ∀ (v863 : BitVec 32) (k0_hw35 : k0_chk35 v863), ∀ a, (k0_off53 v863) a + S1x1x1x16.size a ≤ S2x16x8x64.size a := fun v863 k0_hw35 => k0_hw35.2.1
theorem k0_off55_inb : ∀ (v863 : BitVec 32) (k0_hw35 : k0_chk35 v863), ∀ a, (k0_off55 v863) a + S1x1x1x16.size a ≤ S2x16x8x64.size a := fun v863 k0_hw35 => k0_hw35.2.2.1
theorem k0_off57_inb : ∀ (v863 : BitVec 32) (k0_hw35 : k0_chk35 v863), ∀ a, (k0_off57 v863) a + S1x1x1x16.size a ≤ S2x16x8x64.size a := fun v863 k0_hw35 => k0_hw35.2.2.2

def k0_off58 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_572 : BitVec 32 := 16#32
  let v864 : BitVec 32 := Scalar.muli v681 c16_i32_572
  let c2_i32_573 : BitVec 32 := 2#32
  let v865 : BitVec 32 := Scalar.addi v864 c2_i32_573
  let v898 : Index := Scalar.indexCast v865
  let c48_589 : Index := 48#32
  ![v898.toNat, 48]
def k0_off59 (v903 : BitVec 32) : Fin 4 → Nat :=
  let c0_i32_592 : BitVec 32 := 0#32
  let v906 : Index := Scalar.indexCast c0_i32_592
  let c3_i32_593 : BitVec 32 := 3#32
  let v907 : Index := Scalar.indexCast c3_i32_593
  let v908 : Index := Scalar.indexCast v903
  let c0_594 : Index := 0#32
  ![0, 3, v908.toNat, 0]

def k0_off60 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_590 : BitVec 32 := 16#32
  let v904 : BitVec 32 := Scalar.muli v681 c16_i32_590
  let c3_i32_591 : BitVec 32 := 3#32
  let v905 : BitVec 32 := Scalar.addi v904 c3_i32_591
  let v911 : Index := Scalar.indexCast v905
  let c0_595 : Index := 0#32
  ![v911.toNat, 0]
def k0_off61 (v903 : BitVec 32) : Fin 4 → Nat :=
  let c0_i32_596 : BitVec 32 := 0#32
  let v915 : Index := Scalar.indexCast c0_i32_596
  let c3_i32_597 : BitVec 32 := 3#32
  let v916 : Index := Scalar.indexCast c3_i32_597
  let v917 : Index := Scalar.indexCast v903
  let c16_598 : Index := 16#32
  ![0, 3, v917.toNat, 16]
def k0_off62 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_590 : BitVec 32 := 16#32
  let v904 : BitVec 32 := Scalar.muli v681 c16_i32_590
  let c3_i32_591 : BitVec 32 := 3#32
  let v905 : BitVec 32 := Scalar.addi v904 c3_i32_591
  let v920 : Index := Scalar.indexCast v905
  let c16_599 : Index := 16#32
  ![v920.toNat, 16]
def k0_off63 (v903 : BitVec 32) : Fin 4 → Nat :=
  let c0_i32_600 : BitVec 32 := 0#32
  let v924 : Index := Scalar.indexCast c0_i32_600
  let c3_i32_601 : BitVec 32 := 3#32
  let v925 : Index := Scalar.indexCast c3_i32_601
  let v926 : Index := Scalar.indexCast v903
  let c32_602 : Index := 32#32
  ![0, 3, v926.toNat, 32]
def k0_off64 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_590 : BitVec 32 := 16#32
  let v904 : BitVec 32 := Scalar.muli v681 c16_i32_590
  let c3_i32_591 : BitVec 32 := 3#32
  let v905 : BitVec 32 := Scalar.addi v904 c3_i32_591
  let v929 : Index := Scalar.indexCast v905
  let c32_603 : Index := 32#32
  ![v929.toNat, 32]
def k0_off65 (v903 : BitVec 32) : Fin 4 → Nat :=
  let c0_i32_604 : BitVec 32 := 0#32
  let v933 : Index := Scalar.indexCast c0_i32_604
  let c3_i32_605 : BitVec 32 := 3#32
  let v934 : Index := Scalar.indexCast c3_i32_605
  let v935 : Index := Scalar.indexCast v903
  let c48_606 : Index := 48#32
  ![0, 3, v935.toNat, 48]

def k0_chk36 (v903 : BitVec 32) : Prop :=
  (∀ a, (k0_off59 v903) a + S1x1x1x16.size a ≤ S2x16x8x64.size a) ∧
  (∀ a, (k0_off61 v903) a + S1x1x1x16.size a ≤ S2x16x8x64.size a) ∧
  (∀ a, (k0_off63 v903) a + S1x1x1x16.size a ≤ S2x16x8x64.size a) ∧
  (∀ a, (k0_off65 v903) a + S1x1x1x16.size a ≤ S2x16x8x64.size a)
instance k0_chk36.dec : ∀ (v903 : BitVec 32), Decidable (k0_chk36 v903) := fun v903 => decidable_of_iff' _ (Iff.of_eq (k0_chk36.eq_1 v903))
theorem k0_off59_inb : ∀ (v903 : BitVec 32) (k0_hw36 : k0_chk36 v903), ∀ a, (k0_off59 v903) a + S1x1x1x16.size a ≤ S2x16x8x64.size a := fun v903 k0_hw36 => k0_hw36.1
theorem k0_off61_inb : ∀ (v903 : BitVec 32) (k0_hw36 : k0_chk36 v903), ∀ a, (k0_off61 v903) a + S1x1x1x16.size a ≤ S2x16x8x64.size a := fun v903 k0_hw36 => k0_hw36.2.1
theorem k0_off63_inb : ∀ (v903 : BitVec 32) (k0_hw36 : k0_chk36 v903), ∀ a, (k0_off63 v903) a + S1x1x1x16.size a ≤ S2x16x8x64.size a := fun v903 k0_hw36 => k0_hw36.2.2.1
theorem k0_off65_inb : ∀ (v903 : BitVec 32) (k0_hw36 : k0_chk36 v903), ∀ a, (k0_off65 v903) a + S1x1x1x16.size a ≤ S2x16x8x64.size a := fun v903 k0_hw36 => k0_hw36.2.2.2

def k0_off66 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_590 : BitVec 32 := 16#32
  let v904 : BitVec 32 := Scalar.muli v681 c16_i32_590
  let c3_i32_591 : BitVec 32 := 3#32
  let v905 : BitVec 32 := Scalar.addi v904 c3_i32_591
  let v938 : Index := Scalar.indexCast v905
  let c48_607 : Index := 48#32
  ![v938.toNat, 48]
def k0_off67 (v943 : BitVec 32) : Fin 4 → Nat :=
  let c0_i32_610 : BitVec 32 := 0#32
  let v946 : Index := Scalar.indexCast c0_i32_610
  let c4_i32_611 : BitVec 32 := 4#32
  let v947 : Index := Scalar.indexCast c4_i32_611
  let v948 : Index := Scalar.indexCast v943
  let c0_612 : Index := 0#32
  ![0, 4, v948.toNat, 0]

def k0_off68 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_608 : BitVec 32 := 16#32
  let v944 : BitVec 32 := Scalar.muli v681 c16_i32_608
  let c4_i32_609 : BitVec 32 := 4#32
  let v945 : BitVec 32 := Scalar.addi v944 c4_i32_609
  let v951 : Index := Scalar.indexCast v945
  let c0_613 : Index := 0#32
  ![v951.toNat, 0]
def k0_off69 (v943 : BitVec 32) : Fin 4 → Nat :=
  let c0_i32_614 : BitVec 32 := 0#32
  let v955 : Index := Scalar.indexCast c0_i32_614
  let c4_i32_615 : BitVec 32 := 4#32
  let v956 : Index := Scalar.indexCast c4_i32_615
  let v957 : Index := Scalar.indexCast v943
  let c16_616 : Index := 16#32
  ![0, 4, v957.toNat, 16]
def k0_off70 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_608 : BitVec 32 := 16#32
  let v944 : BitVec 32 := Scalar.muli v681 c16_i32_608
  let c4_i32_609 : BitVec 32 := 4#32
  let v945 : BitVec 32 := Scalar.addi v944 c4_i32_609
  let v960 : Index := Scalar.indexCast v945
  let c16_617 : Index := 16#32
  ![v960.toNat, 16]
def k0_off71 (v943 : BitVec 32) : Fin 4 → Nat :=
  let c0_i32_618 : BitVec 32 := 0#32
  let v964 : Index := Scalar.indexCast c0_i32_618
  let c4_i32_619 : BitVec 32 := 4#32
  let v965 : Index := Scalar.indexCast c4_i32_619
  let v966 : Index := Scalar.indexCast v943
  let c32_620 : Index := 32#32
  ![0, 4, v966.toNat, 32]
def k0_off72 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_608 : BitVec 32 := 16#32
  let v944 : BitVec 32 := Scalar.muli v681 c16_i32_608
  let c4_i32_609 : BitVec 32 := 4#32
  let v945 : BitVec 32 := Scalar.addi v944 c4_i32_609
  let v969 : Index := Scalar.indexCast v945
  let c32_621 : Index := 32#32
  ![v969.toNat, 32]
def k0_off73 (v943 : BitVec 32) : Fin 4 → Nat :=
  let c0_i32_622 : BitVec 32 := 0#32
  let v973 : Index := Scalar.indexCast c0_i32_622
  let c4_i32_623 : BitVec 32 := 4#32
  let v974 : Index := Scalar.indexCast c4_i32_623
  let v975 : Index := Scalar.indexCast v943
  let c48_624 : Index := 48#32
  ![0, 4, v975.toNat, 48]

def k0_chk37 (v943 : BitVec 32) : Prop :=
  (∀ a, (k0_off67 v943) a + S1x1x1x16.size a ≤ S2x16x8x64.size a) ∧
  (∀ a, (k0_off69 v943) a + S1x1x1x16.size a ≤ S2x16x8x64.size a) ∧
  (∀ a, (k0_off71 v943) a + S1x1x1x16.size a ≤ S2x16x8x64.size a) ∧
  (∀ a, (k0_off73 v943) a + S1x1x1x16.size a ≤ S2x16x8x64.size a)
instance k0_chk37.dec : ∀ (v943 : BitVec 32), Decidable (k0_chk37 v943) := fun v943 => decidable_of_iff' _ (Iff.of_eq (k0_chk37.eq_1 v943))
theorem k0_off67_inb : ∀ (v943 : BitVec 32) (k0_hw37 : k0_chk37 v943), ∀ a, (k0_off67 v943) a + S1x1x1x16.size a ≤ S2x16x8x64.size a := fun v943 k0_hw37 => k0_hw37.1
theorem k0_off69_inb : ∀ (v943 : BitVec 32) (k0_hw37 : k0_chk37 v943), ∀ a, (k0_off69 v943) a + S1x1x1x16.size a ≤ S2x16x8x64.size a := fun v943 k0_hw37 => k0_hw37.2.1
theorem k0_off71_inb : ∀ (v943 : BitVec 32) (k0_hw37 : k0_chk37 v943), ∀ a, (k0_off71 v943) a + S1x1x1x16.size a ≤ S2x16x8x64.size a := fun v943 k0_hw37 => k0_hw37.2.2.1
theorem k0_off73_inb : ∀ (v943 : BitVec 32) (k0_hw37 : k0_chk37 v943), ∀ a, (k0_off73 v943) a + S1x1x1x16.size a ≤ S2x16x8x64.size a := fun v943 k0_hw37 => k0_hw37.2.2.2

def k0_off74 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_608 : BitVec 32 := 16#32
  let v944 : BitVec 32 := Scalar.muli v681 c16_i32_608
  let c4_i32_609 : BitVec 32 := 4#32
  let v945 : BitVec 32 := Scalar.addi v944 c4_i32_609
  let v978 : Index := Scalar.indexCast v945
  let c48_625 : Index := 48#32
  ![v978.toNat, 48]
def k0_off75 (v983 : BitVec 32) : Fin 4 → Nat :=
  let c0_i32_628 : BitVec 32 := 0#32
  let v986 : Index := Scalar.indexCast c0_i32_628
  let c5_i32_629 : BitVec 32 := 5#32
  let v987 : Index := Scalar.indexCast c5_i32_629
  let v988 : Index := Scalar.indexCast v983
  let c0_630 : Index := 0#32
  ![0, 5, v988.toNat, 0]

def k0_off76 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_626 : BitVec 32 := 16#32
  let v984 : BitVec 32 := Scalar.muli v681 c16_i32_626
  let c5_i32_627 : BitVec 32 := 5#32
  let v985 : BitVec 32 := Scalar.addi v984 c5_i32_627
  let v991 : Index := Scalar.indexCast v985
  let c0_631 : Index := 0#32
  ![v991.toNat, 0]
def k0_off77 (v983 : BitVec 32) : Fin 4 → Nat :=
  let c0_i32_632 : BitVec 32 := 0#32
  let v995 : Index := Scalar.indexCast c0_i32_632
  let c5_i32_633 : BitVec 32 := 5#32
  let v996 : Index := Scalar.indexCast c5_i32_633
  let v997 : Index := Scalar.indexCast v983
  let c16_634 : Index := 16#32
  ![0, 5, v997.toNat, 16]
def k0_off78 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_626 : BitVec 32 := 16#32
  let v984 : BitVec 32 := Scalar.muli v681 c16_i32_626
  let c5_i32_627 : BitVec 32 := 5#32
  let v985 : BitVec 32 := Scalar.addi v984 c5_i32_627
  let v1000 : Index := Scalar.indexCast v985
  let c16_635 : Index := 16#32
  ![v1000.toNat, 16]
def k0_off79 (v983 : BitVec 32) : Fin 4 → Nat :=
  let c0_i32_636 : BitVec 32 := 0#32
  let v1004 : Index := Scalar.indexCast c0_i32_636
  let c5_i32_637 : BitVec 32 := 5#32
  let v1005 : Index := Scalar.indexCast c5_i32_637
  let v1006 : Index := Scalar.indexCast v983
  let c32_638 : Index := 32#32
  ![0, 5, v1006.toNat, 32]
def k0_off80 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_626 : BitVec 32 := 16#32
  let v984 : BitVec 32 := Scalar.muli v681 c16_i32_626
  let c5_i32_627 : BitVec 32 := 5#32
  let v985 : BitVec 32 := Scalar.addi v984 c5_i32_627
  let v1009 : Index := Scalar.indexCast v985
  let c32_639 : Index := 32#32
  ![v1009.toNat, 32]
def k0_off81 (v983 : BitVec 32) : Fin 4 → Nat :=
  let c0_i32_640 : BitVec 32 := 0#32
  let v1013 : Index := Scalar.indexCast c0_i32_640
  let c5_i32_641 : BitVec 32 := 5#32
  let v1014 : Index := Scalar.indexCast c5_i32_641
  let v1015 : Index := Scalar.indexCast v983
  let c48_642 : Index := 48#32
  ![0, 5, v1015.toNat, 48]

def k0_chk38 (v983 : BitVec 32) : Prop :=
  (∀ a, (k0_off75 v983) a + S1x1x1x16.size a ≤ S2x16x8x64.size a) ∧
  (∀ a, (k0_off77 v983) a + S1x1x1x16.size a ≤ S2x16x8x64.size a) ∧
  (∀ a, (k0_off79 v983) a + S1x1x1x16.size a ≤ S2x16x8x64.size a) ∧
  (∀ a, (k0_off81 v983) a + S1x1x1x16.size a ≤ S2x16x8x64.size a)
instance k0_chk38.dec : ∀ (v983 : BitVec 32), Decidable (k0_chk38 v983) := fun v983 => decidable_of_iff' _ (Iff.of_eq (k0_chk38.eq_1 v983))
theorem k0_off75_inb : ∀ (v983 : BitVec 32) (k0_hw38 : k0_chk38 v983), ∀ a, (k0_off75 v983) a + S1x1x1x16.size a ≤ S2x16x8x64.size a := fun v983 k0_hw38 => k0_hw38.1
theorem k0_off77_inb : ∀ (v983 : BitVec 32) (k0_hw38 : k0_chk38 v983), ∀ a, (k0_off77 v983) a + S1x1x1x16.size a ≤ S2x16x8x64.size a := fun v983 k0_hw38 => k0_hw38.2.1
theorem k0_off79_inb : ∀ (v983 : BitVec 32) (k0_hw38 : k0_chk38 v983), ∀ a, (k0_off79 v983) a + S1x1x1x16.size a ≤ S2x16x8x64.size a := fun v983 k0_hw38 => k0_hw38.2.2.1
theorem k0_off81_inb : ∀ (v983 : BitVec 32) (k0_hw38 : k0_chk38 v983), ∀ a, (k0_off81 v983) a + S1x1x1x16.size a ≤ S2x16x8x64.size a := fun v983 k0_hw38 => k0_hw38.2.2.2

def k0_off82 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_626 : BitVec 32 := 16#32
  let v984 : BitVec 32 := Scalar.muli v681 c16_i32_626
  let c5_i32_627 : BitVec 32 := 5#32
  let v985 : BitVec 32 := Scalar.addi v984 c5_i32_627
  let v1018 : Index := Scalar.indexCast v985
  let c48_643 : Index := 48#32
  ![v1018.toNat, 48]
def k0_off83 (v1023 : BitVec 32) : Fin 4 → Nat :=
  let c0_i32_646 : BitVec 32 := 0#32
  let v1026 : Index := Scalar.indexCast c0_i32_646
  let c6_i32_647 : BitVec 32 := 6#32
  let v1027 : Index := Scalar.indexCast c6_i32_647
  let v1028 : Index := Scalar.indexCast v1023
  let c0_648 : Index := 0#32
  ![0, 6, v1028.toNat, 0]

def k0_off84 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_644 : BitVec 32 := 16#32
  let v1024 : BitVec 32 := Scalar.muli v681 c16_i32_644
  let c6_i32_645 : BitVec 32 := 6#32
  let v1025 : BitVec 32 := Scalar.addi v1024 c6_i32_645
  let v1031 : Index := Scalar.indexCast v1025
  let c0_649 : Index := 0#32
  ![v1031.toNat, 0]
def k0_off85 (v1023 : BitVec 32) : Fin 4 → Nat :=
  let c0_i32_650 : BitVec 32 := 0#32
  let v1035 : Index := Scalar.indexCast c0_i32_650
  let c6_i32_651 : BitVec 32 := 6#32
  let v1036 : Index := Scalar.indexCast c6_i32_651
  let v1037 : Index := Scalar.indexCast v1023
  let c16_652 : Index := 16#32
  ![0, 6, v1037.toNat, 16]
def k0_off86 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_644 : BitVec 32 := 16#32
  let v1024 : BitVec 32 := Scalar.muli v681 c16_i32_644
  let c6_i32_645 : BitVec 32 := 6#32
  let v1025 : BitVec 32 := Scalar.addi v1024 c6_i32_645
  let v1040 : Index := Scalar.indexCast v1025
  let c16_653 : Index := 16#32
  ![v1040.toNat, 16]
def k0_off87 (v1023 : BitVec 32) : Fin 4 → Nat :=
  let c0_i32_654 : BitVec 32 := 0#32
  let v1044 : Index := Scalar.indexCast c0_i32_654
  let c6_i32_655 : BitVec 32 := 6#32
  let v1045 : Index := Scalar.indexCast c6_i32_655
  let v1046 : Index := Scalar.indexCast v1023
  let c32_656 : Index := 32#32
  ![0, 6, v1046.toNat, 32]
def k0_off88 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_644 : BitVec 32 := 16#32
  let v1024 : BitVec 32 := Scalar.muli v681 c16_i32_644
  let c6_i32_645 : BitVec 32 := 6#32
  let v1025 : BitVec 32 := Scalar.addi v1024 c6_i32_645
  let v1049 : Index := Scalar.indexCast v1025
  let c32_657 : Index := 32#32
  ![v1049.toNat, 32]
def k0_off89 (v1023 : BitVec 32) : Fin 4 → Nat :=
  let c0_i32_658 : BitVec 32 := 0#32
  let v1053 : Index := Scalar.indexCast c0_i32_658
  let c6_i32_659 : BitVec 32 := 6#32
  let v1054 : Index := Scalar.indexCast c6_i32_659
  let v1055 : Index := Scalar.indexCast v1023
  let c48_660 : Index := 48#32
  ![0, 6, v1055.toNat, 48]

def k0_chk39 (v1023 : BitVec 32) : Prop :=
  (∀ a, (k0_off83 v1023) a + S1x1x1x16.size a ≤ S2x16x8x64.size a) ∧
  (∀ a, (k0_off85 v1023) a + S1x1x1x16.size a ≤ S2x16x8x64.size a) ∧
  (∀ a, (k0_off87 v1023) a + S1x1x1x16.size a ≤ S2x16x8x64.size a) ∧
  (∀ a, (k0_off89 v1023) a + S1x1x1x16.size a ≤ S2x16x8x64.size a)
instance k0_chk39.dec : ∀ (v1023 : BitVec 32), Decidable (k0_chk39 v1023) := fun v1023 => decidable_of_iff' _ (Iff.of_eq (k0_chk39.eq_1 v1023))
theorem k0_off83_inb : ∀ (v1023 : BitVec 32) (k0_hw39 : k0_chk39 v1023), ∀ a, (k0_off83 v1023) a + S1x1x1x16.size a ≤ S2x16x8x64.size a := fun v1023 k0_hw39 => k0_hw39.1
theorem k0_off85_inb : ∀ (v1023 : BitVec 32) (k0_hw39 : k0_chk39 v1023), ∀ a, (k0_off85 v1023) a + S1x1x1x16.size a ≤ S2x16x8x64.size a := fun v1023 k0_hw39 => k0_hw39.2.1
theorem k0_off87_inb : ∀ (v1023 : BitVec 32) (k0_hw39 : k0_chk39 v1023), ∀ a, (k0_off87 v1023) a + S1x1x1x16.size a ≤ S2x16x8x64.size a := fun v1023 k0_hw39 => k0_hw39.2.2.1
theorem k0_off89_inb : ∀ (v1023 : BitVec 32) (k0_hw39 : k0_chk39 v1023), ∀ a, (k0_off89 v1023) a + S1x1x1x16.size a ≤ S2x16x8x64.size a := fun v1023 k0_hw39 => k0_hw39.2.2.2

def k0_off90 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_644 : BitVec 32 := 16#32
  let v1024 : BitVec 32 := Scalar.muli v681 c16_i32_644
  let c6_i32_645 : BitVec 32 := 6#32
  let v1025 : BitVec 32 := Scalar.addi v1024 c6_i32_645
  let v1058 : Index := Scalar.indexCast v1025
  let c48_661 : Index := 48#32
  ![v1058.toNat, 48]
def k0_off91 (v1063 : BitVec 32) : Fin 4 → Nat :=
  let c0_i32_664 : BitVec 32 := 0#32
  let v1066 : Index := Scalar.indexCast c0_i32_664
  let c7_i32_665 : BitVec 32 := 7#32
  let v1067 : Index := Scalar.indexCast c7_i32_665
  let v1068 : Index := Scalar.indexCast v1063
  let c0_666 : Index := 0#32
  ![0, 7, v1068.toNat, 0]

def k0_off92 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_662 : BitVec 32 := 16#32
  let v1064 : BitVec 32 := Scalar.muli v681 c16_i32_662
  let c7_i32_663 : BitVec 32 := 7#32
  let v1065 : BitVec 32 := Scalar.addi v1064 c7_i32_663
  let v1071 : Index := Scalar.indexCast v1065
  let c0_667 : Index := 0#32
  ![v1071.toNat, 0]
def k0_off93 (v1063 : BitVec 32) : Fin 4 → Nat :=
  let c0_i32_668 : BitVec 32 := 0#32
  let v1075 : Index := Scalar.indexCast c0_i32_668
  let c7_i32_669 : BitVec 32 := 7#32
  let v1076 : Index := Scalar.indexCast c7_i32_669
  let v1077 : Index := Scalar.indexCast v1063
  let c16_670 : Index := 16#32
  ![0, 7, v1077.toNat, 16]
def k0_off94 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_662 : BitVec 32 := 16#32
  let v1064 : BitVec 32 := Scalar.muli v681 c16_i32_662
  let c7_i32_663 : BitVec 32 := 7#32
  let v1065 : BitVec 32 := Scalar.addi v1064 c7_i32_663
  let v1080 : Index := Scalar.indexCast v1065
  let c16_671 : Index := 16#32
  ![v1080.toNat, 16]
def k0_off95 (v1063 : BitVec 32) : Fin 4 → Nat :=
  let c0_i32_672 : BitVec 32 := 0#32
  let v1084 : Index := Scalar.indexCast c0_i32_672
  let c7_i32_673 : BitVec 32 := 7#32
  let v1085 : Index := Scalar.indexCast c7_i32_673
  let v1086 : Index := Scalar.indexCast v1063
  let c32_674 : Index := 32#32
  ![0, 7, v1086.toNat, 32]
def k0_off96 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_662 : BitVec 32 := 16#32
  let v1064 : BitVec 32 := Scalar.muli v681 c16_i32_662
  let c7_i32_663 : BitVec 32 := 7#32
  let v1065 : BitVec 32 := Scalar.addi v1064 c7_i32_663
  let v1089 : Index := Scalar.indexCast v1065
  let c32_675 : Index := 32#32
  ![v1089.toNat, 32]
def k0_off97 (v1063 : BitVec 32) : Fin 4 → Nat :=
  let c0_i32_676 : BitVec 32 := 0#32
  let v1093 : Index := Scalar.indexCast c0_i32_676
  let c7_i32_677 : BitVec 32 := 7#32
  let v1094 : Index := Scalar.indexCast c7_i32_677
  let v1095 : Index := Scalar.indexCast v1063
  let c48_678 : Index := 48#32
  ![0, 7, v1095.toNat, 48]

def k0_chk40 (v1063 : BitVec 32) : Prop :=
  (∀ a, (k0_off91 v1063) a + S1x1x1x16.size a ≤ S2x16x8x64.size a) ∧
  (∀ a, (k0_off93 v1063) a + S1x1x1x16.size a ≤ S2x16x8x64.size a) ∧
  (∀ a, (k0_off95 v1063) a + S1x1x1x16.size a ≤ S2x16x8x64.size a) ∧
  (∀ a, (k0_off97 v1063) a + S1x1x1x16.size a ≤ S2x16x8x64.size a)
instance k0_chk40.dec : ∀ (v1063 : BitVec 32), Decidable (k0_chk40 v1063) := fun v1063 => decidable_of_iff' _ (Iff.of_eq (k0_chk40.eq_1 v1063))
theorem k0_off91_inb : ∀ (v1063 : BitVec 32) (k0_hw40 : k0_chk40 v1063), ∀ a, (k0_off91 v1063) a + S1x1x1x16.size a ≤ S2x16x8x64.size a := fun v1063 k0_hw40 => k0_hw40.1
theorem k0_off93_inb : ∀ (v1063 : BitVec 32) (k0_hw40 : k0_chk40 v1063), ∀ a, (k0_off93 v1063) a + S1x1x1x16.size a ≤ S2x16x8x64.size a := fun v1063 k0_hw40 => k0_hw40.2.1
theorem k0_off95_inb : ∀ (v1063 : BitVec 32) (k0_hw40 : k0_chk40 v1063), ∀ a, (k0_off95 v1063) a + S1x1x1x16.size a ≤ S2x16x8x64.size a := fun v1063 k0_hw40 => k0_hw40.2.2.1
theorem k0_off97_inb : ∀ (v1063 : BitVec 32) (k0_hw40 : k0_chk40 v1063), ∀ a, (k0_off97 v1063) a + S1x1x1x16.size a ≤ S2x16x8x64.size a := fun v1063 k0_hw40 => k0_hw40.2.2.2

def k0_off98 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_662 : BitVec 32 := 16#32
  let v1064 : BitVec 32 := Scalar.muli v681 c16_i32_662
  let c7_i32_663 : BitVec 32 := 7#32
  let v1065 : BitVec 32 := Scalar.addi v1064 c7_i32_663
  let v1098 : Index := Scalar.indexCast v1065
  let c48_679 : Index := 48#32
  ![v1098.toNat, 48]
def k0_off99 (v1103 : BitVec 32) : Fin 4 → Nat :=
  let c0_i32_682 : BitVec 32 := 0#32
  let v1106 : Index := Scalar.indexCast c0_i32_682
  let c8_i32_683 : BitVec 32 := 8#32
  let v1107 : Index := Scalar.indexCast c8_i32_683
  let v1108 : Index := Scalar.indexCast v1103
  let c0_684 : Index := 0#32
  ![0, 8, v1108.toNat, 0]

def k0_off100 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_680 : BitVec 32 := 16#32
  let v1104 : BitVec 32 := Scalar.muli v681 c16_i32_680
  let c8_i32_681 : BitVec 32 := 8#32
  let v1105 : BitVec 32 := Scalar.addi v1104 c8_i32_681
  let v1111 : Index := Scalar.indexCast v1105
  let c0_685 : Index := 0#32
  ![v1111.toNat, 0]
def k0_off101 (v1103 : BitVec 32) : Fin 4 → Nat :=
  let c0_i32_686 : BitVec 32 := 0#32
  let v1115 : Index := Scalar.indexCast c0_i32_686
  let c8_i32_687 : BitVec 32 := 8#32
  let v1116 : Index := Scalar.indexCast c8_i32_687
  let v1117 : Index := Scalar.indexCast v1103
  let c16_688 : Index := 16#32
  ![0, 8, v1117.toNat, 16]
def k0_off102 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_680 : BitVec 32 := 16#32
  let v1104 : BitVec 32 := Scalar.muli v681 c16_i32_680
  let c8_i32_681 : BitVec 32 := 8#32
  let v1105 : BitVec 32 := Scalar.addi v1104 c8_i32_681
  let v1120 : Index := Scalar.indexCast v1105
  let c16_689 : Index := 16#32
  ![v1120.toNat, 16]
def k0_off103 (v1103 : BitVec 32) : Fin 4 → Nat :=
  let c0_i32_690 : BitVec 32 := 0#32
  let v1124 : Index := Scalar.indexCast c0_i32_690
  let c8_i32_691 : BitVec 32 := 8#32
  let v1125 : Index := Scalar.indexCast c8_i32_691
  let v1126 : Index := Scalar.indexCast v1103
  let c32_692 : Index := 32#32
  ![0, 8, v1126.toNat, 32]
def k0_off104 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_680 : BitVec 32 := 16#32
  let v1104 : BitVec 32 := Scalar.muli v681 c16_i32_680
  let c8_i32_681 : BitVec 32 := 8#32
  let v1105 : BitVec 32 := Scalar.addi v1104 c8_i32_681
  let v1129 : Index := Scalar.indexCast v1105
  let c32_693 : Index := 32#32
  ![v1129.toNat, 32]
def k0_off105 (v1103 : BitVec 32) : Fin 4 → Nat :=
  let c0_i32_694 : BitVec 32 := 0#32
  let v1133 : Index := Scalar.indexCast c0_i32_694
  let c8_i32_695 : BitVec 32 := 8#32
  let v1134 : Index := Scalar.indexCast c8_i32_695
  let v1135 : Index := Scalar.indexCast v1103
  let c48_696 : Index := 48#32
  ![0, 8, v1135.toNat, 48]

def k0_chk41 (v1103 : BitVec 32) : Prop :=
  (∀ a, (k0_off99 v1103) a + S1x1x1x16.size a ≤ S2x16x8x64.size a) ∧
  (∀ a, (k0_off101 v1103) a + S1x1x1x16.size a ≤ S2x16x8x64.size a) ∧
  (∀ a, (k0_off103 v1103) a + S1x1x1x16.size a ≤ S2x16x8x64.size a) ∧
  (∀ a, (k0_off105 v1103) a + S1x1x1x16.size a ≤ S2x16x8x64.size a)
instance k0_chk41.dec : ∀ (v1103 : BitVec 32), Decidable (k0_chk41 v1103) := fun v1103 => decidable_of_iff' _ (Iff.of_eq (k0_chk41.eq_1 v1103))
theorem k0_off99_inb : ∀ (v1103 : BitVec 32) (k0_hw41 : k0_chk41 v1103), ∀ a, (k0_off99 v1103) a + S1x1x1x16.size a ≤ S2x16x8x64.size a := fun v1103 k0_hw41 => k0_hw41.1
theorem k0_off101_inb : ∀ (v1103 : BitVec 32) (k0_hw41 : k0_chk41 v1103), ∀ a, (k0_off101 v1103) a + S1x1x1x16.size a ≤ S2x16x8x64.size a := fun v1103 k0_hw41 => k0_hw41.2.1
theorem k0_off103_inb : ∀ (v1103 : BitVec 32) (k0_hw41 : k0_chk41 v1103), ∀ a, (k0_off103 v1103) a + S1x1x1x16.size a ≤ S2x16x8x64.size a := fun v1103 k0_hw41 => k0_hw41.2.2.1
theorem k0_off105_inb : ∀ (v1103 : BitVec 32) (k0_hw41 : k0_chk41 v1103), ∀ a, (k0_off105 v1103) a + S1x1x1x16.size a ≤ S2x16x8x64.size a := fun v1103 k0_hw41 => k0_hw41.2.2.2

def k0_off106 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_680 : BitVec 32 := 16#32
  let v1104 : BitVec 32 := Scalar.muli v681 c16_i32_680
  let c8_i32_681 : BitVec 32 := 8#32
  let v1105 : BitVec 32 := Scalar.addi v1104 c8_i32_681
  let v1138 : Index := Scalar.indexCast v1105
  let c48_697 : Index := 48#32
  ![v1138.toNat, 48]
def k0_off107 (v1143 : BitVec 32) : Fin 4 → Nat :=
  let c0_i32_700 : BitVec 32 := 0#32
  let v1146 : Index := Scalar.indexCast c0_i32_700
  let c9_i32_701 : BitVec 32 := 9#32
  let v1147 : Index := Scalar.indexCast c9_i32_701
  let v1148 : Index := Scalar.indexCast v1143
  let c0_702 : Index := 0#32
  ![0, 9, v1148.toNat, 0]

def k0_off108 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_698 : BitVec 32 := 16#32
  let v1144 : BitVec 32 := Scalar.muli v681 c16_i32_698
  let c9_i32_699 : BitVec 32 := 9#32
  let v1145 : BitVec 32 := Scalar.addi v1144 c9_i32_699
  let v1151 : Index := Scalar.indexCast v1145
  let c0_703 : Index := 0#32
  ![v1151.toNat, 0]
def k0_off109 (v1143 : BitVec 32) : Fin 4 → Nat :=
  let c0_i32_704 : BitVec 32 := 0#32
  let v1155 : Index := Scalar.indexCast c0_i32_704
  let c9_i32_705 : BitVec 32 := 9#32
  let v1156 : Index := Scalar.indexCast c9_i32_705
  let v1157 : Index := Scalar.indexCast v1143
  let c16_706 : Index := 16#32
  ![0, 9, v1157.toNat, 16]
def k0_off110 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_698 : BitVec 32 := 16#32
  let v1144 : BitVec 32 := Scalar.muli v681 c16_i32_698
  let c9_i32_699 : BitVec 32 := 9#32
  let v1145 : BitVec 32 := Scalar.addi v1144 c9_i32_699
  let v1160 : Index := Scalar.indexCast v1145
  let c16_707 : Index := 16#32
  ![v1160.toNat, 16]
def k0_off111 (v1143 : BitVec 32) : Fin 4 → Nat :=
  let c0_i32_708 : BitVec 32 := 0#32
  let v1164 : Index := Scalar.indexCast c0_i32_708
  let c9_i32_709 : BitVec 32 := 9#32
  let v1165 : Index := Scalar.indexCast c9_i32_709
  let v1166 : Index := Scalar.indexCast v1143
  let c32_710 : Index := 32#32
  ![0, 9, v1166.toNat, 32]
def k0_off112 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_698 : BitVec 32 := 16#32
  let v1144 : BitVec 32 := Scalar.muli v681 c16_i32_698
  let c9_i32_699 : BitVec 32 := 9#32
  let v1145 : BitVec 32 := Scalar.addi v1144 c9_i32_699
  let v1169 : Index := Scalar.indexCast v1145
  let c32_711 : Index := 32#32
  ![v1169.toNat, 32]
def k0_off113 (v1143 : BitVec 32) : Fin 4 → Nat :=
  let c0_i32_712 : BitVec 32 := 0#32
  let v1173 : Index := Scalar.indexCast c0_i32_712
  let c9_i32_713 : BitVec 32 := 9#32
  let v1174 : Index := Scalar.indexCast c9_i32_713
  let v1175 : Index := Scalar.indexCast v1143
  let c48_714 : Index := 48#32
  ![0, 9, v1175.toNat, 48]

def k0_chk42 (v1143 : BitVec 32) : Prop :=
  (∀ a, (k0_off107 v1143) a + S1x1x1x16.size a ≤ S2x16x8x64.size a) ∧
  (∀ a, (k0_off109 v1143) a + S1x1x1x16.size a ≤ S2x16x8x64.size a) ∧
  (∀ a, (k0_off111 v1143) a + S1x1x1x16.size a ≤ S2x16x8x64.size a) ∧
  (∀ a, (k0_off113 v1143) a + S1x1x1x16.size a ≤ S2x16x8x64.size a)
instance k0_chk42.dec : ∀ (v1143 : BitVec 32), Decidable (k0_chk42 v1143) := fun v1143 => decidable_of_iff' _ (Iff.of_eq (k0_chk42.eq_1 v1143))
theorem k0_off107_inb : ∀ (v1143 : BitVec 32) (k0_hw42 : k0_chk42 v1143), ∀ a, (k0_off107 v1143) a + S1x1x1x16.size a ≤ S2x16x8x64.size a := fun v1143 k0_hw42 => k0_hw42.1
theorem k0_off109_inb : ∀ (v1143 : BitVec 32) (k0_hw42 : k0_chk42 v1143), ∀ a, (k0_off109 v1143) a + S1x1x1x16.size a ≤ S2x16x8x64.size a := fun v1143 k0_hw42 => k0_hw42.2.1
theorem k0_off111_inb : ∀ (v1143 : BitVec 32) (k0_hw42 : k0_chk42 v1143), ∀ a, (k0_off111 v1143) a + S1x1x1x16.size a ≤ S2x16x8x64.size a := fun v1143 k0_hw42 => k0_hw42.2.2.1
theorem k0_off113_inb : ∀ (v1143 : BitVec 32) (k0_hw42 : k0_chk42 v1143), ∀ a, (k0_off113 v1143) a + S1x1x1x16.size a ≤ S2x16x8x64.size a := fun v1143 k0_hw42 => k0_hw42.2.2.2

def k0_off114 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_698 : BitVec 32 := 16#32
  let v1144 : BitVec 32 := Scalar.muli v681 c16_i32_698
  let c9_i32_699 : BitVec 32 := 9#32
  let v1145 : BitVec 32 := Scalar.addi v1144 c9_i32_699
  let v1178 : Index := Scalar.indexCast v1145
  let c48_715 : Index := 48#32
  ![v1178.toNat, 48]
def k0_off115 (v1183 : BitVec 32) : Fin 4 → Nat :=
  let c0_i32_718 : BitVec 32 := 0#32
  let v1186 : Index := Scalar.indexCast c0_i32_718
  let c10_i32_719 : BitVec 32 := 10#32
  let v1187 : Index := Scalar.indexCast c10_i32_719
  let v1188 : Index := Scalar.indexCast v1183
  let c0_720 : Index := 0#32
  ![0, 10, v1188.toNat, 0]

def k0_off116 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_716 : BitVec 32 := 16#32
  let v1184 : BitVec 32 := Scalar.muli v681 c16_i32_716
  let c10_i32_717 : BitVec 32 := 10#32
  let v1185 : BitVec 32 := Scalar.addi v1184 c10_i32_717
  let v1191 : Index := Scalar.indexCast v1185
  let c0_721 : Index := 0#32
  ![v1191.toNat, 0]
def k0_off117 (v1183 : BitVec 32) : Fin 4 → Nat :=
  let c0_i32_722 : BitVec 32 := 0#32
  let v1195 : Index := Scalar.indexCast c0_i32_722
  let c10_i32_723 : BitVec 32 := 10#32
  let v1196 : Index := Scalar.indexCast c10_i32_723
  let v1197 : Index := Scalar.indexCast v1183
  let c16_724 : Index := 16#32
  ![0, 10, v1197.toNat, 16]
def k0_off118 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_716 : BitVec 32 := 16#32
  let v1184 : BitVec 32 := Scalar.muli v681 c16_i32_716
  let c10_i32_717 : BitVec 32 := 10#32
  let v1185 : BitVec 32 := Scalar.addi v1184 c10_i32_717
  let v1200 : Index := Scalar.indexCast v1185
  let c16_725 : Index := 16#32
  ![v1200.toNat, 16]
def k0_off119 (v1183 : BitVec 32) : Fin 4 → Nat :=
  let c0_i32_726 : BitVec 32 := 0#32
  let v1204 : Index := Scalar.indexCast c0_i32_726
  let c10_i32_727 : BitVec 32 := 10#32
  let v1205 : Index := Scalar.indexCast c10_i32_727
  let v1206 : Index := Scalar.indexCast v1183
  let c32_728 : Index := 32#32
  ![0, 10, v1206.toNat, 32]
def k0_off120 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_716 : BitVec 32 := 16#32
  let v1184 : BitVec 32 := Scalar.muli v681 c16_i32_716
  let c10_i32_717 : BitVec 32 := 10#32
  let v1185 : BitVec 32 := Scalar.addi v1184 c10_i32_717
  let v1209 : Index := Scalar.indexCast v1185
  let c32_729 : Index := 32#32
  ![v1209.toNat, 32]
def k0_off121 (v1183 : BitVec 32) : Fin 4 → Nat :=
  let c0_i32_730 : BitVec 32 := 0#32
  let v1213 : Index := Scalar.indexCast c0_i32_730
  let c10_i32_731 : BitVec 32 := 10#32
  let v1214 : Index := Scalar.indexCast c10_i32_731
  let v1215 : Index := Scalar.indexCast v1183
  let c48_732 : Index := 48#32
  ![0, 10, v1215.toNat, 48]

def k0_chk43 (v1183 : BitVec 32) : Prop :=
  (∀ a, (k0_off115 v1183) a + S1x1x1x16.size a ≤ S2x16x8x64.size a) ∧
  (∀ a, (k0_off117 v1183) a + S1x1x1x16.size a ≤ S2x16x8x64.size a) ∧
  (∀ a, (k0_off119 v1183) a + S1x1x1x16.size a ≤ S2x16x8x64.size a) ∧
  (∀ a, (k0_off121 v1183) a + S1x1x1x16.size a ≤ S2x16x8x64.size a)
instance k0_chk43.dec : ∀ (v1183 : BitVec 32), Decidable (k0_chk43 v1183) := fun v1183 => decidable_of_iff' _ (Iff.of_eq (k0_chk43.eq_1 v1183))
theorem k0_off115_inb : ∀ (v1183 : BitVec 32) (k0_hw43 : k0_chk43 v1183), ∀ a, (k0_off115 v1183) a + S1x1x1x16.size a ≤ S2x16x8x64.size a := fun v1183 k0_hw43 => k0_hw43.1
theorem k0_off117_inb : ∀ (v1183 : BitVec 32) (k0_hw43 : k0_chk43 v1183), ∀ a, (k0_off117 v1183) a + S1x1x1x16.size a ≤ S2x16x8x64.size a := fun v1183 k0_hw43 => k0_hw43.2.1
theorem k0_off119_inb : ∀ (v1183 : BitVec 32) (k0_hw43 : k0_chk43 v1183), ∀ a, (k0_off119 v1183) a + S1x1x1x16.size a ≤ S2x16x8x64.size a := fun v1183 k0_hw43 => k0_hw43.2.2.1
theorem k0_off121_inb : ∀ (v1183 : BitVec 32) (k0_hw43 : k0_chk43 v1183), ∀ a, (k0_off121 v1183) a + S1x1x1x16.size a ≤ S2x16x8x64.size a := fun v1183 k0_hw43 => k0_hw43.2.2.2

def k0_off122 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_716 : BitVec 32 := 16#32
  let v1184 : BitVec 32 := Scalar.muli v681 c16_i32_716
  let c10_i32_717 : BitVec 32 := 10#32
  let v1185 : BitVec 32 := Scalar.addi v1184 c10_i32_717
  let v1218 : Index := Scalar.indexCast v1185
  let c48_733 : Index := 48#32
  ![v1218.toNat, 48]
def k0_off123 (v1223 : BitVec 32) : Fin 4 → Nat :=
  let c0_i32_736 : BitVec 32 := 0#32
  let v1226 : Index := Scalar.indexCast c0_i32_736
  let c11_i32_737 : BitVec 32 := 11#32
  let v1227 : Index := Scalar.indexCast c11_i32_737
  let v1228 : Index := Scalar.indexCast v1223
  let c0_738 : Index := 0#32
  ![0, 11, v1228.toNat, 0]

def k0_off124 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_734 : BitVec 32 := 16#32
  let v1224 : BitVec 32 := Scalar.muli v681 c16_i32_734
  let c11_i32_735 : BitVec 32 := 11#32
  let v1225 : BitVec 32 := Scalar.addi v1224 c11_i32_735
  let v1231 : Index := Scalar.indexCast v1225
  let c0_739 : Index := 0#32
  ![v1231.toNat, 0]
def k0_off125 (v1223 : BitVec 32) : Fin 4 → Nat :=
  let c0_i32_740 : BitVec 32 := 0#32
  let v1235 : Index := Scalar.indexCast c0_i32_740
  let c11_i32_741 : BitVec 32 := 11#32
  let v1236 : Index := Scalar.indexCast c11_i32_741
  let v1237 : Index := Scalar.indexCast v1223
  let c16_742 : Index := 16#32
  ![0, 11, v1237.toNat, 16]
def k0_off126 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_734 : BitVec 32 := 16#32
  let v1224 : BitVec 32 := Scalar.muli v681 c16_i32_734
  let c11_i32_735 : BitVec 32 := 11#32
  let v1225 : BitVec 32 := Scalar.addi v1224 c11_i32_735
  let v1240 : Index := Scalar.indexCast v1225
  let c16_743 : Index := 16#32
  ![v1240.toNat, 16]
def k0_off127 (v1223 : BitVec 32) : Fin 4 → Nat :=
  let c0_i32_744 : BitVec 32 := 0#32
  let v1244 : Index := Scalar.indexCast c0_i32_744
  let c11_i32_745 : BitVec 32 := 11#32
  let v1245 : Index := Scalar.indexCast c11_i32_745
  let v1246 : Index := Scalar.indexCast v1223
  let c32_746 : Index := 32#32
  ![0, 11, v1246.toNat, 32]
def k0_off128 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_734 : BitVec 32 := 16#32
  let v1224 : BitVec 32 := Scalar.muli v681 c16_i32_734
  let c11_i32_735 : BitVec 32 := 11#32
  let v1225 : BitVec 32 := Scalar.addi v1224 c11_i32_735
  let v1249 : Index := Scalar.indexCast v1225
  let c32_747 : Index := 32#32
  ![v1249.toNat, 32]
def k0_off129 (v1223 : BitVec 32) : Fin 4 → Nat :=
  let c0_i32_748 : BitVec 32 := 0#32
  let v1253 : Index := Scalar.indexCast c0_i32_748
  let c11_i32_749 : BitVec 32 := 11#32
  let v1254 : Index := Scalar.indexCast c11_i32_749
  let v1255 : Index := Scalar.indexCast v1223
  let c48_750 : Index := 48#32
  ![0, 11, v1255.toNat, 48]

def k0_chk44 (v1223 : BitVec 32) : Prop :=
  (∀ a, (k0_off123 v1223) a + S1x1x1x16.size a ≤ S2x16x8x64.size a) ∧
  (∀ a, (k0_off125 v1223) a + S1x1x1x16.size a ≤ S2x16x8x64.size a) ∧
  (∀ a, (k0_off127 v1223) a + S1x1x1x16.size a ≤ S2x16x8x64.size a) ∧
  (∀ a, (k0_off129 v1223) a + S1x1x1x16.size a ≤ S2x16x8x64.size a)
instance k0_chk44.dec : ∀ (v1223 : BitVec 32), Decidable (k0_chk44 v1223) := fun v1223 => decidable_of_iff' _ (Iff.of_eq (k0_chk44.eq_1 v1223))
theorem k0_off123_inb : ∀ (v1223 : BitVec 32) (k0_hw44 : k0_chk44 v1223), ∀ a, (k0_off123 v1223) a + S1x1x1x16.size a ≤ S2x16x8x64.size a := fun v1223 k0_hw44 => k0_hw44.1
theorem k0_off125_inb : ∀ (v1223 : BitVec 32) (k0_hw44 : k0_chk44 v1223), ∀ a, (k0_off125 v1223) a + S1x1x1x16.size a ≤ S2x16x8x64.size a := fun v1223 k0_hw44 => k0_hw44.2.1
theorem k0_off127_inb : ∀ (v1223 : BitVec 32) (k0_hw44 : k0_chk44 v1223), ∀ a, (k0_off127 v1223) a + S1x1x1x16.size a ≤ S2x16x8x64.size a := fun v1223 k0_hw44 => k0_hw44.2.2.1
theorem k0_off129_inb : ∀ (v1223 : BitVec 32) (k0_hw44 : k0_chk44 v1223), ∀ a, (k0_off129 v1223) a + S1x1x1x16.size a ≤ S2x16x8x64.size a := fun v1223 k0_hw44 => k0_hw44.2.2.2

def k0_off130 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_734 : BitVec 32 := 16#32
  let v1224 : BitVec 32 := Scalar.muli v681 c16_i32_734
  let c11_i32_735 : BitVec 32 := 11#32
  let v1225 : BitVec 32 := Scalar.addi v1224 c11_i32_735
  let v1258 : Index := Scalar.indexCast v1225
  let c48_751 : Index := 48#32
  ![v1258.toNat, 48]
def k0_off131 (v1263 : BitVec 32) : Fin 4 → Nat :=
  let c0_i32_754 : BitVec 32 := 0#32
  let v1266 : Index := Scalar.indexCast c0_i32_754
  let c12_i32_755 : BitVec 32 := 12#32
  let v1267 : Index := Scalar.indexCast c12_i32_755
  let v1268 : Index := Scalar.indexCast v1263
  let c0_756 : Index := 0#32
  ![0, 12, v1268.toNat, 0]

def k0_off132 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_752 : BitVec 32 := 16#32
  let v1264 : BitVec 32 := Scalar.muli v681 c16_i32_752
  let c12_i32_753 : BitVec 32 := 12#32
  let v1265 : BitVec 32 := Scalar.addi v1264 c12_i32_753
  let v1271 : Index := Scalar.indexCast v1265
  let c0_757 : Index := 0#32
  ![v1271.toNat, 0]
def k0_off133 (v1263 : BitVec 32) : Fin 4 → Nat :=
  let c0_i32_758 : BitVec 32 := 0#32
  let v1275 : Index := Scalar.indexCast c0_i32_758
  let c12_i32_759 : BitVec 32 := 12#32
  let v1276 : Index := Scalar.indexCast c12_i32_759
  let v1277 : Index := Scalar.indexCast v1263
  let c16_760 : Index := 16#32
  ![0, 12, v1277.toNat, 16]
def k0_off134 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_752 : BitVec 32 := 16#32
  let v1264 : BitVec 32 := Scalar.muli v681 c16_i32_752
  let c12_i32_753 : BitVec 32 := 12#32
  let v1265 : BitVec 32 := Scalar.addi v1264 c12_i32_753
  let v1280 : Index := Scalar.indexCast v1265
  let c16_761 : Index := 16#32
  ![v1280.toNat, 16]
def k0_off135 (v1263 : BitVec 32) : Fin 4 → Nat :=
  let c0_i32_762 : BitVec 32 := 0#32
  let v1284 : Index := Scalar.indexCast c0_i32_762
  let c12_i32_763 : BitVec 32 := 12#32
  let v1285 : Index := Scalar.indexCast c12_i32_763
  let v1286 : Index := Scalar.indexCast v1263
  let c32_764 : Index := 32#32
  ![0, 12, v1286.toNat, 32]
def k0_off136 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_752 : BitVec 32 := 16#32
  let v1264 : BitVec 32 := Scalar.muli v681 c16_i32_752
  let c12_i32_753 : BitVec 32 := 12#32
  let v1265 : BitVec 32 := Scalar.addi v1264 c12_i32_753
  let v1289 : Index := Scalar.indexCast v1265
  let c32_765 : Index := 32#32
  ![v1289.toNat, 32]
def k0_off137 (v1263 : BitVec 32) : Fin 4 → Nat :=
  let c0_i32_766 : BitVec 32 := 0#32
  let v1293 : Index := Scalar.indexCast c0_i32_766
  let c12_i32_767 : BitVec 32 := 12#32
  let v1294 : Index := Scalar.indexCast c12_i32_767
  let v1295 : Index := Scalar.indexCast v1263
  let c48_768 : Index := 48#32
  ![0, 12, v1295.toNat, 48]

def k0_chk45 (v1263 : BitVec 32) : Prop :=
  (∀ a, (k0_off131 v1263) a + S1x1x1x16.size a ≤ S2x16x8x64.size a) ∧
  (∀ a, (k0_off133 v1263) a + S1x1x1x16.size a ≤ S2x16x8x64.size a) ∧
  (∀ a, (k0_off135 v1263) a + S1x1x1x16.size a ≤ S2x16x8x64.size a) ∧
  (∀ a, (k0_off137 v1263) a + S1x1x1x16.size a ≤ S2x16x8x64.size a)
instance k0_chk45.dec : ∀ (v1263 : BitVec 32), Decidable (k0_chk45 v1263) := fun v1263 => decidable_of_iff' _ (Iff.of_eq (k0_chk45.eq_1 v1263))
theorem k0_off131_inb : ∀ (v1263 : BitVec 32) (k0_hw45 : k0_chk45 v1263), ∀ a, (k0_off131 v1263) a + S1x1x1x16.size a ≤ S2x16x8x64.size a := fun v1263 k0_hw45 => k0_hw45.1
theorem k0_off133_inb : ∀ (v1263 : BitVec 32) (k0_hw45 : k0_chk45 v1263), ∀ a, (k0_off133 v1263) a + S1x1x1x16.size a ≤ S2x16x8x64.size a := fun v1263 k0_hw45 => k0_hw45.2.1
theorem k0_off135_inb : ∀ (v1263 : BitVec 32) (k0_hw45 : k0_chk45 v1263), ∀ a, (k0_off135 v1263) a + S1x1x1x16.size a ≤ S2x16x8x64.size a := fun v1263 k0_hw45 => k0_hw45.2.2.1
theorem k0_off137_inb : ∀ (v1263 : BitVec 32) (k0_hw45 : k0_chk45 v1263), ∀ a, (k0_off137 v1263) a + S1x1x1x16.size a ≤ S2x16x8x64.size a := fun v1263 k0_hw45 => k0_hw45.2.2.2

def k0_off138 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_752 : BitVec 32 := 16#32
  let v1264 : BitVec 32 := Scalar.muli v681 c16_i32_752
  let c12_i32_753 : BitVec 32 := 12#32
  let v1265 : BitVec 32 := Scalar.addi v1264 c12_i32_753
  let v1298 : Index := Scalar.indexCast v1265
  let c48_769 : Index := 48#32
  ![v1298.toNat, 48]
def k0_off139 (v1303 : BitVec 32) : Fin 4 → Nat :=
  let c0_i32_772 : BitVec 32 := 0#32
  let v1306 : Index := Scalar.indexCast c0_i32_772
  let c13_i32_773 : BitVec 32 := 13#32
  let v1307 : Index := Scalar.indexCast c13_i32_773
  let v1308 : Index := Scalar.indexCast v1303
  let c0_774 : Index := 0#32
  ![0, 13, v1308.toNat, 0]

def k0_off140 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_770 : BitVec 32 := 16#32
  let v1304 : BitVec 32 := Scalar.muli v681 c16_i32_770
  let c13_i32_771 : BitVec 32 := 13#32
  let v1305 : BitVec 32 := Scalar.addi v1304 c13_i32_771
  let v1311 : Index := Scalar.indexCast v1305
  let c0_775 : Index := 0#32
  ![v1311.toNat, 0]
def k0_off141 (v1303 : BitVec 32) : Fin 4 → Nat :=
  let c0_i32_776 : BitVec 32 := 0#32
  let v1315 : Index := Scalar.indexCast c0_i32_776
  let c13_i32_777 : BitVec 32 := 13#32
  let v1316 : Index := Scalar.indexCast c13_i32_777
  let v1317 : Index := Scalar.indexCast v1303
  let c16_778 : Index := 16#32
  ![0, 13, v1317.toNat, 16]
def k0_off142 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_770 : BitVec 32 := 16#32
  let v1304 : BitVec 32 := Scalar.muli v681 c16_i32_770
  let c13_i32_771 : BitVec 32 := 13#32
  let v1305 : BitVec 32 := Scalar.addi v1304 c13_i32_771
  let v1320 : Index := Scalar.indexCast v1305
  let c16_779 : Index := 16#32
  ![v1320.toNat, 16]
def k0_off143 (v1303 : BitVec 32) : Fin 4 → Nat :=
  let c0_i32_780 : BitVec 32 := 0#32
  let v1324 : Index := Scalar.indexCast c0_i32_780
  let c13_i32_781 : BitVec 32 := 13#32
  let v1325 : Index := Scalar.indexCast c13_i32_781
  let v1326 : Index := Scalar.indexCast v1303
  let c32_782 : Index := 32#32
  ![0, 13, v1326.toNat, 32]
def k0_off144 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_770 : BitVec 32 := 16#32
  let v1304 : BitVec 32 := Scalar.muli v681 c16_i32_770
  let c13_i32_771 : BitVec 32 := 13#32
  let v1305 : BitVec 32 := Scalar.addi v1304 c13_i32_771
  let v1329 : Index := Scalar.indexCast v1305
  let c32_783 : Index := 32#32
  ![v1329.toNat, 32]
def k0_off145 (v1303 : BitVec 32) : Fin 4 → Nat :=
  let c0_i32_784 : BitVec 32 := 0#32
  let v1333 : Index := Scalar.indexCast c0_i32_784
  let c13_i32_785 : BitVec 32 := 13#32
  let v1334 : Index := Scalar.indexCast c13_i32_785
  let v1335 : Index := Scalar.indexCast v1303
  let c48_786 : Index := 48#32
  ![0, 13, v1335.toNat, 48]

def k0_chk46 (v1303 : BitVec 32) : Prop :=
  (∀ a, (k0_off139 v1303) a + S1x1x1x16.size a ≤ S2x16x8x64.size a) ∧
  (∀ a, (k0_off141 v1303) a + S1x1x1x16.size a ≤ S2x16x8x64.size a) ∧
  (∀ a, (k0_off143 v1303) a + S1x1x1x16.size a ≤ S2x16x8x64.size a) ∧
  (∀ a, (k0_off145 v1303) a + S1x1x1x16.size a ≤ S2x16x8x64.size a)
instance k0_chk46.dec : ∀ (v1303 : BitVec 32), Decidable (k0_chk46 v1303) := fun v1303 => decidable_of_iff' _ (Iff.of_eq (k0_chk46.eq_1 v1303))
theorem k0_off139_inb : ∀ (v1303 : BitVec 32) (k0_hw46 : k0_chk46 v1303), ∀ a, (k0_off139 v1303) a + S1x1x1x16.size a ≤ S2x16x8x64.size a := fun v1303 k0_hw46 => k0_hw46.1
theorem k0_off141_inb : ∀ (v1303 : BitVec 32) (k0_hw46 : k0_chk46 v1303), ∀ a, (k0_off141 v1303) a + S1x1x1x16.size a ≤ S2x16x8x64.size a := fun v1303 k0_hw46 => k0_hw46.2.1
theorem k0_off143_inb : ∀ (v1303 : BitVec 32) (k0_hw46 : k0_chk46 v1303), ∀ a, (k0_off143 v1303) a + S1x1x1x16.size a ≤ S2x16x8x64.size a := fun v1303 k0_hw46 => k0_hw46.2.2.1
theorem k0_off145_inb : ∀ (v1303 : BitVec 32) (k0_hw46 : k0_chk46 v1303), ∀ a, (k0_off145 v1303) a + S1x1x1x16.size a ≤ S2x16x8x64.size a := fun v1303 k0_hw46 => k0_hw46.2.2.2

def k0_off146 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_770 : BitVec 32 := 16#32
  let v1304 : BitVec 32 := Scalar.muli v681 c16_i32_770
  let c13_i32_771 : BitVec 32 := 13#32
  let v1305 : BitVec 32 := Scalar.addi v1304 c13_i32_771
  let v1338 : Index := Scalar.indexCast v1305
  let c48_787 : Index := 48#32
  ![v1338.toNat, 48]
def k0_off147 (v1343 : BitVec 32) : Fin 4 → Nat :=
  let c0_i32_790 : BitVec 32 := 0#32
  let v1346 : Index := Scalar.indexCast c0_i32_790
  let c14_i32_791 : BitVec 32 := 14#32
  let v1347 : Index := Scalar.indexCast c14_i32_791
  let v1348 : Index := Scalar.indexCast v1343
  let c0_792 : Index := 0#32
  ![0, 14, v1348.toNat, 0]

def k0_off148 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_788 : BitVec 32 := 16#32
  let v1344 : BitVec 32 := Scalar.muli v681 c16_i32_788
  let c14_i32_789 : BitVec 32 := 14#32
  let v1345 : BitVec 32 := Scalar.addi v1344 c14_i32_789
  let v1351 : Index := Scalar.indexCast v1345
  let c0_793 : Index := 0#32
  ![v1351.toNat, 0]
def k0_off149 (v1343 : BitVec 32) : Fin 4 → Nat :=
  let c0_i32_794 : BitVec 32 := 0#32
  let v1355 : Index := Scalar.indexCast c0_i32_794
  let c14_i32_795 : BitVec 32 := 14#32
  let v1356 : Index := Scalar.indexCast c14_i32_795
  let v1357 : Index := Scalar.indexCast v1343
  let c16_796 : Index := 16#32
  ![0, 14, v1357.toNat, 16]
def k0_off150 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_788 : BitVec 32 := 16#32
  let v1344 : BitVec 32 := Scalar.muli v681 c16_i32_788
  let c14_i32_789 : BitVec 32 := 14#32
  let v1345 : BitVec 32 := Scalar.addi v1344 c14_i32_789
  let v1360 : Index := Scalar.indexCast v1345
  let c16_797 : Index := 16#32
  ![v1360.toNat, 16]
def k0_off151 (v1343 : BitVec 32) : Fin 4 → Nat :=
  let c0_i32_798 : BitVec 32 := 0#32
  let v1364 : Index := Scalar.indexCast c0_i32_798
  let c14_i32_799 : BitVec 32 := 14#32
  let v1365 : Index := Scalar.indexCast c14_i32_799
  let v1366 : Index := Scalar.indexCast v1343
  let c32_800 : Index := 32#32
  ![0, 14, v1366.toNat, 32]
def k0_off152 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_788 : BitVec 32 := 16#32
  let v1344 : BitVec 32 := Scalar.muli v681 c16_i32_788
  let c14_i32_789 : BitVec 32 := 14#32
  let v1345 : BitVec 32 := Scalar.addi v1344 c14_i32_789
  let v1369 : Index := Scalar.indexCast v1345
  let c32_801 : Index := 32#32
  ![v1369.toNat, 32]
def k0_off153 (v1343 : BitVec 32) : Fin 4 → Nat :=
  let c0_i32_802 : BitVec 32 := 0#32
  let v1373 : Index := Scalar.indexCast c0_i32_802
  let c14_i32_803 : BitVec 32 := 14#32
  let v1374 : Index := Scalar.indexCast c14_i32_803
  let v1375 : Index := Scalar.indexCast v1343
  let c48_804 : Index := 48#32
  ![0, 14, v1375.toNat, 48]

def k0_chk47 (v1343 : BitVec 32) : Prop :=
  (∀ a, (k0_off147 v1343) a + S1x1x1x16.size a ≤ S2x16x8x64.size a) ∧
  (∀ a, (k0_off149 v1343) a + S1x1x1x16.size a ≤ S2x16x8x64.size a) ∧
  (∀ a, (k0_off151 v1343) a + S1x1x1x16.size a ≤ S2x16x8x64.size a) ∧
  (∀ a, (k0_off153 v1343) a + S1x1x1x16.size a ≤ S2x16x8x64.size a)
instance k0_chk47.dec : ∀ (v1343 : BitVec 32), Decidable (k0_chk47 v1343) := fun v1343 => decidable_of_iff' _ (Iff.of_eq (k0_chk47.eq_1 v1343))
theorem k0_off147_inb : ∀ (v1343 : BitVec 32) (k0_hw47 : k0_chk47 v1343), ∀ a, (k0_off147 v1343) a + S1x1x1x16.size a ≤ S2x16x8x64.size a := fun v1343 k0_hw47 => k0_hw47.1
theorem k0_off149_inb : ∀ (v1343 : BitVec 32) (k0_hw47 : k0_chk47 v1343), ∀ a, (k0_off149 v1343) a + S1x1x1x16.size a ≤ S2x16x8x64.size a := fun v1343 k0_hw47 => k0_hw47.2.1
theorem k0_off151_inb : ∀ (v1343 : BitVec 32) (k0_hw47 : k0_chk47 v1343), ∀ a, (k0_off151 v1343) a + S1x1x1x16.size a ≤ S2x16x8x64.size a := fun v1343 k0_hw47 => k0_hw47.2.2.1
theorem k0_off153_inb : ∀ (v1343 : BitVec 32) (k0_hw47 : k0_chk47 v1343), ∀ a, (k0_off153 v1343) a + S1x1x1x16.size a ≤ S2x16x8x64.size a := fun v1343 k0_hw47 => k0_hw47.2.2.2

def k0_off154 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_788 : BitVec 32 := 16#32
  let v1344 : BitVec 32 := Scalar.muli v681 c16_i32_788
  let c14_i32_789 : BitVec 32 := 14#32
  let v1345 : BitVec 32 := Scalar.addi v1344 c14_i32_789
  let v1378 : Index := Scalar.indexCast v1345
  let c48_805 : Index := 48#32
  ![v1378.toNat, 48]
def k0_off155 (v1383 : BitVec 32) : Fin 4 → Nat :=
  let c0_i32_808 : BitVec 32 := 0#32
  let v1386 : Index := Scalar.indexCast c0_i32_808
  let c15_i32_809 : BitVec 32 := 15#32
  let v1387 : Index := Scalar.indexCast c15_i32_809
  let v1388 : Index := Scalar.indexCast v1383
  let c0_810 : Index := 0#32
  ![0, 15, v1388.toNat, 0]

def k0_off156 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_806 : BitVec 32 := 16#32
  let v1384 : BitVec 32 := Scalar.muli v681 c16_i32_806
  let c15_i32_807 : BitVec 32 := 15#32
  let v1385 : BitVec 32 := Scalar.addi v1384 c15_i32_807
  let v1391 : Index := Scalar.indexCast v1385
  let c0_811 : Index := 0#32
  ![v1391.toNat, 0]
def k0_off157 (v1383 : BitVec 32) : Fin 4 → Nat :=
  let c0_i32_812 : BitVec 32 := 0#32
  let v1395 : Index := Scalar.indexCast c0_i32_812
  let c15_i32_813 : BitVec 32 := 15#32
  let v1396 : Index := Scalar.indexCast c15_i32_813
  let v1397 : Index := Scalar.indexCast v1383
  let c16_814 : Index := 16#32
  ![0, 15, v1397.toNat, 16]
def k0_off158 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_806 : BitVec 32 := 16#32
  let v1384 : BitVec 32 := Scalar.muli v681 c16_i32_806
  let c15_i32_807 : BitVec 32 := 15#32
  let v1385 : BitVec 32 := Scalar.addi v1384 c15_i32_807
  let v1400 : Index := Scalar.indexCast v1385
  let c16_815 : Index := 16#32
  ![v1400.toNat, 16]
def k0_off159 (v1383 : BitVec 32) : Fin 4 → Nat :=
  let c0_i32_816 : BitVec 32 := 0#32
  let v1404 : Index := Scalar.indexCast c0_i32_816
  let c15_i32_817 : BitVec 32 := 15#32
  let v1405 : Index := Scalar.indexCast c15_i32_817
  let v1406 : Index := Scalar.indexCast v1383
  let c32_818 : Index := 32#32
  ![0, 15, v1406.toNat, 32]
def k0_off160 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_806 : BitVec 32 := 16#32
  let v1384 : BitVec 32 := Scalar.muli v681 c16_i32_806
  let c15_i32_807 : BitVec 32 := 15#32
  let v1385 : BitVec 32 := Scalar.addi v1384 c15_i32_807
  let v1409 : Index := Scalar.indexCast v1385
  let c32_819 : Index := 32#32
  ![v1409.toNat, 32]
def k0_off161 (v1383 : BitVec 32) : Fin 4 → Nat :=
  let c0_i32_820 : BitVec 32 := 0#32
  let v1413 : Index := Scalar.indexCast c0_i32_820
  let c15_i32_821 : BitVec 32 := 15#32
  let v1414 : Index := Scalar.indexCast c15_i32_821
  let v1415 : Index := Scalar.indexCast v1383
  let c48_822 : Index := 48#32
  ![0, 15, v1415.toNat, 48]

def k0_chk48 (v1383 : BitVec 32) : Prop :=
  (∀ a, (k0_off155 v1383) a + S1x1x1x16.size a ≤ S2x16x8x64.size a) ∧
  (∀ a, (k0_off157 v1383) a + S1x1x1x16.size a ≤ S2x16x8x64.size a) ∧
  (∀ a, (k0_off159 v1383) a + S1x1x1x16.size a ≤ S2x16x8x64.size a) ∧
  (∀ a, (k0_off161 v1383) a + S1x1x1x16.size a ≤ S2x16x8x64.size a)
instance k0_chk48.dec : ∀ (v1383 : BitVec 32), Decidable (k0_chk48 v1383) := fun v1383 => decidable_of_iff' _ (Iff.of_eq (k0_chk48.eq_1 v1383))
theorem k0_off155_inb : ∀ (v1383 : BitVec 32) (k0_hw48 : k0_chk48 v1383), ∀ a, (k0_off155 v1383) a + S1x1x1x16.size a ≤ S2x16x8x64.size a := fun v1383 k0_hw48 => k0_hw48.1
theorem k0_off157_inb : ∀ (v1383 : BitVec 32) (k0_hw48 : k0_chk48 v1383), ∀ a, (k0_off157 v1383) a + S1x1x1x16.size a ≤ S2x16x8x64.size a := fun v1383 k0_hw48 => k0_hw48.2.1
theorem k0_off159_inb : ∀ (v1383 : BitVec 32) (k0_hw48 : k0_chk48 v1383), ∀ a, (k0_off159 v1383) a + S1x1x1x16.size a ≤ S2x16x8x64.size a := fun v1383 k0_hw48 => k0_hw48.2.2.1
theorem k0_off161_inb : ∀ (v1383 : BitVec 32) (k0_hw48 : k0_chk48 v1383), ∀ a, (k0_off161 v1383) a + S1x1x1x16.size a ≤ S2x16x8x64.size a := fun v1383 k0_hw48 => k0_hw48.2.2.2

def k0_off162 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c16_i32_806 : BitVec 32 := 16#32
  let v1384 : BitVec 32 := Scalar.muli v681 c16_i32_806
  let c15_i32_807 : BitVec 32 := 15#32
  let v1385 : BitVec 32 := Scalar.addi v1384 c15_i32_807
  let v1418 : Index := Scalar.indexCast v1385
  let c48_823 : Index := 48#32
  ![v1418.toNat, 48]
def k0_cond1 (k0_t1 : Fin k0_t1_loop.trips) : BitVec 1 :=
  let c0_i32_371 : BitVec 32 := 0#32
  let c1_i32_372 : BitVec 32 := 1#32
  let arg12 : BitVec 32 := Scf.iv c0_i32_371 c1_i32_372 k0_t1
  let c15_i32_824 : BitVec 32 := 15#32
  let v1422 : BitVec 1 := Scalar.cmpi .slt arg12 c15_i32_824
  let v1423 : BitVec 32 := Scalar.extui v1422
  let c0_i32_825 : BitVec 32 := 0#32
  let v1424 : BitVec 1 := Scalar.cmpi .ne v1423 c0_i32_825
  v1424

def k0_off163 (k0_t1 : Fin k0_t1_loop.trips) : Fin 1 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c2_i32_1278 : BitVec 32 := 2#32
  let v2169 : BitVec 32 := Scalar.addi v681 c2_i32_1278
  let c16_i32_1279 : BitVec 32 := 16#32
  let v2170 : BitVec 32 := Scalar.muli v2169 c16_i32_1279
  let v2171 : Index := Scalar.indexCast v2170
  ![v2171.toNat]
def k0_mult33 (v2175 : BitVec 32) : BitVec 32 :=
  v2175

def k0_off164 (v2175 : BitVec 32) : Fin 2 → Nat :=
  let v2176 : BitVec 32 := v2175
  let c0_i32_1284 : BitVec 32 := 0#32
  ![v2176.toNat, 0]

def k0_chk49 (k0_t1 : Fin k0_t1_loop.trips) (v2175 : BitVec 32) : Prop :=
  (∀ (k0_h1 : k0_cond1 k0_t1 = 1#1), 8 ∣ (k0_mult33 v2175).toNat) ∧
  (∀ (k0_h1 : k0_cond1 k0_t1 = 1#1), ∀ a, (k0_off164 v2175) a + S8x64.size a ≤ S1000000x64.size a)
instance k0_chk49.dec : ∀ (k0_t1 : Fin k0_t1_loop.trips) (v2175 : BitVec 32), Decidable (k0_chk49 k0_t1 v2175) := fun k0_t1 v2175 => decidable_of_iff' _ (Iff.of_eq (k0_chk49.eq_1 k0_t1 v2175))
theorem k0_mult33_dvd : ∀ (k0_t1 : Fin k0_t1_loop.trips) (v2175 : BitVec 32) (k0_hw49 : k0_chk49 k0_t1 v2175), ∀ (k0_h1 : k0_cond1 k0_t1 = 1#1), 8 ∣ (k0_mult33 v2175).toNat := fun k0_t1 v2175 k0_hw49 k0_h1 => k0_hw49.1 k0_h1
theorem k0_off164_inb : ∀ (k0_t1 : Fin k0_t1_loop.trips) (v2175 : BitVec 32) (k0_hw49 : k0_chk49 k0_t1 v2175), ∀ (k0_h1 : k0_cond1 k0_t1 = 1#1), ∀ a, (k0_off164 v2175) a + S8x64.size a ≤ S1000000x64.size a := fun k0_t1 v2175 k0_hw49 k0_h1 => k0_hw49.2 k0_h1

def k0_mult34 (v2184 : BitVec 32) : BitVec 32 :=
  v2184

def k0_off165 (v2184 : BitVec 32) : Fin 2 → Nat :=
  let v2185 : BitVec 32 := v2184
  let c0_i32_1292 : BitVec 32 := 0#32
  ![v2185.toNat, 0]

def k0_chk50 (k0_t1 : Fin k0_t1_loop.trips) (v2184 : BitVec 32) : Prop :=
  (∀ (k0_h1 : k0_cond1 k0_t1 = 1#1), 8 ∣ (k0_mult34 v2184).toNat) ∧
  (∀ (k0_h1 : k0_cond1 k0_t1 = 1#1), ∀ a, (k0_off165 v2184) a + S8x64.size a ≤ S1000000x64.size a)
instance k0_chk50.dec : ∀ (k0_t1 : Fin k0_t1_loop.trips) (v2184 : BitVec 32), Decidable (k0_chk50 k0_t1 v2184) := fun k0_t1 v2184 => decidable_of_iff' _ (Iff.of_eq (k0_chk50.eq_1 k0_t1 v2184))
theorem k0_mult34_dvd : ∀ (k0_t1 : Fin k0_t1_loop.trips) (v2184 : BitVec 32) (k0_hw50 : k0_chk50 k0_t1 v2184), ∀ (k0_h1 : k0_cond1 k0_t1 = 1#1), 8 ∣ (k0_mult34 v2184).toNat := fun k0_t1 v2184 k0_hw50 k0_h1 => k0_hw50.1 k0_h1
theorem k0_off165_inb : ∀ (k0_t1 : Fin k0_t1_loop.trips) (v2184 : BitVec 32) (k0_hw50 : k0_chk50 k0_t1 v2184), ∀ (k0_h1 : k0_cond1 k0_t1 = 1#1), ∀ a, (k0_off165 v2184) a + S8x64.size a ≤ S1000000x64.size a := fun k0_t1 v2184 k0_hw50 k0_h1 => k0_hw50.2 k0_h1

def k0_mult35 (v2193 : BitVec 32) : BitVec 32 :=
  v2193

def k0_off166 (v2193 : BitVec 32) : Fin 2 → Nat :=
  let v2194 : BitVec 32 := v2193
  let c0_i32_1300 : BitVec 32 := 0#32
  ![v2194.toNat, 0]

def k0_chk51 (k0_t1 : Fin k0_t1_loop.trips) (v2193 : BitVec 32) : Prop :=
  (∀ (k0_h1 : k0_cond1 k0_t1 = 1#1), 8 ∣ (k0_mult35 v2193).toNat) ∧
  (∀ (k0_h1 : k0_cond1 k0_t1 = 1#1), ∀ a, (k0_off166 v2193) a + S8x64.size a ≤ S1000000x64.size a)
instance k0_chk51.dec : ∀ (k0_t1 : Fin k0_t1_loop.trips) (v2193 : BitVec 32), Decidable (k0_chk51 k0_t1 v2193) := fun k0_t1 v2193 => decidable_of_iff' _ (Iff.of_eq (k0_chk51.eq_1 k0_t1 v2193))
theorem k0_mult35_dvd : ∀ (k0_t1 : Fin k0_t1_loop.trips) (v2193 : BitVec 32) (k0_hw51 : k0_chk51 k0_t1 v2193), ∀ (k0_h1 : k0_cond1 k0_t1 = 1#1), 8 ∣ (k0_mult35 v2193).toNat := fun k0_t1 v2193 k0_hw51 k0_h1 => k0_hw51.1 k0_h1
theorem k0_off166_inb : ∀ (k0_t1 : Fin k0_t1_loop.trips) (v2193 : BitVec 32) (k0_hw51 : k0_chk51 k0_t1 v2193), ∀ (k0_h1 : k0_cond1 k0_t1 = 1#1), ∀ a, (k0_off166 v2193) a + S8x64.size a ≤ S1000000x64.size a := fun k0_t1 v2193 k0_hw51 k0_h1 => k0_hw51.2 k0_h1

def k0_mult36 (v2202 : BitVec 32) : BitVec 32 :=
  v2202

def k0_off167 (v2202 : BitVec 32) : Fin 2 → Nat :=
  let v2203 : BitVec 32 := v2202
  let c0_i32_1308 : BitVec 32 := 0#32
  ![v2203.toNat, 0]

def k0_chk52 (k0_t1 : Fin k0_t1_loop.trips) (v2202 : BitVec 32) : Prop :=
  (∀ (k0_h1 : k0_cond1 k0_t1 = 1#1), 8 ∣ (k0_mult36 v2202).toNat) ∧
  (∀ (k0_h1 : k0_cond1 k0_t1 = 1#1), ∀ a, (k0_off167 v2202) a + S8x64.size a ≤ S1000000x64.size a)
instance k0_chk52.dec : ∀ (k0_t1 : Fin k0_t1_loop.trips) (v2202 : BitVec 32), Decidable (k0_chk52 k0_t1 v2202) := fun k0_t1 v2202 => decidable_of_iff' _ (Iff.of_eq (k0_chk52.eq_1 k0_t1 v2202))
theorem k0_mult36_dvd : ∀ (k0_t1 : Fin k0_t1_loop.trips) (v2202 : BitVec 32) (k0_hw52 : k0_chk52 k0_t1 v2202), ∀ (k0_h1 : k0_cond1 k0_t1 = 1#1), 8 ∣ (k0_mult36 v2202).toNat := fun k0_t1 v2202 k0_hw52 k0_h1 => k0_hw52.1 k0_h1
theorem k0_off167_inb : ∀ (k0_t1 : Fin k0_t1_loop.trips) (v2202 : BitVec 32) (k0_hw52 : k0_chk52 k0_t1 v2202), ∀ (k0_h1 : k0_cond1 k0_t1 = 1#1), ∀ a, (k0_off167 v2202) a + S8x64.size a ≤ S1000000x64.size a := fun k0_t1 v2202 k0_hw52 k0_h1 => k0_hw52.2 k0_h1

def k0_mult37 (v2211 : BitVec 32) : BitVec 32 :=
  v2211

def k0_off168 (v2211 : BitVec 32) : Fin 2 → Nat :=
  let v2212 : BitVec 32 := v2211
  let c0_i32_1316 : BitVec 32 := 0#32
  ![v2212.toNat, 0]

def k0_chk53 (k0_t1 : Fin k0_t1_loop.trips) (v2211 : BitVec 32) : Prop :=
  (∀ (k0_h1 : k0_cond1 k0_t1 = 1#1), 8 ∣ (k0_mult37 v2211).toNat) ∧
  (∀ (k0_h1 : k0_cond1 k0_t1 = 1#1), ∀ a, (k0_off168 v2211) a + S8x64.size a ≤ S1000000x64.size a)
instance k0_chk53.dec : ∀ (k0_t1 : Fin k0_t1_loop.trips) (v2211 : BitVec 32), Decidable (k0_chk53 k0_t1 v2211) := fun k0_t1 v2211 => decidable_of_iff' _ (Iff.of_eq (k0_chk53.eq_1 k0_t1 v2211))
theorem k0_mult37_dvd : ∀ (k0_t1 : Fin k0_t1_loop.trips) (v2211 : BitVec 32) (k0_hw53 : k0_chk53 k0_t1 v2211), ∀ (k0_h1 : k0_cond1 k0_t1 = 1#1), 8 ∣ (k0_mult37 v2211).toNat := fun k0_t1 v2211 k0_hw53 k0_h1 => k0_hw53.1 k0_h1
theorem k0_off168_inb : ∀ (k0_t1 : Fin k0_t1_loop.trips) (v2211 : BitVec 32) (k0_hw53 : k0_chk53 k0_t1 v2211), ∀ (k0_h1 : k0_cond1 k0_t1 = 1#1), ∀ a, (k0_off168 v2211) a + S8x64.size a ≤ S1000000x64.size a := fun k0_t1 v2211 k0_hw53 k0_h1 => k0_hw53.2 k0_h1

def k0_mult38 (v2220 : BitVec 32) : BitVec 32 :=
  v2220

def k0_off169 (v2220 : BitVec 32) : Fin 2 → Nat :=
  let v2221 : BitVec 32 := v2220
  let c0_i32_1324 : BitVec 32 := 0#32
  ![v2221.toNat, 0]

def k0_chk54 (k0_t1 : Fin k0_t1_loop.trips) (v2220 : BitVec 32) : Prop :=
  (∀ (k0_h1 : k0_cond1 k0_t1 = 1#1), 8 ∣ (k0_mult38 v2220).toNat) ∧
  (∀ (k0_h1 : k0_cond1 k0_t1 = 1#1), ∀ a, (k0_off169 v2220) a + S8x64.size a ≤ S1000000x64.size a)
instance k0_chk54.dec : ∀ (k0_t1 : Fin k0_t1_loop.trips) (v2220 : BitVec 32), Decidable (k0_chk54 k0_t1 v2220) := fun k0_t1 v2220 => decidable_of_iff' _ (Iff.of_eq (k0_chk54.eq_1 k0_t1 v2220))
theorem k0_mult38_dvd : ∀ (k0_t1 : Fin k0_t1_loop.trips) (v2220 : BitVec 32) (k0_hw54 : k0_chk54 k0_t1 v2220), ∀ (k0_h1 : k0_cond1 k0_t1 = 1#1), 8 ∣ (k0_mult38 v2220).toNat := fun k0_t1 v2220 k0_hw54 k0_h1 => k0_hw54.1 k0_h1
theorem k0_off169_inb : ∀ (k0_t1 : Fin k0_t1_loop.trips) (v2220 : BitVec 32) (k0_hw54 : k0_chk54 k0_t1 v2220), ∀ (k0_h1 : k0_cond1 k0_t1 = 1#1), ∀ a, (k0_off169 v2220) a + S8x64.size a ≤ S1000000x64.size a := fun k0_t1 v2220 k0_hw54 k0_h1 => k0_hw54.2 k0_h1

def k0_mult39 (v2229 : BitVec 32) : BitVec 32 :=
  v2229

def k0_off170 (v2229 : BitVec 32) : Fin 2 → Nat :=
  let v2230 : BitVec 32 := v2229
  let c0_i32_1332 : BitVec 32 := 0#32
  ![v2230.toNat, 0]

def k0_chk55 (k0_t1 : Fin k0_t1_loop.trips) (v2229 : BitVec 32) : Prop :=
  (∀ (k0_h1 : k0_cond1 k0_t1 = 1#1), 8 ∣ (k0_mult39 v2229).toNat) ∧
  (∀ (k0_h1 : k0_cond1 k0_t1 = 1#1), ∀ a, (k0_off170 v2229) a + S8x64.size a ≤ S1000000x64.size a)
instance k0_chk55.dec : ∀ (k0_t1 : Fin k0_t1_loop.trips) (v2229 : BitVec 32), Decidable (k0_chk55 k0_t1 v2229) := fun k0_t1 v2229 => decidable_of_iff' _ (Iff.of_eq (k0_chk55.eq_1 k0_t1 v2229))
theorem k0_mult39_dvd : ∀ (k0_t1 : Fin k0_t1_loop.trips) (v2229 : BitVec 32) (k0_hw55 : k0_chk55 k0_t1 v2229), ∀ (k0_h1 : k0_cond1 k0_t1 = 1#1), 8 ∣ (k0_mult39 v2229).toNat := fun k0_t1 v2229 k0_hw55 k0_h1 => k0_hw55.1 k0_h1
theorem k0_off170_inb : ∀ (k0_t1 : Fin k0_t1_loop.trips) (v2229 : BitVec 32) (k0_hw55 : k0_chk55 k0_t1 v2229), ∀ (k0_h1 : k0_cond1 k0_t1 = 1#1), ∀ a, (k0_off170 v2229) a + S8x64.size a ≤ S1000000x64.size a := fun k0_t1 v2229 k0_hw55 k0_h1 => k0_hw55.2 k0_h1

def k0_mult40 (v2238 : BitVec 32) : BitVec 32 :=
  v2238

def k0_off171 (v2238 : BitVec 32) : Fin 2 → Nat :=
  let v2239 : BitVec 32 := v2238
  let c0_i32_1340 : BitVec 32 := 0#32
  ![v2239.toNat, 0]

def k0_chk56 (k0_t1 : Fin k0_t1_loop.trips) (v2238 : BitVec 32) : Prop :=
  (∀ (k0_h1 : k0_cond1 k0_t1 = 1#1), 8 ∣ (k0_mult40 v2238).toNat) ∧
  (∀ (k0_h1 : k0_cond1 k0_t1 = 1#1), ∀ a, (k0_off171 v2238) a + S8x64.size a ≤ S1000000x64.size a)
instance k0_chk56.dec : ∀ (k0_t1 : Fin k0_t1_loop.trips) (v2238 : BitVec 32), Decidable (k0_chk56 k0_t1 v2238) := fun k0_t1 v2238 => decidable_of_iff' _ (Iff.of_eq (k0_chk56.eq_1 k0_t1 v2238))
theorem k0_mult40_dvd : ∀ (k0_t1 : Fin k0_t1_loop.trips) (v2238 : BitVec 32) (k0_hw56 : k0_chk56 k0_t1 v2238), ∀ (k0_h1 : k0_cond1 k0_t1 = 1#1), 8 ∣ (k0_mult40 v2238).toNat := fun k0_t1 v2238 k0_hw56 k0_h1 => k0_hw56.1 k0_h1
theorem k0_off171_inb : ∀ (k0_t1 : Fin k0_t1_loop.trips) (v2238 : BitVec 32) (k0_hw56 : k0_chk56 k0_t1 v2238), ∀ (k0_h1 : k0_cond1 k0_t1 = 1#1), ∀ a, (k0_off171 v2238) a + S8x64.size a ≤ S1000000x64.size a := fun k0_t1 v2238 k0_hw56 k0_h1 => k0_hw56.2 k0_h1

def k0_mult41 (v2247 : BitVec 32) : BitVec 32 :=
  v2247

def k0_off172 (v2247 : BitVec 32) : Fin 2 → Nat :=
  let v2248 : BitVec 32 := v2247
  let c0_i32_1348 : BitVec 32 := 0#32
  ![v2248.toNat, 0]

def k0_chk57 (k0_t1 : Fin k0_t1_loop.trips) (v2247 : BitVec 32) : Prop :=
  (∀ (k0_h1 : k0_cond1 k0_t1 = 1#1), 8 ∣ (k0_mult41 v2247).toNat) ∧
  (∀ (k0_h1 : k0_cond1 k0_t1 = 1#1), ∀ a, (k0_off172 v2247) a + S8x64.size a ≤ S1000000x64.size a)
instance k0_chk57.dec : ∀ (k0_t1 : Fin k0_t1_loop.trips) (v2247 : BitVec 32), Decidable (k0_chk57 k0_t1 v2247) := fun k0_t1 v2247 => decidable_of_iff' _ (Iff.of_eq (k0_chk57.eq_1 k0_t1 v2247))
theorem k0_mult41_dvd : ∀ (k0_t1 : Fin k0_t1_loop.trips) (v2247 : BitVec 32) (k0_hw57 : k0_chk57 k0_t1 v2247), ∀ (k0_h1 : k0_cond1 k0_t1 = 1#1), 8 ∣ (k0_mult41 v2247).toNat := fun k0_t1 v2247 k0_hw57 k0_h1 => k0_hw57.1 k0_h1
theorem k0_off172_inb : ∀ (k0_t1 : Fin k0_t1_loop.trips) (v2247 : BitVec 32) (k0_hw57 : k0_chk57 k0_t1 v2247), ∀ (k0_h1 : k0_cond1 k0_t1 = 1#1), ∀ a, (k0_off172 v2247) a + S8x64.size a ≤ S1000000x64.size a := fun k0_t1 v2247 k0_hw57 k0_h1 => k0_hw57.2 k0_h1

def k0_mult42 (v2256 : BitVec 32) : BitVec 32 :=
  v2256

def k0_off173 (v2256 : BitVec 32) : Fin 2 → Nat :=
  let v2257 : BitVec 32 := v2256
  let c0_i32_1356 : BitVec 32 := 0#32
  ![v2257.toNat, 0]

def k0_chk58 (k0_t1 : Fin k0_t1_loop.trips) (v2256 : BitVec 32) : Prop :=
  (∀ (k0_h1 : k0_cond1 k0_t1 = 1#1), 8 ∣ (k0_mult42 v2256).toNat) ∧
  (∀ (k0_h1 : k0_cond1 k0_t1 = 1#1), ∀ a, (k0_off173 v2256) a + S8x64.size a ≤ S1000000x64.size a)
instance k0_chk58.dec : ∀ (k0_t1 : Fin k0_t1_loop.trips) (v2256 : BitVec 32), Decidable (k0_chk58 k0_t1 v2256) := fun k0_t1 v2256 => decidable_of_iff' _ (Iff.of_eq (k0_chk58.eq_1 k0_t1 v2256))
theorem k0_mult42_dvd : ∀ (k0_t1 : Fin k0_t1_loop.trips) (v2256 : BitVec 32) (k0_hw58 : k0_chk58 k0_t1 v2256), ∀ (k0_h1 : k0_cond1 k0_t1 = 1#1), 8 ∣ (k0_mult42 v2256).toNat := fun k0_t1 v2256 k0_hw58 k0_h1 => k0_hw58.1 k0_h1
theorem k0_off173_inb : ∀ (k0_t1 : Fin k0_t1_loop.trips) (v2256 : BitVec 32) (k0_hw58 : k0_chk58 k0_t1 v2256), ∀ (k0_h1 : k0_cond1 k0_t1 = 1#1), ∀ a, (k0_off173 v2256) a + S8x64.size a ≤ S1000000x64.size a := fun k0_t1 v2256 k0_hw58 k0_h1 => k0_hw58.2 k0_h1

def k0_mult43 (v2265 : BitVec 32) : BitVec 32 :=
  v2265

def k0_off174 (v2265 : BitVec 32) : Fin 2 → Nat :=
  let v2266 : BitVec 32 := v2265
  let c0_i32_1364 : BitVec 32 := 0#32
  ![v2266.toNat, 0]

def k0_chk59 (k0_t1 : Fin k0_t1_loop.trips) (v2265 : BitVec 32) : Prop :=
  (∀ (k0_h1 : k0_cond1 k0_t1 = 1#1), 8 ∣ (k0_mult43 v2265).toNat) ∧
  (∀ (k0_h1 : k0_cond1 k0_t1 = 1#1), ∀ a, (k0_off174 v2265) a + S8x64.size a ≤ S1000000x64.size a)
instance k0_chk59.dec : ∀ (k0_t1 : Fin k0_t1_loop.trips) (v2265 : BitVec 32), Decidable (k0_chk59 k0_t1 v2265) := fun k0_t1 v2265 => decidable_of_iff' _ (Iff.of_eq (k0_chk59.eq_1 k0_t1 v2265))
theorem k0_mult43_dvd : ∀ (k0_t1 : Fin k0_t1_loop.trips) (v2265 : BitVec 32) (k0_hw59 : k0_chk59 k0_t1 v2265), ∀ (k0_h1 : k0_cond1 k0_t1 = 1#1), 8 ∣ (k0_mult43 v2265).toNat := fun k0_t1 v2265 k0_hw59 k0_h1 => k0_hw59.1 k0_h1
theorem k0_off174_inb : ∀ (k0_t1 : Fin k0_t1_loop.trips) (v2265 : BitVec 32) (k0_hw59 : k0_chk59 k0_t1 v2265), ∀ (k0_h1 : k0_cond1 k0_t1 = 1#1), ∀ a, (k0_off174 v2265) a + S8x64.size a ≤ S1000000x64.size a := fun k0_t1 v2265 k0_hw59 k0_h1 => k0_hw59.2 k0_h1

def k0_mult44 (v2274 : BitVec 32) : BitVec 32 :=
  v2274

def k0_off175 (v2274 : BitVec 32) : Fin 2 → Nat :=
  let v2275 : BitVec 32 := v2274
  let c0_i32_1372 : BitVec 32 := 0#32
  ![v2275.toNat, 0]

def k0_chk60 (k0_t1 : Fin k0_t1_loop.trips) (v2274 : BitVec 32) : Prop :=
  (∀ (k0_h1 : k0_cond1 k0_t1 = 1#1), 8 ∣ (k0_mult44 v2274).toNat) ∧
  (∀ (k0_h1 : k0_cond1 k0_t1 = 1#1), ∀ a, (k0_off175 v2274) a + S8x64.size a ≤ S1000000x64.size a)
instance k0_chk60.dec : ∀ (k0_t1 : Fin k0_t1_loop.trips) (v2274 : BitVec 32), Decidable (k0_chk60 k0_t1 v2274) := fun k0_t1 v2274 => decidable_of_iff' _ (Iff.of_eq (k0_chk60.eq_1 k0_t1 v2274))
theorem k0_mult44_dvd : ∀ (k0_t1 : Fin k0_t1_loop.trips) (v2274 : BitVec 32) (k0_hw60 : k0_chk60 k0_t1 v2274), ∀ (k0_h1 : k0_cond1 k0_t1 = 1#1), 8 ∣ (k0_mult44 v2274).toNat := fun k0_t1 v2274 k0_hw60 k0_h1 => k0_hw60.1 k0_h1
theorem k0_off175_inb : ∀ (k0_t1 : Fin k0_t1_loop.trips) (v2274 : BitVec 32) (k0_hw60 : k0_chk60 k0_t1 v2274), ∀ (k0_h1 : k0_cond1 k0_t1 = 1#1), ∀ a, (k0_off175 v2274) a + S8x64.size a ≤ S1000000x64.size a := fun k0_t1 v2274 k0_hw60 k0_h1 => k0_hw60.2 k0_h1

def k0_mult45 (v2283 : BitVec 32) : BitVec 32 :=
  v2283

def k0_off176 (v2283 : BitVec 32) : Fin 2 → Nat :=
  let v2284 : BitVec 32 := v2283
  let c0_i32_1380 : BitVec 32 := 0#32
  ![v2284.toNat, 0]

def k0_chk61 (k0_t1 : Fin k0_t1_loop.trips) (v2283 : BitVec 32) : Prop :=
  (∀ (k0_h1 : k0_cond1 k0_t1 = 1#1), 8 ∣ (k0_mult45 v2283).toNat) ∧
  (∀ (k0_h1 : k0_cond1 k0_t1 = 1#1), ∀ a, (k0_off176 v2283) a + S8x64.size a ≤ S1000000x64.size a)
instance k0_chk61.dec : ∀ (k0_t1 : Fin k0_t1_loop.trips) (v2283 : BitVec 32), Decidable (k0_chk61 k0_t1 v2283) := fun k0_t1 v2283 => decidable_of_iff' _ (Iff.of_eq (k0_chk61.eq_1 k0_t1 v2283))
theorem k0_mult45_dvd : ∀ (k0_t1 : Fin k0_t1_loop.trips) (v2283 : BitVec 32) (k0_hw61 : k0_chk61 k0_t1 v2283), ∀ (k0_h1 : k0_cond1 k0_t1 = 1#1), 8 ∣ (k0_mult45 v2283).toNat := fun k0_t1 v2283 k0_hw61 k0_h1 => k0_hw61.1 k0_h1
theorem k0_off176_inb : ∀ (k0_t1 : Fin k0_t1_loop.trips) (v2283 : BitVec 32) (k0_hw61 : k0_chk61 k0_t1 v2283), ∀ (k0_h1 : k0_cond1 k0_t1 = 1#1), ∀ a, (k0_off176 v2283) a + S8x64.size a ≤ S1000000x64.size a := fun k0_t1 v2283 k0_hw61 k0_h1 => k0_hw61.2 k0_h1

def k0_mult46 (v2292 : BitVec 32) : BitVec 32 :=
  v2292

def k0_off177 (v2292 : BitVec 32) : Fin 2 → Nat :=
  let v2293 : BitVec 32 := v2292
  let c0_i32_1388 : BitVec 32 := 0#32
  ![v2293.toNat, 0]

def k0_chk62 (k0_t1 : Fin k0_t1_loop.trips) (v2292 : BitVec 32) : Prop :=
  (∀ (k0_h1 : k0_cond1 k0_t1 = 1#1), 8 ∣ (k0_mult46 v2292).toNat) ∧
  (∀ (k0_h1 : k0_cond1 k0_t1 = 1#1), ∀ a, (k0_off177 v2292) a + S8x64.size a ≤ S1000000x64.size a)
instance k0_chk62.dec : ∀ (k0_t1 : Fin k0_t1_loop.trips) (v2292 : BitVec 32), Decidable (k0_chk62 k0_t1 v2292) := fun k0_t1 v2292 => decidable_of_iff' _ (Iff.of_eq (k0_chk62.eq_1 k0_t1 v2292))
theorem k0_mult46_dvd : ∀ (k0_t1 : Fin k0_t1_loop.trips) (v2292 : BitVec 32) (k0_hw62 : k0_chk62 k0_t1 v2292), ∀ (k0_h1 : k0_cond1 k0_t1 = 1#1), 8 ∣ (k0_mult46 v2292).toNat := fun k0_t1 v2292 k0_hw62 k0_h1 => k0_hw62.1 k0_h1
theorem k0_off177_inb : ∀ (k0_t1 : Fin k0_t1_loop.trips) (v2292 : BitVec 32) (k0_hw62 : k0_chk62 k0_t1 v2292), ∀ (k0_h1 : k0_cond1 k0_t1 = 1#1), ∀ a, (k0_off177 v2292) a + S8x64.size a ≤ S1000000x64.size a := fun k0_t1 v2292 k0_hw62 k0_h1 => k0_hw62.2 k0_h1

def k0_mult47 (v2301 : BitVec 32) : BitVec 32 :=
  v2301

def k0_off178 (v2301 : BitVec 32) : Fin 2 → Nat :=
  let v2302 : BitVec 32 := v2301
  let c0_i32_1396 : BitVec 32 := 0#32
  ![v2302.toNat, 0]

def k0_chk63 (k0_t1 : Fin k0_t1_loop.trips) (v2301 : BitVec 32) : Prop :=
  (∀ (k0_h1 : k0_cond1 k0_t1 = 1#1), 8 ∣ (k0_mult47 v2301).toNat) ∧
  (∀ (k0_h1 : k0_cond1 k0_t1 = 1#1), ∀ a, (k0_off178 v2301) a + S8x64.size a ≤ S1000000x64.size a)
instance k0_chk63.dec : ∀ (k0_t1 : Fin k0_t1_loop.trips) (v2301 : BitVec 32), Decidable (k0_chk63 k0_t1 v2301) := fun k0_t1 v2301 => decidable_of_iff' _ (Iff.of_eq (k0_chk63.eq_1 k0_t1 v2301))
theorem k0_mult47_dvd : ∀ (k0_t1 : Fin k0_t1_loop.trips) (v2301 : BitVec 32) (k0_hw63 : k0_chk63 k0_t1 v2301), ∀ (k0_h1 : k0_cond1 k0_t1 = 1#1), 8 ∣ (k0_mult47 v2301).toNat := fun k0_t1 v2301 k0_hw63 k0_h1 => k0_hw63.1 k0_h1
theorem k0_off178_inb : ∀ (k0_t1 : Fin k0_t1_loop.trips) (v2301 : BitVec 32) (k0_hw63 : k0_chk63 k0_t1 v2301), ∀ (k0_h1 : k0_cond1 k0_t1 = 1#1), ∀ a, (k0_off178 v2301) a + S8x64.size a ≤ S1000000x64.size a := fun k0_t1 v2301 k0_hw63 k0_h1 => k0_hw63.2 k0_h1

def k0_mult48 (v2310 : BitVec 32) : BitVec 32 :=
  v2310

def k0_off179 (v2310 : BitVec 32) : Fin 2 → Nat :=
  let v2311 : BitVec 32 := v2310
  let c0_i32_1404 : BitVec 32 := 0#32
  ![v2311.toNat, 0]

def k0_chk64 (k0_t1 : Fin k0_t1_loop.trips) (v2310 : BitVec 32) : Prop :=
  (∀ (k0_h1 : k0_cond1 k0_t1 = 1#1), 8 ∣ (k0_mult48 v2310).toNat) ∧
  (∀ (k0_h1 : k0_cond1 k0_t1 = 1#1), ∀ a, (k0_off179 v2310) a + S8x64.size a ≤ S1000000x64.size a)
instance k0_chk64.dec : ∀ (k0_t1 : Fin k0_t1_loop.trips) (v2310 : BitVec 32), Decidable (k0_chk64 k0_t1 v2310) := fun k0_t1 v2310 => decidable_of_iff' _ (Iff.of_eq (k0_chk64.eq_1 k0_t1 v2310))
theorem k0_mult48_dvd : ∀ (k0_t1 : Fin k0_t1_loop.trips) (v2310 : BitVec 32) (k0_hw64 : k0_chk64 k0_t1 v2310), ∀ (k0_h1 : k0_cond1 k0_t1 = 1#1), 8 ∣ (k0_mult48 v2310).toNat := fun k0_t1 v2310 k0_hw64 k0_h1 => k0_hw64.1 k0_h1
theorem k0_off179_inb : ∀ (k0_t1 : Fin k0_t1_loop.trips) (v2310 : BitVec 32) (k0_hw64 : k0_chk64 k0_t1 v2310), ∀ (k0_h1 : k0_cond1 k0_t1 = 1#1), ∀ a, (k0_off179 v2310) a + S8x64.size a ≤ S1000000x64.size a := fun k0_t1 v2310 k0_hw64 k0_h1 => k0_hw64.2 k0_h1

def k0_off180 (k0_t1 : Fin k0_t1_loop.trips) : Fin 1 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_987 : BitVec 32 := 16#32
  let v1522 : BitVec 32 := Scalar.muli v1521 c16_i32_987
  let v1523 : Index := Scalar.indexCast v1522
  ![v1523.toNat]
def k0_off181 (v1527 : BitVec 32) : Fin 4 → Nat :=
  let c1_i32_990 : BitVec 32 := 1#32
  let v1530 : Index := Scalar.indexCast c1_i32_990
  let c0_i32_991 : BitVec 32 := 0#32
  let v1531 : Index := Scalar.indexCast c0_i32_991
  let v1532 : Index := Scalar.indexCast v1527
  let c0_992 : Index := 0#32
  ![1, 0, v1532.toNat, 0]

def k0_off182 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_988 : BitVec 32 := 16#32
  let v1528 : BitVec 32 := Scalar.muli v1521 c16_i32_988
  let c0_i32_989 : BitVec 32 := 0#32
  let v1529 : BitVec 32 := Scalar.addi v1528 c0_i32_989
  let v1535 : Index := Scalar.indexCast v1529
  let c0_993 : Index := 0#32
  ![v1535.toNat, 0]
def k0_off183 (v1527 : BitVec 32) : Fin 4 → Nat :=
  let c1_i32_994 : BitVec 32 := 1#32
  let v1539 : Index := Scalar.indexCast c1_i32_994
  let c0_i32_995 : BitVec 32 := 0#32
  let v1540 : Index := Scalar.indexCast c0_i32_995
  let v1541 : Index := Scalar.indexCast v1527
  let c16_996 : Index := 16#32
  ![1, 0, v1541.toNat, 16]
def k0_off184 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_988 : BitVec 32 := 16#32
  let v1528 : BitVec 32 := Scalar.muli v1521 c16_i32_988
  let c0_i32_989 : BitVec 32 := 0#32
  let v1529 : BitVec 32 := Scalar.addi v1528 c0_i32_989
  let v1544 : Index := Scalar.indexCast v1529
  let c16_997 : Index := 16#32
  ![v1544.toNat, 16]
def k0_off185 (v1527 : BitVec 32) : Fin 4 → Nat :=
  let c1_i32_998 : BitVec 32 := 1#32
  let v1548 : Index := Scalar.indexCast c1_i32_998
  let c0_i32_999 : BitVec 32 := 0#32
  let v1549 : Index := Scalar.indexCast c0_i32_999
  let v1550 : Index := Scalar.indexCast v1527
  let c32_1000 : Index := 32#32
  ![1, 0, v1550.toNat, 32]
def k0_off186 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_988 : BitVec 32 := 16#32
  let v1528 : BitVec 32 := Scalar.muli v1521 c16_i32_988
  let c0_i32_989 : BitVec 32 := 0#32
  let v1529 : BitVec 32 := Scalar.addi v1528 c0_i32_989
  let v1553 : Index := Scalar.indexCast v1529
  let c32_1001 : Index := 32#32
  ![v1553.toNat, 32]
def k0_off187 (v1527 : BitVec 32) : Fin 4 → Nat :=
  let c1_i32_1002 : BitVec 32 := 1#32
  let v1557 : Index := Scalar.indexCast c1_i32_1002
  let c0_i32_1003 : BitVec 32 := 0#32
  let v1558 : Index := Scalar.indexCast c0_i32_1003
  let v1559 : Index := Scalar.indexCast v1527
  let c48_1004 : Index := 48#32
  ![1, 0, v1559.toNat, 48]

def k0_chk65 (v1527 : BitVec 32) : Prop :=
  (∀ a, (k0_off181 v1527) a + S1x1x1x16.size a ≤ S2x16x8x64.size a) ∧
  (∀ a, (k0_off183 v1527) a + S1x1x1x16.size a ≤ S2x16x8x64.size a) ∧
  (∀ a, (k0_off185 v1527) a + S1x1x1x16.size a ≤ S2x16x8x64.size a) ∧
  (∀ a, (k0_off187 v1527) a + S1x1x1x16.size a ≤ S2x16x8x64.size a)
instance k0_chk65.dec : ∀ (v1527 : BitVec 32), Decidable (k0_chk65 v1527) := fun v1527 => decidable_of_iff' _ (Iff.of_eq (k0_chk65.eq_1 v1527))
theorem k0_off181_inb : ∀ (v1527 : BitVec 32) (k0_hw65 : k0_chk65 v1527), ∀ a, (k0_off181 v1527) a + S1x1x1x16.size a ≤ S2x16x8x64.size a := fun v1527 k0_hw65 => k0_hw65.1
theorem k0_off183_inb : ∀ (v1527 : BitVec 32) (k0_hw65 : k0_chk65 v1527), ∀ a, (k0_off183 v1527) a + S1x1x1x16.size a ≤ S2x16x8x64.size a := fun v1527 k0_hw65 => k0_hw65.2.1
theorem k0_off185_inb : ∀ (v1527 : BitVec 32) (k0_hw65 : k0_chk65 v1527), ∀ a, (k0_off185 v1527) a + S1x1x1x16.size a ≤ S2x16x8x64.size a := fun v1527 k0_hw65 => k0_hw65.2.2.1
theorem k0_off187_inb : ∀ (v1527 : BitVec 32) (k0_hw65 : k0_chk65 v1527), ∀ a, (k0_off187 v1527) a + S1x1x1x16.size a ≤ S2x16x8x64.size a := fun v1527 k0_hw65 => k0_hw65.2.2.2

def k0_off188 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_988 : BitVec 32 := 16#32
  let v1528 : BitVec 32 := Scalar.muli v1521 c16_i32_988
  let c0_i32_989 : BitVec 32 := 0#32
  let v1529 : BitVec 32 := Scalar.addi v1528 c0_i32_989
  let v1562 : Index := Scalar.indexCast v1529
  let c48_1005 : Index := 48#32
  ![v1562.toNat, 48]
def k0_off189 (v1567 : BitVec 32) : Fin 4 → Nat :=
  let c1_i32_1008 : BitVec 32 := 1#32
  let v1570 : Index := Scalar.indexCast c1_i32_1008
  let c1_i32_1009 : BitVec 32 := 1#32
  let v1571 : Index := Scalar.indexCast c1_i32_1009
  let v1572 : Index := Scalar.indexCast v1567
  let c0_1010 : Index := 0#32
  ![1, 1, v1572.toNat, 0]

def k0_off190 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1006 : BitVec 32 := 16#32
  let v1568 : BitVec 32 := Scalar.muli v1521 c16_i32_1006
  let c1_i32_1007 : BitVec 32 := 1#32
  let v1569 : BitVec 32 := Scalar.addi v1568 c1_i32_1007
  let v1575 : Index := Scalar.indexCast v1569
  let c0_1011 : Index := 0#32
  ![v1575.toNat, 0]
def k0_off191 (v1567 : BitVec 32) : Fin 4 → Nat :=
  let c1_i32_1012 : BitVec 32 := 1#32
  let v1579 : Index := Scalar.indexCast c1_i32_1012
  let c1_i32_1013 : BitVec 32 := 1#32
  let v1580 : Index := Scalar.indexCast c1_i32_1013
  let v1581 : Index := Scalar.indexCast v1567
  let c16_1014 : Index := 16#32
  ![1, 1, v1581.toNat, 16]
def k0_off192 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1006 : BitVec 32 := 16#32
  let v1568 : BitVec 32 := Scalar.muli v1521 c16_i32_1006
  let c1_i32_1007 : BitVec 32 := 1#32
  let v1569 : BitVec 32 := Scalar.addi v1568 c1_i32_1007
  let v1584 : Index := Scalar.indexCast v1569
  let c16_1015 : Index := 16#32
  ![v1584.toNat, 16]
def k0_off193 (v1567 : BitVec 32) : Fin 4 → Nat :=
  let c1_i32_1016 : BitVec 32 := 1#32
  let v1588 : Index := Scalar.indexCast c1_i32_1016
  let c1_i32_1017 : BitVec 32 := 1#32
  let v1589 : Index := Scalar.indexCast c1_i32_1017
  let v1590 : Index := Scalar.indexCast v1567
  let c32_1018 : Index := 32#32
  ![1, 1, v1590.toNat, 32]
def k0_off194 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1006 : BitVec 32 := 16#32
  let v1568 : BitVec 32 := Scalar.muli v1521 c16_i32_1006
  let c1_i32_1007 : BitVec 32 := 1#32
  let v1569 : BitVec 32 := Scalar.addi v1568 c1_i32_1007
  let v1593 : Index := Scalar.indexCast v1569
  let c32_1019 : Index := 32#32
  ![v1593.toNat, 32]
def k0_off195 (v1567 : BitVec 32) : Fin 4 → Nat :=
  let c1_i32_1020 : BitVec 32 := 1#32
  let v1597 : Index := Scalar.indexCast c1_i32_1020
  let c1_i32_1021 : BitVec 32 := 1#32
  let v1598 : Index := Scalar.indexCast c1_i32_1021
  let v1599 : Index := Scalar.indexCast v1567
  let c48_1022 : Index := 48#32
  ![1, 1, v1599.toNat, 48]

def k0_chk66 (v1567 : BitVec 32) : Prop :=
  (∀ a, (k0_off189 v1567) a + S1x1x1x16.size a ≤ S2x16x8x64.size a) ∧
  (∀ a, (k0_off191 v1567) a + S1x1x1x16.size a ≤ S2x16x8x64.size a) ∧
  (∀ a, (k0_off193 v1567) a + S1x1x1x16.size a ≤ S2x16x8x64.size a) ∧
  (∀ a, (k0_off195 v1567) a + S1x1x1x16.size a ≤ S2x16x8x64.size a)
instance k0_chk66.dec : ∀ (v1567 : BitVec 32), Decidable (k0_chk66 v1567) := fun v1567 => decidable_of_iff' _ (Iff.of_eq (k0_chk66.eq_1 v1567))
theorem k0_off189_inb : ∀ (v1567 : BitVec 32) (k0_hw66 : k0_chk66 v1567), ∀ a, (k0_off189 v1567) a + S1x1x1x16.size a ≤ S2x16x8x64.size a := fun v1567 k0_hw66 => k0_hw66.1
theorem k0_off191_inb : ∀ (v1567 : BitVec 32) (k0_hw66 : k0_chk66 v1567), ∀ a, (k0_off191 v1567) a + S1x1x1x16.size a ≤ S2x16x8x64.size a := fun v1567 k0_hw66 => k0_hw66.2.1
theorem k0_off193_inb : ∀ (v1567 : BitVec 32) (k0_hw66 : k0_chk66 v1567), ∀ a, (k0_off193 v1567) a + S1x1x1x16.size a ≤ S2x16x8x64.size a := fun v1567 k0_hw66 => k0_hw66.2.2.1
theorem k0_off195_inb : ∀ (v1567 : BitVec 32) (k0_hw66 : k0_chk66 v1567), ∀ a, (k0_off195 v1567) a + S1x1x1x16.size a ≤ S2x16x8x64.size a := fun v1567 k0_hw66 => k0_hw66.2.2.2

def k0_off196 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1006 : BitVec 32 := 16#32
  let v1568 : BitVec 32 := Scalar.muli v1521 c16_i32_1006
  let c1_i32_1007 : BitVec 32 := 1#32
  let v1569 : BitVec 32 := Scalar.addi v1568 c1_i32_1007
  let v1602 : Index := Scalar.indexCast v1569
  let c48_1023 : Index := 48#32
  ![v1602.toNat, 48]
def k0_off197 (v1607 : BitVec 32) : Fin 4 → Nat :=
  let c1_i32_1026 : BitVec 32 := 1#32
  let v1610 : Index := Scalar.indexCast c1_i32_1026
  let c2_i32_1027 : BitVec 32 := 2#32
  let v1611 : Index := Scalar.indexCast c2_i32_1027
  let v1612 : Index := Scalar.indexCast v1607
  let c0_1028 : Index := 0#32
  ![1, 2, v1612.toNat, 0]

def k0_off198 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1024 : BitVec 32 := 16#32
  let v1608 : BitVec 32 := Scalar.muli v1521 c16_i32_1024
  let c2_i32_1025 : BitVec 32 := 2#32
  let v1609 : BitVec 32 := Scalar.addi v1608 c2_i32_1025
  let v1615 : Index := Scalar.indexCast v1609
  let c0_1029 : Index := 0#32
  ![v1615.toNat, 0]
def k0_off199 (v1607 : BitVec 32) : Fin 4 → Nat :=
  let c1_i32_1030 : BitVec 32 := 1#32
  let v1619 : Index := Scalar.indexCast c1_i32_1030
  let c2_i32_1031 : BitVec 32 := 2#32
  let v1620 : Index := Scalar.indexCast c2_i32_1031
  let v1621 : Index := Scalar.indexCast v1607
  let c16_1032 : Index := 16#32
  ![1, 2, v1621.toNat, 16]
def k0_off200 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1024 : BitVec 32 := 16#32
  let v1608 : BitVec 32 := Scalar.muli v1521 c16_i32_1024
  let c2_i32_1025 : BitVec 32 := 2#32
  let v1609 : BitVec 32 := Scalar.addi v1608 c2_i32_1025
  let v1624 : Index := Scalar.indexCast v1609
  let c16_1033 : Index := 16#32
  ![v1624.toNat, 16]
def k0_off201 (v1607 : BitVec 32) : Fin 4 → Nat :=
  let c1_i32_1034 : BitVec 32 := 1#32
  let v1628 : Index := Scalar.indexCast c1_i32_1034
  let c2_i32_1035 : BitVec 32 := 2#32
  let v1629 : Index := Scalar.indexCast c2_i32_1035
  let v1630 : Index := Scalar.indexCast v1607
  let c32_1036 : Index := 32#32
  ![1, 2, v1630.toNat, 32]
def k0_off202 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1024 : BitVec 32 := 16#32
  let v1608 : BitVec 32 := Scalar.muli v1521 c16_i32_1024
  let c2_i32_1025 : BitVec 32 := 2#32
  let v1609 : BitVec 32 := Scalar.addi v1608 c2_i32_1025
  let v1633 : Index := Scalar.indexCast v1609
  let c32_1037 : Index := 32#32
  ![v1633.toNat, 32]
def k0_off203 (v1607 : BitVec 32) : Fin 4 → Nat :=
  let c1_i32_1038 : BitVec 32 := 1#32
  let v1637 : Index := Scalar.indexCast c1_i32_1038
  let c2_i32_1039 : BitVec 32 := 2#32
  let v1638 : Index := Scalar.indexCast c2_i32_1039
  let v1639 : Index := Scalar.indexCast v1607
  let c48_1040 : Index := 48#32
  ![1, 2, v1639.toNat, 48]

def k0_chk67 (v1607 : BitVec 32) : Prop :=
  (∀ a, (k0_off197 v1607) a + S1x1x1x16.size a ≤ S2x16x8x64.size a) ∧
  (∀ a, (k0_off199 v1607) a + S1x1x1x16.size a ≤ S2x16x8x64.size a) ∧
  (∀ a, (k0_off201 v1607) a + S1x1x1x16.size a ≤ S2x16x8x64.size a) ∧
  (∀ a, (k0_off203 v1607) a + S1x1x1x16.size a ≤ S2x16x8x64.size a)
instance k0_chk67.dec : ∀ (v1607 : BitVec 32), Decidable (k0_chk67 v1607) := fun v1607 => decidable_of_iff' _ (Iff.of_eq (k0_chk67.eq_1 v1607))
theorem k0_off197_inb : ∀ (v1607 : BitVec 32) (k0_hw67 : k0_chk67 v1607), ∀ a, (k0_off197 v1607) a + S1x1x1x16.size a ≤ S2x16x8x64.size a := fun v1607 k0_hw67 => k0_hw67.1
theorem k0_off199_inb : ∀ (v1607 : BitVec 32) (k0_hw67 : k0_chk67 v1607), ∀ a, (k0_off199 v1607) a + S1x1x1x16.size a ≤ S2x16x8x64.size a := fun v1607 k0_hw67 => k0_hw67.2.1
theorem k0_off201_inb : ∀ (v1607 : BitVec 32) (k0_hw67 : k0_chk67 v1607), ∀ a, (k0_off201 v1607) a + S1x1x1x16.size a ≤ S2x16x8x64.size a := fun v1607 k0_hw67 => k0_hw67.2.2.1
theorem k0_off203_inb : ∀ (v1607 : BitVec 32) (k0_hw67 : k0_chk67 v1607), ∀ a, (k0_off203 v1607) a + S1x1x1x16.size a ≤ S2x16x8x64.size a := fun v1607 k0_hw67 => k0_hw67.2.2.2

def k0_off204 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1024 : BitVec 32 := 16#32
  let v1608 : BitVec 32 := Scalar.muli v1521 c16_i32_1024
  let c2_i32_1025 : BitVec 32 := 2#32
  let v1609 : BitVec 32 := Scalar.addi v1608 c2_i32_1025
  let v1642 : Index := Scalar.indexCast v1609
  let c48_1041 : Index := 48#32
  ![v1642.toNat, 48]
def k0_off205 (v1647 : BitVec 32) : Fin 4 → Nat :=
  let c1_i32_1044 : BitVec 32 := 1#32
  let v1650 : Index := Scalar.indexCast c1_i32_1044
  let c3_i32_1045 : BitVec 32 := 3#32
  let v1651 : Index := Scalar.indexCast c3_i32_1045
  let v1652 : Index := Scalar.indexCast v1647
  let c0_1046 : Index := 0#32
  ![1, 3, v1652.toNat, 0]

def k0_off206 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1042 : BitVec 32 := 16#32
  let v1648 : BitVec 32 := Scalar.muli v1521 c16_i32_1042
  let c3_i32_1043 : BitVec 32 := 3#32
  let v1649 : BitVec 32 := Scalar.addi v1648 c3_i32_1043
  let v1655 : Index := Scalar.indexCast v1649
  let c0_1047 : Index := 0#32
  ![v1655.toNat, 0]
def k0_off207 (v1647 : BitVec 32) : Fin 4 → Nat :=
  let c1_i32_1048 : BitVec 32 := 1#32
  let v1659 : Index := Scalar.indexCast c1_i32_1048
  let c3_i32_1049 : BitVec 32 := 3#32
  let v1660 : Index := Scalar.indexCast c3_i32_1049
  let v1661 : Index := Scalar.indexCast v1647
  let c16_1050 : Index := 16#32
  ![1, 3, v1661.toNat, 16]
def k0_off208 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1042 : BitVec 32 := 16#32
  let v1648 : BitVec 32 := Scalar.muli v1521 c16_i32_1042
  let c3_i32_1043 : BitVec 32 := 3#32
  let v1649 : BitVec 32 := Scalar.addi v1648 c3_i32_1043
  let v1664 : Index := Scalar.indexCast v1649
  let c16_1051 : Index := 16#32
  ![v1664.toNat, 16]
def k0_off209 (v1647 : BitVec 32) : Fin 4 → Nat :=
  let c1_i32_1052 : BitVec 32 := 1#32
  let v1668 : Index := Scalar.indexCast c1_i32_1052
  let c3_i32_1053 : BitVec 32 := 3#32
  let v1669 : Index := Scalar.indexCast c3_i32_1053
  let v1670 : Index := Scalar.indexCast v1647
  let c32_1054 : Index := 32#32
  ![1, 3, v1670.toNat, 32]
def k0_off210 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1042 : BitVec 32 := 16#32
  let v1648 : BitVec 32 := Scalar.muli v1521 c16_i32_1042
  let c3_i32_1043 : BitVec 32 := 3#32
  let v1649 : BitVec 32 := Scalar.addi v1648 c3_i32_1043
  let v1673 : Index := Scalar.indexCast v1649
  let c32_1055 : Index := 32#32
  ![v1673.toNat, 32]
def k0_off211 (v1647 : BitVec 32) : Fin 4 → Nat :=
  let c1_i32_1056 : BitVec 32 := 1#32
  let v1677 : Index := Scalar.indexCast c1_i32_1056
  let c3_i32_1057 : BitVec 32 := 3#32
  let v1678 : Index := Scalar.indexCast c3_i32_1057
  let v1679 : Index := Scalar.indexCast v1647
  let c48_1058 : Index := 48#32
  ![1, 3, v1679.toNat, 48]

def k0_chk68 (v1647 : BitVec 32) : Prop :=
  (∀ a, (k0_off205 v1647) a + S1x1x1x16.size a ≤ S2x16x8x64.size a) ∧
  (∀ a, (k0_off207 v1647) a + S1x1x1x16.size a ≤ S2x16x8x64.size a) ∧
  (∀ a, (k0_off209 v1647) a + S1x1x1x16.size a ≤ S2x16x8x64.size a) ∧
  (∀ a, (k0_off211 v1647) a + S1x1x1x16.size a ≤ S2x16x8x64.size a)
instance k0_chk68.dec : ∀ (v1647 : BitVec 32), Decidable (k0_chk68 v1647) := fun v1647 => decidable_of_iff' _ (Iff.of_eq (k0_chk68.eq_1 v1647))
theorem k0_off205_inb : ∀ (v1647 : BitVec 32) (k0_hw68 : k0_chk68 v1647), ∀ a, (k0_off205 v1647) a + S1x1x1x16.size a ≤ S2x16x8x64.size a := fun v1647 k0_hw68 => k0_hw68.1
theorem k0_off207_inb : ∀ (v1647 : BitVec 32) (k0_hw68 : k0_chk68 v1647), ∀ a, (k0_off207 v1647) a + S1x1x1x16.size a ≤ S2x16x8x64.size a := fun v1647 k0_hw68 => k0_hw68.2.1
theorem k0_off209_inb : ∀ (v1647 : BitVec 32) (k0_hw68 : k0_chk68 v1647), ∀ a, (k0_off209 v1647) a + S1x1x1x16.size a ≤ S2x16x8x64.size a := fun v1647 k0_hw68 => k0_hw68.2.2.1
theorem k0_off211_inb : ∀ (v1647 : BitVec 32) (k0_hw68 : k0_chk68 v1647), ∀ a, (k0_off211 v1647) a + S1x1x1x16.size a ≤ S2x16x8x64.size a := fun v1647 k0_hw68 => k0_hw68.2.2.2

def k0_off212 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1042 : BitVec 32 := 16#32
  let v1648 : BitVec 32 := Scalar.muli v1521 c16_i32_1042
  let c3_i32_1043 : BitVec 32 := 3#32
  let v1649 : BitVec 32 := Scalar.addi v1648 c3_i32_1043
  let v1682 : Index := Scalar.indexCast v1649
  let c48_1059 : Index := 48#32
  ![v1682.toNat, 48]
def k0_off213 (v1687 : BitVec 32) : Fin 4 → Nat :=
  let c1_i32_1062 : BitVec 32 := 1#32
  let v1690 : Index := Scalar.indexCast c1_i32_1062
  let c4_i32_1063 : BitVec 32 := 4#32
  let v1691 : Index := Scalar.indexCast c4_i32_1063
  let v1692 : Index := Scalar.indexCast v1687
  let c0_1064 : Index := 0#32
  ![1, 4, v1692.toNat, 0]

def k0_off214 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1060 : BitVec 32 := 16#32
  let v1688 : BitVec 32 := Scalar.muli v1521 c16_i32_1060
  let c4_i32_1061 : BitVec 32 := 4#32
  let v1689 : BitVec 32 := Scalar.addi v1688 c4_i32_1061
  let v1695 : Index := Scalar.indexCast v1689
  let c0_1065 : Index := 0#32
  ![v1695.toNat, 0]
def k0_off215 (v1687 : BitVec 32) : Fin 4 → Nat :=
  let c1_i32_1066 : BitVec 32 := 1#32
  let v1699 : Index := Scalar.indexCast c1_i32_1066
  let c4_i32_1067 : BitVec 32 := 4#32
  let v1700 : Index := Scalar.indexCast c4_i32_1067
  let v1701 : Index := Scalar.indexCast v1687
  let c16_1068 : Index := 16#32
  ![1, 4, v1701.toNat, 16]
def k0_off216 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1060 : BitVec 32 := 16#32
  let v1688 : BitVec 32 := Scalar.muli v1521 c16_i32_1060
  let c4_i32_1061 : BitVec 32 := 4#32
  let v1689 : BitVec 32 := Scalar.addi v1688 c4_i32_1061
  let v1704 : Index := Scalar.indexCast v1689
  let c16_1069 : Index := 16#32
  ![v1704.toNat, 16]
def k0_off217 (v1687 : BitVec 32) : Fin 4 → Nat :=
  let c1_i32_1070 : BitVec 32 := 1#32
  let v1708 : Index := Scalar.indexCast c1_i32_1070
  let c4_i32_1071 : BitVec 32 := 4#32
  let v1709 : Index := Scalar.indexCast c4_i32_1071
  let v1710 : Index := Scalar.indexCast v1687
  let c32_1072 : Index := 32#32
  ![1, 4, v1710.toNat, 32]
def k0_off218 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1060 : BitVec 32 := 16#32
  let v1688 : BitVec 32 := Scalar.muli v1521 c16_i32_1060
  let c4_i32_1061 : BitVec 32 := 4#32
  let v1689 : BitVec 32 := Scalar.addi v1688 c4_i32_1061
  let v1713 : Index := Scalar.indexCast v1689
  let c32_1073 : Index := 32#32
  ![v1713.toNat, 32]
def k0_off219 (v1687 : BitVec 32) : Fin 4 → Nat :=
  let c1_i32_1074 : BitVec 32 := 1#32
  let v1717 : Index := Scalar.indexCast c1_i32_1074
  let c4_i32_1075 : BitVec 32 := 4#32
  let v1718 : Index := Scalar.indexCast c4_i32_1075
  let v1719 : Index := Scalar.indexCast v1687
  let c48_1076 : Index := 48#32
  ![1, 4, v1719.toNat, 48]

def k0_chk69 (v1687 : BitVec 32) : Prop :=
  (∀ a, (k0_off213 v1687) a + S1x1x1x16.size a ≤ S2x16x8x64.size a) ∧
  (∀ a, (k0_off215 v1687) a + S1x1x1x16.size a ≤ S2x16x8x64.size a) ∧
  (∀ a, (k0_off217 v1687) a + S1x1x1x16.size a ≤ S2x16x8x64.size a) ∧
  (∀ a, (k0_off219 v1687) a + S1x1x1x16.size a ≤ S2x16x8x64.size a)
instance k0_chk69.dec : ∀ (v1687 : BitVec 32), Decidable (k0_chk69 v1687) := fun v1687 => decidable_of_iff' _ (Iff.of_eq (k0_chk69.eq_1 v1687))
theorem k0_off213_inb : ∀ (v1687 : BitVec 32) (k0_hw69 : k0_chk69 v1687), ∀ a, (k0_off213 v1687) a + S1x1x1x16.size a ≤ S2x16x8x64.size a := fun v1687 k0_hw69 => k0_hw69.1
theorem k0_off215_inb : ∀ (v1687 : BitVec 32) (k0_hw69 : k0_chk69 v1687), ∀ a, (k0_off215 v1687) a + S1x1x1x16.size a ≤ S2x16x8x64.size a := fun v1687 k0_hw69 => k0_hw69.2.1
theorem k0_off217_inb : ∀ (v1687 : BitVec 32) (k0_hw69 : k0_chk69 v1687), ∀ a, (k0_off217 v1687) a + S1x1x1x16.size a ≤ S2x16x8x64.size a := fun v1687 k0_hw69 => k0_hw69.2.2.1
theorem k0_off219_inb : ∀ (v1687 : BitVec 32) (k0_hw69 : k0_chk69 v1687), ∀ a, (k0_off219 v1687) a + S1x1x1x16.size a ≤ S2x16x8x64.size a := fun v1687 k0_hw69 => k0_hw69.2.2.2

def k0_off220 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1060 : BitVec 32 := 16#32
  let v1688 : BitVec 32 := Scalar.muli v1521 c16_i32_1060
  let c4_i32_1061 : BitVec 32 := 4#32
  let v1689 : BitVec 32 := Scalar.addi v1688 c4_i32_1061
  let v1722 : Index := Scalar.indexCast v1689
  let c48_1077 : Index := 48#32
  ![v1722.toNat, 48]
def k0_off221 (v1727 : BitVec 32) : Fin 4 → Nat :=
  let c1_i32_1080 : BitVec 32 := 1#32
  let v1730 : Index := Scalar.indexCast c1_i32_1080
  let c5_i32_1081 : BitVec 32 := 5#32
  let v1731 : Index := Scalar.indexCast c5_i32_1081
  let v1732 : Index := Scalar.indexCast v1727
  let c0_1082 : Index := 0#32
  ![1, 5, v1732.toNat, 0]

def k0_off222 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1078 : BitVec 32 := 16#32
  let v1728 : BitVec 32 := Scalar.muli v1521 c16_i32_1078
  let c5_i32_1079 : BitVec 32 := 5#32
  let v1729 : BitVec 32 := Scalar.addi v1728 c5_i32_1079
  let v1735 : Index := Scalar.indexCast v1729
  let c0_1083 : Index := 0#32
  ![v1735.toNat, 0]
def k0_off223 (v1727 : BitVec 32) : Fin 4 → Nat :=
  let c1_i32_1084 : BitVec 32 := 1#32
  let v1739 : Index := Scalar.indexCast c1_i32_1084
  let c5_i32_1085 : BitVec 32 := 5#32
  let v1740 : Index := Scalar.indexCast c5_i32_1085
  let v1741 : Index := Scalar.indexCast v1727
  let c16_1086 : Index := 16#32
  ![1, 5, v1741.toNat, 16]
def k0_off224 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1078 : BitVec 32 := 16#32
  let v1728 : BitVec 32 := Scalar.muli v1521 c16_i32_1078
  let c5_i32_1079 : BitVec 32 := 5#32
  let v1729 : BitVec 32 := Scalar.addi v1728 c5_i32_1079
  let v1744 : Index := Scalar.indexCast v1729
  let c16_1087 : Index := 16#32
  ![v1744.toNat, 16]
def k0_off225 (v1727 : BitVec 32) : Fin 4 → Nat :=
  let c1_i32_1088 : BitVec 32 := 1#32
  let v1748 : Index := Scalar.indexCast c1_i32_1088
  let c5_i32_1089 : BitVec 32 := 5#32
  let v1749 : Index := Scalar.indexCast c5_i32_1089
  let v1750 : Index := Scalar.indexCast v1727
  let c32_1090 : Index := 32#32
  ![1, 5, v1750.toNat, 32]
def k0_off226 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1078 : BitVec 32 := 16#32
  let v1728 : BitVec 32 := Scalar.muli v1521 c16_i32_1078
  let c5_i32_1079 : BitVec 32 := 5#32
  let v1729 : BitVec 32 := Scalar.addi v1728 c5_i32_1079
  let v1753 : Index := Scalar.indexCast v1729
  let c32_1091 : Index := 32#32
  ![v1753.toNat, 32]
def k0_off227 (v1727 : BitVec 32) : Fin 4 → Nat :=
  let c1_i32_1092 : BitVec 32 := 1#32
  let v1757 : Index := Scalar.indexCast c1_i32_1092
  let c5_i32_1093 : BitVec 32 := 5#32
  let v1758 : Index := Scalar.indexCast c5_i32_1093
  let v1759 : Index := Scalar.indexCast v1727
  let c48_1094 : Index := 48#32
  ![1, 5, v1759.toNat, 48]

def k0_chk70 (v1727 : BitVec 32) : Prop :=
  (∀ a, (k0_off221 v1727) a + S1x1x1x16.size a ≤ S2x16x8x64.size a) ∧
  (∀ a, (k0_off223 v1727) a + S1x1x1x16.size a ≤ S2x16x8x64.size a) ∧
  (∀ a, (k0_off225 v1727) a + S1x1x1x16.size a ≤ S2x16x8x64.size a) ∧
  (∀ a, (k0_off227 v1727) a + S1x1x1x16.size a ≤ S2x16x8x64.size a)
instance k0_chk70.dec : ∀ (v1727 : BitVec 32), Decidable (k0_chk70 v1727) := fun v1727 => decidable_of_iff' _ (Iff.of_eq (k0_chk70.eq_1 v1727))
theorem k0_off221_inb : ∀ (v1727 : BitVec 32) (k0_hw70 : k0_chk70 v1727), ∀ a, (k0_off221 v1727) a + S1x1x1x16.size a ≤ S2x16x8x64.size a := fun v1727 k0_hw70 => k0_hw70.1
theorem k0_off223_inb : ∀ (v1727 : BitVec 32) (k0_hw70 : k0_chk70 v1727), ∀ a, (k0_off223 v1727) a + S1x1x1x16.size a ≤ S2x16x8x64.size a := fun v1727 k0_hw70 => k0_hw70.2.1
theorem k0_off225_inb : ∀ (v1727 : BitVec 32) (k0_hw70 : k0_chk70 v1727), ∀ a, (k0_off225 v1727) a + S1x1x1x16.size a ≤ S2x16x8x64.size a := fun v1727 k0_hw70 => k0_hw70.2.2.1
theorem k0_off227_inb : ∀ (v1727 : BitVec 32) (k0_hw70 : k0_chk70 v1727), ∀ a, (k0_off227 v1727) a + S1x1x1x16.size a ≤ S2x16x8x64.size a := fun v1727 k0_hw70 => k0_hw70.2.2.2

def k0_off228 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1078 : BitVec 32 := 16#32
  let v1728 : BitVec 32 := Scalar.muli v1521 c16_i32_1078
  let c5_i32_1079 : BitVec 32 := 5#32
  let v1729 : BitVec 32 := Scalar.addi v1728 c5_i32_1079
  let v1762 : Index := Scalar.indexCast v1729
  let c48_1095 : Index := 48#32
  ![v1762.toNat, 48]
def k0_off229 (v1767 : BitVec 32) : Fin 4 → Nat :=
  let c1_i32_1098 : BitVec 32 := 1#32
  let v1770 : Index := Scalar.indexCast c1_i32_1098
  let c6_i32_1099 : BitVec 32 := 6#32
  let v1771 : Index := Scalar.indexCast c6_i32_1099
  let v1772 : Index := Scalar.indexCast v1767
  let c0_1100 : Index := 0#32
  ![1, 6, v1772.toNat, 0]

def k0_off230 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1096 : BitVec 32 := 16#32
  let v1768 : BitVec 32 := Scalar.muli v1521 c16_i32_1096
  let c6_i32_1097 : BitVec 32 := 6#32
  let v1769 : BitVec 32 := Scalar.addi v1768 c6_i32_1097
  let v1775 : Index := Scalar.indexCast v1769
  let c0_1101 : Index := 0#32
  ![v1775.toNat, 0]
def k0_off231 (v1767 : BitVec 32) : Fin 4 → Nat :=
  let c1_i32_1102 : BitVec 32 := 1#32
  let v1779 : Index := Scalar.indexCast c1_i32_1102
  let c6_i32_1103 : BitVec 32 := 6#32
  let v1780 : Index := Scalar.indexCast c6_i32_1103
  let v1781 : Index := Scalar.indexCast v1767
  let c16_1104 : Index := 16#32
  ![1, 6, v1781.toNat, 16]
def k0_off232 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1096 : BitVec 32 := 16#32
  let v1768 : BitVec 32 := Scalar.muli v1521 c16_i32_1096
  let c6_i32_1097 : BitVec 32 := 6#32
  let v1769 : BitVec 32 := Scalar.addi v1768 c6_i32_1097
  let v1784 : Index := Scalar.indexCast v1769
  let c16_1105 : Index := 16#32
  ![v1784.toNat, 16]
def k0_off233 (v1767 : BitVec 32) : Fin 4 → Nat :=
  let c1_i32_1106 : BitVec 32 := 1#32
  let v1788 : Index := Scalar.indexCast c1_i32_1106
  let c6_i32_1107 : BitVec 32 := 6#32
  let v1789 : Index := Scalar.indexCast c6_i32_1107
  let v1790 : Index := Scalar.indexCast v1767
  let c32_1108 : Index := 32#32
  ![1, 6, v1790.toNat, 32]
def k0_off234 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1096 : BitVec 32 := 16#32
  let v1768 : BitVec 32 := Scalar.muli v1521 c16_i32_1096
  let c6_i32_1097 : BitVec 32 := 6#32
  let v1769 : BitVec 32 := Scalar.addi v1768 c6_i32_1097
  let v1793 : Index := Scalar.indexCast v1769
  let c32_1109 : Index := 32#32
  ![v1793.toNat, 32]
def k0_off235 (v1767 : BitVec 32) : Fin 4 → Nat :=
  let c1_i32_1110 : BitVec 32 := 1#32
  let v1797 : Index := Scalar.indexCast c1_i32_1110
  let c6_i32_1111 : BitVec 32 := 6#32
  let v1798 : Index := Scalar.indexCast c6_i32_1111
  let v1799 : Index := Scalar.indexCast v1767
  let c48_1112 : Index := 48#32
  ![1, 6, v1799.toNat, 48]

def k0_chk71 (v1767 : BitVec 32) : Prop :=
  (∀ a, (k0_off229 v1767) a + S1x1x1x16.size a ≤ S2x16x8x64.size a) ∧
  (∀ a, (k0_off231 v1767) a + S1x1x1x16.size a ≤ S2x16x8x64.size a) ∧
  (∀ a, (k0_off233 v1767) a + S1x1x1x16.size a ≤ S2x16x8x64.size a) ∧
  (∀ a, (k0_off235 v1767) a + S1x1x1x16.size a ≤ S2x16x8x64.size a)
instance k0_chk71.dec : ∀ (v1767 : BitVec 32), Decidable (k0_chk71 v1767) := fun v1767 => decidable_of_iff' _ (Iff.of_eq (k0_chk71.eq_1 v1767))
theorem k0_off229_inb : ∀ (v1767 : BitVec 32) (k0_hw71 : k0_chk71 v1767), ∀ a, (k0_off229 v1767) a + S1x1x1x16.size a ≤ S2x16x8x64.size a := fun v1767 k0_hw71 => k0_hw71.1
theorem k0_off231_inb : ∀ (v1767 : BitVec 32) (k0_hw71 : k0_chk71 v1767), ∀ a, (k0_off231 v1767) a + S1x1x1x16.size a ≤ S2x16x8x64.size a := fun v1767 k0_hw71 => k0_hw71.2.1
theorem k0_off233_inb : ∀ (v1767 : BitVec 32) (k0_hw71 : k0_chk71 v1767), ∀ a, (k0_off233 v1767) a + S1x1x1x16.size a ≤ S2x16x8x64.size a := fun v1767 k0_hw71 => k0_hw71.2.2.1
theorem k0_off235_inb : ∀ (v1767 : BitVec 32) (k0_hw71 : k0_chk71 v1767), ∀ a, (k0_off235 v1767) a + S1x1x1x16.size a ≤ S2x16x8x64.size a := fun v1767 k0_hw71 => k0_hw71.2.2.2

def k0_off236 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1096 : BitVec 32 := 16#32
  let v1768 : BitVec 32 := Scalar.muli v1521 c16_i32_1096
  let c6_i32_1097 : BitVec 32 := 6#32
  let v1769 : BitVec 32 := Scalar.addi v1768 c6_i32_1097
  let v1802 : Index := Scalar.indexCast v1769
  let c48_1113 : Index := 48#32
  ![v1802.toNat, 48]
def k0_off237 (v1807 : BitVec 32) : Fin 4 → Nat :=
  let c1_i32_1116 : BitVec 32 := 1#32
  let v1810 : Index := Scalar.indexCast c1_i32_1116
  let c7_i32_1117 : BitVec 32 := 7#32
  let v1811 : Index := Scalar.indexCast c7_i32_1117
  let v1812 : Index := Scalar.indexCast v1807
  let c0_1118 : Index := 0#32
  ![1, 7, v1812.toNat, 0]

def k0_off238 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1114 : BitVec 32 := 16#32
  let v1808 : BitVec 32 := Scalar.muli v1521 c16_i32_1114
  let c7_i32_1115 : BitVec 32 := 7#32
  let v1809 : BitVec 32 := Scalar.addi v1808 c7_i32_1115
  let v1815 : Index := Scalar.indexCast v1809
  let c0_1119 : Index := 0#32
  ![v1815.toNat, 0]
def k0_off239 (v1807 : BitVec 32) : Fin 4 → Nat :=
  let c1_i32_1120 : BitVec 32 := 1#32
  let v1819 : Index := Scalar.indexCast c1_i32_1120
  let c7_i32_1121 : BitVec 32 := 7#32
  let v1820 : Index := Scalar.indexCast c7_i32_1121
  let v1821 : Index := Scalar.indexCast v1807
  let c16_1122 : Index := 16#32
  ![1, 7, v1821.toNat, 16]
def k0_off240 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1114 : BitVec 32 := 16#32
  let v1808 : BitVec 32 := Scalar.muli v1521 c16_i32_1114
  let c7_i32_1115 : BitVec 32 := 7#32
  let v1809 : BitVec 32 := Scalar.addi v1808 c7_i32_1115
  let v1824 : Index := Scalar.indexCast v1809
  let c16_1123 : Index := 16#32
  ![v1824.toNat, 16]
def k0_off241 (v1807 : BitVec 32) : Fin 4 → Nat :=
  let c1_i32_1124 : BitVec 32 := 1#32
  let v1828 : Index := Scalar.indexCast c1_i32_1124
  let c7_i32_1125 : BitVec 32 := 7#32
  let v1829 : Index := Scalar.indexCast c7_i32_1125
  let v1830 : Index := Scalar.indexCast v1807
  let c32_1126 : Index := 32#32
  ![1, 7, v1830.toNat, 32]
def k0_off242 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1114 : BitVec 32 := 16#32
  let v1808 : BitVec 32 := Scalar.muli v1521 c16_i32_1114
  let c7_i32_1115 : BitVec 32 := 7#32
  let v1809 : BitVec 32 := Scalar.addi v1808 c7_i32_1115
  let v1833 : Index := Scalar.indexCast v1809
  let c32_1127 : Index := 32#32
  ![v1833.toNat, 32]
def k0_off243 (v1807 : BitVec 32) : Fin 4 → Nat :=
  let c1_i32_1128 : BitVec 32 := 1#32
  let v1837 : Index := Scalar.indexCast c1_i32_1128
  let c7_i32_1129 : BitVec 32 := 7#32
  let v1838 : Index := Scalar.indexCast c7_i32_1129
  let v1839 : Index := Scalar.indexCast v1807
  let c48_1130 : Index := 48#32
  ![1, 7, v1839.toNat, 48]

def k0_chk72 (v1807 : BitVec 32) : Prop :=
  (∀ a, (k0_off237 v1807) a + S1x1x1x16.size a ≤ S2x16x8x64.size a) ∧
  (∀ a, (k0_off239 v1807) a + S1x1x1x16.size a ≤ S2x16x8x64.size a) ∧
  (∀ a, (k0_off241 v1807) a + S1x1x1x16.size a ≤ S2x16x8x64.size a) ∧
  (∀ a, (k0_off243 v1807) a + S1x1x1x16.size a ≤ S2x16x8x64.size a)
instance k0_chk72.dec : ∀ (v1807 : BitVec 32), Decidable (k0_chk72 v1807) := fun v1807 => decidable_of_iff' _ (Iff.of_eq (k0_chk72.eq_1 v1807))
theorem k0_off237_inb : ∀ (v1807 : BitVec 32) (k0_hw72 : k0_chk72 v1807), ∀ a, (k0_off237 v1807) a + S1x1x1x16.size a ≤ S2x16x8x64.size a := fun v1807 k0_hw72 => k0_hw72.1
theorem k0_off239_inb : ∀ (v1807 : BitVec 32) (k0_hw72 : k0_chk72 v1807), ∀ a, (k0_off239 v1807) a + S1x1x1x16.size a ≤ S2x16x8x64.size a := fun v1807 k0_hw72 => k0_hw72.2.1
theorem k0_off241_inb : ∀ (v1807 : BitVec 32) (k0_hw72 : k0_chk72 v1807), ∀ a, (k0_off241 v1807) a + S1x1x1x16.size a ≤ S2x16x8x64.size a := fun v1807 k0_hw72 => k0_hw72.2.2.1
theorem k0_off243_inb : ∀ (v1807 : BitVec 32) (k0_hw72 : k0_chk72 v1807), ∀ a, (k0_off243 v1807) a + S1x1x1x16.size a ≤ S2x16x8x64.size a := fun v1807 k0_hw72 => k0_hw72.2.2.2

def k0_off244 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1114 : BitVec 32 := 16#32
  let v1808 : BitVec 32 := Scalar.muli v1521 c16_i32_1114
  let c7_i32_1115 : BitVec 32 := 7#32
  let v1809 : BitVec 32 := Scalar.addi v1808 c7_i32_1115
  let v1842 : Index := Scalar.indexCast v1809
  let c48_1131 : Index := 48#32
  ![v1842.toNat, 48]
def k0_off245 (v1847 : BitVec 32) : Fin 4 → Nat :=
  let c1_i32_1134 : BitVec 32 := 1#32
  let v1850 : Index := Scalar.indexCast c1_i32_1134
  let c8_i32_1135 : BitVec 32 := 8#32
  let v1851 : Index := Scalar.indexCast c8_i32_1135
  let v1852 : Index := Scalar.indexCast v1847
  let c0_1136 : Index := 0#32
  ![1, 8, v1852.toNat, 0]

def k0_off246 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1132 : BitVec 32 := 16#32
  let v1848 : BitVec 32 := Scalar.muli v1521 c16_i32_1132
  let c8_i32_1133 : BitVec 32 := 8#32
  let v1849 : BitVec 32 := Scalar.addi v1848 c8_i32_1133
  let v1855 : Index := Scalar.indexCast v1849
  let c0_1137 : Index := 0#32
  ![v1855.toNat, 0]
def k0_off247 (v1847 : BitVec 32) : Fin 4 → Nat :=
  let c1_i32_1138 : BitVec 32 := 1#32
  let v1859 : Index := Scalar.indexCast c1_i32_1138
  let c8_i32_1139 : BitVec 32 := 8#32
  let v1860 : Index := Scalar.indexCast c8_i32_1139
  let v1861 : Index := Scalar.indexCast v1847
  let c16_1140 : Index := 16#32
  ![1, 8, v1861.toNat, 16]
def k0_off248 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1132 : BitVec 32 := 16#32
  let v1848 : BitVec 32 := Scalar.muli v1521 c16_i32_1132
  let c8_i32_1133 : BitVec 32 := 8#32
  let v1849 : BitVec 32 := Scalar.addi v1848 c8_i32_1133
  let v1864 : Index := Scalar.indexCast v1849
  let c16_1141 : Index := 16#32
  ![v1864.toNat, 16]
def k0_off249 (v1847 : BitVec 32) : Fin 4 → Nat :=
  let c1_i32_1142 : BitVec 32 := 1#32
  let v1868 : Index := Scalar.indexCast c1_i32_1142
  let c8_i32_1143 : BitVec 32 := 8#32
  let v1869 : Index := Scalar.indexCast c8_i32_1143
  let v1870 : Index := Scalar.indexCast v1847
  let c32_1144 : Index := 32#32
  ![1, 8, v1870.toNat, 32]
def k0_off250 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1132 : BitVec 32 := 16#32
  let v1848 : BitVec 32 := Scalar.muli v1521 c16_i32_1132
  let c8_i32_1133 : BitVec 32 := 8#32
  let v1849 : BitVec 32 := Scalar.addi v1848 c8_i32_1133
  let v1873 : Index := Scalar.indexCast v1849
  let c32_1145 : Index := 32#32
  ![v1873.toNat, 32]
def k0_off251 (v1847 : BitVec 32) : Fin 4 → Nat :=
  let c1_i32_1146 : BitVec 32 := 1#32
  let v1877 : Index := Scalar.indexCast c1_i32_1146
  let c8_i32_1147 : BitVec 32 := 8#32
  let v1878 : Index := Scalar.indexCast c8_i32_1147
  let v1879 : Index := Scalar.indexCast v1847
  let c48_1148 : Index := 48#32
  ![1, 8, v1879.toNat, 48]

def k0_chk73 (v1847 : BitVec 32) : Prop :=
  (∀ a, (k0_off245 v1847) a + S1x1x1x16.size a ≤ S2x16x8x64.size a) ∧
  (∀ a, (k0_off247 v1847) a + S1x1x1x16.size a ≤ S2x16x8x64.size a) ∧
  (∀ a, (k0_off249 v1847) a + S1x1x1x16.size a ≤ S2x16x8x64.size a) ∧
  (∀ a, (k0_off251 v1847) a + S1x1x1x16.size a ≤ S2x16x8x64.size a)
instance k0_chk73.dec : ∀ (v1847 : BitVec 32), Decidable (k0_chk73 v1847) := fun v1847 => decidable_of_iff' _ (Iff.of_eq (k0_chk73.eq_1 v1847))
theorem k0_off245_inb : ∀ (v1847 : BitVec 32) (k0_hw73 : k0_chk73 v1847), ∀ a, (k0_off245 v1847) a + S1x1x1x16.size a ≤ S2x16x8x64.size a := fun v1847 k0_hw73 => k0_hw73.1
theorem k0_off247_inb : ∀ (v1847 : BitVec 32) (k0_hw73 : k0_chk73 v1847), ∀ a, (k0_off247 v1847) a + S1x1x1x16.size a ≤ S2x16x8x64.size a := fun v1847 k0_hw73 => k0_hw73.2.1
theorem k0_off249_inb : ∀ (v1847 : BitVec 32) (k0_hw73 : k0_chk73 v1847), ∀ a, (k0_off249 v1847) a + S1x1x1x16.size a ≤ S2x16x8x64.size a := fun v1847 k0_hw73 => k0_hw73.2.2.1
theorem k0_off251_inb : ∀ (v1847 : BitVec 32) (k0_hw73 : k0_chk73 v1847), ∀ a, (k0_off251 v1847) a + S1x1x1x16.size a ≤ S2x16x8x64.size a := fun v1847 k0_hw73 => k0_hw73.2.2.2

def k0_off252 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1132 : BitVec 32 := 16#32
  let v1848 : BitVec 32 := Scalar.muli v1521 c16_i32_1132
  let c8_i32_1133 : BitVec 32 := 8#32
  let v1849 : BitVec 32 := Scalar.addi v1848 c8_i32_1133
  let v1882 : Index := Scalar.indexCast v1849
  let c48_1149 : Index := 48#32
  ![v1882.toNat, 48]
def k0_off253 (v1887 : BitVec 32) : Fin 4 → Nat :=
  let c1_i32_1152 : BitVec 32 := 1#32
  let v1890 : Index := Scalar.indexCast c1_i32_1152
  let c9_i32_1153 : BitVec 32 := 9#32
  let v1891 : Index := Scalar.indexCast c9_i32_1153
  let v1892 : Index := Scalar.indexCast v1887
  let c0_1154 : Index := 0#32
  ![1, 9, v1892.toNat, 0]

def k0_off254 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1150 : BitVec 32 := 16#32
  let v1888 : BitVec 32 := Scalar.muli v1521 c16_i32_1150
  let c9_i32_1151 : BitVec 32 := 9#32
  let v1889 : BitVec 32 := Scalar.addi v1888 c9_i32_1151
  let v1895 : Index := Scalar.indexCast v1889
  let c0_1155 : Index := 0#32
  ![v1895.toNat, 0]
def k0_off255 (v1887 : BitVec 32) : Fin 4 → Nat :=
  let c1_i32_1156 : BitVec 32 := 1#32
  let v1899 : Index := Scalar.indexCast c1_i32_1156
  let c9_i32_1157 : BitVec 32 := 9#32
  let v1900 : Index := Scalar.indexCast c9_i32_1157
  let v1901 : Index := Scalar.indexCast v1887
  let c16_1158 : Index := 16#32
  ![1, 9, v1901.toNat, 16]
def k0_off256 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1150 : BitVec 32 := 16#32
  let v1888 : BitVec 32 := Scalar.muli v1521 c16_i32_1150
  let c9_i32_1151 : BitVec 32 := 9#32
  let v1889 : BitVec 32 := Scalar.addi v1888 c9_i32_1151
  let v1904 : Index := Scalar.indexCast v1889
  let c16_1159 : Index := 16#32
  ![v1904.toNat, 16]
def k0_off257 (v1887 : BitVec 32) : Fin 4 → Nat :=
  let c1_i32_1160 : BitVec 32 := 1#32
  let v1908 : Index := Scalar.indexCast c1_i32_1160
  let c9_i32_1161 : BitVec 32 := 9#32
  let v1909 : Index := Scalar.indexCast c9_i32_1161
  let v1910 : Index := Scalar.indexCast v1887
  let c32_1162 : Index := 32#32
  ![1, 9, v1910.toNat, 32]
def k0_off258 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1150 : BitVec 32 := 16#32
  let v1888 : BitVec 32 := Scalar.muli v1521 c16_i32_1150
  let c9_i32_1151 : BitVec 32 := 9#32
  let v1889 : BitVec 32 := Scalar.addi v1888 c9_i32_1151
  let v1913 : Index := Scalar.indexCast v1889
  let c32_1163 : Index := 32#32
  ![v1913.toNat, 32]
def k0_off259 (v1887 : BitVec 32) : Fin 4 → Nat :=
  let c1_i32_1164 : BitVec 32 := 1#32
  let v1917 : Index := Scalar.indexCast c1_i32_1164
  let c9_i32_1165 : BitVec 32 := 9#32
  let v1918 : Index := Scalar.indexCast c9_i32_1165
  let v1919 : Index := Scalar.indexCast v1887
  let c48_1166 : Index := 48#32
  ![1, 9, v1919.toNat, 48]

def k0_chk74 (v1887 : BitVec 32) : Prop :=
  (∀ a, (k0_off253 v1887) a + S1x1x1x16.size a ≤ S2x16x8x64.size a) ∧
  (∀ a, (k0_off255 v1887) a + S1x1x1x16.size a ≤ S2x16x8x64.size a) ∧
  (∀ a, (k0_off257 v1887) a + S1x1x1x16.size a ≤ S2x16x8x64.size a) ∧
  (∀ a, (k0_off259 v1887) a + S1x1x1x16.size a ≤ S2x16x8x64.size a)
instance k0_chk74.dec : ∀ (v1887 : BitVec 32), Decidable (k0_chk74 v1887) := fun v1887 => decidable_of_iff' _ (Iff.of_eq (k0_chk74.eq_1 v1887))
theorem k0_off253_inb : ∀ (v1887 : BitVec 32) (k0_hw74 : k0_chk74 v1887), ∀ a, (k0_off253 v1887) a + S1x1x1x16.size a ≤ S2x16x8x64.size a := fun v1887 k0_hw74 => k0_hw74.1
theorem k0_off255_inb : ∀ (v1887 : BitVec 32) (k0_hw74 : k0_chk74 v1887), ∀ a, (k0_off255 v1887) a + S1x1x1x16.size a ≤ S2x16x8x64.size a := fun v1887 k0_hw74 => k0_hw74.2.1
theorem k0_off257_inb : ∀ (v1887 : BitVec 32) (k0_hw74 : k0_chk74 v1887), ∀ a, (k0_off257 v1887) a + S1x1x1x16.size a ≤ S2x16x8x64.size a := fun v1887 k0_hw74 => k0_hw74.2.2.1
theorem k0_off259_inb : ∀ (v1887 : BitVec 32) (k0_hw74 : k0_chk74 v1887), ∀ a, (k0_off259 v1887) a + S1x1x1x16.size a ≤ S2x16x8x64.size a := fun v1887 k0_hw74 => k0_hw74.2.2.2

def k0_off260 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1150 : BitVec 32 := 16#32
  let v1888 : BitVec 32 := Scalar.muli v1521 c16_i32_1150
  let c9_i32_1151 : BitVec 32 := 9#32
  let v1889 : BitVec 32 := Scalar.addi v1888 c9_i32_1151
  let v1922 : Index := Scalar.indexCast v1889
  let c48_1167 : Index := 48#32
  ![v1922.toNat, 48]
def k0_off261 (v1927 : BitVec 32) : Fin 4 → Nat :=
  let c1_i32_1170 : BitVec 32 := 1#32
  let v1930 : Index := Scalar.indexCast c1_i32_1170
  let c10_i32_1171 : BitVec 32 := 10#32
  let v1931 : Index := Scalar.indexCast c10_i32_1171
  let v1932 : Index := Scalar.indexCast v1927
  let c0_1172 : Index := 0#32
  ![1, 10, v1932.toNat, 0]

def k0_off262 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1168 : BitVec 32 := 16#32
  let v1928 : BitVec 32 := Scalar.muli v1521 c16_i32_1168
  let c10_i32_1169 : BitVec 32 := 10#32
  let v1929 : BitVec 32 := Scalar.addi v1928 c10_i32_1169
  let v1935 : Index := Scalar.indexCast v1929
  let c0_1173 : Index := 0#32
  ![v1935.toNat, 0]
def k0_off263 (v1927 : BitVec 32) : Fin 4 → Nat :=
  let c1_i32_1174 : BitVec 32 := 1#32
  let v1939 : Index := Scalar.indexCast c1_i32_1174
  let c10_i32_1175 : BitVec 32 := 10#32
  let v1940 : Index := Scalar.indexCast c10_i32_1175
  let v1941 : Index := Scalar.indexCast v1927
  let c16_1176 : Index := 16#32
  ![1, 10, v1941.toNat, 16]
def k0_off264 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1168 : BitVec 32 := 16#32
  let v1928 : BitVec 32 := Scalar.muli v1521 c16_i32_1168
  let c10_i32_1169 : BitVec 32 := 10#32
  let v1929 : BitVec 32 := Scalar.addi v1928 c10_i32_1169
  let v1944 : Index := Scalar.indexCast v1929
  let c16_1177 : Index := 16#32
  ![v1944.toNat, 16]
def k0_off265 (v1927 : BitVec 32) : Fin 4 → Nat :=
  let c1_i32_1178 : BitVec 32 := 1#32
  let v1948 : Index := Scalar.indexCast c1_i32_1178
  let c10_i32_1179 : BitVec 32 := 10#32
  let v1949 : Index := Scalar.indexCast c10_i32_1179
  let v1950 : Index := Scalar.indexCast v1927
  let c32_1180 : Index := 32#32
  ![1, 10, v1950.toNat, 32]
def k0_off266 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1168 : BitVec 32 := 16#32
  let v1928 : BitVec 32 := Scalar.muli v1521 c16_i32_1168
  let c10_i32_1169 : BitVec 32 := 10#32
  let v1929 : BitVec 32 := Scalar.addi v1928 c10_i32_1169
  let v1953 : Index := Scalar.indexCast v1929
  let c32_1181 : Index := 32#32
  ![v1953.toNat, 32]
def k0_off267 (v1927 : BitVec 32) : Fin 4 → Nat :=
  let c1_i32_1182 : BitVec 32 := 1#32
  let v1957 : Index := Scalar.indexCast c1_i32_1182
  let c10_i32_1183 : BitVec 32 := 10#32
  let v1958 : Index := Scalar.indexCast c10_i32_1183
  let v1959 : Index := Scalar.indexCast v1927
  let c48_1184 : Index := 48#32
  ![1, 10, v1959.toNat, 48]

def k0_chk75 (v1927 : BitVec 32) : Prop :=
  (∀ a, (k0_off261 v1927) a + S1x1x1x16.size a ≤ S2x16x8x64.size a) ∧
  (∀ a, (k0_off263 v1927) a + S1x1x1x16.size a ≤ S2x16x8x64.size a) ∧
  (∀ a, (k0_off265 v1927) a + S1x1x1x16.size a ≤ S2x16x8x64.size a) ∧
  (∀ a, (k0_off267 v1927) a + S1x1x1x16.size a ≤ S2x16x8x64.size a)
instance k0_chk75.dec : ∀ (v1927 : BitVec 32), Decidable (k0_chk75 v1927) := fun v1927 => decidable_of_iff' _ (Iff.of_eq (k0_chk75.eq_1 v1927))
theorem k0_off261_inb : ∀ (v1927 : BitVec 32) (k0_hw75 : k0_chk75 v1927), ∀ a, (k0_off261 v1927) a + S1x1x1x16.size a ≤ S2x16x8x64.size a := fun v1927 k0_hw75 => k0_hw75.1
theorem k0_off263_inb : ∀ (v1927 : BitVec 32) (k0_hw75 : k0_chk75 v1927), ∀ a, (k0_off263 v1927) a + S1x1x1x16.size a ≤ S2x16x8x64.size a := fun v1927 k0_hw75 => k0_hw75.2.1
theorem k0_off265_inb : ∀ (v1927 : BitVec 32) (k0_hw75 : k0_chk75 v1927), ∀ a, (k0_off265 v1927) a + S1x1x1x16.size a ≤ S2x16x8x64.size a := fun v1927 k0_hw75 => k0_hw75.2.2.1
theorem k0_off267_inb : ∀ (v1927 : BitVec 32) (k0_hw75 : k0_chk75 v1927), ∀ a, (k0_off267 v1927) a + S1x1x1x16.size a ≤ S2x16x8x64.size a := fun v1927 k0_hw75 => k0_hw75.2.2.2

def k0_off268 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1168 : BitVec 32 := 16#32
  let v1928 : BitVec 32 := Scalar.muli v1521 c16_i32_1168
  let c10_i32_1169 : BitVec 32 := 10#32
  let v1929 : BitVec 32 := Scalar.addi v1928 c10_i32_1169
  let v1962 : Index := Scalar.indexCast v1929
  let c48_1185 : Index := 48#32
  ![v1962.toNat, 48]
def k0_off269 (v1967 : BitVec 32) : Fin 4 → Nat :=
  let c1_i32_1188 : BitVec 32 := 1#32
  let v1970 : Index := Scalar.indexCast c1_i32_1188
  let c11_i32_1189 : BitVec 32 := 11#32
  let v1971 : Index := Scalar.indexCast c11_i32_1189
  let v1972 : Index := Scalar.indexCast v1967
  let c0_1190 : Index := 0#32
  ![1, 11, v1972.toNat, 0]

def k0_off270 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1186 : BitVec 32 := 16#32
  let v1968 : BitVec 32 := Scalar.muli v1521 c16_i32_1186
  let c11_i32_1187 : BitVec 32 := 11#32
  let v1969 : BitVec 32 := Scalar.addi v1968 c11_i32_1187
  let v1975 : Index := Scalar.indexCast v1969
  let c0_1191 : Index := 0#32
  ![v1975.toNat, 0]
def k0_off271 (v1967 : BitVec 32) : Fin 4 → Nat :=
  let c1_i32_1192 : BitVec 32 := 1#32
  let v1979 : Index := Scalar.indexCast c1_i32_1192
  let c11_i32_1193 : BitVec 32 := 11#32
  let v1980 : Index := Scalar.indexCast c11_i32_1193
  let v1981 : Index := Scalar.indexCast v1967
  let c16_1194 : Index := 16#32
  ![1, 11, v1981.toNat, 16]
def k0_off272 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1186 : BitVec 32 := 16#32
  let v1968 : BitVec 32 := Scalar.muli v1521 c16_i32_1186
  let c11_i32_1187 : BitVec 32 := 11#32
  let v1969 : BitVec 32 := Scalar.addi v1968 c11_i32_1187
  let v1984 : Index := Scalar.indexCast v1969
  let c16_1195 : Index := 16#32
  ![v1984.toNat, 16]
def k0_off273 (v1967 : BitVec 32) : Fin 4 → Nat :=
  let c1_i32_1196 : BitVec 32 := 1#32
  let v1988 : Index := Scalar.indexCast c1_i32_1196
  let c11_i32_1197 : BitVec 32 := 11#32
  let v1989 : Index := Scalar.indexCast c11_i32_1197
  let v1990 : Index := Scalar.indexCast v1967
  let c32_1198 : Index := 32#32
  ![1, 11, v1990.toNat, 32]
def k0_off274 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1186 : BitVec 32 := 16#32
  let v1968 : BitVec 32 := Scalar.muli v1521 c16_i32_1186
  let c11_i32_1187 : BitVec 32 := 11#32
  let v1969 : BitVec 32 := Scalar.addi v1968 c11_i32_1187
  let v1993 : Index := Scalar.indexCast v1969
  let c32_1199 : Index := 32#32
  ![v1993.toNat, 32]
def k0_off275 (v1967 : BitVec 32) : Fin 4 → Nat :=
  let c1_i32_1200 : BitVec 32 := 1#32
  let v1997 : Index := Scalar.indexCast c1_i32_1200
  let c11_i32_1201 : BitVec 32 := 11#32
  let v1998 : Index := Scalar.indexCast c11_i32_1201
  let v1999 : Index := Scalar.indexCast v1967
  let c48_1202 : Index := 48#32
  ![1, 11, v1999.toNat, 48]

def k0_chk76 (v1967 : BitVec 32) : Prop :=
  (∀ a, (k0_off269 v1967) a + S1x1x1x16.size a ≤ S2x16x8x64.size a) ∧
  (∀ a, (k0_off271 v1967) a + S1x1x1x16.size a ≤ S2x16x8x64.size a) ∧
  (∀ a, (k0_off273 v1967) a + S1x1x1x16.size a ≤ S2x16x8x64.size a) ∧
  (∀ a, (k0_off275 v1967) a + S1x1x1x16.size a ≤ S2x16x8x64.size a)
instance k0_chk76.dec : ∀ (v1967 : BitVec 32), Decidable (k0_chk76 v1967) := fun v1967 => decidable_of_iff' _ (Iff.of_eq (k0_chk76.eq_1 v1967))
theorem k0_off269_inb : ∀ (v1967 : BitVec 32) (k0_hw76 : k0_chk76 v1967), ∀ a, (k0_off269 v1967) a + S1x1x1x16.size a ≤ S2x16x8x64.size a := fun v1967 k0_hw76 => k0_hw76.1
theorem k0_off271_inb : ∀ (v1967 : BitVec 32) (k0_hw76 : k0_chk76 v1967), ∀ a, (k0_off271 v1967) a + S1x1x1x16.size a ≤ S2x16x8x64.size a := fun v1967 k0_hw76 => k0_hw76.2.1
theorem k0_off273_inb : ∀ (v1967 : BitVec 32) (k0_hw76 : k0_chk76 v1967), ∀ a, (k0_off273 v1967) a + S1x1x1x16.size a ≤ S2x16x8x64.size a := fun v1967 k0_hw76 => k0_hw76.2.2.1
theorem k0_off275_inb : ∀ (v1967 : BitVec 32) (k0_hw76 : k0_chk76 v1967), ∀ a, (k0_off275 v1967) a + S1x1x1x16.size a ≤ S2x16x8x64.size a := fun v1967 k0_hw76 => k0_hw76.2.2.2

def k0_off276 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1186 : BitVec 32 := 16#32
  let v1968 : BitVec 32 := Scalar.muli v1521 c16_i32_1186
  let c11_i32_1187 : BitVec 32 := 11#32
  let v1969 : BitVec 32 := Scalar.addi v1968 c11_i32_1187
  let v2002 : Index := Scalar.indexCast v1969
  let c48_1203 : Index := 48#32
  ![v2002.toNat, 48]
def k0_off277 (v2007 : BitVec 32) : Fin 4 → Nat :=
  let c1_i32_1206 : BitVec 32 := 1#32
  let v2010 : Index := Scalar.indexCast c1_i32_1206
  let c12_i32_1207 : BitVec 32 := 12#32
  let v2011 : Index := Scalar.indexCast c12_i32_1207
  let v2012 : Index := Scalar.indexCast v2007
  let c0_1208 : Index := 0#32
  ![1, 12, v2012.toNat, 0]

def k0_off278 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1204 : BitVec 32 := 16#32
  let v2008 : BitVec 32 := Scalar.muli v1521 c16_i32_1204
  let c12_i32_1205 : BitVec 32 := 12#32
  let v2009 : BitVec 32 := Scalar.addi v2008 c12_i32_1205
  let v2015 : Index := Scalar.indexCast v2009
  let c0_1209 : Index := 0#32
  ![v2015.toNat, 0]
def k0_off279 (v2007 : BitVec 32) : Fin 4 → Nat :=
  let c1_i32_1210 : BitVec 32 := 1#32
  let v2019 : Index := Scalar.indexCast c1_i32_1210
  let c12_i32_1211 : BitVec 32 := 12#32
  let v2020 : Index := Scalar.indexCast c12_i32_1211
  let v2021 : Index := Scalar.indexCast v2007
  let c16_1212 : Index := 16#32
  ![1, 12, v2021.toNat, 16]
def k0_off280 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1204 : BitVec 32 := 16#32
  let v2008 : BitVec 32 := Scalar.muli v1521 c16_i32_1204
  let c12_i32_1205 : BitVec 32 := 12#32
  let v2009 : BitVec 32 := Scalar.addi v2008 c12_i32_1205
  let v2024 : Index := Scalar.indexCast v2009
  let c16_1213 : Index := 16#32
  ![v2024.toNat, 16]
def k0_off281 (v2007 : BitVec 32) : Fin 4 → Nat :=
  let c1_i32_1214 : BitVec 32 := 1#32
  let v2028 : Index := Scalar.indexCast c1_i32_1214
  let c12_i32_1215 : BitVec 32 := 12#32
  let v2029 : Index := Scalar.indexCast c12_i32_1215
  let v2030 : Index := Scalar.indexCast v2007
  let c32_1216 : Index := 32#32
  ![1, 12, v2030.toNat, 32]
def k0_off282 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1204 : BitVec 32 := 16#32
  let v2008 : BitVec 32 := Scalar.muli v1521 c16_i32_1204
  let c12_i32_1205 : BitVec 32 := 12#32
  let v2009 : BitVec 32 := Scalar.addi v2008 c12_i32_1205
  let v2033 : Index := Scalar.indexCast v2009
  let c32_1217 : Index := 32#32
  ![v2033.toNat, 32]
def k0_off283 (v2007 : BitVec 32) : Fin 4 → Nat :=
  let c1_i32_1218 : BitVec 32 := 1#32
  let v2037 : Index := Scalar.indexCast c1_i32_1218
  let c12_i32_1219 : BitVec 32 := 12#32
  let v2038 : Index := Scalar.indexCast c12_i32_1219
  let v2039 : Index := Scalar.indexCast v2007
  let c48_1220 : Index := 48#32
  ![1, 12, v2039.toNat, 48]

def k0_chk77 (v2007 : BitVec 32) : Prop :=
  (∀ a, (k0_off277 v2007) a + S1x1x1x16.size a ≤ S2x16x8x64.size a) ∧
  (∀ a, (k0_off279 v2007) a + S1x1x1x16.size a ≤ S2x16x8x64.size a) ∧
  (∀ a, (k0_off281 v2007) a + S1x1x1x16.size a ≤ S2x16x8x64.size a) ∧
  (∀ a, (k0_off283 v2007) a + S1x1x1x16.size a ≤ S2x16x8x64.size a)
instance k0_chk77.dec : ∀ (v2007 : BitVec 32), Decidable (k0_chk77 v2007) := fun v2007 => decidable_of_iff' _ (Iff.of_eq (k0_chk77.eq_1 v2007))
theorem k0_off277_inb : ∀ (v2007 : BitVec 32) (k0_hw77 : k0_chk77 v2007), ∀ a, (k0_off277 v2007) a + S1x1x1x16.size a ≤ S2x16x8x64.size a := fun v2007 k0_hw77 => k0_hw77.1
theorem k0_off279_inb : ∀ (v2007 : BitVec 32) (k0_hw77 : k0_chk77 v2007), ∀ a, (k0_off279 v2007) a + S1x1x1x16.size a ≤ S2x16x8x64.size a := fun v2007 k0_hw77 => k0_hw77.2.1
theorem k0_off281_inb : ∀ (v2007 : BitVec 32) (k0_hw77 : k0_chk77 v2007), ∀ a, (k0_off281 v2007) a + S1x1x1x16.size a ≤ S2x16x8x64.size a := fun v2007 k0_hw77 => k0_hw77.2.2.1
theorem k0_off283_inb : ∀ (v2007 : BitVec 32) (k0_hw77 : k0_chk77 v2007), ∀ a, (k0_off283 v2007) a + S1x1x1x16.size a ≤ S2x16x8x64.size a := fun v2007 k0_hw77 => k0_hw77.2.2.2

def k0_off284 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1204 : BitVec 32 := 16#32
  let v2008 : BitVec 32 := Scalar.muli v1521 c16_i32_1204
  let c12_i32_1205 : BitVec 32 := 12#32
  let v2009 : BitVec 32 := Scalar.addi v2008 c12_i32_1205
  let v2042 : Index := Scalar.indexCast v2009
  let c48_1221 : Index := 48#32
  ![v2042.toNat, 48]
def k0_off285 (v2047 : BitVec 32) : Fin 4 → Nat :=
  let c1_i32_1224 : BitVec 32 := 1#32
  let v2050 : Index := Scalar.indexCast c1_i32_1224
  let c13_i32_1225 : BitVec 32 := 13#32
  let v2051 : Index := Scalar.indexCast c13_i32_1225
  let v2052 : Index := Scalar.indexCast v2047
  let c0_1226 : Index := 0#32
  ![1, 13, v2052.toNat, 0]

def k0_off286 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1222 : BitVec 32 := 16#32
  let v2048 : BitVec 32 := Scalar.muli v1521 c16_i32_1222
  let c13_i32_1223 : BitVec 32 := 13#32
  let v2049 : BitVec 32 := Scalar.addi v2048 c13_i32_1223
  let v2055 : Index := Scalar.indexCast v2049
  let c0_1227 : Index := 0#32
  ![v2055.toNat, 0]
def k0_off287 (v2047 : BitVec 32) : Fin 4 → Nat :=
  let c1_i32_1228 : BitVec 32 := 1#32
  let v2059 : Index := Scalar.indexCast c1_i32_1228
  let c13_i32_1229 : BitVec 32 := 13#32
  let v2060 : Index := Scalar.indexCast c13_i32_1229
  let v2061 : Index := Scalar.indexCast v2047
  let c16_1230 : Index := 16#32
  ![1, 13, v2061.toNat, 16]
def k0_off288 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1222 : BitVec 32 := 16#32
  let v2048 : BitVec 32 := Scalar.muli v1521 c16_i32_1222
  let c13_i32_1223 : BitVec 32 := 13#32
  let v2049 : BitVec 32 := Scalar.addi v2048 c13_i32_1223
  let v2064 : Index := Scalar.indexCast v2049
  let c16_1231 : Index := 16#32
  ![v2064.toNat, 16]
def k0_off289 (v2047 : BitVec 32) : Fin 4 → Nat :=
  let c1_i32_1232 : BitVec 32 := 1#32
  let v2068 : Index := Scalar.indexCast c1_i32_1232
  let c13_i32_1233 : BitVec 32 := 13#32
  let v2069 : Index := Scalar.indexCast c13_i32_1233
  let v2070 : Index := Scalar.indexCast v2047
  let c32_1234 : Index := 32#32
  ![1, 13, v2070.toNat, 32]
def k0_off290 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1222 : BitVec 32 := 16#32
  let v2048 : BitVec 32 := Scalar.muli v1521 c16_i32_1222
  let c13_i32_1223 : BitVec 32 := 13#32
  let v2049 : BitVec 32 := Scalar.addi v2048 c13_i32_1223
  let v2073 : Index := Scalar.indexCast v2049
  let c32_1235 : Index := 32#32
  ![v2073.toNat, 32]
def k0_off291 (v2047 : BitVec 32) : Fin 4 → Nat :=
  let c1_i32_1236 : BitVec 32 := 1#32
  let v2077 : Index := Scalar.indexCast c1_i32_1236
  let c13_i32_1237 : BitVec 32 := 13#32
  let v2078 : Index := Scalar.indexCast c13_i32_1237
  let v2079 : Index := Scalar.indexCast v2047
  let c48_1238 : Index := 48#32
  ![1, 13, v2079.toNat, 48]

def k0_chk78 (v2047 : BitVec 32) : Prop :=
  (∀ a, (k0_off285 v2047) a + S1x1x1x16.size a ≤ S2x16x8x64.size a) ∧
  (∀ a, (k0_off287 v2047) a + S1x1x1x16.size a ≤ S2x16x8x64.size a) ∧
  (∀ a, (k0_off289 v2047) a + S1x1x1x16.size a ≤ S2x16x8x64.size a) ∧
  (∀ a, (k0_off291 v2047) a + S1x1x1x16.size a ≤ S2x16x8x64.size a)
instance k0_chk78.dec : ∀ (v2047 : BitVec 32), Decidable (k0_chk78 v2047) := fun v2047 => decidable_of_iff' _ (Iff.of_eq (k0_chk78.eq_1 v2047))
theorem k0_off285_inb : ∀ (v2047 : BitVec 32) (k0_hw78 : k0_chk78 v2047), ∀ a, (k0_off285 v2047) a + S1x1x1x16.size a ≤ S2x16x8x64.size a := fun v2047 k0_hw78 => k0_hw78.1
theorem k0_off287_inb : ∀ (v2047 : BitVec 32) (k0_hw78 : k0_chk78 v2047), ∀ a, (k0_off287 v2047) a + S1x1x1x16.size a ≤ S2x16x8x64.size a := fun v2047 k0_hw78 => k0_hw78.2.1
theorem k0_off289_inb : ∀ (v2047 : BitVec 32) (k0_hw78 : k0_chk78 v2047), ∀ a, (k0_off289 v2047) a + S1x1x1x16.size a ≤ S2x16x8x64.size a := fun v2047 k0_hw78 => k0_hw78.2.2.1
theorem k0_off291_inb : ∀ (v2047 : BitVec 32) (k0_hw78 : k0_chk78 v2047), ∀ a, (k0_off291 v2047) a + S1x1x1x16.size a ≤ S2x16x8x64.size a := fun v2047 k0_hw78 => k0_hw78.2.2.2

def k0_off292 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1222 : BitVec 32 := 16#32
  let v2048 : BitVec 32 := Scalar.muli v1521 c16_i32_1222
  let c13_i32_1223 : BitVec 32 := 13#32
  let v2049 : BitVec 32 := Scalar.addi v2048 c13_i32_1223
  let v2082 : Index := Scalar.indexCast v2049
  let c48_1239 : Index := 48#32
  ![v2082.toNat, 48]
def k0_off293 (v2087 : BitVec 32) : Fin 4 → Nat :=
  let c1_i32_1242 : BitVec 32 := 1#32
  let v2090 : Index := Scalar.indexCast c1_i32_1242
  let c14_i32_1243 : BitVec 32 := 14#32
  let v2091 : Index := Scalar.indexCast c14_i32_1243
  let v2092 : Index := Scalar.indexCast v2087
  let c0_1244 : Index := 0#32
  ![1, 14, v2092.toNat, 0]

def k0_off294 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1240 : BitVec 32 := 16#32
  let v2088 : BitVec 32 := Scalar.muli v1521 c16_i32_1240
  let c14_i32_1241 : BitVec 32 := 14#32
  let v2089 : BitVec 32 := Scalar.addi v2088 c14_i32_1241
  let v2095 : Index := Scalar.indexCast v2089
  let c0_1245 : Index := 0#32
  ![v2095.toNat, 0]
def k0_off295 (v2087 : BitVec 32) : Fin 4 → Nat :=
  let c1_i32_1246 : BitVec 32 := 1#32
  let v2099 : Index := Scalar.indexCast c1_i32_1246
  let c14_i32_1247 : BitVec 32 := 14#32
  let v2100 : Index := Scalar.indexCast c14_i32_1247
  let v2101 : Index := Scalar.indexCast v2087
  let c16_1248 : Index := 16#32
  ![1, 14, v2101.toNat, 16]
def k0_off296 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1240 : BitVec 32 := 16#32
  let v2088 : BitVec 32 := Scalar.muli v1521 c16_i32_1240
  let c14_i32_1241 : BitVec 32 := 14#32
  let v2089 : BitVec 32 := Scalar.addi v2088 c14_i32_1241
  let v2104 : Index := Scalar.indexCast v2089
  let c16_1249 : Index := 16#32
  ![v2104.toNat, 16]
def k0_off297 (v2087 : BitVec 32) : Fin 4 → Nat :=
  let c1_i32_1250 : BitVec 32 := 1#32
  let v2108 : Index := Scalar.indexCast c1_i32_1250
  let c14_i32_1251 : BitVec 32 := 14#32
  let v2109 : Index := Scalar.indexCast c14_i32_1251
  let v2110 : Index := Scalar.indexCast v2087
  let c32_1252 : Index := 32#32
  ![1, 14, v2110.toNat, 32]
def k0_off298 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1240 : BitVec 32 := 16#32
  let v2088 : BitVec 32 := Scalar.muli v1521 c16_i32_1240
  let c14_i32_1241 : BitVec 32 := 14#32
  let v2089 : BitVec 32 := Scalar.addi v2088 c14_i32_1241
  let v2113 : Index := Scalar.indexCast v2089
  let c32_1253 : Index := 32#32
  ![v2113.toNat, 32]
def k0_off299 (v2087 : BitVec 32) : Fin 4 → Nat :=
  let c1_i32_1254 : BitVec 32 := 1#32
  let v2117 : Index := Scalar.indexCast c1_i32_1254
  let c14_i32_1255 : BitVec 32 := 14#32
  let v2118 : Index := Scalar.indexCast c14_i32_1255
  let v2119 : Index := Scalar.indexCast v2087
  let c48_1256 : Index := 48#32
  ![1, 14, v2119.toNat, 48]

def k0_chk79 (v2087 : BitVec 32) : Prop :=
  (∀ a, (k0_off293 v2087) a + S1x1x1x16.size a ≤ S2x16x8x64.size a) ∧
  (∀ a, (k0_off295 v2087) a + S1x1x1x16.size a ≤ S2x16x8x64.size a) ∧
  (∀ a, (k0_off297 v2087) a + S1x1x1x16.size a ≤ S2x16x8x64.size a) ∧
  (∀ a, (k0_off299 v2087) a + S1x1x1x16.size a ≤ S2x16x8x64.size a)
instance k0_chk79.dec : ∀ (v2087 : BitVec 32), Decidable (k0_chk79 v2087) := fun v2087 => decidable_of_iff' _ (Iff.of_eq (k0_chk79.eq_1 v2087))
theorem k0_off293_inb : ∀ (v2087 : BitVec 32) (k0_hw79 : k0_chk79 v2087), ∀ a, (k0_off293 v2087) a + S1x1x1x16.size a ≤ S2x16x8x64.size a := fun v2087 k0_hw79 => k0_hw79.1
theorem k0_off295_inb : ∀ (v2087 : BitVec 32) (k0_hw79 : k0_chk79 v2087), ∀ a, (k0_off295 v2087) a + S1x1x1x16.size a ≤ S2x16x8x64.size a := fun v2087 k0_hw79 => k0_hw79.2.1
theorem k0_off297_inb : ∀ (v2087 : BitVec 32) (k0_hw79 : k0_chk79 v2087), ∀ a, (k0_off297 v2087) a + S1x1x1x16.size a ≤ S2x16x8x64.size a := fun v2087 k0_hw79 => k0_hw79.2.2.1
theorem k0_off299_inb : ∀ (v2087 : BitVec 32) (k0_hw79 : k0_chk79 v2087), ∀ a, (k0_off299 v2087) a + S1x1x1x16.size a ≤ S2x16x8x64.size a := fun v2087 k0_hw79 => k0_hw79.2.2.2

def k0_off300 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1240 : BitVec 32 := 16#32
  let v2088 : BitVec 32 := Scalar.muli v1521 c16_i32_1240
  let c14_i32_1241 : BitVec 32 := 14#32
  let v2089 : BitVec 32 := Scalar.addi v2088 c14_i32_1241
  let v2122 : Index := Scalar.indexCast v2089
  let c48_1257 : Index := 48#32
  ![v2122.toNat, 48]
def k0_off301 (v2127 : BitVec 32) : Fin 4 → Nat :=
  let c1_i32_1260 : BitVec 32 := 1#32
  let v2130 : Index := Scalar.indexCast c1_i32_1260
  let c15_i32_1261 : BitVec 32 := 15#32
  let v2131 : Index := Scalar.indexCast c15_i32_1261
  let v2132 : Index := Scalar.indexCast v2127
  let c0_1262 : Index := 0#32
  ![1, 15, v2132.toNat, 0]

def k0_off302 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1258 : BitVec 32 := 16#32
  let v2128 : BitVec 32 := Scalar.muli v1521 c16_i32_1258
  let c15_i32_1259 : BitVec 32 := 15#32
  let v2129 : BitVec 32 := Scalar.addi v2128 c15_i32_1259
  let v2135 : Index := Scalar.indexCast v2129
  let c0_1263 : Index := 0#32
  ![v2135.toNat, 0]
def k0_off303 (v2127 : BitVec 32) : Fin 4 → Nat :=
  let c1_i32_1264 : BitVec 32 := 1#32
  let v2139 : Index := Scalar.indexCast c1_i32_1264
  let c15_i32_1265 : BitVec 32 := 15#32
  let v2140 : Index := Scalar.indexCast c15_i32_1265
  let v2141 : Index := Scalar.indexCast v2127
  let c16_1266 : Index := 16#32
  ![1, 15, v2141.toNat, 16]
def k0_off304 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1258 : BitVec 32 := 16#32
  let v2128 : BitVec 32 := Scalar.muli v1521 c16_i32_1258
  let c15_i32_1259 : BitVec 32 := 15#32
  let v2129 : BitVec 32 := Scalar.addi v2128 c15_i32_1259
  let v2144 : Index := Scalar.indexCast v2129
  let c16_1267 : Index := 16#32
  ![v2144.toNat, 16]
def k0_off305 (v2127 : BitVec 32) : Fin 4 → Nat :=
  let c1_i32_1268 : BitVec 32 := 1#32
  let v2148 : Index := Scalar.indexCast c1_i32_1268
  let c15_i32_1269 : BitVec 32 := 15#32
  let v2149 : Index := Scalar.indexCast c15_i32_1269
  let v2150 : Index := Scalar.indexCast v2127
  let c32_1270 : Index := 32#32
  ![1, 15, v2150.toNat, 32]
def k0_off306 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1258 : BitVec 32 := 16#32
  let v2128 : BitVec 32 := Scalar.muli v1521 c16_i32_1258
  let c15_i32_1259 : BitVec 32 := 15#32
  let v2129 : BitVec 32 := Scalar.addi v2128 c15_i32_1259
  let v2153 : Index := Scalar.indexCast v2129
  let c32_1271 : Index := 32#32
  ![v2153.toNat, 32]
def k0_off307 (v2127 : BitVec 32) : Fin 4 → Nat :=
  let c1_i32_1272 : BitVec 32 := 1#32
  let v2157 : Index := Scalar.indexCast c1_i32_1272
  let c15_i32_1273 : BitVec 32 := 15#32
  let v2158 : Index := Scalar.indexCast c15_i32_1273
  let v2159 : Index := Scalar.indexCast v2127
  let c48_1274 : Index := 48#32
  ![1, 15, v2159.toNat, 48]

def k0_chk80 (v2127 : BitVec 32) : Prop :=
  (∀ a, (k0_off301 v2127) a + S1x1x1x16.size a ≤ S2x16x8x64.size a) ∧
  (∀ a, (k0_off303 v2127) a + S1x1x1x16.size a ≤ S2x16x8x64.size a) ∧
  (∀ a, (k0_off305 v2127) a + S1x1x1x16.size a ≤ S2x16x8x64.size a) ∧
  (∀ a, (k0_off307 v2127) a + S1x1x1x16.size a ≤ S2x16x8x64.size a)
instance k0_chk80.dec : ∀ (v2127 : BitVec 32), Decidable (k0_chk80 v2127) := fun v2127 => decidable_of_iff' _ (Iff.of_eq (k0_chk80.eq_1 v2127))
theorem k0_off301_inb : ∀ (v2127 : BitVec 32) (k0_hw80 : k0_chk80 v2127), ∀ a, (k0_off301 v2127) a + S1x1x1x16.size a ≤ S2x16x8x64.size a := fun v2127 k0_hw80 => k0_hw80.1
theorem k0_off303_inb : ∀ (v2127 : BitVec 32) (k0_hw80 : k0_chk80 v2127), ∀ a, (k0_off303 v2127) a + S1x1x1x16.size a ≤ S2x16x8x64.size a := fun v2127 k0_hw80 => k0_hw80.2.1
theorem k0_off305_inb : ∀ (v2127 : BitVec 32) (k0_hw80 : k0_chk80 v2127), ∀ a, (k0_off305 v2127) a + S1x1x1x16.size a ≤ S2x16x8x64.size a := fun v2127 k0_hw80 => k0_hw80.2.2.1
theorem k0_off307_inb : ∀ (v2127 : BitVec 32) (k0_hw80 : k0_chk80 v2127), ∀ a, (k0_off307 v2127) a + S1x1x1x16.size a ≤ S2x16x8x64.size a := fun v2127 k0_hw80 => k0_hw80.2.2.2

def k0_off308 (k0_t1 : Fin k0_t1_loop.trips) : Fin 2 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c1_i32_986 : BitVec 32 := 1#32
  let v1521 : BitVec 32 := Scalar.addi v681 c1_i32_986
  let c16_i32_1258 : BitVec 32 := 16#32
  let v2128 : BitVec 32 := Scalar.muli v1521 c16_i32_1258
  let c15_i32_1259 : BitVec 32 := 15#32
  let v2129 : BitVec 32 := Scalar.addi v2128 c15_i32_1259
  let v2162 : Index := Scalar.indexCast v2129
  let c48_1275 : Index := 48#32
  ![v2162.toNat, 48]
def k0_cond2 (k0_t1 : Fin k0_t1_loop.trips) : BitVec 1 :=
  let c0_i32_371 : BitVec 32 := 0#32
  let c1_i32_372 : BitVec 32 := 1#32
  let arg12 : BitVec 32 := Scf.iv c0_i32_371 c1_i32_372 k0_t1
  let c15_i32_1276 : BitVec 32 := 15#32
  let v2166 : BitVec 1 := Scalar.cmpi .slt arg12 c15_i32_1276
  let v2167 : BitVec 32 := Scalar.extui v2166
  let c0_i32_1277 : BitVec 32 := 0#32
  let v2168 : BitVec 1 := Scalar.cmpi .ne v2167 c0_i32_1277
  v2168

def k0_off309 (k0_t1 : Fin k0_t1_loop.trips) : Fin 1 → Nat :=
  let c0_i32_371 : BitVec 32 := 0#32
  let c1_i32_372 : BitVec 32 := 1#32
  let arg12 : BitVec 32 := Scf.iv c0_i32_371 c1_i32_372 k0_t1
  let c2_i32_374 : BitVec 32 := 2#32
  let v681 : BitVec 32 := Scalar.muli arg12 c2_i32_374
  let c3_i32_1278 : BitVec 32 := 3#32
  let v2169 : BitVec 32 := Scalar.addi v681 c3_i32_1278
  let c16_i32_1279 : BitVec 32 := 16#32
  let v2170 : BitVec 32 := Scalar.muli v2169 c16_i32_1279
  let v2171 : Index := Scalar.indexCast v2170
  ![v2171.toNat]
def k0_mult49 (v2175 : BitVec 32) : BitVec 32 :=
  v2175

def k0_off310 (v2175 : BitVec 32) : Fin 2 → Nat :=
  let v2176 : BitVec 32 := v2175
  let c0_i32_1284 : BitVec 32 := 0#32
  ![v2176.toNat, 0]

def k0_chk81 (k0_t1 : Fin k0_t1_loop.trips) (v2175 : BitVec 32) : Prop :=
  (∀ (k0_h2 : k0_cond2 k0_t1 = 1#1), 8 ∣ (k0_mult49 v2175).toNat) ∧
  (∀ (k0_h2 : k0_cond2 k0_t1 = 1#1), ∀ a, (k0_off310 v2175) a + S8x64.size a ≤ S1000000x64.size a)
instance k0_chk81.dec : ∀ (k0_t1 : Fin k0_t1_loop.trips) (v2175 : BitVec 32), Decidable (k0_chk81 k0_t1 v2175) := fun k0_t1 v2175 => decidable_of_iff' _ (Iff.of_eq (k0_chk81.eq_1 k0_t1 v2175))
theorem k0_mult49_dvd : ∀ (k0_t1 : Fin k0_t1_loop.trips) (v2175 : BitVec 32) (k0_hw81 : k0_chk81 k0_t1 v2175), ∀ (k0_h2 : k0_cond2 k0_t1 = 1#1), 8 ∣ (k0_mult49 v2175).toNat := fun k0_t1 v2175 k0_hw81 k0_h2 => k0_hw81.1 k0_h2
theorem k0_off310_inb : ∀ (k0_t1 : Fin k0_t1_loop.trips) (v2175 : BitVec 32) (k0_hw81 : k0_chk81 k0_t1 v2175), ∀ (k0_h2 : k0_cond2 k0_t1 = 1#1), ∀ a, (k0_off310 v2175) a + S8x64.size a ≤ S1000000x64.size a := fun k0_t1 v2175 k0_hw81 k0_h2 => k0_hw81.2 k0_h2

def k0_mult50 (v2184 : BitVec 32) : BitVec 32 :=
  v2184

def k0_off311 (v2184 : BitVec 32) : Fin 2 → Nat :=
  let v2185 : BitVec 32 := v2184
  let c0_i32_1292 : BitVec 32 := 0#32
  ![v2185.toNat, 0]

def k0_chk82 (k0_t1 : Fin k0_t1_loop.trips) (v2184 : BitVec 32) : Prop :=
  (∀ (k0_h2 : k0_cond2 k0_t1 = 1#1), 8 ∣ (k0_mult50 v2184).toNat) ∧
  (∀ (k0_h2 : k0_cond2 k0_t1 = 1#1), ∀ a, (k0_off311 v2184) a + S8x64.size a ≤ S1000000x64.size a)
instance k0_chk82.dec : ∀ (k0_t1 : Fin k0_t1_loop.trips) (v2184 : BitVec 32), Decidable (k0_chk82 k0_t1 v2184) := fun k0_t1 v2184 => decidable_of_iff' _ (Iff.of_eq (k0_chk82.eq_1 k0_t1 v2184))
theorem k0_mult50_dvd : ∀ (k0_t1 : Fin k0_t1_loop.trips) (v2184 : BitVec 32) (k0_hw82 : k0_chk82 k0_t1 v2184), ∀ (k0_h2 : k0_cond2 k0_t1 = 1#1), 8 ∣ (k0_mult50 v2184).toNat := fun k0_t1 v2184 k0_hw82 k0_h2 => k0_hw82.1 k0_h2
theorem k0_off311_inb : ∀ (k0_t1 : Fin k0_t1_loop.trips) (v2184 : BitVec 32) (k0_hw82 : k0_chk82 k0_t1 v2184), ∀ (k0_h2 : k0_cond2 k0_t1 = 1#1), ∀ a, (k0_off311 v2184) a + S8x64.size a ≤ S1000000x64.size a := fun k0_t1 v2184 k0_hw82 k0_h2 => k0_hw82.2 k0_h2

def k0_mult51 (v2193 : BitVec 32) : BitVec 32 :=
  v2193

def k0_off312 (v2193 : BitVec 32) : Fin 2 → Nat :=
  let v2194 : BitVec 32 := v2193
  let c0_i32_1300 : BitVec 32 := 0#32
  ![v2194.toNat, 0]

def k0_chk83 (k0_t1 : Fin k0_t1_loop.trips) (v2193 : BitVec 32) : Prop :=
  (∀ (k0_h2 : k0_cond2 k0_t1 = 1#1), 8 ∣ (k0_mult51 v2193).toNat) ∧
  (∀ (k0_h2 : k0_cond2 k0_t1 = 1#1), ∀ a, (k0_off312 v2193) a + S8x64.size a ≤ S1000000x64.size a)
instance k0_chk83.dec : ∀ (k0_t1 : Fin k0_t1_loop.trips) (v2193 : BitVec 32), Decidable (k0_chk83 k0_t1 v2193) := fun k0_t1 v2193 => decidable_of_iff' _ (Iff.of_eq (k0_chk83.eq_1 k0_t1 v2193))
theorem k0_mult51_dvd : ∀ (k0_t1 : Fin k0_t1_loop.trips) (v2193 : BitVec 32) (k0_hw83 : k0_chk83 k0_t1 v2193), ∀ (k0_h2 : k0_cond2 k0_t1 = 1#1), 8 ∣ (k0_mult51 v2193).toNat := fun k0_t1 v2193 k0_hw83 k0_h2 => k0_hw83.1 k0_h2
theorem k0_off312_inb : ∀ (k0_t1 : Fin k0_t1_loop.trips) (v2193 : BitVec 32) (k0_hw83 : k0_chk83 k0_t1 v2193), ∀ (k0_h2 : k0_cond2 k0_t1 = 1#1), ∀ a, (k0_off312 v2193) a + S8x64.size a ≤ S1000000x64.size a := fun k0_t1 v2193 k0_hw83 k0_h2 => k0_hw83.2 k0_h2

def k0_mult52 (v2202 : BitVec 32) : BitVec 32 :=
  v2202

def k0_off313 (v2202 : BitVec 32) : Fin 2 → Nat :=
  let v2203 : BitVec 32 := v2202
  let c0_i32_1308 : BitVec 32 := 0#32
  ![v2203.toNat, 0]

def k0_chk84 (k0_t1 : Fin k0_t1_loop.trips) (v2202 : BitVec 32) : Prop :=
  (∀ (k0_h2 : k0_cond2 k0_t1 = 1#1), 8 ∣ (k0_mult52 v2202).toNat) ∧
  (∀ (k0_h2 : k0_cond2 k0_t1 = 1#1), ∀ a, (k0_off313 v2202) a + S8x64.size a ≤ S1000000x64.size a)
instance k0_chk84.dec : ∀ (k0_t1 : Fin k0_t1_loop.trips) (v2202 : BitVec 32), Decidable (k0_chk84 k0_t1 v2202) := fun k0_t1 v2202 => decidable_of_iff' _ (Iff.of_eq (k0_chk84.eq_1 k0_t1 v2202))
theorem k0_mult52_dvd : ∀ (k0_t1 : Fin k0_t1_loop.trips) (v2202 : BitVec 32) (k0_hw84 : k0_chk84 k0_t1 v2202), ∀ (k0_h2 : k0_cond2 k0_t1 = 1#1), 8 ∣ (k0_mult52 v2202).toNat := fun k0_t1 v2202 k0_hw84 k0_h2 => k0_hw84.1 k0_h2
theorem k0_off313_inb : ∀ (k0_t1 : Fin k0_t1_loop.trips) (v2202 : BitVec 32) (k0_hw84 : k0_chk84 k0_t1 v2202), ∀ (k0_h2 : k0_cond2 k0_t1 = 1#1), ∀ a, (k0_off313 v2202) a + S8x64.size a ≤ S1000000x64.size a := fun k0_t1 v2202 k0_hw84 k0_h2 => k0_hw84.2 k0_h2

def k0_mult53 (v2211 : BitVec 32) : BitVec 32 :=
  v2211

def k0_off314 (v2211 : BitVec 32) : Fin 2 → Nat :=
  let v2212 : BitVec 32 := v2211
  let c0_i32_1316 : BitVec 32 := 0#32
  ![v2212.toNat, 0]

def k0_chk85 (k0_t1 : Fin k0_t1_loop.trips) (v2211 : BitVec 32) : Prop :=
  (∀ (k0_h2 : k0_cond2 k0_t1 = 1#1), 8 ∣ (k0_mult53 v2211).toNat) ∧
  (∀ (k0_h2 : k0_cond2 k0_t1 = 1#1), ∀ a, (k0_off314 v2211) a + S8x64.size a ≤ S1000000x64.size a)
instance k0_chk85.dec : ∀ (k0_t1 : Fin k0_t1_loop.trips) (v2211 : BitVec 32), Decidable (k0_chk85 k0_t1 v2211) := fun k0_t1 v2211 => decidable_of_iff' _ (Iff.of_eq (k0_chk85.eq_1 k0_t1 v2211))
theorem k0_mult53_dvd : ∀ (k0_t1 : Fin k0_t1_loop.trips) (v2211 : BitVec 32) (k0_hw85 : k0_chk85 k0_t1 v2211), ∀ (k0_h2 : k0_cond2 k0_t1 = 1#1), 8 ∣ (k0_mult53 v2211).toNat := fun k0_t1 v2211 k0_hw85 k0_h2 => k0_hw85.1 k0_h2
theorem k0_off314_inb : ∀ (k0_t1 : Fin k0_t1_loop.trips) (v2211 : BitVec 32) (k0_hw85 : k0_chk85 k0_t1 v2211), ∀ (k0_h2 : k0_cond2 k0_t1 = 1#1), ∀ a, (k0_off314 v2211) a + S8x64.size a ≤ S1000000x64.size a := fun k0_t1 v2211 k0_hw85 k0_h2 => k0_hw85.2 k0_h2

def k0_mult54 (v2220 : BitVec 32) : BitVec 32 :=
  v2220

def k0_off315 (v2220 : BitVec 32) : Fin 2 → Nat :=
  let v2221 : BitVec 32 := v2220
  let c0_i32_1324 : BitVec 32 := 0#32
  ![v2221.toNat, 0]

def k0_chk86 (k0_t1 : Fin k0_t1_loop.trips) (v2220 : BitVec 32) : Prop :=
  (∀ (k0_h2 : k0_cond2 k0_t1 = 1#1), 8 ∣ (k0_mult54 v2220).toNat) ∧
  (∀ (k0_h2 : k0_cond2 k0_t1 = 1#1), ∀ a, (k0_off315 v2220) a + S8x64.size a ≤ S1000000x64.size a)
instance k0_chk86.dec : ∀ (k0_t1 : Fin k0_t1_loop.trips) (v2220 : BitVec 32), Decidable (k0_chk86 k0_t1 v2220) := fun k0_t1 v2220 => decidable_of_iff' _ (Iff.of_eq (k0_chk86.eq_1 k0_t1 v2220))
theorem k0_mult54_dvd : ∀ (k0_t1 : Fin k0_t1_loop.trips) (v2220 : BitVec 32) (k0_hw86 : k0_chk86 k0_t1 v2220), ∀ (k0_h2 : k0_cond2 k0_t1 = 1#1), 8 ∣ (k0_mult54 v2220).toNat := fun k0_t1 v2220 k0_hw86 k0_h2 => k0_hw86.1 k0_h2
theorem k0_off315_inb : ∀ (k0_t1 : Fin k0_t1_loop.trips) (v2220 : BitVec 32) (k0_hw86 : k0_chk86 k0_t1 v2220), ∀ (k0_h2 : k0_cond2 k0_t1 = 1#1), ∀ a, (k0_off315 v2220) a + S8x64.size a ≤ S1000000x64.size a := fun k0_t1 v2220 k0_hw86 k0_h2 => k0_hw86.2 k0_h2

def k0_mult55 (v2229 : BitVec 32) : BitVec 32 :=
  v2229

def k0_off316 (v2229 : BitVec 32) : Fin 2 → Nat :=
  let v2230 : BitVec 32 := v2229
  let c0_i32_1332 : BitVec 32 := 0#32
  ![v2230.toNat, 0]

def k0_chk87 (k0_t1 : Fin k0_t1_loop.trips) (v2229 : BitVec 32) : Prop :=
  (∀ (k0_h2 : k0_cond2 k0_t1 = 1#1), 8 ∣ (k0_mult55 v2229).toNat) ∧
  (∀ (k0_h2 : k0_cond2 k0_t1 = 1#1), ∀ a, (k0_off316 v2229) a + S8x64.size a ≤ S1000000x64.size a)
instance k0_chk87.dec : ∀ (k0_t1 : Fin k0_t1_loop.trips) (v2229 : BitVec 32), Decidable (k0_chk87 k0_t1 v2229) := fun k0_t1 v2229 => decidable_of_iff' _ (Iff.of_eq (k0_chk87.eq_1 k0_t1 v2229))
theorem k0_mult55_dvd : ∀ (k0_t1 : Fin k0_t1_loop.trips) (v2229 : BitVec 32) (k0_hw87 : k0_chk87 k0_t1 v2229), ∀ (k0_h2 : k0_cond2 k0_t1 = 1#1), 8 ∣ (k0_mult55 v2229).toNat := fun k0_t1 v2229 k0_hw87 k0_h2 => k0_hw87.1 k0_h2
theorem k0_off316_inb : ∀ (k0_t1 : Fin k0_t1_loop.trips) (v2229 : BitVec 32) (k0_hw87 : k0_chk87 k0_t1 v2229), ∀ (k0_h2 : k0_cond2 k0_t1 = 1#1), ∀ a, (k0_off316 v2229) a + S8x64.size a ≤ S1000000x64.size a := fun k0_t1 v2229 k0_hw87 k0_h2 => k0_hw87.2 k0_h2

def k0_mult56 (v2238 : BitVec 32) : BitVec 32 :=
  v2238

def k0_off317 (v2238 : BitVec 32) : Fin 2 → Nat :=
  let v2239 : BitVec 32 := v2238
  let c0_i32_1340 : BitVec 32 := 0#32
  ![v2239.toNat, 0]

def k0_chk88 (k0_t1 : Fin k0_t1_loop.trips) (v2238 : BitVec 32) : Prop :=
  (∀ (k0_h2 : k0_cond2 k0_t1 = 1#1), 8 ∣ (k0_mult56 v2238).toNat) ∧
  (∀ (k0_h2 : k0_cond2 k0_t1 = 1#1), ∀ a, (k0_off317 v2238) a + S8x64.size a ≤ S1000000x64.size a)
instance k0_chk88.dec : ∀ (k0_t1 : Fin k0_t1_loop.trips) (v2238 : BitVec 32), Decidable (k0_chk88 k0_t1 v2238) := fun k0_t1 v2238 => decidable_of_iff' _ (Iff.of_eq (k0_chk88.eq_1 k0_t1 v2238))
theorem k0_mult56_dvd : ∀ (k0_t1 : Fin k0_t1_loop.trips) (v2238 : BitVec 32) (k0_hw88 : k0_chk88 k0_t1 v2238), ∀ (k0_h2 : k0_cond2 k0_t1 = 1#1), 8 ∣ (k0_mult56 v2238).toNat := fun k0_t1 v2238 k0_hw88 k0_h2 => k0_hw88.1 k0_h2
theorem k0_off317_inb : ∀ (k0_t1 : Fin k0_t1_loop.trips) (v2238 : BitVec 32) (k0_hw88 : k0_chk88 k0_t1 v2238), ∀ (k0_h2 : k0_cond2 k0_t1 = 1#1), ∀ a, (k0_off317 v2238) a + S8x64.size a ≤ S1000000x64.size a := fun k0_t1 v2238 k0_hw88 k0_h2 => k0_hw88.2 k0_h2

def k0_mult57 (v2247 : BitVec 32) : BitVec 32 :=
  v2247

def k0_off318 (v2247 : BitVec 32) : Fin 2 → Nat :=
  let v2248 : BitVec 32 := v2247
  let c0_i32_1348 : BitVec 32 := 0#32
  ![v2248.toNat, 0]

def k0_chk89 (k0_t1 : Fin k0_t1_loop.trips) (v2247 : BitVec 32) : Prop :=
  (∀ (k0_h2 : k0_cond2 k0_t1 = 1#1), 8 ∣ (k0_mult57 v2247).toNat) ∧
  (∀ (k0_h2 : k0_cond2 k0_t1 = 1#1), ∀ a, (k0_off318 v2247) a + S8x64.size a ≤ S1000000x64.size a)
instance k0_chk89.dec : ∀ (k0_t1 : Fin k0_t1_loop.trips) (v2247 : BitVec 32), Decidable (k0_chk89 k0_t1 v2247) := fun k0_t1 v2247 => decidable_of_iff' _ (Iff.of_eq (k0_chk89.eq_1 k0_t1 v2247))
theorem k0_mult57_dvd : ∀ (k0_t1 : Fin k0_t1_loop.trips) (v2247 : BitVec 32) (k0_hw89 : k0_chk89 k0_t1 v2247), ∀ (k0_h2 : k0_cond2 k0_t1 = 1#1), 8 ∣ (k0_mult57 v2247).toNat := fun k0_t1 v2247 k0_hw89 k0_h2 => k0_hw89.1 k0_h2
theorem k0_off318_inb : ∀ (k0_t1 : Fin k0_t1_loop.trips) (v2247 : BitVec 32) (k0_hw89 : k0_chk89 k0_t1 v2247), ∀ (k0_h2 : k0_cond2 k0_t1 = 1#1), ∀ a, (k0_off318 v2247) a + S8x64.size a ≤ S1000000x64.size a := fun k0_t1 v2247 k0_hw89 k0_h2 => k0_hw89.2 k0_h2

def k0_mult58 (v2256 : BitVec 32) : BitVec 32 :=
  v2256

def k0_off319 (v2256 : BitVec 32) : Fin 2 → Nat :=
  let v2257 : BitVec 32 := v2256
  let c0_i32_1356 : BitVec 32 := 0#32
  ![v2257.toNat, 0]

def k0_chk90 (k0_t1 : Fin k0_t1_loop.trips) (v2256 : BitVec 32) : Prop :=
  (∀ (k0_h2 : k0_cond2 k0_t1 = 1#1), 8 ∣ (k0_mult58 v2256).toNat) ∧
  (∀ (k0_h2 : k0_cond2 k0_t1 = 1#1), ∀ a, (k0_off319 v2256) a + S8x64.size a ≤ S1000000x64.size a)
instance k0_chk90.dec : ∀ (k0_t1 : Fin k0_t1_loop.trips) (v2256 : BitVec 32), Decidable (k0_chk90 k0_t1 v2256) := fun k0_t1 v2256 => decidable_of_iff' _ (Iff.of_eq (k0_chk90.eq_1 k0_t1 v2256))
theorem k0_mult58_dvd : ∀ (k0_t1 : Fin k0_t1_loop.trips) (v2256 : BitVec 32) (k0_hw90 : k0_chk90 k0_t1 v2256), ∀ (k0_h2 : k0_cond2 k0_t1 = 1#1), 8 ∣ (k0_mult58 v2256).toNat := fun k0_t1 v2256 k0_hw90 k0_h2 => k0_hw90.1 k0_h2
theorem k0_off319_inb : ∀ (k0_t1 : Fin k0_t1_loop.trips) (v2256 : BitVec 32) (k0_hw90 : k0_chk90 k0_t1 v2256), ∀ (k0_h2 : k0_cond2 k0_t1 = 1#1), ∀ a, (k0_off319 v2256) a + S8x64.size a ≤ S1000000x64.size a := fun k0_t1 v2256 k0_hw90 k0_h2 => k0_hw90.2 k0_h2

def k0_mult59 (v2265 : BitVec 32) : BitVec 32 :=
  v2265

def k0_off320 (v2265 : BitVec 32) : Fin 2 → Nat :=
  let v2266 : BitVec 32 := v2265
  let c0_i32_1364 : BitVec 32 := 0#32
  ![v2266.toNat, 0]

def k0_chk91 (k0_t1 : Fin k0_t1_loop.trips) (v2265 : BitVec 32) : Prop :=
  (∀ (k0_h2 : k0_cond2 k0_t1 = 1#1), 8 ∣ (k0_mult59 v2265).toNat) ∧
  (∀ (k0_h2 : k0_cond2 k0_t1 = 1#1), ∀ a, (k0_off320 v2265) a + S8x64.size a ≤ S1000000x64.size a)
instance k0_chk91.dec : ∀ (k0_t1 : Fin k0_t1_loop.trips) (v2265 : BitVec 32), Decidable (k0_chk91 k0_t1 v2265) := fun k0_t1 v2265 => decidable_of_iff' _ (Iff.of_eq (k0_chk91.eq_1 k0_t1 v2265))
theorem k0_mult59_dvd : ∀ (k0_t1 : Fin k0_t1_loop.trips) (v2265 : BitVec 32) (k0_hw91 : k0_chk91 k0_t1 v2265), ∀ (k0_h2 : k0_cond2 k0_t1 = 1#1), 8 ∣ (k0_mult59 v2265).toNat := fun k0_t1 v2265 k0_hw91 k0_h2 => k0_hw91.1 k0_h2
theorem k0_off320_inb : ∀ (k0_t1 : Fin k0_t1_loop.trips) (v2265 : BitVec 32) (k0_hw91 : k0_chk91 k0_t1 v2265), ∀ (k0_h2 : k0_cond2 k0_t1 = 1#1), ∀ a, (k0_off320 v2265) a + S8x64.size a ≤ S1000000x64.size a := fun k0_t1 v2265 k0_hw91 k0_h2 => k0_hw91.2 k0_h2

def k0_mult60 (v2274 : BitVec 32) : BitVec 32 :=
  v2274

def k0_off321 (v2274 : BitVec 32) : Fin 2 → Nat :=
  let v2275 : BitVec 32 := v2274
  let c0_i32_1372 : BitVec 32 := 0#32
  ![v2275.toNat, 0]

def k0_chk92 (k0_t1 : Fin k0_t1_loop.trips) (v2274 : BitVec 32) : Prop :=
  (∀ (k0_h2 : k0_cond2 k0_t1 = 1#1), 8 ∣ (k0_mult60 v2274).toNat) ∧
  (∀ (k0_h2 : k0_cond2 k0_t1 = 1#1), ∀ a, (k0_off321 v2274) a + S8x64.size a ≤ S1000000x64.size a)
instance k0_chk92.dec : ∀ (k0_t1 : Fin k0_t1_loop.trips) (v2274 : BitVec 32), Decidable (k0_chk92 k0_t1 v2274) := fun k0_t1 v2274 => decidable_of_iff' _ (Iff.of_eq (k0_chk92.eq_1 k0_t1 v2274))
theorem k0_mult60_dvd : ∀ (k0_t1 : Fin k0_t1_loop.trips) (v2274 : BitVec 32) (k0_hw92 : k0_chk92 k0_t1 v2274), ∀ (k0_h2 : k0_cond2 k0_t1 = 1#1), 8 ∣ (k0_mult60 v2274).toNat := fun k0_t1 v2274 k0_hw92 k0_h2 => k0_hw92.1 k0_h2
theorem k0_off321_inb : ∀ (k0_t1 : Fin k0_t1_loop.trips) (v2274 : BitVec 32) (k0_hw92 : k0_chk92 k0_t1 v2274), ∀ (k0_h2 : k0_cond2 k0_t1 = 1#1), ∀ a, (k0_off321 v2274) a + S8x64.size a ≤ S1000000x64.size a := fun k0_t1 v2274 k0_hw92 k0_h2 => k0_hw92.2 k0_h2

def k0_mult61 (v2283 : BitVec 32) : BitVec 32 :=
  v2283

def k0_off322 (v2283 : BitVec 32) : Fin 2 → Nat :=
  let v2284 : BitVec 32 := v2283
  let c0_i32_1380 : BitVec 32 := 0#32
  ![v2284.toNat, 0]

def k0_chk93 (k0_t1 : Fin k0_t1_loop.trips) (v2283 : BitVec 32) : Prop :=
  (∀ (k0_h2 : k0_cond2 k0_t1 = 1#1), 8 ∣ (k0_mult61 v2283).toNat) ∧
  (∀ (k0_h2 : k0_cond2 k0_t1 = 1#1), ∀ a, (k0_off322 v2283) a + S8x64.size a ≤ S1000000x64.size a)
instance k0_chk93.dec : ∀ (k0_t1 : Fin k0_t1_loop.trips) (v2283 : BitVec 32), Decidable (k0_chk93 k0_t1 v2283) := fun k0_t1 v2283 => decidable_of_iff' _ (Iff.of_eq (k0_chk93.eq_1 k0_t1 v2283))
theorem k0_mult61_dvd : ∀ (k0_t1 : Fin k0_t1_loop.trips) (v2283 : BitVec 32) (k0_hw93 : k0_chk93 k0_t1 v2283), ∀ (k0_h2 : k0_cond2 k0_t1 = 1#1), 8 ∣ (k0_mult61 v2283).toNat := fun k0_t1 v2283 k0_hw93 k0_h2 => k0_hw93.1 k0_h2
theorem k0_off322_inb : ∀ (k0_t1 : Fin k0_t1_loop.trips) (v2283 : BitVec 32) (k0_hw93 : k0_chk93 k0_t1 v2283), ∀ (k0_h2 : k0_cond2 k0_t1 = 1#1), ∀ a, (k0_off322 v2283) a + S8x64.size a ≤ S1000000x64.size a := fun k0_t1 v2283 k0_hw93 k0_h2 => k0_hw93.2 k0_h2

def k0_mult62 (v2292 : BitVec 32) : BitVec 32 :=
  v2292

def k0_off323 (v2292 : BitVec 32) : Fin 2 → Nat :=
  let v2293 : BitVec 32 := v2292
  let c0_i32_1388 : BitVec 32 := 0#32
  ![v2293.toNat, 0]

def k0_chk94 (k0_t1 : Fin k0_t1_loop.trips) (v2292 : BitVec 32) : Prop :=
  (∀ (k0_h2 : k0_cond2 k0_t1 = 1#1), 8 ∣ (k0_mult62 v2292).toNat) ∧
  (∀ (k0_h2 : k0_cond2 k0_t1 = 1#1), ∀ a, (k0_off323 v2292) a + S8x64.size a ≤ S1000000x64.size a)
instance k0_chk94.dec : ∀ (k0_t1 : Fin k0_t1_loop.trips) (v2292 : BitVec 32), Decidable (k0_chk94 k0_t1 v2292) := fun k0_t1 v2292 => decidable_of_iff' _ (Iff.of_eq (k0_chk94.eq_1 k0_t1 v2292))
theorem k0_mult62_dvd : ∀ (k0_t1 : Fin k0_t1_loop.trips) (v2292 : BitVec 32) (k0_hw94 : k0_chk94 k0_t1 v2292), ∀ (k0_h2 : k0_cond2 k0_t1 = 1#1), 8 ∣ (k0_mult62 v2292).toNat := fun k0_t1 v2292 k0_hw94 k0_h2 => k0_hw94.1 k0_h2
theorem k0_off323_inb : ∀ (k0_t1 : Fin k0_t1_loop.trips) (v2292 : BitVec 32) (k0_hw94 : k0_chk94 k0_t1 v2292), ∀ (k0_h2 : k0_cond2 k0_t1 = 1#1), ∀ a, (k0_off323 v2292) a + S8x64.size a ≤ S1000000x64.size a := fun k0_t1 v2292 k0_hw94 k0_h2 => k0_hw94.2 k0_h2

def k0_mult63 (v2301 : BitVec 32) : BitVec 32 :=
  v2301

def k0_off324 (v2301 : BitVec 32) : Fin 2 → Nat :=
  let v2302 : BitVec 32 := v2301
  let c0_i32_1396 : BitVec 32 := 0#32
  ![v2302.toNat, 0]

def k0_chk95 (k0_t1 : Fin k0_t1_loop.trips) (v2301 : BitVec 32) : Prop :=
  (∀ (k0_h2 : k0_cond2 k0_t1 = 1#1), 8 ∣ (k0_mult63 v2301).toNat) ∧
  (∀ (k0_h2 : k0_cond2 k0_t1 = 1#1), ∀ a, (k0_off324 v2301) a + S8x64.size a ≤ S1000000x64.size a)
instance k0_chk95.dec : ∀ (k0_t1 : Fin k0_t1_loop.trips) (v2301 : BitVec 32), Decidable (k0_chk95 k0_t1 v2301) := fun k0_t1 v2301 => decidable_of_iff' _ (Iff.of_eq (k0_chk95.eq_1 k0_t1 v2301))
theorem k0_mult63_dvd : ∀ (k0_t1 : Fin k0_t1_loop.trips) (v2301 : BitVec 32) (k0_hw95 : k0_chk95 k0_t1 v2301), ∀ (k0_h2 : k0_cond2 k0_t1 = 1#1), 8 ∣ (k0_mult63 v2301).toNat := fun k0_t1 v2301 k0_hw95 k0_h2 => k0_hw95.1 k0_h2
theorem k0_off324_inb : ∀ (k0_t1 : Fin k0_t1_loop.trips) (v2301 : BitVec 32) (k0_hw95 : k0_chk95 k0_t1 v2301), ∀ (k0_h2 : k0_cond2 k0_t1 = 1#1), ∀ a, (k0_off324 v2301) a + S8x64.size a ≤ S1000000x64.size a := fun k0_t1 v2301 k0_hw95 k0_h2 => k0_hw95.2 k0_h2

def k0_mult64 (v2310 : BitVec 32) : BitVec 32 :=
  v2310

def k0_off325 (v2310 : BitVec 32) : Fin 2 → Nat :=
  let v2311 : BitVec 32 := v2310
  let c0_i32_1404 : BitVec 32 := 0#32
  ![v2311.toNat, 0]

def k0_chk96 (k0_t1 : Fin k0_t1_loop.trips) (v2310 : BitVec 32) : Prop :=
  (∀ (k0_h2 : k0_cond2 k0_t1 = 1#1), 8 ∣ (k0_mult64 v2310).toNat) ∧
  (∀ (k0_h2 : k0_cond2 k0_t1 = 1#1), ∀ a, (k0_off325 v2310) a + S8x64.size a ≤ S1000000x64.size a)
instance k0_chk96.dec : ∀ (k0_t1 : Fin k0_t1_loop.trips) (v2310 : BitVec 32), Decidable (k0_chk96 k0_t1 v2310) := fun k0_t1 v2310 => decidable_of_iff' _ (Iff.of_eq (k0_chk96.eq_1 k0_t1 v2310))
theorem k0_mult64_dvd : ∀ (k0_t1 : Fin k0_t1_loop.trips) (v2310 : BitVec 32) (k0_hw96 : k0_chk96 k0_t1 v2310), ∀ (k0_h2 : k0_cond2 k0_t1 = 1#1), 8 ∣ (k0_mult64 v2310).toNat := fun k0_t1 v2310 k0_hw96 k0_h2 => k0_hw96.1 k0_h2
theorem k0_off325_inb : ∀ (k0_t1 : Fin k0_t1_loop.trips) (v2310 : BitVec 32) (k0_hw96 : k0_chk96 k0_t1 v2310), ∀ (k0_h2 : k0_cond2 k0_t1 = 1#1), ∀ a, (k0_off325 v2310) a + S8x64.size a ≤ S1000000x64.size a := fun k0_t1 v2310 k0_hw96 k0_h2 => k0_hw96.2 k0_h2

def k0_off326 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_374_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S512_S16_0 : ∀ a, (![0] : Fin 1 → Nat) a + S16.size a ≤ S512.size a
  h_S16 : 0 < S16.numel
  shapeCasts_S16_S16 : S16.ShapeCasts S16
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  iota_S16_d0_w32_scVector : S16.Iotas .scVector 32 [0]
  slices_S16_o0_S1 : S16.Slices ![0] S1
  inpos_S1_p0 : ∀ a, (![0] : Fin 1 → Nat) a < S1.size a
  inb_S2x16x8x64_S1x1x8x64_0_0_0_0 : ∀ a, (![0, 0, 0, 0] : Fin 4 → Nat) a + S1x1x8x64.size a ≤ S2x16x8x64.size a
  squeezes_S1x1x8x64_S8x64 : S1x1x8x64.Squeezes S8x64
  slices_S16_o1_S1 : S16.Slices ![1] S1
  inb_S2x16x8x64_S1x1x8x64_0_1_0_0 : ∀ a, (![0, 1, 0, 0] : Fin 4 → Nat) a + S1x1x8x64.size a ≤ S2x16x8x64.size a
  slices_S16_o2_S1 : S16.Slices ![2] S1
  inb_S2x16x8x64_S1x1x8x64_0_2_0_0 : ∀ a, (![0, 2, 0, 0] : Fin 4 → Nat) a + S1x1x8x64.size a ≤ S2x16x8x64.size a
  slices_S16_o3_S1 : S16.Slices ![3] S1
  inb_S2x16x8x64_S1x1x8x64_0_3_0_0 : ∀ a, (![0, 3, 0, 0] : Fin 4 → Nat) a + S1x1x8x64.size a ≤ S2x16x8x64.size a
  slices_S16_o4_S1 : S16.Slices ![4] S1
  inb_S2x16x8x64_S1x1x8x64_0_4_0_0 : ∀ a, (![0, 4, 0, 0] : Fin 4 → Nat) a + S1x1x8x64.size a ≤ S2x16x8x64.size a
  slices_S16_o5_S1 : S16.Slices ![5] S1
  inb_S2x16x8x64_S1x1x8x64_0_5_0_0 : ∀ a, (![0, 5, 0, 0] : Fin 4 → Nat) a + S1x1x8x64.size a ≤ S2x16x8x64.size a
  slices_S16_o6_S1 : S16.Slices ![6] S1
  inb_S2x16x8x64_S1x1x8x64_0_6_0_0 : ∀ a, (![0, 6, 0, 0] : Fin 4 → Nat) a + S1x1x8x64.size a ≤ S2x16x8x64.size a
  slices_S16_o7_S1 : S16.Slices ![7] S1
  inb_S2x16x8x64_S1x1x8x64_0_7_0_0 : ∀ a, (![0, 7, 0, 0] : Fin 4 → Nat) a + S1x1x8x64.size a ≤ S2x16x8x64.size a
  slices_S16_o8_S1 : S16.Slices ![8] S1
  inb_S2x16x8x64_S1x1x8x64_0_8_0_0 : ∀ a, (![0, 8, 0, 0] : Fin 4 → Nat) a + S1x1x8x64.size a ≤ S2x16x8x64.size a
  slices_S16_o9_S1 : S16.Slices ![9] S1
  inb_S2x16x8x64_S1x1x8x64_0_9_0_0 : ∀ a, (![0, 9, 0, 0] : Fin 4 → Nat) a + S1x1x8x64.size a ≤ S2x16x8x64.size a
  slices_S16_o10_S1 : S16.Slices ![10] S1
  inb_S2x16x8x64_S1x1x8x64_0_10_0_0 : ∀ a, (![0, 10, 0, 0] : Fin 4 → Nat) a + S1x1x8x64.size a ≤ S2x16x8x64.size a
  slices_S16_o11_S1 : S16.Slices ![11] S1
  inb_S2x16x8x64_S1x1x8x64_0_11_0_0 : ∀ a, (![0, 11, 0, 0] : Fin 4 → Nat) a + S1x1x8x64.size a ≤ S2x16x8x64.size a
  slices_S16_o12_S1 : S16.Slices ![12] S1
  inb_S2x16x8x64_S1x1x8x64_0_12_0_0 : ∀ a, (![0, 12, 0, 0] : Fin 4 → Nat) a + S1x1x8x64.size a ≤ S2x16x8x64.size a
  slices_S16_o13_S1 : S16.Slices ![13] S1
  inb_S2x16x8x64_S1x1x8x64_0_13_0_0 : ∀ a, (![0, 13, 0, 0] : Fin 4 → Nat) a + S1x1x8x64.size a ≤ S2x16x8x64.size a
  slices_S16_o14_S1 : S16.Slices ![14] S1
  inb_S2x16x8x64_S1x1x8x64_0_14_0_0 : ∀ a, (![0, 14, 0, 0] : Fin 4 → Nat) a + S1x1x8x64.size a ≤ S2x16x8x64.size a
  slices_S16_o15_S1 : S16.Slices ![15] S1
  inb_S2x16x8x64_S1x1x8x64_0_15_0_0 : ∀ a, (![0, 15, 0, 0] : Fin 4 → Nat) a + S1x1x8x64.size a ≤ S2x16x8x64.size a
  inb_S2x16x8x64_S1x1x8x64_1_0_0_0 : ∀ a, (![1, 0, 0, 0] : Fin 4 → Nat) a + S1x1x8x64.size a ≤ S2x16x8x64.size a
  inb_S2x16x8x64_S1x1x8x64_1_1_0_0 : ∀ a, (![1, 1, 0, 0] : Fin 4 → Nat) a + S1x1x8x64.size a ≤ S2x16x8x64.size a
  inb_S2x16x8x64_S1x1x8x64_1_2_0_0 : ∀ a, (![1, 2, 0, 0] : Fin 4 → Nat) a + S1x1x8x64.size a ≤ S2x16x8x64.size a
  inb_S2x16x8x64_S1x1x8x64_1_3_0_0 : ∀ a, (![1, 3, 0, 0] : Fin 4 → Nat) a + S1x1x8x64.size a ≤ S2x16x8x64.size a
  inb_S2x16x8x64_S1x1x8x64_1_4_0_0 : ∀ a, (![1, 4, 0, 0] : Fin 4 → Nat) a + S1x1x8x64.size a ≤ S2x16x8x64.size a
  inb_S2x16x8x64_S1x1x8x64_1_5_0_0 : ∀ a, (![1, 5, 0, 0] : Fin 4 → Nat) a + S1x1x8x64.size a ≤ S2x16x8x64.size a
  inb_S2x16x8x64_S1x1x8x64_1_6_0_0 : ∀ a, (![1, 6, 0, 0] : Fin 4 → Nat) a + S1x1x8x64.size a ≤ S2x16x8x64.size a
  inb_S2x16x8x64_S1x1x8x64_1_7_0_0 : ∀ a, (![1, 7, 0, 0] : Fin 4 → Nat) a + S1x1x8x64.size a ≤ S2x16x8x64.size a
  inb_S2x16x8x64_S1x1x8x64_1_8_0_0 : ∀ a, (![1, 8, 0, 0] : Fin 4 → Nat) a + S1x1x8x64.size a ≤ S2x16x8x64.size a
  inb_S2x16x8x64_S1x1x8x64_1_9_0_0 : ∀ a, (![1, 9, 0, 0] : Fin 4 → Nat) a + S1x1x8x64.size a ≤ S2x16x8x64.size a
  inb_S2x16x8x64_S1x1x8x64_1_10_0_0 : ∀ a, (![1, 10, 0, 0] : Fin 4 → Nat) a + S1x1x8x64.size a ≤ S2x16x8x64.size a
  inb_S2x16x8x64_S1x1x8x64_1_11_0_0 : ∀ a, (![1, 11, 0, 0] : Fin 4 → Nat) a + S1x1x8x64.size a ≤ S2x16x8x64.size a
  inb_S2x16x8x64_S1x1x8x64_1_12_0_0 : ∀ a, (![1, 12, 0, 0] : Fin 4 → Nat) a + S1x1x8x64.size a ≤ S2x16x8x64.size a
  inb_S2x16x8x64_S1x1x8x64_1_13_0_0 : ∀ a, (![1, 13, 0, 0] : Fin 4 → Nat) a + S1x1x8x64.size a ≤ S2x16x8x64.size a
  inb_S2x16x8x64_S1x1x8x64_1_14_0_0 : ∀ a, (![1, 14, 0, 0] : Fin 4 → Nat) a + S1x1x8x64.size a ≤ S2x16x8x64.size a
  inb_S2x16x8x64_S1x1x8x64_1_15_0_0 : ∀ a, (![1, 15, 0, 0] : Fin 4 → Nat) a + S1x1x8x64.size a ≤ S2x16x8x64.size a
  inb_S1000000x64_S8x64_0_0 : ∀ a, (![0, 0] : Fin 2 → Nat) a + S8x64.size a ≤ S1000000x64.size a
  h_S1x1x1x16 : 0 < S1x1x1x16.numel
  shapeCasts_S1x1x1x16_S16 : S1x1x1x16.ShapeCasts S16
  h_S1x16 : 0 < S1x16.numel
  shapeCasts_S1x16_S16 : S1x16.ShapeCasts S16
  shapeCasts_S16_S1x16 : S16.ShapeCasts S1x16
  hcc0_scratch5 : 0 + S_.numel ≤ 4
  hcc0_scratch6 : 1 + S_.numel ≤ 4
  hcc0_scoped0 : 2 + S_.numel ≤ 4
  hcc0_scoped1 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off34_inb : ∀ k0_t1 : Fin k0_t1_loop.trips, ∀ a, (k0_off34 k0_t1) a + S16.size a ≤ S512.size a
  k0_off36_inb : ∀ k0_t1 : Fin k0_t1_loop.trips, ∀ a, (k0_off36 k0_t1) a + S1x16.size a ≤ S512x64.size a
  k0_off38_inb : ∀ k0_t1 : Fin k0_t1_loop.trips, ∀ a, (k0_off38 k0_t1) a + S1x16.size a ≤ S512x64.size a
  k0_off40_inb : ∀ k0_t1 : Fin k0_t1_loop.trips, ∀ a, (k0_off40 k0_t1) a + S1x16.size a ≤ S512x64.size a
  k0_off42_inb : ∀ k0_t1 : Fin k0_t1_loop.trips, ∀ a, (k0_off42 k0_t1) a + S1x16.size a ≤ S512x64.size a
  k0_off44_inb : ∀ k0_t1 : Fin k0_t1_loop.trips, ∀ a, (k0_off44 k0_t1) a + S1x16.size a ≤ S512x64.size a
  k0_off46_inb : ∀ k0_t1 : Fin k0_t1_loop.trips, ∀ a, (k0_off46 k0_t1) a + S1x16.size a ≤ S512x64.size a
  k0_off48_inb : ∀ k0_t1 : Fin k0_t1_loop.trips, ∀ a, (k0_off48 k0_t1) a + S1x16.size a ≤ S512x64.size a
  k0_off50_inb : ∀ k0_t1 : Fin k0_t1_loop.trips, ∀ a, (k0_off50 k0_t1) a + S1x16.size a ≤ S512x64.size a
  k0_off52_inb : ∀ k0_t1 : Fin k0_t1_loop.trips, ∀ a, (k0_off52 k0_t1) a + S1x16.size a ≤ S512x64.size a
  k0_off54_inb : ∀ k0_t1 : Fin k0_t1_loop.trips, ∀ a, (k0_off54 k0_t1) a + S1x16.size a ≤ S512x64.size a
  k0_off56_inb : ∀ k0_t1 : Fin k0_t1_loop.trips, ∀ a, (k0_off56 k0_t1) a + S1x16.size a ≤ S512x64.size a
  k0_off58_inb : ∀ k0_t1 : Fin k0_t1_loop.trips, ∀ a, (k0_off58 k0_t1) a + S1x16.size a ≤ S512x64.size a
  k0_off60_inb : ∀ k0_t1 : Fin k0_t1_loop.trips, ∀ a, (k0_off60 k0_t1) a + S1x16.size a ≤ S512x64.size a
  k0_off62_inb : ∀ k0_t1 : Fin k0_t1_loop.trips, ∀ a, (k0_off62 k0_t1) a + S1x16.size a ≤ S512x64.size a
  k0_off64_inb : ∀ k0_t1 : Fin k0_t1_loop.trips, ∀ a, (k0_off64 k0_t1) a + S1x16.size a ≤ S512x64.size a
  k0_off66_inb : ∀ k0_t1 : Fin k0_t1_loop.trips, ∀ a, (k0_off66 k0_t1) a + S1x16.size a ≤ S512x64.size a
  k0_off68_inb : ∀ k0_t1 : Fin k0_t1_loop.trips, ∀ a, (k0_off68 k0_t1) a + S1x16.size a ≤ S512x64.size a
  k0_off70_inb : ∀ k0_t1 : Fin k0_t1_loop.trips, ∀ a, (k0_off70 k0_t1) a + S1x16.size a ≤ S512x64.size a
  k0_off72_inb : ∀ k0_t1 : Fin k0_t1_loop.trips, ∀ a, (k0_off72 k0_t1) a + S1x16.size a ≤ S512x64.size a
  k0_off74_inb : ∀ k0_t1 : Fin k0_t1_loop.trips, ∀ a, (k0_off74 k0_t1) a + S1x16.size a ≤ S512x64.size a
  k0_off76_inb : ∀ k0_t1 : Fin k0_t1_loop.trips, ∀ a, (k0_off76 k0_t1) a + S1x16.size a ≤ S512x64.size a
  k0_off78_inb : ∀ k0_t1 : Fin k0_t1_loop.trips, ∀ a, (k0_off78 k0_t1) a + S1x16.size a ≤ S512x64.size a
  k0_off80_inb : ∀ k0_t1 : Fin k0_t1_loop.trips, ∀ a, (k0_off80 k0_t1) a + S1x16.size a ≤ S512x64.size a
  k0_off82_inb : ∀ k0_t1 : Fin k0_t1_loop.trips, ∀ a, (k0_off82 k0_t1) a + S1x16.size a ≤ S512x64.size a
  k0_off84_inb : ∀ k0_t1 : Fin k0_t1_loop.trips, ∀ a, (k0_off84 k0_t1) a + S1x16.size a ≤ S512x64.size a
  k0_off86_inb : ∀ k0_t1 : Fin k0_t1_loop.trips, ∀ a, (k0_off86 k0_t1) a + S1x16.size a ≤ S512x64.size a
  k0_off88_inb : ∀ k0_t1 : Fin k0_t1_loop.trips, ∀ a, (k0_off88 k0_t1) a + S1x16.size a ≤ S512x64.size a
  k0_off90_inb : ∀ k0_t1 : Fin k0_t1_loop.trips, ∀ a, (k0_off90 k0_t1) a + S1x16.size a ≤ S512x64.size a
  k0_off92_inb : ∀ k0_t1 : Fin k0_t1_loop.trips, ∀ a, (k0_off92 k0_t1) a + S1x16.size a ≤ S512x64.size a
  k0_off94_inb : ∀ k0_t1 : Fin k0_t1_loop.trips, ∀ a, (k0_off94 k0_t1) a + S1x16.size a ≤ S512x64.size a
  k0_off96_inb : ∀ k0_t1 : Fin k0_t1_loop.trips, ∀ a, (k0_off96 k0_t1) a + S1x16.size a ≤ S512x64.size a
  k0_off98_inb : ∀ k0_t1 : Fin k0_t1_loop.trips, ∀ a, (k0_off98 k0_t1) a + S1x16.size a ≤ S512x64.size a
  k0_off100_inb : ∀ k0_t1 : Fin k0_t1_loop.trips, ∀ a, (k0_off100 k0_t1) a + S1x16.size a ≤ S512x64.size a
  k0_off102_inb : ∀ k0_t1 : Fin k0_t1_loop.trips, ∀ a, (k0_off102 k0_t1) a + S1x16.size a ≤ S512x64.size a
  k0_off104_inb : ∀ k0_t1 : Fin k0_t1_loop.trips, ∀ a, (k0_off104 k0_t1) a + S1x16.size a ≤ S512x64.size a
  k0_off106_inb : ∀ k0_t1 : Fin k0_t1_loop.trips, ∀ a, (k0_off106 k0_t1) a + S1x16.size a ≤ S512x64.size a
  k0_off108_inb : ∀ k0_t1 : Fin k0_t1_loop.trips, ∀ a, (k0_off108 k0_t1) a + S1x16.size a ≤ S512x64.size a
  k0_off110_inb : ∀ k0_t1 : Fin k0_t1_loop.trips, ∀ a, (k0_off110 k0_t1) a + S1x16.size a ≤ S512x64.size a
  k0_off112_inb : ∀ k0_t1 : Fin k0_t1_loop.trips, ∀ a, (k0_off112 k0_t1) a + S1x16.size a ≤ S512x64.size a
  k0_off114_inb : ∀ k0_t1 : Fin k0_t1_loop.trips, ∀ a, (k0_off114 k0_t1) a + S1x16.size a ≤ S512x64.size a
  k0_off116_inb : ∀ k0_t1 : Fin k0_t1_loop.trips, ∀ a, (k0_off116 k0_t1) a + S1x16.size a ≤ S512x64.size a
  k0_off118_inb : ∀ k0_t1 : Fin k0_t1_loop.trips, ∀ a, (k0_off118 k0_t1) a + S1x16.size a ≤ S512x64.size a
  k0_off120_inb : ∀ k0_t1 : Fin k0_t1_loop.trips, ∀ a, (k0_off120 k0_t1) a + S1x16.size a ≤ S512x64.size a
  k0_off122_inb : ∀ k0_t1 : Fin k0_t1_loop.trips, ∀ a, (k0_off122 k0_t1) a + S1x16.size a ≤ S512x64.size a
  k0_off124_inb : ∀ k0_t1 : Fin k0_t1_loop.trips, ∀ a, (k0_off124 k0_t1) a + S1x16.size a ≤ S512x64.size a
  k0_off126_inb : ∀ k0_t1 : Fin k0_t1_loop.trips, ∀ a, (k0_off126 k0_t1) a + S1x16.size a ≤ S512x64.size a
  k0_off128_inb : ∀ k0_t1 : Fin k0_t1_loop.trips, ∀ a, (k0_off128 k0_t1) a + S1x16.size a ≤ S512x64.size a
  k0_off130_inb : ∀ k0_t1 : Fin k0_t1_loop.trips, ∀ a, (k0_off130 k0_t1) a + S1x16.size a ≤ S512x64.size a
  k0_off132_inb : ∀ k0_t1 : Fin k0_t1_loop.trips, ∀ a, (k0_off132 k0_t1) a + S1x16.size a ≤ S512x64.size a
  k0_off134_inb : ∀ k0_t1 : Fin k0_t1_loop.trips, ∀ a, (k0_off134 k0_t1) a + S1x16.size a ≤ S512x64.size a
  k0_off136_inb : ∀ k0_t1 : Fin k0_t1_loop.trips, ∀ a, (k0_off136 k0_t1) a + S1x16.size a ≤ S512x64.size a
  k0_off138_inb : ∀ k0_t1 : Fin k0_t1_loop.trips, ∀ a, (k0_off138 k0_t1) a + S1x16.size a ≤ S512x64.size a
  k0_off140_inb : ∀ k0_t1 : Fin k0_t1_loop.trips, ∀ a, (k0_off140 k0_t1) a + S1x16.size a ≤ S512x64.size a
  k0_off142_inb : ∀ k0_t1 : Fin k0_t1_loop.trips, ∀ a, (k0_off142 k0_t1) a + S1x16.size a ≤ S512x64.size a
  k0_off144_inb : ∀ k0_t1 : Fin k0_t1_loop.trips, ∀ a, (k0_off144 k0_t1) a + S1x16.size a ≤ S512x64.size a
  k0_off146_inb : ∀ k0_t1 : Fin k0_t1_loop.trips, ∀ a, (k0_off146 k0_t1) a + S1x16.size a ≤ S512x64.size a
  k0_off148_inb : ∀ k0_t1 : Fin k0_t1_loop.trips, ∀ a, (k0_off148 k0_t1) a + S1x16.size a ≤ S512x64.size a
  k0_off150_inb : ∀ k0_t1 : Fin k0_t1_loop.trips, ∀ a, (k0_off150 k0_t1) a + S1x16.size a ≤ S512x64.size a
  k0_off152_inb : ∀ k0_t1 : Fin k0_t1_loop.trips, ∀ a, (k0_off152 k0_t1) a + S1x16.size a ≤ S512x64.size a
  k0_off154_inb : ∀ k0_t1 : Fin k0_t1_loop.trips, ∀ a, (k0_off154 k0_t1) a + S1x16.size a ≤ S512x64.size a
  k0_off156_inb : ∀ k0_t1 : Fin k0_t1_loop.trips, ∀ a, (k0_off156 k0_t1) a + S1x16.size a ≤ S512x64.size a
  k0_off158_inb : ∀ k0_t1 : Fin k0_t1_loop.trips, ∀ a, (k0_off158 k0_t1) a + S1x16.size a ≤ S512x64.size a
  k0_off160_inb : ∀ k0_t1 : Fin k0_t1_loop.trips, ∀ a, (k0_off160 k0_t1) a + S1x16.size a ≤ S512x64.size a
  k0_off162_inb : ∀ k0_t1 : Fin k0_t1_loop.trips, ∀ a, (k0_off162 k0_t1) a + S1x16.size a ≤ S512x64.size a
  k0_off163_inb : ∀ k0_t1 : Fin k0_t1_loop.trips, ∀ (k0_h1 : k0_cond1 k0_t1 = 1#1), ∀ a, (k0_off163 k0_t1) a + S16.size a ≤ S512.size a
  k0_off180_inb : ∀ k0_t1 : Fin k0_t1_loop.trips, ∀ a, (k0_off180 k0_t1) a + S16.size a ≤ S512.size a
  k0_off182_inb : ∀ k0_t1 : Fin k0_t1_loop.trips, ∀ a, (k0_off182 k0_t1) a + S1x16.size a ≤ S512x64.size a
  k0_off184_inb : ∀ k0_t1 : Fin k0_t1_loop.trips, ∀ a, (k0_off184 k0_t1) a + S1x16.size a ≤ S512x64.size a
  k0_off186_inb : ∀ k0_t1 : Fin k0_t1_loop.trips, ∀ a, (k0_off186 k0_t1) a + S1x16.size a ≤ S512x64.size a
  k0_off188_inb : ∀ k0_t1 : Fin k0_t1_loop.trips, ∀ a, (k0_off188 k0_t1) a + S1x16.size a ≤ S512x64.size a
  k0_off190_inb : ∀ k0_t1 : Fin k0_t1_loop.trips, ∀ a, (k0_off190 k0_t1) a + S1x16.size a ≤ S512x64.size a
  k0_off192_inb : ∀ k0_t1 : Fin k0_t1_loop.trips, ∀ a, (k0_off192 k0_t1) a + S1x16.size a ≤ S512x64.size a
  k0_off194_inb : ∀ k0_t1 : Fin k0_t1_loop.trips, ∀ a, (k0_off194 k0_t1) a + S1x16.size a ≤ S512x64.size a
  k0_off196_inb : ∀ k0_t1 : Fin k0_t1_loop.trips, ∀ a, (k0_off196 k0_t1) a + S1x16.size a ≤ S512x64.size a
  k0_off198_inb : ∀ k0_t1 : Fin k0_t1_loop.trips, ∀ a, (k0_off198 k0_t1) a + S1x16.size a ≤ S512x64.size a
  k0_off200_inb : ∀ k0_t1 : Fin k0_t1_loop.trips, ∀ a, (k0_off200 k0_t1) a + S1x16.size a ≤ S512x64.size a
  k0_off202_inb : ∀ k0_t1 : Fin k0_t1_loop.trips, ∀ a, (k0_off202 k0_t1) a + S1x16.size a ≤ S512x64.size a
  k0_off204_inb : ∀ k0_t1 : Fin k0_t1_loop.trips, ∀ a, (k0_off204 k0_t1) a + S1x16.size a ≤ S512x64.size a
  k0_off206_inb : ∀ k0_t1 : Fin k0_t1_loop.trips, ∀ a, (k0_off206 k0_t1) a + S1x16.size a ≤ S512x64.size a
  k0_off208_inb : ∀ k0_t1 : Fin k0_t1_loop.trips, ∀ a, (k0_off208 k0_t1) a + S1x16.size a ≤ S512x64.size a
  k0_off210_inb : ∀ k0_t1 : Fin k0_t1_loop.trips, ∀ a, (k0_off210 k0_t1) a + S1x16.size a ≤ S512x64.size a
  k0_off212_inb : ∀ k0_t1 : Fin k0_t1_loop.trips, ∀ a, (k0_off212 k0_t1) a + S1x16.size a ≤ S512x64.size a
  k0_off214_inb : ∀ k0_t1 : Fin k0_t1_loop.trips, ∀ a, (k0_off214 k0_t1) a + S1x16.size a ≤ S512x64.size a
  k0_off216_inb : ∀ k0_t1 : Fin k0_t1_loop.trips, ∀ a, (k0_off216 k0_t1) a + S1x16.size a ≤ S512x64.size a
  k0_off218_inb : ∀ k0_t1 : Fin k0_t1_loop.trips, ∀ a, (k0_off218 k0_t1) a + S1x16.size a ≤ S512x64.size a
  k0_off220_inb : ∀ k0_t1 : Fin k0_t1_loop.trips, ∀ a, (k0_off220 k0_t1) a + S1x16.size a ≤ S512x64.size a
  k0_off222_inb : ∀ k0_t1 : Fin k0_t1_loop.trips, ∀ a, (k0_off222 k0_t1) a + S1x16.size a ≤ S512x64.size a
  k0_off224_inb : ∀ k0_t1 : Fin k0_t1_loop.trips, ∀ a, (k0_off224 k0_t1) a + S1x16.size a ≤ S512x64.size a
  k0_off226_inb : ∀ k0_t1 : Fin k0_t1_loop.trips, ∀ a, (k0_off226 k0_t1) a + S1x16.size a ≤ S512x64.size a
  k0_off228_inb : ∀ k0_t1 : Fin k0_t1_loop.trips, ∀ a, (k0_off228 k0_t1) a + S1x16.size a ≤ S512x64.size a
  k0_off230_inb : ∀ k0_t1 : Fin k0_t1_loop.trips, ∀ a, (k0_off230 k0_t1) a + S1x16.size a ≤ S512x64.size a
  k0_off232_inb : ∀ k0_t1 : Fin k0_t1_loop.trips, ∀ a, (k0_off232 k0_t1) a + S1x16.size a ≤ S512x64.size a
  k0_off234_inb : ∀ k0_t1 : Fin k0_t1_loop.trips, ∀ a, (k0_off234 k0_t1) a + S1x16.size a ≤ S512x64.size a
  k0_off236_inb : ∀ k0_t1 : Fin k0_t1_loop.trips, ∀ a, (k0_off236 k0_t1) a + S1x16.size a ≤ S512x64.size a
  k0_off238_inb : ∀ k0_t1 : Fin k0_t1_loop.trips, ∀ a, (k0_off238 k0_t1) a + S1x16.size a ≤ S512x64.size a
  k0_off240_inb : ∀ k0_t1 : Fin k0_t1_loop.trips, ∀ a, (k0_off240 k0_t1) a + S1x16.size a ≤ S512x64.size a
  k0_off242_inb : ∀ k0_t1 : Fin k0_t1_loop.trips, ∀ a, (k0_off242 k0_t1) a + S1x16.size a ≤ S512x64.size a
  k0_off244_inb : ∀ k0_t1 : Fin k0_t1_loop.trips, ∀ a, (k0_off244 k0_t1) a + S1x16.size a ≤ S512x64.size a
  k0_off246_inb : ∀ k0_t1 : Fin k0_t1_loop.trips, ∀ a, (k0_off246 k0_t1) a + S1x16.size a ≤ S512x64.size a
  k0_off248_inb : ∀ k0_t1 : Fin k0_t1_loop.trips, ∀ a, (k0_off248 k0_t1) a + S1x16.size a ≤ S512x64.size a
  k0_off250_inb : ∀ k0_t1 : Fin k0_t1_loop.trips, ∀ a, (k0_off250 k0_t1) a + S1x16.size a ≤ S512x64.size a
  k0_off252_inb : ∀ k0_t1 : Fin k0_t1_loop.trips, ∀ a, (k0_off252 k0_t1) a + S1x16.size a ≤ S512x64.size a
  k0_off254_inb : ∀ k0_t1 : Fin k0_t1_loop.trips, ∀ a, (k0_off254 k0_t1) a + S1x16.size a ≤ S512x64.size a
  k0_off256_inb : ∀ k0_t1 : Fin k0_t1_loop.trips, ∀ a, (k0_off256 k0_t1) a + S1x16.size a ≤ S512x64.size a
  k0_off258_inb : ∀ k0_t1 : Fin k0_t1_loop.trips, ∀ a, (k0_off258 k0_t1) a + S1x16.size a ≤ S512x64.size a
  k0_off260_inb : ∀ k0_t1 : Fin k0_t1_loop.trips, ∀ a, (k0_off260 k0_t1) a + S1x16.size a ≤ S512x64.size a
  k0_off262_inb : ∀ k0_t1 : Fin k0_t1_loop.trips, ∀ a, (k0_off262 k0_t1) a + S1x16.size a ≤ S512x64.size a
  k0_off264_inb : ∀ k0_t1 : Fin k0_t1_loop.trips, ∀ a, (k0_off264 k0_t1) a + S1x16.size a ≤ S512x64.size a
  k0_off266_inb : ∀ k0_t1 : Fin k0_t1_loop.trips, ∀ a, (k0_off266 k0_t1) a + S1x16.size a ≤ S512x64.size a
  k0_off268_inb : ∀ k0_t1 : Fin k0_t1_loop.trips, ∀ a, (k0_off268 k0_t1) a + S1x16.size a ≤ S512x64.size a
  k0_off270_inb : ∀ k0_t1 : Fin k0_t1_loop.trips, ∀ a, (k0_off270 k0_t1) a + S1x16.size a ≤ S512x64.size a
  k0_off272_inb : ∀ k0_t1 : Fin k0_t1_loop.trips, ∀ a, (k0_off272 k0_t1) a + S1x16.size a ≤ S512x64.size a
  k0_off274_inb : ∀ k0_t1 : Fin k0_t1_loop.trips, ∀ a, (k0_off274 k0_t1) a + S1x16.size a ≤ S512x64.size a
  k0_off276_inb : ∀ k0_t1 : Fin k0_t1_loop.trips, ∀ a, (k0_off276 k0_t1) a + S1x16.size a ≤ S512x64.size a
  k0_off278_inb : ∀ k0_t1 : Fin k0_t1_loop.trips, ∀ a, (k0_off278 k0_t1) a + S1x16.size a ≤ S512x64.size a
  k0_off280_inb : ∀ k0_t1 : Fin k0_t1_loop.trips, ∀ a, (k0_off280 k0_t1) a + S1x16.size a ≤ S512x64.size a
  k0_off282_inb : ∀ k0_t1 : Fin k0_t1_loop.trips, ∀ a, (k0_off282 k0_t1) a + S1x16.size a ≤ S512x64.size a
  k0_off284_inb : ∀ k0_t1 : Fin k0_t1_loop.trips, ∀ a, (k0_off284 k0_t1) a + S1x16.size a ≤ S512x64.size a
  k0_off286_inb : ∀ k0_t1 : Fin k0_t1_loop.trips, ∀ a, (k0_off286 k0_t1) a + S1x16.size a ≤ S512x64.size a
  k0_off288_inb : ∀ k0_t1 : Fin k0_t1_loop.trips, ∀ a, (k0_off288 k0_t1) a + S1x16.size a ≤ S512x64.size a
  k0_off290_inb : ∀ k0_t1 : Fin k0_t1_loop.trips, ∀ a, (k0_off290 k0_t1) a + S1x16.size a ≤ S512x64.size a
  k0_off292_inb : ∀ k0_t1 : Fin k0_t1_loop.trips, ∀ a, (k0_off292 k0_t1) a + S1x16.size a ≤ S512x64.size a
  k0_off294_inb : ∀ k0_t1 : Fin k0_t1_loop.trips, ∀ a, (k0_off294 k0_t1) a + S1x16.size a ≤ S512x64.size a
  k0_off296_inb : ∀ k0_t1 : Fin k0_t1_loop.trips, ∀ a, (k0_off296 k0_t1) a + S1x16.size a ≤ S512x64.size a
  k0_off298_inb : ∀ k0_t1 : Fin k0_t1_loop.trips, ∀ a, (k0_off298 k0_t1) a + S1x16.size a ≤ S512x64.size a
  k0_off300_inb : ∀ k0_t1 : Fin k0_t1_loop.trips, ∀ a, (k0_off300 k0_t1) a + S1x16.size a ≤ S512x64.size a
  k0_off302_inb : ∀ k0_t1 : Fin k0_t1_loop.trips, ∀ a, (k0_off302 k0_t1) a + S1x16.size a ≤ S512x64.size a
  k0_off304_inb : ∀ k0_t1 : Fin k0_t1_loop.trips, ∀ a, (k0_off304 k0_t1) a + S1x16.size a ≤ S512x64.size a
  k0_off306_inb : ∀ k0_t1 : Fin k0_t1_loop.trips, ∀ a, (k0_off306 k0_t1) a + S1x16.size a ≤ S512x64.size a
  k0_off308_inb : ∀ k0_t1 : Fin k0_t1_loop.trips, ∀ a, (k0_off308 k0_t1) a + S1x16.size a ≤ S512x64.size a
  k0_off309_inb : ∀ k0_t1 : Fin k0_t1_loop.trips, ∀ (k0_h2 : k0_cond2 k0_t1 = 1#1), ∀ a, (k0_off309 k0_t1) a + S16.size a ≤ S512.size a
  k0_off326_inb : ∀ i : grid0.Coords, ∀ a, (k0_off326 i) a + S512x64.size a ≤ S16384x64.size a

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0
abbrev cc0_scoped1 : DmaSems sig S_ := SemArray.consecutive 3 S_ hcc0_scoped1

class Facts : Prop extends Facts₀ where

variable [Facts]
-- ==== ReferenceIdeal.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x64, .f32⟩
  | .hbm, ⟨21, _⟩ => ⟨S16384x64, .i1⟩
  | .hbm, ⟨22, _⟩ => ⟨S_, .f32⟩
  | .hbm, ⟨23, _⟩ => ⟨S16384x64, .f32⟩
  | .hbm, ⟨24, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  gather_S1000000x64_S16384x1_S16384x64_1_0_n_n_0_1_164_wf : GatherDims.WF S1000000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf

class Facts : Prop extends Facts₀ where

variable [Facts]
-- ==== Proof.TileSpec.lean ====
import proofs.«207235_g30958124269674_cont_8to1_b_889_24_alg».proof.Defs
import Idealize.ShloMosaic.Lib.SparseCore.Launch
import Idealize.ShloMosaic.Lib.SparseCore.Ops
import Idealize.ShloMosaic.Lib.Batch
import Idealize.ShloMosaic.Lib.Pipeline.Kit
import Idealize.ShloMosaic.Lib.ValueIdx
import Idealize.ShloMosaic.Lib.Tactic
import proofs.«207235_g30958124269674_cont_8to1_b_889_24_alg».proof.Proof.Gen.KernelIdeal
import proofs.«207235_g30958124269674_cont_8to1_b_889_24_alg».proof.Proof.Gen.KernelIdeal.Skeleton

/-! What one vector subcore's task is given and what it gives back.

    The sixteen subcores of the two cores split the 16384 indices into 32 runs of 512: the subcore at coordinates
    `(c, s)` works on run `2 s + c`. It copies its run of `idx` into a scratch, splits each index `v` into
    `v &&& ~7` (the first row of the 8-row slab of the table that holds row `v`) and `v &&& 7` (the row's place
    inside the slab), fetches the slabs sixteen at a time into one half of a two-half ring of 8 × 64 slots while it
    picks rows out of the other half, and finally copies the 512 picked rows to its run of the output.

    The task holds: its run of `idx` and of the output; thirty-two read shares of the whole table, one per slab
    fetch that can be outstanding; its five scratch buffers, the ring as its thirty-two slots; its four semaphores
    at zero. It gives back the run of `idx` unchanged and the run of the output holding, at row `j`, row
    `idx[j]` of the table. -/

noncomputable section

namespace Cert.KITile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev 𝒱₀ : Variants := Variants.none

/-- The ghost state: the launch handshakes' rounds beside the exclusive counters of the task's own copies. -/
abbrev UH : Type := URounds (GSem nD τ sig) ℕ
abbrev UU : Type := UH × Counters

local notation "𝕄" => MT nD τ sig (HIx 1) (Elt F) ℕ UU ℕ

/-- The index array, the table as the kernel is handed it, and the result, as locations of device `d`. -/
abbrev iLoc (d : Dev nD) : Loc nD τ sig := (SparseCore.T d).loc main_arg0
abbrev tLoc (d : Dev nD) : Loc nD τ sig := (SparseCore.T d).loc main_v1
abbrev oLoc (d : Dev nD) : Loc nD τ sig := (SparseCore.T d).loc main_v2

variable [FloatOps F]

abbrev iV : Memref sig .scVector .hbm S16384 .i32 := Memref.whole main_arg0_scv
abbrev tV : Memref sig .scVector .hbm S1000000x64 .f32 := Memref.whole main_v1_scv
abbrev oV : Memref sig .scVector .hbm S16384x64 .f32 := Memref.whole main_v2_scv
abbrev s0 : Memref sig .scVector .vmem S512 .i32 := Memref.whole cc0_scratch0
abbrev s1 : Memref sig .scVector .vmem S512 .i32 := Memref.whole cc0_scratch1
abbrev s2 : Memref sig .scVector .vmem S512 .i32 := Memref.whole cc0_scratch2
abbrev s3 : Memref sig .scVector .vmem S512x64 .f32 := Memref.whole cc0_scratch3
abbrev s4 : Memref sig .scVector .vmem S2x16x8x64 .f32 := Memref.whole cc0_scratch4

/-- The task's run of `idx` and of the output, as the program slices them. -/
abbrev iRow (L : grid0.Coords) : Memref sig .scVector .hbm S512 .i32 :=
  (iV).slice (Rect.unit (s := S16384) (k0_off1 L) S512.size (k0_off1_inb L)) (fun _ => rfl)
abbrev oRow (L : grid0.Coords) : Memref sig .scVector .hbm S512x64 .f32 :=
  (oV).slice (Rect.unit (s := S16384x64) (k0_off326 L) S512x64.size (k0_off326_inb L)) (fun _ => rfl)

/-- The ring's slots, as the program slices them: slot `k` of half `h`. -/
abbrev slot0_0 : Memref sig .scVector .vmem S8x64 .f32 :=
  (s4.slice (Rect.unit (s := S2x16x8x64) ![0, 0, 0, 0] S1x1x8x64.size inb_S2x16x8x64_S1x1x8x64_0_0_0_0) (fun _ => rfl)).squeeze S8x64 squeezes_S1x1x8x64_S8x64
abbrev slot0_1 : Memref sig .scVector .vmem S8x64 .f32 :=
  (s4.slice (Rect.unit (s := S2x16x8x64) ![0, 1, 0, 0] S1x1x8x64.size inb_S2x16x8x64_S1x1x8x64_0_1_0_0) (fun _ => rfl)).squeeze S8x64 squeezes_S1x1x8x64_S8x64
abbrev slot0_2 : Memref sig .scVector .vmem S8x64 .f32 :=
  (s4.slice (Rect.unit (s := S2x16x8x64) ![0, 2, 0, 0] S1x1x8x64.size inb_S2x16x8x64_S1x1x8x64_0_2_0_0) (fun _ => rfl)).squeeze S8x64 squeezes_S1x1x8x64_S8x64
abbrev slot0_3 : Memref sig .scVector .vmem S8x64 .f32 :=
  (s4.slice (Rect.unit (s := S2x16x8x64) ![0, 3, 0, 0] S1x1x8x64.size inb_S2x16x8x64_S1x1x8x64_0_3_0_0) (fun _ => rfl)).squeeze S8x64 squeezes_S1x1x8x64_S8x64
abbrev slot0_4 : Memref sig .scVector .vmem S8x64 .f32 :=
  (s4.slice (Rect.unit (s := S2x16x8x64) ![0, 4, 0, 0] S1x1x8x64.size inb_S2x16x8x64_S1x1x8x64_0_4_0_0) (fun _ => rfl)).squeeze S8x64 squeezes_S1x1x8x64_S8x64
abbrev slot0_5 : Memref sig .scVector .vmem S8x64 .f32 :=
  (s4.slice (Rect.unit (s := S2x16x8x64) ![0, 5, 0, 0] S1x1x8x64.size inb_S2x16x8x64_S1x1x8x64_0_5_0_0) (fun _ => rfl)).squeeze S8x64 squeezes_S1x1x8x64_S8x64
abbrev slot0_6 : Memref sig .scVector .vmem S8x64 .f32 :=
  (s4.slice (Rect.unit (s := S2x16x8x64) ![0, 6, 0, 0] S1x1x8x64.size inb_S2x16x8x64_S1x1x8x64_0_6_0_0) (fun _ => rfl)).squeeze S8x64 squeezes_S1x1x8x64_S8x64
abbrev slot0_7 : Memref sig .scVector .vmem S8x64 .f32 :=
  (s4.slice (Rect.unit (s := S2x16x8x64) ![0, 7, 0, 0] S1x1x8x64.size inb_S2x16x8x64_S1x1x8x64_0_7_0_0) (fun _ => rfl)).squeeze S8x64 squeezes_S1x1x8x64_S8x64
abbrev slot0_8 : Memref sig .scVector .vmem S8x64 .f32 :=
  (s4.slice (Rect.unit (s := S2x16x8x64) ![0, 8, 0, 0] S1x1x8x64.size inb_S2x16x8x64_S1x1x8x64_0_8_0_0) (fun _ => rfl)).squeeze S8x64 squeezes_S1x1x8x64_S8x64
abbrev slot0_9 : Memref sig .scVector .vmem S8x64 .f32 :=
  (s4.slice (Rect.unit (s := S2x16x8x64) ![0, 9, 0, 0] S1x1x8x64.size inb_S2x16x8x64_S1x1x8x64_0_9_0_0) (fun _ => rfl)).squeeze S8x64 squeezes_S1x1x8x64_S8x64
abbrev slot0_10 : Memref sig .scVector .vmem S8x64 .f32 :=
  (s4.slice (Rect.unit (s := S2x16x8x64) ![0, 10, 0, 0] S1x1x8x64.size inb_S2x16x8x64_S1x1x8x64_0_10_0_0) (fun _ => rfl)).squeeze S8x64 squeezes_S1x1x8x64_S8x64
abbrev slot0_11 : Memref sig .scVector .vmem S8x64 .f32 :=
  (s4.slice (Rect.unit (s := S2x16x8x64) ![0, 11, 0, 0] S1x1x8x64.size inb_S2x16x8x64_S1x1x8x64_0_11_0_0) (fun _ => rfl)).squeeze S8x64 squeezes_S1x1x8x64_S8x64
abbrev slot0_12 : Memref sig .scVector .vmem S8x64 .f32 :=
  (s4.slice (Rect.unit (s := S2x16x8x64) ![0, 12, 0, 0] S1x1x8x64.size inb_S2x16x8x64_S1x1x8x64_0_12_0_0) (fun _ => rfl)).squeeze S8x64 squeezes_S1x1x8x64_S8x64
abbrev slot0_13 : Memref sig .scVector .vmem S8x64 .f32 :=
  (s4.slice (Rect.unit (s := S2x16x8x64) ![0, 13, 0, 0] S1x1x8x64.size inb_S2x16x8x64_S1x1x8x64_0_13_0_0) (fun _ => rfl)).squeeze S8x64 squeezes_S1x1x8x64_S8x64
abbrev slot0_14 : Memref sig .scVector .vmem S8x64 .f32 :=
  (s4.slice (Rect.unit (s := S2x16x8x64) ![0, 14, 0, 0] S1x1x8x64.size inb_S2x16x8x64_S1x1x8x64_0_14_0_0) (fun _ => rfl)).squeeze S8x64 squeezes_S1x1x8x64_S8x64
abbrev slot0_15 : Memref sig .scVector .vmem S8x64 .f32 :=
  (s4.slice (Rect.unit (s := S2x16x8x64) ![0, 15, 0, 0] S1x1x8x64.size inb_S2x16x8x64_S1x1x8x64_0_15_0_0) (fun _ => rfl)).squeeze S8x64 squeezes_S1x1x8x64_S8x64
abbrev slot1_0 : Memref sig .scVector .vmem S8x64 .f32 :=
  (s4.slice (Rect.unit (s := S2x16x8x64) ![1, 0, 0, 0] S1x1x8x64.size inb_S2x16x8x64_S1x1x8x64_1_0_0_0) (fun _ => rfl)).squeeze S8x64 squeezes_S1x1x8x64_S8x64
abbrev slot1_1 : Memref sig .scVector .vmem S8x64 .f32 :=
  (s4.slice (Rect.unit (s := S2x16x8x64) ![1, 1, 0, 0] S1x1x8x64.size inb_S2x16x8x64_S1x1x8x64_1_1_0_0) (fun _ => rfl)).squeeze S8x64 squeezes_S1x1x8x64_S8x64
abbrev slot1_2 : Memref sig .scVector .vmem S8x64 .f32 :=
  (s4.slice (Rect.unit (s := S2x16x8x64) ![1, 2, 0, 0] S1x1x8x64.size inb_S2x16x8x64_S1x1x8x64_1_2_0_0) (fun _ => rfl)).squeeze S8x64 squeezes_S1x1x8x64_S8x64
abbrev slot1_3 : Memref sig .scVector .vmem S8x64 .f32 :=
  (s4.slice (Rect.unit (s := S2x16x8x64) ![1, 3, 0, 0] S1x1x8x64.size inb_S2x16x8x64_S1x1x8x64_1_3_0_0) (fun _ => rfl)).squeeze S8x64 squeezes_S1x1x8x64_S8x64
abbrev slot1_4 : Memref sig .scVector .vmem S8x64 .f32 :=
  (s4.slice (Rect.unit (s := S2x16x8x64) ![1, 4, 0, 0] S1x1x8x64.size inb_S2x16x8x64_S1x1x8x64_1_4_0_0) (fun _ => rfl)).squeeze S8x64 squeezes_S1x1x8x64_S8x64
abbrev slot1_5 : Memref sig .scVector .vmem S8x64 .f32 :=
  (s4.slice (Rect.unit (s := S2x16x8x64) ![1, 5, 0, 0] S1x1x8x64.size inb_S2x16x8x64_S1x1x8x64_1_5_0_0) (fun _ => rfl)).squeeze S8x64 squeezes_S1x1x8x64_S8x64
abbrev slot1_6 : Memref sig .scVector .vmem S8x64 .f32 :=
  (s4.slice (Rect.unit (s := S2x16x8x64) ![1, 6, 0, 0] S1x1x8x64.size inb_S2x16x8x64_S1x1x8x64_1_6_0_0) (fun _ => rfl)).squeeze S8x64 squeezes_S1x1x8x64_S8x64
abbrev slot1_7 : Memref sig .scVector .vmem S8x64 .f32 :=
  (s4.slice (Rect.unit (s := S2x16x8x64) ![1, 7, 0, 0] S1x1x8x64.size inb_S2x16x8x64_S1x1x8x64_1_7_0_0) (fun _ => rfl)).squeeze S8x64 squeezes_S1x1x8x64_S8x64
abbrev slot1_8 : Memref sig .scVector .vmem S8x64 .f32 :=
  (s4.slice (Rect.unit (s := S2x16x8x64) ![1, 8, 0, 0] S1x1x8x64.size inb_S2x16x8x64_S1x1x8x64_1_8_0_0) (fun _ => rfl)).squeeze S8x64 squeezes_S1x1x8x64_S8x64
abbrev slot1_9 : Memref sig .scVector .vmem S8x64 .f32 :=
  (s4.slice (Rect.unit (s := S2x16x8x64) ![1, 9, 0, 0] S1x1x8x64.size inb_S2x16x8x64_S1x1x8x64_1_9_0_0) (fun _ => rfl)).squeeze S8x64 squeezes_S1x1x8x64_S8x64
abbrev slot1_10 : Memref sig .scVector .vmem S8x64 .f32 :=
  (s4.slice (Rect.unit (s := S2x16x8x64) ![1, 10, 0, 0] S1x1x8x64.size inb_S2x16x8x64_S1x1x8x64_1_10_0_0) (fun _ => rfl)).squeeze S8x64 squeezes_S1x1x8x64_S8x64
abbrev slot1_11 : Memref sig .scVector .vmem S8x64 .f32 :=
  (s4.slice (Rect.unit (s := S2x16x8x64) ![1, 11, 0, 0] S1x1x8x64.size inb_S2x16x8x64_S1x1x8x64_1_11_0_0) (fun _ => rfl)).squeeze S8x64 squeezes_S1x1x8x64_S8x64
abbrev slot1_12 : Memref sig .scVector .vmem S8x64 .f32 :=
  (s4.slice (Rect.unit (s := S2x16x8x64) ![1, 12, 0, 0] S1x1x8x64.size inb_S2x16x8x64_S1x1x8x64_1_12_0_0) (fun _ => rfl)).squeeze S8x64 squeezes_S1x1x8x64_S8x64
abbrev slot1_13 : Memref sig .scVector .vmem S8x64 .f32 :=
  (s4.slice (Rect.unit (s := S2x16x8x64) ![1, 13, 0, 0] S1x1x8x64.size inb_S2x16x8x64_S1x1x8x64_1_13_0_0) (fun _ => rfl)).squeeze S8x64 squeezes_S1x1x8x64_S8x64
abbrev slot1_14 : Memref sig .scVector .vmem S8x64 .f32 :=
  (s4.slice (Rect.unit (s := S2x16x8x64) ![1, 14, 0, 0] S1x1x8x64.size inb_S2x16x8x64_S1x1x8x64_1_14_0_0) (fun _ => rfl)).squeeze S8x64 squeezes_S1x1x8x64_S8x64
abbrev slot1_15 : Memref sig .scVector .vmem S8x64 .f32 :=
  (s4.slice (Rect.unit (s := S2x16x8x64) ![1, 15, 0, 0] S1x1x8x64.size inb_S2x16x8x64_S1x1x8x64_1_15_0_0) (fun _ => rfl)).squeeze S8x64 squeezes_S1x1x8x64_S8x64

/-- The subcore's thread. -/
abbrev thr (d : Dev nD) (L : grid0.Coords) : Thread nD τ := V d ((L 0).castLE hcore0) ((L 1).castLE hsub0)

/-- Row `j` of the task's run of the output is row `idx[j]` of the table (for an index that names a row). -/
def RowsOK (L : grid0.Coords) (fI : S16384.Idx → BitVec 32) (fT : S1000000x64.Idx → Elt F .f32)
    (fO : S16384x64.Idx → Elt F .f32) : Prop :=
  ∀ (y : S512x64.Idx) (h : (fI ((iRow L).view.emb (ValueIdx.ix1 (y 0)))).toNat < 1000000),
    fO ((oRow L).view.emb y) = fT (ValueIdx.ix2 ⟨_, h⟩ (y 1))

/-- What the task holds when it starts. -/
def tilePre (d : Dev nD) (L : grid0.Coords) (q : PosShare TreeShare) (O : CellTallies nD τ sig (HIx 1)) (W : Waits sig (HIx 1))
    (fI : Buf (Elt F) (iLoc d)) (fT : Buf (Elt F) (tLoc d)) (fO : Buf (Elt F) (oLoc d))
    (f0 : Buf (Elt F) ((thr d L).loc cc0_scratch0)) (f1 : Buf (Elt F) ((thr d L).loc cc0_scratch1))
    (f2 : Buf (Elt F) ((thr d L).loc cc0_scratch2)) (f3 : Buf (Elt F) ((thr d L).loc cc0_scratch3))
    (f4 : Buf (Elt F) ((thr d L).loc cc0_scratch4)) : sProp 𝕄 :=
  iprop(Transfers.MayWaits (thr d L) (none : HIx 1) O
    ∗ ((iRow L).view.loc (thr d L) ↦[(iRow L).view.set]{fullShare} fI)
    ∗ ((tV).view.loc (thr d L) ↦{Transfers.shareTokN q 0} fT)
    ∗ ((tV).view.loc (thr d L) ↦{Transfers.shareTokN q 1} fT)
    ∗ ((tV).view.loc (thr d L) ↦{Transfers.shareTokN q 2} fT)
    ∗ ((tV).view.loc (thr d L) ↦{Transfers.shareTokN q 3} fT)
    ∗ ((tV).view.loc (thr d L) ↦{Transfers.shareTokN q 4} fT)
    ∗ ((tV).view.loc (thr d L) ↦{Transfers.shareTokN q 5} fT)
    ∗ ((tV).view.loc (thr d L) ↦{Transfers.shareTokN q 6} fT)
    ∗ ((tV).view.loc (thr d L) ↦{Transfers.shareTokN q 7} fT)
    ∗ ((tV).view.loc (thr d L) ↦{Transfers.shareTokN q 8} fT)
    ∗ ((tV).view.loc (thr d L) ↦{Transfers.shareTokN q 9} fT)
    ∗ ((tV).view.loc (thr d L) ↦{Transfers.shareTokN q 10} fT)
    ∗ ((tV).view.loc (thr d L) ↦{Transfers.shareTokN q 11} fT)
    ∗ ((tV).view.loc (thr d L) ↦{Transfers.shareTokN q 12} fT)
    ∗ ((tV).view.loc (thr d L) ↦{Transfers.shareTokN q 13} fT)
    ∗ ((tV).view.loc (thr d L) ↦{Transfers.shareTokN q 14} fT)
    ∗ ((tV).view.loc (thr d L) ↦{Transfers.shareTokN q 15} fT)
    ∗ ((tV).view.loc (thr d L) ↦{Transfers.shareTokN q 16} fT)
    ∗ ((tV).view.loc (thr d L) ↦{Transfers.shareTokN q 17} fT)
    ∗ ((tV).view.loc (thr d L) ↦{Transfers.shareTokN q 18} fT)
    ∗ ((tV).view.loc (thr d L) ↦{Transfers.shareTokN q 19} fT)
    ∗ ((tV).view.loc (thr d L) ↦{Transfers.shareTokN q 20} fT)
    ∗ ((tV).view.loc (thr d L) ↦{Transfers.shareTokN q 21} fT)
    ∗ ((tV).view.loc (thr d L) ↦{Transfers.shareTokN q 22} fT)
    ∗ ((tV).view.loc (thr d L) ↦{Transfers.shareTokN q 23} fT)
    ∗ ((tV).view.loc (thr d L) ↦{Transfers.shareTokN q 24} fT)
    ∗ ((tV).view.loc (thr d L) ↦{Transfers.shareTokN q 25} fT)
    ∗ ((tV).view.loc (thr d L) ↦{Transfers.shareTokN q 26} fT)
    ∗ ((tV).view.loc (thr d L) ↦{Transfers.shareTokN q 27} fT)
    ∗ ((tV).view.loc (thr d L) ↦{Transfers.shareTokN q 28} fT)
    ∗ ((tV).view.loc (thr d L) ↦{Transfers.shareTokN q 29} fT)
    ∗ ((tV).view.loc (thr d L) ↦{Transfers.shareTokN q 30} fT)
    ∗ ((tV).view.loc (thr d L) ↦{Transfers.shareTokN q 31} fT)
    ∗ ((oRow L).view.loc (thr d L) ↦[(oRow L).view.set]{fullShare} fO)
    ∗ ((s0).view.loc (thr d L) ↦{fullShare} f0)
    ∗ ((s1).view.loc (thr d L) ↦{fullShare} f1)
    ∗ ((s2).view.loc (thr d L) ↦{fullShare} f2)
    ∗ ((s3).view.loc (thr d L) ↦{fullShare} f3)
    ∗ ((slot0_0).view.loc (thr d L) ↦[(slot0_0).view.set]{fullShare} f4)
    ∗ ((slot0_1).view.loc (thr d L) ↦[(slot0_1).view.set]{fullShare} f4)
    ∗ ((slot0_2).view.loc (thr d L) ↦[(slot0_2).view.set]{fullShare} f4)
    ∗ ((slot0_3).view.loc (thr d L) ↦[(slot0_3).view.set]{fullShare} f4)
    ∗ ((slot0_4).view.loc (thr d L) ↦[(slot0_4).view.set]{fullShare} f4)
    ∗ ((slot0_5).view.loc (thr d L) ↦[(slot0_5).view.set]{fullShare} f4)
    ∗ ((slot0_6).view.loc (thr d L) ↦[(slot0_6).view.set]{fullShare} f4)
    ∗ ((slot0_7).view.loc (thr d L) ↦[(slot0_7).view.set]{fullShare} f4)
    ∗ ((slot0_8).view.loc (thr d L) ↦[(slot0_8).view.set]{fullShare} f4)
    ∗ ((slot0_9).view.loc (thr d L) ↦[(slot0_9).view.set]{fullShare} f4)
    ∗ ((slot0_10).view.loc (thr d L) ↦[(slot0_10).view.set]{fullShare} f4)
    ∗ ((slot0_11).view.loc (thr d L) ↦[(slot0_11).view.set]{fullShare} f4)
    ∗ ((slot0_12).view.loc (thr d L) ↦[(slot0_12).view.set]{fullShare} f4)
    ∗ ((slot0_13).view.loc (thr d L) ↦[(slot0_13).view.set]{fullShare} f4)
    ∗ ((slot0_14).view.loc (thr d L) ↦[(slot0_14).view.set]{fullShare} f4)
    ∗ ((slot0_15).view.loc (thr d L) ↦[(slot0_15).view.set]{fullShare} f4)
    ∗ ((slot1_0).view.loc (thr d L) ↦[(slot1_0).view.set]{fullShare} f4)
    ∗ ((slot1_1).view.loc (thr d L) ↦[(slot1_1).view.set]{fullShare} f4)
    ∗ ((slot1_2).view.loc (thr d L) ↦[(slot1_2).view.set]{fullShare} f4)
    ∗ ((slot1_3).view.loc (thr d L) ↦[(slot1_3).view.set]{fullShare} f4)
    ∗ ((slot1_4).view.loc (thr d L) ↦[(slot1_4).view.set]{fullShare} f4)
    ∗ ((slot1_5).view.loc (thr d L) ↦[(slot1_5).view.set]{fullShare} f4)
    ∗ ((slot1_6).view.loc (thr d L) ↦[(slot1_6).view.set]{fullShare} f4)
    ∗ ((slot1_7).view.loc (thr d L) ↦[(slot1_7).view.set]{fullShare} f4)
    ∗ ((slot1_8).view.loc (thr d L) ↦[(slot1_8).view.set]{fullShare} f4)
    ∗ ((slot1_9).view.loc (thr d L) ↦[(slot1_9).view.set]{fullShare} f4)
    ∗ ((slot1_10).view.loc (thr d L) ↦[(slot1_10).view.set]{fullShare} f4)
    ∗ ((slot1_11).view.loc (thr d L) ↦[(slot1_11).view.set]{fullShare} f4)
    ∗ ((slot1_12).view.loc (thr d L) ↦[(slot1_12).view.set]{fullShare} f4)
    ∗ ((slot1_13).view.loc (thr d L) ↦[(slot1_13).view.set]{fullShare} f4)
    ∗ ((slot1_14).view.loc (thr d L) ↦[(slot1_14).view.set]{fullShare} f4)
    ∗ ((slot1_15).view.loc (thr d L) ↦[(slot1_15).view.set]{fullShare} f4)
    ∗ semVal (thr d L, SemLoc.dma cc0_scratch5.sem) 0
    ∗ semVal (thr d L, SemLoc.dma cc0_scratch6.sem) 0
    ∗ semVal (thr d L, SemLoc.dma cc0_scoped0.sem) 0
    ∗ semVal (thr d L, SemLoc.dma cc0_scoped1.sem) 0
    ∗ owes (thr d L) O W)

/-- What it gives back. -/
def tilePost (d : Dev nD) (L : grid0.Coords) (O : CellTallies nD τ sig (HIx 1)) (W : Waits sig (HIx 1))
    (fI : Buf (Elt F) (iLoc d)) (fT : Buf (Elt F) (tLoc d)) : sProp 𝕄 :=
  iprop(((iRow L).view.loc (thr d L) ↦[(iRow L).view.set]{fullShare} fI)
    ∗ (∃ fO', ⌜RowsOK L fI fT fO'⌝ ∗ (oRow L).view.loc (thr d L) ↦[(oRow L).view.set]{fullShare} fO')
    ∗ (∃ g, (s0).view.loc (thr d L) ↦{fullShare} g)
    ∗ (∃ g, (s1).view.loc (thr d L) ↦{fullShare} g)
    ∗ (∃ g, (s2).view.loc (thr d L) ↦{fullShare} g)
    ∗ (∃ g, (s3).view.loc (thr d L) ↦{fullShare} g)
    ∗ (∃ g, (slot0_0).view.loc (thr d L) ↦[(slot0_0).view.set]{fullShare} g)
    ∗ (∃ g, (slot0_1).view.loc (thr d L) ↦[(slot0_1).view.set]{fullShare} g)
    ∗ (∃ g, (slot0_2).view.loc (thr d L) ↦[(slot0_2).view.set]{fullShare} g)
    ∗ (∃ g, (slot0_3).view.loc (thr d L) ↦[(slot0_3).view.set]{fullShare} g)
    ∗ (∃ g, (slot0_4).view.loc (thr d L) ↦[(slot0_4).view.set]{fullShare} g)
    ∗ (∃ g, (slot0_5).view.loc (thr d L) ↦[(slot0_5).view.set]{fullShare} g)
    ∗ (∃ g, (slot0_6).view.loc (thr d L) ↦[(slot0_6).view.set]{fullShare} g)
    ∗ (∃ g, (slot0_7).view.loc (thr d L) ↦[(slot0_7).view.set]{fullShare} g)
    ∗ (∃ g, (slot0_8).view.loc (thr d L) ↦[(slot0_8).view.set]{fullShare} g)
    ∗ (∃ g, (slot0_9).view.loc (thr d L) ↦[(slot0_9).view.set]{fullShare} g)
    ∗ (∃ g, (slot0_10).view.loc (thr d L) ↦[(slot0_10).view.set]{fullShare} g)
    ∗ (∃ g, (slot0_11).view.loc (thr d L) ↦[(slot0_11).view.set]{fullShare} g)
    ∗ (∃ g, (slot0_12).view.loc (thr d L) ↦[(slot0_12).view.set]{fullShare} g)
    ∗ (∃ g, (slot0_13).view.loc (thr d L) ↦[(slot0_13).view.set]{fullShare} g)
    ∗ (∃ g, (slot0_14).view.loc (thr d L) ↦[(slot0_14).view.set]{fullShare} g)
    ∗ (∃ g, (slot0_15).view.loc (thr d L) ↦[(slot0_15).view.set]{fullShare} g)
    ∗ (∃ g, (slot1_0).view.loc (thr d L) ↦[(slot1_0).view.set]{fullShare} g)
    ∗ (∃ g, (slot1_1).view.loc (thr d L) ↦[(slot1_1).view.set]{fullShare} g)
    ∗ (∃ g, (slot1_2).view.loc (thr d L) ↦[(slot1_2).view.set]{fullShare} g)
    ∗ (∃ g, (slot1_3).view.loc (thr d L) ↦[(slot1_3).view.set]{fullShare} g)
    ∗ (∃ g, (slot1_4).view.loc (thr d L) ↦[(slot1_4).view.set]{fullShare} g)
    ∗ (∃ g, (slot1_5).view.loc (thr d L) ↦[(slot1_5).view.set]{fullShare} g)
    ∗ (∃ g, (slot1_6).view.loc (thr d L) ↦[(slot1_6).view.set]{fullShare} g)
    ∗ (∃ g, (slot1_7).view.loc (thr d L) ↦[(slot1_7).view.set]{fullShare} g)
    ∗ (∃ g, (slot1_8).view.loc (thr d L) ↦[(slot1_8).view.set]{fullShare} g)
    ∗ (∃ g, (slot1_9).view.loc (thr d L) ↦[(slot1_9).view.set]{fullShare} g)
    ∗ (∃ g, (slot1_10).view.loc (thr d L) ↦[(slot1_10).view.set]{fullShare} g)
    ∗ (∃ g, (slot1_11).view.loc (thr d L) ↦[(slot1_11).view.set]{fullShare} g)
    ∗ (∃ g, (slot1_12).view.loc (thr d L) ↦[(slot1_12).view.set]{fullShare} g)
    ∗ (∃ g, (slot1_13).view.loc (thr d L) ↦[(slot1_13).view.set]{fullShare} g)
    ∗ (∃ g, (slot1_14).view.loc (thr d L) ↦[(slot1_14).view.set]{fullShare} g)
    ∗ (∃ g, (slot1_15).view.loc (thr d L) ↦[(slot1_15).view.set]{fullShare} g)
    ∗ semVal (thr d L, SemLoc.dma cc0_scratch5.sem) 0
    ∗ semVal (thr d L, SemLoc.dma cc0_scratch6.sem) 0
    ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

/-- The task's program at coordinates `L`, on the whole arrays and the subcore's own scratch. -/
abbrev tileProg (L : grid0.Coords) :=
  cc0__body (F := F) L iV (Memref.isWhole_whole _) tV (Memref.isWhole_whole _) oV (Memref.isWhole_whole _)
    s0 (Memref.isWhole_whole _) s1 (Memref.isWhole_whole _) s2 (Memref.isWhole_whole _) s3 (Memref.isWhole_whole _)
    s4 (Memref.isWhole_whole _) cc0_scratch5 cc0_scratch6 cc0_scoped0 cc0_scoped1

/-- The statement the task's proof establishes (and the launch consumes): under the index range, from `tilePre` the
    task runs to `tilePost`. -/
def TileSpec : Prop :=
  ∀ (d : Dev nD) (L : grid0.Coords) (q : PosShare TreeShare) (O : CellTallies nD τ sig (HIx 1)) (W : Waits sig (HIx 1))
    (_ : ∀ g, O g none = 0)
    (fI : Buf (Elt F) (iLoc d)) (fT : Buf (Elt F) (tLoc d)) (fO : Buf (Elt F) (oLoc d))
    (f0 : Buf (Elt F) ((thr d L).loc cc0_scratch0)) (f1 : Buf (Elt F) ((thr d L).loc cc0_scratch1))
    (f2 : Buf (Elt F) ((thr d L).loc cc0_scratch2)) (f3 : Buf (Elt F) ((thr d L).loc cc0_scratch3))
    (f4 : Buf (Elt F) ((thr d L).loc cc0_scratch4))
    (_ : ∀ j : S16384.Idx, (fI j).toNat ≤ 999999),
    (tilePre (F := F) d L q O W fI fT fO f0 f1 f2 f3 f4)
      ⊢ wp frame (wpE (defs₀ (F := F)) 𝒱₀ (thr d L) none) Set.univ (tileProg (F := F) L)
          fun _ => tilePost (F := F) d L O W fI fT

end Cert.KITile

end
-- ==== Proof.Words.lean ====
import proofs.«207235_g30958124269674_cont_8to1_b_889_24_alg».proof.Proof.TileSpec
import Idealize.ShloMosaic.Lib.Pipeline.Value
import Idealize.ShloMosaic.Lib.Writes

noncomputable section

namespace Cert.KITile

open Cert.KernelIdeal Cert.KernelIdeal.Gen
open Idealize.ShloMosaic

variable {F : FTy → Type} [FloatOps F]

/-- Lane `k` of a 16-vector, read as the program reads it (a one-element slice, then its element). -/
theorem lane_word (V : IVec S16 32) (k : Nat) (hk : k < 16) (h : S16.Slices ![k] S1) (h' : ∀ a, (![0] : Fin 1 → Nat) a < S1.size a) :
    extractAt ![0] (extractStridedSlice S1 ![k] V h) h' = V (ValueIdx.ix1 ⟨k, hk⟩) := by
  unfold extractAt extractStridedSlice
  refine congrArg V (funext fun a => ?_)
  match a with
  | ⟨0, _⟩ => exact Fin.ext (by simp)

/-- A 16-vector and-ed lane by lane with `c`, as the program writes it (two identity reshapes around it). -/
theorem mask_vec (V : IVec S16 32) (c : BitVec 32) (h1 h2 : S16.ShapeCasts S16) (x : S16.Idx) :
    shapeCast S16 (andi (shapeCast S16 V h1) (broadcast S16 c)) h2 x = V x &&& c := by
  rw [shapeCast_self, shapeCast_self]
  rfl

/-- A load from the index scratch right after the copy that filled it reads the copied words. -/
theorem read_filled (f0 D : S512.Idx → BitVec 32) (R : Rect S512) (x : R.shape.Idx) :
    View.readAt (Elt F) (s0 : Memref sig .scVector .vmem S512 .i32).view R.toLoadRect
        (View.write (Elt F) (s0 : Memref sig .scVector .vmem S512 .i32).view f0 D Finset.univ) x = D (R.emb x) := by
  rw [View.readAt_apply]
  simp only [Memref.view_whole, View.read_whole]
  exact congrFun (View.write_whole_univ (Val := Elt F) (cc0_scratch0 : Ref sig .scVector) f0 D) _

/-- The task's run of the index array, as the copy into the index scratch reads it. -/
def idxRun {d : Dev nD} (L : grid0.Coords) (fI : Buf (Elt F) (iLoc d)) : S512.Idx → BitVec 32 :=
  ReadAs.same.apply (View.read (Elt F) (iRow L).view fI)

/-- The slab words: each index of the run with its low three bits cleared. -/
def G1 {d : Dev nD} (L : grid0.Coords) (fI : Buf (Elt F) (iLoc d)) : S512.Idx → BitVec 32 := fun p => idxRun (F := F) L fI p &&& 4294967288#32
/-- The row words: each index of the run's low three bits. -/
def G2 {d : Dev nD} (L : grid0.Coords) (fI : Buf (Elt F) (iLoc d)) : S512.Idx → BitVec 32 := fun p => idxRun (F := F) L fI p &&& 7#32

/-- One masking store leaves, at its sixteen places, the words of the run and-ed with `c`. -/
theorem mask_piece (c : BitVec 32) (f0 D : S512.Idx → BitVec 32) (off : Fin 1 → Nat) (inb : ∀ a, off a + S16.size a ≤ S512.size a)
    (h1 : (Rect.unit (s := S512) off S16.size inb).shape.ShapeCasts S16) (h2 : S16.ShapeCasts S16) (x : S16.Idx) :
    shapeCast S16 (andi (shapeCast S16 (View.readAt (Elt F) (s0 : Memref sig .scVector .vmem S512 .i32).view
        (Rect.unit (s := S512) off S16.size inb).toLoadRect (View.write (Elt F) (s0 : Memref sig .scVector .vmem S512 .i32).view f0 D Finset.univ)) h1)
        (broadcast S16 c)) h2 x
      = D ((Rect.unit (s := S512) off S16.size inb).emb x) &&& c :=
  (mask_vec _ c h1 h2 x).trans (congrArg (· &&& c) (read_filled (F := F) f0 D (Rect.unit (s := S512) off S16.size inb) x))

/-- A whole buffer written by pieces that all agree with one function and cover it holds that function. -/
theorem whole_writes_eq {κ : Kind} (b : Ref sig κ) (base : b.ty.Contents (Elt F)) (Lst : List (View.Piece (Elt F) b.ty.shape b.ty.elt))
    (G : b.ty.shape.Idx → Elt F b.ty.elt) (hp : ∀ p ∈ Lst, ∀ x : p.1.shape.Idx, p.2 x = G (p.1.emb x))
    (hc : ∀ y : b.ty.shape.Idx, ∃ p ∈ Lst, y ∈ p.1.set) :
    (View.whole b).writes (Elt F) base Lst = G :=
  funext fun y => View.read_writes_apply_of_pieces (v := View.whole b) (f := base) G Lst hp y (hc y)

end Cert.KITile

end
-- ==== Proof.LibMask8.lean ====
import Mathlib

/-! Words masked to a multiple of eight and to their low three bits. For a 32-bit word `x`: `x &&& 0xFFFFFFF8` is the
    largest multiple of 8 not above `x`, `x &&& 7` is the remainder, and the two add up to `x`. -/

namespace Cert.Lib.Mask8

theorem toNat_and_low (x : BitVec 32) : (x &&& 7#32).toNat = x.toNat % 8 := by
  rw [BitVec.toNat_and]
  exact Nat.and_two_pow_sub_one_eq_mod x.toNat 3

theorem toNat_and_high (x : BitVec 32) : (x &&& 4294967288#32).toNat = x.toNat - x.toNat % 8 := by
  have hx : x.toNat < 2 ^ 32 := x.isLt
  rw [BitVec.toNat_and]
  show x.toNat &&& 4294967288 = _
  have h1 : x.toNat &&& 4294967288 = (x.toNat >>> 3) <<< 3 := by
    apply Nat.eq_of_testBit_eq
    intro i
    rw [Nat.testBit_and, Nat.testBit_shiftLeft, Nat.testBit_shiftRight]
    by_cases hi : 3 ≤ i
    · have : 3 + (i - 3) = i := by omega
      by_cases h32 : i < 32
      · have hb : Nat.testBit 4294967288 i = true := by
          interval_cases i <;> decide
        simp [hi, this, hb]
      · have hz : x.toNat.testBit i = false := Nat.testBit_lt_two_pow (lt_of_lt_of_le hx (Nat.pow_le_pow_right (by decide) (by omega)))
        simp [hi, this, hz]
    · have hb : Nat.testBit 4294967288 i = false := by
        interval_cases i <;> decide
      simp [hi, hb]
  rw [h1, Nat.shiftRight_eq_div_pow, Nat.shiftLeft_eq]
  omega

theorem high_dvd (x : BitVec 32) : 8 ∣ (x &&& 4294967288#32).toNat := by
  rw [toNat_and_high]; omega

theorem high_add_low (x : BitVec 32) : (x &&& 4294967288#32).toNat + (x &&& 7#32).toNat = x.toNat := by
  rw [toNat_and_high, toNat_and_low]; omega

theorem low_lt (x : BitVec 32) : (x &&& 7#32).toNat < 8 := by
  rw [toNat_and_low]; omega

theorem high_add_eight_le {x : BitVec 32} {n : Nat} (h8 : 8 ∣ n) (hx : x.toNat < n) : (x &&& 4294967288#32).toNat + 8 ≤ n := by
  rw [toNat_and_high]; omega

end Cert.Lib.Mask8
-- ==== Proof.Words2.lean ====
import proofs.«207235_g30958124269674_cont_8to1_b_889_24_alg».proof.Proof.Words
import proofs.«207235_g30958124269674_cont_8to1_b_889_24_alg».proof.Proof.LibMask8

/-! Facts about the words the task reads back from its two mask scratches, and about the ring's rows.

    A slab word `v &&& ~7` of an index `v ≤ 999999` is a multiple of eight and the eight table rows from it on
    exist (1000000 is a multiple of eight). A row word `v &&& 7` is below eight, so the row it names lies in the
    8-row slot the slab was fetched into. -/

noncomputable section

namespace Cert.KITile

open Cert.KernelIdeal Cert.KernelIdeal.Gen
open Idealize.ShloMosaic

variable {F : FTy → Type} [FloatOps F]

/-- A word that can start a slab fetch: a multiple of eight with eight rows of the table from it on. -/
def Slab (w : BitVec 32) : Prop := 8 ∣ w.toNat ∧ w.toNat + 8 ≤ 1000000

/-- Every word of the run is at most 999999. -/
theorem idxRun_le {d : Dev nD} (L : grid0.Coords) (fI : Buf (Elt F) (iLoc d)) (hidx : ∀ j : S16384.Idx, (fI j).toNat ≤ 999999)
    (p : S512.Idx) : (idxRun (F := F) L fI p).toNat ≤ 999999 := by
  have e : idxRun (F := F) L fI p = fI ((iRow L).view.emb p) := (View.read_apply _ _).trans (cast_eq _ _)
  rw [e]; exact hidx _

theorem G1_slab {d : Dev nD} (L : grid0.Coords) (fI : Buf (Elt F) (iLoc d)) (hidx : ∀ j : S16384.Idx, (fI j).toNat ≤ 999999)
    (p : S512.Idx) : Slab (G1 (F := F) L fI p) :=
  ⟨Cert.Lib.Mask8.high_dvd _, Cert.Lib.Mask8.high_add_eight_le ⟨125000, rfl⟩ (Nat.lt_succ_of_le (idxRun_le L fI hidx p))⟩

theorem G2_lt {d : Dev nD} (L : grid0.Coords) (fI : Buf (Elt F) (iLoc d)) (p : S512.Idx) : (G2 (F := F) L fI p).toNat < 8 :=
  Cert.Lib.Mask8.low_lt _

/-- A lane of a 16-vector, as the program reads it, has whatever every lane has. -/
theorem lane_all (P : BitVec 32 → Prop) (V : IVec S16 32) (hV : ∀ x, P (V x)) (k : Nat) (hS : S16.Slices ![k] S1)
    (h' : ∀ a, (![0] : Fin 1 → Nat) a < S1.size a) : P (extractAt ![0] (extractStridedSlice S1 ![k] V hS) h') :=
  hV _

theorem lane_slab (V : IVec S16 32) (hV : ∀ x, Slab (V x)) (k : Nat) (hS : S16.Slices ![k] S1)
    (h' : ∀ a, (![0] : Fin 1 → Nat) a < S1.size a) : Slab (extractAt ![0] (extractStridedSlice S1 ![k] V hS) h') :=
  lane_all Slab V hV k hS h'

theorem lane_lt (V : IVec S16 32) (hV : ∀ x, (V x).toNat < 8) (k : Nat) (hS : S16.Slices ![k] S1)
    (h' : ∀ a, (![0] : Fin 1 → Nat) a < S1.size a) : (extractAt ![0] (extractStridedSlice S1 ![k] V hS) h').toNat < 8 :=
  lane_all (fun w => w.toNat < 8) V hV k hS h'

/-- Sixteen words loaded from the slab-word scratch holding `G1`, anywhere, are slab words. -/
theorem load_G1_slab {d : Dev nD} (L : grid0.Coords) (fI : Buf (Elt F) (iLoc d)) (hidx : ∀ j : S16384.Idx, (fI j).toNat ≤ 999999)
    (R : Rect S512) (h : R.shape.ShapeCasts S16) (x : S16.Idx) :
    Slab (shapeCast S16 (View.readAt (Elt F) (s1 : Memref sig .scVector .vmem S512 .i32).view R.toLoadRect (G1 (F := F) L fI)) h x) :=
  G1_slab L fI hidx _

/-- Sixteen words loaded from the row-word scratch holding `G2`, anywhere, are below eight. -/
theorem load_G2_lt {d : Dev nD} (L : grid0.Coords) (fI : Buf (Elt F) (iLoc d))
    (R : Rect S512) (h : R.shape.ShapeCasts S16) (x : S16.Idx) :
    (shapeCast S16 (View.readAt (Elt F) (s2 : Memref sig .scVector .vmem S512 .i32).view R.toLoadRect (G2 (F := F) L fI)) h x).toNat < 8 :=
  G2_lt L fI _

/-- The 16-lane piece at column `c` of row `r` of slot `(h, k)` lies in that slot. -/
theorem row_in_slot (h k r c : Nat) (inb : ∀ a, (![h, k, r, c] : Fin 4 → Nat) a + S1x1x1x16.size a ≤ S2x16x8x64.size a)
    (inb0 : ∀ a, (![h, k, 0, 0] : Fin 4 → Nat) a + S1x1x8x64.size a ≤ S2x16x8x64.size a) :
    (s4 : Memref sig .scVector .vmem S2x16x8x64 .f32).view.setOn (Rect.unit (s := S2x16x8x64) ![h, k, r, c] S1x1x1x16.size inb).set
      ⊆ ((s4.slice (Rect.unit (s := S2x16x8x64) ![h, k, 0, 0] S1x1x8x64.size inb0) (fun _ => rfl)).squeeze S8x64 squeezes_S1x1x8x64_S8x64).view.set := by
  show _ ⊆ (((s4 : Memref sig .scVector .vmem S2x16x8x64 .f32).view.slice (Rect.unit (s := S2x16x8x64) ![h, k, 0, 0] S1x1x8x64.size inb0)).reshape S8x64
    squeezes_S1x1x8x64_S8x64.numel_eq).set
  rw [View.set_reshape, View.set_slice]
  refine Finset.map_subset_map.mpr fun y hy => ?_
  have h2 := inb 2; have h3 := inb 3
  simp [Shape.size] at h2 h3
  rw [LoadRect.mem_set] at hy ⊢
  intro a
  obtain ⟨j, hj, e⟩ := hy a
  fin_cases a
  · exact ⟨j, hj, e⟩
  · exact ⟨j, hj, e⟩
  · refine ⟨r + j, ?_, ?_⟩
    · simp [Shape.size] at hj ⊢; omega
    · simp at e ⊢; omega
  · refine ⟨c + j, ?_, ?_⟩
    · simp [Shape.size] at hj ⊢; omega
    · simp at e ⊢; omega

/-- The slab check's content at a word. -/
theorem slab_ok (w : BitVec 32) (h : Slab w) :
    (8 ∣ w.toNat) ∧ (∀ a, (![w.toNat, 0] : Fin 2 → Nat) a + S8x64.size a ≤ S1000000x64.size a) := by
  refine ⟨h.1, fun a => ?_⟩
  fin_cases a
  · show w.toNat + 8 ≤ 1000000; exact h.2
  · show 0 + 64 ≤ 64; omega

/-- The same under a guard (the fetches issued inside the loop are guarded by the trip not being the last). -/
theorem slab_ok_g (C : Prop) (w : BitVec 32) (h : Slab w) :
    (∀ _ : C, 8 ∣ w.toNat) ∧ (∀ _ : C, ∀ a, (![w.toNat, 0] : Fin 2 → Nat) a + S8x64.size a ≤ S1000000x64.size a) :=
  ⟨fun _ => (slab_ok w h).1, fun _ => (slab_ok w h).2⟩

/-- The row check's content: the four 16-lane pieces of row `r` of slot `(h, k)` lie in the ring. -/
theorem row_ok4 (h k : Nat) (hh : h < 2) (hk : k < 16) (r : Nat) (hr : r < 8) :
    (∀ a, (![h, k, r, 0] : Fin 4 → Nat) a + S1x1x1x16.size a ≤ S2x16x8x64.size a) ∧
    (∀ a, (![h, k, r, 16] : Fin 4 → Nat) a + S1x1x1x16.size a ≤ S2x16x8x64.size a) ∧
    (∀ a, (![h, k, r, 32] : Fin 4 → Nat) a + S1x1x1x16.size a ≤ S2x16x8x64.size a) ∧
    (∀ a, (![h, k, r, 48] : Fin 4 → Nat) a + S1x1x1x16.size a ≤ S2x16x8x64.size a) := by
  refine ⟨fun a => ?_, fun a => ?_, fun a => ?_, fun a => ?_⟩ <;> fin_cases a <;> simp [Shape.size] <;> omega

end Cert.KITile

end
-- ==== Proof.Inv.lean ====
import proofs.«207235_g30958124269674_cont_8to1_b_889_24_alg».proof.Proof.Words2

/-! The loop's invariant.

    Before trip `t` of the sixteen, the sixteen slabs of group `2 t` are on their way into the ring's first half and
    those of group `2 t + 1` into its second half, each fetch holding its own read share of the table (all of it but the
    slab stays with the task), and rows `0 … 32 t − 1` of the row scratch hold their rows of the table. After the
    last trip nothing is on its way: the ring's slots and the read shares are back. -/

noncomputable section

namespace Cert.KITile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem slab_inb (w : BitVec 32) (h : Slab w) : ∀ a, (![w.toNat, 0] : Fin 2 → Nat) a + S8x64.size a ≤ S1000000x64.size a :=
  (slab_ok w h).2

/-- The eight table rows from word `w` on, as the program slices them. -/
abbrev slabM (w : BitVec 32) (hw : ∀ a, (![w.toNat, 0] : Fin 2 → Nat) a + S8x64.size a ≤ S1000000x64.size a) :
    Memref sig .scVector .hbm S8x64 .f32 :=
  (tV).slice (Rect.unit (s := S1000000x64) ![w.toNat, 0] S8x64.size hw) (fun _ => rfl)

/-- The slab word of lane `k` of group `g`, read off the slab-word scratch's contents `g1`. -/
def wAt (g1 : S512.Idx → BitVec 32) (g k : Nat) : BitVec 32 := g1 (ValueIdx.ix1 (Fin.ofNat 512 (16 * g + k)))

theorem wAt_slab (g1 : S512.Idx → BitVec 32) (hS1 : ∀ p, Slab (g1 p)) (g k : Nat) : Slab (wAt g1 g k) := hS1 _

/-- Rows `0 … n − 1` of the row scratch hold their rows of the table. -/
def Done {d : Dev nD} (L : grid0.Coords) (fI : Buf (Elt F) (iLoc d)) (fT : Buf (Elt F) (tLoc d)) (n : Nat)
    (g3 : S512x64.Idx → Elt F .f32) : Prop :=
  ∀ (j : Fin 512) (c : Fin 64), j.val < n → ∀ h : (idxRun (F := F) L fI (ValueIdx.ix1 j)).toNat < 1000000,
    g3 (ValueIdx.ix2 j c) = fT (ValueIdx.ix2 ⟨_, h⟩ c)

/-- What one fetch delivers: its ring slot holding the slab of the table at `w`, and the slab's read share back. -/
abbrev ringSlot (h k : Nat) (inb : ∀ a, (![h, k, 0, 0] : Fin 4 → Nat) a + S1x1x8x64.size a ≤ S2x16x8x64.size a) :
    Memref sig .scVector .vmem S8x64 .f32 :=
  ((s4).slice (Rect.unit (s := S2x16x8x64) ![h, k, 0, 0] S1x1x8x64.size inb) (fun _ => rfl)).squeeze S8x64 squeezes_S1x1x8x64_S8x64

abbrev deliv (d : Dev nD) (L : grid0.Coords) (q : PosShare TreeShare) (fT : Buf (Elt F) (tLoc d))
    (f4 : Buf (Elt F) ((thr d L).loc cc0_scratch4)) (h k : Nat)
    (inb : ∀ a, (![h, k, 0, 0] : Fin 4 → Nat) a + S1x1x8x64.size a ≤ S2x16x8x64.size a) (tok : Nat) (w : BitVec 32)
    (hw : ∀ a, (![w.toNat, 0] : Fin 2 → Nat) a + S8x64.size a ≤ S1000000x64.size a) : sProp 𝕄 :=
  iprop(((ringSlot h k inb).view.loc (thr d L) ↦[(ringSlot h k inb).view.set]{fullShare}
          (ringSlot h k inb).view.writes (Elt F) f4 [⟨Rect.whole S8x64, ReadAs.same.apply (View.read (Elt F) (slabM w hw).view fT)⟩])
        ∗ ((tV).view.loc (thr d L) ↦[(slabM w hw).view.set]{Transfers.shareTokN q tok} fT))

/-- What stays with the task of a fetch's read share. -/
abbrev rest (d : Dev nD) (L : grid0.Coords) (q : PosShare TreeShare) (fT : Buf (Elt F) (tLoc d)) (tok : Nat) (w : BitVec 32)
    (hw : ∀ a, (![w.toNat, 0] : Fin 2 → Nat) a + S8x64.size a ≤ S1000000x64.size a) : sProp 𝕄 :=
  (tV).view.loc (thr d L) ↦[Finset.univ \ (slabM w hw).view.set]{Transfers.shareTokN q tok} fT

section
variable (d : Dev nD) (L : grid0.Coords) (q : PosShare TreeShare) (O : CellTallies nD τ sig (HIx 1)) (W : Waits sig (HIx 1))
  (fI : Buf (Elt F) (iLoc d)) (fT : Buf (Elt F) (tLoc d)) (fO : Buf (Elt F) (oLoc d))
  (f0 : Buf (Elt F) ((thr d L).loc cc0_scratch0)) (f4 : Buf (Elt F) ((thr d L).loc cc0_scratch4))
  (g1 g2 : S512.Idx → BitVec 32) (hS1 : ∀ p, Slab (g1 p))

/-- What the task holds at every trip's head, in flight or not. -/
def invBase (n : Nat) : sProp 𝕄 :=
  iprop(Transfers.MayWaits (thr d L) (none : HIx 1) O
    ∗ ((iRow L).view.loc (thr d L) ↦[(iRow L).view.set]{fullShare} fI)
    ∗ ((oRow L).view.loc (thr d L) ↦[(oRow L).view.set]{fullShare} fO)
    ∗ (∃ g0, (s0).view.loc (thr d L) ↦{fullShare} g0)
    ∗ ((s1).view.loc (thr d L) ↦{fullShare} g1)
    ∗ ((s2).view.loc (thr d L) ↦{fullShare} g2)
    ∗ (∃ g3, ⌜Done (F := F) L fI fT n g3⌝ ∗ (s3).view.loc (thr d L) ↦{fullShare} g3)
    ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

/-- The sixteen fetches on their way into half `0` before trip `t`: what each delivers. -/
def flight0 (t : Nat) : List (sProp 𝕄) :=
  [deliv (F := F) d L q fT f4 0 0 inb_S2x16x8x64_S1x1x8x64_0_0_0_0 0 (wAt g1 (2 * t + 0) 0) (slab_inb _ (wAt_slab g1 hS1 (2 * t + 0) 0)),
      deliv (F := F) d L q fT f4 0 1 inb_S2x16x8x64_S1x1x8x64_0_1_0_0 1 (wAt g1 (2 * t + 0) 1) (slab_inb _ (wAt_slab g1 hS1 (2 * t + 0) 1)),
      deliv (F := F) d L q fT f4 0 2 inb_S2x16x8x64_S1x1x8x64_0_2_0_0 2 (wAt g1 (2 * t + 0) 2) (slab_inb _ (wAt_slab g1 hS1 (2 * t + 0) 2)),
      deliv (F := F) d L q fT f4 0 3 inb_S2x16x8x64_S1x1x8x64_0_3_0_0 3 (wAt g1 (2 * t + 0) 3) (slab_inb _ (wAt_slab g1 hS1 (2 * t + 0) 3)),
      deliv (F := F) d L q fT f4 0 4 inb_S2x16x8x64_S1x1x8x64_0_4_0_0 4 (wAt g1 (2 * t + 0) 4) (slab_inb _ (wAt_slab g1 hS1 (2 * t + 0) 4)),
      deliv (F := F) d L q fT f4 0 5 inb_S2x16x8x64_S1x1x8x64_0_5_0_0 5 (wAt g1 (2 * t + 0) 5) (slab_inb _ (wAt_slab g1 hS1 (2 * t + 0) 5)),
      deliv (F := F) d L q fT f4 0 6 inb_S2x16x8x64_S1x1x8x64_0_6_0_0 6 (wAt g1 (2 * t + 0) 6) (slab_inb _ (wAt_slab g1 hS1 (2 * t + 0) 6)),
      deliv (F := F) d L q fT f4 0 7 inb_S2x16x8x64_S1x1x8x64_0_7_0_0 7 (wAt g1 (2 * t + 0) 7) (slab_inb _ (wAt_slab g1 hS1 (2 * t + 0) 7)),
      deliv (F := F) d L q fT f4 0 8 inb_S2x16x8x64_S1x1x8x64_0_8_0_0 8 (wAt g1 (2 * t + 0) 8) (slab_inb _ (wAt_slab g1 hS1 (2 * t + 0) 8)),
      deliv (F := F) d L q fT f4 0 9 inb_S2x16x8x64_S1x1x8x64_0_9_0_0 9 (wAt g1 (2 * t + 0) 9) (slab_inb _ (wAt_slab g1 hS1 (2 * t + 0) 9)),
      deliv (F := F) d L q fT f4 0 10 inb_S2x16x8x64_S1x1x8x64_0_10_0_0 10 (wAt g1 (2 * t + 0) 10) (slab_inb _ (wAt_slab g1 hS1 (2 * t + 0) 10)),
      deliv (F := F) d L q fT f4 0 11 inb_S2x16x8x64_S1x1x8x64_0_11_0_0 11 (wAt g1 (2 * t + 0) 11) (slab_inb _ (wAt_slab g1 hS1 (2 * t + 0) 11)),
      deliv (F := F) d L q fT f4 0 12 inb_S2x16x8x64_S1x1x8x64_0_12_0_0 12 (wAt g1 (2 * t + 0) 12) (slab_inb _ (wAt_slab g1 hS1 (2 * t + 0) 12)),
      deliv (F := F) d L q fT f4 0 13 inb_S2x16x8x64_S1x1x8x64_0_13_0_0 13 (wAt g1 (2 * t + 0) 13) (slab_inb _ (wAt_slab g1 hS1 (2 * t + 0) 13)),
      deliv (F := F) d L q fT f4 0 14 inb_S2x16x8x64_S1x1x8x64_0_14_0_0 14 (wAt g1 (2 * t + 0) 14) (slab_inb _ (wAt_slab g1 hS1 (2 * t + 0) 14)),
      deliv (F := F) d L q fT f4 0 15 inb_S2x16x8x64_S1x1x8x64_0_15_0_0 15 (wAt g1 (2 * t + 0) 15) (slab_inb _ (wAt_slab g1 hS1 (2 * t + 0) 15))]

def flight1 (t : Nat) : List (sProp 𝕄) :=
  [deliv (F := F) d L q fT f4 1 0 inb_S2x16x8x64_S1x1x8x64_1_0_0_0 16 (wAt g1 (2 * t + 1) 0) (slab_inb _ (wAt_slab g1 hS1 (2 * t + 1) 0)),
      deliv (F := F) d L q fT f4 1 1 inb_S2x16x8x64_S1x1x8x64_1_1_0_0 17 (wAt g1 (2 * t + 1) 1) (slab_inb _ (wAt_slab g1 hS1 (2 * t + 1) 1)),
      deliv (F := F) d L q fT f4 1 2 inb_S2x16x8x64_S1x1x8x64_1_2_0_0 18 (wAt g1 (2 * t + 1) 2) (slab_inb _ (wAt_slab g1 hS1 (2 * t + 1) 2)),
      deliv (F := F) d L q fT f4 1 3 inb_S2x16x8x64_S1x1x8x64_1_3_0_0 19 (wAt g1 (2 * t + 1) 3) (slab_inb _ (wAt_slab g1 hS1 (2 * t + 1) 3)),
      deliv (F := F) d L q fT f4 1 4 inb_S2x16x8x64_S1x1x8x64_1_4_0_0 20 (wAt g1 (2 * t + 1) 4) (slab_inb _ (wAt_slab g1 hS1 (2 * t + 1) 4)),
      deliv (F := F) d L q fT f4 1 5 inb_S2x16x8x64_S1x1x8x64_1_5_0_0 21 (wAt g1 (2 * t + 1) 5) (slab_inb _ (wAt_slab g1 hS1 (2 * t + 1) 5)),
      deliv (F := F) d L q fT f4 1 6 inb_S2x16x8x64_S1x1x8x64_1_6_0_0 22 (wAt g1 (2 * t + 1) 6) (slab_inb _ (wAt_slab g1 hS1 (2 * t + 1) 6)),
      deliv (F := F) d L q fT f4 1 7 inb_S2x16x8x64_S1x1x8x64_1_7_0_0 23 (wAt g1 (2 * t + 1) 7) (slab_inb _ (wAt_slab g1 hS1 (2 * t + 1) 7)),
      deliv (F := F) d L q fT f4 1 8 inb_S2x16x8x64_S1x1x8x64_1_8_0_0 24 (wAt g1 (2 * t + 1) 8) (slab_inb _ (wAt_slab g1 hS1 (2 * t + 1) 8)),
      deliv (F := F) d L q fT f4 1 9 inb_S2x16x8x64_S1x1x8x64_1_9_0_0 25 (wAt g1 (2 * t + 1) 9) (slab_inb _ (wAt_slab g1 hS1 (2 * t + 1) 9)),
      deliv (F := F) d L q fT f4 1 10 inb_S2x16x8x64_S1x1x8x64_1_10_0_0 26 (wAt g1 (2 * t + 1) 10) (slab_inb _ (wAt_slab g1 hS1 (2 * t + 1) 10)),
      deliv (F := F) d L q fT f4 1 11 inb_S2x16x8x64_S1x1x8x64_1_11_0_0 27 (wAt g1 (2 * t + 1) 11) (slab_inb _ (wAt_slab g1 hS1 (2 * t + 1) 11)),
      deliv (F := F) d L q fT f4 1 12 inb_S2x16x8x64_S1x1x8x64_1_12_0_0 28 (wAt g1 (2 * t + 1) 12) (slab_inb _ (wAt_slab g1 hS1 (2 * t + 1) 12)),
      deliv (F := F) d L q fT f4 1 13 inb_S2x16x8x64_S1x1x8x64_1_13_0_0 29 (wAt g1 (2 * t + 1) 13) (slab_inb _ (wAt_slab g1 hS1 (2 * t + 1) 13)),
      deliv (F := F) d L q fT f4 1 14 inb_S2x16x8x64_S1x1x8x64_1_14_0_0 30 (wAt g1 (2 * t + 1) 14) (slab_inb _ (wAt_slab g1 hS1 (2 * t + 1) 14)),
      deliv (F := F) d L q fT f4 1 15 inb_S2x16x8x64_S1x1x8x64_1_15_0_0 31 (wAt g1 (2 * t + 1) 15) (slab_inb _ (wAt_slab g1 hS1 (2 * t + 1) 15))]

/-- What stays with the task of each fetch's read share: the table but the slab. -/
def rests (t : Nat) : sProp 𝕄 :=
  iprop(emp
    ∗ rest (F := F) d L q fT 0 (wAt g1 (2 * t + 0) 0) (slab_inb _ (wAt_slab g1 hS1 (2 * t + 0) 0))
    ∗ rest (F := F) d L q fT 1 (wAt g1 (2 * t + 0) 1) (slab_inb _ (wAt_slab g1 hS1 (2 * t + 0) 1))
    ∗ rest (F := F) d L q fT 2 (wAt g1 (2 * t + 0) 2) (slab_inb _ (wAt_slab g1 hS1 (2 * t + 0) 2))
    ∗ rest (F := F) d L q fT 3 (wAt g1 (2 * t + 0) 3) (slab_inb _ (wAt_slab g1 hS1 (2 * t + 0) 3))
    ∗ rest (F := F) d L q fT 4 (wAt g1 (2 * t + 0) 4) (slab_inb _ (wAt_slab g1 hS1 (2 * t + 0) 4))
    ∗ rest (F := F) d L q fT 5 (wAt g1 (2 * t + 0) 5) (slab_inb _ (wAt_slab g1 hS1 (2 * t + 0) 5))
    ∗ rest (F := F) d L q fT 6 (wAt g1 (2 * t + 0) 6) (slab_inb _ (wAt_slab g1 hS1 (2 * t + 0) 6))
    ∗ rest (F := F) d L q fT 7 (wAt g1 (2 * t + 0) 7) (slab_inb _ (wAt_slab g1 hS1 (2 * t + 0) 7))
    ∗ rest (F := F) d L q fT 8 (wAt g1 (2 * t + 0) 8) (slab_inb _ (wAt_slab g1 hS1 (2 * t + 0) 8))
    ∗ rest (F := F) d L q fT 9 (wAt g1 (2 * t + 0) 9) (slab_inb _ (wAt_slab g1 hS1 (2 * t + 0) 9))
    ∗ rest (F := F) d L q fT 10 (wAt g1 (2 * t + 0) 10) (slab_inb _ (wAt_slab g1 hS1 (2 * t + 0) 10))
    ∗ rest (F := F) d L q fT 11 (wAt g1 (2 * t + 0) 11) (slab_inb _ (wAt_slab g1 hS1 (2 * t + 0) 11))
    ∗ rest (F := F) d L q fT 12 (wAt g1 (2 * t + 0) 12) (slab_inb _ (wAt_slab g1 hS1 (2 * t + 0) 12))
    ∗ rest (F := F) d L q fT 13 (wAt g1 (2 * t + 0) 13) (slab_inb _ (wAt_slab g1 hS1 (2 * t + 0) 13))
    ∗ rest (F := F) d L q fT 14 (wAt g1 (2 * t + 0) 14) (slab_inb _ (wAt_slab g1 hS1 (2 * t + 0) 14))
    ∗ rest (F := F) d L q fT 15 (wAt g1 (2 * t + 0) 15) (slab_inb _ (wAt_slab g1 hS1 (2 * t + 0) 15))
    ∗ rest (F := F) d L q fT 16 (wAt g1 (2 * t + 1) 0) (slab_inb _ (wAt_slab g1 hS1 (2 * t + 1) 0))
    ∗ rest (F := F) d L q fT 17 (wAt g1 (2 * t + 1) 1) (slab_inb _ (wAt_slab g1 hS1 (2 * t + 1) 1))
    ∗ rest (F := F) d L q fT 18 (wAt g1 (2 * t + 1) 2) (slab_inb _ (wAt_slab g1 hS1 (2 * t + 1) 2))
    ∗ rest (F := F) d L q fT 19 (wAt g1 (2 * t + 1) 3) (slab_inb _ (wAt_slab g1 hS1 (2 * t + 1) 3))
    ∗ rest (F := F) d L q fT 20 (wAt g1 (2 * t + 1) 4) (slab_inb _ (wAt_slab g1 hS1 (2 * t + 1) 4))
    ∗ rest (F := F) d L q fT 21 (wAt g1 (2 * t + 1) 5) (slab_inb _ (wAt_slab g1 hS1 (2 * t + 1) 5))
    ∗ rest (F := F) d L q fT 22 (wAt g1 (2 * t + 1) 6) (slab_inb _ (wAt_slab g1 hS1 (2 * t + 1) 6))
    ∗ rest (F := F) d L q fT 23 (wAt g1 (2 * t + 1) 7) (slab_inb _ (wAt_slab g1 hS1 (2 * t + 1) 7))
    ∗ rest (F := F) d L q fT 24 (wAt g1 (2 * t + 1) 8) (slab_inb _ (wAt_slab g1 hS1 (2 * t + 1) 8))
    ∗ rest (F := F) d L q fT 25 (wAt g1 (2 * t + 1) 9) (slab_inb _ (wAt_slab g1 hS1 (2 * t + 1) 9))
    ∗ rest (F := F) d L q fT 26 (wAt g1 (2 * t + 1) 10) (slab_inb _ (wAt_slab g1 hS1 (2 * t + 1) 10))
    ∗ rest (F := F) d L q fT 27 (wAt g1 (2 * t + 1) 11) (slab_inb _ (wAt_slab g1 hS1 (2 * t + 1) 11))
    ∗ rest (F := F) d L q fT 28 (wAt g1 (2 * t + 1) 12) (slab_inb _ (wAt_slab g1 hS1 (2 * t + 1) 12))
    ∗ rest (F := F) d L q fT 29 (wAt g1 (2 * t + 1) 13) (slab_inb _ (wAt_slab g1 hS1 (2 * t + 1) 13))
    ∗ rest (F := F) d L q fT 30 (wAt g1 (2 * t + 1) 14) (slab_inb _ (wAt_slab g1 hS1 (2 * t + 1) 14))
    ∗ rest (F := F) d L q fT 31 (wAt g1 (2 * t + 1) 15) (slab_inb _ (wAt_slab g1 hS1 (2 * t + 1) 15)))

/-- The invariant: before trip `k < 16` the two groups' fetches are on their way; after the last trip nothing is. -/
def inv (k : Nat) (_ : PUnit) : sProp 𝕄 :=
  if k < 16 then
    iprop(invBase (F := F) d L O W fI fT fO g1 g2 (32 * k)
      ∗ rests (F := F) d L q fT g1 hS1 k
      ∗ Transfers.Batched countersEmb (thr d L) (SemLoc.dma cc0_scratch5.sem : SemLoc sig) default 16384 16 (flight0 (F := F) d L q fT f4 g1 hS1 k) 0
      ∗ Transfers.Batched countersEmb (thr d L) (SemLoc.dma cc0_scratch6.sem : SemLoc sig) default 16384 16 (flight1 (F := F) d L q fT f4 g1 hS1 k) 0)
  else
    iprop(invBase (F := F) d L O W fI fT fO g1 g2 512
    ∗ ((tV).view.loc (thr d L) ↦{Transfers.shareTokN q 0} fT)
    ∗ ((tV).view.loc (thr d L) ↦{Transfers.shareTokN q 1} fT)
    ∗ ((tV).view.loc (thr d L) ↦{Transfers.shareTokN q 2} fT)
    ∗ ((tV).view.loc (thr d L) ↦{Transfers.shareTokN q 3} fT)
    ∗ ((tV).view.loc (thr d L) ↦{Transfers.shareTokN q 4} fT)
    ∗ ((tV).view.loc (thr d L) ↦{Transfers.shareTokN q 5} fT)
    ∗ ((tV).view.loc (thr d L) ↦{Transfers.shareTokN q 6} fT)
    ∗ ((tV).view.loc (thr d L) ↦{Transfers.shareTokN q 7} fT)
    ∗ ((tV).view.loc (thr d L) ↦{Transfers.shareTokN q 8} fT)
    ∗ ((tV).view.loc (thr d L) ↦{Transfers.shareTokN q 9} fT)
    ∗ ((tV).view.loc (thr d L) ↦{Transfers.shareTokN q 10} fT)
    ∗ ((tV).view.loc (thr d L) ↦{Transfers.shareTokN q 11} fT)
    ∗ ((tV).view.loc (thr d L) ↦{Transfers.shareTokN q 12} fT)
    ∗ ((tV).view.loc (thr d L) ↦{Transfers.shareTokN q 13} fT)
    ∗ ((tV).view.loc (thr d L) ↦{Transfers.shareTokN q 14} fT)
    ∗ ((tV).view.loc (thr d L) ↦{Transfers.shareTokN q 15} fT)
    ∗ ((tV).view.loc (thr d L) ↦{Transfers.shareTokN q 16} fT)
    ∗ ((tV).view.loc (thr d L) ↦{Transfers.shareTokN q 17} fT)
    ∗ ((tV).view.loc (thr d L) ↦{Transfers.shareTokN q 18} fT)
    ∗ ((tV).view.loc (thr d L) ↦{Transfers.shareTokN q 19} fT)
    ∗ ((tV).view.loc (thr d L) ↦{Transfers.shareTokN q 20} fT)
    ∗ ((tV).view.loc (thr d L) ↦{Transfers.shareTokN q 21} fT)
    ∗ ((tV).view.loc (thr d L) ↦{Transfers.shareTokN q 22} fT)
    ∗ ((tV).view.loc (thr d L) ↦{Transfers.shareTokN q 23} fT)
    ∗ ((tV).view.loc (thr d L) ↦{Transfers.shareTokN q 24} fT)
    ∗ ((tV).view.loc (thr d L) ↦{Transfers.shareTokN q 25} fT)
    ∗ ((tV).view.loc (thr d L) ↦{Transfers.shareTokN q 26} fT)
    ∗ ((tV).view.loc (thr d L) ↦{Transfers.shareTokN q 27} fT)
    ∗ ((tV).view.loc (thr d L) ↦{Transfers.shareTokN q 28} fT)
    ∗ ((tV).view.loc (thr d L) ↦{Transfers.shareTokN q 29} fT)
    ∗ ((tV).view.loc (thr d L) ↦{Transfers.shareTokN q 30} fT)
    ∗ ((tV).view.loc (thr d L) ↦{Transfers.shareTokN q 31} fT)
    ∗ (∃ g, (slot0_0).view.loc (thr d L) ↦[(slot0_0).view.set]{fullShare} g)
    ∗ (∃ g, (slot0_1).view.loc (thr d L) ↦[(slot0_1).view.set]{fullShare} g)
    ∗ (∃ g, (slot0_2).view.loc (thr d L) ↦[(slot0_2).view.set]{fullShare} g)
    ∗ (∃ g, (slot0_3).view.loc (thr d L) ↦[(slot0_3).view.set]{fullShare} g)
    ∗ (∃ g, (slot0_4).view.loc (thr d L) ↦[(slot0_4).view.set]{fullShare} g)
    ∗ (∃ g, (slot0_5).view.loc (thr d L) ↦[(slot0_5).view.set]{fullShare} g)
    ∗ (∃ g, (slot0_6).view.loc (thr d L) ↦[(slot0_6).view.set]{fullShare} g)
    ∗ (∃ g, (slot0_7).view.loc (thr d L) ↦[(slot0_7).view.set]{fullShare} g)
    ∗ (∃ g, (slot0_8).view.loc (thr d L) ↦[(slot0_8).view.set]{fullShare} g)
    ∗ (∃ g, (slot0_9).view.loc (thr d L) ↦[(slot0_9).view.set]{fullShare} g)
    ∗ (∃ g, (slot0_10).view.loc (thr d L) ↦[(slot0_10).view.set]{fullShare} g)
    ∗ (∃ g, (slot0_11).view.loc (thr d L) ↦[(slot0_11).view.set]{fullShare} g)
    ∗ (∃ g, (slot0_12).view.loc (thr d L) ↦[(slot0_12).view.set]{fullShare} g)
    ∗ (∃ g, (slot0_13).view.loc (thr d L) ↦[(slot0_13).view.set]{fullShare} g)
    ∗ (∃ g, (slot0_14).view.loc (thr d L) ↦[(slot0_14).view.set]{fullShare} g)
    ∗ (∃ g, (slot0_15).view.loc (thr d L) ↦[(slot0_15).view.set]{fullShare} g)
    ∗ (∃ g, (slot1_0).view.loc (thr d L) ↦[(slot1_0).view.set]{fullShare} g)
    ∗ (∃ g, (slot1_1).view.loc (thr d L) ↦[(slot1_1).view.set]{fullShare} g)
    ∗ (∃ g, (slot1_2).view.loc (thr d L) ↦[(slot1_2).view.set]{fullShare} g)
    ∗ (∃ g, (slot1_3).view.loc (thr d L) ↦[(slot1_3).view.set]{fullShare} g)
    ∗ (∃ g, (slot1_4).view.loc (thr d L) ↦[(slot1_4).view.set]{fullShare} g)
    ∗ (∃ g, (slot1_5).view.loc (thr d L) ↦[(slot1_5).view.set]{fullShare} g)
    ∗ (∃ g, (slot1_6).view.loc (thr d L) ↦[(slot1_6).view.set]{fullShare} g)
    ∗ (∃ g, (slot1_7).view.loc (thr d L) ↦[(slot1_7).view.set]{fullShare} g)
    ∗ (∃ g, (slot1_8).view.loc (thr d L) ↦[(slot1_8).view.set]{fullShare} g)
    ∗ (∃ g, (slot1_9).view.loc (thr d L) ↦[(slot1_9).view.set]{fullShare} g)
    ∗ (∃ g, (slot1_10).view.loc (thr d L) ↦[(slot1_10).view.set]{fullShare} g)
    ∗ (∃ g, (slot1_11).view.loc (thr d L) ↦[(slot1_11).view.set]{fullShare} g)
    ∗ (∃ g, (slot1_12).view.loc (thr d L) ↦[(slot1_12).view.set]{fullShare} g)
    ∗ (∃ g, (slot1_13).view.loc (thr d L) ↦[(slot1_13).view.set]{fullShare} g)
    ∗ (∃ g, (slot1_14).view.loc (thr d L) ↦[(slot1_14).view.set]{fullShare} g)
    ∗ (∃ g, (slot1_15).view.loc (thr d L) ↦[(slot1_15).view.set]{fullShare} g)
      ∗ semVal (thr d L, SemLoc.dma cc0_scratch5.sem) 0
      ∗ semVal (thr d L, SemLoc.dma cc0_scratch6.sem) 0)

end

end Cert.KITile

end
-- ==== Proof.Value.lean ====
import proofs.«207235_g30958124269674_cont_8to1_b_889_24_alg».proof.Proof.Inv

/-! What a row pick reads. A ring slot filled by one whole-slot write holds the written 8 × 64 block: read through the
    whole ring at `(h, k, r, c …)` it gives the block at `(r, c …)`. The block a fetch writes is the 8-row slab of the
    table from row `w` on, whose row `r` is the table's row `w + r`. For an index `v`, with `w` the multiple of eight
    below it and `r` the remainder, that is row `v` of the table. -/

noncomputable section

namespace Cert.KITile

open Cert.KernelIdeal Cert.KernelIdeal.Gen

open Idealize.ShloMosaic

variable {F : FTy → Type} [FloatOps F]

/-! ## Where a slot's indices sit in the ring -/

/-- Index `(r, c)` of the 8 × 64 shape is matched with `(0, 0, r, c)` of the 1 × 1 × 8 × 64 shape. -/
theorem reshape_slot (hn : S8x64.numel = S1x1x8x64.numel) (y : S8x64.Idx) :
    Shape.reshapeEquiv hn y = (ValueIdx.ix4 (0 : Fin 1) (0 : Fin 1) (y 0) (y 1) : S1x1x8x64.Idx) := by
  refine Shape.reshapeEquiv_eq_of_rowMajor hn ?_
  rw [Shape.rowMajor_val_four, Shape.rowMajor_val_two]
  show ((0 * 1 + 0) * 8 + (y 0).val) * 64 + (y 1).val = (y 0).val * 64 + (y 1).val
  omega

/-- Index `(r, c)` of slot `k` of half `h` is element `(h, k, r, c)` of the ring. -/
theorem slot_emb_val (h k : Nat) (inb : ∀ a, (![h, k, 0, 0] : Fin 4 → Nat) a + S1x1x8x64.size a ≤ S2x16x8x64.size a)
    (y : S8x64.Idx) (a : Fin 4) :
    ((ringSlot h k inb).view.emb y a).val = (![h, k, (y 0).val, (y 1).val] : Fin 4 → Nat) a := by
  show (![h, k, 0, 0] : Fin 4 → Nat) a + 1 * (Shape.reshapeEquiv squeezes_S1x1x8x64_S8x64.numel_eq y a).val = _
  rw [reshape_slot]
  match a with
  | ⟨0, _⟩ => show h + 1 * 0 = h; omega
  | ⟨1, _⟩ => show k + 1 * 0 = k; omega
  | ⟨2, _⟩ => show 0 + 1 * (y 0).val = (y 0).val; omega
  | ⟨3, _⟩ => show 0 + 1 * (y 1).val = (y 1).val; omega

/-! ## A filled slot, read through the ring -/

section Slot

variable {d : Dev nD} {L : grid0.Coords}

/-- The sixteen lanes at column `c` of row `r` of slot `k` of half `h`, read through the whole ring after the slot was
    written whole with the block `P`: lane `x` is `P` at `(r, c + x)`. -/
theorem slot_read (h k : Nat) (inb : ∀ a, (![h, k, 0, 0] : Fin 4 → Nat) a + S1x1x8x64.size a ≤ S2x16x8x64.size a)
    (f4 : Buf (Elt F) ((thr d L).loc cc0_scratch4)) (P : S8x64.Idx → Elt F .f32) (r c : Nat)
    (inb' : ∀ a, (![h, k, r, c] : Fin 4 → Nat) a + S1x1x1x16.size a ≤ S2x16x8x64.size a)
    (x : (Rect.unit (s := S2x16x8x64) ![h, k, r, c] S1x1x1x16.size inb').toLoadRect.shape.Idx) :
    View.readAt (Elt F) (s4 : Memref sig .scVector .vmem S2x16x8x64 .f32).view
        (Rect.unit (s := S2x16x8x64) ![h, k, r, c] S1x1x1x16.size inb').toLoadRect
        ((ringSlot h k inb).view.writes (Elt F) f4 [⟨Rect.whole S8x64, P⟩]) x
      = P (ValueIdx.ix2 (⟨r, by have := inb' 2; simpa using this⟩ : Fin 8)
            (⟨c + (x 3).val, by have := inb' 3; have := (x 3).isLt; simp at *; omega⟩ : Fin 64)) := by
  have hr : r < 8 := by have := inb' 2; simpa using this
  have hc : c + (x 3).val < 64 := by have := inb' 3; have := (x 3).isLt; simp at *; omega
  -- the slot's view reads the block back
  have hP : (ringSlot h k inb).view.read (Elt F) ((ringSlot h k inb).view.writes (Elt F) f4 [⟨Rect.whole S8x64, P⟩])
      (ValueIdx.ix2 (⟨r, hr⟩ : Fin 8) (⟨c + (x 3).val, hc⟩ : Fin 64)) = P (ValueIdx.ix2 (⟨r, hr⟩ : Fin 8) (⟨c + (x 3).val, hc⟩ : Fin 64)) := by
    have := View.read_writes_cons_emb (ringSlot h k inb).view f4 (Rect.whole S8x64) P []
      (ValueIdx.ix2 (⟨r, hr⟩ : Fin 8) (⟨c + (x 3).val, hc⟩ : Fin 64))
    rwa [Rect.emb_whole_apply] at this
  -- and the lanes read through the ring are the same elements of the buffer
  have hemb : ((s4 : Memref sig .scVector .vmem S2x16x8x64 .f32).view.slice (Rect.unit (s := S2x16x8x64) ![h, k, r, c] S1x1x1x16.size inb')).emb x
      = (ringSlot h k inb).view.emb (ValueIdx.ix2 (⟨r, hr⟩ : Fin 8) (⟨c + (x 3).val, hc⟩ : Fin 64)) := by
    funext a
    refine Fin.ext ?_
    rw [slot_emb_val]
    have h0 : (x 0).val = 0 := by have : (x 0).val < 1 := (x 0).isLt; omega
    have h1 : (x 1).val = 0 := by have : (x 1).val < 1 := (x 1).isLt; omega
    have h2 : (x 2).val = 0 := by have : (x 2).val < 1 := (x 2).isLt; omega
    match a with
    | ⟨0, _⟩ => show h + 1 * (x 0).val = h; omega
    | ⟨1, _⟩ => show k + 1 * (x 1).val = k; omega
    | ⟨2, _⟩ => show r + 1 * (x 2).val = r; omega
    | ⟨3, _⟩ => show c + 1 * (x 3).val = c + (x 3).val; omega
  rw [← hP]
  show ((s4 : Memref sig .scVector .vmem S2x16x8x64 .f32).view.slice (Rect.unit (s := S2x16x8x64) ![h, k, r, c] S1x1x1x16.size inb')).read (Elt F) _ x = _
  rw [View.read_apply, View.read_apply, hemb]

end Slot

/-! ## A slab of the table -/

/-- Row `r` of the slab from row `w` on is row `w + r` of the table. -/
theorem slab_read {d : Dev nD} (w : BitVec 32) (hw : ∀ a, (![w.toNat, 0] : Fin 2 → Nat) a + S8x64.size a ≤ S1000000x64.size a)
    (fT : Buf (Elt F) (tLoc d)) (r : Fin 8) (c : Fin 64) :
    ReadAs.same.apply (View.read (Elt F) (slabM w hw).view fT) (ValueIdx.ix2 r c)
      = fT (ValueIdx.ix2 (⟨w.toNat + r.val, by have := hw 0; have := r.isLt; simp at *; omega⟩ : Fin 1000000) c) := by
  show fT ((slabM w hw).view.emb (ValueIdx.ix2 r c)) = _
  refine congrArg fT (funext fun a => Fin.ext ?_)
  match a with
  | ⟨0, _⟩ => show w.toNat + 1 * r.val = w.toNat + r.val; omega
  | ⟨1, _⟩ => show 0 + 1 * c.val = c.val; omega

/-! ## The row an index names -/

/-- A slot filled with the slab at `w = v &&& ~7`, read at row `v &&& 7`: the table's row `v`. -/
theorem row_value {d : Dev nD} {L : grid0.Coords} (h k : Nat)
    (inb : ∀ a, (![h, k, 0, 0] : Fin 4 → Nat) a + S1x1x8x64.size a ≤ S2x16x8x64.size a)
    (f4 : Buf (Elt F) ((thr d L).loc cc0_scratch4)) (fT : Buf (Elt F) (tLoc d))
    (v w : BitVec 32) (rr : Nat) (hv : v.toNat < 1000000) (hw1 : w = v &&& 4294967288#32) (hr1 : rr = (v &&& 7#32).toNat)
    (hw : ∀ a, (![w.toNat, 0] : Fin 2 → Nat) a + S8x64.size a ≤ S1000000x64.size a) (c : Nat)
    (inb' : ∀ a, (![h, k, rr, c] : Fin 4 → Nat) a + S1x1x1x16.size a ≤ S2x16x8x64.size a)
    (x : (Rect.unit (s := S2x16x8x64) ![h, k, rr, c] S1x1x1x16.size inb').toLoadRect.shape.Idx) :
    View.readAt (Elt F) (s4 : Memref sig .scVector .vmem S2x16x8x64 .f32).view
        (Rect.unit (s := S2x16x8x64) ![h, k, rr, c] S1x1x1x16.size inb').toLoadRect
        ((ringSlot h k inb).view.writes (Elt F) f4
          [⟨Rect.whole S8x64, ReadAs.same.apply (View.read (Elt F) (slabM w hw).view fT)⟩]) x
      = fT (ValueIdx.ix2 (⟨v.toNat, hv⟩ : Fin 1000000)
            (⟨c + (x 3).val, by have := inb' 3; have := (x 3).isLt; simp at *; omega⟩ : Fin 64)) := by
  rw [slot_read (d := d) (L := L) h k inb f4 _ rr c inb' x, slab_read (d := d) w hw fT]
  refine congrArg fT (funext fun a => Fin.ext ?_)
  match a with
  | ⟨0, _⟩ =>
    show w.toNat + rr = v.toNat
    rw [hw1, hr1]; exact Cert.Lib.Mask8.high_add_low v
  | ⟨1, _⟩ => rfl

end Cert.KITile

end
-- ==== Proof.Convert.lean ====
import proofs.«207235_g30958124269674_cont_8to1_b_889_24_alg».proof.Proof.Inv
import Idealize.ShloMosaic.Lib.Exec.Context

/-! What a finished fetch leaves, restated. A ring slot written whole holds the written block whatever it held before,
    so the slot after a fetch is the slot "holding the slab at `w`" over any prior contents; the fetch's read share of
    the slab, and what stays with the task of that share, are named by the slab word `w` once the fetch's offsets are
    known to be `(w, 0)`. And the word a lane of a sixteen-word load reads is the scratch's word at the load's offset
    plus the lane. -/

noncomputable section

namespace Cert.KITile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## A delivered slab, over any prior contents of the ring -/

/-- The slot a fetch at offsets `off2 = (w, 0)` filled, over prior contents `X`, with the fetch's read share of the
    slab: what the invariant calls delivered at `w`, over the contents `f4`. -/
theorem deliv_of_exec (d : Dev nD) (L : grid0.Coords) (q : PosShare TreeShare) (fT : Buf (Elt F) (tLoc d))
    (f4 : Buf (Elt F) ((thr d L).loc cc0_scratch4)) (h k : Nat)
    (inb : ∀ a, (![h, k, 0, 0] : Fin 4 → Nat) a + S1x1x8x64.size a ≤ S2x16x8x64.size a) (tok : Nat)
    (X : Buf (Elt F) ((thr d L).loc cc0_scratch4)) (off2 : Fin 2 → Nat) (inb2 : ∀ a, off2 a + S8x64.size a ≤ S1000000x64.size a)
    (w : BitVec 32) (hw : ∀ a, (![w.toNat, 0] : Fin 2 → Nat) a + S8x64.size a ≤ S1000000x64.size a) (hoff : off2 = ![w.toNat, 0]) :
    (iprop(((ringSlot h k inb).view.loc (thr d L) ↦[(ringSlot h k inb).view.set]{fullShare}
          (ringSlot h k inb).view.writes (Elt F) X [⟨Rect.whole S8x64, ReadAs.same.apply (View.read (Elt F)
            ((tV).slice (Rect.unit (s := S1000000x64) off2 S8x64.size inb2) (fun _ => rfl)).view fT)⟩])
        ∗ ((tV).view.loc (thr d L) ↦[((tV).slice (Rect.unit (s := S1000000x64) off2 S8x64.size inb2) (fun _ => rfl)).view.set]{Transfers.shareTokN q tok} fT)) : sProp 𝕄)
      = deliv (F := F) d L q fT f4 h k inb tok w hw := by
  subst hoff
  rw [pointsTo_writes_whole_rebase (Ix := HIx 1) (Name := ℕ) (U := UU) (Lvl := ℕ) (thr d L) (ringSlot h k inb) X f4 _ fullShare]

/-- What stays with the task of the fetch's read share, named by the slab word. -/
theorem rest_of_exec (d : Dev nD) (L : grid0.Coords) (q : PosShare TreeShare) (fT : Buf (Elt F) (tLoc d)) (tok : Nat)
    (off2 : Fin 2 → Nat) (inb2 : ∀ a, off2 a + S8x64.size a ≤ S1000000x64.size a)
    (w : BitVec 32) (hw : ∀ a, (![w.toNat, 0] : Fin 2 → Nat) a + S8x64.size a ≤ S1000000x64.size a) (hoff : off2 = ![w.toNat, 0]) :
    ((tV).view.loc (thr d L) ↦[Finset.univ \ ((tV).slice (Rect.unit (s := S1000000x64) off2 S8x64.size inb2) (fun _ => rfl)).view.set]{Transfers.shareTokN q tok} fT : sProp 𝕄)
      = rest (F := F) d L q fT tok w hw := by
  subst hoff
  rfl

/-! ## The word a lane of a load reads -/

/-- Lane `j` of the sixteen words loaded at `off` from the scratch `s1` holding `g1` is `g1` at `off + j`. -/
theorem word_of_load1 (g1 : S512.Idx → BitVec 32) (off : Fin 1 → Nat) (inb : ∀ a, off a + S16.size a ≤ S512.size a) (j : Nat) (hj : j < 16)
    (h : (Rect.unit (s := S512) off S16.size inb).shape.ShapeCasts S16) (hS : S16.Slices ![j] S1) (h' : ∀ a, (![0] : Fin 1 → Nat) a < S1.size a) :
    extractAt ![0] (extractStridedSlice S1 ![j] (shapeCast S16 (View.readAt (Elt F) (s1 : Memref sig .scVector .vmem S512 .i32).view
        (Rect.unit (s := S512) off S16.size inb).toLoadRect g1) h) hS) h'
      = g1 (ValueIdx.ix1 (⟨off 0 + j, by have := inb 0; simp at this; omega⟩ : Fin 512)) := by
  rw [lane_word _ j hj hS h']
  have hs : ∀ (Vv : S16.Idx → BitVec 32) (hh : S16.ShapeCasts S16), shapeCast S16 Vv hh = Vv := fun Vv hh => shapeCast_self Vv hh
  rw [hs _ h, View.readAt_apply]
  show g1 ((Rect.unit (s := S512) off S16.size inb).emb (ValueIdx.ix1 (⟨j, hj⟩ : Fin 16))) = _
  refine congrArg g1 (funext fun a => Fin.ext ?_)
  match a with
  | ⟨0, _⟩ => show off 0 + 1 * j = off 0 + j; omega

/-- The same as the slab word of lane `j` of group `g`, when the load is at `16 g`. -/
theorem wAt_of_load1 (g1 : S512.Idx → BitVec 32) (off : Fin 1 → Nat) (inb : ∀ a, off a + S16.size a ≤ S512.size a) (j : Nat) (hj : j < 16)
    (h : (Rect.unit (s := S512) off S16.size inb).shape.ShapeCasts S16) (hS : S16.Slices ![j] S1) (h' : ∀ a, (![0] : Fin 1 → Nat) a < S1.size a)
    (g : Nat) (hoffg : off 0 = 16 * g) (hg : 16 * g + j < 512) :
    extractAt ![0] (extractStridedSlice S1 ![j] (shapeCast S16 (View.readAt (Elt F) (s1 : Memref sig .scVector .vmem S512 .i32).view
        (Rect.unit (s := S512) off S16.size inb).toLoadRect g1) h) hS) h'
      = wAt g1 g j := by
  rw [word_of_load1 (F := F) g1 off inb j hj h hS h']
  unfold wAt
  refine congrArg g1 (funext fun a => Fin.ext ?_)
  match a with
  | ⟨0, _⟩ =>
    show off 0 + j = (Fin.ofNat 512 (16 * g + j)).val
    rw [hoffg]; simp [Fin.ofNat, Nat.mod_eq_of_lt hg]

/-- Lane `j` of the sixteen words loaded at `off` from the scratch `s2` holding `g1` is `g1` at `off + j`. -/
theorem word_of_load2 (g1 : S512.Idx → BitVec 32) (off : Fin 1 → Nat) (inb : ∀ a, off a + S16.size a ≤ S512.size a) (j : Nat) (hj : j < 16)
    (h : (Rect.unit (s := S512) off S16.size inb).shape.ShapeCasts S16) (hS : S16.Slices ![j] S1) (h' : ∀ a, (![0] : Fin 1 → Nat) a < S1.size a) :
    extractAt ![0] (extractStridedSlice S1 ![j] (shapeCast S16 (View.readAt (Elt F) (s2 : Memref sig .scVector .vmem S512 .i32).view
        (Rect.unit (s := S512) off S16.size inb).toLoadRect g1) h) hS) h'
      = g1 (ValueIdx.ix1 (⟨off 0 + j, by have := inb 0; simp at this; omega⟩ : Fin 512)) := by
  rw [lane_word _ j hj hS h']
  have hs : ∀ (Vv : S16.Idx → BitVec 32) (hh : S16.ShapeCasts S16), shapeCast S16 Vv hh = Vv := fun Vv hh => shapeCast_self Vv hh
  rw [hs _ h, View.readAt_apply]
  show g1 ((Rect.unit (s := S512) off S16.size inb).emb (ValueIdx.ix1 (⟨j, hj⟩ : Fin 16))) = _
  refine congrArg g1 (funext fun a => Fin.ext ?_)
  match a with
  | ⟨0, _⟩ => show off 0 + 1 * j = off 0 + j; omega

/-- The same as the slab word of lane `j` of group `g`, when the load is at `16 g`. -/
theorem wAt_of_load2 (g1 : S512.Idx → BitVec 32) (off : Fin 1 → Nat) (inb : ∀ a, off a + S16.size a ≤ S512.size a) (j : Nat) (hj : j < 16)
    (h : (Rect.unit (s := S512) off S16.size inb).shape.ShapeCasts S16) (hS : S16.Slices ![j] S1) (h' : ∀ a, (![0] : Fin 1 → Nat) a < S1.size a)
    (g : Nat) (hoffg : off 0 = 16 * g) (hg : 16 * g + j < 512) :
    extractAt ![0] (extractStridedSlice S1 ![j] (shapeCast S16 (View.readAt (Elt F) (s2 : Memref sig .scVector .vmem S512 .i32).view
        (Rect.unit (s := S512) off S16.size inb).toLoadRect g1) h) hS) h'
      = wAt g1 g j := by
  rw [word_of_load2 (F := F) g1 off inb j hj h hS h']
  unfold wAt
  refine congrArg g1 (funext fun a => Fin.ext ?_)
  match a with
  | ⟨0, _⟩ =>
    show off 0 + j = (Fin.ofNat 512 (16 * g + j)).val
    rw [hoffg]; simp [Fin.ofNat, Nat.mod_eq_of_lt hg]

end Cert.KITile

end
-- ==== Proof.Rows.lean ====
import proofs.«207235_g30958124269674_cont_8to1_b_889_24_alg».proof.Proof.Inv
import proofs.«207235_g30958124269674_cont_8to1_b_889_24_alg».proof.Proof.Value

/-! The row scratch fills row by row: once rows `0 … n − 1` hold their rows of the table, four 16-lane stores into
    row `n` that each hold the table's row `idx[n]` make it `n + 1` rows. -/

noncomputable section

namespace Cert.KITile

open Cert.KernelIdeal Cert.KernelIdeal.Gen
open Idealize.ShloMosaic

variable {F : FTy → Type} [FloatOps F]

/-- What the row scratch is to hold: at `(j, c)`, entry `c` of row `idx[j]` of the table. -/
def Gtab {d : Dev nD} (L : grid0.Coords) (fI : Buf (Elt F) (iLoc d)) (fT : Buf (Elt F) (tLoc d))
    (hidx : ∀ j : S16384.Idx, (fI j).toNat ≤ 999999) : S512x64.Idx → Elt F .f32 := fun y =>
  fT (ValueIdx.ix2 (⟨(idxRun (F := F) L fI (ValueIdx.ix1 (y 0))).toNat,
    Nat.lt_of_le_of_lt (idxRun_le L fI hidx _) (by norm_num)⟩ : Fin 1000000) (y 1))

theorem done_iff_Gtab {d : Dev nD} (L : grid0.Coords) (fI : Buf (Elt F) (iLoc d)) (fT : Buf (Elt F) (tLoc d))
    (hidx : ∀ j : S16384.Idx, (fI j).toNat ≤ 999999) (n : Nat) (g3 : S512x64.Idx → Elt F .f32) :
    Done (F := F) L fI fT n g3 ↔ ∀ y : S512x64.Idx, (y 0).val < n → g3 y = Gtab (F := F) L fI fT hidx y := by
  constructor
  · intro h y hy
    have := h (y 0) (y 1) hy (Nat.lt_of_le_of_lt (idxRun_le L fI hidx _) (by norm_num))
    exact (congrArg g3 (ValueIdx.eq_ix2 y)).trans this
  · intro h j c hj hlt
    have := h (ValueIdx.ix2 j c) hj
    exact this

/-- Stores that all hold `Gtab`, lie in row `n` and cover it, extend the finished rows from `n` to `n + 1`. -/
theorem lane_done {d : Dev nD} (L : grid0.Coords) (fI : Buf (Elt F) (iLoc d)) (fT : Buf (Elt F) (tLoc d))
    (hidx : ∀ j : S16384.Idx, (fI j).toNat ≤ 999999) (n : Nat) (g3 : S512x64.Idx → Elt F .f32)
    (hD : Done (F := F) L fI fT n g3) (Lst : List (View.Piece (Elt F) S512x64 .f32))
    (hp : ∀ p ∈ Lst, ∀ x : p.1.shape.Idx, p.2 x = Gtab (F := F) L fI fT hidx (p.1.emb x))
    (hrow : ∀ p ∈ Lst, ∀ y ∈ p.1.set, (y 0).val = n)
    (hcov : ∀ y : S512x64.Idx, (y 0).val = n → ∃ p ∈ Lst, y ∈ p.1.set) :
    Done (F := F) L fI fT (n + 1) ((s3 : Memref sig .scVector .vmem S512x64 .f32).view.writes (Elt F) g3 Lst) := by
  rw [done_iff_Gtab (hidx := hidx)] at hD ⊢
  intro y hy
  by_cases hyn : (y 0).val = n
  · exact View.read_writes_apply_of_pieces (v := (s3 : Memref sig .scVector .vmem S512x64 .f32).view) (f := g3)
      (Gtab (F := F) L fI fT hidx) Lst hp y (hcov y hyn)
  · have hlt : (y 0).val < n := by omega
    have hnot : ∀ p ∈ Lst, y ∉ p.1.set := fun p hpm hmem => hyn (hrow p hpm y hmem)
    exact (View.read_writes_apply_of_forall_not_mem (s3 : Memref sig .scVector .vmem S512x64 .f32).view g3 y Lst hnot).trans (hD y hlt)

end Cert.KITile

end
-- ==== Proof.Piece.lean ====
import proofs.«207235_g30958124269674_cont_8to1_b_889_24_alg».proof.Proof.Rows
import proofs.«207235_g30958124269674_cont_8to1_b_889_24_alg».proof.Proof.Convert

/-! One picked row. The sixteen lanes at column `c` of row `r` of a landed slot, stored at `(n, c …)` of the row
    scratch, are entry `c …` of row `idx[n]` of the table: the slot holds the slab from `idx[n] &&& ~7` on and
    `r = idx[n] &&& 7`. Four such stores, at columns 0, 16, 32, 48, make row `n`. -/

noncomputable section

namespace Cert.KITile

open Cert.KernelIdeal Cert.KernelIdeal.Gen
open Idealize.ShloMosaic

variable {F : FTy → Type} [FloatOps F]

theorem fin2_eq (f : Fin 2 → Nat) (a b : Nat) (h0 : f 0 = a) (h1 : f 1 = b) : f = ![a, b] := by
  funext i; fin_cases i
  · exact h0
  · exact h1

theorem cast_idx0 : ∀ x : S1x16.Idx,
    (Shape.reshapeEquiv shapeCasts_S1x1x1x16_S16 (Shape.reshapeEquiv shapeCasts_S16_S1x16 x) 3).val = (x 1).val := by
  decide +kernel

/-- Two identity reshapes around a 16-lane load: lane `x 1` of the stored piece is lane `x 1` of the load. -/
theorem cast_lane {α : Type} (V : S1x1x1x16.Idx → α) (h1 : S1x1x1x16.ShapeCasts S16) (h2 : S16.ShapeCasts S1x16) (x : S1x16.Idx) :
    ∃ x' : S1x1x1x16.Idx, (x' 3).val = (x 1).val ∧ shapeCast S1x16 (shapeCast S16 V h1) h2 x = V x' :=
  ⟨Shape.reshapeEquiv h1 (Shape.reshapeEquiv h2 x), cast_idx0 x, rfl⟩

theorem piece_val {d : Dev nD} (L : grid0.Coords) (fI : Buf (Elt F) (iLoc d)) (fT : Buf (Elt F) (tLoc d))
    (hidx : ∀ j : S16384.Idx, (fI j).toNat ≤ 999999) (g1 g2 : S512.Idx → BitVec 32)
    (hg1 : g1 = G1 (F := F) L fI) (hg2 : g2 = G2 (F := F) L fI)
    (h j : Nat) (inb : ∀ a, (![h, j, 0, 0] : Fin 4 → Nat) a + S1x1x8x64.size a ≤ S2x16x8x64.size a)
    (X : Buf (Elt F) ((thr d L).loc cc0_scratch4)) (n : Nat) (hn : n < 512)
    (w : BitVec 32) (hw : ∀ a, (![w.toNat, 0] : Fin 2 → Nat) a + S8x64.size a ≤ S1000000x64.size a)
    (hwn : w = g1 (ValueIdx.ix1 ⟨n, hn⟩)) (r : BitVec 32) (hrn : r = g2 (ValueIdx.ix1 ⟨n, hn⟩))
    (c : Nat) (off4 : Fin 4 → Nat) (hoff4 : off4 = ![h, j, (Scalar.indexCast r).toNat, c])
    (inb4 : ∀ a, off4 a + S1x1x1x16.size a ≤ S2x16x8x64.size a)
    (off2 : Fin 2 → Nat) (hoff2 : off2 = ![n, c]) (inb2 : ∀ a, off2 a + S1x16.size a ≤ S512x64.size a)
    (h1 : S1x1x1x16.ShapeCasts S16) (h2 : S16.ShapeCasts S1x16) (x : S1x16.Idx) :
    shapeCast S1x16 (shapeCast S16 (View.readAt (Elt F) (s4 : Memref sig .scVector .vmem S2x16x8x64 .f32).view
        (Rect.unit (s := S2x16x8x64) off4 S1x1x1x16.size inb4).toLoadRect
        ((ringSlot h j inb).view.writes (Elt F) X [⟨Rect.whole S8x64, ReadAs.same.apply (View.read (Elt F) (slabM w hw).view fT)⟩])) h1) h2 x
      = Gtab (F := F) L fI fT hidx ((Rect.unit (s := S512x64) off2 S1x16.size inb2).emb x) := by
  subst hoff4 hoff2
  obtain ⟨x', hx', e⟩ := cast_lane (View.readAt (Elt F) (s4 : Memref sig .scVector .vmem S2x16x8x64 .f32).view
        (Rect.unit (s := S2x16x8x64) ![h, j, (Scalar.indexCast r).toNat, c] S1x1x1x16.size inb4).toLoadRect
        ((ringSlot h j inb).view.writes (Elt F) X [⟨Rect.whole S8x64, ReadAs.same.apply (View.read (Elt F) (slabM w hw).view fT)⟩])) h1 h2 x
  rw [e]
  have hv : (idxRun (F := F) L fI (ValueIdx.ix1 ⟨n, hn⟩)).toNat < 1000000 :=
    Nat.lt_of_le_of_lt (idxRun_le L fI hidx _) (by norm_num)
  have hw1 : w = idxRun (F := F) L fI (ValueIdx.ix1 ⟨n, hn⟩) &&& 4294967288#32 := by rw [hwn, hg1]; rfl
  have hr1 : (Scalar.indexCast r).toNat = (idxRun (F := F) L fI (ValueIdx.ix1 ⟨n, hn⟩) &&& 7#32).toNat := by rw [hrn, hg2]; rfl
  rw [row_value (F := F) (d := d) (L := L) h j inb X fT (idxRun (F := F) L fI (ValueIdx.ix1 ⟨n, hn⟩)) w _ hv hw1 hr1 hw c inb4 x']
  have hx0 : (x 0).val = 0 := by have := (x 0).isLt; simpa using this
  have e0 : ((Rect.unit (s := S512x64) ![n, c] S1x16.size inb2).emb x) 0 = (⟨n, hn⟩ : Fin 512) :=
    Fin.ext (by rw [Rect.emb_apply]; show n + 1 * (x 0).val = n; omega)
  have e1 : (((Rect.unit (s := S512x64) ![n, c] S1x16.size inb2).emb x) 1).val = c + (x' 3).val := by
    rw [Rect.emb_apply]; show c + 1 * (x 1).val = _; omega
  unfold Gtab
  show fT _ = fT _
  refine congrArg fT ?_
  funext a
  match a with
  | ⟨0, _⟩ => exact Fin.ext (by show _ = (idxRun (F := F) L fI (ValueIdx.ix1 (((Rect.unit (s := S512x64) ![n, c] S1x16.size inb2).emb x) 0))).toNat; rw [e0])
  | ⟨1, _⟩ => exact Fin.ext e1.symm

/-- Four 16-lane stores at columns 0, 16, 32, 48 of row `n`, each holding the table's row, finish row `n`. -/
theorem lane_done4 {d : Dev nD} (L : grid0.Coords) (fI : Buf (Elt F) (iLoc d)) (fT : Buf (Elt F) (tLoc d))
    (hidx : ∀ j : S16384.Idx, (fI j).toNat ≤ 999999) (n : Nat) (g3 : S512x64.Idx → Elt F .f32)
    (hD : Done (F := F) L fI fT n g3)
    (o0 o1 o2 o3 : Fin 2 → Nat) (ho0 : o0 = ![n, 0]) (ho1 : o1 = ![n, 16]) (ho2 : o2 = ![n, 32]) (ho3 : o3 = ![n, 48])
    (i0 : ∀ a, o0 a + S1x16.size a ≤ S512x64.size a) (i1 : ∀ a, o1 a + S1x16.size a ≤ S512x64.size a)
    (i2 : ∀ a, o2 a + S1x16.size a ≤ S512x64.size a) (i3 : ∀ a, o3 a + S1x16.size a ≤ S512x64.size a)
    (p0 p1 p2 p3 : S1x16.Idx → Elt F .f32)
    (hp0 : ∀ x, p0 x = Gtab (F := F) L fI fT hidx ((Rect.unit (s := S512x64) o0 S1x16.size i0).emb x))
    (hp1 : ∀ x, p1 x = Gtab (F := F) L fI fT hidx ((Rect.unit (s := S512x64) o1 S1x16.size i1).emb x))
    (hp2 : ∀ x, p2 x = Gtab (F := F) L fI fT hidx ((Rect.unit (s := S512x64) o2 S1x16.size i2).emb x))
    (hp3 : ∀ x, p3 x = Gtab (F := F) L fI fT hidx ((Rect.unit (s := S512x64) o3 S1x16.size i3).emb x)) :
    Done (F := F) L fI fT (n + 1) ((s3 : Memref sig .scVector .vmem S512x64 .f32).view.writes (Elt F) g3
      [⟨Rect.unit (s := S512x64) o3 S1x16.size i3, p3⟩, ⟨Rect.unit (s := S512x64) o2 S1x16.size i2, p2⟩,
       ⟨Rect.unit (s := S512x64) o1 S1x16.size i1, p1⟩, ⟨Rect.unit (s := S512x64) o0 S1x16.size i0, p0⟩]) := by
  subst ho0 ho1 ho2 ho3
  have hmem : ∀ (c : Nat) (ic : ∀ a, (![n, c] : Fin 2 → Nat) a + S1x16.size a ≤ S512x64.size a) (y : S512x64.Idx),
      y ∈ (Rect.unit (s := S512x64) ![n, c] S1x16.size ic).set ↔ (y 0).val = n ∧ c ≤ (y 1).val ∧ (y 1).val < c + 16 := by
    intro c ic y
    rw [LoadRect.mem_set]
    constructor
    · intro h
      obtain ⟨j0, hj0, e0⟩ := h 0
      obtain ⟨j1, hj1, e1⟩ := h 1
      have hj0' : j0 < 1 := hj0
      have hj1' : j1 < 16 := hj1
      have e0' : (y 0).val = n + 1 * j0 := e0
      have e1' : (y 1).val = c + 1 * j1 := e1
      omega
    · rintro ⟨h0, h1, h2⟩ a
      match a with
      | ⟨0, _⟩ => exact ⟨0, by show 0 < 1; omega, by show (y 0).val = n + 1 * 0; omega⟩
      | ⟨1, _⟩ => exact ⟨(y 1).val - c, by show (y 1).val - c < 16; omega, by show (y 1).val = c + 1 * ((y 1).val - c); omega⟩
  refine lane_done (F := F) L fI fT hidx n g3 hD _ ?_ ?_ ?_
  · intro p hp
    simp only [List.mem_cons, List.not_mem_nil, or_false] at hp
    rcases hp with rfl | rfl | rfl | rfl
    · exact hp3
    · exact hp2
    · exact hp1
    · exact hp0
  · intro p hp y hy
    simp only [List.mem_cons, List.not_mem_nil, or_false] at hp
    rcases hp with rfl | rfl | rfl | rfl
    · exact ((hmem 48 i3 y).mp hy).1
    · exact ((hmem 32 i2 y).mp hy).1
    · exact ((hmem 16 i1 y).mp hy).1
    · exact ((hmem 0 i0 y).mp hy).1
  · intro y hy
    have hy1 : (y 1).val < 64 := (y 1).isLt
    by_cases h16 : (y 1).val < 16
    · exact ⟨_, List.mem_cons_of_mem _ (List.mem_cons_of_mem _ (List.mem_cons_of_mem _ List.mem_cons_self)), (hmem 0 i0 y).mpr ⟨hy, by omega, by omega⟩⟩
    · by_cases h32 : (y 1).val < 32
      · exact ⟨_, List.mem_cons_of_mem _ (List.mem_cons_of_mem _ List.mem_cons_self), (hmem 16 i1 y).mpr ⟨hy, by omega, by omega⟩⟩
      · by_cases h48 : (y 1).val < 48
        · exact ⟨_, List.mem_cons_of_mem _ List.mem_cons_self, (hmem 32 i2 y).mpr ⟨hy, by omega, by omega⟩⟩
        · exact ⟨_, List.mem_cons_self, (hmem 48 i3 y).mpr ⟨hy, by omega, by omega⟩⟩

theorem lane_done4' {d : Dev nD} (L : grid0.Coords) (fI : Buf (Elt F) (iLoc d)) (fT : Buf (Elt F) (tLoc d))
    (hidx : ∀ j : S16384.Idx, (fI j).toNat ≤ 999999) (n m : Nat) (hm : m = n + 1) (g3 : S512x64.Idx → Elt F .f32)
    (hD : Done (F := F) L fI fT n g3)
    (o0 o1 o2 o3 : Fin 2 → Nat) (ho0 : o0 = ![n, 0]) (ho1 : o1 = ![n, 16]) (ho2 : o2 = ![n, 32]) (ho3 : o3 = ![n, 48])
    (i0 : ∀ a, o0 a + S1x16.size a ≤ S512x64.size a) (i1 : ∀ a, o1 a + S1x16.size a ≤ S512x64.size a)
    (i2 : ∀ a, o2 a + S1x16.size a ≤ S512x64.size a) (i3 : ∀ a, o3 a + S1x16.size a ≤ S512x64.size a)
    (p0 p1 p2 p3 : S1x16.Idx → Elt F .f32)
    (hp0 : ∀ x, p0 x = Gtab (F := F) L fI fT hidx ((Rect.unit (s := S512x64) o0 S1x16.size i0).emb x))
    (hp1 : ∀ x, p1 x = Gtab (F := F) L fI fT hidx ((Rect.unit (s := S512x64) o1 S1x16.size i1).emb x))
    (hp2 : ∀ x, p2 x = Gtab (F := F) L fI fT hidx ((Rect.unit (s := S512x64) o2 S1x16.size i2).emb x))
    (hp3 : ∀ x, p3 x = Gtab (F := F) L fI fT hidx ((Rect.unit (s := S512x64) o3 S1x16.size i3).emb x)) :
    Done (F := F) L fI fT m ((s3 : Memref sig .scVector .vmem S512x64 .f32).view.writes (Elt F) g3
      [⟨Rect.unit (s := S512x64) o3 S1x16.size i3, p3⟩, ⟨Rect.unit (s := S512x64) o2 S1x16.size i2, p2⟩,
       ⟨Rect.unit (s := S512x64) o1 S1x16.size i1, p1⟩, ⟨Rect.unit (s := S512x64) o0 S1x16.size i0, p0⟩]) :=
  hm ▸ lane_done4 (F := F) L fI fT hidx n g3 hD o0 o1 o2 o3 ho0 ho1 ho2 ho3 i0 i1 i2 i3 p0 p1 p2 p3 hp0 hp1 hp2 hp3

end Cert.KITile

end
-- ==== Proof.Offs.lean ====
import proofs.«207235_g30958124269674_cont_8to1_b_889_24_alg».proof.Proof.Piece

/-! Where a trip reads and writes: trip `k` picks rows `32 k … 32 k + 31` of the run and fetches groups `2 k + 2`, `2 k + 3`. -/

noncomputable section

namespace Cert.KITile

open Cert.KernelIdeal Cert.KernelIdeal.Gen
open Idealize.ShloMosaic

theorem off34 : ∀ k : Fin k0_t1_loop.trips, k0_off34 k 0 = 32 * k.val := by decide +kernel
theorem off180 : ∀ k : Fin k0_t1_loop.trips, k0_off180 k 0 = 32 * k.val + 16 := by decide +kernel
theorem off163 : ∀ k : Fin k0_t1_loop.trips, k0_off163 k 0 = 32 * k.val + 32 := by decide +kernel
theorem off309 : ∀ k : Fin k0_t1_loop.trips, k0_off309 k 0 = 32 * k.val + 48 := by decide +kernel
theorem trips_le : ∀ k : Fin k0_t1_loop.trips, k.val < 16 := by decide +kernel

theorem offS_36_c : ∀ k : Fin k0_t1_loop.trips, k0_off36 k 0 = 32 * k.val + 0 ∧ k0_off36 k 1 = 0 := by decide +kernel
theorem offS_36 (k : Fin k0_t1_loop.trips) : k0_off36 k = ![32 * k.val + 0, 0] := fin2_eq _ _ _ (offS_36_c k).1 (offS_36_c k).2
theorem offS_38_c : ∀ k : Fin k0_t1_loop.trips, k0_off38 k 0 = 32 * k.val + 0 ∧ k0_off38 k 1 = 16 := by decide +kernel
theorem offS_38 (k : Fin k0_t1_loop.trips) : k0_off38 k = ![32 * k.val + 0, 16] := fin2_eq _ _ _ (offS_38_c k).1 (offS_38_c k).2
theorem offS_40_c : ∀ k : Fin k0_t1_loop.trips, k0_off40 k 0 = 32 * k.val + 0 ∧ k0_off40 k 1 = 32 := by decide +kernel
theorem offS_40 (k : Fin k0_t1_loop.trips) : k0_off40 k = ![32 * k.val + 0, 32] := fin2_eq _ _ _ (offS_40_c k).1 (offS_40_c k).2
theorem offS_42_c : ∀ k : Fin k0_t1_loop.trips, k0_off42 k 0 = 32 * k.val + 0 ∧ k0_off42 k 1 = 48 := by decide +kernel
theorem offS_42 (k : Fin k0_t1_loop.trips) : k0_off42 k = ![32 * k.val + 0, 48] := fin2_eq _ _ _ (offS_42_c k).1 (offS_42_c k).2
theorem offS_44_c : ∀ k : Fin k0_t1_loop.trips, k0_off44 k 0 = 32 * k.val + 1 ∧ k0_off44 k 1 = 0 := by decide +kernel
theorem offS_44 (k : Fin k0_t1_loop.trips) : k0_off44 k = ![32 * k.val + 1, 0] := fin2_eq _ _ _ (offS_44_c k).1 (offS_44_c k).2
theorem offS_46_c : ∀ k : Fin k0_t1_loop.trips, k0_off46 k 0 = 32 * k.val + 1 ∧ k0_off46 k 1 = 16 := by decide +kernel
theorem offS_46 (k : Fin k0_t1_loop.trips) : k0_off46 k = ![32 * k.val + 1, 16] := fin2_eq _ _ _ (offS_46_c k).1 (offS_46_c k).2
theorem offS_48_c : ∀ k : Fin k0_t1_loop.trips, k0_off48 k 0 = 32 * k.val + 1 ∧ k0_off48 k 1 = 32 := by decide +kernel
theorem offS_48 (k : Fin k0_t1_loop.trips) : k0_off48 k = ![32 * k.val + 1, 32] := fin2_eq _ _ _ (offS_48_c k).1 (offS_48_c k).2
theorem offS_50_c : ∀ k : Fin k0_t1_loop.trips, k0_off50 k 0 = 32 * k.val + 1 ∧ k0_off50 k 1 = 48 := by decide +kernel
theorem offS_50 (k : Fin k0_t1_loop.trips) : k0_off50 k = ![32 * k.val + 1, 48] := fin2_eq _ _ _ (offS_50_c k).1 (offS_50_c k).2
theorem offS_52_c : ∀ k : Fin k0_t1_loop.trips, k0_off52 k 0 = 32 * k.val + 2 ∧ k0_off52 k 1 = 0 := by decide +kernel
theorem offS_52 (k : Fin k0_t1_loop.trips) : k0_off52 k = ![32 * k.val + 2, 0] := fin2_eq _ _ _ (offS_52_c k).1 (offS_52_c k).2
theorem offS_54_c : ∀ k : Fin k0_t1_loop.trips, k0_off54 k 0 = 32 * k.val + 2 ∧ k0_off54 k 1 = 16 := by decide +kernel
theorem offS_54 (k : Fin k0_t1_loop.trips) : k0_off54 k = ![32 * k.val + 2, 16] := fin2_eq _ _ _ (offS_54_c k).1 (offS_54_c k).2
theorem offS_56_c : ∀ k : Fin k0_t1_loop.trips, k0_off56 k 0 = 32 * k.val + 2 ∧ k0_off56 k 1 = 32 := by decide +kernel
theorem offS_56 (k : Fin k0_t1_loop.trips) : k0_off56 k = ![32 * k.val + 2, 32] := fin2_eq _ _ _ (offS_56_c k).1 (offS_56_c k).2
theorem offS_58_c : ∀ k : Fin k0_t1_loop.trips, k0_off58 k 0 = 32 * k.val + 2 ∧ k0_off58 k 1 = 48 := by decide +kernel
theorem offS_58 (k : Fin k0_t1_loop.trips) : k0_off58 k = ![32 * k.val + 2, 48] := fin2_eq _ _ _ (offS_58_c k).1 (offS_58_c k).2
theorem offS_60_c : ∀ k : Fin k0_t1_loop.trips, k0_off60 k 0 = 32 * k.val + 3 ∧ k0_off60 k 1 = 0 := by decide +kernel
theorem offS_60 (k : Fin k0_t1_loop.trips) : k0_off60 k = ![32 * k.val + 3, 0] := fin2_eq _ _ _ (offS_60_c k).1 (offS_60_c k).2
theorem offS_62_c : ∀ k : Fin k0_t1_loop.trips, k0_off62 k 0 = 32 * k.val + 3 ∧ k0_off62 k 1 = 16 := by decide +kernel
theorem offS_62 (k : Fin k0_t1_loop.trips) : k0_off62 k = ![32 * k.val + 3, 16] := fin2_eq _ _ _ (offS_62_c k).1 (offS_62_c k).2
theorem offS_64_c : ∀ k : Fin k0_t1_loop.trips, k0_off64 k 0 = 32 * k.val + 3 ∧ k0_off64 k 1 = 32 := by decide +kernel
theorem offS_64 (k : Fin k0_t1_loop.trips) : k0_off64 k = ![32 * k.val + 3, 32] := fin2_eq _ _ _ (offS_64_c k).1 (offS_64_c k).2
theorem offS_66_c : ∀ k : Fin k0_t1_loop.trips, k0_off66 k 0 = 32 * k.val + 3 ∧ k0_off66 k 1 = 48 := by decide +kernel
theorem offS_66 (k : Fin k0_t1_loop.trips) : k0_off66 k = ![32 * k.val + 3, 48] := fin2_eq _ _ _ (offS_66_c k).1 (offS_66_c k).2
theorem offS_68_c : ∀ k : Fin k0_t1_loop.trips, k0_off68 k 0 = 32 * k.val + 4 ∧ k0_off68 k 1 = 0 := by decide +kernel
theorem offS_68 (k : Fin k0_t1_loop.trips) : k0_off68 k = ![32 * k.val + 4, 0] := fin2_eq _ _ _ (offS_68_c k).1 (offS_68_c k).2
theorem offS_70_c : ∀ k : Fin k0_t1_loop.trips, k0_off70 k 0 = 32 * k.val + 4 ∧ k0_off70 k 1 = 16 := by decide +kernel
theorem offS_70 (k : Fin k0_t1_loop.trips) : k0_off70 k = ![32 * k.val + 4, 16] := fin2_eq _ _ _ (offS_70_c k).1 (offS_70_c k).2
theorem offS_72_c : ∀ k : Fin k0_t1_loop.trips, k0_off72 k 0 = 32 * k.val + 4 ∧ k0_off72 k 1 = 32 := by decide +kernel
theorem offS_72 (k : Fin k0_t1_loop.trips) : k0_off72 k = ![32 * k.val + 4, 32] := fin2_eq _ _ _ (offS_72_c k).1 (offS_72_c k).2
theorem offS_74_c : ∀ k : Fin k0_t1_loop.trips, k0_off74 k 0 = 32 * k.val + 4 ∧ k0_off74 k 1 = 48 := by decide +kernel
theorem offS_74 (k : Fin k0_t1_loop.trips) : k0_off74 k = ![32 * k.val + 4, 48] := fin2_eq _ _ _ (offS_74_c k).1 (offS_74_c k).2
theorem offS_76_c : ∀ k : Fin k0_t1_loop.trips, k0_off76 k 0 = 32 * k.val + 5 ∧ k0_off76 k 1 = 0 := by decide +kernel
theorem offS_76 (k : Fin k0_t1_loop.trips) : k0_off76 k = ![32 * k.val + 5, 0] := fin2_eq _ _ _ (offS_76_c k).1 (offS_76_c k).2
theorem offS_78_c : ∀ k : Fin k0_t1_loop.trips, k0_off78 k 0 = 32 * k.val + 5 ∧ k0_off78 k 1 = 16 := by decide +kernel
theorem offS_78 (k : Fin k0_t1_loop.trips) : k0_off78 k = ![32 * k.val + 5, 16] := fin2_eq _ _ _ (offS_78_c k).1 (offS_78_c k).2
theorem offS_80_c : ∀ k : Fin k0_t1_loop.trips, k0_off80 k 0 = 32 * k.val + 5 ∧ k0_off80 k 1 = 32 := by decide +kernel
theorem offS_80 (k : Fin k0_t1_loop.trips) : k0_off80 k = ![32 * k.val + 5, 32] := fin2_eq _ _ _ (offS_80_c k).1 (offS_80_c k).2
theorem offS_82_c : ∀ k : Fin k0_t1_loop.trips, k0_off82 k 0 = 32 * k.val + 5 ∧ k0_off82 k 1 = 48 := by decide +kernel
theorem offS_82 (k : Fin k0_t1_loop.trips) : k0_off82 k = ![32 * k.val + 5, 48] := fin2_eq _ _ _ (offS_82_c k).1 (offS_82_c k).2
theorem offS_84_c : ∀ k : Fin k0_t1_loop.trips, k0_off84 k 0 = 32 * k.val + 6 ∧ k0_off84 k 1 = 0 := by decide +kernel
theorem offS_84 (k : Fin k0_t1_loop.trips) : k0_off84 k = ![32 * k.val + 6, 0] := fin2_eq _ _ _ (offS_84_c k).1 (offS_84_c k).2
theorem offS_86_c : ∀ k : Fin k0_t1_loop.trips, k0_off86 k 0 = 32 * k.val + 6 ∧ k0_off86 k 1 = 16 := by decide +kernel
theorem offS_86 (k : Fin k0_t1_loop.trips) : k0_off86 k = ![32 * k.val + 6, 16] := fin2_eq _ _ _ (offS_86_c k).1 (offS_86_c k).2
theorem offS_88_c : ∀ k : Fin k0_t1_loop.trips, k0_off88 k 0 = 32 * k.val + 6 ∧ k0_off88 k 1 = 32 := by decide +kernel
theorem offS_88 (k : Fin k0_t1_loop.trips) : k0_off88 k = ![32 * k.val + 6, 32] := fin2_eq _ _ _ (offS_88_c k).1 (offS_88_c k).2
theorem offS_90_c : ∀ k : Fin k0_t1_loop.trips, k0_off90 k 0 = 32 * k.val + 6 ∧ k0_off90 k 1 = 48 := by decide +kernel
theorem offS_90 (k : Fin k0_t1_loop.trips) : k0_off90 k = ![32 * k.val + 6, 48] := fin2_eq _ _ _ (offS_90_c k).1 (offS_90_c k).2
theorem offS_92_c : ∀ k : Fin k0_t1_loop.trips, k0_off92 k 0 = 32 * k.val + 7 ∧ k0_off92 k 1 = 0 := by decide +kernel
theorem offS_92 (k : Fin k0_t1_loop.trips) : k0_off92 k = ![32 * k.val + 7, 0] := fin2_eq _ _ _ (offS_92_c k).1 (offS_92_c k).2
theorem offS_94_c : ∀ k : Fin k0_t1_loop.trips, k0_off94 k 0 = 32 * k.val + 7 ∧ k0_off94 k 1 = 16 := by decide +kernel
theorem offS_94 (k : Fin k0_t1_loop.trips) : k0_off94 k = ![32 * k.val + 7, 16] := fin2_eq _ _ _ (offS_94_c k).1 (offS_94_c k).2
theorem offS_96_c : ∀ k : Fin k0_t1_loop.trips, k0_off96 k 0 = 32 * k.val + 7 ∧ k0_off96 k 1 = 32 := by decide +kernel
theorem offS_96 (k : Fin k0_t1_loop.trips) : k0_off96 k = ![32 * k.val + 7, 32] := fin2_eq _ _ _ (offS_96_c k).1 (offS_96_c k).2
theorem offS_98_c : ∀ k : Fin k0_t1_loop.trips, k0_off98 k 0 = 32 * k.val + 7 ∧ k0_off98 k 1 = 48 := by decide +kernel
theorem offS_98 (k : Fin k0_t1_loop.trips) : k0_off98 k = ![32 * k.val + 7, 48] := fin2_eq _ _ _ (offS_98_c k).1 (offS_98_c k).2
theorem offS_100_c : ∀ k : Fin k0_t1_loop.trips, k0_off100 k 0 = 32 * k.val + 8 ∧ k0_off100 k 1 = 0 := by decide +kernel
theorem offS_100 (k : Fin k0_t1_loop.trips) : k0_off100 k = ![32 * k.val + 8, 0] := fin2_eq _ _ _ (offS_100_c k).1 (offS_100_c k).2
theorem offS_102_c : ∀ k : Fin k0_t1_loop.trips, k0_off102 k 0 = 32 * k.val + 8 ∧ k0_off102 k 1 = 16 := by decide +kernel
theorem offS_102 (k : Fin k0_t1_loop.trips) : k0_off102 k = ![32 * k.val + 8, 16] := fin2_eq _ _ _ (offS_102_c k).1 (offS_102_c k).2
theorem offS_104_c : ∀ k : Fin k0_t1_loop.trips, k0_off104 k 0 = 32 * k.val + 8 ∧ k0_off104 k 1 = 32 := by decide +kernel
theorem offS_104 (k : Fin k0_t1_loop.trips) : k0_off104 k = ![32 * k.val + 8, 32] := fin2_eq _ _ _ (offS_104_c k).1 (offS_104_c k).2
theorem offS_106_c : ∀ k : Fin k0_t1_loop.trips, k0_off106 k 0 = 32 * k.val + 8 ∧ k0_off106 k 1 = 48 := by decide +kernel
theorem offS_106 (k : Fin k0_t1_loop.trips) : k0_off106 k = ![32 * k.val + 8, 48] := fin2_eq _ _ _ (offS_106_c k).1 (offS_106_c k).2
theorem offS_108_c : ∀ k : Fin k0_t1_loop.trips, k0_off108 k 0 = 32 * k.val + 9 ∧ k0_off108 k 1 = 0 := by decide +kernel
theorem offS_108 (k : Fin k0_t1_loop.trips) : k0_off108 k = ![32 * k.val + 9, 0] := fin2_eq _ _ _ (offS_108_c k).1 (offS_108_c k).2
theorem offS_110_c : ∀ k : Fin k0_t1_loop.trips, k0_off110 k 0 = 32 * k.val + 9 ∧ k0_off110 k 1 = 16 := by decide +kernel
theorem offS_110 (k : Fin k0_t1_loop.trips) : k0_off110 k = ![32 * k.val + 9, 16] := fin2_eq _ _ _ (offS_110_c k).1 (offS_110_c k).2
theorem offS_112_c : ∀ k : Fin k0_t1_loop.trips, k0_off112 k 0 = 32 * k.val + 9 ∧ k0_off112 k 1 = 32 := by decide +kernel
theorem offS_112 (k : Fin k0_t1_loop.trips) : k0_off112 k = ![32 * k.val + 9, 32] := fin2_eq _ _ _ (offS_112_c k).1 (offS_112_c k).2
theorem offS_114_c : ∀ k : Fin k0_t1_loop.trips, k0_off114 k 0 = 32 * k.val + 9 ∧ k0_off114 k 1 = 48 := by decide +kernel
theorem offS_114 (k : Fin k0_t1_loop.trips) : k0_off114 k = ![32 * k.val + 9, 48] := fin2_eq _ _ _ (offS_114_c k).1 (offS_114_c k).2
theorem offS_116_c : ∀ k : Fin k0_t1_loop.trips, k0_off116 k 0 = 32 * k.val + 10 ∧ k0_off116 k 1 = 0 := by decide +kernel
theorem offS_116 (k : Fin k0_t1_loop.trips) : k0_off116 k = ![32 * k.val + 10, 0] := fin2_eq _ _ _ (offS_116_c k).1 (offS_116_c k).2
theorem offS_118_c : ∀ k : Fin k0_t1_loop.trips, k0_off118 k 0 = 32 * k.val + 10 ∧ k0_off118 k 1 = 16 := by decide +kernel
theorem offS_118 (k : Fin k0_t1_loop.trips) : k0_off118 k = ![32 * k.val + 10, 16] := fin2_eq _ _ _ (offS_118_c k).1 (offS_118_c k).2
theorem offS_120_c : ∀ k : Fin k0_t1_loop.trips, k0_off120 k 0 = 32 * k.val + 10 ∧ k0_off120 k 1 = 32 := by decide +kernel
theorem offS_120 (k : Fin k0_t1_loop.trips) : k0_off120 k = ![32 * k.val + 10, 32] := fin2_eq _ _ _ (offS_120_c k).1 (offS_120_c k).2
theorem offS_122_c : ∀ k : Fin k0_t1_loop.trips, k0_off122 k 0 = 32 * k.val + 10 ∧ k0_off122 k 1 = 48 := by decide +kernel
theorem offS_122 (k : Fin k0_t1_loop.trips) : k0_off122 k = ![32 * k.val + 10, 48] := fin2_eq _ _ _ (offS_122_c k).1 (offS_122_c k).2
theorem offS_124_c : ∀ k : Fin k0_t1_loop.trips, k0_off124 k 0 = 32 * k.val + 11 ∧ k0_off124 k 1 = 0 := by decide +kernel
theorem offS_124 (k : Fin k0_t1_loop.trips) : k0_off124 k = ![32 * k.val + 11, 0] := fin2_eq _ _ _ (offS_124_c k).1 (offS_124_c k).2
theorem offS_126_c : ∀ k : Fin k0_t1_loop.trips, k0_off126 k 0 = 32 * k.val + 11 ∧ k0_off126 k 1 = 16 := by decide +kernel
theorem offS_126 (k : Fin k0_t1_loop.trips) : k0_off126 k = ![32 * k.val + 11, 16] := fin2_eq _ _ _ (offS_126_c k).1 (offS_126_c k).2
theorem offS_128_c : ∀ k : Fin k0_t1_loop.trips, k0_off128 k 0 = 32 * k.val + 11 ∧ k0_off128 k 1 = 32 := by decide +kernel
theorem offS_128 (k : Fin k0_t1_loop.trips) : k0_off128 k = ![32 * k.val + 11, 32] := fin2_eq _ _ _ (offS_128_c k).1 (offS_128_c k).2
theorem offS_130_c : ∀ k : Fin k0_t1_loop.trips, k0_off130 k 0 = 32 * k.val + 11 ∧ k0_off130 k 1 = 48 := by decide +kernel
theorem offS_130 (k : Fin k0_t1_loop.trips) : k0_off130 k = ![32 * k.val + 11, 48] := fin2_eq _ _ _ (offS_130_c k).1 (offS_130_c k).2
theorem offS_132_c : ∀ k : Fin k0_t1_loop.trips, k0_off132 k 0 = 32 * k.val + 12 ∧ k0_off132 k 1 = 0 := by decide +kernel
theorem offS_132 (k : Fin k0_t1_loop.trips) : k0_off132 k = ![32 * k.val + 12, 0] := fin2_eq _ _ _ (offS_132_c k).1 (offS_132_c k).2
theorem offS_134_c : ∀ k : Fin k0_t1_loop.trips, k0_off134 k 0 = 32 * k.val + 12 ∧ k0_off134 k 1 = 16 := by decide +kernel
theorem offS_134 (k : Fin k0_t1_loop.trips) : k0_off134 k = ![32 * k.val + 12, 16] := fin2_eq _ _ _ (offS_134_c k).1 (offS_134_c k).2
theorem offS_136_c : ∀ k : Fin k0_t1_loop.trips, k0_off136 k 0 = 32 * k.val + 12 ∧ k0_off136 k 1 = 32 := by decide +kernel
theorem offS_136 (k : Fin k0_t1_loop.trips) : k0_off136 k = ![32 * k.val + 12, 32] := fin2_eq _ _ _ (offS_136_c k).1 (offS_136_c k).2
theorem offS_138_c : ∀ k : Fin k0_t1_loop.trips, k0_off138 k 0 = 32 * k.val + 12 ∧ k0_off138 k 1 = 48 := by decide +kernel
theorem offS_138 (k : Fin k0_t1_loop.trips) : k0_off138 k = ![32 * k.val + 12, 48] := fin2_eq _ _ _ (offS_138_c k).1 (offS_138_c k).2
theorem offS_140_c : ∀ k : Fin k0_t1_loop.trips, k0_off140 k 0 = 32 * k.val + 13 ∧ k0_off140 k 1 = 0 := by decide +kernel
theorem offS_140 (k : Fin k0_t1_loop.trips) : k0_off140 k = ![32 * k.val + 13, 0] := fin2_eq _ _ _ (offS_140_c k).1 (offS_140_c k).2
theorem offS_142_c : ∀ k : Fin k0_t1_loop.trips, k0_off142 k 0 = 32 * k.val + 13 ∧ k0_off142 k 1 = 16 := by decide +kernel
theorem offS_142 (k : Fin k0_t1_loop.trips) : k0_off142 k = ![32 * k.val + 13, 16] := fin2_eq _ _ _ (offS_142_c k).1 (offS_142_c k).2
theorem offS_144_c : ∀ k : Fin k0_t1_loop.trips, k0_off144 k 0 = 32 * k.val + 13 ∧ k0_off144 k 1 = 32 := by decide +kernel
theorem offS_144 (k : Fin k0_t1_loop.trips) : k0_off144 k = ![32 * k.val + 13, 32] := fin2_eq _ _ _ (offS_144_c k).1 (offS_144_c k).2
theorem offS_146_c : ∀ k : Fin k0_t1_loop.trips, k0_off146 k 0 = 32 * k.val + 13 ∧ k0_off146 k 1 = 48 := by decide +kernel
theorem offS_146 (k : Fin k0_t1_loop.trips) : k0_off146 k = ![32 * k.val + 13, 48] := fin2_eq _ _ _ (offS_146_c k).1 (offS_146_c k).2
theorem offS_148_c : ∀ k : Fin k0_t1_loop.trips, k0_off148 k 0 = 32 * k.val + 14 ∧ k0_off148 k 1 = 0 := by decide +kernel
theorem offS_148 (k : Fin k0_t1_loop.trips) : k0_off148 k = ![32 * k.val + 14, 0] := fin2_eq _ _ _ (offS_148_c k).1 (offS_148_c k).2
theorem offS_150_c : ∀ k : Fin k0_t1_loop.trips, k0_off150 k 0 = 32 * k.val + 14 ∧ k0_off150 k 1 = 16 := by decide +kernel
theorem offS_150 (k : Fin k0_t1_loop.trips) : k0_off150 k = ![32 * k.val + 14, 16] := fin2_eq _ _ _ (offS_150_c k).1 (offS_150_c k).2
theorem offS_152_c : ∀ k : Fin k0_t1_loop.trips, k0_off152 k 0 = 32 * k.val + 14 ∧ k0_off152 k 1 = 32 := by decide +kernel
theorem offS_152 (k : Fin k0_t1_loop.trips) : k0_off152 k = ![32 * k.val + 14, 32] := fin2_eq _ _ _ (offS_152_c k).1 (offS_152_c k).2
theorem offS_154_c : ∀ k : Fin k0_t1_loop.trips, k0_off154 k 0 = 32 * k.val + 14 ∧ k0_off154 k 1 = 48 := by decide +kernel
theorem offS_154 (k : Fin k0_t1_loop.trips) : k0_off154 k = ![32 * k.val + 14, 48] := fin2_eq _ _ _ (offS_154_c k).1 (offS_154_c k).2
theorem offS_156_c : ∀ k : Fin k0_t1_loop.trips, k0_off156 k 0 = 32 * k.val + 15 ∧ k0_off156 k 1 = 0 := by decide +kernel
theorem offS_156 (k : Fin k0_t1_loop.trips) : k0_off156 k = ![32 * k.val + 15, 0] := fin2_eq _ _ _ (offS_156_c k).1 (offS_156_c k).2
theorem offS_158_c : ∀ k : Fin k0_t1_loop.trips, k0_off158 k 0 = 32 * k.val + 15 ∧ k0_off158 k 1 = 16 := by decide +kernel
theorem offS_158 (k : Fin k0_t1_loop.trips) : k0_off158 k = ![32 * k.val + 15, 16] := fin2_eq _ _ _ (offS_158_c k).1 (offS_158_c k).2
theorem offS_160_c : ∀ k : Fin k0_t1_loop.trips, k0_off160 k 0 = 32 * k.val + 15 ∧ k0_off160 k 1 = 32 := by decide +kernel
theorem offS_160 (k : Fin k0_t1_loop.trips) : k0_off160 k = ![32 * k.val + 15, 32] := fin2_eq _ _ _ (offS_160_c k).1 (offS_160_c k).2
theorem offS_162_c : ∀ k : Fin k0_t1_loop.trips, k0_off162 k 0 = 32 * k.val + 15 ∧ k0_off162 k 1 = 48 := by decide +kernel
theorem offS_162 (k : Fin k0_t1_loop.trips) : k0_off162 k = ![32 * k.val + 15, 48] := fin2_eq _ _ _ (offS_162_c k).1 (offS_162_c k).2
theorem offS_182_c : ∀ k : Fin k0_t1_loop.trips, k0_off182 k 0 = 32 * k.val + 16 ∧ k0_off182 k 1 = 0 := by decide +kernel
theorem offS_182 (k : Fin k0_t1_loop.trips) : k0_off182 k = ![32 * k.val + 16, 0] := fin2_eq _ _ _ (offS_182_c k).1 (offS_182_c k).2
theorem offS_184_c : ∀ k : Fin k0_t1_loop.trips, k0_off184 k 0 = 32 * k.val + 16 ∧ k0_off184 k 1 = 16 := by decide +kernel
theorem offS_184 (k : Fin k0_t1_loop.trips) : k0_off184 k = ![32 * k.val + 16, 16] := fin2_eq _ _ _ (offS_184_c k).1 (offS_184_c k).2
theorem offS_186_c : ∀ k : Fin k0_t1_loop.trips, k0_off186 k 0 = 32 * k.val + 16 ∧ k0_off186 k 1 = 32 := by decide +kernel
theorem offS_186 (k : Fin k0_t1_loop.trips) : k0_off186 k = ![32 * k.val + 16, 32] := fin2_eq _ _ _ (offS_186_c k).1 (offS_186_c k).2
theorem offS_188_c : ∀ k : Fin k0_t1_loop.trips, k0_off188 k 0 = 32 * k.val + 16 ∧ k0_off188 k 1 = 48 := by decide +kernel
theorem offS_188 (k : Fin k0_t1_loop.trips) : k0_off188 k = ![32 * k.val + 16, 48] := fin2_eq _ _ _ (offS_188_c k).1 (offS_188_c k).2
theorem offS_190_c : ∀ k : Fin k0_t1_loop.trips, k0_off190 k 0 = 32 * k.val + 17 ∧ k0_off190 k 1 = 0 := by decide +kernel
theorem offS_190 (k : Fin k0_t1_loop.trips) : k0_off190 k = ![32 * k.val + 17, 0] := fin2_eq _ _ _ (offS_190_c k).1 (offS_190_c k).2
theorem offS_192_c : ∀ k : Fin k0_t1_loop.trips, k0_off192 k 0 = 32 * k.val + 17 ∧ k0_off192 k 1 = 16 := by decide +kernel
theorem offS_192 (k : Fin k0_t1_loop.trips) : k0_off192 k = ![32 * k.val + 17, 16] := fin2_eq _ _ _ (offS_192_c k).1 (offS_192_c k).2
theorem offS_194_c : ∀ k : Fin k0_t1_loop.trips, k0_off194 k 0 = 32 * k.val + 17 ∧ k0_off194 k 1 = 32 := by decide +kernel
theorem offS_194 (k : Fin k0_t1_loop.trips) : k0_off194 k = ![32 * k.val + 17, 32] := fin2_eq _ _ _ (offS_194_c k).1 (offS_194_c k).2
theorem offS_196_c : ∀ k : Fin k0_t1_loop.trips, k0_off196 k 0 = 32 * k.val + 17 ∧ k0_off196 k 1 = 48 := by decide +kernel
theorem offS_196 (k : Fin k0_t1_loop.trips) : k0_off196 k = ![32 * k.val + 17, 48] := fin2_eq _ _ _ (offS_196_c k).1 (offS_196_c k).2
theorem offS_198_c : ∀ k : Fin k0_t1_loop.trips, k0_off198 k 0 = 32 * k.val + 18 ∧ k0_off198 k 1 = 0 := by decide +kernel
theorem offS_198 (k : Fin k0_t1_loop.trips) : k0_off198 k = ![32 * k.val + 18, 0] := fin2_eq _ _ _ (offS_198_c k).1 (offS_198_c k).2
theorem offS_200_c : ∀ k : Fin k0_t1_loop.trips, k0_off200 k 0 = 32 * k.val + 18 ∧ k0_off200 k 1 = 16 := by decide +kernel
theorem offS_200 (k : Fin k0_t1_loop.trips) : k0_off200 k = ![32 * k.val + 18, 16] := fin2_eq _ _ _ (offS_200_c k).1 (offS_200_c k).2
theorem offS_202_c : ∀ k : Fin k0_t1_loop.trips, k0_off202 k 0 = 32 * k.val + 18 ∧ k0_off202 k 1 = 32 := by decide +kernel
theorem offS_202 (k : Fin k0_t1_loop.trips) : k0_off202 k = ![32 * k.val + 18, 32] := fin2_eq _ _ _ (offS_202_c k).1 (offS_202_c k).2
theorem offS_204_c : ∀ k : Fin k0_t1_loop.trips, k0_off204 k 0 = 32 * k.val + 18 ∧ k0_off204 k 1 = 48 := by decide +kernel
theorem offS_204 (k : Fin k0_t1_loop.trips) : k0_off204 k = ![32 * k.val + 18, 48] := fin2_eq _ _ _ (offS_204_c k).1 (offS_204_c k).2
theorem offS_206_c : ∀ k : Fin k0_t1_loop.trips, k0_off206 k 0 = 32 * k.val + 19 ∧ k0_off206 k 1 = 0 := by decide +kernel
theorem offS_206 (k : Fin k0_t1_loop.trips) : k0_off206 k = ![32 * k.val + 19, 0] := fin2_eq _ _ _ (offS_206_c k).1 (offS_206_c k).2
theorem offS_208_c : ∀ k : Fin k0_t1_loop.trips, k0_off208 k 0 = 32 * k.val + 19 ∧ k0_off208 k 1 = 16 := by decide +kernel
theorem offS_208 (k : Fin k0_t1_loop.trips) : k0_off208 k = ![32 * k.val + 19, 16] := fin2_eq _ _ _ (offS_208_c k).1 (offS_208_c k).2
theorem offS_210_c : ∀ k : Fin k0_t1_loop.trips, k0_off210 k 0 = 32 * k.val + 19 ∧ k0_off210 k 1 = 32 := by decide +kernel
theorem offS_210 (k : Fin k0_t1_loop.trips) : k0_off210 k = ![32 * k.val + 19, 32] := fin2_eq _ _ _ (offS_210_c k).1 (offS_210_c k).2
theorem offS_212_c : ∀ k : Fin k0_t1_loop.trips, k0_off212 k 0 = 32 * k.val + 19 ∧ k0_off212 k 1 = 48 := by decide +kernel
theorem offS_212 (k : Fin k0_t1_loop.trips) : k0_off212 k = ![32 * k.val + 19, 48] := fin2_eq _ _ _ (offS_212_c k).1 (offS_212_c k).2
theorem offS_214_c : ∀ k : Fin k0_t1_loop.trips, k0_off214 k 0 = 32 * k.val + 20 ∧ k0_off214 k 1 = 0 := by decide +kernel
theorem offS_214 (k : Fin k0_t1_loop.trips) : k0_off214 k = ![32 * k.val + 20, 0] := fin2_eq _ _ _ (offS_214_c k).1 (offS_214_c k).2
theorem offS_216_c : ∀ k : Fin k0_t1_loop.trips, k0_off216 k 0 = 32 * k.val + 20 ∧ k0_off216 k 1 = 16 := by decide +kernel
theorem offS_216 (k : Fin k0_t1_loop.trips) : k0_off216 k = ![32 * k.val + 20, 16] := fin2_eq _ _ _ (offS_216_c k).1 (offS_216_c k).2
theorem offS_218_c : ∀ k : Fin k0_t1_loop.trips, k0_off218 k 0 = 32 * k.val + 20 ∧ k0_off218 k 1 = 32 := by decide +kernel
theorem offS_218 (k : Fin k0_t1_loop.trips) : k0_off218 k = ![32 * k.val + 20, 32] := fin2_eq _ _ _ (offS_218_c k).1 (offS_218_c k).2
theorem offS_220_c : ∀ k : Fin k0_t1_loop.trips, k0_off220 k 0 = 32 * k.val + 20 ∧ k0_off220 k 1 = 48 := by decide +kernel
theorem offS_220 (k : Fin k0_t1_loop.trips) : k0_off220 k = ![32 * k.val + 20, 48] := fin2_eq _ _ _ (offS_220_c k).1 (offS_220_c k).2
theorem offS_222_c : ∀ k : Fin k0_t1_loop.trips, k0_off222 k 0 = 32 * k.val + 21 ∧ k0_off222 k 1 = 0 := by decide +kernel
theorem offS_222 (k : Fin k0_t1_loop.trips) : k0_off222 k = ![32 * k.val + 21, 0] := fin2_eq _ _ _ (offS_222_c k).1 (offS_222_c k).2
theorem offS_224_c : ∀ k : Fin k0_t1_loop.trips, k0_off224 k 0 = 32 * k.val + 21 ∧ k0_off224 k 1 = 16 := by decide +kernel
theorem offS_224 (k : Fin k0_t1_loop.trips) : k0_off224 k = ![32 * k.val + 21, 16] := fin2_eq _ _ _ (offS_224_c k).1 (offS_224_c k).2
theorem offS_226_c : ∀ k : Fin k0_t1_loop.trips, k0_off226 k 0 = 32 * k.val + 21 ∧ k0_off226 k 1 = 32 := by decide +kernel
theorem offS_226 (k : Fin k0_t1_loop.trips) : k0_off226 k = ![32 * k.val + 21, 32] := fin2_eq _ _ _ (offS_226_c k).1 (offS_226_c k).2
theorem offS_228_c : ∀ k : Fin k0_t1_loop.trips, k0_off228 k 0 = 32 * k.val + 21 ∧ k0_off228 k 1 = 48 := by decide +kernel
theorem offS_228 (k : Fin k0_t1_loop.trips) : k0_off228 k = ![32 * k.val + 21, 48] := fin2_eq _ _ _ (offS_228_c k).1 (offS_228_c k).2
theorem offS_230_c : ∀ k : Fin k0_t1_loop.trips, k0_off230 k 0 = 32 * k.val + 22 ∧ k0_off230 k 1 = 0 := by decide +kernel
theorem offS_230 (k : Fin k0_t1_loop.trips) : k0_off230 k = ![32 * k.val + 22, 0] := fin2_eq _ _ _ (offS_230_c k).1 (offS_230_c k).2
theorem offS_232_c : ∀ k : Fin k0_t1_loop.trips, k0_off232 k 0 = 32 * k.val + 22 ∧ k0_off232 k 1 = 16 := by decide +kernel
theorem offS_232 (k : Fin k0_t1_loop.trips) : k0_off232 k = ![32 * k.val + 22, 16] := fin2_eq _ _ _ (offS_232_c k).1 (offS_232_c k).2
theorem offS_234_c : ∀ k : Fin k0_t1_loop.trips, k0_off234 k 0 = 32 * k.val + 22 ∧ k0_off234 k 1 = 32 := by decide +kernel
theorem offS_234 (k : Fin k0_t1_loop.trips) : k0_off234 k = ![32 * k.val + 22, 32] := fin2_eq _ _ _ (offS_234_c k).1 (offS_234_c k).2
theorem offS_236_c : ∀ k : Fin k0_t1_loop.trips, k0_off236 k 0 = 32 * k.val + 22 ∧ k0_off236 k 1 = 48 := by decide +kernel
theorem offS_236 (k : Fin k0_t1_loop.trips) : k0_off236 k = ![32 * k.val + 22, 48] := fin2_eq _ _ _ (offS_236_c k).1 (offS_236_c k).2
theorem offS_238_c : ∀ k : Fin k0_t1_loop.trips, k0_off238 k 0 = 32 * k.val + 23 ∧ k0_off238 k 1 = 0 := by decide +kernel
theorem offS_238 (k : Fin k0_t1_loop.trips) : k0_off238 k = ![32 * k.val + 23, 0] := fin2_eq _ _ _ (offS_238_c k).1 (offS_238_c k).2
theorem offS_240_c : ∀ k : Fin k0_t1_loop.trips, k0_off240 k 0 = 32 * k.val + 23 ∧ k0_off240 k 1 = 16 := by decide +kernel
theorem offS_240 (k : Fin k0_t1_loop.trips) : k0_off240 k = ![32 * k.val + 23, 16] := fin2_eq _ _ _ (offS_240_c k).1 (offS_240_c k).2
theorem offS_242_c : ∀ k : Fin k0_t1_loop.trips, k0_off242 k 0 = 32 * k.val + 23 ∧ k0_off242 k 1 = 32 := by decide +kernel
theorem offS_242 (k : Fin k0_t1_loop.trips) : k0_off242 k = ![32 * k.val + 23, 32] := fin2_eq _ _ _ (offS_242_c k).1 (offS_242_c k).2
theorem offS_244_c : ∀ k : Fin k0_t1_loop.trips, k0_off244 k 0 = 32 * k.val + 23 ∧ k0_off244 k 1 = 48 := by decide +kernel
theorem offS_244 (k : Fin k0_t1_loop.trips) : k0_off244 k = ![32 * k.val + 23, 48] := fin2_eq _ _ _ (offS_244_c k).1 (offS_244_c k).2
theorem offS_246_c : ∀ k : Fin k0_t1_loop.trips, k0_off246 k 0 = 32 * k.val + 24 ∧ k0_off246 k 1 = 0 := by decide +kernel
theorem offS_246 (k : Fin k0_t1_loop.trips) : k0_off246 k = ![32 * k.val + 24, 0] := fin2_eq _ _ _ (offS_246_c k).1 (offS_246_c k).2
theorem offS_248_c : ∀ k : Fin k0_t1_loop.trips, k0_off248 k 0 = 32 * k.val + 24 ∧ k0_off248 k 1 = 16 := by decide +kernel
theorem offS_248 (k : Fin k0_t1_loop.trips) : k0_off248 k = ![32 * k.val + 24, 16] := fin2_eq _ _ _ (offS_248_c k).1 (offS_248_c k).2
theorem offS_250_c : ∀ k : Fin k0_t1_loop.trips, k0_off250 k 0 = 32 * k.val + 24 ∧ k0_off250 k 1 = 32 := by decide +kernel
theorem offS_250 (k : Fin k0_t1_loop.trips) : k0_off250 k = ![32 * k.val + 24, 32] := fin2_eq _ _ _ (offS_250_c k).1 (offS_250_c k).2
theorem offS_252_c : ∀ k : Fin k0_t1_loop.trips, k0_off252 k 0 = 32 * k.val + 24 ∧ k0_off252 k 1 = 48 := by decide +kernel
theorem offS_252 (k : Fin k0_t1_loop.trips) : k0_off252 k = ![32 * k.val + 24, 48] := fin2_eq _ _ _ (offS_252_c k).1 (offS_252_c k).2
theorem offS_254_c : ∀ k : Fin k0_t1_loop.trips, k0_off254 k 0 = 32 * k.val + 25 ∧ k0_off254 k 1 = 0 := by decide +kernel
theorem offS_254 (k : Fin k0_t1_loop.trips) : k0_off254 k = ![32 * k.val + 25, 0] := fin2_eq _ _ _ (offS_254_c k).1 (offS_254_c k).2
theorem offS_256_c : ∀ k : Fin k0_t1_loop.trips, k0_off256 k 0 = 32 * k.val + 25 ∧ k0_off256 k 1 = 16 := by decide +kernel
theorem offS_256 (k : Fin k0_t1_loop.trips) : k0_off256 k = ![32 * k.val + 25, 16] := fin2_eq _ _ _ (offS_256_c k).1 (offS_256_c k).2
theorem offS_258_c : ∀ k : Fin k0_t1_loop.trips, k0_off258 k 0 = 32 * k.val + 25 ∧ k0_off258 k 1 = 32 := by decide +kernel
theorem offS_258 (k : Fin k0_t1_loop.trips) : k0_off258 k = ![32 * k.val + 25, 32] := fin2_eq _ _ _ (offS_258_c k).1 (offS_258_c k).2
theorem offS_260_c : ∀ k : Fin k0_t1_loop.trips, k0_off260 k 0 = 32 * k.val + 25 ∧ k0_off260 k 1 = 48 := by decide +kernel
theorem offS_260 (k : Fin k0_t1_loop.trips) : k0_off260 k = ![32 * k.val + 25, 48] := fin2_eq _ _ _ (offS_260_c k).1 (offS_260_c k).2
theorem offS_262_c : ∀ k : Fin k0_t1_loop.trips, k0_off262 k 0 = 32 * k.val + 26 ∧ k0_off262 k 1 = 0 := by decide +kernel
theorem offS_262 (k : Fin k0_t1_loop.trips) : k0_off262 k = ![32 * k.val + 26, 0] := fin2_eq _ _ _ (offS_262_c k).1 (offS_262_c k).2
theorem offS_264_c : ∀ k : Fin k0_t1_loop.trips, k0_off264 k 0 = 32 * k.val + 26 ∧ k0_off264 k 1 = 16 := by decide +kernel
theorem offS_264 (k : Fin k0_t1_loop.trips) : k0_off264 k = ![32 * k.val + 26, 16] := fin2_eq _ _ _ (offS_264_c k).1 (offS_264_c k).2
theorem offS_266_c : ∀ k : Fin k0_t1_loop.trips, k0_off266 k 0 = 32 * k.val + 26 ∧ k0_off266 k 1 = 32 := by decide +kernel
theorem offS_266 (k : Fin k0_t1_loop.trips) : k0_off266 k = ![32 * k.val + 26, 32] := fin2_eq _ _ _ (offS_266_c k).1 (offS_266_c k).2
theorem offS_268_c : ∀ k : Fin k0_t1_loop.trips, k0_off268 k 0 = 32 * k.val + 26 ∧ k0_off268 k 1 = 48 := by decide +kernel
theorem offS_268 (k : Fin k0_t1_loop.trips) : k0_off268 k = ![32 * k.val + 26, 48] := fin2_eq _ _ _ (offS_268_c k).1 (offS_268_c k).2
theorem offS_270_c : ∀ k : Fin k0_t1_loop.trips, k0_off270 k 0 = 32 * k.val + 27 ∧ k0_off270 k 1 = 0 := by decide +kernel
theorem offS_270 (k : Fin k0_t1_loop.trips) : k0_off270 k = ![32 * k.val + 27, 0] := fin2_eq _ _ _ (offS_270_c k).1 (offS_270_c k).2
theorem offS_272_c : ∀ k : Fin k0_t1_loop.trips, k0_off272 k 0 = 32 * k.val + 27 ∧ k0_off272 k 1 = 16 := by decide +kernel
theorem offS_272 (k : Fin k0_t1_loop.trips) : k0_off272 k = ![32 * k.val + 27, 16] := fin2_eq _ _ _ (offS_272_c k).1 (offS_272_c k).2
theorem offS_274_c : ∀ k : Fin k0_t1_loop.trips, k0_off274 k 0 = 32 * k.val + 27 ∧ k0_off274 k 1 = 32 := by decide +kernel
theorem offS_274 (k : Fin k0_t1_loop.trips) : k0_off274 k = ![32 * k.val + 27, 32] := fin2_eq _ _ _ (offS_274_c k).1 (offS_274_c k).2
theorem offS_276_c : ∀ k : Fin k0_t1_loop.trips, k0_off276 k 0 = 32 * k.val + 27 ∧ k0_off276 k 1 = 48 := by decide +kernel
theorem offS_276 (k : Fin k0_t1_loop.trips) : k0_off276 k = ![32 * k.val + 27, 48] := fin2_eq _ _ _ (offS_276_c k).1 (offS_276_c k).2
theorem offS_278_c : ∀ k : Fin k0_t1_loop.trips, k0_off278 k 0 = 32 * k.val + 28 ∧ k0_off278 k 1 = 0 := by decide +kernel
theorem offS_278 (k : Fin k0_t1_loop.trips) : k0_off278 k = ![32 * k.val + 28, 0] := fin2_eq _ _ _ (offS_278_c k).1 (offS_278_c k).2
theorem offS_280_c : ∀ k : Fin k0_t1_loop.trips, k0_off280 k 0 = 32 * k.val + 28 ∧ k0_off280 k 1 = 16 := by decide +kernel
theorem offS_280 (k : Fin k0_t1_loop.trips) : k0_off280 k = ![32 * k.val + 28, 16] := fin2_eq _ _ _ (offS_280_c k).1 (offS_280_c k).2
theorem offS_282_c : ∀ k : Fin k0_t1_loop.trips, k0_off282 k 0 = 32 * k.val + 28 ∧ k0_off282 k 1 = 32 := by decide +kernel
theorem offS_282 (k : Fin k0_t1_loop.trips) : k0_off282 k = ![32 * k.val + 28, 32] := fin2_eq _ _ _ (offS_282_c k).1 (offS_282_c k).2
theorem offS_284_c : ∀ k : Fin k0_t1_loop.trips, k0_off284 k 0 = 32 * k.val + 28 ∧ k0_off284 k 1 = 48 := by decide +kernel
theorem offS_284 (k : Fin k0_t1_loop.trips) : k0_off284 k = ![32 * k.val + 28, 48] := fin2_eq _ _ _ (offS_284_c k).1 (offS_284_c k).2
theorem offS_286_c : ∀ k : Fin k0_t1_loop.trips, k0_off286 k 0 = 32 * k.val + 29 ∧ k0_off286 k 1 = 0 := by decide +kernel
theorem offS_286 (k : Fin k0_t1_loop.trips) : k0_off286 k = ![32 * k.val + 29, 0] := fin2_eq _ _ _ (offS_286_c k).1 (offS_286_c k).2
theorem offS_288_c : ∀ k : Fin k0_t1_loop.trips, k0_off288 k 0 = 32 * k.val + 29 ∧ k0_off288 k 1 = 16 := by decide +kernel
theorem offS_288 (k : Fin k0_t1_loop.trips) : k0_off288 k = ![32 * k.val + 29, 16] := fin2_eq _ _ _ (offS_288_c k).1 (offS_288_c k).2
theorem offS_290_c : ∀ k : Fin k0_t1_loop.trips, k0_off290 k 0 = 32 * k.val + 29 ∧ k0_off290 k 1 = 32 := by decide +kernel
theorem offS_290 (k : Fin k0_t1_loop.trips) : k0_off290 k = ![32 * k.val + 29, 32] := fin2_eq _ _ _ (offS_290_c k).1 (offS_290_c k).2
theorem offS_292_c : ∀ k : Fin k0_t1_loop.trips, k0_off292 k 0 = 32 * k.val + 29 ∧ k0_off292 k 1 = 48 := by decide +kernel
theorem offS_292 (k : Fin k0_t1_loop.trips) : k0_off292 k = ![32 * k.val + 29, 48] := fin2_eq _ _ _ (offS_292_c k).1 (offS_292_c k).2
theorem offS_294_c : ∀ k : Fin k0_t1_loop.trips, k0_off294 k 0 = 32 * k.val + 30 ∧ k0_off294 k 1 = 0 := by decide +kernel
theorem offS_294 (k : Fin k0_t1_loop.trips) : k0_off294 k = ![32 * k.val + 30, 0] := fin2_eq _ _ _ (offS_294_c k).1 (offS_294_c k).2
theorem offS_296_c : ∀ k : Fin k0_t1_loop.trips, k0_off296 k 0 = 32 * k.val + 30 ∧ k0_off296 k 1 = 16 := by decide +kernel
theorem offS_296 (k : Fin k0_t1_loop.trips) : k0_off296 k = ![32 * k.val + 30, 16] := fin2_eq _ _ _ (offS_296_c k).1 (offS_296_c k).2
theorem offS_298_c : ∀ k : Fin k0_t1_loop.trips, k0_off298 k 0 = 32 * k.val + 30 ∧ k0_off298 k 1 = 32 := by decide +kernel
theorem offS_298 (k : Fin k0_t1_loop.trips) : k0_off298 k = ![32 * k.val + 30, 32] := fin2_eq _ _ _ (offS_298_c k).1 (offS_298_c k).2
theorem offS_300_c : ∀ k : Fin k0_t1_loop.trips, k0_off300 k 0 = 32 * k.val + 30 ∧ k0_off300 k 1 = 48 := by decide +kernel
theorem offS_300 (k : Fin k0_t1_loop.trips) : k0_off300 k = ![32 * k.val + 30, 48] := fin2_eq _ _ _ (offS_300_c k).1 (offS_300_c k).2
theorem offS_302_c : ∀ k : Fin k0_t1_loop.trips, k0_off302 k 0 = 32 * k.val + 31 ∧ k0_off302 k 1 = 0 := by decide +kernel
theorem offS_302 (k : Fin k0_t1_loop.trips) : k0_off302 k = ![32 * k.val + 31, 0] := fin2_eq _ _ _ (offS_302_c k).1 (offS_302_c k).2
theorem offS_304_c : ∀ k : Fin k0_t1_loop.trips, k0_off304 k 0 = 32 * k.val + 31 ∧ k0_off304 k 1 = 16 := by decide +kernel
theorem offS_304 (k : Fin k0_t1_loop.trips) : k0_off304 k = ![32 * k.val + 31, 16] := fin2_eq _ _ _ (offS_304_c k).1 (offS_304_c k).2
theorem offS_306_c : ∀ k : Fin k0_t1_loop.trips, k0_off306 k 0 = 32 * k.val + 31 ∧ k0_off306 k 1 = 32 := by decide +kernel
theorem offS_306 (k : Fin k0_t1_loop.trips) : k0_off306 k = ![32 * k.val + 31, 32] := fin2_eq _ _ _ (offS_306_c k).1 (offS_306_c k).2
theorem offS_308_c : ∀ k : Fin k0_t1_loop.trips, k0_off308 k 0 = 32 * k.val + 31 ∧ k0_off308 k 1 = 48 := by decide +kernel
theorem offS_308 (k : Fin k0_t1_loop.trips) : k0_off308 k = ![32 * k.val + 31, 48] := fin2_eq _ _ _ (offS_308_c k).1 (offS_308_c k).2

theorem wAt_eq (g1 : S512.Idx → BitVec 32) (g j n : Nat) (hn : n < 512) (e : 16 * g + j = n) :
    wAt g1 g j = g1 (ValueIdx.ix1 ⟨n, hn⟩) := by
  subst e
  unfold wAt
  refine congrArg g1 (congrArg ValueIdx.ix1 (Fin.ext ?_))
  simp [Fin.ofNat, Nat.mod_eq_of_lt hn]

end Cert.KITile

end
-- ==== Proof.RegionA.lean ====
import proofs.«207235_g30958124269674_cont_8to1_b_889_24_alg».proof.Proof.Inv
import proofs.«207235_g30958124269674_cont_8to1_b_889_24_alg».proof.Proof.Value
import proofs.«207235_g30958124269674_cont_8to1_b_889_24_alg».proof.Proof.Convert
import proofs.«207235_g30958124269674_cont_8to1_b_889_24_alg».proof.Proof.Offs

/-! One trip of the loop keeps the invariant: the first half's slabs land, their sixteen rows are picked into the row
    scratch, the next group is fetched into the first half (unless this is the last trip); the same for the second half. -/

noncomputable section

namespace Cert.KITile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The slab check at a word `w'` that is `w` under a wrapper. -/
theorem slab_ok' (w w' : BitVec 32) (e : w' = w) (h : Slab w) :
    (8 ∣ w'.toNat) ∧ (∀ a, (![w.toNat, 0] : Fin 2 → Nat) a + S8x64.size a ≤ S1000000x64.size a) :=
  e ▸ slab_ok w h

theorem slab_ok_g' (C : Prop) (w w' : BitVec 32) (e : w' = w) (h : Slab w) :
    (∀ _ : C, 8 ∣ w'.toNat) ∧ (∀ _ : C, ∀ a, (![w.toNat, 0] : Fin 2 → Nat) a + S8x64.size a ≤ S1000000x64.size a) :=
  e ▸ slab_ok_g C w h

/-- The row check at a word under the index cast. -/
theorem row_ok4' (h k : Nat) (hh : h < 2) (hk : k < 16) (w : BitVec 32) (w' : Index) (e : w' = Scalar.indexCast w) (hr : w.toNat < 8) :
    (∀ a, (![h, k, w'.toNat, 0] : Fin 4 → Nat) a + S1x1x1x16.size a ≤ S2x16x8x64.size a) ∧
    (∀ a, (![h, k, w'.toNat, 16] : Fin 4 → Nat) a + S1x1x1x16.size a ≤ S2x16x8x64.size a) ∧
    (∀ a, (![h, k, w'.toNat, 32] : Fin 4 → Nat) a + S1x1x1x16.size a ≤ S2x16x8x64.size a) ∧
    (∀ a, (![h, k, w'.toNat, 48] : Fin 4 → Nat) a + S1x1x1x16.size a ≤ S2x16x8x64.size a) :=
  e ▸ row_ok4 h k hh hk _ hr

theorem hc1all : ∀ k : Fin k0_t1_loop.trips, k.val < 15 → k0_cond1 k = 1#1 := by decide +kernel
theorem hc2all : ∀ k : Fin k0_t1_loop.trips, k.val < 15 → k0_cond2 k = 1#1 := by decide +kernel

theorem writes_pair {sig' : RefSig} {κ : Kind} {sp : Space} {s : Shape} {e : EltTy} (v : View sig' κ sp s e)
    (f : v.ty.Contents (Elt F)) (a b : View.Piece (Elt F) s e) :
    v.writes (Elt F) f [a, b] = v.writes (Elt F) (v.writes (Elt F) f [b]) [a] := rfl

set_option maxHeartbeats 4000000 in
theorem region_lt {d : Dev nD} (L : grid0.Coords) (q : PosShare TreeShare) (O : CellTallies nD τ sig (HIx 1)) (W : Waits sig (HIx 1))
    (fI : Buf (Elt F) (iLoc d)) (fT : Buf (Elt F) (tLoc d)) (fO : Buf (Elt F) (oLoc d))
    (f4 : Buf (Elt F) ((thr d L).loc cc0_scratch4)) (g1 g2 : S512.Idx → BitVec 32)
    (hS1 : ∀ p, Slab (g1 p)) (hR2 : ∀ p, (g2 p).toNat < 8)
    (hidx : ∀ j : S16384.Idx, (fI j).toNat ≤ 999999) (hg1 : g1 = G1 (F := F) L fI) (hg2 : g2 = G2 (F := F) L fI)
    (k : Fin k0_t1_loop.trips) (acc : PUnit) (hk15 : k.val < 15) :
    inv (F := F) d L q O W fI fT fO f4 g1 g2 hS1 k acc
      ⊢ wp frame (wpE (defs₀ (F := F)) 𝒱₀ (thr d L) none) Set.univ
          (k0_t1_body (F := F) L iV (Memref.isWhole_whole _) tV (Memref.isWhole_whole _) oV (Memref.isWhole_whole _)
            s0 (Memref.isWhole_whole _) s1 (Memref.isWhole_whole _) s2 (Memref.isWhole_whole _) s3 (Memref.isWhole_whole _)
            s4 (Memref.isWhole_whole _) cc0_scratch5 cc0_scratch6 cc0_scoped0 cc0_scoped1 (0#32) k acc)
          (inv (F := F) d L q O W fI fT fO f4 g1 g2 hS1 (k.val + 1)) := by
  have hk16 : k.val < 16 := trips_le k
  have hc1 := hc1all k hk15
  have hc2 := hc2all k hk15
  have hb10 : Transfers.BatchOf (thr d L) (SemLoc.dma cc0_scratch5.sem : SemLoc sig) 16 := trivial
  have hb11 : Transfers.BatchOf (thr d L) (SemLoc.dma cc0_scratch6.sem : SemLoc sig) 16 := trivial
  have hA' : ∀ (R : Rect S512) (h : R.shape.ShapeCasts S16) (j : Nat) (hS : S16.Slices ![j] S1) (h' : ∀ a, (![0] : Fin 1 → Nat) a < S1.size a),
      Slab (extractAt ![0] (extractStridedSlice S1 ![j] (shapeCast S16 (View.readAt (Elt F) s1.view R.toLoadRect g1) h) hS) h') :=
    fun R h j hS h' => lane_slab _ (fun x => hS1 _) j hS h'
  have hR' : ∀ (R : Rect S512) (h : R.shape.ShapeCasts S16) (j : Nat) (hS : S16.Slices ![j] S1) (h' : ∀ a, (![0] : Fin 1 → Nat) a < S1.size a),
      (extractAt ![0] (extractStridedSlice S1 ![j] (shapeCast S16 (View.readAt (Elt F) s2.view R.toLoadRect g2) h) hS) h').toNat < 8 :=
    fun R h j hS h' => lane_lt _ (fun x => hR2 _) j hS h'
  delta inv
  rw [if_pos hk16]
  delta invBase rests flight0 flight1
  iintro ⟨⟨#Hmw, Hi, Ho, ⟨%g0, H0⟩, H1, H2, ⟨%g3_0, %hD, H3⟩, Hs7, Hs8, ⟨%W', %hW', HO⟩⟩, ⟨-, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31⟩, Hs5, Hs6⟩
  have hD_0 : Done (F := F) L fI fT (32 * k.val + 0) g3_0 := hD
  sl_unfold [k0_t1_body]
  sl_exec_parts (disch := first | exact slab_ok_g' _ _ _ rfl (hA' _ _ _ _ _) | (refine row_ok4' _ _ ?_ ?_ _ _ rfl (hR' _ _ _ _ _) <;> decide))
  have hin : ∀ (r c : Nat) (inb : ∀ a, (![0, 0, r, c] : Fin 4 → Nat) a + S1x1x1x16.size a ≤ S2x16x8x64.size a),
      (s4 : Memref sig .scVector .vmem S2x16x8x64 .f32).view.setOn (Rect.unit (s := S2x16x8x64) ![0, 0, r, c] S1x1x1x16.size inb).set ⊆ slot0_0.view.set :=
    fun r c inb => row_in_slot 0 0 r c inb inb_S2x16x8x64_S1x1x8x64_0_0_0_0
  sl_exec_parts (disch := (refine row_ok4' _ _ ?_ ?_ _ _ rfl (hR' _ _ _ _ _) <;> decide))
  clear hin
  have hr_0_0 : region_lt.sl.v783 (F := F) g2 k = g2 (ValueIdx.ix1 ⟨32 * k.val + 0, by omega⟩) :=
    (word_of_load2 (F := F) g2 (k0_off34 k) _ 0 (by decide) _ _ _).trans
      (congrArg g2 (congrArg ValueIdx.ix1 (Fin.ext (by have h := off34 k; show k0_off34 k 0 + 0 = 32 * k.val + 0; omega))))
  generalize hq0 : View.writes (s3 : Memref sig .scVector .vmem S512x64 .f32).view (Elt F) g3_0 _ = g3_1
  have hD_1 : Done (F := F) L fI fT (32 * k.val + 1) g3_1 := by
    rw [← hq0]
    exact lane_done4' (F := F) L fI fT hidx (32 * k.val + 0) _ rfl g3_0 hD_0
      (k0_off36 k) (k0_off38 k) (k0_off40 k) (k0_off42 k) (offS_36 k) (offS_38 k) (offS_40 k) (offS_42 k) _ _ _ _ _ _ _ _
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 0 _ rfl _ _ (offS_36 k) _ _ _ x)
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 16 _ rfl _ _ (offS_38 k) _ _ _ x)
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 32 _ rfl _ _ (offS_40 k) _ _ _ x)
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 48 _ rfl _ _ (offS_42 k) _ _ _ x)
  clear hq0 hD_0 hr_0_0
  have hin : ∀ (r c : Nat) (inb : ∀ a, (![0, 1, r, c] : Fin 4 → Nat) a + S1x1x1x16.size a ≤ S2x16x8x64.size a),
      (s4 : Memref sig .scVector .vmem S2x16x8x64 .f32).view.setOn (Rect.unit (s := S2x16x8x64) ![0, 1, r, c] S1x1x1x16.size inb).set ⊆ slot0_1.view.set :=
    fun r c inb => row_in_slot 0 1 r c inb inb_S2x16x8x64_S1x1x8x64_0_1_0_0
  sl_exec_parts (disch := (refine row_ok4' _ _ ?_ ?_ _ _ rfl (hR' _ _ _ _ _) <;> decide))
  clear hin
  have hr_0_1 : region_lt.sl.v823 (F := F) g2 k = g2 (ValueIdx.ix1 ⟨32 * k.val + 1, by omega⟩) :=
    (word_of_load2 (F := F) g2 (k0_off34 k) _ 1 (by decide) _ _ _).trans
      (congrArg g2 (congrArg ValueIdx.ix1 (Fin.ext (by have h := off34 k; show k0_off34 k 0 + 1 = 32 * k.val + 1; omega))))
  generalize hq1 : View.writes (s3 : Memref sig .scVector .vmem S512x64 .f32).view (Elt F) g3_1 _ = g3_2
  have hD_2 : Done (F := F) L fI fT (32 * k.val + 2) g3_2 := by
    rw [← hq1]
    exact lane_done4' (F := F) L fI fT hidx (32 * k.val + 1) _ rfl g3_1 hD_1
      (k0_off44 k) (k0_off46 k) (k0_off48 k) (k0_off50 k) (offS_44 k) (offS_46 k) (offS_48 k) (offS_50 k) _ _ _ _ _ _ _ _
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 0 _ rfl _ _ (offS_44 k) _ _ _ x)
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 16 _ rfl _ _ (offS_46 k) _ _ _ x)
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 32 _ rfl _ _ (offS_48 k) _ _ _ x)
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 48 _ rfl _ _ (offS_50 k) _ _ _ x)
  clear hq1 hD_1 hr_0_1
  have hin : ∀ (r c : Nat) (inb : ∀ a, (![0, 2, r, c] : Fin 4 → Nat) a + S1x1x1x16.size a ≤ S2x16x8x64.size a),
      (s4 : Memref sig .scVector .vmem S2x16x8x64 .f32).view.setOn (Rect.unit (s := S2x16x8x64) ![0, 2, r, c] S1x1x1x16.size inb).set ⊆ slot0_2.view.set :=
    fun r c inb => row_in_slot 0 2 r c inb inb_S2x16x8x64_S1x1x8x64_0_2_0_0
  sl_exec_parts (disch := (refine row_ok4' _ _ ?_ ?_ _ _ rfl (hR' _ _ _ _ _) <;> decide))
  clear hin
  have hr_0_2 : region_lt.sl.v863 (F := F) g2 k = g2 (ValueIdx.ix1 ⟨32 * k.val + 2, by omega⟩) :=
    (word_of_load2 (F := F) g2 (k0_off34 k) _ 2 (by decide) _ _ _).trans
      (congrArg g2 (congrArg ValueIdx.ix1 (Fin.ext (by have h := off34 k; show k0_off34 k 0 + 2 = 32 * k.val + 2; omega))))
  generalize hq2 : View.writes (s3 : Memref sig .scVector .vmem S512x64 .f32).view (Elt F) g3_2 _ = g3_3
  have hD_3 : Done (F := F) L fI fT (32 * k.val + 3) g3_3 := by
    rw [← hq2]
    exact lane_done4' (F := F) L fI fT hidx (32 * k.val + 2) _ rfl g3_2 hD_2
      (k0_off52 k) (k0_off54 k) (k0_off56 k) (k0_off58 k) (offS_52 k) (offS_54 k) (offS_56 k) (offS_58 k) _ _ _ _ _ _ _ _
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 0 _ rfl _ _ (offS_52 k) _ _ _ x)
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 16 _ rfl _ _ (offS_54 k) _ _ _ x)
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 32 _ rfl _ _ (offS_56 k) _ _ _ x)
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 48 _ rfl _ _ (offS_58 k) _ _ _ x)
  clear hq2 hD_2 hr_0_2
  have hin : ∀ (r c : Nat) (inb : ∀ a, (![0, 3, r, c] : Fin 4 → Nat) a + S1x1x1x16.size a ≤ S2x16x8x64.size a),
      (s4 : Memref sig .scVector .vmem S2x16x8x64 .f32).view.setOn (Rect.unit (s := S2x16x8x64) ![0, 3, r, c] S1x1x1x16.size inb).set ⊆ slot0_3.view.set :=
    fun r c inb => row_in_slot 0 3 r c inb inb_S2x16x8x64_S1x1x8x64_0_3_0_0
  sl_exec_parts (disch := (refine row_ok4' _ _ ?_ ?_ _ _ rfl (hR' _ _ _ _ _) <;> decide))
  clear hin
  have hr_0_3 : region_lt.sl.v903 (F := F) g2 k = g2 (ValueIdx.ix1 ⟨32 * k.val + 3, by omega⟩) :=
    (word_of_load2 (F := F) g2 (k0_off34 k) _ 3 (by decide) _ _ _).trans
      (congrArg g2 (congrArg ValueIdx.ix1 (Fin.ext (by have h := off34 k; show k0_off34 k 0 + 3 = 32 * k.val + 3; omega))))
  generalize hq3 : View.writes (s3 : Memref sig .scVector .vmem S512x64 .f32).view (Elt F) g3_3 _ = g3_4
  have hD_4 : Done (F := F) L fI fT (32 * k.val + 4) g3_4 := by
    rw [← hq3]
    exact lane_done4' (F := F) L fI fT hidx (32 * k.val + 3) _ rfl g3_3 hD_3
      (k0_off60 k) (k0_off62 k) (k0_off64 k) (k0_off66 k) (offS_60 k) (offS_62 k) (offS_64 k) (offS_66 k) _ _ _ _ _ _ _ _
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 0 _ rfl _ _ (offS_60 k) _ _ _ x)
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 16 _ rfl _ _ (offS_62 k) _ _ _ x)
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 32 _ rfl _ _ (offS_64 k) _ _ _ x)
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 48 _ rfl _ _ (offS_66 k) _ _ _ x)
  clear hq3 hD_3 hr_0_3
  have hin : ∀ (r c : Nat) (inb : ∀ a, (![0, 4, r, c] : Fin 4 → Nat) a + S1x1x1x16.size a ≤ S2x16x8x64.size a),
      (s4 : Memref sig .scVector .vmem S2x16x8x64 .f32).view.setOn (Rect.unit (s := S2x16x8x64) ![0, 4, r, c] S1x1x1x16.size inb).set ⊆ slot0_4.view.set :=
    fun r c inb => row_in_slot 0 4 r c inb inb_S2x16x8x64_S1x1x8x64_0_4_0_0
  sl_exec_parts (disch := (refine row_ok4' _ _ ?_ ?_ _ _ rfl (hR' _ _ _ _ _) <;> decide))
  clear hin
  have hr_0_4 : region_lt.sl.v943 (F := F) g2 k = g2 (ValueIdx.ix1 ⟨32 * k.val + 4, by omega⟩) :=
    (word_of_load2 (F := F) g2 (k0_off34 k) _ 4 (by decide) _ _ _).trans
      (congrArg g2 (congrArg ValueIdx.ix1 (Fin.ext (by have h := off34 k; show k0_off34 k 0 + 4 = 32 * k.val + 4; omega))))
  generalize hq4 : View.writes (s3 : Memref sig .scVector .vmem S512x64 .f32).view (Elt F) g3_4 _ = g3_5
  have hD_5 : Done (F := F) L fI fT (32 * k.val + 5) g3_5 := by
    rw [← hq4]
    exact lane_done4' (F := F) L fI fT hidx (32 * k.val + 4) _ rfl g3_4 hD_4
      (k0_off68 k) (k0_off70 k) (k0_off72 k) (k0_off74 k) (offS_68 k) (offS_70 k) (offS_72 k) (offS_74 k) _ _ _ _ _ _ _ _
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 0 _ rfl _ _ (offS_68 k) _ _ _ x)
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 16 _ rfl _ _ (offS_70 k) _ _ _ x)
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 32 _ rfl _ _ (offS_72 k) _ _ _ x)
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 48 _ rfl _ _ (offS_74 k) _ _ _ x)
  clear hq4 hD_4 hr_0_4
  have hin : ∀ (r c : Nat) (inb : ∀ a, (![0, 5, r, c] : Fin 4 → Nat) a + S1x1x1x16.size a ≤ S2x16x8x64.size a),
      (s4 : Memref sig .scVector .vmem S2x16x8x64 .f32).view.setOn (Rect.unit (s := S2x16x8x64) ![0, 5, r, c] S1x1x1x16.size inb).set ⊆ slot0_5.view.set :=
    fun r c inb => row_in_slot 0 5 r c inb inb_S2x16x8x64_S1x1x8x64_0_5_0_0
  sl_exec_parts (disch := (refine row_ok4' _ _ ?_ ?_ _ _ rfl (hR' _ _ _ _ _) <;> decide))
  clear hin
  have hr_0_5 : region_lt.sl.v983 (F := F) g2 k = g2 (ValueIdx.ix1 ⟨32 * k.val + 5, by omega⟩) :=
    (word_of_load2 (F := F) g2 (k0_off34 k) _ 5 (by decide) _ _ _).trans
      (congrArg g2 (congrArg ValueIdx.ix1 (Fin.ext (by have h := off34 k; show k0_off34 k 0 + 5 = 32 * k.val + 5; omega))))
  generalize hq5 : View.writes (s3 : Memref sig .scVector .vmem S512x64 .f32).view (Elt F) g3_5 _ = g3_6
  have hD_6 : Done (F := F) L fI fT (32 * k.val + 6) g3_6 := by
    rw [← hq5]
    exact lane_done4' (F := F) L fI fT hidx (32 * k.val + 5) _ rfl g3_5 hD_5
      (k0_off76 k) (k0_off78 k) (k0_off80 k) (k0_off82 k) (offS_76 k) (offS_78 k) (offS_80 k) (offS_82 k) _ _ _ _ _ _ _ _
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 0 _ rfl _ _ (offS_76 k) _ _ _ x)
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 16 _ rfl _ _ (offS_78 k) _ _ _ x)
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 32 _ rfl _ _ (offS_80 k) _ _ _ x)
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 48 _ rfl _ _ (offS_82 k) _ _ _ x)
  clear hq5 hD_5 hr_0_5
  have hin : ∀ (r c : Nat) (inb : ∀ a, (![0, 6, r, c] : Fin 4 → Nat) a + S1x1x1x16.size a ≤ S2x16x8x64.size a),
      (s4 : Memref sig .scVector .vmem S2x16x8x64 .f32).view.setOn (Rect.unit (s := S2x16x8x64) ![0, 6, r, c] S1x1x1x16.size inb).set ⊆ slot0_6.view.set :=
    fun r c inb => row_in_slot 0 6 r c inb inb_S2x16x8x64_S1x1x8x64_0_6_0_0
  sl_exec_parts (disch := (refine row_ok4' _ _ ?_ ?_ _ _ rfl (hR' _ _ _ _ _) <;> decide))
  clear hin
  have hr_0_6 : region_lt.sl.v1023 (F := F) g2 k = g2 (ValueIdx.ix1 ⟨32 * k.val + 6, by omega⟩) :=
    (word_of_load2 (F := F) g2 (k0_off34 k) _ 6 (by decide) _ _ _).trans
      (congrArg g2 (congrArg ValueIdx.ix1 (Fin.ext (by have h := off34 k; show k0_off34 k 0 + 6 = 32 * k.val + 6; omega))))
  generalize hq6 : View.writes (s3 : Memref sig .scVector .vmem S512x64 .f32).view (Elt F) g3_6 _ = g3_7
  have hD_7 : Done (F := F) L fI fT (32 * k.val + 7) g3_7 := by
    rw [← hq6]
    exact lane_done4' (F := F) L fI fT hidx (32 * k.val + 6) _ rfl g3_6 hD_6
      (k0_off84 k) (k0_off86 k) (k0_off88 k) (k0_off90 k) (offS_84 k) (offS_86 k) (offS_88 k) (offS_90 k) _ _ _ _ _ _ _ _
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 0 _ rfl _ _ (offS_84 k) _ _ _ x)
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 16 _ rfl _ _ (offS_86 k) _ _ _ x)
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 32 _ rfl _ _ (offS_88 k) _ _ _ x)
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 48 _ rfl _ _ (offS_90 k) _ _ _ x)
  clear hq6 hD_6 hr_0_6
  have hin : ∀ (r c : Nat) (inb : ∀ a, (![0, 7, r, c] : Fin 4 → Nat) a + S1x1x1x16.size a ≤ S2x16x8x64.size a),
      (s4 : Memref sig .scVector .vmem S2x16x8x64 .f32).view.setOn (Rect.unit (s := S2x16x8x64) ![0, 7, r, c] S1x1x1x16.size inb).set ⊆ slot0_7.view.set :=
    fun r c inb => row_in_slot 0 7 r c inb inb_S2x16x8x64_S1x1x8x64_0_7_0_0
  sl_exec_parts (disch := (refine row_ok4' _ _ ?_ ?_ _ _ rfl (hR' _ _ _ _ _) <;> decide))
  clear hin
  have hr_0_7 : region_lt.sl.v1063 (F := F) g2 k = g2 (ValueIdx.ix1 ⟨32 * k.val + 7, by omega⟩) :=
    (word_of_load2 (F := F) g2 (k0_off34 k) _ 7 (by decide) _ _ _).trans
      (congrArg g2 (congrArg ValueIdx.ix1 (Fin.ext (by have h := off34 k; show k0_off34 k 0 + 7 = 32 * k.val + 7; omega))))
  generalize hq7 : View.writes (s3 : Memref sig .scVector .vmem S512x64 .f32).view (Elt F) g3_7 _ = g3_8
  have hD_8 : Done (F := F) L fI fT (32 * k.val + 8) g3_8 := by
    rw [← hq7]
    exact lane_done4' (F := F) L fI fT hidx (32 * k.val + 7) _ rfl g3_7 hD_7
      (k0_off92 k) (k0_off94 k) (k0_off96 k) (k0_off98 k) (offS_92 k) (offS_94 k) (offS_96 k) (offS_98 k) _ _ _ _ _ _ _ _
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 0 _ rfl _ _ (offS_92 k) _ _ _ x)
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 16 _ rfl _ _ (offS_94 k) _ _ _ x)
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 32 _ rfl _ _ (offS_96 k) _ _ _ x)
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 48 _ rfl _ _ (offS_98 k) _ _ _ x)
  clear hq7 hD_7 hr_0_7
  have hin : ∀ (r c : Nat) (inb : ∀ a, (![0, 8, r, c] : Fin 4 → Nat) a + S1x1x1x16.size a ≤ S2x16x8x64.size a),
      (s4 : Memref sig .scVector .vmem S2x16x8x64 .f32).view.setOn (Rect.unit (s := S2x16x8x64) ![0, 8, r, c] S1x1x1x16.size inb).set ⊆ slot0_8.view.set :=
    fun r c inb => row_in_slot 0 8 r c inb inb_S2x16x8x64_S1x1x8x64_0_8_0_0
  sl_exec_parts (disch := (refine row_ok4' _ _ ?_ ?_ _ _ rfl (hR' _ _ _ _ _) <;> decide))
  clear hin
  have hr_0_8 : region_lt.sl.v1103 (F := F) g2 k = g2 (ValueIdx.ix1 ⟨32 * k.val + 8, by omega⟩) :=
    (word_of_load2 (F := F) g2 (k0_off34 k) _ 8 (by decide) _ _ _).trans
      (congrArg g2 (congrArg ValueIdx.ix1 (Fin.ext (by have h := off34 k; show k0_off34 k 0 + 8 = 32 * k.val + 8; omega))))
  generalize hq8 : View.writes (s3 : Memref sig .scVector .vmem S512x64 .f32).view (Elt F) g3_8 _ = g3_9
  have hD_9 : Done (F := F) L fI fT (32 * k.val + 9) g3_9 := by
    rw [← hq8]
    exact lane_done4' (F := F) L fI fT hidx (32 * k.val + 8) _ rfl g3_8 hD_8
      (k0_off100 k) (k0_off102 k) (k0_off104 k) (k0_off106 k) (offS_100 k) (offS_102 k) (offS_104 k) (offS_106 k) _ _ _ _ _ _ _ _
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 0 _ rfl _ _ (offS_100 k) _ _ _ x)
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 16 _ rfl _ _ (offS_102 k) _ _ _ x)
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 32 _ rfl _ _ (offS_104 k) _ _ _ x)
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 48 _ rfl _ _ (offS_106 k) _ _ _ x)
  clear hq8 hD_8 hr_0_8
  have hin : ∀ (r c : Nat) (inb : ∀ a, (![0, 9, r, c] : Fin 4 → Nat) a + S1x1x1x16.size a ≤ S2x16x8x64.size a),
      (s4 : Memref sig .scVector .vmem S2x16x8x64 .f32).view.setOn (Rect.unit (s := S2x16x8x64) ![0, 9, r, c] S1x1x1x16.size inb).set ⊆ slot0_9.view.set :=
    fun r c inb => row_in_slot 0 9 r c inb inb_S2x16x8x64_S1x1x8x64_0_9_0_0
  sl_exec_parts (disch := (refine row_ok4' _ _ ?_ ?_ _ _ rfl (hR' _ _ _ _ _) <;> decide))
  clear hin
  have hr_0_9 : region_lt.sl.v1143 (F := F) g2 k = g2 (ValueIdx.ix1 ⟨32 * k.val + 9, by omega⟩) :=
    (word_of_load2 (F := F) g2 (k0_off34 k) _ 9 (by decide) _ _ _).trans
      (congrArg g2 (congrArg ValueIdx.ix1 (Fin.ext (by have h := off34 k; show k0_off34 k 0 + 9 = 32 * k.val + 9; omega))))
  generalize hq9 : View.writes (s3 : Memref sig .scVector .vmem S512x64 .f32).view (Elt F) g3_9 _ = g3_10
  have hD_10 : Done (F := F) L fI fT (32 * k.val + 10) g3_10 := by
    rw [← hq9]
    exact lane_done4' (F := F) L fI fT hidx (32 * k.val + 9) _ rfl g3_9 hD_9
      (k0_off108 k) (k0_off110 k) (k0_off112 k) (k0_off114 k) (offS_108 k) (offS_110 k) (offS_112 k) (offS_114 k) _ _ _ _ _ _ _ _
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 0 _ rfl _ _ (offS_108 k) _ _ _ x)
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 16 _ rfl _ _ (offS_110 k) _ _ _ x)
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 32 _ rfl _ _ (offS_112 k) _ _ _ x)
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 48 _ rfl _ _ (offS_114 k) _ _ _ x)
  clear hq9 hD_9 hr_0_9
  have hin : ∀ (r c : Nat) (inb : ∀ a, (![0, 10, r, c] : Fin 4 → Nat) a + S1x1x1x16.size a ≤ S2x16x8x64.size a),
      (s4 : Memref sig .scVector .vmem S2x16x8x64 .f32).view.setOn (Rect.unit (s := S2x16x8x64) ![0, 10, r, c] S1x1x1x16.size inb).set ⊆ slot0_10.view.set :=
    fun r c inb => row_in_slot 0 10 r c inb inb_S2x16x8x64_S1x1x8x64_0_10_0_0
  sl_exec_parts (disch := (refine row_ok4' _ _ ?_ ?_ _ _ rfl (hR' _ _ _ _ _) <;> decide))
  clear hin
  have hr_0_10 : region_lt.sl.v1183 (F := F) g2 k = g2 (ValueIdx.ix1 ⟨32 * k.val + 10, by omega⟩) :=
    (word_of_load2 (F := F) g2 (k0_off34 k) _ 10 (by decide) _ _ _).trans
      (congrArg g2 (congrArg ValueIdx.ix1 (Fin.ext (by have h := off34 k; show k0_off34 k 0 + 10 = 32 * k.val + 10; omega))))
  generalize hq10 : View.writes (s3 : Memref sig .scVector .vmem S512x64 .f32).view (Elt F) g3_10 _ = g3_11
  have hD_11 : Done (F := F) L fI fT (32 * k.val + 11) g3_11 := by
    rw [← hq10]
    exact lane_done4' (F := F) L fI fT hidx (32 * k.val + 10) _ rfl g3_10 hD_10
      (k0_off116 k) (k0_off118 k) (k0_off120 k) (k0_off122 k) (offS_116 k) (offS_118 k) (offS_120 k) (offS_122 k) _ _ _ _ _ _ _ _
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 0 _ rfl _ _ (offS_116 k) _ _ _ x)
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 16 _ rfl _ _ (offS_118 k) _ _ _ x)
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 32 _ rfl _ _ (offS_120 k) _ _ _ x)
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 48 _ rfl _ _ (offS_122 k) _ _ _ x)
  clear hq10 hD_10 hr_0_10
  have hin : ∀ (r c : Nat) (inb : ∀ a, (![0, 11, r, c] : Fin 4 → Nat) a + S1x1x1x16.size a ≤ S2x16x8x64.size a),
      (s4 : Memref sig .scVector .vmem S2x16x8x64 .f32).view.setOn (Rect.unit (s := S2x16x8x64) ![0, 11, r, c] S1x1x1x16.size inb).set ⊆ slot0_11.view.set :=
    fun r c inb => row_in_slot 0 11 r c inb inb_S2x16x8x64_S1x1x8x64_0_11_0_0
  sl_exec_parts (disch := (refine row_ok4' _ _ ?_ ?_ _ _ rfl (hR' _ _ _ _ _) <;> decide))
  clear hin
  have hr_0_11 : region_lt.sl.v1223 (F := F) g2 k = g2 (ValueIdx.ix1 ⟨32 * k.val + 11, by omega⟩) :=
    (word_of_load2 (F := F) g2 (k0_off34 k) _ 11 (by decide) _ _ _).trans
      (congrArg g2 (congrArg ValueIdx.ix1 (Fin.ext (by have h := off34 k; show k0_off34 k 0 + 11 = 32 * k.val + 11; omega))))
  generalize hq11 : View.writes (s3 : Memref sig .scVector .vmem S512x64 .f32).view (Elt F) g3_11 _ = g3_12
  have hD_12 : Done (F := F) L fI fT (32 * k.val + 12) g3_12 := by
    rw [← hq11]
    exact lane_done4' (F := F) L fI fT hidx (32 * k.val + 11) _ rfl g3_11 hD_11
      (k0_off124 k) (k0_off126 k) (k0_off128 k) (k0_off130 k) (offS_124 k) (offS_126 k) (offS_128 k) (offS_130 k) _ _ _ _ _ _ _ _
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 0 _ rfl _ _ (offS_124 k) _ _ _ x)
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 16 _ rfl _ _ (offS_126 k) _ _ _ x)
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 32 _ rfl _ _ (offS_128 k) _ _ _ x)
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 48 _ rfl _ _ (offS_130 k) _ _ _ x)
  clear hq11 hD_11 hr_0_11
  have hin : ∀ (r c : Nat) (inb : ∀ a, (![0, 12, r, c] : Fin 4 → Nat) a + S1x1x1x16.size a ≤ S2x16x8x64.size a),
      (s4 : Memref sig .scVector .vmem S2x16x8x64 .f32).view.setOn (Rect.unit (s := S2x16x8x64) ![0, 12, r, c] S1x1x1x16.size inb).set ⊆ slot0_12.view.set :=
    fun r c inb => row_in_slot 0 12 r c inb inb_S2x16x8x64_S1x1x8x64_0_12_0_0
  sl_exec_parts (disch := (refine row_ok4' _ _ ?_ ?_ _ _ rfl (hR' _ _ _ _ _) <;> decide))
  clear hin
  have hr_0_12 : region_lt.sl.v1263 (F := F) g2 k = g2 (ValueIdx.ix1 ⟨32 * k.val + 12, by omega⟩) :=
    (word_of_load2 (F := F) g2 (k0_off34 k) _ 12 (by decide) _ _ _).trans
      (congrArg g2 (congrArg ValueIdx.ix1 (Fin.ext (by have h := off34 k; show k0_off34 k 0 + 12 = 32 * k.val + 12; omega))))
  generalize hq12 : View.writes (s3 : Memref sig .scVector .vmem S512x64 .f32).view (Elt F) g3_12 _ = g3_13
  have hD_13 : Done (F := F) L fI fT (32 * k.val + 13) g3_13 := by
    rw [← hq12]
    exact lane_done4' (F := F) L fI fT hidx (32 * k.val + 12) _ rfl g3_12 hD_12
      (k0_off132 k) (k0_off134 k) (k0_off136 k) (k0_off138 k) (offS_132 k) (offS_134 k) (offS_136 k) (offS_138 k) _ _ _ _ _ _ _ _
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 0 _ rfl _ _ (offS_132 k) _ _ _ x)
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 16 _ rfl _ _ (offS_134 k) _ _ _ x)
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 32 _ rfl _ _ (offS_136 k) _ _ _ x)
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 48 _ rfl _ _ (offS_138 k) _ _ _ x)
  clear hq12 hD_12 hr_0_12
  have hin : ∀ (r c : Nat) (inb : ∀ a, (![0, 13, r, c] : Fin 4 → Nat) a + S1x1x1x16.size a ≤ S2x16x8x64.size a),
      (s4 : Memref sig .scVector .vmem S2x16x8x64 .f32).view.setOn (Rect.unit (s := S2x16x8x64) ![0, 13, r, c] S1x1x1x16.size inb).set ⊆ slot0_13.view.set :=
    fun r c inb => row_in_slot 0 13 r c inb inb_S2x16x8x64_S1x1x8x64_0_13_0_0
  sl_exec_parts (disch := (refine row_ok4' _ _ ?_ ?_ _ _ rfl (hR' _ _ _ _ _) <;> decide))
  clear hin
  have hr_0_13 : region_lt.sl.v1303 (F := F) g2 k = g2 (ValueIdx.ix1 ⟨32 * k.val + 13, by omega⟩) :=
    (word_of_load2 (F := F) g2 (k0_off34 k) _ 13 (by decide) _ _ _).trans
      (congrArg g2 (congrArg ValueIdx.ix1 (Fin.ext (by have h := off34 k; show k0_off34 k 0 + 13 = 32 * k.val + 13; omega))))
  generalize hq13 : View.writes (s3 : Memref sig .scVector .vmem S512x64 .f32).view (Elt F) g3_13 _ = g3_14
  have hD_14 : Done (F := F) L fI fT (32 * k.val + 14) g3_14 := by
    rw [← hq13]
    exact lane_done4' (F := F) L fI fT hidx (32 * k.val + 13) _ rfl g3_13 hD_13
      (k0_off140 k) (k0_off142 k) (k0_off144 k) (k0_off146 k) (offS_140 k) (offS_142 k) (offS_144 k) (offS_146 k) _ _ _ _ _ _ _ _
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 0 _ rfl _ _ (offS_140 k) _ _ _ x)
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 16 _ rfl _ _ (offS_142 k) _ _ _ x)
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 32 _ rfl _ _ (offS_144 k) _ _ _ x)
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 48 _ rfl _ _ (offS_146 k) _ _ _ x)
  clear hq13 hD_13 hr_0_13
  have hin : ∀ (r c : Nat) (inb : ∀ a, (![0, 14, r, c] : Fin 4 → Nat) a + S1x1x1x16.size a ≤ S2x16x8x64.size a),
      (s4 : Memref sig .scVector .vmem S2x16x8x64 .f32).view.setOn (Rect.unit (s := S2x16x8x64) ![0, 14, r, c] S1x1x1x16.size inb).set ⊆ slot0_14.view.set :=
    fun r c inb => row_in_slot 0 14 r c inb inb_S2x16x8x64_S1x1x8x64_0_14_0_0
  sl_exec_parts (disch := (refine row_ok4' _ _ ?_ ?_ _ _ rfl (hR' _ _ _ _ _) <;> decide))
  clear hin
  have hr_0_14 : region_lt.sl.v1343 (F := F) g2 k = g2 (ValueIdx.ix1 ⟨32 * k.val + 14, by omega⟩) :=
    (word_of_load2 (F := F) g2 (k0_off34 k) _ 14 (by decide) _ _ _).trans
      (congrArg g2 (congrArg ValueIdx.ix1 (Fin.ext (by have h := off34 k; show k0_off34 k 0 + 14 = 32 * k.val + 14; omega))))
  generalize hq14 : View.writes (s3 : Memref sig .scVector .vmem S512x64 .f32).view (Elt F) g3_14 _ = g3_15
  have hD_15 : Done (F := F) L fI fT (32 * k.val + 15) g3_15 := by
    rw [← hq14]
    exact lane_done4' (F := F) L fI fT hidx (32 * k.val + 14) _ rfl g3_14 hD_14
      (k0_off148 k) (k0_off150 k) (k0_off152 k) (k0_off154 k) (offS_148 k) (offS_150 k) (offS_152 k) (offS_154 k) _ _ _ _ _ _ _ _
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 0 _ rfl _ _ (offS_148 k) _ _ _ x)
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 16 _ rfl _ _ (offS_150 k) _ _ _ x)
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 32 _ rfl _ _ (offS_152 k) _ _ _ x)
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 48 _ rfl _ _ (offS_154 k) _ _ _ x)
  clear hq14 hD_14 hr_0_14
  have hin : ∀ (r c : Nat) (inb : ∀ a, (![0, 15, r, c] : Fin 4 → Nat) a + S1x1x1x16.size a ≤ S2x16x8x64.size a),
      (s4 : Memref sig .scVector .vmem S2x16x8x64 .f32).view.setOn (Rect.unit (s := S2x16x8x64) ![0, 15, r, c] S1x1x1x16.size inb).set ⊆ slot0_15.view.set :=
    fun r c inb => row_in_slot 0 15 r c inb inb_S2x16x8x64_S1x1x8x64_0_15_0_0
  sl_exec_parts (disch := first | exact slab_ok_g' _ _ _ rfl (hA' _ _ _ _ _) | (refine row_ok4' _ _ ?_ ?_ _ _ rfl (hR' _ _ _ _ _) <;> decide))
  clear hin
  have hr_0_15 : region_lt.sl.v1383 (F := F) g2 k = g2 (ValueIdx.ix1 ⟨32 * k.val + 15, by omega⟩) :=
    (word_of_load2 (F := F) g2 (k0_off34 k) _ 15 (by decide) _ _ _).trans
      (congrArg g2 (congrArg ValueIdx.ix1 (Fin.ext (by have h := off34 k; show k0_off34 k 0 + 15 = 32 * k.val + 15; omega))))
  generalize hq15 : View.writes (s3 : Memref sig .scVector .vmem S512x64 .f32).view (Elt F) g3_15 _ = g3_16
  have hD_16 : Done (F := F) L fI fT (32 * k.val + 16) g3_16 := by
    rw [← hq15]
    exact lane_done4' (F := F) L fI fT hidx (32 * k.val + 15) _ rfl g3_15 hD_15
      (k0_off156 k) (k0_off158 k) (k0_off160 k) (k0_off162 k) (offS_156 k) (offS_158 k) (offS_160 k) (offS_162 k) _ _ _ _ _ _ _ _
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 0 _ rfl _ _ (offS_156 k) _ _ _ x)
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 16 _ rfl _ _ (offS_158 k) _ _ _ x)
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 32 _ rfl _ _ (offS_160 k) _ _ _ x)
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 48 _ rfl _ _ (offS_162 k) _ _ _ x)
  clear hq15 hD_15 hr_0_15
  have hin : ∀ (r c : Nat) (inb : ∀ a, (![1, 0, r, c] : Fin 4 → Nat) a + S1x1x1x16.size a ≤ S2x16x8x64.size a),
      (s4 : Memref sig .scVector .vmem S2x16x8x64 .f32).view.setOn (Rect.unit (s := S2x16x8x64) ![1, 0, r, c] S1x1x1x16.size inb).set ⊆ slot1_0.view.set :=
    fun r c inb => row_in_slot 1 0 r c inb inb_S2x16x8x64_S1x1x8x64_1_0_0_0
  sl_exec_parts (disch := (refine row_ok4' _ _ ?_ ?_ _ _ rfl (hR' _ _ _ _ _) <;> decide))
  clear hin
  have hr_1_0 : region_lt.sl.v1527 (F := F) g2 k = g2 (ValueIdx.ix1 ⟨32 * k.val + 16, by omega⟩) :=
    (word_of_load2 (F := F) g2 (k0_off180 k) _ 0 (by decide) _ _ _).trans
      (congrArg g2 (congrArg ValueIdx.ix1 (Fin.ext (by have h := off180 k; show k0_off180 k 0 + 0 = 32 * k.val + 16; omega))))
  generalize hq16 : View.writes (s3 : Memref sig .scVector .vmem S512x64 .f32).view (Elt F) g3_16 _ = g3_17
  have hD_17 : Done (F := F) L fI fT (32 * k.val + 17) g3_17 := by
    rw [← hq16]
    exact lane_done4' (F := F) L fI fT hidx (32 * k.val + 16) _ rfl g3_16 hD_16
      (k0_off182 k) (k0_off184 k) (k0_off186 k) (k0_off188 k) (offS_182 k) (offS_184 k) (offS_186 k) (offS_188 k) _ _ _ _ _ _ _ _
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 0 _ rfl _ _ (offS_182 k) _ _ _ x)
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 16 _ rfl _ _ (offS_184 k) _ _ _ x)
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 32 _ rfl _ _ (offS_186 k) _ _ _ x)
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 48 _ rfl _ _ (offS_188 k) _ _ _ x)
  clear hq16 hD_16 hr_1_0
  have hin : ∀ (r c : Nat) (inb : ∀ a, (![1, 1, r, c] : Fin 4 → Nat) a + S1x1x1x16.size a ≤ S2x16x8x64.size a),
      (s4 : Memref sig .scVector .vmem S2x16x8x64 .f32).view.setOn (Rect.unit (s := S2x16x8x64) ![1, 1, r, c] S1x1x1x16.size inb).set ⊆ slot1_1.view.set :=
    fun r c inb => row_in_slot 1 1 r c inb inb_S2x16x8x64_S1x1x8x64_1_1_0_0
  sl_exec_parts (disch := (refine row_ok4' _ _ ?_ ?_ _ _ rfl (hR' _ _ _ _ _) <;> decide))
  clear hin
  have hr_1_1 : region_lt.sl.v1567 (F := F) g2 k = g2 (ValueIdx.ix1 ⟨32 * k.val + 17, by omega⟩) :=
    (word_of_load2 (F := F) g2 (k0_off180 k) _ 1 (by decide) _ _ _).trans
      (congrArg g2 (congrArg ValueIdx.ix1 (Fin.ext (by have h := off180 k; show k0_off180 k 0 + 1 = 32 * k.val + 17; omega))))
  generalize hq17 : View.writes (s3 : Memref sig .scVector .vmem S512x64 .f32).view (Elt F) g3_17 _ = g3_18
  have hD_18 : Done (F := F) L fI fT (32 * k.val + 18) g3_18 := by
    rw [← hq17]
    exact lane_done4' (F := F) L fI fT hidx (32 * k.val + 17) _ rfl g3_17 hD_17
      (k0_off190 k) (k0_off192 k) (k0_off194 k) (k0_off196 k) (offS_190 k) (offS_192 k) (offS_194 k) (offS_196 k) _ _ _ _ _ _ _ _
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 0 _ rfl _ _ (offS_190 k) _ _ _ x)
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 16 _ rfl _ _ (offS_192 k) _ _ _ x)
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 32 _ rfl _ _ (offS_194 k) _ _ _ x)
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 48 _ rfl _ _ (offS_196 k) _ _ _ x)
  clear hq17 hD_17 hr_1_1
  have hin : ∀ (r c : Nat) (inb : ∀ a, (![1, 2, r, c] : Fin 4 → Nat) a + S1x1x1x16.size a ≤ S2x16x8x64.size a),
      (s4 : Memref sig .scVector .vmem S2x16x8x64 .f32).view.setOn (Rect.unit (s := S2x16x8x64) ![1, 2, r, c] S1x1x1x16.size inb).set ⊆ slot1_2.view.set :=
    fun r c inb => row_in_slot 1 2 r c inb inb_S2x16x8x64_S1x1x8x64_1_2_0_0
  sl_exec_parts (disch := (refine row_ok4' _ _ ?_ ?_ _ _ rfl (hR' _ _ _ _ _) <;> decide))
  clear hin
  have hr_1_2 : region_lt.sl.v1607 (F := F) g2 k = g2 (ValueIdx.ix1 ⟨32 * k.val + 18, by omega⟩) :=
    (word_of_load2 (F := F) g2 (k0_off180 k) _ 2 (by decide) _ _ _).trans
      (congrArg g2 (congrArg ValueIdx.ix1 (Fin.ext (by have h := off180 k; show k0_off180 k 0 + 2 = 32 * k.val + 18; omega))))
  generalize hq18 : View.writes (s3 : Memref sig .scVector .vmem S512x64 .f32).view (Elt F) g3_18 _ = g3_19
  have hD_19 : Done (F := F) L fI fT (32 * k.val + 19) g3_19 := by
    rw [← hq18]
    exact lane_done4' (F := F) L fI fT hidx (32 * k.val + 18) _ rfl g3_18 hD_18
      (k0_off198 k) (k0_off200 k) (k0_off202 k) (k0_off204 k) (offS_198 k) (offS_200 k) (offS_202 k) (offS_204 k) _ _ _ _ _ _ _ _
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 0 _ rfl _ _ (offS_198 k) _ _ _ x)
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 16 _ rfl _ _ (offS_200 k) _ _ _ x)
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 32 _ rfl _ _ (offS_202 k) _ _ _ x)
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 48 _ rfl _ _ (offS_204 k) _ _ _ x)
  clear hq18 hD_18 hr_1_2
  have hin : ∀ (r c : Nat) (inb : ∀ a, (![1, 3, r, c] : Fin 4 → Nat) a + S1x1x1x16.size a ≤ S2x16x8x64.size a),
      (s4 : Memref sig .scVector .vmem S2x16x8x64 .f32).view.setOn (Rect.unit (s := S2x16x8x64) ![1, 3, r, c] S1x1x1x16.size inb).set ⊆ slot1_3.view.set :=
    fun r c inb => row_in_slot 1 3 r c inb inb_S2x16x8x64_S1x1x8x64_1_3_0_0
  sl_exec_parts (disch := (refine row_ok4' _ _ ?_ ?_ _ _ rfl (hR' _ _ _ _ _) <;> decide))
  clear hin
  have hr_1_3 : region_lt.sl.v1647 (F := F) g2 k = g2 (ValueIdx.ix1 ⟨32 * k.val + 19, by omega⟩) :=
    (word_of_load2 (F := F) g2 (k0_off180 k) _ 3 (by decide) _ _ _).trans
      (congrArg g2 (congrArg ValueIdx.ix1 (Fin.ext (by have h := off180 k; show k0_off180 k 0 + 3 = 32 * k.val + 19; omega))))
  generalize hq19 : View.writes (s3 : Memref sig .scVector .vmem S512x64 .f32).view (Elt F) g3_19 _ = g3_20
  have hD_20 : Done (F := F) L fI fT (32 * k.val + 20) g3_20 := by
    rw [← hq19]
    exact lane_done4' (F := F) L fI fT hidx (32 * k.val + 19) _ rfl g3_19 hD_19
      (k0_off206 k) (k0_off208 k) (k0_off210 k) (k0_off212 k) (offS_206 k) (offS_208 k) (offS_210 k) (offS_212 k) _ _ _ _ _ _ _ _
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 0 _ rfl _ _ (offS_206 k) _ _ _ x)
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 16 _ rfl _ _ (offS_208 k) _ _ _ x)
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 32 _ rfl _ _ (offS_210 k) _ _ _ x)
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 48 _ rfl _ _ (offS_212 k) _ _ _ x)
  clear hq19 hD_19 hr_1_3
  have hin : ∀ (r c : Nat) (inb : ∀ a, (![1, 4, r, c] : Fin 4 → Nat) a + S1x1x1x16.size a ≤ S2x16x8x64.size a),
      (s4 : Memref sig .scVector .vmem S2x16x8x64 .f32).view.setOn (Rect.unit (s := S2x16x8x64) ![1, 4, r, c] S1x1x1x16.size inb).set ⊆ slot1_4.view.set :=
    fun r c inb => row_in_slot 1 4 r c inb inb_S2x16x8x64_S1x1x8x64_1_4_0_0
  sl_exec_parts (disch := (refine row_ok4' _ _ ?_ ?_ _ _ rfl (hR' _ _ _ _ _) <;> decide))
  clear hin
  have hr_1_4 : region_lt.sl.v1687 (F := F) g2 k = g2 (ValueIdx.ix1 ⟨32 * k.val + 20, by omega⟩) :=
    (word_of_load2 (F := F) g2 (k0_off180 k) _ 4 (by decide) _ _ _).trans
      (congrArg g2 (congrArg ValueIdx.ix1 (Fin.ext (by have h := off180 k; show k0_off180 k 0 + 4 = 32 * k.val + 20; omega))))
  generalize hq20 : View.writes (s3 : Memref sig .scVector .vmem S512x64 .f32).view (Elt F) g3_20 _ = g3_21
  have hD_21 : Done (F := F) L fI fT (32 * k.val + 21) g3_21 := by
    rw [← hq20]
    exact lane_done4' (F := F) L fI fT hidx (32 * k.val + 20) _ rfl g3_20 hD_20
      (k0_off214 k) (k0_off216 k) (k0_off218 k) (k0_off220 k) (offS_214 k) (offS_216 k) (offS_218 k) (offS_220 k) _ _ _ _ _ _ _ _
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 0 _ rfl _ _ (offS_214 k) _ _ _ x)
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 16 _ rfl _ _ (offS_216 k) _ _ _ x)
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 32 _ rfl _ _ (offS_218 k) _ _ _ x)
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 48 _ rfl _ _ (offS_220 k) _ _ _ x)
  clear hq20 hD_20 hr_1_4
  have hin : ∀ (r c : Nat) (inb : ∀ a, (![1, 5, r, c] : Fin 4 → Nat) a + S1x1x1x16.size a ≤ S2x16x8x64.size a),
      (s4 : Memref sig .scVector .vmem S2x16x8x64 .f32).view.setOn (Rect.unit (s := S2x16x8x64) ![1, 5, r, c] S1x1x1x16.size inb).set ⊆ slot1_5.view.set :=
    fun r c inb => row_in_slot 1 5 r c inb inb_S2x16x8x64_S1x1x8x64_1_5_0_0
  sl_exec_parts (disch := (refine row_ok4' _ _ ?_ ?_ _ _ rfl (hR' _ _ _ _ _) <;> decide))
  clear hin
  have hr_1_5 : region_lt.sl.v1727 (F := F) g2 k = g2 (ValueIdx.ix1 ⟨32 * k.val + 21, by omega⟩) :=
    (word_of_load2 (F := F) g2 (k0_off180 k) _ 5 (by decide) _ _ _).trans
      (congrArg g2 (congrArg ValueIdx.ix1 (Fin.ext (by have h := off180 k; show k0_off180 k 0 + 5 = 32 * k.val + 21; omega))))
  generalize hq21 : View.writes (s3 : Memref sig .scVector .vmem S512x64 .f32).view (Elt F) g3_21 _ = g3_22
  have hD_22 : Done (F := F) L fI fT (32 * k.val + 22) g3_22 := by
    rw [← hq21]
    exact lane_done4' (F := F) L fI fT hidx (32 * k.val + 21) _ rfl g3_21 hD_21
      (k0_off222 k) (k0_off224 k) (k0_off226 k) (k0_off228 k) (offS_222 k) (offS_224 k) (offS_226 k) (offS_228 k) _ _ _ _ _ _ _ _
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 0 _ rfl _ _ (offS_222 k) _ _ _ x)
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 16 _ rfl _ _ (offS_224 k) _ _ _ x)
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 32 _ rfl _ _ (offS_226 k) _ _ _ x)
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 48 _ rfl _ _ (offS_228 k) _ _ _ x)
  clear hq21 hD_21 hr_1_5
  have hin : ∀ (r c : Nat) (inb : ∀ a, (![1, 6, r, c] : Fin 4 → Nat) a + S1x1x1x16.size a ≤ S2x16x8x64.size a),
      (s4 : Memref sig .scVector .vmem S2x16x8x64 .f32).view.setOn (Rect.unit (s := S2x16x8x64) ![1, 6, r, c] S1x1x1x16.size inb).set ⊆ slot1_6.view.set :=
    fun r c inb => row_in_slot 1 6 r c inb inb_S2x16x8x64_S1x1x8x64_1_6_0_0
  sl_exec_parts (disch := (refine row_ok4' _ _ ?_ ?_ _ _ rfl (hR' _ _ _ _ _) <;> decide))
  clear hin
  have hr_1_6 : region_lt.sl.v1767 (F := F) g2 k = g2 (ValueIdx.ix1 ⟨32 * k.val + 22, by omega⟩) :=
    (word_of_load2 (F := F) g2 (k0_off180 k) _ 6 (by decide) _ _ _).trans
      (congrArg g2 (congrArg ValueIdx.ix1 (Fin.ext (by have h := off180 k; show k0_off180 k 0 + 6 = 32 * k.val + 22; omega))))
  generalize hq22 : View.writes (s3 : Memref sig .scVector .vmem S512x64 .f32).view (Elt F) g3_22 _ = g3_23
  have hD_23 : Done (F := F) L fI fT (32 * k.val + 23) g3_23 := by
    rw [← hq22]
    exact lane_done4' (F := F) L fI fT hidx (32 * k.val + 22) _ rfl g3_22 hD_22
      (k0_off230 k) (k0_off232 k) (k0_off234 k) (k0_off236 k) (offS_230 k) (offS_232 k) (offS_234 k) (offS_236 k) _ _ _ _ _ _ _ _
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 0 _ rfl _ _ (offS_230 k) _ _ _ x)
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 16 _ rfl _ _ (offS_232 k) _ _ _ x)
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 32 _ rfl _ _ (offS_234 k) _ _ _ x)
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 48 _ rfl _ _ (offS_236 k) _ _ _ x)
  clear hq22 hD_22 hr_1_6
  have hin : ∀ (r c : Nat) (inb : ∀ a, (![1, 7, r, c] : Fin 4 → Nat) a + S1x1x1x16.size a ≤ S2x16x8x64.size a),
      (s4 : Memref sig .scVector .vmem S2x16x8x64 .f32).view.setOn (Rect.unit (s := S2x16x8x64) ![1, 7, r, c] S1x1x1x16.size inb).set ⊆ slot1_7.view.set :=
    fun r c inb => row_in_slot 1 7 r c inb inb_S2x16x8x64_S1x1x8x64_1_7_0_0
  sl_exec_parts (disch := (refine row_ok4' _ _ ?_ ?_ _ _ rfl (hR' _ _ _ _ _) <;> decide))
  clear hin
  have hr_1_7 : region_lt.sl.v1807 (F := F) g2 k = g2 (ValueIdx.ix1 ⟨32 * k.val + 23, by omega⟩) :=
    (word_of_load2 (F := F) g2 (k0_off180 k) _ 7 (by decide) _ _ _).trans
      (congrArg g2 (congrArg ValueIdx.ix1 (Fin.ext (by have h := off180 k; show k0_off180 k 0 + 7 = 32 * k.val + 23; omega))))
  generalize hq23 : View.writes (s3 : Memref sig .scVector .vmem S512x64 .f32).view (Elt F) g3_23 _ = g3_24
  have hD_24 : Done (F := F) L fI fT (32 * k.val + 24) g3_24 := by
    rw [← hq23]
    exact lane_done4' (F := F) L fI fT hidx (32 * k.val + 23) _ rfl g3_23 hD_23
      (k0_off238 k) (k0_off240 k) (k0_off242 k) (k0_off244 k) (offS_238 k) (offS_240 k) (offS_242 k) (offS_244 k) _ _ _ _ _ _ _ _
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 0 _ rfl _ _ (offS_238 k) _ _ _ x)
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 16 _ rfl _ _ (offS_240 k) _ _ _ x)
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 32 _ rfl _ _ (offS_242 k) _ _ _ x)
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 48 _ rfl _ _ (offS_244 k) _ _ _ x)
  clear hq23 hD_23 hr_1_7
  have hin : ∀ (r c : Nat) (inb : ∀ a, (![1, 8, r, c] : Fin 4 → Nat) a + S1x1x1x16.size a ≤ S2x16x8x64.size a),
      (s4 : Memref sig .scVector .vmem S2x16x8x64 .f32).view.setOn (Rect.unit (s := S2x16x8x64) ![1, 8, r, c] S1x1x1x16.size inb).set ⊆ slot1_8.view.set :=
    fun r c inb => row_in_slot 1 8 r c inb inb_S2x16x8x64_S1x1x8x64_1_8_0_0
  sl_exec_parts (disch := (refine row_ok4' _ _ ?_ ?_ _ _ rfl (hR' _ _ _ _ _) <;> decide))
  clear hin
  have hr_1_8 : region_lt.sl.v1847 (F := F) g2 k = g2 (ValueIdx.ix1 ⟨32 * k.val + 24, by omega⟩) :=
    (word_of_load2 (F := F) g2 (k0_off180 k) _ 8 (by decide) _ _ _).trans
      (congrArg g2 (congrArg ValueIdx.ix1 (Fin.ext (by have h := off180 k; show k0_off180 k 0 + 8 = 32 * k.val + 24; omega))))
  generalize hq24 : View.writes (s3 : Memref sig .scVector .vmem S512x64 .f32).view (Elt F) g3_24 _ = g3_25
  have hD_25 : Done (F := F) L fI fT (32 * k.val + 25) g3_25 := by
    rw [← hq24]
    exact lane_done4' (F := F) L fI fT hidx (32 * k.val + 24) _ rfl g3_24 hD_24
      (k0_off246 k) (k0_off248 k) (k0_off250 k) (k0_off252 k) (offS_246 k) (offS_248 k) (offS_250 k) (offS_252 k) _ _ _ _ _ _ _ _
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 0 _ rfl _ _ (offS_246 k) _ _ _ x)
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 16 _ rfl _ _ (offS_248 k) _ _ _ x)
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 32 _ rfl _ _ (offS_250 k) _ _ _ x)
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 48 _ rfl _ _ (offS_252 k) _ _ _ x)
  clear hq24 hD_24 hr_1_8
  have hin : ∀ (r c : Nat) (inb : ∀ a, (![1, 9, r, c] : Fin 4 → Nat) a + S1x1x1x16.size a ≤ S2x16x8x64.size a),
      (s4 : Memref sig .scVector .vmem S2x16x8x64 .f32).view.setOn (Rect.unit (s := S2x16x8x64) ![1, 9, r, c] S1x1x1x16.size inb).set ⊆ slot1_9.view.set :=
    fun r c inb => row_in_slot 1 9 r c inb inb_S2x16x8x64_S1x1x8x64_1_9_0_0
  sl_exec_parts (disch := (refine row_ok4' _ _ ?_ ?_ _ _ rfl (hR' _ _ _ _ _) <;> decide))
  clear hin
  have hr_1_9 : region_lt.sl.v1887 (F := F) g2 k = g2 (ValueIdx.ix1 ⟨32 * k.val + 25, by omega⟩) :=
    (word_of_load2 (F := F) g2 (k0_off180 k) _ 9 (by decide) _ _ _).trans
      (congrArg g2 (congrArg ValueIdx.ix1 (Fin.ext (by have h := off180 k; show k0_off180 k 0 + 9 = 32 * k.val + 25; omega))))
  generalize hq25 : View.writes (s3 : Memref sig .scVector .vmem S512x64 .f32).view (Elt F) g3_25 _ = g3_26
  have hD_26 : Done (F := F) L fI fT (32 * k.val + 26) g3_26 := by
    rw [← hq25]
    exact lane_done4' (F := F) L fI fT hidx (32 * k.val + 25) _ rfl g3_25 hD_25
      (k0_off254 k) (k0_off256 k) (k0_off258 k) (k0_off260 k) (offS_254 k) (offS_256 k) (offS_258 k) (offS_260 k) _ _ _ _ _ _ _ _
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 0 _ rfl _ _ (offS_254 k) _ _ _ x)
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 16 _ rfl _ _ (offS_256 k) _ _ _ x)
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 32 _ rfl _ _ (offS_258 k) _ _ _ x)
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 48 _ rfl _ _ (offS_260 k) _ _ _ x)
  clear hq25 hD_25 hr_1_9
  have hin : ∀ (r c : Nat) (inb : ∀ a, (![1, 10, r, c] : Fin 4 → Nat) a + S1x1x1x16.size a ≤ S2x16x8x64.size a),
      (s4 : Memref sig .scVector .vmem S2x16x8x64 .f32).view.setOn (Rect.unit (s := S2x16x8x64) ![1, 10, r, c] S1x1x1x16.size inb).set ⊆ slot1_10.view.set :=
    fun r c inb => row_in_slot 1 10 r c inb inb_S2x16x8x64_S1x1x8x64_1_10_0_0
  sl_exec_parts (disch := (refine row_ok4' _ _ ?_ ?_ _ _ rfl (hR' _ _ _ _ _) <;> decide))
  clear hin
  have hr_1_10 : region_lt.sl.v1927 (F := F) g2 k = g2 (ValueIdx.ix1 ⟨32 * k.val + 26, by omega⟩) :=
    (word_of_load2 (F := F) g2 (k0_off180 k) _ 10 (by decide) _ _ _).trans
      (congrArg g2 (congrArg ValueIdx.ix1 (Fin.ext (by have h := off180 k; show k0_off180 k 0 + 10 = 32 * k.val + 26; omega))))
  generalize hq26 : View.writes (s3 : Memref sig .scVector .vmem S512x64 .f32).view (Elt F) g3_26 _ = g3_27
  have hD_27 : Done (F := F) L fI fT (32 * k.val + 27) g3_27 := by
    rw [← hq26]
    exact lane_done4' (F := F) L fI fT hidx (32 * k.val + 26) _ rfl g3_26 hD_26
      (k0_off262 k) (k0_off264 k) (k0_off266 k) (k0_off268 k) (offS_262 k) (offS_264 k) (offS_266 k) (offS_268 k) _ _ _ _ _ _ _ _
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 0 _ rfl _ _ (offS_262 k) _ _ _ x)
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 16 _ rfl _ _ (offS_264 k) _ _ _ x)
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 32 _ rfl _ _ (offS_266 k) _ _ _ x)
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 48 _ rfl _ _ (offS_268 k) _ _ _ x)
  clear hq26 hD_26 hr_1_10
  have hin : ∀ (r c : Nat) (inb : ∀ a, (![1, 11, r, c] : Fin 4 → Nat) a + S1x1x1x16.size a ≤ S2x16x8x64.size a),
      (s4 : Memref sig .scVector .vmem S2x16x8x64 .f32).view.setOn (Rect.unit (s := S2x16x8x64) ![1, 11, r, c] S1x1x1x16.size inb).set ⊆ slot1_11.view.set :=
    fun r c inb => row_in_slot 1 11 r c inb inb_S2x16x8x64_S1x1x8x64_1_11_0_0
  sl_exec_parts (disch := (refine row_ok4' _ _ ?_ ?_ _ _ rfl (hR' _ _ _ _ _) <;> decide))
  clear hin
  have hr_1_11 : region_lt.sl.v1967 (F := F) g2 k = g2 (ValueIdx.ix1 ⟨32 * k.val + 27, by omega⟩) :=
    (word_of_load2 (F := F) g2 (k0_off180 k) _ 11 (by decide) _ _ _).trans
      (congrArg g2 (congrArg ValueIdx.ix1 (Fin.ext (by have h := off180 k; show k0_off180 k 0 + 11 = 32 * k.val + 27; omega))))
  generalize hq27 : View.writes (s3 : Memref sig .scVector .vmem S512x64 .f32).view (Elt F) g3_27 _ = g3_28
  have hD_28 : Done (F := F) L fI fT (32 * k.val + 28) g3_28 := by
    rw [← hq27]
    exact lane_done4' (F := F) L fI fT hidx (32 * k.val + 27) _ rfl g3_27 hD_27
      (k0_off270 k) (k0_off272 k) (k0_off274 k) (k0_off276 k) (offS_270 k) (offS_272 k) (offS_274 k) (offS_276 k) _ _ _ _ _ _ _ _
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 0 _ rfl _ _ (offS_270 k) _ _ _ x)
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 16 _ rfl _ _ (offS_272 k) _ _ _ x)
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 32 _ rfl _ _ (offS_274 k) _ _ _ x)
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 48 _ rfl _ _ (offS_276 k) _ _ _ x)
  clear hq27 hD_27 hr_1_11
  have hin : ∀ (r c : Nat) (inb : ∀ a, (![1, 12, r, c] : Fin 4 → Nat) a + S1x1x1x16.size a ≤ S2x16x8x64.size a),
      (s4 : Memref sig .scVector .vmem S2x16x8x64 .f32).view.setOn (Rect.unit (s := S2x16x8x64) ![1, 12, r, c] S1x1x1x16.size inb).set ⊆ slot1_12.view.set :=
    fun r c inb => row_in_slot 1 12 r c inb inb_S2x16x8x64_S1x1x8x64_1_12_0_0
  sl_exec_parts (disch := (refine row_ok4' _ _ ?_ ?_ _ _ rfl (hR' _ _ _ _ _) <;> decide))
  clear hin
  have hr_1_12 : region_lt.sl.v2007 (F := F) g2 k = g2 (ValueIdx.ix1 ⟨32 * k.val + 28, by omega⟩) :=
    (word_of_load2 (F := F) g2 (k0_off180 k) _ 12 (by decide) _ _ _).trans
      (congrArg g2 (congrArg ValueIdx.ix1 (Fin.ext (by have h := off180 k; show k0_off180 k 0 + 12 = 32 * k.val + 28; omega))))
  generalize hq28 : View.writes (s3 : Memref sig .scVector .vmem S512x64 .f32).view (Elt F) g3_28 _ = g3_29
  have hD_29 : Done (F := F) L fI fT (32 * k.val + 29) g3_29 := by
    rw [← hq28]
    exact lane_done4' (F := F) L fI fT hidx (32 * k.val + 28) _ rfl g3_28 hD_28
      (k0_off278 k) (k0_off280 k) (k0_off282 k) (k0_off284 k) (offS_278 k) (offS_280 k) (offS_282 k) (offS_284 k) _ _ _ _ _ _ _ _
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 0 _ rfl _ _ (offS_278 k) _ _ _ x)
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 16 _ rfl _ _ (offS_280 k) _ _ _ x)
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 32 _ rfl _ _ (offS_282 k) _ _ _ x)
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 48 _ rfl _ _ (offS_284 k) _ _ _ x)
  clear hq28 hD_28 hr_1_12
  have hin : ∀ (r c : Nat) (inb : ∀ a, (![1, 13, r, c] : Fin 4 → Nat) a + S1x1x1x16.size a ≤ S2x16x8x64.size a),
      (s4 : Memref sig .scVector .vmem S2x16x8x64 .f32).view.setOn (Rect.unit (s := S2x16x8x64) ![1, 13, r, c] S1x1x1x16.size inb).set ⊆ slot1_13.view.set :=
    fun r c inb => row_in_slot 1 13 r c inb inb_S2x16x8x64_S1x1x8x64_1_13_0_0
  sl_exec_parts (disch := (refine row_ok4' _ _ ?_ ?_ _ _ rfl (hR' _ _ _ _ _) <;> decide))
  clear hin
  have hr_1_13 : region_lt.sl.v2047 (F := F) g2 k = g2 (ValueIdx.ix1 ⟨32 * k.val + 29, by omega⟩) :=
    (word_of_load2 (F := F) g2 (k0_off180 k) _ 13 (by decide) _ _ _).trans
      (congrArg g2 (congrArg ValueIdx.ix1 (Fin.ext (by have h := off180 k; show k0_off180 k 0 + 13 = 32 * k.val + 29; omega))))
  generalize hq29 : View.writes (s3 : Memref sig .scVector .vmem S512x64 .f32).view (Elt F) g3_29 _ = g3_30
  have hD_30 : Done (F := F) L fI fT (32 * k.val + 30) g3_30 := by
    rw [← hq29]
    exact lane_done4' (F := F) L fI fT hidx (32 * k.val + 29) _ rfl g3_29 hD_29
      (k0_off286 k) (k0_off288 k) (k0_off290 k) (k0_off292 k) (offS_286 k) (offS_288 k) (offS_290 k) (offS_292 k) _ _ _ _ _ _ _ _
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 0 _ rfl _ _ (offS_286 k) _ _ _ x)
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 16 _ rfl _ _ (offS_288 k) _ _ _ x)
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 32 _ rfl _ _ (offS_290 k) _ _ _ x)
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 48 _ rfl _ _ (offS_292 k) _ _ _ x)
  clear hq29 hD_29 hr_1_13
  have hin : ∀ (r c : Nat) (inb : ∀ a, (![1, 14, r, c] : Fin 4 → Nat) a + S1x1x1x16.size a ≤ S2x16x8x64.size a),
      (s4 : Memref sig .scVector .vmem S2x16x8x64 .f32).view.setOn (Rect.unit (s := S2x16x8x64) ![1, 14, r, c] S1x1x1x16.size inb).set ⊆ slot1_14.view.set :=
    fun r c inb => row_in_slot 1 14 r c inb inb_S2x16x8x64_S1x1x8x64_1_14_0_0
  sl_exec_parts (disch := (refine row_ok4' _ _ ?_ ?_ _ _ rfl (hR' _ _ _ _ _) <;> decide))
  clear hin
  have hr_1_14 : region_lt.sl.v2087 (F := F) g2 k = g2 (ValueIdx.ix1 ⟨32 * k.val + 30, by omega⟩) :=
    (word_of_load2 (F := F) g2 (k0_off180 k) _ 14 (by decide) _ _ _).trans
      (congrArg g2 (congrArg ValueIdx.ix1 (Fin.ext (by have h := off180 k; show k0_off180 k 0 + 14 = 32 * k.val + 30; omega))))
  generalize hq30 : View.writes (s3 : Memref sig .scVector .vmem S512x64 .f32).view (Elt F) g3_30 _ = g3_31
  have hD_31 : Done (F := F) L fI fT (32 * k.val + 31) g3_31 := by
    rw [← hq30]
    exact lane_done4' (F := F) L fI fT hidx (32 * k.val + 30) _ rfl g3_30 hD_30
      (k0_off294 k) (k0_off296 k) (k0_off298 k) (k0_off300 k) (offS_294 k) (offS_296 k) (offS_298 k) (offS_300 k) _ _ _ _ _ _ _ _
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 0 _ rfl _ _ (offS_294 k) _ _ _ x)
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 16 _ rfl _ _ (offS_296 k) _ _ _ x)
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 32 _ rfl _ _ (offS_298 k) _ _ _ x)
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 48 _ rfl _ _ (offS_300 k) _ _ _ x)
  clear hq30 hD_30 hr_1_14
  have hin : ∀ (r c : Nat) (inb : ∀ a, (![1, 15, r, c] : Fin 4 → Nat) a + S1x1x1x16.size a ≤ S2x16x8x64.size a),
      (s4 : Memref sig .scVector .vmem S2x16x8x64 .f32).view.setOn (Rect.unit (s := S2x16x8x64) ![1, 15, r, c] S1x1x1x16.size inb).set ⊆ slot1_15.view.set :=
    fun r c inb => row_in_slot 1 15 r c inb inb_S2x16x8x64_S1x1x8x64_1_15_0_0
  set_option sl_exec.stopBefore "k0_cond2" in sl_exec_parts (disch := first | exact slab_ok_g' _ _ _ rfl (hA' _ _ _ _ _) | (refine row_ok4' _ _ ?_ ?_ _ _ rfl (hR' _ _ _ _ _) <;> decide))
  clear hin
  have hr_1_15 : region_lt.sl.v2127 (F := F) g2 k = g2 (ValueIdx.ix1 ⟨32 * k.val + 31, by omega⟩) :=
    (word_of_load2 (F := F) g2 (k0_off180 k) _ 15 (by decide) _ _ _).trans
      (congrArg g2 (congrArg ValueIdx.ix1 (Fin.ext (by have h := off180 k; show k0_off180 k 0 + 15 = 32 * k.val + 31; omega))))
  generalize hq31 : View.writes (s3 : Memref sig .scVector .vmem S512x64 .f32).view (Elt F) g3_31 _ = g3_32
  have hD_32 : Done (F := F) L fI fT (32 * k.val + 32) g3_32 := by
    rw [← hq31]
    exact lane_done4' (F := F) L fI fT hidx (32 * k.val + 31) _ rfl g3_31 hD_31
      (k0_off302 k) (k0_off304 k) (k0_off306 k) (k0_off308 k) (offS_302 k) (offS_304 k) (offS_306 k) (offS_308 k) _ _ _ _ _ _ _ _
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 0 _ rfl _ _ (offS_302 k) _ _ _ x)
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 16 _ rfl _ _ (offS_304 k) _ _ _ x)
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 32 _ rfl _ _ (offS_306 k) _ _ _ x)
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 48 _ rfl _ _ (offS_308 k) _ _ _ x)
  clear hq31 hD_31 hr_1_15
  -- the read shares the first half's new fetches hold go behind the ones that are back
  irevert Ht0 Ht1 Ht2 Ht3 Ht4 Ht5 Ht6 Ht7 Ht8 Ht9 Ht10 Ht11 Ht12 Ht13 Ht14 Ht15
  iintro Ht0 Ht1 Ht2 Ht3 Ht4 Ht5 Ht6 Ht7 Ht8 Ht9 Ht10 Ht11 Ht12 Ht13 Ht14 Ht15
  -- (the second half's fetches complete on the cell numbered 1: the read share numbered 1 is kept out of sight meanwhile)
  generalize hq1 : Transfers.shareTokN q 1 = q1
  sl_exec_parts (disch := first | exact slab_ok_g' _ _ _ rfl (hA' _ _ _ _ _) | (refine row_ok4' _ _ ?_ ?_ _ _ rfl (hR' _ _ _ _ _) <;> decide))
  subst hq1
  sl_step
  rw [if_pos (by omega)]
  -- the new fetches' slab words are the slab-word scratch's words of groups 2 (k + 1) and 2 (k + 1) + 1
  have hw0_0 : region_lt.sl.v2175 (F := F) g1 k hc1 = wAt g1 (2 * (k.val + 1) + 0) 0 :=
    wAt_of_load1 (F := F) g1 (k0_off163 k) _ 0 (by decide) _ _ _ (2 * (k.val + 1) + 0) (by have h := off163 k; omega) (by omega)
  have ho0_0 : k0_off164 (region_lt.sl.v2175 (F := F) g1 k hc1) = ![(wAt g1 (2 * (k.val + 1) + 0) 0).toNat, 0] := by rw [hw0_0]; rfl
  ihave Ht0 := (Entails.of_eq (rest_of_exec (F := F) d L q fT 0 (k0_off164 (region_lt.sl.v2175 (F := F) g1 k hc1)) _ (wAt g1 (2 * (k.val + 1) + 0) 0) (slab_inb _ (wAt_slab g1 hS1 (2 * (k.val + 1) + 0) 0)) ho0_0)) $$ Ht0
  have hw0_1 : region_lt.sl.v2184 (F := F) g1 k hc1 = wAt g1 (2 * (k.val + 1) + 0) 1 :=
    wAt_of_load1 (F := F) g1 (k0_off163 k) _ 1 (by decide) _ _ _ (2 * (k.val + 1) + 0) (by have h := off163 k; omega) (by omega)
  have ho0_1 : k0_off165 (region_lt.sl.v2184 (F := F) g1 k hc1) = ![(wAt g1 (2 * (k.val + 1) + 0) 1).toNat, 0] := by rw [hw0_1]; rfl
  ihave Ht1 := (Entails.of_eq (rest_of_exec (F := F) d L q fT 1 (k0_off165 (region_lt.sl.v2184 (F := F) g1 k hc1)) _ (wAt g1 (2 * (k.val + 1) + 0) 1) (slab_inb _ (wAt_slab g1 hS1 (2 * (k.val + 1) + 0) 1)) ho0_1)) $$ Ht1
  have hw0_2 : region_lt.sl.v2193 (F := F) g1 k hc1 = wAt g1 (2 * (k.val + 1) + 0) 2 :=
    wAt_of_load1 (F := F) g1 (k0_off163 k) _ 2 (by decide) _ _ _ (2 * (k.val + 1) + 0) (by have h := off163 k; omega) (by omega)
  have ho0_2 : k0_off166 (region_lt.sl.v2193 (F := F) g1 k hc1) = ![(wAt g1 (2 * (k.val + 1) + 0) 2).toNat, 0] := by rw [hw0_2]; rfl
  ihave Ht2 := (Entails.of_eq (rest_of_exec (F := F) d L q fT 2 (k0_off166 (region_lt.sl.v2193 (F := F) g1 k hc1)) _ (wAt g1 (2 * (k.val + 1) + 0) 2) (slab_inb _ (wAt_slab g1 hS1 (2 * (k.val + 1) + 0) 2)) ho0_2)) $$ Ht2
  have hw0_3 : region_lt.sl.v2202 (F := F) g1 k hc1 = wAt g1 (2 * (k.val + 1) + 0) 3 :=
    wAt_of_load1 (F := F) g1 (k0_off163 k) _ 3 (by decide) _ _ _ (2 * (k.val + 1) + 0) (by have h := off163 k; omega) (by omega)
  have ho0_3 : k0_off167 (region_lt.sl.v2202 (F := F) g1 k hc1) = ![(wAt g1 (2 * (k.val + 1) + 0) 3).toNat, 0] := by rw [hw0_3]; rfl
  ihave Ht3 := (Entails.of_eq (rest_of_exec (F := F) d L q fT 3 (k0_off167 (region_lt.sl.v2202 (F := F) g1 k hc1)) _ (wAt g1 (2 * (k.val + 1) + 0) 3) (slab_inb _ (wAt_slab g1 hS1 (2 * (k.val + 1) + 0) 3)) ho0_3)) $$ Ht3
  have hw0_4 : region_lt.sl.v2211 (F := F) g1 k hc1 = wAt g1 (2 * (k.val + 1) + 0) 4 :=
    wAt_of_load1 (F := F) g1 (k0_off163 k) _ 4 (by decide) _ _ _ (2 * (k.val + 1) + 0) (by have h := off163 k; omega) (by omega)
  have ho0_4 : k0_off168 (region_lt.sl.v2211 (F := F) g1 k hc1) = ![(wAt g1 (2 * (k.val + 1) + 0) 4).toNat, 0] := by rw [hw0_4]; rfl
  ihave Ht4 := (Entails.of_eq (rest_of_exec (F := F) d L q fT 4 (k0_off168 (region_lt.sl.v2211 (F := F) g1 k hc1)) _ (wAt g1 (2 * (k.val + 1) + 0) 4) (slab_inb _ (wAt_slab g1 hS1 (2 * (k.val + 1) + 0) 4)) ho0_4)) $$ Ht4
  have hw0_5 : region_lt.sl.v2220 (F := F) g1 k hc1 = wAt g1 (2 * (k.val + 1) + 0) 5 :=
    wAt_of_load1 (F := F) g1 (k0_off163 k) _ 5 (by decide) _ _ _ (2 * (k.val + 1) + 0) (by have h := off163 k; omega) (by omega)
  have ho0_5 : k0_off169 (region_lt.sl.v2220 (F := F) g1 k hc1) = ![(wAt g1 (2 * (k.val + 1) + 0) 5).toNat, 0] := by rw [hw0_5]; rfl
  ihave Ht5 := (Entails.of_eq (rest_of_exec (F := F) d L q fT 5 (k0_off169 (region_lt.sl.v2220 (F := F) g1 k hc1)) _ (wAt g1 (2 * (k.val + 1) + 0) 5) (slab_inb _ (wAt_slab g1 hS1 (2 * (k.val + 1) + 0) 5)) ho0_5)) $$ Ht5
  have hw0_6 : region_lt.sl.v2229 (F := F) g1 k hc1 = wAt g1 (2 * (k.val + 1) + 0) 6 :=
    wAt_of_load1 (F := F) g1 (k0_off163 k) _ 6 (by decide) _ _ _ (2 * (k.val + 1) + 0) (by have h := off163 k; omega) (by omega)
  have ho0_6 : k0_off170 (region_lt.sl.v2229 (F := F) g1 k hc1) = ![(wAt g1 (2 * (k.val + 1) + 0) 6).toNat, 0] := by rw [hw0_6]; rfl
  ihave Ht6 := (Entails.of_eq (rest_of_exec (F := F) d L q fT 6 (k0_off170 (region_lt.sl.v2229 (F := F) g1 k hc1)) _ (wAt g1 (2 * (k.val + 1) + 0) 6) (slab_inb _ (wAt_slab g1 hS1 (2 * (k.val + 1) + 0) 6)) ho0_6)) $$ Ht6
  have hw0_7 : region_lt.sl.v2238 (F := F) g1 k hc1 = wAt g1 (2 * (k.val + 1) + 0) 7 :=
    wAt_of_load1 (F := F) g1 (k0_off163 k) _ 7 (by decide) _ _ _ (2 * (k.val + 1) + 0) (by have h := off163 k; omega) (by omega)
  have ho0_7 : k0_off171 (region_lt.sl.v2238 (F := F) g1 k hc1) = ![(wAt g1 (2 * (k.val + 1) + 0) 7).toNat, 0] := by rw [hw0_7]; rfl
  ihave Ht7 := (Entails.of_eq (rest_of_exec (F := F) d L q fT 7 (k0_off171 (region_lt.sl.v2238 (F := F) g1 k hc1)) _ (wAt g1 (2 * (k.val + 1) + 0) 7) (slab_inb _ (wAt_slab g1 hS1 (2 * (k.val + 1) + 0) 7)) ho0_7)) $$ Ht7
  have hw0_8 : region_lt.sl.v2247 (F := F) g1 k hc1 = wAt g1 (2 * (k.val + 1) + 0) 8 :=
    wAt_of_load1 (F := F) g1 (k0_off163 k) _ 8 (by decide) _ _ _ (2 * (k.val + 1) + 0) (by have h := off163 k; omega) (by omega)
  have ho0_8 : k0_off172 (region_lt.sl.v2247 (F := F) g1 k hc1) = ![(wAt g1 (2 * (k.val + 1) + 0) 8).toNat, 0] := by rw [hw0_8]; rfl
  ihave Ht8 := (Entails.of_eq (rest_of_exec (F := F) d L q fT 8 (k0_off172 (region_lt.sl.v2247 (F := F) g1 k hc1)) _ (wAt g1 (2 * (k.val + 1) + 0) 8) (slab_inb _ (wAt_slab g1 hS1 (2 * (k.val + 1) + 0) 8)) ho0_8)) $$ Ht8
  have hw0_9 : region_lt.sl.v2256 (F := F) g1 k hc1 = wAt g1 (2 * (k.val + 1) + 0) 9 :=
    wAt_of_load1 (F := F) g1 (k0_off163 k) _ 9 (by decide) _ _ _ (2 * (k.val + 1) + 0) (by have h := off163 k; omega) (by omega)
  have ho0_9 : k0_off173 (region_lt.sl.v2256 (F := F) g1 k hc1) = ![(wAt g1 (2 * (k.val + 1) + 0) 9).toNat, 0] := by rw [hw0_9]; rfl
  ihave Ht9 := (Entails.of_eq (rest_of_exec (F := F) d L q fT 9 (k0_off173 (region_lt.sl.v2256 (F := F) g1 k hc1)) _ (wAt g1 (2 * (k.val + 1) + 0) 9) (slab_inb _ (wAt_slab g1 hS1 (2 * (k.val + 1) + 0) 9)) ho0_9)) $$ Ht9
  have hw0_10 : region_lt.sl.v2265 (F := F) g1 k hc1 = wAt g1 (2 * (k.val + 1) + 0) 10 :=
    wAt_of_load1 (F := F) g1 (k0_off163 k) _ 10 (by decide) _ _ _ (2 * (k.val + 1) + 0) (by have h := off163 k; omega) (by omega)
  have ho0_10 : k0_off174 (region_lt.sl.v2265 (F := F) g1 k hc1) = ![(wAt g1 (2 * (k.val + 1) + 0) 10).toNat, 0] := by rw [hw0_10]; rfl
  ihave Ht10 := (Entails.of_eq (rest_of_exec (F := F) d L q fT 10 (k0_off174 (region_lt.sl.v2265 (F := F) g1 k hc1)) _ (wAt g1 (2 * (k.val + 1) + 0) 10) (slab_inb _ (wAt_slab g1 hS1 (2 * (k.val + 1) + 0) 10)) ho0_10)) $$ Ht10
  have hw0_11 : region_lt.sl.v2274 (F := F) g1 k hc1 = wAt g1 (2 * (k.val + 1) + 0) 11 :=
    wAt_of_load1 (F := F) g1 (k0_off163 k) _ 11 (by decide) _ _ _ (2 * (k.val + 1) + 0) (by have h := off163 k; omega) (by omega)
  have ho0_11 : k0_off175 (region_lt.sl.v2274 (F := F) g1 k hc1) = ![(wAt g1 (2 * (k.val + 1) + 0) 11).toNat, 0] := by rw [hw0_11]; rfl
  ihave Ht11 := (Entails.of_eq (rest_of_exec (F := F) d L q fT 11 (k0_off175 (region_lt.sl.v2274 (F := F) g1 k hc1)) _ (wAt g1 (2 * (k.val + 1) + 0) 11) (slab_inb _ (wAt_slab g1 hS1 (2 * (k.val + 1) + 0) 11)) ho0_11)) $$ Ht11
  have hw0_12 : region_lt.sl.v2283 (F := F) g1 k hc1 = wAt g1 (2 * (k.val + 1) + 0) 12 :=
    wAt_of_load1 (F := F) g1 (k0_off163 k) _ 12 (by decide) _ _ _ (2 * (k.val + 1) + 0) (by have h := off163 k; omega) (by omega)
  have ho0_12 : k0_off176 (region_lt.sl.v2283 (F := F) g1 k hc1) = ![(wAt g1 (2 * (k.val + 1) + 0) 12).toNat, 0] := by rw [hw0_12]; rfl
  ihave Ht12 := (Entails.of_eq (rest_of_exec (F := F) d L q fT 12 (k0_off176 (region_lt.sl.v2283 (F := F) g1 k hc1)) _ (wAt g1 (2 * (k.val + 1) + 0) 12) (slab_inb _ (wAt_slab g1 hS1 (2 * (k.val + 1) + 0) 12)) ho0_12)) $$ Ht12
  have hw0_13 : region_lt.sl.v2292 (F := F) g1 k hc1 = wAt g1 (2 * (k.val + 1) + 0) 13 :=
    wAt_of_load1 (F := F) g1 (k0_off163 k) _ 13 (by decide) _ _ _ (2 * (k.val + 1) + 0) (by have h := off163 k; omega) (by omega)
  have ho0_13 : k0_off177 (region_lt.sl.v2292 (F := F) g1 k hc1) = ![(wAt g1 (2 * (k.val + 1) + 0) 13).toNat, 0] := by rw [hw0_13]; rfl
  ihave Ht13 := (Entails.of_eq (rest_of_exec (F := F) d L q fT 13 (k0_off177 (region_lt.sl.v2292 (F := F) g1 k hc1)) _ (wAt g1 (2 * (k.val + 1) + 0) 13) (slab_inb _ (wAt_slab g1 hS1 (2 * (k.val + 1) + 0) 13)) ho0_13)) $$ Ht13
  have hw0_14 : region_lt.sl.v2301 (F := F) g1 k hc1 = wAt g1 (2 * (k.val + 1) + 0) 14 :=
    wAt_of_load1 (F := F) g1 (k0_off163 k) _ 14 (by decide) _ _ _ (2 * (k.val + 1) + 0) (by have h := off163 k; omega) (by omega)
  have ho0_14 : k0_off178 (region_lt.sl.v2301 (F := F) g1 k hc1) = ![(wAt g1 (2 * (k.val + 1) + 0) 14).toNat, 0] := by rw [hw0_14]; rfl
  ihave Ht14 := (Entails.of_eq (rest_of_exec (F := F) d L q fT 14 (k0_off178 (region_lt.sl.v2301 (F := F) g1 k hc1)) _ (wAt g1 (2 * (k.val + 1) + 0) 14) (slab_inb _ (wAt_slab g1 hS1 (2 * (k.val + 1) + 0) 14)) ho0_14)) $$ Ht14
  have hw0_15 : region_lt.sl.v2310 (F := F) g1 k hc1 = wAt g1 (2 * (k.val + 1) + 0) 15 :=
    wAt_of_load1 (F := F) g1 (k0_off163 k) _ 15 (by decide) _ _ _ (2 * (k.val + 1) + 0) (by have h := off163 k; omega) (by omega)
  have ho0_15 : k0_off179 (region_lt.sl.v2310 (F := F) g1 k hc1) = ![(wAt g1 (2 * (k.val + 1) + 0) 15).toNat, 0] := by rw [hw0_15]; rfl
  ihave Ht15 := (Entails.of_eq (rest_of_exec (F := F) d L q fT 15 (k0_off179 (region_lt.sl.v2310 (F := F) g1 k hc1)) _ (wAt g1 (2 * (k.val + 1) + 0) 15) (slab_inb _ (wAt_slab g1 hS1 (2 * (k.val + 1) + 0) 15)) ho0_15)) $$ Ht15
  have hw1_0 : region_lt.sl.v2175_1 (F := F) g1 k hc2 = wAt g1 (2 * (k.val + 1) + 1) 0 :=
    wAt_of_load1 (F := F) g1 (k0_off309 k) _ 0 (by decide) _ _ _ (2 * (k.val + 1) + 1) (by have h := off309 k; omega) (by omega)
  have ho1_0 : k0_off310 (region_lt.sl.v2175_1 (F := F) g1 k hc2) = ![(wAt g1 (2 * (k.val + 1) + 1) 0).toNat, 0] := by rw [hw1_0]; rfl
  ihave Ht16 := (Entails.of_eq (rest_of_exec (F := F) d L q fT 16 (k0_off310 (region_lt.sl.v2175_1 (F := F) g1 k hc2)) _ (wAt g1 (2 * (k.val + 1) + 1) 0) (slab_inb _ (wAt_slab g1 hS1 (2 * (k.val + 1) + 1) 0)) ho1_0)) $$ Ht16
  have hw1_1 : region_lt.sl.v2184_1 (F := F) g1 k hc2 = wAt g1 (2 * (k.val + 1) + 1) 1 :=
    wAt_of_load1 (F := F) g1 (k0_off309 k) _ 1 (by decide) _ _ _ (2 * (k.val + 1) + 1) (by have h := off309 k; omega) (by omega)
  have ho1_1 : k0_off311 (region_lt.sl.v2184_1 (F := F) g1 k hc2) = ![(wAt g1 (2 * (k.val + 1) + 1) 1).toNat, 0] := by rw [hw1_1]; rfl
  ihave Ht17 := (Entails.of_eq (rest_of_exec (F := F) d L q fT 17 (k0_off311 (region_lt.sl.v2184_1 (F := F) g1 k hc2)) _ (wAt g1 (2 * (k.val + 1) + 1) 1) (slab_inb _ (wAt_slab g1 hS1 (2 * (k.val + 1) + 1) 1)) ho1_1)) $$ Ht17
  have hw1_2 : region_lt.sl.v2193_1 (F := F) g1 k hc2 = wAt g1 (2 * (k.val + 1) + 1) 2 :=
    wAt_of_load1 (F := F) g1 (k0_off309 k) _ 2 (by decide) _ _ _ (2 * (k.val + 1) + 1) (by have h := off309 k; omega) (by omega)
  have ho1_2 : k0_off312 (region_lt.sl.v2193_1 (F := F) g1 k hc2) = ![(wAt g1 (2 * (k.val + 1) + 1) 2).toNat, 0] := by rw [hw1_2]; rfl
  ihave Ht18 := (Entails.of_eq (rest_of_exec (F := F) d L q fT 18 (k0_off312 (region_lt.sl.v2193_1 (F := F) g1 k hc2)) _ (wAt g1 (2 * (k.val + 1) + 1) 2) (slab_inb _ (wAt_slab g1 hS1 (2 * (k.val + 1) + 1) 2)) ho1_2)) $$ Ht18
  have hw1_3 : region_lt.sl.v2202_1 (F := F) g1 k hc2 = wAt g1 (2 * (k.val + 1) + 1) 3 :=
    wAt_of_load1 (F := F) g1 (k0_off309 k) _ 3 (by decide) _ _ _ (2 * (k.val + 1) + 1) (by have h := off309 k; omega) (by omega)
  have ho1_3 : k0_off313 (region_lt.sl.v2202_1 (F := F) g1 k hc2) = ![(wAt g1 (2 * (k.val + 1) + 1) 3).toNat, 0] := by rw [hw1_3]; rfl
  ihave Ht19 := (Entails.of_eq (rest_of_exec (F := F) d L q fT 19 (k0_off313 (region_lt.sl.v2202_1 (F := F) g1 k hc2)) _ (wAt g1 (2 * (k.val + 1) + 1) 3) (slab_inb _ (wAt_slab g1 hS1 (2 * (k.val + 1) + 1) 3)) ho1_3)) $$ Ht19
  have hw1_4 : region_lt.sl.v2211_1 (F := F) g1 k hc2 = wAt g1 (2 * (k.val + 1) + 1) 4 :=
    wAt_of_load1 (F := F) g1 (k0_off309 k) _ 4 (by decide) _ _ _ (2 * (k.val + 1) + 1) (by have h := off309 k; omega) (by omega)
  have ho1_4 : k0_off314 (region_lt.sl.v2211_1 (F := F) g1 k hc2) = ![(wAt g1 (2 * (k.val + 1) + 1) 4).toNat, 0] := by rw [hw1_4]; rfl
  ihave Ht20 := (Entails.of_eq (rest_of_exec (F := F) d L q fT 20 (k0_off314 (region_lt.sl.v2211_1 (F := F) g1 k hc2)) _ (wAt g1 (2 * (k.val + 1) + 1) 4) (slab_inb _ (wAt_slab g1 hS1 (2 * (k.val + 1) + 1) 4)) ho1_4)) $$ Ht20
  have hw1_5 : region_lt.sl.v2220_1 (F := F) g1 k hc2 = wAt g1 (2 * (k.val + 1) + 1) 5 :=
    wAt_of_load1 (F := F) g1 (k0_off309 k) _ 5 (by decide) _ _ _ (2 * (k.val + 1) + 1) (by have h := off309 k; omega) (by omega)
  have ho1_5 : k0_off315 (region_lt.sl.v2220_1 (F := F) g1 k hc2) = ![(wAt g1 (2 * (k.val + 1) + 1) 5).toNat, 0] := by rw [hw1_5]; rfl
  ihave Ht21 := (Entails.of_eq (rest_of_exec (F := F) d L q fT 21 (k0_off315 (region_lt.sl.v2220_1 (F := F) g1 k hc2)) _ (wAt g1 (2 * (k.val + 1) + 1) 5) (slab_inb _ (wAt_slab g1 hS1 (2 * (k.val + 1) + 1) 5)) ho1_5)) $$ Ht21
  have hw1_6 : region_lt.sl.v2229_1 (F := F) g1 k hc2 = wAt g1 (2 * (k.val + 1) + 1) 6 :=
    wAt_of_load1 (F := F) g1 (k0_off309 k) _ 6 (by decide) _ _ _ (2 * (k.val + 1) + 1) (by have h := off309 k; omega) (by omega)
  have ho1_6 : k0_off316 (region_lt.sl.v2229_1 (F := F) g1 k hc2) = ![(wAt g1 (2 * (k.val + 1) + 1) 6).toNat, 0] := by rw [hw1_6]; rfl
  ihave Ht22 := (Entails.of_eq (rest_of_exec (F := F) d L q fT 22 (k0_off316 (region_lt.sl.v2229_1 (F := F) g1 k hc2)) _ (wAt g1 (2 * (k.val + 1) + 1) 6) (slab_inb _ (wAt_slab g1 hS1 (2 * (k.val + 1) + 1) 6)) ho1_6)) $$ Ht22
  have hw1_7 : region_lt.sl.v2238_1 (F := F) g1 k hc2 = wAt g1 (2 * (k.val + 1) + 1) 7 :=
    wAt_of_load1 (F := F) g1 (k0_off309 k) _ 7 (by decide) _ _ _ (2 * (k.val + 1) + 1) (by have h := off309 k; omega) (by omega)
  have ho1_7 : k0_off317 (region_lt.sl.v2238_1 (F := F) g1 k hc2) = ![(wAt g1 (2 * (k.val + 1) + 1) 7).toNat, 0] := by rw [hw1_7]; rfl
  ihave Ht23 := (Entails.of_eq (rest_of_exec (F := F) d L q fT 23 (k0_off317 (region_lt.sl.v2238_1 (F := F) g1 k hc2)) _ (wAt g1 (2 * (k.val + 1) + 1) 7) (slab_inb _ (wAt_slab g1 hS1 (2 * (k.val + 1) + 1) 7)) ho1_7)) $$ Ht23
  have hw1_8 : region_lt.sl.v2247_1 (F := F) g1 k hc2 = wAt g1 (2 * (k.val + 1) + 1) 8 :=
    wAt_of_load1 (F := F) g1 (k0_off309 k) _ 8 (by decide) _ _ _ (2 * (k.val + 1) + 1) (by have h := off309 k; omega) (by omega)
  have ho1_8 : k0_off318 (region_lt.sl.v2247_1 (F := F) g1 k hc2) = ![(wAt g1 (2 * (k.val + 1) + 1) 8).toNat, 0] := by rw [hw1_8]; rfl
  ihave Ht24 := (Entails.of_eq (rest_of_exec (F := F) d L q fT 24 (k0_off318 (region_lt.sl.v2247_1 (F := F) g1 k hc2)) _ (wAt g1 (2 * (k.val + 1) + 1) 8) (slab_inb _ (wAt_slab g1 hS1 (2 * (k.val + 1) + 1) 8)) ho1_8)) $$ Ht24
  have hw1_9 : region_lt.sl.v2256_1 (F := F) g1 k hc2 = wAt g1 (2 * (k.val + 1) + 1) 9 :=
    wAt_of_load1 (F := F) g1 (k0_off309 k) _ 9 (by decide) _ _ _ (2 * (k.val + 1) + 1) (by have h := off309 k; omega) (by omega)
  have ho1_9 : k0_off319 (region_lt.sl.v2256_1 (F := F) g1 k hc2) = ![(wAt g1 (2 * (k.val + 1) + 1) 9).toNat, 0] := by rw [hw1_9]; rfl
  ihave Ht25 := (Entails.of_eq (rest_of_exec (F := F) d L q fT 25 (k0_off319 (region_lt.sl.v2256_1 (F := F) g1 k hc2)) _ (wAt g1 (2 * (k.val + 1) + 1) 9) (slab_inb _ (wAt_slab g1 hS1 (2 * (k.val + 1) + 1) 9)) ho1_9)) $$ Ht25
  have hw1_10 : region_lt.sl.v2265_1 (F := F) g1 k hc2 = wAt g1 (2 * (k.val + 1) + 1) 10 :=
    wAt_of_load1 (F := F) g1 (k0_off309 k) _ 10 (by decide) _ _ _ (2 * (k.val + 1) + 1) (by have h := off309 k; omega) (by omega)
  have ho1_10 : k0_off320 (region_lt.sl.v2265_1 (F := F) g1 k hc2) = ![(wAt g1 (2 * (k.val + 1) + 1) 10).toNat, 0] := by rw [hw1_10]; rfl
  ihave Ht26 := (Entails.of_eq (rest_of_exec (F := F) d L q fT 26 (k0_off320 (region_lt.sl.v2265_1 (F := F) g1 k hc2)) _ (wAt g1 (2 * (k.val + 1) + 1) 10) (slab_inb _ (wAt_slab g1 hS1 (2 * (k.val + 1) + 1) 10)) ho1_10)) $$ Ht26
  have hw1_11 : region_lt.sl.v2274_1 (F := F) g1 k hc2 = wAt g1 (2 * (k.val + 1) + 1) 11 :=
    wAt_of_load1 (F := F) g1 (k0_off309 k) _ 11 (by decide) _ _ _ (2 * (k.val + 1) + 1) (by have h := off309 k; omega) (by omega)
  have ho1_11 : k0_off321 (region_lt.sl.v2274_1 (F := F) g1 k hc2) = ![(wAt g1 (2 * (k.val + 1) + 1) 11).toNat, 0] := by rw [hw1_11]; rfl
  ihave Ht27 := (Entails.of_eq (rest_of_exec (F := F) d L q fT 27 (k0_off321 (region_lt.sl.v2274_1 (F := F) g1 k hc2)) _ (wAt g1 (2 * (k.val + 1) + 1) 11) (slab_inb _ (wAt_slab g1 hS1 (2 * (k.val + 1) + 1) 11)) ho1_11)) $$ Ht27
  have hw1_12 : region_lt.sl.v2283_1 (F := F) g1 k hc2 = wAt g1 (2 * (k.val + 1) + 1) 12 :=
    wAt_of_load1 (F := F) g1 (k0_off309 k) _ 12 (by decide) _ _ _ (2 * (k.val + 1) + 1) (by have h := off309 k; omega) (by omega)
  have ho1_12 : k0_off322 (region_lt.sl.v2283_1 (F := F) g1 k hc2) = ![(wAt g1 (2 * (k.val + 1) + 1) 12).toNat, 0] := by rw [hw1_12]; rfl
  ihave Ht28 := (Entails.of_eq (rest_of_exec (F := F) d L q fT 28 (k0_off322 (region_lt.sl.v2283_1 (F := F) g1 k hc2)) _ (wAt g1 (2 * (k.val + 1) + 1) 12) (slab_inb _ (wAt_slab g1 hS1 (2 * (k.val + 1) + 1) 12)) ho1_12)) $$ Ht28
  have hw1_13 : region_lt.sl.v2292_1 (F := F) g1 k hc2 = wAt g1 (2 * (k.val + 1) + 1) 13 :=
    wAt_of_load1 (F := F) g1 (k0_off309 k) _ 13 (by decide) _ _ _ (2 * (k.val + 1) + 1) (by have h := off309 k; omega) (by omega)
  have ho1_13 : k0_off323 (region_lt.sl.v2292_1 (F := F) g1 k hc2) = ![(wAt g1 (2 * (k.val + 1) + 1) 13).toNat, 0] := by rw [hw1_13]; rfl
  ihave Ht29 := (Entails.of_eq (rest_of_exec (F := F) d L q fT 29 (k0_off323 (region_lt.sl.v2292_1 (F := F) g1 k hc2)) _ (wAt g1 (2 * (k.val + 1) + 1) 13) (slab_inb _ (wAt_slab g1 hS1 (2 * (k.val + 1) + 1) 13)) ho1_13)) $$ Ht29
  have hw1_14 : region_lt.sl.v2301_1 (F := F) g1 k hc2 = wAt g1 (2 * (k.val + 1) + 1) 14 :=
    wAt_of_load1 (F := F) g1 (k0_off309 k) _ 14 (by decide) _ _ _ (2 * (k.val + 1) + 1) (by have h := off309 k; omega) (by omega)
  have ho1_14 : k0_off324 (region_lt.sl.v2301_1 (F := F) g1 k hc2) = ![(wAt g1 (2 * (k.val + 1) + 1) 14).toNat, 0] := by rw [hw1_14]; rfl
  ihave Ht30 := (Entails.of_eq (rest_of_exec (F := F) d L q fT 30 (k0_off324 (region_lt.sl.v2301_1 (F := F) g1 k hc2)) _ (wAt g1 (2 * (k.val + 1) + 1) 14) (slab_inb _ (wAt_slab g1 hS1 (2 * (k.val + 1) + 1) 14)) ho1_14)) $$ Ht30
  have hw1_15 : region_lt.sl.v2310_1 (F := F) g1 k hc2 = wAt g1 (2 * (k.val + 1) + 1) 15 :=
    wAt_of_load1 (F := F) g1 (k0_off309 k) _ 15 (by decide) _ _ _ (2 * (k.val + 1) + 1) (by have h := off309 k; omega) (by omega)
  have ho1_15 : k0_off325 (region_lt.sl.v2310_1 (F := F) g1 k hc2) = ![(wAt g1 (2 * (k.val + 1) + 1) 15).toNat, 0] := by rw [hw1_15]; rfl
  ihave Ht31 := (Entails.of_eq (rest_of_exec (F := F) d L q fT 31 (k0_off325 (region_lt.sl.v2310_1 (F := F) g1 k hc2)) _ (wAt g1 (2 * (k.val + 1) + 1) 15) (slab_inb _ (wAt_slab g1 hS1 (2 * (k.val + 1) + 1) 15)) ho1_15)) $$ Ht31
  try delta region_lt.sl.dma0
  try delta region_lt.sl.dma1
  try delta region_lt.sl.dma2
  try delta region_lt.sl.dma3
  try delta region_lt.sl.dma4
  try delta region_lt.sl.dma5
  try delta region_lt.sl.dma6
  try delta region_lt.sl.dma7
  try delta region_lt.sl.dma8
  try delta region_lt.sl.dma9
  try delta region_lt.sl.dma10
  try delta region_lt.sl.dma11
  try delta region_lt.sl.dma12
  try delta region_lt.sl.dma13
  try delta region_lt.sl.dma14
  try delta region_lt.sl.dma15
  try delta region_lt.sl.dma16
  try delta region_lt.sl.dma17
  try delta region_lt.sl.dma18
  try delta region_lt.sl.dma19
  try delta region_lt.sl.dma20
  try delta region_lt.sl.dma21
  try delta region_lt.sl.dma22
  try delta region_lt.sl.dma23
  try delta region_lt.sl.dma24
  try delta region_lt.sl.dma25
  try delta region_lt.sl.dma26
  try delta region_lt.sl.dma27
  try delta region_lt.sl.dma28
  try delta region_lt.sl.dma29
  try delta region_lt.sl.dma30
  try delta region_lt.sl.dma31
  try delta region_lt.sl.dma32
  try delta region_lt.sl.dma33
  try delta region_lt.sl.dma34
  try delta region_lt.sl.dma35
  try delta region_lt.sl.dma36
  try delta region_lt.sl.dma37
  try delta region_lt.sl.dma38
  try delta region_lt.sl.dma39
  try delta region_lt.sl.dma40
  try delta region_lt.sl.dma41
  try delta region_lt.sl.dma42
  try delta region_lt.sl.dma43
  try delta region_lt.sl.dma44
  try delta region_lt.sl.dma45
  try delta region_lt.sl.dma46
  try delta region_lt.sl.dma47
  try delta region_lt.sl.dma48
  try delta region_lt.sl.dma49
  try delta region_lt.sl.dma50
  try delta region_lt.sl.dma51
  try delta region_lt.sl.dma52
  try delta region_lt.sl.dma53
  try delta region_lt.sl.dma54
  try delta region_lt.sl.dma55
  try delta region_lt.sl.dma56
  try delta region_lt.sl.dma57
  try delta region_lt.sl.dma58
  try delta region_lt.sl.dma59
  try delta region_lt.sl.dma60
  try delta region_lt.sl.dma61
  try delta region_lt.sl.dma62
  try delta region_lt.sl.dma63
  try delta region_lt.sl.dma0_1
  try delta region_lt.sl.dma1_1
  try delta region_lt.sl.dma2_1
  try delta region_lt.sl.dma3_1
  try delta region_lt.sl.dma4_1
  try delta region_lt.sl.dma5_1
  try delta region_lt.sl.dma6_1
  try delta region_lt.sl.dma7_1
  try delta region_lt.sl.dma8_1
  try delta region_lt.sl.dma9_1
  try delta region_lt.sl.dma10_1
  try delta region_lt.sl.dma11_1
  try delta region_lt.sl.dma12_1
  try delta region_lt.sl.dma13_1
  try delta region_lt.sl.dma14_1
  try delta region_lt.sl.dma15_1
  try delta region_lt.sl.dma16_1
  try delta region_lt.sl.dma17_1
  try delta region_lt.sl.dma18_1
  try delta region_lt.sl.dma19_1
  try delta region_lt.sl.dma20_1
  try delta region_lt.sl.dma21_1
  try delta region_lt.sl.dma22_1
  try delta region_lt.sl.dma23_1
  try delta region_lt.sl.dma24_1
  try delta region_lt.sl.dma25_1
  try delta region_lt.sl.dma26_1
  try delta region_lt.sl.dma27_1
  try delta region_lt.sl.dma28_1
  try delta region_lt.sl.dma29_1
  try delta region_lt.sl.dma30_1
  try delta region_lt.sl.dma31_1
  try delta region_lt.sl.dma32_1
  try delta region_lt.sl.dma33_1
  try delta region_lt.sl.dma34_1
  try delta region_lt.sl.dma35_1
  try delta region_lt.sl.dma36_1
  try delta region_lt.sl.dma37_1
  try delta region_lt.sl.dma38_1
  try delta region_lt.sl.dma39_1
  try delta region_lt.sl.dma0_2
  try delta region_lt.sl.dma1_2
  try delta region_lt.sl.dma2_2
  try delta region_lt.sl.dma3_2
  try delta region_lt.sl.dma4_2
  try delta region_lt.sl.dma5_2
  try delta region_lt.sl.dma6_2
  try delta region_lt.sl.dma7_2
  try delta region_lt.sl.dma8_2
  try delta region_lt.sl.dma9_2
  try delta region_lt.sl.dma10_2
  try delta region_lt.sl.dma11_2
  try delta region_lt.sl.dma12_2
  try delta region_lt.sl.dma13_2
  try delta region_lt.sl.dma14_2
  try delta region_lt.sl.dma15_2
  try delta region_lt.sl.dma16_2
  try delta region_lt.sl.dma17_2
  try delta region_lt.sl.dma18_2
  try delta region_lt.sl.dma19_2
  simp only [writes_pair]
  rw [deliv_of_exec (F := F) d L q fT f4 0 0 inb_S2x16x8x64_S1x1x8x64_0_0_0_0 0 _ (k0_off164 (region_lt.sl.v2175 (F := F) g1 k hc1)) _ (wAt g1 (2 * (k.val + 1) + 0) 0) (slab_inb _ (wAt_slab g1 hS1 (2 * (k.val + 1) + 0) 0)) ho0_0,
    deliv_of_exec (F := F) d L q fT f4 0 1 inb_S2x16x8x64_S1x1x8x64_0_1_0_0 1 _ (k0_off165 (region_lt.sl.v2184 (F := F) g1 k hc1)) _ (wAt g1 (2 * (k.val + 1) + 0) 1) (slab_inb _ (wAt_slab g1 hS1 (2 * (k.val + 1) + 0) 1)) ho0_1,
    deliv_of_exec (F := F) d L q fT f4 0 2 inb_S2x16x8x64_S1x1x8x64_0_2_0_0 2 _ (k0_off166 (region_lt.sl.v2193 (F := F) g1 k hc1)) _ (wAt g1 (2 * (k.val + 1) + 0) 2) (slab_inb _ (wAt_slab g1 hS1 (2 * (k.val + 1) + 0) 2)) ho0_2,
    deliv_of_exec (F := F) d L q fT f4 0 3 inb_S2x16x8x64_S1x1x8x64_0_3_0_0 3 _ (k0_off167 (region_lt.sl.v2202 (F := F) g1 k hc1)) _ (wAt g1 (2 * (k.val + 1) + 0) 3) (slab_inb _ (wAt_slab g1 hS1 (2 * (k.val + 1) + 0) 3)) ho0_3,
    deliv_of_exec (F := F) d L q fT f4 0 4 inb_S2x16x8x64_S1x1x8x64_0_4_0_0 4 _ (k0_off168 (region_lt.sl.v2211 (F := F) g1 k hc1)) _ (wAt g1 (2 * (k.val + 1) + 0) 4) (slab_inb _ (wAt_slab g1 hS1 (2 * (k.val + 1) + 0) 4)) ho0_4,
    deliv_of_exec (F := F) d L q fT f4 0 5 inb_S2x16x8x64_S1x1x8x64_0_5_0_0 5 _ (k0_off169 (region_lt.sl.v2220 (F := F) g1 k hc1)) _ (wAt g1 (2 * (k.val + 1) + 0) 5) (slab_inb _ (wAt_slab g1 hS1 (2 * (k.val + 1) + 0) 5)) ho0_5,
    deliv_of_exec (F := F) d L q fT f4 0 6 inb_S2x16x8x64_S1x1x8x64_0_6_0_0 6 _ (k0_off170 (region_lt.sl.v2229 (F := F) g1 k hc1)) _ (wAt g1 (2 * (k.val + 1) + 0) 6) (slab_inb _ (wAt_slab g1 hS1 (2 * (k.val + 1) + 0) 6)) ho0_6,
    deliv_of_exec (F := F) d L q fT f4 0 7 inb_S2x16x8x64_S1x1x8x64_0_7_0_0 7 _ (k0_off171 (region_lt.sl.v2238 (F := F) g1 k hc1)) _ (wAt g1 (2 * (k.val + 1) + 0) 7) (slab_inb _ (wAt_slab g1 hS1 (2 * (k.val + 1) + 0) 7)) ho0_7,
    deliv_of_exec (F := F) d L q fT f4 0 8 inb_S2x16x8x64_S1x1x8x64_0_8_0_0 8 _ (k0_off172 (region_lt.sl.v2247 (F := F) g1 k hc1)) _ (wAt g1 (2 * (k.val + 1) + 0) 8) (slab_inb _ (wAt_slab g1 hS1 (2 * (k.val + 1) + 0) 8)) ho0_8,
    deliv_of_exec (F := F) d L q fT f4 0 9 inb_S2x16x8x64_S1x1x8x64_0_9_0_0 9 _ (k0_off173 (region_lt.sl.v2256 (F := F) g1 k hc1)) _ (wAt g1 (2 * (k.val + 1) + 0) 9) (slab_inb _ (wAt_slab g1 hS1 (2 * (k.val + 1) + 0) 9)) ho0_9,
    deliv_of_exec (F := F) d L q fT f4 0 10 inb_S2x16x8x64_S1x1x8x64_0_10_0_0 10 _ (k0_off174 (region_lt.sl.v2265 (F := F) g1 k hc1)) _ (wAt g1 (2 * (k.val + 1) + 0) 10) (slab_inb _ (wAt_slab g1 hS1 (2 * (k.val + 1) + 0) 10)) ho0_10,
    deliv_of_exec (F := F) d L q fT f4 0 11 inb_S2x16x8x64_S1x1x8x64_0_11_0_0 11 _ (k0_off175 (region_lt.sl.v2274 (F := F) g1 k hc1)) _ (wAt g1 (2 * (k.val + 1) + 0) 11) (slab_inb _ (wAt_slab g1 hS1 (2 * (k.val + 1) + 0) 11)) ho0_11,
    deliv_of_exec (F := F) d L q fT f4 0 12 inb_S2x16x8x64_S1x1x8x64_0_12_0_0 12 _ (k0_off176 (region_lt.sl.v2283 (F := F) g1 k hc1)) _ (wAt g1 (2 * (k.val + 1) + 0) 12) (slab_inb _ (wAt_slab g1 hS1 (2 * (k.val + 1) + 0) 12)) ho0_12,
    deliv_of_exec (F := F) d L q fT f4 0 13 inb_S2x16x8x64_S1x1x8x64_0_13_0_0 13 _ (k0_off177 (region_lt.sl.v2292 (F := F) g1 k hc1)) _ (wAt g1 (2 * (k.val + 1) + 0) 13) (slab_inb _ (wAt_slab g1 hS1 (2 * (k.val + 1) + 0) 13)) ho0_13,
    deliv_of_exec (F := F) d L q fT f4 0 14 inb_S2x16x8x64_S1x1x8x64_0_14_0_0 14 _ (k0_off178 (region_lt.sl.v2301 (F := F) g1 k hc1)) _ (wAt g1 (2 * (k.val + 1) + 0) 14) (slab_inb _ (wAt_slab g1 hS1 (2 * (k.val + 1) + 0) 14)) ho0_14,
    deliv_of_exec (F := F) d L q fT f4 0 15 inb_S2x16x8x64_S1x1x8x64_0_15_0_0 15 _ (k0_off179 (region_lt.sl.v2310 (F := F) g1 k hc1)) _ (wAt g1 (2 * (k.val + 1) + 0) 15) (slab_inb _ (wAt_slab g1 hS1 (2 * (k.val + 1) + 0) 15)) ho0_15]
  rw [deliv_of_exec (F := F) d L q fT f4 1 0 inb_S2x16x8x64_S1x1x8x64_1_0_0_0 16 _ (k0_off310 (region_lt.sl.v2175_1 (F := F) g1 k hc2)) _ (wAt g1 (2 * (k.val + 1) + 1) 0) (slab_inb _ (wAt_slab g1 hS1 (2 * (k.val + 1) + 1) 0)) ho1_0,
    deliv_of_exec (F := F) d L q fT f4 1 1 inb_S2x16x8x64_S1x1x8x64_1_1_0_0 17 _ (k0_off311 (region_lt.sl.v2184_1 (F := F) g1 k hc2)) _ (wAt g1 (2 * (k.val + 1) + 1) 1) (slab_inb _ (wAt_slab g1 hS1 (2 * (k.val + 1) + 1) 1)) ho1_1,
    deliv_of_exec (F := F) d L q fT f4 1 2 inb_S2x16x8x64_S1x1x8x64_1_2_0_0 18 _ (k0_off312 (region_lt.sl.v2193_1 (F := F) g1 k hc2)) _ (wAt g1 (2 * (k.val + 1) + 1) 2) (slab_inb _ (wAt_slab g1 hS1 (2 * (k.val + 1) + 1) 2)) ho1_2,
    deliv_of_exec (F := F) d L q fT f4 1 3 inb_S2x16x8x64_S1x1x8x64_1_3_0_0 19 _ (k0_off313 (region_lt.sl.v2202_1 (F := F) g1 k hc2)) _ (wAt g1 (2 * (k.val + 1) + 1) 3) (slab_inb _ (wAt_slab g1 hS1 (2 * (k.val + 1) + 1) 3)) ho1_3,
    deliv_of_exec (F := F) d L q fT f4 1 4 inb_S2x16x8x64_S1x1x8x64_1_4_0_0 20 _ (k0_off314 (region_lt.sl.v2211_1 (F := F) g1 k hc2)) _ (wAt g1 (2 * (k.val + 1) + 1) 4) (slab_inb _ (wAt_slab g1 hS1 (2 * (k.val + 1) + 1) 4)) ho1_4,
    deliv_of_exec (F := F) d L q fT f4 1 5 inb_S2x16x8x64_S1x1x8x64_1_5_0_0 21 _ (k0_off315 (region_lt.sl.v2220_1 (F := F) g1 k hc2)) _ (wAt g1 (2 * (k.val + 1) + 1) 5) (slab_inb _ (wAt_slab g1 hS1 (2 * (k.val + 1) + 1) 5)) ho1_5,
    deliv_of_exec (F := F) d L q fT f4 1 6 inb_S2x16x8x64_S1x1x8x64_1_6_0_0 22 _ (k0_off316 (region_lt.sl.v2229_1 (F := F) g1 k hc2)) _ (wAt g1 (2 * (k.val + 1) + 1) 6) (slab_inb _ (wAt_slab g1 hS1 (2 * (k.val + 1) + 1) 6)) ho1_6,
    deliv_of_exec (F := F) d L q fT f4 1 7 inb_S2x16x8x64_S1x1x8x64_1_7_0_0 23 _ (k0_off317 (region_lt.sl.v2238_1 (F := F) g1 k hc2)) _ (wAt g1 (2 * (k.val + 1) + 1) 7) (slab_inb _ (wAt_slab g1 hS1 (2 * (k.val + 1) + 1) 7)) ho1_7,
    deliv_of_exec (F := F) d L q fT f4 1 8 inb_S2x16x8x64_S1x1x8x64_1_8_0_0 24 _ (k0_off318 (region_lt.sl.v2247_1 (F := F) g1 k hc2)) _ (wAt g1 (2 * (k.val + 1) + 1) 8) (slab_inb _ (wAt_slab g1 hS1 (2 * (k.val + 1) + 1) 8)) ho1_8,
    deliv_of_exec (F := F) d L q fT f4 1 9 inb_S2x16x8x64_S1x1x8x64_1_9_0_0 25 _ (k0_off319 (region_lt.sl.v2256_1 (F := F) g1 k hc2)) _ (wAt g1 (2 * (k.val + 1) + 1) 9) (slab_inb _ (wAt_slab g1 hS1 (2 * (k.val + 1) + 1) 9)) ho1_9,
    deliv_of_exec (F := F) d L q fT f4 1 10 inb_S2x16x8x64_S1x1x8x64_1_10_0_0 26 _ (k0_off320 (region_lt.sl.v2265_1 (F := F) g1 k hc2)) _ (wAt g1 (2 * (k.val + 1) + 1) 10) (slab_inb _ (wAt_slab g1 hS1 (2 * (k.val + 1) + 1) 10)) ho1_10,
    deliv_of_exec (F := F) d L q fT f4 1 11 inb_S2x16x8x64_S1x1x8x64_1_11_0_0 27 _ (k0_off321 (region_lt.sl.v2274_1 (F := F) g1 k hc2)) _ (wAt g1 (2 * (k.val + 1) + 1) 11) (slab_inb _ (wAt_slab g1 hS1 (2 * (k.val + 1) + 1) 11)) ho1_11,
    deliv_of_exec (F := F) d L q fT f4 1 12 inb_S2x16x8x64_S1x1x8x64_1_12_0_0 28 _ (k0_off322 (region_lt.sl.v2283_1 (F := F) g1 k hc2)) _ (wAt g1 (2 * (k.val + 1) + 1) 12) (slab_inb _ (wAt_slab g1 hS1 (2 * (k.val + 1) + 1) 12)) ho1_12,
    deliv_of_exec (F := F) d L q fT f4 1 13 inb_S2x16x8x64_S1x1x8x64_1_13_0_0 29 _ (k0_off323 (region_lt.sl.v2292_1 (F := F) g1 k hc2)) _ (wAt g1 (2 * (k.val + 1) + 1) 13) (slab_inb _ (wAt_slab g1 hS1 (2 * (k.val + 1) + 1) 13)) ho1_13,
    deliv_of_exec (F := F) d L q fT f4 1 14 inb_S2x16x8x64_S1x1x8x64_1_14_0_0 30 _ (k0_off324 (region_lt.sl.v2301_1 (F := F) g1 k hc2)) _ (wAt g1 (2 * (k.val + 1) + 1) 14) (slab_inb _ (wAt_slab g1 hS1 (2 * (k.val + 1) + 1) 14)) ho1_14,
    deliv_of_exec (F := F) d L q fT f4 1 15 inb_S2x16x8x64_S1x1x8x64_1_15_0_0 31 _ (k0_off325 (region_lt.sl.v2310_1 (F := F) g1 k hc2)) _ (wAt g1 (2 * (k.val + 1) + 1) 15) (slab_inb _ (wAt_slab g1 hS1 (2 * (k.val + 1) + 1) 15)) ho1_15]
  isplitl [Hmw Hi Ho H0 H1 H2 H3 Hs7 Hs8 HO]
  · isplitr; · iexact Hmw
    isplitl [Hi]; · iexact Hi
    isplitl [Ho]; · iexact Ho
    isplitl [H0]; · iexists _; iexact H0
    isplitl [H1]; · iexact H1
    isplitl [H2]; · iexact H2
    isplitl [H3]
    · iexists g3_32; isplitr
      · ipureintro; have h := hD_32; rw [show 32 * k.val + 32 = 32 * (k.val + 1) by ring] at h; exact h
      · iexact H3
    isplitl [Hs7]; · iexact Hs7
    isplitl [Hs8]; · iexact Hs8
    iexists _; isplitr
    rotate_left
    · iexact HO
    · ipureintro; intro p hp
      repeat (first | exact hW' p hp | (rcases Finset.mem_insert.mp hp with hp | hp; · exact .inr (hp ▸ rfl)))
  isplitl [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31]
  · isplitr; · iempintro
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    iexact Ht31
  isplitl [Hs5]; · iexact Hs5
  iexact Hs6

end Cert.KITile

end
-- ==== Proof.RegionB.lean ====
import proofs.«207235_g30958124269674_cont_8to1_b_889_24_alg».proof.Proof.Inv
import proofs.«207235_g30958124269674_cont_8to1_b_889_24_alg».proof.Proof.Value
import proofs.«207235_g30958124269674_cont_8to1_b_889_24_alg».proof.Proof.Convert
import proofs.«207235_g30958124269674_cont_8to1_b_889_24_alg».proof.Proof.Offs

/-! One trip of the loop keeps the invariant: the first half's slabs land, their sixteen rows are picked into the row
    scratch, the next group is fetched into the first half (unless this is the last trip); the same for the second half. -/

noncomputable section

namespace Cert.KITile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The slab check at a word `w'` that is `w` under a wrapper. -/
theorem slab_ok' (w w' : BitVec 32) (e : w' = w) (h : Slab w) :
    (8 ∣ w'.toNat) ∧ (∀ a, (![w.toNat, 0] : Fin 2 → Nat) a + S8x64.size a ≤ S1000000x64.size a) :=
  e ▸ slab_ok w h

theorem slab_ok_g' (C : Prop) (w w' : BitVec 32) (e : w' = w) (h : Slab w) :
    (∀ _ : C, 8 ∣ w'.toNat) ∧ (∀ _ : C, ∀ a, (![w.toNat, 0] : Fin 2 → Nat) a + S8x64.size a ≤ S1000000x64.size a) :=
  e ▸ slab_ok_g C w h

/-- The row check at a word under the index cast. -/
theorem row_ok4' (h k : Nat) (hh : h < 2) (hk : k < 16) (w : BitVec 32) (w' : Index) (e : w' = Scalar.indexCast w) (hr : w.toNat < 8) :
    (∀ a, (![h, k, w'.toNat, 0] : Fin 4 → Nat) a + S1x1x1x16.size a ≤ S2x16x8x64.size a) ∧
    (∀ a, (![h, k, w'.toNat, 16] : Fin 4 → Nat) a + S1x1x1x16.size a ≤ S2x16x8x64.size a) ∧
    (∀ a, (![h, k, w'.toNat, 32] : Fin 4 → Nat) a + S1x1x1x16.size a ≤ S2x16x8x64.size a) ∧
    (∀ a, (![h, k, w'.toNat, 48] : Fin 4 → Nat) a + S1x1x1x16.size a ≤ S2x16x8x64.size a) :=
  e ▸ row_ok4 h k hh hk _ hr

theorem hc1none : ∀ k : Fin k0_t1_loop.trips, ¬ k.val < 15 → ¬ k0_cond1 k = 1#1 := by decide +kernel
theorem hc2none : ∀ k : Fin k0_t1_loop.trips, ¬ k.val < 15 → ¬ k0_cond2 k = 1#1 := by decide +kernel

set_option maxHeartbeats 4000000 in
theorem region_last {d : Dev nD} (L : grid0.Coords) (q : PosShare TreeShare) (O : CellTallies nD τ sig (HIx 1)) (W : Waits sig (HIx 1))
    (fI : Buf (Elt F) (iLoc d)) (fT : Buf (Elt F) (tLoc d)) (fO : Buf (Elt F) (oLoc d))
    (f4 : Buf (Elt F) ((thr d L).loc cc0_scratch4)) (g1 g2 : S512.Idx → BitVec 32)
    (hS1 : ∀ p, Slab (g1 p)) (hR2 : ∀ p, (g2 p).toNat < 8)
    (hidx : ∀ j : S16384.Idx, (fI j).toNat ≤ 999999) (hg1 : g1 = G1 (F := F) L fI) (hg2 : g2 = G2 (F := F) L fI)
    (k : Fin k0_t1_loop.trips) (acc : PUnit) (hk15 : ¬ k.val < 15) :
    inv (F := F) d L q O W fI fT fO f4 g1 g2 hS1 k acc
      ⊢ wp frame (wpE (defs₀ (F := F)) 𝒱₀ (thr d L) none) Set.univ
          (k0_t1_body (F := F) L iV (Memref.isWhole_whole _) tV (Memref.isWhole_whole _) oV (Memref.isWhole_whole _)
            s0 (Memref.isWhole_whole _) s1 (Memref.isWhole_whole _) s2 (Memref.isWhole_whole _) s3 (Memref.isWhole_whole _)
            s4 (Memref.isWhole_whole _) cc0_scratch5 cc0_scratch6 cc0_scoped0 cc0_scoped1 (0#32) k acc)
          (inv (F := F) d L q O W fI fT fO f4 g1 g2 hS1 (k.val + 1)) := by
  have hk16 : k.val < 16 := trips_le k
  have hc1 := hc1none k hk15
  have hc2 := hc2none k hk15
  have hb10 : Transfers.BatchOf (thr d L) (SemLoc.dma cc0_scratch5.sem : SemLoc sig) 16 := trivial
  have hb11 : Transfers.BatchOf (thr d L) (SemLoc.dma cc0_scratch6.sem : SemLoc sig) 16 := trivial
  have hA' : ∀ (R : Rect S512) (h : R.shape.ShapeCasts S16) (j : Nat) (hS : S16.Slices ![j] S1) (h' : ∀ a, (![0] : Fin 1 → Nat) a < S1.size a),
      Slab (extractAt ![0] (extractStridedSlice S1 ![j] (shapeCast S16 (View.readAt (Elt F) s1.view R.toLoadRect g1) h) hS) h') :=
    fun R h j hS h' => lane_slab _ (fun x => hS1 _) j hS h'
  have hR' : ∀ (R : Rect S512) (h : R.shape.ShapeCasts S16) (j : Nat) (hS : S16.Slices ![j] S1) (h' : ∀ a, (![0] : Fin 1 → Nat) a < S1.size a),
      (extractAt ![0] (extractStridedSlice S1 ![j] (shapeCast S16 (View.readAt (Elt F) s2.view R.toLoadRect g2) h) hS) h').toNat < 8 :=
    fun R h j hS h' => lane_lt _ (fun x => hR2 _) j hS h'
  delta inv
  rw [if_pos hk16]
  delta invBase rests flight0 flight1
  iintro ⟨⟨#Hmw, Hi, Ho, ⟨%g0, H0⟩, H1, H2, ⟨%g3_0, %hD, H3⟩, Hs7, Hs8, ⟨%W', %hW', HO⟩⟩, ⟨-, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31⟩, Hs5, Hs6⟩
  have hD_0 : Done (F := F) L fI fT (32 * k.val + 0) g3_0 := hD
  sl_unfold [k0_t1_body]
  sl_exec_parts (disch := first | exact slab_ok_g' _ _ _ rfl (hA' _ _ _ _ _) | (refine row_ok4' _ _ ?_ ?_ _ _ rfl (hR' _ _ _ _ _) <;> decide))
  have hin : ∀ (r c : Nat) (inb : ∀ a, (![0, 0, r, c] : Fin 4 → Nat) a + S1x1x1x16.size a ≤ S2x16x8x64.size a),
      (s4 : Memref sig .scVector .vmem S2x16x8x64 .f32).view.setOn (Rect.unit (s := S2x16x8x64) ![0, 0, r, c] S1x1x1x16.size inb).set ⊆ slot0_0.view.set :=
    fun r c inb => row_in_slot 0 0 r c inb inb_S2x16x8x64_S1x1x8x64_0_0_0_0
  sl_exec_parts (disch := (refine row_ok4' _ _ ?_ ?_ _ _ rfl (hR' _ _ _ _ _) <;> decide))
  clear hin
  have hr_0_0 : region_last.sl.v783 (F := F) g2 k = g2 (ValueIdx.ix1 ⟨32 * k.val + 0, by omega⟩) :=
    (word_of_load2 (F := F) g2 (k0_off34 k) _ 0 (by decide) _ _ _).trans
      (congrArg g2 (congrArg ValueIdx.ix1 (Fin.ext (by have h := off34 k; show k0_off34 k 0 + 0 = 32 * k.val + 0; omega))))
  generalize hq0 : View.writes (s3 : Memref sig .scVector .vmem S512x64 .f32).view (Elt F) g3_0 _ = g3_1
  have hD_1 : Done (F := F) L fI fT (32 * k.val + 1) g3_1 := by
    rw [← hq0]
    exact lane_done4' (F := F) L fI fT hidx (32 * k.val + 0) _ rfl g3_0 hD_0
      (k0_off36 k) (k0_off38 k) (k0_off40 k) (k0_off42 k) (offS_36 k) (offS_38 k) (offS_40 k) (offS_42 k) _ _ _ _ _ _ _ _
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 0 _ rfl _ _ (offS_36 k) _ _ _ x)
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 16 _ rfl _ _ (offS_38 k) _ _ _ x)
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 32 _ rfl _ _ (offS_40 k) _ _ _ x)
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 48 _ rfl _ _ (offS_42 k) _ _ _ x)
  clear hq0 hD_0 hr_0_0
  have hin : ∀ (r c : Nat) (inb : ∀ a, (![0, 1, r, c] : Fin 4 → Nat) a + S1x1x1x16.size a ≤ S2x16x8x64.size a),
      (s4 : Memref sig .scVector .vmem S2x16x8x64 .f32).view.setOn (Rect.unit (s := S2x16x8x64) ![0, 1, r, c] S1x1x1x16.size inb).set ⊆ slot0_1.view.set :=
    fun r c inb => row_in_slot 0 1 r c inb inb_S2x16x8x64_S1x1x8x64_0_1_0_0
  sl_exec_parts (disch := (refine row_ok4' _ _ ?_ ?_ _ _ rfl (hR' _ _ _ _ _) <;> decide))
  clear hin
  have hr_0_1 : region_last.sl.v823 (F := F) g2 k = g2 (ValueIdx.ix1 ⟨32 * k.val + 1, by omega⟩) :=
    (word_of_load2 (F := F) g2 (k0_off34 k) _ 1 (by decide) _ _ _).trans
      (congrArg g2 (congrArg ValueIdx.ix1 (Fin.ext (by have h := off34 k; show k0_off34 k 0 + 1 = 32 * k.val + 1; omega))))
  generalize hq1 : View.writes (s3 : Memref sig .scVector .vmem S512x64 .f32).view (Elt F) g3_1 _ = g3_2
  have hD_2 : Done (F := F) L fI fT (32 * k.val + 2) g3_2 := by
    rw [← hq1]
    exact lane_done4' (F := F) L fI fT hidx (32 * k.val + 1) _ rfl g3_1 hD_1
      (k0_off44 k) (k0_off46 k) (k0_off48 k) (k0_off50 k) (offS_44 k) (offS_46 k) (offS_48 k) (offS_50 k) _ _ _ _ _ _ _ _
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 0 _ rfl _ _ (offS_44 k) _ _ _ x)
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 16 _ rfl _ _ (offS_46 k) _ _ _ x)
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 32 _ rfl _ _ (offS_48 k) _ _ _ x)
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 48 _ rfl _ _ (offS_50 k) _ _ _ x)
  clear hq1 hD_1 hr_0_1
  have hin : ∀ (r c : Nat) (inb : ∀ a, (![0, 2, r, c] : Fin 4 → Nat) a + S1x1x1x16.size a ≤ S2x16x8x64.size a),
      (s4 : Memref sig .scVector .vmem S2x16x8x64 .f32).view.setOn (Rect.unit (s := S2x16x8x64) ![0, 2, r, c] S1x1x1x16.size inb).set ⊆ slot0_2.view.set :=
    fun r c inb => row_in_slot 0 2 r c inb inb_S2x16x8x64_S1x1x8x64_0_2_0_0
  sl_exec_parts (disch := (refine row_ok4' _ _ ?_ ?_ _ _ rfl (hR' _ _ _ _ _) <;> decide))
  clear hin
  have hr_0_2 : region_last.sl.v863 (F := F) g2 k = g2 (ValueIdx.ix1 ⟨32 * k.val + 2, by omega⟩) :=
    (word_of_load2 (F := F) g2 (k0_off34 k) _ 2 (by decide) _ _ _).trans
      (congrArg g2 (congrArg ValueIdx.ix1 (Fin.ext (by have h := off34 k; show k0_off34 k 0 + 2 = 32 * k.val + 2; omega))))
  generalize hq2 : View.writes (s3 : Memref sig .scVector .vmem S512x64 .f32).view (Elt F) g3_2 _ = g3_3
  have hD_3 : Done (F := F) L fI fT (32 * k.val + 3) g3_3 := by
    rw [← hq2]
    exact lane_done4' (F := F) L fI fT hidx (32 * k.val + 2) _ rfl g3_2 hD_2
      (k0_off52 k) (k0_off54 k) (k0_off56 k) (k0_off58 k) (offS_52 k) (offS_54 k) (offS_56 k) (offS_58 k) _ _ _ _ _ _ _ _
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 0 _ rfl _ _ (offS_52 k) _ _ _ x)
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 16 _ rfl _ _ (offS_54 k) _ _ _ x)
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 32 _ rfl _ _ (offS_56 k) _ _ _ x)
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 48 _ rfl _ _ (offS_58 k) _ _ _ x)
  clear hq2 hD_2 hr_0_2
  have hin : ∀ (r c : Nat) (inb : ∀ a, (![0, 3, r, c] : Fin 4 → Nat) a + S1x1x1x16.size a ≤ S2x16x8x64.size a),
      (s4 : Memref sig .scVector .vmem S2x16x8x64 .f32).view.setOn (Rect.unit (s := S2x16x8x64) ![0, 3, r, c] S1x1x1x16.size inb).set ⊆ slot0_3.view.set :=
    fun r c inb => row_in_slot 0 3 r c inb inb_S2x16x8x64_S1x1x8x64_0_3_0_0
  sl_exec_parts (disch := (refine row_ok4' _ _ ?_ ?_ _ _ rfl (hR' _ _ _ _ _) <;> decide))
  clear hin
  have hr_0_3 : region_last.sl.v903 (F := F) g2 k = g2 (ValueIdx.ix1 ⟨32 * k.val + 3, by omega⟩) :=
    (word_of_load2 (F := F) g2 (k0_off34 k) _ 3 (by decide) _ _ _).trans
      (congrArg g2 (congrArg ValueIdx.ix1 (Fin.ext (by have h := off34 k; show k0_off34 k 0 + 3 = 32 * k.val + 3; omega))))
  generalize hq3 : View.writes (s3 : Memref sig .scVector .vmem S512x64 .f32).view (Elt F) g3_3 _ = g3_4
  have hD_4 : Done (F := F) L fI fT (32 * k.val + 4) g3_4 := by
    rw [← hq3]
    exact lane_done4' (F := F) L fI fT hidx (32 * k.val + 3) _ rfl g3_3 hD_3
      (k0_off60 k) (k0_off62 k) (k0_off64 k) (k0_off66 k) (offS_60 k) (offS_62 k) (offS_64 k) (offS_66 k) _ _ _ _ _ _ _ _
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 0 _ rfl _ _ (offS_60 k) _ _ _ x)
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 16 _ rfl _ _ (offS_62 k) _ _ _ x)
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 32 _ rfl _ _ (offS_64 k) _ _ _ x)
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 48 _ rfl _ _ (offS_66 k) _ _ _ x)
  clear hq3 hD_3 hr_0_3
  have hin : ∀ (r c : Nat) (inb : ∀ a, (![0, 4, r, c] : Fin 4 → Nat) a + S1x1x1x16.size a ≤ S2x16x8x64.size a),
      (s4 : Memref sig .scVector .vmem S2x16x8x64 .f32).view.setOn (Rect.unit (s := S2x16x8x64) ![0, 4, r, c] S1x1x1x16.size inb).set ⊆ slot0_4.view.set :=
    fun r c inb => row_in_slot 0 4 r c inb inb_S2x16x8x64_S1x1x8x64_0_4_0_0
  sl_exec_parts (disch := (refine row_ok4' _ _ ?_ ?_ _ _ rfl (hR' _ _ _ _ _) <;> decide))
  clear hin
  have hr_0_4 : region_last.sl.v943 (F := F) g2 k = g2 (ValueIdx.ix1 ⟨32 * k.val + 4, by omega⟩) :=
    (word_of_load2 (F := F) g2 (k0_off34 k) _ 4 (by decide) _ _ _).trans
      (congrArg g2 (congrArg ValueIdx.ix1 (Fin.ext (by have h := off34 k; show k0_off34 k 0 + 4 = 32 * k.val + 4; omega))))
  generalize hq4 : View.writes (s3 : Memref sig .scVector .vmem S512x64 .f32).view (Elt F) g3_4 _ = g3_5
  have hD_5 : Done (F := F) L fI fT (32 * k.val + 5) g3_5 := by
    rw [← hq4]
    exact lane_done4' (F := F) L fI fT hidx (32 * k.val + 4) _ rfl g3_4 hD_4
      (k0_off68 k) (k0_off70 k) (k0_off72 k) (k0_off74 k) (offS_68 k) (offS_70 k) (offS_72 k) (offS_74 k) _ _ _ _ _ _ _ _
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 0 _ rfl _ _ (offS_68 k) _ _ _ x)
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 16 _ rfl _ _ (offS_70 k) _ _ _ x)
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 32 _ rfl _ _ (offS_72 k) _ _ _ x)
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 48 _ rfl _ _ (offS_74 k) _ _ _ x)
  clear hq4 hD_4 hr_0_4
  have hin : ∀ (r c : Nat) (inb : ∀ a, (![0, 5, r, c] : Fin 4 → Nat) a + S1x1x1x16.size a ≤ S2x16x8x64.size a),
      (s4 : Memref sig .scVector .vmem S2x16x8x64 .f32).view.setOn (Rect.unit (s := S2x16x8x64) ![0, 5, r, c] S1x1x1x16.size inb).set ⊆ slot0_5.view.set :=
    fun r c inb => row_in_slot 0 5 r c inb inb_S2x16x8x64_S1x1x8x64_0_5_0_0
  sl_exec_parts (disch := (refine row_ok4' _ _ ?_ ?_ _ _ rfl (hR' _ _ _ _ _) <;> decide))
  clear hin
  have hr_0_5 : region_last.sl.v983 (F := F) g2 k = g2 (ValueIdx.ix1 ⟨32 * k.val + 5, by omega⟩) :=
    (word_of_load2 (F := F) g2 (k0_off34 k) _ 5 (by decide) _ _ _).trans
      (congrArg g2 (congrArg ValueIdx.ix1 (Fin.ext (by have h := off34 k; show k0_off34 k 0 + 5 = 32 * k.val + 5; omega))))
  generalize hq5 : View.writes (s3 : Memref sig .scVector .vmem S512x64 .f32).view (Elt F) g3_5 _ = g3_6
  have hD_6 : Done (F := F) L fI fT (32 * k.val + 6) g3_6 := by
    rw [← hq5]
    exact lane_done4' (F := F) L fI fT hidx (32 * k.val + 5) _ rfl g3_5 hD_5
      (k0_off76 k) (k0_off78 k) (k0_off80 k) (k0_off82 k) (offS_76 k) (offS_78 k) (offS_80 k) (offS_82 k) _ _ _ _ _ _ _ _
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 0 _ rfl _ _ (offS_76 k) _ _ _ x)
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 16 _ rfl _ _ (offS_78 k) _ _ _ x)
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 32 _ rfl _ _ (offS_80 k) _ _ _ x)
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 48 _ rfl _ _ (offS_82 k) _ _ _ x)
  clear hq5 hD_5 hr_0_5
  have hin : ∀ (r c : Nat) (inb : ∀ a, (![0, 6, r, c] : Fin 4 → Nat) a + S1x1x1x16.size a ≤ S2x16x8x64.size a),
      (s4 : Memref sig .scVector .vmem S2x16x8x64 .f32).view.setOn (Rect.unit (s := S2x16x8x64) ![0, 6, r, c] S1x1x1x16.size inb).set ⊆ slot0_6.view.set :=
    fun r c inb => row_in_slot 0 6 r c inb inb_S2x16x8x64_S1x1x8x64_0_6_0_0
  sl_exec_parts (disch := (refine row_ok4' _ _ ?_ ?_ _ _ rfl (hR' _ _ _ _ _) <;> decide))
  clear hin
  have hr_0_6 : region_last.sl.v1023 (F := F) g2 k = g2 (ValueIdx.ix1 ⟨32 * k.val + 6, by omega⟩) :=
    (word_of_load2 (F := F) g2 (k0_off34 k) _ 6 (by decide) _ _ _).trans
      (congrArg g2 (congrArg ValueIdx.ix1 (Fin.ext (by have h := off34 k; show k0_off34 k 0 + 6 = 32 * k.val + 6; omega))))
  generalize hq6 : View.writes (s3 : Memref sig .scVector .vmem S512x64 .f32).view (Elt F) g3_6 _ = g3_7
  have hD_7 : Done (F := F) L fI fT (32 * k.val + 7) g3_7 := by
    rw [← hq6]
    exact lane_done4' (F := F) L fI fT hidx (32 * k.val + 6) _ rfl g3_6 hD_6
      (k0_off84 k) (k0_off86 k) (k0_off88 k) (k0_off90 k) (offS_84 k) (offS_86 k) (offS_88 k) (offS_90 k) _ _ _ _ _ _ _ _
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 0 _ rfl _ _ (offS_84 k) _ _ _ x)
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 16 _ rfl _ _ (offS_86 k) _ _ _ x)
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 32 _ rfl _ _ (offS_88 k) _ _ _ x)
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 48 _ rfl _ _ (offS_90 k) _ _ _ x)
  clear hq6 hD_6 hr_0_6
  have hin : ∀ (r c : Nat) (inb : ∀ a, (![0, 7, r, c] : Fin 4 → Nat) a + S1x1x1x16.size a ≤ S2x16x8x64.size a),
      (s4 : Memref sig .scVector .vmem S2x16x8x64 .f32).view.setOn (Rect.unit (s := S2x16x8x64) ![0, 7, r, c] S1x1x1x16.size inb).set ⊆ slot0_7.view.set :=
    fun r c inb => row_in_slot 0 7 r c inb inb_S2x16x8x64_S1x1x8x64_0_7_0_0
  sl_exec_parts (disch := (refine row_ok4' _ _ ?_ ?_ _ _ rfl (hR' _ _ _ _ _) <;> decide))
  clear hin
  have hr_0_7 : region_last.sl.v1063 (F := F) g2 k = g2 (ValueIdx.ix1 ⟨32 * k.val + 7, by omega⟩) :=
    (word_of_load2 (F := F) g2 (k0_off34 k) _ 7 (by decide) _ _ _).trans
      (congrArg g2 (congrArg ValueIdx.ix1 (Fin.ext (by have h := off34 k; show k0_off34 k 0 + 7 = 32 * k.val + 7; omega))))
  generalize hq7 : View.writes (s3 : Memref sig .scVector .vmem S512x64 .f32).view (Elt F) g3_7 _ = g3_8
  have hD_8 : Done (F := F) L fI fT (32 * k.val + 8) g3_8 := by
    rw [← hq7]
    exact lane_done4' (F := F) L fI fT hidx (32 * k.val + 7) _ rfl g3_7 hD_7
      (k0_off92 k) (k0_off94 k) (k0_off96 k) (k0_off98 k) (offS_92 k) (offS_94 k) (offS_96 k) (offS_98 k) _ _ _ _ _ _ _ _
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 0 _ rfl _ _ (offS_92 k) _ _ _ x)
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 16 _ rfl _ _ (offS_94 k) _ _ _ x)
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 32 _ rfl _ _ (offS_96 k) _ _ _ x)
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 48 _ rfl _ _ (offS_98 k) _ _ _ x)
  clear hq7 hD_7 hr_0_7
  have hin : ∀ (r c : Nat) (inb : ∀ a, (![0, 8, r, c] : Fin 4 → Nat) a + S1x1x1x16.size a ≤ S2x16x8x64.size a),
      (s4 : Memref sig .scVector .vmem S2x16x8x64 .f32).view.setOn (Rect.unit (s := S2x16x8x64) ![0, 8, r, c] S1x1x1x16.size inb).set ⊆ slot0_8.view.set :=
    fun r c inb => row_in_slot 0 8 r c inb inb_S2x16x8x64_S1x1x8x64_0_8_0_0
  sl_exec_parts (disch := (refine row_ok4' _ _ ?_ ?_ _ _ rfl (hR' _ _ _ _ _) <;> decide))
  clear hin
  have hr_0_8 : region_last.sl.v1103 (F := F) g2 k = g2 (ValueIdx.ix1 ⟨32 * k.val + 8, by omega⟩) :=
    (word_of_load2 (F := F) g2 (k0_off34 k) _ 8 (by decide) _ _ _).trans
      (congrArg g2 (congrArg ValueIdx.ix1 (Fin.ext (by have h := off34 k; show k0_off34 k 0 + 8 = 32 * k.val + 8; omega))))
  generalize hq8 : View.writes (s3 : Memref sig .scVector .vmem S512x64 .f32).view (Elt F) g3_8 _ = g3_9
  have hD_9 : Done (F := F) L fI fT (32 * k.val + 9) g3_9 := by
    rw [← hq8]
    exact lane_done4' (F := F) L fI fT hidx (32 * k.val + 8) _ rfl g3_8 hD_8
      (k0_off100 k) (k0_off102 k) (k0_off104 k) (k0_off106 k) (offS_100 k) (offS_102 k) (offS_104 k) (offS_106 k) _ _ _ _ _ _ _ _
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 0 _ rfl _ _ (offS_100 k) _ _ _ x)
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 16 _ rfl _ _ (offS_102 k) _ _ _ x)
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 32 _ rfl _ _ (offS_104 k) _ _ _ x)
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 48 _ rfl _ _ (offS_106 k) _ _ _ x)
  clear hq8 hD_8 hr_0_8
  have hin : ∀ (r c : Nat) (inb : ∀ a, (![0, 9, r, c] : Fin 4 → Nat) a + S1x1x1x16.size a ≤ S2x16x8x64.size a),
      (s4 : Memref sig .scVector .vmem S2x16x8x64 .f32).view.setOn (Rect.unit (s := S2x16x8x64) ![0, 9, r, c] S1x1x1x16.size inb).set ⊆ slot0_9.view.set :=
    fun r c inb => row_in_slot 0 9 r c inb inb_S2x16x8x64_S1x1x8x64_0_9_0_0
  sl_exec_parts (disch := (refine row_ok4' _ _ ?_ ?_ _ _ rfl (hR' _ _ _ _ _) <;> decide))
  clear hin
  have hr_0_9 : region_last.sl.v1143 (F := F) g2 k = g2 (ValueIdx.ix1 ⟨32 * k.val + 9, by omega⟩) :=
    (word_of_load2 (F := F) g2 (k0_off34 k) _ 9 (by decide) _ _ _).trans
      (congrArg g2 (congrArg ValueIdx.ix1 (Fin.ext (by have h := off34 k; show k0_off34 k 0 + 9 = 32 * k.val + 9; omega))))
  generalize hq9 : View.writes (s3 : Memref sig .scVector .vmem S512x64 .f32).view (Elt F) g3_9 _ = g3_10
  have hD_10 : Done (F := F) L fI fT (32 * k.val + 10) g3_10 := by
    rw [← hq9]
    exact lane_done4' (F := F) L fI fT hidx (32 * k.val + 9) _ rfl g3_9 hD_9
      (k0_off108 k) (k0_off110 k) (k0_off112 k) (k0_off114 k) (offS_108 k) (offS_110 k) (offS_112 k) (offS_114 k) _ _ _ _ _ _ _ _
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 0 _ rfl _ _ (offS_108 k) _ _ _ x)
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 16 _ rfl _ _ (offS_110 k) _ _ _ x)
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 32 _ rfl _ _ (offS_112 k) _ _ _ x)
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 48 _ rfl _ _ (offS_114 k) _ _ _ x)
  clear hq9 hD_9 hr_0_9
  have hin : ∀ (r c : Nat) (inb : ∀ a, (![0, 10, r, c] : Fin 4 → Nat) a + S1x1x1x16.size a ≤ S2x16x8x64.size a),
      (s4 : Memref sig .scVector .vmem S2x16x8x64 .f32).view.setOn (Rect.unit (s := S2x16x8x64) ![0, 10, r, c] S1x1x1x16.size inb).set ⊆ slot0_10.view.set :=
    fun r c inb => row_in_slot 0 10 r c inb inb_S2x16x8x64_S1x1x8x64_0_10_0_0
  sl_exec_parts (disch := (refine row_ok4' _ _ ?_ ?_ _ _ rfl (hR' _ _ _ _ _) <;> decide))
  clear hin
  have hr_0_10 : region_last.sl.v1183 (F := F) g2 k = g2 (ValueIdx.ix1 ⟨32 * k.val + 10, by omega⟩) :=
    (word_of_load2 (F := F) g2 (k0_off34 k) _ 10 (by decide) _ _ _).trans
      (congrArg g2 (congrArg ValueIdx.ix1 (Fin.ext (by have h := off34 k; show k0_off34 k 0 + 10 = 32 * k.val + 10; omega))))
  generalize hq10 : View.writes (s3 : Memref sig .scVector .vmem S512x64 .f32).view (Elt F) g3_10 _ = g3_11
  have hD_11 : Done (F := F) L fI fT (32 * k.val + 11) g3_11 := by
    rw [← hq10]
    exact lane_done4' (F := F) L fI fT hidx (32 * k.val + 10) _ rfl g3_10 hD_10
      (k0_off116 k) (k0_off118 k) (k0_off120 k) (k0_off122 k) (offS_116 k) (offS_118 k) (offS_120 k) (offS_122 k) _ _ _ _ _ _ _ _
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 0 _ rfl _ _ (offS_116 k) _ _ _ x)
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 16 _ rfl _ _ (offS_118 k) _ _ _ x)
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 32 _ rfl _ _ (offS_120 k) _ _ _ x)
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 48 _ rfl _ _ (offS_122 k) _ _ _ x)
  clear hq10 hD_10 hr_0_10
  have hin : ∀ (r c : Nat) (inb : ∀ a, (![0, 11, r, c] : Fin 4 → Nat) a + S1x1x1x16.size a ≤ S2x16x8x64.size a),
      (s4 : Memref sig .scVector .vmem S2x16x8x64 .f32).view.setOn (Rect.unit (s := S2x16x8x64) ![0, 11, r, c] S1x1x1x16.size inb).set ⊆ slot0_11.view.set :=
    fun r c inb => row_in_slot 0 11 r c inb inb_S2x16x8x64_S1x1x8x64_0_11_0_0
  sl_exec_parts (disch := (refine row_ok4' _ _ ?_ ?_ _ _ rfl (hR' _ _ _ _ _) <;> decide))
  clear hin
  have hr_0_11 : region_last.sl.v1223 (F := F) g2 k = g2 (ValueIdx.ix1 ⟨32 * k.val + 11, by omega⟩) :=
    (word_of_load2 (F := F) g2 (k0_off34 k) _ 11 (by decide) _ _ _).trans
      (congrArg g2 (congrArg ValueIdx.ix1 (Fin.ext (by have h := off34 k; show k0_off34 k 0 + 11 = 32 * k.val + 11; omega))))
  generalize hq11 : View.writes (s3 : Memref sig .scVector .vmem S512x64 .f32).view (Elt F) g3_11 _ = g3_12
  have hD_12 : Done (F := F) L fI fT (32 * k.val + 12) g3_12 := by
    rw [← hq11]
    exact lane_done4' (F := F) L fI fT hidx (32 * k.val + 11) _ rfl g3_11 hD_11
      (k0_off124 k) (k0_off126 k) (k0_off128 k) (k0_off130 k) (offS_124 k) (offS_126 k) (offS_128 k) (offS_130 k) _ _ _ _ _ _ _ _
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 0 _ rfl _ _ (offS_124 k) _ _ _ x)
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 16 _ rfl _ _ (offS_126 k) _ _ _ x)
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 32 _ rfl _ _ (offS_128 k) _ _ _ x)
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 48 _ rfl _ _ (offS_130 k) _ _ _ x)
  clear hq11 hD_11 hr_0_11
  have hin : ∀ (r c : Nat) (inb : ∀ a, (![0, 12, r, c] : Fin 4 → Nat) a + S1x1x1x16.size a ≤ S2x16x8x64.size a),
      (s4 : Memref sig .scVector .vmem S2x16x8x64 .f32).view.setOn (Rect.unit (s := S2x16x8x64) ![0, 12, r, c] S1x1x1x16.size inb).set ⊆ slot0_12.view.set :=
    fun r c inb => row_in_slot 0 12 r c inb inb_S2x16x8x64_S1x1x8x64_0_12_0_0
  sl_exec_parts (disch := (refine row_ok4' _ _ ?_ ?_ _ _ rfl (hR' _ _ _ _ _) <;> decide))
  clear hin
  have hr_0_12 : region_last.sl.v1263 (F := F) g2 k = g2 (ValueIdx.ix1 ⟨32 * k.val + 12, by omega⟩) :=
    (word_of_load2 (F := F) g2 (k0_off34 k) _ 12 (by decide) _ _ _).trans
      (congrArg g2 (congrArg ValueIdx.ix1 (Fin.ext (by have h := off34 k; show k0_off34 k 0 + 12 = 32 * k.val + 12; omega))))
  generalize hq12 : View.writes (s3 : Memref sig .scVector .vmem S512x64 .f32).view (Elt F) g3_12 _ = g3_13
  have hD_13 : Done (F := F) L fI fT (32 * k.val + 13) g3_13 := by
    rw [← hq12]
    exact lane_done4' (F := F) L fI fT hidx (32 * k.val + 12) _ rfl g3_12 hD_12
      (k0_off132 k) (k0_off134 k) (k0_off136 k) (k0_off138 k) (offS_132 k) (offS_134 k) (offS_136 k) (offS_138 k) _ _ _ _ _ _ _ _
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 0 _ rfl _ _ (offS_132 k) _ _ _ x)
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 16 _ rfl _ _ (offS_134 k) _ _ _ x)
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 32 _ rfl _ _ (offS_136 k) _ _ _ x)
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 48 _ rfl _ _ (offS_138 k) _ _ _ x)
  clear hq12 hD_12 hr_0_12
  have hin : ∀ (r c : Nat) (inb : ∀ a, (![0, 13, r, c] : Fin 4 → Nat) a + S1x1x1x16.size a ≤ S2x16x8x64.size a),
      (s4 : Memref sig .scVector .vmem S2x16x8x64 .f32).view.setOn (Rect.unit (s := S2x16x8x64) ![0, 13, r, c] S1x1x1x16.size inb).set ⊆ slot0_13.view.set :=
    fun r c inb => row_in_slot 0 13 r c inb inb_S2x16x8x64_S1x1x8x64_0_13_0_0
  sl_exec_parts (disch := (refine row_ok4' _ _ ?_ ?_ _ _ rfl (hR' _ _ _ _ _) <;> decide))
  clear hin
  have hr_0_13 : region_last.sl.v1303 (F := F) g2 k = g2 (ValueIdx.ix1 ⟨32 * k.val + 13, by omega⟩) :=
    (word_of_load2 (F := F) g2 (k0_off34 k) _ 13 (by decide) _ _ _).trans
      (congrArg g2 (congrArg ValueIdx.ix1 (Fin.ext (by have h := off34 k; show k0_off34 k 0 + 13 = 32 * k.val + 13; omega))))
  generalize hq13 : View.writes (s3 : Memref sig .scVector .vmem S512x64 .f32).view (Elt F) g3_13 _ = g3_14
  have hD_14 : Done (F := F) L fI fT (32 * k.val + 14) g3_14 := by
    rw [← hq13]
    exact lane_done4' (F := F) L fI fT hidx (32 * k.val + 13) _ rfl g3_13 hD_13
      (k0_off140 k) (k0_off142 k) (k0_off144 k) (k0_off146 k) (offS_140 k) (offS_142 k) (offS_144 k) (offS_146 k) _ _ _ _ _ _ _ _
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 0 _ rfl _ _ (offS_140 k) _ _ _ x)
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 16 _ rfl _ _ (offS_142 k) _ _ _ x)
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 32 _ rfl _ _ (offS_144 k) _ _ _ x)
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 48 _ rfl _ _ (offS_146 k) _ _ _ x)
  clear hq13 hD_13 hr_0_13
  have hin : ∀ (r c : Nat) (inb : ∀ a, (![0, 14, r, c] : Fin 4 → Nat) a + S1x1x1x16.size a ≤ S2x16x8x64.size a),
      (s4 : Memref sig .scVector .vmem S2x16x8x64 .f32).view.setOn (Rect.unit (s := S2x16x8x64) ![0, 14, r, c] S1x1x1x16.size inb).set ⊆ slot0_14.view.set :=
    fun r c inb => row_in_slot 0 14 r c inb inb_S2x16x8x64_S1x1x8x64_0_14_0_0
  sl_exec_parts (disch := (refine row_ok4' _ _ ?_ ?_ _ _ rfl (hR' _ _ _ _ _) <;> decide))
  clear hin
  have hr_0_14 : region_last.sl.v1343 (F := F) g2 k = g2 (ValueIdx.ix1 ⟨32 * k.val + 14, by omega⟩) :=
    (word_of_load2 (F := F) g2 (k0_off34 k) _ 14 (by decide) _ _ _).trans
      (congrArg g2 (congrArg ValueIdx.ix1 (Fin.ext (by have h := off34 k; show k0_off34 k 0 + 14 = 32 * k.val + 14; omega))))
  generalize hq14 : View.writes (s3 : Memref sig .scVector .vmem S512x64 .f32).view (Elt F) g3_14 _ = g3_15
  have hD_15 : Done (F := F) L fI fT (32 * k.val + 15) g3_15 := by
    rw [← hq14]
    exact lane_done4' (F := F) L fI fT hidx (32 * k.val + 14) _ rfl g3_14 hD_14
      (k0_off148 k) (k0_off150 k) (k0_off152 k) (k0_off154 k) (offS_148 k) (offS_150 k) (offS_152 k) (offS_154 k) _ _ _ _ _ _ _ _
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 0 _ rfl _ _ (offS_148 k) _ _ _ x)
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 16 _ rfl _ _ (offS_150 k) _ _ _ x)
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 32 _ rfl _ _ (offS_152 k) _ _ _ x)
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 48 _ rfl _ _ (offS_154 k) _ _ _ x)
  clear hq14 hD_14 hr_0_14
  have hin : ∀ (r c : Nat) (inb : ∀ a, (![0, 15, r, c] : Fin 4 → Nat) a + S1x1x1x16.size a ≤ S2x16x8x64.size a),
      (s4 : Memref sig .scVector .vmem S2x16x8x64 .f32).view.setOn (Rect.unit (s := S2x16x8x64) ![0, 15, r, c] S1x1x1x16.size inb).set ⊆ slot0_15.view.set :=
    fun r c inb => row_in_slot 0 15 r c inb inb_S2x16x8x64_S1x1x8x64_0_15_0_0
  sl_exec_parts (disch := first | exact slab_ok_g' _ _ _ rfl (hA' _ _ _ _ _) | (refine row_ok4' _ _ ?_ ?_ _ _ rfl (hR' _ _ _ _ _) <;> decide))
  clear hin
  have hr_0_15 : region_last.sl.v1383 (F := F) g2 k = g2 (ValueIdx.ix1 ⟨32 * k.val + 15, by omega⟩) :=
    (word_of_load2 (F := F) g2 (k0_off34 k) _ 15 (by decide) _ _ _).trans
      (congrArg g2 (congrArg ValueIdx.ix1 (Fin.ext (by have h := off34 k; show k0_off34 k 0 + 15 = 32 * k.val + 15; omega))))
  generalize hq15 : View.writes (s3 : Memref sig .scVector .vmem S512x64 .f32).view (Elt F) g3_15 _ = g3_16
  have hD_16 : Done (F := F) L fI fT (32 * k.val + 16) g3_16 := by
    rw [← hq15]
    exact lane_done4' (F := F) L fI fT hidx (32 * k.val + 15) _ rfl g3_15 hD_15
      (k0_off156 k) (k0_off158 k) (k0_off160 k) (k0_off162 k) (offS_156 k) (offS_158 k) (offS_160 k) (offS_162 k) _ _ _ _ _ _ _ _
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 0 _ rfl _ _ (offS_156 k) _ _ _ x)
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 16 _ rfl _ _ (offS_158 k) _ _ _ x)
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 32 _ rfl _ _ (offS_160 k) _ _ _ x)
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 48 _ rfl _ _ (offS_162 k) _ _ _ x)
  clear hq15 hD_15 hr_0_15
  have hin : ∀ (r c : Nat) (inb : ∀ a, (![1, 0, r, c] : Fin 4 → Nat) a + S1x1x1x16.size a ≤ S2x16x8x64.size a),
      (s4 : Memref sig .scVector .vmem S2x16x8x64 .f32).view.setOn (Rect.unit (s := S2x16x8x64) ![1, 0, r, c] S1x1x1x16.size inb).set ⊆ slot1_0.view.set :=
    fun r c inb => row_in_slot 1 0 r c inb inb_S2x16x8x64_S1x1x8x64_1_0_0_0
  sl_exec_parts (disch := (refine row_ok4' _ _ ?_ ?_ _ _ rfl (hR' _ _ _ _ _) <;> decide))
  clear hin
  have hr_1_0 : region_last.sl.v1527 (F := F) g2 k = g2 (ValueIdx.ix1 ⟨32 * k.val + 16, by omega⟩) :=
    (word_of_load2 (F := F) g2 (k0_off180 k) _ 0 (by decide) _ _ _).trans
      (congrArg g2 (congrArg ValueIdx.ix1 (Fin.ext (by have h := off180 k; show k0_off180 k 0 + 0 = 32 * k.val + 16; omega))))
  generalize hq16 : View.writes (s3 : Memref sig .scVector .vmem S512x64 .f32).view (Elt F) g3_16 _ = g3_17
  have hD_17 : Done (F := F) L fI fT (32 * k.val + 17) g3_17 := by
    rw [← hq16]
    exact lane_done4' (F := F) L fI fT hidx (32 * k.val + 16) _ rfl g3_16 hD_16
      (k0_off182 k) (k0_off184 k) (k0_off186 k) (k0_off188 k) (offS_182 k) (offS_184 k) (offS_186 k) (offS_188 k) _ _ _ _ _ _ _ _
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 0 _ rfl _ _ (offS_182 k) _ _ _ x)
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 16 _ rfl _ _ (offS_184 k) _ _ _ x)
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 32 _ rfl _ _ (offS_186 k) _ _ _ x)
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 48 _ rfl _ _ (offS_188 k) _ _ _ x)
  clear hq16 hD_16 hr_1_0
  have hin : ∀ (r c : Nat) (inb : ∀ a, (![1, 1, r, c] : Fin 4 → Nat) a + S1x1x1x16.size a ≤ S2x16x8x64.size a),
      (s4 : Memref sig .scVector .vmem S2x16x8x64 .f32).view.setOn (Rect.unit (s := S2x16x8x64) ![1, 1, r, c] S1x1x1x16.size inb).set ⊆ slot1_1.view.set :=
    fun r c inb => row_in_slot 1 1 r c inb inb_S2x16x8x64_S1x1x8x64_1_1_0_0
  sl_exec_parts (disch := (refine row_ok4' _ _ ?_ ?_ _ _ rfl (hR' _ _ _ _ _) <;> decide))
  clear hin
  have hr_1_1 : region_last.sl.v1567 (F := F) g2 k = g2 (ValueIdx.ix1 ⟨32 * k.val + 17, by omega⟩) :=
    (word_of_load2 (F := F) g2 (k0_off180 k) _ 1 (by decide) _ _ _).trans
      (congrArg g2 (congrArg ValueIdx.ix1 (Fin.ext (by have h := off180 k; show k0_off180 k 0 + 1 = 32 * k.val + 17; omega))))
  generalize hq17 : View.writes (s3 : Memref sig .scVector .vmem S512x64 .f32).view (Elt F) g3_17 _ = g3_18
  have hD_18 : Done (F := F) L fI fT (32 * k.val + 18) g3_18 := by
    rw [← hq17]
    exact lane_done4' (F := F) L fI fT hidx (32 * k.val + 17) _ rfl g3_17 hD_17
      (k0_off190 k) (k0_off192 k) (k0_off194 k) (k0_off196 k) (offS_190 k) (offS_192 k) (offS_194 k) (offS_196 k) _ _ _ _ _ _ _ _
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 0 _ rfl _ _ (offS_190 k) _ _ _ x)
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 16 _ rfl _ _ (offS_192 k) _ _ _ x)
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 32 _ rfl _ _ (offS_194 k) _ _ _ x)
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 48 _ rfl _ _ (offS_196 k) _ _ _ x)
  clear hq17 hD_17 hr_1_1
  have hin : ∀ (r c : Nat) (inb : ∀ a, (![1, 2, r, c] : Fin 4 → Nat) a + S1x1x1x16.size a ≤ S2x16x8x64.size a),
      (s4 : Memref sig .scVector .vmem S2x16x8x64 .f32).view.setOn (Rect.unit (s := S2x16x8x64) ![1, 2, r, c] S1x1x1x16.size inb).set ⊆ slot1_2.view.set :=
    fun r c inb => row_in_slot 1 2 r c inb inb_S2x16x8x64_S1x1x8x64_1_2_0_0
  sl_exec_parts (disch := (refine row_ok4' _ _ ?_ ?_ _ _ rfl (hR' _ _ _ _ _) <;> decide))
  clear hin
  have hr_1_2 : region_last.sl.v1607 (F := F) g2 k = g2 (ValueIdx.ix1 ⟨32 * k.val + 18, by omega⟩) :=
    (word_of_load2 (F := F) g2 (k0_off180 k) _ 2 (by decide) _ _ _).trans
      (congrArg g2 (congrArg ValueIdx.ix1 (Fin.ext (by have h := off180 k; show k0_off180 k 0 + 2 = 32 * k.val + 18; omega))))
  generalize hq18 : View.writes (s3 : Memref sig .scVector .vmem S512x64 .f32).view (Elt F) g3_18 _ = g3_19
  have hD_19 : Done (F := F) L fI fT (32 * k.val + 19) g3_19 := by
    rw [← hq18]
    exact lane_done4' (F := F) L fI fT hidx (32 * k.val + 18) _ rfl g3_18 hD_18
      (k0_off198 k) (k0_off200 k) (k0_off202 k) (k0_off204 k) (offS_198 k) (offS_200 k) (offS_202 k) (offS_204 k) _ _ _ _ _ _ _ _
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 0 _ rfl _ _ (offS_198 k) _ _ _ x)
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 16 _ rfl _ _ (offS_200 k) _ _ _ x)
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 32 _ rfl _ _ (offS_202 k) _ _ _ x)
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 48 _ rfl _ _ (offS_204 k) _ _ _ x)
  clear hq18 hD_18 hr_1_2
  have hin : ∀ (r c : Nat) (inb : ∀ a, (![1, 3, r, c] : Fin 4 → Nat) a + S1x1x1x16.size a ≤ S2x16x8x64.size a),
      (s4 : Memref sig .scVector .vmem S2x16x8x64 .f32).view.setOn (Rect.unit (s := S2x16x8x64) ![1, 3, r, c] S1x1x1x16.size inb).set ⊆ slot1_3.view.set :=
    fun r c inb => row_in_slot 1 3 r c inb inb_S2x16x8x64_S1x1x8x64_1_3_0_0
  sl_exec_parts (disch := (refine row_ok4' _ _ ?_ ?_ _ _ rfl (hR' _ _ _ _ _) <;> decide))
  clear hin
  have hr_1_3 : region_last.sl.v1647 (F := F) g2 k = g2 (ValueIdx.ix1 ⟨32 * k.val + 19, by omega⟩) :=
    (word_of_load2 (F := F) g2 (k0_off180 k) _ 3 (by decide) _ _ _).trans
      (congrArg g2 (congrArg ValueIdx.ix1 (Fin.ext (by have h := off180 k; show k0_off180 k 0 + 3 = 32 * k.val + 19; omega))))
  generalize hq19 : View.writes (s3 : Memref sig .scVector .vmem S512x64 .f32).view (Elt F) g3_19 _ = g3_20
  have hD_20 : Done (F := F) L fI fT (32 * k.val + 20) g3_20 := by
    rw [← hq19]
    exact lane_done4' (F := F) L fI fT hidx (32 * k.val + 19) _ rfl g3_19 hD_19
      (k0_off206 k) (k0_off208 k) (k0_off210 k) (k0_off212 k) (offS_206 k) (offS_208 k) (offS_210 k) (offS_212 k) _ _ _ _ _ _ _ _
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 0 _ rfl _ _ (offS_206 k) _ _ _ x)
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 16 _ rfl _ _ (offS_208 k) _ _ _ x)
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 32 _ rfl _ _ (offS_210 k) _ _ _ x)
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 48 _ rfl _ _ (offS_212 k) _ _ _ x)
  clear hq19 hD_19 hr_1_3
  have hin : ∀ (r c : Nat) (inb : ∀ a, (![1, 4, r, c] : Fin 4 → Nat) a + S1x1x1x16.size a ≤ S2x16x8x64.size a),
      (s4 : Memref sig .scVector .vmem S2x16x8x64 .f32).view.setOn (Rect.unit (s := S2x16x8x64) ![1, 4, r, c] S1x1x1x16.size inb).set ⊆ slot1_4.view.set :=
    fun r c inb => row_in_slot 1 4 r c inb inb_S2x16x8x64_S1x1x8x64_1_4_0_0
  sl_exec_parts (disch := (refine row_ok4' _ _ ?_ ?_ _ _ rfl (hR' _ _ _ _ _) <;> decide))
  clear hin
  have hr_1_4 : region_last.sl.v1687 (F := F) g2 k = g2 (ValueIdx.ix1 ⟨32 * k.val + 20, by omega⟩) :=
    (word_of_load2 (F := F) g2 (k0_off180 k) _ 4 (by decide) _ _ _).trans
      (congrArg g2 (congrArg ValueIdx.ix1 (Fin.ext (by have h := off180 k; show k0_off180 k 0 + 4 = 32 * k.val + 20; omega))))
  generalize hq20 : View.writes (s3 : Memref sig .scVector .vmem S512x64 .f32).view (Elt F) g3_20 _ = g3_21
  have hD_21 : Done (F := F) L fI fT (32 * k.val + 21) g3_21 := by
    rw [← hq20]
    exact lane_done4' (F := F) L fI fT hidx (32 * k.val + 20) _ rfl g3_20 hD_20
      (k0_off214 k) (k0_off216 k) (k0_off218 k) (k0_off220 k) (offS_214 k) (offS_216 k) (offS_218 k) (offS_220 k) _ _ _ _ _ _ _ _
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 0 _ rfl _ _ (offS_214 k) _ _ _ x)
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 16 _ rfl _ _ (offS_216 k) _ _ _ x)
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 32 _ rfl _ _ (offS_218 k) _ _ _ x)
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 48 _ rfl _ _ (offS_220 k) _ _ _ x)
  clear hq20 hD_20 hr_1_4
  have hin : ∀ (r c : Nat) (inb : ∀ a, (![1, 5, r, c] : Fin 4 → Nat) a + S1x1x1x16.size a ≤ S2x16x8x64.size a),
      (s4 : Memref sig .scVector .vmem S2x16x8x64 .f32).view.setOn (Rect.unit (s := S2x16x8x64) ![1, 5, r, c] S1x1x1x16.size inb).set ⊆ slot1_5.view.set :=
    fun r c inb => row_in_slot 1 5 r c inb inb_S2x16x8x64_S1x1x8x64_1_5_0_0
  sl_exec_parts (disch := (refine row_ok4' _ _ ?_ ?_ _ _ rfl (hR' _ _ _ _ _) <;> decide))
  clear hin
  have hr_1_5 : region_last.sl.v1727 (F := F) g2 k = g2 (ValueIdx.ix1 ⟨32 * k.val + 21, by omega⟩) :=
    (word_of_load2 (F := F) g2 (k0_off180 k) _ 5 (by decide) _ _ _).trans
      (congrArg g2 (congrArg ValueIdx.ix1 (Fin.ext (by have h := off180 k; show k0_off180 k 0 + 5 = 32 * k.val + 21; omega))))
  generalize hq21 : View.writes (s3 : Memref sig .scVector .vmem S512x64 .f32).view (Elt F) g3_21 _ = g3_22
  have hD_22 : Done (F := F) L fI fT (32 * k.val + 22) g3_22 := by
    rw [← hq21]
    exact lane_done4' (F := F) L fI fT hidx (32 * k.val + 21) _ rfl g3_21 hD_21
      (k0_off222 k) (k0_off224 k) (k0_off226 k) (k0_off228 k) (offS_222 k) (offS_224 k) (offS_226 k) (offS_228 k) _ _ _ _ _ _ _ _
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 0 _ rfl _ _ (offS_222 k) _ _ _ x)
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 16 _ rfl _ _ (offS_224 k) _ _ _ x)
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 32 _ rfl _ _ (offS_226 k) _ _ _ x)
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 48 _ rfl _ _ (offS_228 k) _ _ _ x)
  clear hq21 hD_21 hr_1_5
  have hin : ∀ (r c : Nat) (inb : ∀ a, (![1, 6, r, c] : Fin 4 → Nat) a + S1x1x1x16.size a ≤ S2x16x8x64.size a),
      (s4 : Memref sig .scVector .vmem S2x16x8x64 .f32).view.setOn (Rect.unit (s := S2x16x8x64) ![1, 6, r, c] S1x1x1x16.size inb).set ⊆ slot1_6.view.set :=
    fun r c inb => row_in_slot 1 6 r c inb inb_S2x16x8x64_S1x1x8x64_1_6_0_0
  sl_exec_parts (disch := (refine row_ok4' _ _ ?_ ?_ _ _ rfl (hR' _ _ _ _ _) <;> decide))
  clear hin
  have hr_1_6 : region_last.sl.v1767 (F := F) g2 k = g2 (ValueIdx.ix1 ⟨32 * k.val + 22, by omega⟩) :=
    (word_of_load2 (F := F) g2 (k0_off180 k) _ 6 (by decide) _ _ _).trans
      (congrArg g2 (congrArg ValueIdx.ix1 (Fin.ext (by have h := off180 k; show k0_off180 k 0 + 6 = 32 * k.val + 22; omega))))
  generalize hq22 : View.writes (s3 : Memref sig .scVector .vmem S512x64 .f32).view (Elt F) g3_22 _ = g3_23
  have hD_23 : Done (F := F) L fI fT (32 * k.val + 23) g3_23 := by
    rw [← hq22]
    exact lane_done4' (F := F) L fI fT hidx (32 * k.val + 22) _ rfl g3_22 hD_22
      (k0_off230 k) (k0_off232 k) (k0_off234 k) (k0_off236 k) (offS_230 k) (offS_232 k) (offS_234 k) (offS_236 k) _ _ _ _ _ _ _ _
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 0 _ rfl _ _ (offS_230 k) _ _ _ x)
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 16 _ rfl _ _ (offS_232 k) _ _ _ x)
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 32 _ rfl _ _ (offS_234 k) _ _ _ x)
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 48 _ rfl _ _ (offS_236 k) _ _ _ x)
  clear hq22 hD_22 hr_1_6
  have hin : ∀ (r c : Nat) (inb : ∀ a, (![1, 7, r, c] : Fin 4 → Nat) a + S1x1x1x16.size a ≤ S2x16x8x64.size a),
      (s4 : Memref sig .scVector .vmem S2x16x8x64 .f32).view.setOn (Rect.unit (s := S2x16x8x64) ![1, 7, r, c] S1x1x1x16.size inb).set ⊆ slot1_7.view.set :=
    fun r c inb => row_in_slot 1 7 r c inb inb_S2x16x8x64_S1x1x8x64_1_7_0_0
  sl_exec_parts (disch := (refine row_ok4' _ _ ?_ ?_ _ _ rfl (hR' _ _ _ _ _) <;> decide))
  clear hin
  have hr_1_7 : region_last.sl.v1807 (F := F) g2 k = g2 (ValueIdx.ix1 ⟨32 * k.val + 23, by omega⟩) :=
    (word_of_load2 (F := F) g2 (k0_off180 k) _ 7 (by decide) _ _ _).trans
      (congrArg g2 (congrArg ValueIdx.ix1 (Fin.ext (by have h := off180 k; show k0_off180 k 0 + 7 = 32 * k.val + 23; omega))))
  generalize hq23 : View.writes (s3 : Memref sig .scVector .vmem S512x64 .f32).view (Elt F) g3_23 _ = g3_24
  have hD_24 : Done (F := F) L fI fT (32 * k.val + 24) g3_24 := by
    rw [← hq23]
    exact lane_done4' (F := F) L fI fT hidx (32 * k.val + 23) _ rfl g3_23 hD_23
      (k0_off238 k) (k0_off240 k) (k0_off242 k) (k0_off244 k) (offS_238 k) (offS_240 k) (offS_242 k) (offS_244 k) _ _ _ _ _ _ _ _
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 0 _ rfl _ _ (offS_238 k) _ _ _ x)
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 16 _ rfl _ _ (offS_240 k) _ _ _ x)
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 32 _ rfl _ _ (offS_242 k) _ _ _ x)
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 48 _ rfl _ _ (offS_244 k) _ _ _ x)
  clear hq23 hD_23 hr_1_7
  have hin : ∀ (r c : Nat) (inb : ∀ a, (![1, 8, r, c] : Fin 4 → Nat) a + S1x1x1x16.size a ≤ S2x16x8x64.size a),
      (s4 : Memref sig .scVector .vmem S2x16x8x64 .f32).view.setOn (Rect.unit (s := S2x16x8x64) ![1, 8, r, c] S1x1x1x16.size inb).set ⊆ slot1_8.view.set :=
    fun r c inb => row_in_slot 1 8 r c inb inb_S2x16x8x64_S1x1x8x64_1_8_0_0
  sl_exec_parts (disch := (refine row_ok4' _ _ ?_ ?_ _ _ rfl (hR' _ _ _ _ _) <;> decide))
  clear hin
  have hr_1_8 : region_last.sl.v1847 (F := F) g2 k = g2 (ValueIdx.ix1 ⟨32 * k.val + 24, by omega⟩) :=
    (word_of_load2 (F := F) g2 (k0_off180 k) _ 8 (by decide) _ _ _).trans
      (congrArg g2 (congrArg ValueIdx.ix1 (Fin.ext (by have h := off180 k; show k0_off180 k 0 + 8 = 32 * k.val + 24; omega))))
  generalize hq24 : View.writes (s3 : Memref sig .scVector .vmem S512x64 .f32).view (Elt F) g3_24 _ = g3_25
  have hD_25 : Done (F := F) L fI fT (32 * k.val + 25) g3_25 := by
    rw [← hq24]
    exact lane_done4' (F := F) L fI fT hidx (32 * k.val + 24) _ rfl g3_24 hD_24
      (k0_off246 k) (k0_off248 k) (k0_off250 k) (k0_off252 k) (offS_246 k) (offS_248 k) (offS_250 k) (offS_252 k) _ _ _ _ _ _ _ _
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 0 _ rfl _ _ (offS_246 k) _ _ _ x)
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 16 _ rfl _ _ (offS_248 k) _ _ _ x)
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 32 _ rfl _ _ (offS_250 k) _ _ _ x)
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 48 _ rfl _ _ (offS_252 k) _ _ _ x)
  clear hq24 hD_24 hr_1_8
  have hin : ∀ (r c : Nat) (inb : ∀ a, (![1, 9, r, c] : Fin 4 → Nat) a + S1x1x1x16.size a ≤ S2x16x8x64.size a),
      (s4 : Memref sig .scVector .vmem S2x16x8x64 .f32).view.setOn (Rect.unit (s := S2x16x8x64) ![1, 9, r, c] S1x1x1x16.size inb).set ⊆ slot1_9.view.set :=
    fun r c inb => row_in_slot 1 9 r c inb inb_S2x16x8x64_S1x1x8x64_1_9_0_0
  sl_exec_parts (disch := (refine row_ok4' _ _ ?_ ?_ _ _ rfl (hR' _ _ _ _ _) <;> decide))
  clear hin
  have hr_1_9 : region_last.sl.v1887 (F := F) g2 k = g2 (ValueIdx.ix1 ⟨32 * k.val + 25, by omega⟩) :=
    (word_of_load2 (F := F) g2 (k0_off180 k) _ 9 (by decide) _ _ _).trans
      (congrArg g2 (congrArg ValueIdx.ix1 (Fin.ext (by have h := off180 k; show k0_off180 k 0 + 9 = 32 * k.val + 25; omega))))
  generalize hq25 : View.writes (s3 : Memref sig .scVector .vmem S512x64 .f32).view (Elt F) g3_25 _ = g3_26
  have hD_26 : Done (F := F) L fI fT (32 * k.val + 26) g3_26 := by
    rw [← hq25]
    exact lane_done4' (F := F) L fI fT hidx (32 * k.val + 25) _ rfl g3_25 hD_25
      (k0_off254 k) (k0_off256 k) (k0_off258 k) (k0_off260 k) (offS_254 k) (offS_256 k) (offS_258 k) (offS_260 k) _ _ _ _ _ _ _ _
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 0 _ rfl _ _ (offS_254 k) _ _ _ x)
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 16 _ rfl _ _ (offS_256 k) _ _ _ x)
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 32 _ rfl _ _ (offS_258 k) _ _ _ x)
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 48 _ rfl _ _ (offS_260 k) _ _ _ x)
  clear hq25 hD_25 hr_1_9
  have hin : ∀ (r c : Nat) (inb : ∀ a, (![1, 10, r, c] : Fin 4 → Nat) a + S1x1x1x16.size a ≤ S2x16x8x64.size a),
      (s4 : Memref sig .scVector .vmem S2x16x8x64 .f32).view.setOn (Rect.unit (s := S2x16x8x64) ![1, 10, r, c] S1x1x1x16.size inb).set ⊆ slot1_10.view.set :=
    fun r c inb => row_in_slot 1 10 r c inb inb_S2x16x8x64_S1x1x8x64_1_10_0_0
  sl_exec_parts (disch := (refine row_ok4' _ _ ?_ ?_ _ _ rfl (hR' _ _ _ _ _) <;> decide))
  clear hin
  have hr_1_10 : region_last.sl.v1927 (F := F) g2 k = g2 (ValueIdx.ix1 ⟨32 * k.val + 26, by omega⟩) :=
    (word_of_load2 (F := F) g2 (k0_off180 k) _ 10 (by decide) _ _ _).trans
      (congrArg g2 (congrArg ValueIdx.ix1 (Fin.ext (by have h := off180 k; show k0_off180 k 0 + 10 = 32 * k.val + 26; omega))))
  generalize hq26 : View.writes (s3 : Memref sig .scVector .vmem S512x64 .f32).view (Elt F) g3_26 _ = g3_27
  have hD_27 : Done (F := F) L fI fT (32 * k.val + 27) g3_27 := by
    rw [← hq26]
    exact lane_done4' (F := F) L fI fT hidx (32 * k.val + 26) _ rfl g3_26 hD_26
      (k0_off262 k) (k0_off264 k) (k0_off266 k) (k0_off268 k) (offS_262 k) (offS_264 k) (offS_266 k) (offS_268 k) _ _ _ _ _ _ _ _
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 0 _ rfl _ _ (offS_262 k) _ _ _ x)
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 16 _ rfl _ _ (offS_264 k) _ _ _ x)
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 32 _ rfl _ _ (offS_266 k) _ _ _ x)
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 48 _ rfl _ _ (offS_268 k) _ _ _ x)
  clear hq26 hD_26 hr_1_10
  have hin : ∀ (r c : Nat) (inb : ∀ a, (![1, 11, r, c] : Fin 4 → Nat) a + S1x1x1x16.size a ≤ S2x16x8x64.size a),
      (s4 : Memref sig .scVector .vmem S2x16x8x64 .f32).view.setOn (Rect.unit (s := S2x16x8x64) ![1, 11, r, c] S1x1x1x16.size inb).set ⊆ slot1_11.view.set :=
    fun r c inb => row_in_slot 1 11 r c inb inb_S2x16x8x64_S1x1x8x64_1_11_0_0
  sl_exec_parts (disch := (refine row_ok4' _ _ ?_ ?_ _ _ rfl (hR' _ _ _ _ _) <;> decide))
  clear hin
  have hr_1_11 : region_last.sl.v1967 (F := F) g2 k = g2 (ValueIdx.ix1 ⟨32 * k.val + 27, by omega⟩) :=
    (word_of_load2 (F := F) g2 (k0_off180 k) _ 11 (by decide) _ _ _).trans
      (congrArg g2 (congrArg ValueIdx.ix1 (Fin.ext (by have h := off180 k; show k0_off180 k 0 + 11 = 32 * k.val + 27; omega))))
  generalize hq27 : View.writes (s3 : Memref sig .scVector .vmem S512x64 .f32).view (Elt F) g3_27 _ = g3_28
  have hD_28 : Done (F := F) L fI fT (32 * k.val + 28) g3_28 := by
    rw [← hq27]
    exact lane_done4' (F := F) L fI fT hidx (32 * k.val + 27) _ rfl g3_27 hD_27
      (k0_off270 k) (k0_off272 k) (k0_off274 k) (k0_off276 k) (offS_270 k) (offS_272 k) (offS_274 k) (offS_276 k) _ _ _ _ _ _ _ _
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 0 _ rfl _ _ (offS_270 k) _ _ _ x)
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 16 _ rfl _ _ (offS_272 k) _ _ _ x)
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 32 _ rfl _ _ (offS_274 k) _ _ _ x)
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 48 _ rfl _ _ (offS_276 k) _ _ _ x)
  clear hq27 hD_27 hr_1_11
  have hin : ∀ (r c : Nat) (inb : ∀ a, (![1, 12, r, c] : Fin 4 → Nat) a + S1x1x1x16.size a ≤ S2x16x8x64.size a),
      (s4 : Memref sig .scVector .vmem S2x16x8x64 .f32).view.setOn (Rect.unit (s := S2x16x8x64) ![1, 12, r, c] S1x1x1x16.size inb).set ⊆ slot1_12.view.set :=
    fun r c inb => row_in_slot 1 12 r c inb inb_S2x16x8x64_S1x1x8x64_1_12_0_0
  sl_exec_parts (disch := (refine row_ok4' _ _ ?_ ?_ _ _ rfl (hR' _ _ _ _ _) <;> decide))
  clear hin
  have hr_1_12 : region_last.sl.v2007 (F := F) g2 k = g2 (ValueIdx.ix1 ⟨32 * k.val + 28, by omega⟩) :=
    (word_of_load2 (F := F) g2 (k0_off180 k) _ 12 (by decide) _ _ _).trans
      (congrArg g2 (congrArg ValueIdx.ix1 (Fin.ext (by have h := off180 k; show k0_off180 k 0 + 12 = 32 * k.val + 28; omega))))
  generalize hq28 : View.writes (s3 : Memref sig .scVector .vmem S512x64 .f32).view (Elt F) g3_28 _ = g3_29
  have hD_29 : Done (F := F) L fI fT (32 * k.val + 29) g3_29 := by
    rw [← hq28]
    exact lane_done4' (F := F) L fI fT hidx (32 * k.val + 28) _ rfl g3_28 hD_28
      (k0_off278 k) (k0_off280 k) (k0_off282 k) (k0_off284 k) (offS_278 k) (offS_280 k) (offS_282 k) (offS_284 k) _ _ _ _ _ _ _ _
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 0 _ rfl _ _ (offS_278 k) _ _ _ x)
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 16 _ rfl _ _ (offS_280 k) _ _ _ x)
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 32 _ rfl _ _ (offS_282 k) _ _ _ x)
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 48 _ rfl _ _ (offS_284 k) _ _ _ x)
  clear hq28 hD_28 hr_1_12
  have hin : ∀ (r c : Nat) (inb : ∀ a, (![1, 13, r, c] : Fin 4 → Nat) a + S1x1x1x16.size a ≤ S2x16x8x64.size a),
      (s4 : Memref sig .scVector .vmem S2x16x8x64 .f32).view.setOn (Rect.unit (s := S2x16x8x64) ![1, 13, r, c] S1x1x1x16.size inb).set ⊆ slot1_13.view.set :=
    fun r c inb => row_in_slot 1 13 r c inb inb_S2x16x8x64_S1x1x8x64_1_13_0_0
  sl_exec_parts (disch := (refine row_ok4' _ _ ?_ ?_ _ _ rfl (hR' _ _ _ _ _) <;> decide))
  clear hin
  have hr_1_13 : region_last.sl.v2047 (F := F) g2 k = g2 (ValueIdx.ix1 ⟨32 * k.val + 29, by omega⟩) :=
    (word_of_load2 (F := F) g2 (k0_off180 k) _ 13 (by decide) _ _ _).trans
      (congrArg g2 (congrArg ValueIdx.ix1 (Fin.ext (by have h := off180 k; show k0_off180 k 0 + 13 = 32 * k.val + 29; omega))))
  generalize hq29 : View.writes (s3 : Memref sig .scVector .vmem S512x64 .f32).view (Elt F) g3_29 _ = g3_30
  have hD_30 : Done (F := F) L fI fT (32 * k.val + 30) g3_30 := by
    rw [← hq29]
    exact lane_done4' (F := F) L fI fT hidx (32 * k.val + 29) _ rfl g3_29 hD_29
      (k0_off286 k) (k0_off288 k) (k0_off290 k) (k0_off292 k) (offS_286 k) (offS_288 k) (offS_290 k) (offS_292 k) _ _ _ _ _ _ _ _
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 0 _ rfl _ _ (offS_286 k) _ _ _ x)
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 16 _ rfl _ _ (offS_288 k) _ _ _ x)
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 32 _ rfl _ _ (offS_290 k) _ _ _ x)
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 48 _ rfl _ _ (offS_292 k) _ _ _ x)
  clear hq29 hD_29 hr_1_13
  have hin : ∀ (r c : Nat) (inb : ∀ a, (![1, 14, r, c] : Fin 4 → Nat) a + S1x1x1x16.size a ≤ S2x16x8x64.size a),
      (s4 : Memref sig .scVector .vmem S2x16x8x64 .f32).view.setOn (Rect.unit (s := S2x16x8x64) ![1, 14, r, c] S1x1x1x16.size inb).set ⊆ slot1_14.view.set :=
    fun r c inb => row_in_slot 1 14 r c inb inb_S2x16x8x64_S1x1x8x64_1_14_0_0
  sl_exec_parts (disch := (refine row_ok4' _ _ ?_ ?_ _ _ rfl (hR' _ _ _ _ _) <;> decide))
  clear hin
  have hr_1_14 : region_last.sl.v2087 (F := F) g2 k = g2 (ValueIdx.ix1 ⟨32 * k.val + 30, by omega⟩) :=
    (word_of_load2 (F := F) g2 (k0_off180 k) _ 14 (by decide) _ _ _).trans
      (congrArg g2 (congrArg ValueIdx.ix1 (Fin.ext (by have h := off180 k; show k0_off180 k 0 + 14 = 32 * k.val + 30; omega))))
  generalize hq30 : View.writes (s3 : Memref sig .scVector .vmem S512x64 .f32).view (Elt F) g3_30 _ = g3_31
  have hD_31 : Done (F := F) L fI fT (32 * k.val + 31) g3_31 := by
    rw [← hq30]
    exact lane_done4' (F := F) L fI fT hidx (32 * k.val + 30) _ rfl g3_30 hD_30
      (k0_off294 k) (k0_off296 k) (k0_off298 k) (k0_off300 k) (offS_294 k) (offS_296 k) (offS_298 k) (offS_300 k) _ _ _ _ _ _ _ _
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 0 _ rfl _ _ (offS_294 k) _ _ _ x)
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 16 _ rfl _ _ (offS_296 k) _ _ _ x)
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 32 _ rfl _ _ (offS_298 k) _ _ _ x)
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 48 _ rfl _ _ (offS_300 k) _ _ _ x)
  clear hq30 hD_30 hr_1_14
  have hin : ∀ (r c : Nat) (inb : ∀ a, (![1, 15, r, c] : Fin 4 → Nat) a + S1x1x1x16.size a ≤ S2x16x8x64.size a),
      (s4 : Memref sig .scVector .vmem S2x16x8x64 .f32).view.setOn (Rect.unit (s := S2x16x8x64) ![1, 15, r, c] S1x1x1x16.size inb).set ⊆ slot1_15.view.set :=
    fun r c inb => row_in_slot 1 15 r c inb inb_S2x16x8x64_S1x1x8x64_1_15_0_0
  sl_exec_parts (disch := first | exact slab_ok_g' _ _ _ rfl (hA' _ _ _ _ _) | (refine row_ok4' _ _ ?_ ?_ _ _ rfl (hR' _ _ _ _ _) <;> decide))
  clear hin
  have hr_1_15 : region_last.sl.v2127 (F := F) g2 k = g2 (ValueIdx.ix1 ⟨32 * k.val + 31, by omega⟩) :=
    (word_of_load2 (F := F) g2 (k0_off180 k) _ 15 (by decide) _ _ _).trans
      (congrArg g2 (congrArg ValueIdx.ix1 (Fin.ext (by have h := off180 k; show k0_off180 k 0 + 15 = 32 * k.val + 31; omega))))
  generalize hq31 : View.writes (s3 : Memref sig .scVector .vmem S512x64 .f32).view (Elt F) g3_31 _ = g3_32
  have hD_32 : Done (F := F) L fI fT (32 * k.val + 32) g3_32 := by
    rw [← hq31]
    exact lane_done4' (F := F) L fI fT hidx (32 * k.val + 31) _ rfl g3_31 hD_31
      (k0_off302 k) (k0_off304 k) (k0_off306 k) (k0_off308 k) (offS_302 k) (offS_304 k) (offS_306 k) (offS_308 k) _ _ _ _ _ _ _ _
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 0 _ rfl _ _ (offS_302 k) _ _ _ x)
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 16 _ rfl _ _ (offS_304 k) _ _ _ x)
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 32 _ rfl _ _ (offS_306 k) _ _ _ x)
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 48 _ rfl _ _ (offS_308 k) _ _ _ x)
  clear hq31 hD_31 hr_1_15
  try sl_exec_parts (disch := first | exact slab_ok_g' _ _ _ rfl (hA' _ _ _ _ _) | (refine row_ok4' _ _ ?_ ?_ _ _ rfl (hR' _ _ _ _ _) <;> decide))
  sl_step
  have hk15e : k.val = 15 := by omega
  rw [if_neg (by omega)]
  isplitl [Hmw Hi Ho H0 H1 H2 H3 Hs7 Hs8 HO]
  · isplitr; · iexact Hmw
    isplitl [Hi]; · iexact Hi
    isplitl [Ho]; · iexact Ho
    isplitl [H0]; · iexists _; iexact H0
    isplitl [H1]; · iexact H1
    isplitl [H2]; · iexact H2
    isplitl [H3]
    · iexists g3_32; isplitr
      · ipureintro; have h := hD_32; rw [hk15e] at h; exact h
      · iexact H3
    isplitl [Hs7]; · iexact Hs7
    isplitl [Hs8]; · iexact Hs8
    iexists _; isplitr
    rotate_left
    · iexact HO
    · ipureintro; intro p hp
      repeat (first | exact hW' p hp | (rcases Finset.mem_insert.mp hp with hp | hp; · exact .inr (hp ▸ rfl)))
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Ht27]; · iexact Ht27
  isplitl [Ht28]; · iexact Ht28
  isplitl [Ht29]; · iexact Ht29
  isplitl [Ht30]; · iexact Ht30
  isplitl [Ht31]; · iexact Ht31
  isplitl [Hs5_dst0]; · iexists _; iexact Hs5_dst0
  isplitl [Hs5_dst1]; · iexists _; iexact Hs5_dst1
  isplitl [Hs5_dst2]; · iexists _; iexact Hs5_dst2
  isplitl [Hs5_dst3]; · iexists _; iexact Hs5_dst3
  isplitl [Hs5_dst4]; · iexists _; iexact Hs5_dst4
  isplitl [Hs5_dst5]; · iexists _; iexact Hs5_dst5
  isplitl [Hs5_dst6]; · iexists _; iexact Hs5_dst6
  isplitl [Hs5_dst7]; · iexists _; iexact Hs5_dst7
  isplitl [Hs5_dst8]; · iexists _; iexact Hs5_dst8
  isplitl [Hs5_dst9]; · iexists _; iexact Hs5_dst9
  isplitl [Hs5_dst10]; · iexists _; iexact Hs5_dst10
  isplitl [Hs5_dst11]; · iexists _; iexact Hs5_dst11
  isplitl [Hs5_dst12]; · iexists _; iexact Hs5_dst12
  isplitl [Hs5_dst13]; · iexists _; iexact Hs5_dst13
  isplitl [Hs5_dst14]; · iexists _; iexact Hs5_dst14
  isplitl [Hs5_dst15]; · iexists _; iexact Hs5_dst15
  isplitl [Hs6_dst0]; · iexists _; iexact Hs6_dst0
  isplitl [Hs6_dst1]; · iexists _; iexact Hs6_dst1
  isplitl [Hs6_dst2]; · iexists _; iexact Hs6_dst2
  isplitl [Hs6_dst3]; · iexists _; iexact Hs6_dst3
  isplitl [Hs6_dst4]; · iexists _; iexact Hs6_dst4
  isplitl [Hs6_dst5]; · iexists _; iexact Hs6_dst5
  isplitl [Hs6_dst6]; · iexists _; iexact Hs6_dst6
  isplitl [Hs6_dst7]; · iexists _; iexact Hs6_dst7
  isplitl [Hs6_dst8]; · iexists _; iexact Hs6_dst8
  isplitl [Hs6_dst9]; · iexists _; iexact Hs6_dst9
  isplitl [Hs6_dst10]; · iexists _; iexact Hs6_dst10
  isplitl [Hs6_dst11]; · iexists _; iexact Hs6_dst11
  isplitl [Hs6_dst12]; · iexists _; iexact Hs6_dst12
  isplitl [Hs6_dst13]; · iexists _; iexact Hs6_dst13
  isplitl [Hs6_dst14]; · iexists _; iexact Hs6_dst14
  isplitl [Hs6_dst15]; · iexists _; iexact Hs6_dst15
  isplitl [Hs5]; · iexact Hs5
  iexact Hs6

end Cert.KITile

end
-- ==== Proof.Region.lean ====
import proofs.«207235_g30958124269674_cont_8to1_b_889_24_alg».proof.Proof.RegionA
import proofs.«207235_g30958124269674_cont_8to1_b_889_24_alg».proof.Proof.RegionB

/-! One trip of the loop keeps the invariant: the first half's slabs land, their sixteen rows are picked into the row
    scratch, the next group is fetched into the first half (unless this is the last trip); the same for the second half. -/

noncomputable section

namespace Cert.KITile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- One trip of the loop keeps the invariant, whichever trip it is. -/
theorem loop_region {d : Dev nD} (L : grid0.Coords) (q : PosShare TreeShare) (O : CellTallies nD τ sig (HIx 1)) (W : Waits sig (HIx 1))
    (fI : Buf (Elt F) (iLoc d)) (fT : Buf (Elt F) (tLoc d)) (fO : Buf (Elt F) (oLoc d))
    (f4 : Buf (Elt F) ((thr d L).loc cc0_scratch4)) (g1 g2 : S512.Idx → BitVec 32)
    (hS1 : ∀ p, Slab (g1 p)) (hR2 : ∀ p, (g2 p).toNat < 8)
    (hidx : ∀ j : S16384.Idx, (fI j).toNat ≤ 999999) (hg1 : g1 = G1 (F := F) L fI) (hg2 : g2 = G2 (F := F) L fI)
    (k : Fin k0_t1_loop.trips) (acc : PUnit) :
    inv (F := F) d L q O W fI fT fO f4 g1 g2 hS1 k acc
      ⊢ wp frame (wpE (defs₀ (F := F)) 𝒱₀ (thr d L) none) Set.univ
          (k0_t1_body (F := F) L iV (Memref.isWhole_whole _) tV (Memref.isWhole_whole _) oV (Memref.isWhole_whole _)
            s0 (Memref.isWhole_whole _) s1 (Memref.isWhole_whole _) s2 (Memref.isWhole_whole _) s3 (Memref.isWhole_whole _)
            s4 (Memref.isWhole_whole _) cc0_scratch5 cc0_scratch6 cc0_scoped0 cc0_scoped1 (0#32) k acc)
          (inv (F := F) d L q O W fI fT fO f4 g1 g2 hS1 (k.val + 1)) := by
  by_cases hk15 : k.val < 15
  · exact region_lt (F := F) L q O W fI fT fO f4 g1 g2 hS1 hR2 hidx hg1 hg2 k acc hk15
  · exact region_last (F := F) L q O W fI fT fO f4 g1 g2 hS1 hR2 hidx hg1 hg2 k acc hk15

end Cert.KITile

end
-- ==== Proof.Epilogue.lean ====
import proofs.«207235_g30958124269674_cont_8to1_b_889_24_alg».proof.Proof.Inv

/-! The rows go out. When every row of the row scratch holds the table's row its index names, the task's run of the
    output, written whole from the row scratch, holds at row `j` row `idx[j]` of the table. -/

noncomputable section

namespace Cert.KITile

open Cert.KernelIdeal Cert.KernelIdeal.Gen

open Idealize.ShloMosaic

variable {F : FTy → Type} [FloatOps F]

/-- The run's word at place `p` is the index array's at the run's place `p`. -/
theorem idxRun_apply {d : Dev nD} (L : grid0.Coords) (fI : Buf (Elt F) (iLoc d)) (p : S512.Idx) :
    idxRun (F := F) L fI p = fI ((iRow L).view.emb p) := (View.read_apply _ _).trans (cast_eq _ _)

/-- The run of the output written whole with the rows `P`, all of them done: row `j` is row `idx[j]` of the table. -/
theorem rows_of_done {d : Dev nD} (L : grid0.Coords) (fI : Buf (Elt F) (iLoc d)) (fT : Buf (Elt F) (tLoc d)) (fO : Buf (Elt F) (oLoc d))
    (P : S512x64.Idx → Elt F .f32) (hd : Done (F := F) L fI fT 512 P) :
    RowsOK (F := F) L fI fT (View.write (Elt F) (oRow L).view fO P Finset.univ) := by
  intro y h
  have hw : View.write (Elt F) (oRow L).view fO P Finset.univ ((oRow L).view.emb y) = P y :=
    (View.write_emb_of_mem (v := (oRow L).view) fO P (Finset.mem_univ y)).trans (cast_eq _ _)
  have ey : P y = P (ValueIdx.ix2 (y 0) (y 1)) := congrArg P (ValueIdx.eq_ix2 y)
  rw [hw, ey]
  have hj : (y 0).val < 512 := (y 0).isLt
  have h' : (idxRun (F := F) L fI (ValueIdx.ix1 (y 0))).toNat < 1000000 := by rw [idxRun_apply]; exact h
  have := hd (y 0) (y 1) hj h'
  rw [this]
  have key : ∀ (v v' : BitVec 32) (e : v = v') (a : v.toNat < 1000000) (b : v'.toNat < 1000000),
      fT (ValueIdx.ix2 (⟨v.toNat, a⟩ : Fin 1000000) (y 1)) = fT (ValueIdx.ix2 (⟨v'.toNat, b⟩ : Fin 1000000) (y 1)) := by
    intro v v' e a b; subst e; rfl
  exact key _ _ (idxRun_apply L fI _) _ _

/-- The same when the run was written as one whole piece. -/
theorem rows_of_done' {d : Dev nD} (L : grid0.Coords) (fI : Buf (Elt F) (iLoc d)) (fT : Buf (Elt F) (tLoc d)) (fO : Buf (Elt F) (oLoc d))
    (P : S512x64.Idx → Elt F .f32) (hd : Done (F := F) L fI fT 512 P) :
    RowsOK (F := F) L fI fT ((oRow L).view.writes (Elt F) fO [⟨Rect.whole S512x64, P⟩]) := by
  intro y h
  have hw : (oRow L).view.writes (Elt F) fO [⟨Rect.whole S512x64, P⟩] ((oRow L).view.emb y) = P y := by
    have := View.read_writes_cons_emb (oRow L).view fO (Rect.whole S512x64) P [] y
    rw [Rect.emb_whole_apply, View.read_apply] at this
    exact (cast_eq _ _).symm.trans this
  have ey : P y = P (ValueIdx.ix2 (y 0) (y 1)) := congrArg P (ValueIdx.eq_ix2 y)
  rw [hw, ey]
  have hj : (y 0).val < 512 := (y 0).isLt
  have h' : (idxRun (F := F) L fI (ValueIdx.ix1 (y 0))).toNat < 1000000 := by rw [idxRun_apply]; exact h
  have := hd (y 0) (y 1) hj h'
  rw [this]
  have key : ∀ (v v' : BitVec 32) (e : v = v') (a : v.toNat < 1000000) (b : v'.toNat < 1000000),
      fT (ValueIdx.ix2 (⟨v.toNat, a⟩ : Fin 1000000) (y 1)) = fT (ValueIdx.ix2 (⟨v'.toNat, b⟩ : Fin 1000000) (y 1)) := by
    intro v v' e a b; subst e; rfl
  exact key _ _ (idxRun_apply L fI _) _ _

end Cert.KITile

end
-- ==== Proof.PreDecode.lean ====
import proofs.«207235_g30958124269674_cont_8to1_b_889_24_alg».proof.Pre_input_domain
import Idealize.ShloMosaic.Lib.ReduceAll
import Idealize.ShloMosaic.Lib.Affine
import Idealize.ShloMosaic.Lib.ValueIdx

/-! The precondition read back: when `input_domain` of the two argument arrays is all ones, every index word, read as
    a signed 32-bit integer, lies between 0 and 999999; so its unsigned value is at most 999999. -/

noncomputable section

namespace Cert.PreDecode

open Idealize.ShloMosaic Cert.Pre_input_domain

instance : Subsingleton S_.Idx := ⟨fun a b => funext fun d => d.elim0⟩

theorem toNat_le_of_toInt {x : BitVec 32} (h0 : (0#32 : BitVec 32).toInt ≤ x.toInt) (h1 : x.toInt ≤ (999999#32 : BitVec 32).toInt) :
    x.toNat ≤ 999999 := by
  have e0 : (0#32 : BitVec 32).toInt = 0 := by decide
  have e1 : (999999#32 : BitVec 32).toInt = 999999 := by decide
  rw [e0] at h0; rw [e1] at h1
  rw [BitVec.toInt_eq_toNat_cond] at h0 h1
  have hx : x.toNat < 2 ^ 32 := x.isLt
  split at h0 <;> omega

variable {F : FTy → Type} [FloatOps F] [Facts]

/-- Every index word is at most 999999 (unsigned) under the precondition. -/
theorem idx_le (idx : IVec S16384 32) (tab : FVec F S1000000x64 .f32)
    (h : fn (F := F) idx tab = fun _ => 1#1) (j : S16384.Idx) : (idx j).toNat ≤ 999999 := by
  have h0 := congrFun h ValueIdx.ix0
  dsimp only [fn] at h0
  obtain ⟨-, h9⟩ := IntOp.andi_eq_one.mp h0
  have h8 := Host.reduce_andi_all _ _ _ _ _ h9 j
  obtain ⟨h5, h7⟩ := IntOp.andi_eq_one.mp h8
  exact toNat_le_of_toInt (IntOp.cmpi_sge.mp h5) (IntOp.cmpi_sle.mp h7)

end Cert.PreDecode

end
-- ==== Proof.Tile.lean ====
import proofs.«207235_g30958124269674_cont_8to1_b_889_24_alg».proof.Proof.TileSpec
import proofs.«207235_g30958124269674_cont_8to1_b_889_24_alg».proof.Proof.Words
import proofs.«207235_g30958124269674_cont_8to1_b_889_24_alg».proof.Proof.Words2
import proofs.«207235_g30958124269674_cont_8to1_b_889_24_alg».proof.Proof.Inv
import proofs.«207235_g30958124269674_cont_8to1_b_889_24_alg».proof.Proof.Region
import proofs.«207235_g30958124269674_cont_8to1_b_889_24_alg».proof.Proof.Epilogue
import proofs.«207235_g30958124269674_cont_8to1_b_889_24_alg».proof.Proof.PreDecode
import proofs.«207235_g30958124269674_cont_8to1_b_889_24_alg».proof.Proof.LibMask8

/-! The task's proof: from what it holds to what it gives back (`TileSpec`). -/

noncomputable section

namespace Cert.KITile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 4000000 in
theorem tile_spec : TileSpec (F := F) := by
  intro d L q O W hO fI fT fO f0 f1 f2 f3 f4 hidx
  have hb10 : Transfers.BatchOf (thr d L) (SemLoc.dma cc0_scratch5.sem : SemLoc sig) 16 := trivial
  have hb11 : Transfers.BatchOf (thr d L) (SemLoc.dma cc0_scratch6.sem : SemLoc sig) 16 := trivial
  delta tilePre tileProg
  iintro ⟨#Hmw, Hi, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ho, H0, H1, H2, H3, Hr0_0, Hr0_1, Hr0_2, Hr0_3, Hr0_4, Hr0_5, Hr0_6, Hr0_7, Hr0_8, Hr0_9, Hr0_10, Hr0_11, Hr0_12, Hr0_13, Hr0_14, Hr0_15, Hr1_0, Hr1_1, Hr1_2, Hr1_3, Hr1_4, Hr1_5, Hr1_6, Hr1_7, Hr1_8, Hr1_9, Hr1_10, Hr1_11, Hr1_12, Hr1_13, Hr1_14, Hr1_15, Hs5, Hs6, Hs7, Hs8, HO⟩
  sl_unfold [cc0__body]
  sl_exec_parts
  -- the two mask scratches hold, word for word, the run of idx with its low bits cleared / alone
  have hp1 : ∀ p ∈ tile_spec.sl.H1_32 d L fI f0, ∀ x : p.1.shape.Idx, p.2 x = G1 (F := F) L fI (p.1.emb x) := by
    delta tile_spec.sl.H1_32 tile_spec.sl.H1_31 tile_spec.sl.H1_28 tile_spec.sl.H1_25 tile_spec.sl.H1_21 tile_spec.sl.H1_18 tile_spec.sl.H1_15 tile_spec.sl.H1_12 tile_spec.sl.H1_9 tile_spec.sl.H1_6 tile_spec.sl.H1_2 tile_spec.sl.v9 tile_spec.sl.v6 tile_spec.sl.v5 tile_spec.sl.v4 tile_spec.sl.v21 tile_spec.sl.v18 tile_spec.sl.v16 tile_spec.sl.v33 tile_spec.sl.v30 tile_spec.sl.v28 tile_spec.sl.v45 tile_spec.sl.v42 tile_spec.sl.v40 tile_spec.sl.v57 tile_spec.sl.v54 tile_spec.sl.v52 tile_spec.sl.v69 tile_spec.sl.v66 tile_spec.sl.v64 tile_spec.sl.v81 tile_spec.sl.v78 tile_spec.sl.v76 tile_spec.sl.v93 tile_spec.sl.v90 tile_spec.sl.v88 tile_spec.sl.v105 tile_spec.sl.v102 tile_spec.sl.v100 tile_spec.sl.v117 tile_spec.sl.v114 tile_spec.sl.v112 tile_spec.sl.v129 tile_spec.sl.v126 tile_spec.sl.v124 tile_spec.sl.v141 tile_spec.sl.v138 tile_spec.sl.v136 tile_spec.sl.v153 tile_spec.sl.v150 tile_spec.sl.v148 tile_spec.sl.v165 tile_spec.sl.v162 tile_spec.sl.v160 tile_spec.sl.v177 tile_spec.sl.v174 tile_spec.sl.v172 tile_spec.sl.v189 tile_spec.sl.v186 tile_spec.sl.v184 tile_spec.sl.r tile_spec.sl.v201 tile_spec.sl.v198 tile_spec.sl.v196 tile_spec.sl.v213 tile_spec.sl.v210 tile_spec.sl.v208 tile_spec.sl.v225 tile_spec.sl.v222 tile_spec.sl.v220 tile_spec.sl.v237 tile_spec.sl.v234 tile_spec.sl.v232 tile_spec.sl.v249 tile_spec.sl.v246 tile_spec.sl.v244 tile_spec.sl.v261 tile_spec.sl.v258 tile_spec.sl.v256 tile_spec.sl.v273 tile_spec.sl.v270 tile_spec.sl.v268 tile_spec.sl.v285 tile_spec.sl.v282 tile_spec.sl.v280 tile_spec.sl.v297 tile_spec.sl.v294 tile_spec.sl.v292 tile_spec.sl.v309 tile_spec.sl.v306 tile_spec.sl.v304 tile_spec.sl.v321 tile_spec.sl.v318 tile_spec.sl.v316 tile_spec.sl.v333 tile_spec.sl.v330 tile_spec.sl.v328 tile_spec.sl.v345 tile_spec.sl.v342 tile_spec.sl.v340 tile_spec.sl.v357 tile_spec.sl.v354 tile_spec.sl.v352 tile_spec.sl.v369 tile_spec.sl.v366 tile_spec.sl.v364 tile_spec.sl.v381 tile_spec.sl.v378 tile_spec.sl.v376
    simp only [List.forall_mem_cons, List.not_mem_nil, IsEmpty.forall_iff, implies_true, and_true]
    repeat' constructor
    all_goals (intro x; exact mask_piece (F := F) _ f0 _ _ _ _ _ x)
  have hp2 : ∀ p ∈ ((⟨Rect.unit (s := S512) ![496] S16.size inb_S512_S16_496, tile_spec.sl.v386 d L fI f0⟩ ::
        ⟨Rect.unit (s := S512) ![480] S16.size inb_S512_S16_480, tile_spec.sl.v374 d L fI f0⟩ :: tile_spec.sl.H2_30 d L fI f0 :
          List (View.Piece (Elt F) S512 .i32))), ∀ x : p.1.shape.Idx, p.2 x = G2 (F := F) L fI (p.1.emb x) := by
    delta tile_spec.sl.H2_30 tile_spec.sl.H2_27 tile_spec.sl.H2_24 tile_spec.sl.H2_21 tile_spec.sl.H2_18 tile_spec.sl.H2_15 tile_spec.sl.H2_11 tile_spec.sl.H2_8 tile_spec.sl.H2_5 tile_spec.sl.H2_2 tile_spec.sl.v14 tile_spec.sl.v11 tile_spec.sl.v10 tile_spec.sl.v4 tile_spec.sl.v26 tile_spec.sl.v23 tile_spec.sl.v16 tile_spec.sl.v38 tile_spec.sl.v35 tile_spec.sl.v28 tile_spec.sl.v50 tile_spec.sl.v47 tile_spec.sl.v40 tile_spec.sl.v62 tile_spec.sl.v59 tile_spec.sl.v52 tile_spec.sl.v74 tile_spec.sl.v71 tile_spec.sl.v64 tile_spec.sl.v86 tile_spec.sl.v83 tile_spec.sl.v76 tile_spec.sl.v98 tile_spec.sl.v95 tile_spec.sl.v88 tile_spec.sl.v110 tile_spec.sl.v107 tile_spec.sl.v100 tile_spec.sl.v122 tile_spec.sl.v119 tile_spec.sl.v112 tile_spec.sl.v134 tile_spec.sl.v131 tile_spec.sl.v124 tile_spec.sl.v146 tile_spec.sl.v143 tile_spec.sl.v136 tile_spec.sl.v158 tile_spec.sl.v155 tile_spec.sl.v148 tile_spec.sl.v170 tile_spec.sl.v167 tile_spec.sl.v160 tile_spec.sl.v182 tile_spec.sl.v179 tile_spec.sl.v172 tile_spec.sl.v194 tile_spec.sl.v191 tile_spec.sl.v184 tile_spec.sl.r tile_spec.sl.v206 tile_spec.sl.v203 tile_spec.sl.v196 tile_spec.sl.v218 tile_spec.sl.v215 tile_spec.sl.v208 tile_spec.sl.v230 tile_spec.sl.v227 tile_spec.sl.v220 tile_spec.sl.v242 tile_spec.sl.v239 tile_spec.sl.v232 tile_spec.sl.v254 tile_spec.sl.v251 tile_spec.sl.v244 tile_spec.sl.v266 tile_spec.sl.v263 tile_spec.sl.v256 tile_spec.sl.v278 tile_spec.sl.v275 tile_spec.sl.v268 tile_spec.sl.v290 tile_spec.sl.v287 tile_spec.sl.v280 tile_spec.sl.v302 tile_spec.sl.v299 tile_spec.sl.v292 tile_spec.sl.v314 tile_spec.sl.v311 tile_spec.sl.v304 tile_spec.sl.v326 tile_spec.sl.v323 tile_spec.sl.v316 tile_spec.sl.v338 tile_spec.sl.v335 tile_spec.sl.v328 tile_spec.sl.v350 tile_spec.sl.v347 tile_spec.sl.v340 tile_spec.sl.v362 tile_spec.sl.v359 tile_spec.sl.v352 tile_spec.sl.v374 tile_spec.sl.v371 tile_spec.sl.v364 tile_spec.sl.v386 tile_spec.sl.v383 tile_spec.sl.v376
    simp only [List.forall_mem_cons, List.not_mem_nil, IsEmpty.forall_iff, implies_true, and_true]
    repeat' constructor
    all_goals (intro x; exact mask_piece (F := F) _ f0 _ _ _ _ _ x)
  have e1 : ∀ base, s1.view.writes (Elt F) base (tile_spec.sl.H1_32 d L fI f0) = G1 (F := F) L fI := fun base =>
    whole_writes_eq (F := F) (cc0_scratch1 : Ref sig .scVector) base _ _ hp1 (View.cover_of_tiled _ ![16] rfl)
  have e2 : s2.view.writes (Elt F) f2 ((⟨Rect.unit (s := S512) ![496] S16.size inb_S512_S16_496, tile_spec.sl.v386 d L fI f0⟩ ::
        ⟨Rect.unit (s := S512) ![480] S16.size inb_S512_S16_480, tile_spec.sl.v374 d L fI f0⟩ :: tile_spec.sl.H2_30 d L fI f0 :
          List (View.Piece (Elt F) S512 .i32))) = G2 (F := F) L fI :=
    whole_writes_eq (F := F) (cc0_scratch2 : Ref sig .scVector) f2 _ _ hp2 (View.cover_of_tiled _ ![16] rfl)
  rw [e1 f1, e2]
  -- from here on the two scratches' contents are just named: `g1`, `g2`
  obtain ⟨g1, hg1⟩ : ∃ g1 : S512.Idx → BitVec 32, g1 = G1 (F := F) L fI := ⟨_, rfl⟩
  obtain ⟨g2, hg2⟩ : ∃ g2 : S512.Idx → BitVec 32, g2 = G2 (F := F) L fI := ⟨_, rfl⟩
  rw [← hg1, ← hg2]
  -- every word a fetch starts from is a slab word, read either way
  have hA : ∀ (R : Rect S512) (h : R.shape.ShapeCasts S16) (x : S16.Idx),
      Slab (shapeCast S16 (View.readAt (Elt F) s1.view R.toLoadRect g1) h x) := by
    intro R h x; rw [hg1]; exact load_G1_slab (F := F) L fI hidx R h x
  have hB : ∀ (R : Rect S512) (h : R.shape.ShapeCasts S16) (x : S16.Idx),
      Slab (shapeCast S16 (s1.view.readCov (tile_spec.sl.H1_32 d L fI f0) R.toLoadRect) h x) := by
    intro R h x
    show Slab (shapeCast S16 (View.readAt (Elt F) s1.view R.toLoadRect
      (s1.view.writes (Elt F) s1.view.junk (tile_spec.sl.H1_32 d L fI f0))) h x)
    rw [e1]; exact load_G1_slab (F := F) L fI hidx R h x
  have hA' : ∀ (R : Rect S512) (h : R.shape.ShapeCasts S16) (k : Nat) (hS : S16.Slices ![k] S1) (h' : ∀ a, (![0] : Fin 1 → Nat) a < S1.size a),
      Slab (extractAt ![0] (extractStridedSlice S1 ![k] (shapeCast S16 (View.readAt (Elt F) s1.view R.toLoadRect g1) h) hS) h') :=
    fun R h k hS h' => lane_slab _ (hA R h) k hS h'
  have hB' : ∀ (R : Rect S512) (h : R.shape.ShapeCasts S16) (k : Nat) (hS : S16.Slices ![k] S1) (h' : ∀ a, (![0] : Fin 1 → Nat) a < S1.size a),
      Slab (extractAt ![0] (extractStridedSlice S1 ![k] (shapeCast S16 (s1.view.readCov (tile_spec.sl.H1_32 d L fI f0) R.toLoadRect) h) hS) h') :=
    fun R h k hS h' => lane_slab _ (hB R h) k hS h'
  sl_exec_parts (disch := first | (clear hA' hA hg1 g1; exact slab_ok' _ _ rfl (hB' _ _ _ _ _)) | exact slab_ok' _ _ rfl (hA' _ _ _ _ _))
  have hS1 : ∀ p, Slab (g1 p) := fun p => by rw [hg1]; exact G1_slab (F := F) L fI hidx p
  have hR2 : ∀ p, (g2 p).toNat < 8 := fun p => by rw [hg2]; exact G2_lt (F := F) L fI p
  sl_for (inv (F := F) d L q O W fI fT fO f4 g1 g2 hS1) $$ [Hmw Ho H1 H2 H3 Hs8 H0 Hi Hs7 HO Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Hs5 Hs6]
  case region =>
    intro k acc
    exact loop_region (F := F) L q O W fI fT fO f4 g1 g2 hS1 hR2 hidx hg1 hg2 k acc
  · -- the invariant holds before the first trip
    -- the thirty-two slab words, as the two batches' loads read them, are the slab-word scratch's words
    have hw0_0 : tile_spec.sl.v391 d L fI f0 = wAt g1 (2 * 0 + 0) 0 := by
      show extractAt ![0] (extractStridedSlice S1 ![0] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 0 (by decide) _ _ _ 0 rfl (by decide)
    have hw0_1 : tile_spec.sl.v400 d L fI f0 = wAt g1 (2 * 0 + 0) 1 := by
      show extractAt ![0] (extractStridedSlice S1 ![1] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 1 (by decide) _ _ _ 0 rfl (by decide)
    have hw0_2 : tile_spec.sl.v409 d L fI f0 = wAt g1 (2 * 0 + 0) 2 := by
      show extractAt ![0] (extractStridedSlice S1 ![2] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 2 (by decide) _ _ _ 0 rfl (by decide)
    have hw0_3 : tile_spec.sl.v418 d L fI f0 = wAt g1 (2 * 0 + 0) 3 := by
      show extractAt ![0] (extractStridedSlice S1 ![3] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 3 (by decide) _ _ _ 0 rfl (by decide)
    have hw0_4 : tile_spec.sl.v427 d L fI f0 = wAt g1 (2 * 0 + 0) 4 := by
      show extractAt ![0] (extractStridedSlice S1 ![4] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 4 (by decide) _ _ _ 0 rfl (by decide)
    have hw0_5 : tile_spec.sl.v436 d L fI f0 = wAt g1 (2 * 0 + 0) 5 := by
      show extractAt ![0] (extractStridedSlice S1 ![5] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 5 (by decide) _ _ _ 0 rfl (by decide)
    have hw0_6 : tile_spec.sl.v445 d L fI f0 = wAt g1 (2 * 0 + 0) 6 := by
      show extractAt ![0] (extractStridedSlice S1 ![6] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 6 (by decide) _ _ _ 0 rfl (by decide)
    have hw0_7 : tile_spec.sl.v454 d L fI f0 = wAt g1 (2 * 0 + 0) 7 := by
      show extractAt ![0] (extractStridedSlice S1 ![7] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 7 (by decide) _ _ _ 0 rfl (by decide)
    have hw0_8 : tile_spec.sl.v463 d L fI f0 = wAt g1 (2 * 0 + 0) 8 := by
      show extractAt ![0] (extractStridedSlice S1 ![8] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 8 (by decide) _ _ _ 0 rfl (by decide)
    have hw0_9 : tile_spec.sl.v472 d L fI f0 = wAt g1 (2 * 0 + 0) 9 := by
      show extractAt ![0] (extractStridedSlice S1 ![9] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 9 (by decide) _ _ _ 0 rfl (by decide)
    have hw0_10 : tile_spec.sl.v481 d L fI f0 = wAt g1 (2 * 0 + 0) 10 := by
      show extractAt ![0] (extractStridedSlice S1 ![10] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 10 (by decide) _ _ _ 0 rfl (by decide)
    have hw0_11 : tile_spec.sl.v490 d L fI f0 = wAt g1 (2 * 0 + 0) 11 := by
      show extractAt ![0] (extractStridedSlice S1 ![11] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 11 (by decide) _ _ _ 0 rfl (by decide)
    have hw0_12 : tile_spec.sl.v499 d L fI f0 = wAt g1 (2 * 0 + 0) 12 := by
      show extractAt ![0] (extractStridedSlice S1 ![12] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 12 (by decide) _ _ _ 0 rfl (by decide)
    have hw0_13 : tile_spec.sl.v508 d L fI f0 = wAt g1 (2 * 0 + 0) 13 := by
      show extractAt ![0] (extractStridedSlice S1 ![13] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 13 (by decide) _ _ _ 0 rfl (by decide)
    have hw0_14 : tile_spec.sl.v517 d L fI f0 = wAt g1 (2 * 0 + 0) 14 := by
      show extractAt ![0] (extractStridedSlice S1 ![14] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 14 (by decide) _ _ _ 0 rfl (by decide)
    have hw0_15 : tile_spec.sl.v526 d L fI f0 = wAt g1 (2 * 0 + 0) 15 := by
      show extractAt ![0] (extractStridedSlice S1 ![15] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 15 (by decide) _ _ _ 0 rfl (by decide)
    have hw1_0 : tile_spec.sl.v537 (F := F) g1 = wAt g1 (2 * 0 + 1) 0 :=
      wAt_of_load1 (F := F) g1 ![16] _ 0 (by decide) _ _ _ 1 rfl (by decide)
    have hw1_1 : tile_spec.sl.v546 (F := F) g1 = wAt g1 (2 * 0 + 1) 1 :=
      wAt_of_load1 (F := F) g1 ![16] _ 1 (by decide) _ _ _ 1 rfl (by decide)
    have hw1_2 : tile_spec.sl.v555 (F := F) g1 = wAt g1 (2 * 0 + 1) 2 :=
      wAt_of_load1 (F := F) g1 ![16] _ 2 (by decide) _ _ _ 1 rfl (by decide)
    have hw1_3 : tile_spec.sl.v564 (F := F) g1 = wAt g1 (2 * 0 + 1) 3 :=
      wAt_of_load1 (F := F) g1 ![16] _ 3 (by decide) _ _ _ 1 rfl (by decide)
    have hw1_4 : tile_spec.sl.v573 (F := F) g1 = wAt g1 (2 * 0 + 1) 4 :=
      wAt_of_load1 (F := F) g1 ![16] _ 4 (by decide) _ _ _ 1 rfl (by decide)
    have hw1_5 : tile_spec.sl.v582 (F := F) g1 = wAt g1 (2 * 0 + 1) 5 :=
      wAt_of_load1 (F := F) g1 ![16] _ 5 (by decide) _ _ _ 1 rfl (by decide)
    have hw1_6 : tile_spec.sl.v591 (F := F) g1 = wAt g1 (2 * 0 + 1) 6 :=
      wAt_of_load1 (F := F) g1 ![16] _ 6 (by decide) _ _ _ 1 rfl (by decide)
    have hw1_7 : tile_spec.sl.v600 (F := F) g1 = wAt g1 (2 * 0 + 1) 7 :=
      wAt_of_load1 (F := F) g1 ![16] _ 7 (by decide) _ _ _ 1 rfl (by decide)
    have hw1_8 : tile_spec.sl.v609 (F := F) g1 = wAt g1 (2 * 0 + 1) 8 :=
      wAt_of_load1 (F := F) g1 ![16] _ 8 (by decide) _ _ _ 1 rfl (by decide)
    have hw1_9 : tile_spec.sl.v618 (F := F) g1 = wAt g1 (2 * 0 + 1) 9 :=
      wAt_of_load1 (F := F) g1 ![16] _ 9 (by decide) _ _ _ 1 rfl (by decide)
    have hw1_10 : tile_spec.sl.v627 (F := F) g1 = wAt g1 (2 * 0 + 1) 10 :=
      wAt_of_load1 (F := F) g1 ![16] _ 10 (by decide) _ _ _ 1 rfl (by decide)
    have hw1_11 : tile_spec.sl.v636 (F := F) g1 = wAt g1 (2 * 0 + 1) 11 :=
      wAt_of_load1 (F := F) g1 ![16] _ 11 (by decide) _ _ _ 1 rfl (by decide)
    have hw1_12 : tile_spec.sl.v645 (F := F) g1 = wAt g1 (2 * 0 + 1) 12 :=
      wAt_of_load1 (F := F) g1 ![16] _ 12 (by decide) _ _ _ 1 rfl (by decide)
    have hw1_13 : tile_spec.sl.v654 (F := F) g1 = wAt g1 (2 * 0 + 1) 13 :=
      wAt_of_load1 (F := F) g1 ![16] _ 13 (by decide) _ _ _ 1 rfl (by decide)
    have hw1_14 : tile_spec.sl.v663 (F := F) g1 = wAt g1 (2 * 0 + 1) 14 :=
      wAt_of_load1 (F := F) g1 ![16] _ 14 (by decide) _ _ _ 1 rfl (by decide)
    have hw1_15 : tile_spec.sl.v672 (F := F) g1 = wAt g1 (2 * 0 + 1) 15 :=
      wAt_of_load1 (F := F) g1 ![16] _ 15 (by decide) _ _ _ 1 rfl (by decide)
    have ho0_0 : k0_off2 (tile_spec.sl.v391 d L fI f0) = ![(wAt g1 (2 * 0 + 0) 0).toNat, 0] := by rw [hw0_0]; rfl
    have ho0_1 : k0_off3 (tile_spec.sl.v400 d L fI f0) = ![(wAt g1 (2 * 0 + 0) 1).toNat, 0] := by rw [hw0_1]; rfl
    have ho0_2 : k0_off4 (tile_spec.sl.v409 d L fI f0) = ![(wAt g1 (2 * 0 + 0) 2).toNat, 0] := by rw [hw0_2]; rfl
    have ho0_3 : k0_off5 (tile_spec.sl.v418 d L fI f0) = ![(wAt g1 (2 * 0 + 0) 3).toNat, 0] := by rw [hw0_3]; rfl
    have ho0_4 : k0_off6 (tile_spec.sl.v427 d L fI f0) = ![(wAt g1 (2 * 0 + 0) 4).toNat, 0] := by rw [hw0_4]; rfl
    have ho0_5 : k0_off7 (tile_spec.sl.v436 d L fI f0) = ![(wAt g1 (2 * 0 + 0) 5).toNat, 0] := by rw [hw0_5]; rfl
    have ho0_6 : k0_off8 (tile_spec.sl.v445 d L fI f0) = ![(wAt g1 (2 * 0 + 0) 6).toNat, 0] := by rw [hw0_6]; rfl
    have ho0_7 : k0_off9 (tile_spec.sl.v454 d L fI f0) = ![(wAt g1 (2 * 0 + 0) 7).toNat, 0] := by rw [hw0_7]; rfl
    have ho0_8 : k0_off10 (tile_spec.sl.v463 d L fI f0) = ![(wAt g1 (2 * 0 + 0) 8).toNat, 0] := by rw [hw0_8]; rfl
    have ho0_9 : k0_off11 (tile_spec.sl.v472 d L fI f0) = ![(wAt g1 (2 * 0 + 0) 9).toNat, 0] := by rw [hw0_9]; rfl
    have ho0_10 : k0_off12 (tile_spec.sl.v481 d L fI f0) = ![(wAt g1 (2 * 0 + 0) 10).toNat, 0] := by rw [hw0_10]; rfl
    have ho0_11 : k0_off13 (tile_spec.sl.v490 d L fI f0) = ![(wAt g1 (2 * 0 + 0) 11).toNat, 0] := by rw [hw0_11]; rfl
    have ho0_12 : k0_off14 (tile_spec.sl.v499 d L fI f0) = ![(wAt g1 (2 * 0 + 0) 12).toNat, 0] := by rw [hw0_12]; rfl
    have ho0_13 : k0_off15 (tile_spec.sl.v508 d L fI f0) = ![(wAt g1 (2 * 0 + 0) 13).toNat, 0] := by rw [hw0_13]; rfl
    have ho0_14 : k0_off16 (tile_spec.sl.v517 d L fI f0) = ![(wAt g1 (2 * 0 + 0) 14).toNat, 0] := by rw [hw0_14]; rfl
    have ho0_15 : k0_off17 (tile_spec.sl.v526 d L fI f0) = ![(wAt g1 (2 * 0 + 0) 15).toNat, 0] := by rw [hw0_15]; rfl
    have ho1_0 : k0_off18 (tile_spec.sl.v537 (F := F) g1) = ![(wAt g1 (2 * 0 + 1) 0).toNat, 0] := by rw [hw1_0]; rfl
    have ho1_1 : k0_off19 (tile_spec.sl.v546 (F := F) g1) = ![(wAt g1 (2 * 0 + 1) 1).toNat, 0] := by rw [hw1_1]; rfl
    have ho1_2 : k0_off20 (tile_spec.sl.v555 (F := F) g1) = ![(wAt g1 (2 * 0 + 1) 2).toNat, 0] := by rw [hw1_2]; rfl
    have ho1_3 : k0_off21 (tile_spec.sl.v564 (F := F) g1) = ![(wAt g1 (2 * 0 + 1) 3).toNat, 0] := by rw [hw1_3]; rfl
    have ho1_4 : k0_off22 (tile_spec.sl.v573 (F := F) g1) = ![(wAt g1 (2 * 0 + 1) 4).toNat, 0] := by rw [hw1_4]; rfl
    have ho1_5 : k0_off23 (tile_spec.sl.v582 (F := F) g1) = ![(wAt g1 (2 * 0 + 1) 5).toNat, 0] := by rw [hw1_5]; rfl
    have ho1_6 : k0_off24 (tile_spec.sl.v591 (F := F) g1) = ![(wAt g1 (2 * 0 + 1) 6).toNat, 0] := by rw [hw1_6]; rfl
    have ho1_7 : k0_off25 (tile_spec.sl.v600 (F := F) g1) = ![(wAt g1 (2 * 0 + 1) 7).toNat, 0] := by rw [hw1_7]; rfl
    have ho1_8 : k0_off26 (tile_spec.sl.v609 (F := F) g1) = ![(wAt g1 (2 * 0 + 1) 8).toNat, 0] := by rw [hw1_8]; rfl
    have ho1_9 : k0_off27 (tile_spec.sl.v618 (F := F) g1) = ![(wAt g1 (2 * 0 + 1) 9).toNat, 0] := by rw [hw1_9]; rfl
    have ho1_10 : k0_off28 (tile_spec.sl.v627 (F := F) g1) = ![(wAt g1 (2 * 0 + 1) 10).toNat, 0] := by rw [hw1_10]; rfl
    have ho1_11 : k0_off29 (tile_spec.sl.v636 (F := F) g1) = ![(wAt g1 (2 * 0 + 1) 11).toNat, 0] := by rw [hw1_11]; rfl
    have ho1_12 : k0_off30 (tile_spec.sl.v645 (F := F) g1) = ![(wAt g1 (2 * 0 + 1) 12).toNat, 0] := by rw [hw1_12]; rfl
    have ho1_13 : k0_off31 (tile_spec.sl.v654 (F := F) g1) = ![(wAt g1 (2 * 0 + 1) 13).toNat, 0] := by rw [hw1_13]; rfl
    have ho1_14 : k0_off32 (tile_spec.sl.v663 (F := F) g1) = ![(wAt g1 (2 * 0 + 1) 14).toNat, 0] := by rw [hw1_14]; rfl
    have ho1_15 : k0_off33 (tile_spec.sl.v672 (F := F) g1) = ![(wAt g1 (2 * 0 + 1) 15).toNat, 0] := by rw [hw1_15]; rfl
    ihave Ht0 := (Entails.of_eq (rest_of_exec (F := F) d L q fT 0 (k0_off2 (tile_spec.sl.v391 d L fI f0)) _ (wAt g1 (2 * 0 + 0) 0) (slab_inb _ (wAt_slab g1 hS1 (2 * 0 + 0) 0)) ho0_0)) $$ Ht0
    ihave Ht1 := (Entails.of_eq (rest_of_exec (F := F) d L q fT 1 (k0_off3 (tile_spec.sl.v400 d L fI f0)) _ (wAt g1 (2 * 0 + 0) 1) (slab_inb _ (wAt_slab g1 hS1 (2 * 0 + 0) 1)) ho0_1)) $$ Ht1
    ihave Ht2 := (Entails.of_eq (rest_of_exec (F := F) d L q fT 2 (k0_off4 (tile_spec.sl.v409 d L fI f0)) _ (wAt g1 (2 * 0 + 0) 2) (slab_inb _ (wAt_slab g1 hS1 (2 * 0 + 0) 2)) ho0_2)) $$ Ht2
    ihave Ht3 := (Entails.of_eq (rest_of_exec (F := F) d L q fT 3 (k0_off5 (tile_spec.sl.v418 d L fI f0)) _ (wAt g1 (2 * 0 + 0) 3) (slab_inb _ (wAt_slab g1 hS1 (2 * 0 + 0) 3)) ho0_3)) $$ Ht3
    ihave Ht4 := (Entails.of_eq (rest_of_exec (F := F) d L q fT 4 (k0_off6 (tile_spec.sl.v427 d L fI f0)) _ (wAt g1 (2 * 0 + 0) 4) (slab_inb _ (wAt_slab g1 hS1 (2 * 0 + 0) 4)) ho0_4)) $$ Ht4
    ihave Ht5 := (Entails.of_eq (rest_of_exec (F := F) d L q fT 5 (k0_off7 (tile_spec.sl.v436 d L fI f0)) _ (wAt g1 (2 * 0 + 0) 5) (slab_inb _ (wAt_slab g1 hS1 (2 * 0 + 0) 5)) ho0_5)) $$ Ht5
    ihave Ht6 := (Entails.of_eq (rest_of_exec (F := F) d L q fT 6 (k0_off8 (tile_spec.sl.v445 d L fI f0)) _ (wAt g1 (2 * 0 + 0) 6) (slab_inb _ (wAt_slab g1 hS1 (2 * 0 + 0) 6)) ho0_6)) $$ Ht6
    ihave Ht7 := (Entails.of_eq (rest_of_exec (F := F) d L q fT 7 (k0_off9 (tile_spec.sl.v454 d L fI f0)) _ (wAt g1 (2 * 0 + 0) 7) (slab_inb _ (wAt_slab g1 hS1 (2 * 0 + 0) 7)) ho0_7)) $$ Ht7
    ihave Ht8 := (Entails.of_eq (rest_of_exec (F := F) d L q fT 8 (k0_off10 (tile_spec.sl.v463 d L fI f0)) _ (wAt g1 (2 * 0 + 0) 8) (slab_inb _ (wAt_slab g1 hS1 (2 * 0 + 0) 8)) ho0_8)) $$ Ht8
    ihave Ht9 := (Entails.of_eq (rest_of_exec (F := F) d L q fT 9 (k0_off11 (tile_spec.sl.v472 d L fI f0)) _ (wAt g1 (2 * 0 + 0) 9) (slab_inb _ (wAt_slab g1 hS1 (2 * 0 + 0) 9)) ho0_9)) $$ Ht9
    ihave Ht10 := (Entails.of_eq (rest_of_exec (F := F) d L q fT 10 (k0_off12 (tile_spec.sl.v481 d L fI f0)) _ (wAt g1 (2 * 0 + 0) 10) (slab_inb _ (wAt_slab g1 hS1 (2 * 0 + 0) 10)) ho0_10)) $$ Ht10
    ihave Ht11 := (Entails.of_eq (rest_of_exec (F := F) d L q fT 11 (k0_off13 (tile_spec.sl.v490 d L fI f0)) _ (wAt g1 (2 * 0 + 0) 11) (slab_inb _ (wAt_slab g1 hS1 (2 * 0 + 0) 11)) ho0_11)) $$ Ht11
    ihave Ht12 := (Entails.of_eq (rest_of_exec (F := F) d L q fT 12 (k0_off14 (tile_spec.sl.v499 d L fI f0)) _ (wAt g1 (2 * 0 + 0) 12) (slab_inb _ (wAt_slab g1 hS1 (2 * 0 + 0) 12)) ho0_12)) $$ Ht12
    ihave Ht13 := (Entails.of_eq (rest_of_exec (F := F) d L q fT 13 (k0_off15 (tile_spec.sl.v508 d L fI f0)) _ (wAt g1 (2 * 0 + 0) 13) (slab_inb _ (wAt_slab g1 hS1 (2 * 0 + 0) 13)) ho0_13)) $$ Ht13
    ihave Ht14 := (Entails.of_eq (rest_of_exec (F := F) d L q fT 14 (k0_off16 (tile_spec.sl.v517 d L fI f0)) _ (wAt g1 (2 * 0 + 0) 14) (slab_inb _ (wAt_slab g1 hS1 (2 * 0 + 0) 14)) ho0_14)) $$ Ht14
    ihave Ht15 := (Entails.of_eq (rest_of_exec (F := F) d L q fT 15 (k0_off17 (tile_spec.sl.v526 d L fI f0)) _ (wAt g1 (2 * 0 + 0) 15) (slab_inb _ (wAt_slab g1 hS1 (2 * 0 + 0) 15)) ho0_15)) $$ Ht15
    ihave Ht16 := (Entails.of_eq (rest_of_exec (F := F) d L q fT 16 (k0_off18 (tile_spec.sl.v537 (F := F) g1)) _ (wAt g1 (2 * 0 + 1) 0) (slab_inb _ (wAt_slab g1 hS1 (2 * 0 + 1) 0)) ho1_0)) $$ Ht16
    ihave Ht17 := (Entails.of_eq (rest_of_exec (F := F) d L q fT 17 (k0_off19 (tile_spec.sl.v546 (F := F) g1)) _ (wAt g1 (2 * 0 + 1) 1) (slab_inb _ (wAt_slab g1 hS1 (2 * 0 + 1) 1)) ho1_1)) $$ Ht17
    ihave Ht18 := (Entails.of_eq (rest_of_exec (F := F) d L q fT 18 (k0_off20 (tile_spec.sl.v555 (F := F) g1)) _ (wAt g1 (2 * 0 + 1) 2) (slab_inb _ (wAt_slab g1 hS1 (2 * 0 + 1) 2)) ho1_2)) $$ Ht18
    ihave Ht19 := (Entails.of_eq (rest_of_exec (F := F) d L q fT 19 (k0_off21 (tile_spec.sl.v564 (F := F) g1)) _ (wAt g1 (2 * 0 + 1) 3) (slab_inb _ (wAt_slab g1 hS1 (2 * 0 + 1) 3)) ho1_3)) $$ Ht19
    ihave Ht20 := (Entails.of_eq (rest_of_exec (F := F) d L q fT 20 (k0_off22 (tile_spec.sl.v573 (F := F) g1)) _ (wAt g1 (2 * 0 + 1) 4) (slab_inb _ (wAt_slab g1 hS1 (2 * 0 + 1) 4)) ho1_4)) $$ Ht20
    ihave Ht21 := (Entails.of_eq (rest_of_exec (F := F) d L q fT 21 (k0_off23 (tile_spec.sl.v582 (F := F) g1)) _ (wAt g1 (2 * 0 + 1) 5) (slab_inb _ (wAt_slab g1 hS1 (2 * 0 + 1) 5)) ho1_5)) $$ Ht21
    ihave Ht22 := (Entails.of_eq (rest_of_exec (F := F) d L q fT 22 (k0_off24 (tile_spec.sl.v591 (F := F) g1)) _ (wAt g1 (2 * 0 + 1) 6) (slab_inb _ (wAt_slab g1 hS1 (2 * 0 + 1) 6)) ho1_6)) $$ Ht22
    ihave Ht23 := (Entails.of_eq (rest_of_exec (F := F) d L q fT 23 (k0_off25 (tile_spec.sl.v600 (F := F) g1)) _ (wAt g1 (2 * 0 + 1) 7) (slab_inb _ (wAt_slab g1 hS1 (2 * 0 + 1) 7)) ho1_7)) $$ Ht23
    ihave Ht24 := (Entails.of_eq (rest_of_exec (F := F) d L q fT 24 (k0_off26 (tile_spec.sl.v609 (F := F) g1)) _ (wAt g1 (2 * 0 + 1) 8) (slab_inb _ (wAt_slab g1 hS1 (2 * 0 + 1) 8)) ho1_8)) $$ Ht24
    ihave Ht25 := (Entails.of_eq (rest_of_exec (F := F) d L q fT 25 (k0_off27 (tile_spec.sl.v618 (F := F) g1)) _ (wAt g1 (2 * 0 + 1) 9) (slab_inb _ (wAt_slab g1 hS1 (2 * 0 + 1) 9)) ho1_9)) $$ Ht25
    ihave Ht26 := (Entails.of_eq (rest_of_exec (F := F) d L q fT 26 (k0_off28 (tile_spec.sl.v627 (F := F) g1)) _ (wAt g1 (2 * 0 + 1) 10) (slab_inb _ (wAt_slab g1 hS1 (2 * 0 + 1) 10)) ho1_10)) $$ Ht26
    ihave Ht27 := (Entails.of_eq (rest_of_exec (F := F) d L q fT 27 (k0_off29 (tile_spec.sl.v636 (F := F) g1)) _ (wAt g1 (2 * 0 + 1) 11) (slab_inb _ (wAt_slab g1 hS1 (2 * 0 + 1) 11)) ho1_11)) $$ Ht27
    ihave Ht28 := (Entails.of_eq (rest_of_exec (F := F) d L q fT 28 (k0_off30 (tile_spec.sl.v645 (F := F) g1)) _ (wAt g1 (2 * 0 + 1) 12) (slab_inb _ (wAt_slab g1 hS1 (2 * 0 + 1) 12)) ho1_12)) $$ Ht28
    ihave Ht29 := (Entails.of_eq (rest_of_exec (F := F) d L q fT 29 (k0_off31 (tile_spec.sl.v654 (F := F) g1)) _ (wAt g1 (2 * 0 + 1) 13) (slab_inb _ (wAt_slab g1 hS1 (2 * 0 + 1) 13)) ho1_13)) $$ Ht29
    ihave Ht30 := (Entails.of_eq (rest_of_exec (F := F) d L q fT 30 (k0_off32 (tile_spec.sl.v663 (F := F) g1)) _ (wAt g1 (2 * 0 + 1) 14) (slab_inb _ (wAt_slab g1 hS1 (2 * 0 + 1) 14)) ho1_14)) $$ Ht30
    ihave Ht31 := (Entails.of_eq (rest_of_exec (F := F) d L q fT 31 (k0_off33 (tile_spec.sl.v672 (F := F) g1)) _ (wAt g1 (2 * 0 + 1) 15) (slab_inb _ (wAt_slab g1 hS1 (2 * 0 + 1) 15)) ho1_15)) $$ Ht31
    delta tile_spec.sl.dma0_1 tile_spec.sl.dma1 tile_spec.sl.dma2 tile_spec.sl.dma3 tile_spec.sl.dma4 tile_spec.sl.dma5 tile_spec.sl.dma6 tile_spec.sl.dma7 tile_spec.sl.dma8 tile_spec.sl.dma9 tile_spec.sl.dma10 tile_spec.sl.dma11 tile_spec.sl.dma12 tile_spec.sl.dma13 tile_spec.sl.dma14 tile_spec.sl.dma15 tile_spec.sl.dma17 tile_spec.sl.dma18 tile_spec.sl.dma19 tile_spec.sl.dma20 tile_spec.sl.dma21 tile_spec.sl.dma22 tile_spec.sl.dma23 tile_spec.sl.dma24 tile_spec.sl.dma25 tile_spec.sl.dma26 tile_spec.sl.dma27 tile_spec.sl.dma28 tile_spec.sl.dma29 tile_spec.sl.dma30 tile_spec.sl.dma31 tile_spec.sl.dma32
    rw [deliv_of_exec (F := F) d L q fT f4 0 0 inb_S2x16x8x64_S1x1x8x64_0_0_0_0 0 f4 (k0_off2 (tile_spec.sl.v391 d L fI f0)) _ (wAt g1 (2 * 0 + 0) 0) (slab_inb _ (wAt_slab g1 hS1 (2 * 0 + 0) 0)) ho0_0,
      deliv_of_exec (F := F) d L q fT f4 0 1 inb_S2x16x8x64_S1x1x8x64_0_1_0_0 1 f4 (k0_off3 (tile_spec.sl.v400 d L fI f0)) _ (wAt g1 (2 * 0 + 0) 1) (slab_inb _ (wAt_slab g1 hS1 (2 * 0 + 0) 1)) ho0_1,
      deliv_of_exec (F := F) d L q fT f4 0 2 inb_S2x16x8x64_S1x1x8x64_0_2_0_0 2 f4 (k0_off4 (tile_spec.sl.v409 d L fI f0)) _ (wAt g1 (2 * 0 + 0) 2) (slab_inb _ (wAt_slab g1 hS1 (2 * 0 + 0) 2)) ho0_2,
      deliv_of_exec (F := F) d L q fT f4 0 3 inb_S2x16x8x64_S1x1x8x64_0_3_0_0 3 f4 (k0_off5 (tile_spec.sl.v418 d L fI f0)) _ (wAt g1 (2 * 0 + 0) 3) (slab_inb _ (wAt_slab g1 hS1 (2 * 0 + 0) 3)) ho0_3,
      deliv_of_exec (F := F) d L q fT f4 0 4 inb_S2x16x8x64_S1x1x8x64_0_4_0_0 4 f4 (k0_off6 (tile_spec.sl.v427 d L fI f0)) _ (wAt g1 (2 * 0 + 0) 4) (slab_inb _ (wAt_slab g1 hS1 (2 * 0 + 0) 4)) ho0_4,
      deliv_of_exec (F := F) d L q fT f4 0 5 inb_S2x16x8x64_S1x1x8x64_0_5_0_0 5 f4 (k0_off7 (tile_spec.sl.v436 d L fI f0)) _ (wAt g1 (2 * 0 + 0) 5) (slab_inb _ (wAt_slab g1 hS1 (2 * 0 + 0) 5)) ho0_5,
      deliv_of_exec (F := F) d L q fT f4 0 6 inb_S2x16x8x64_S1x1x8x64_0_6_0_0 6 f4 (k0_off8 (tile_spec.sl.v445 d L fI f0)) _ (wAt g1 (2 * 0 + 0) 6) (slab_inb _ (wAt_slab g1 hS1 (2 * 0 + 0) 6)) ho0_6,
      deliv_of_exec (F := F) d L q fT f4 0 7 inb_S2x16x8x64_S1x1x8x64_0_7_0_0 7 f4 (k0_off9 (tile_spec.sl.v454 d L fI f0)) _ (wAt g1 (2 * 0 + 0) 7) (slab_inb _ (wAt_slab g1 hS1 (2 * 0 + 0) 7)) ho0_7,
      deliv_of_exec (F := F) d L q fT f4 0 8 inb_S2x16x8x64_S1x1x8x64_0_8_0_0 8 f4 (k0_off10 (tile_spec.sl.v463 d L fI f0)) _ (wAt g1 (2 * 0 + 0) 8) (slab_inb _ (wAt_slab g1 hS1 (2 * 0 + 0) 8)) ho0_8,
      deliv_of_exec (F := F) d L q fT f4 0 9 inb_S2x16x8x64_S1x1x8x64_0_9_0_0 9 f4 (k0_off11 (tile_spec.sl.v472 d L fI f0)) _ (wAt g1 (2 * 0 + 0) 9) (slab_inb _ (wAt_slab g1 hS1 (2 * 0 + 0) 9)) ho0_9,
      deliv_of_exec (F := F) d L q fT f4 0 10 inb_S2x16x8x64_S1x1x8x64_0_10_0_0 10 f4 (k0_off12 (tile_spec.sl.v481 d L fI f0)) _ (wAt g1 (2 * 0 + 0) 10) (slab_inb _ (wAt_slab g1 hS1 (2 * 0 + 0) 10)) ho0_10,
      deliv_of_exec (F := F) d L q fT f4 0 11 inb_S2x16x8x64_S1x1x8x64_0_11_0_0 11 f4 (k0_off13 (tile_spec.sl.v490 d L fI f0)) _ (wAt g1 (2 * 0 + 0) 11) (slab_inb _ (wAt_slab g1 hS1 (2 * 0 + 0) 11)) ho0_11,
      deliv_of_exec (F := F) d L q fT f4 0 12 inb_S2x16x8x64_S1x1x8x64_0_12_0_0 12 f4 (k0_off14 (tile_spec.sl.v499 d L fI f0)) _ (wAt g1 (2 * 0 + 0) 12) (slab_inb _ (wAt_slab g1 hS1 (2 * 0 + 0) 12)) ho0_12,
      deliv_of_exec (F := F) d L q fT f4 0 13 inb_S2x16x8x64_S1x1x8x64_0_13_0_0 13 f4 (k0_off15 (tile_spec.sl.v508 d L fI f0)) _ (wAt g1 (2 * 0 + 0) 13) (slab_inb _ (wAt_slab g1 hS1 (2 * 0 + 0) 13)) ho0_13,
      deliv_of_exec (F := F) d L q fT f4 0 14 inb_S2x16x8x64_S1x1x8x64_0_14_0_0 14 f4 (k0_off16 (tile_spec.sl.v517 d L fI f0)) _ (wAt g1 (2 * 0 + 0) 14) (slab_inb _ (wAt_slab g1 hS1 (2 * 0 + 0) 14)) ho0_14,
      deliv_of_exec (F := F) d L q fT f4 0 15 inb_S2x16x8x64_S1x1x8x64_0_15_0_0 15 f4 (k0_off17 (tile_spec.sl.v526 d L fI f0)) _ (wAt g1 (2 * 0 + 0) 15) (slab_inb _ (wAt_slab g1 hS1 (2 * 0 + 0) 15)) ho0_15,
      deliv_of_exec (F := F) d L q fT f4 1 0 inb_S2x16x8x64_S1x1x8x64_1_0_0_0 16 f4 (k0_off18 (tile_spec.sl.v537 (F := F) g1)) _ (wAt g1 (2 * 0 + 1) 0) (slab_inb _ (wAt_slab g1 hS1 (2 * 0 + 1) 0)) ho1_0,
      deliv_of_exec (F := F) d L q fT f4 1 1 inb_S2x16x8x64_S1x1x8x64_1_1_0_0 17 f4 (k0_off19 (tile_spec.sl.v546 (F := F) g1)) _ (wAt g1 (2 * 0 + 1) 1) (slab_inb _ (wAt_slab g1 hS1 (2 * 0 + 1) 1)) ho1_1,
      deliv_of_exec (F := F) d L q fT f4 1 2 inb_S2x16x8x64_S1x1x8x64_1_2_0_0 18 f4 (k0_off20 (tile_spec.sl.v555 (F := F) g1)) _ (wAt g1 (2 * 0 + 1) 2) (slab_inb _ (wAt_slab g1 hS1 (2 * 0 + 1) 2)) ho1_2,
      deliv_of_exec (F := F) d L q fT f4 1 3 inb_S2x16x8x64_S1x1x8x64_1_3_0_0 19 f4 (k0_off21 (tile_spec.sl.v564 (F := F) g1)) _ (wAt g1 (2 * 0 + 1) 3) (slab_inb _ (wAt_slab g1 hS1 (2 * 0 + 1) 3)) ho1_3,
      deliv_of_exec (F := F) d L q fT f4 1 4 inb_S2x16x8x64_S1x1x8x64_1_4_0_0 20 f4 (k0_off22 (tile_spec.sl.v573 (F := F) g1)) _ (wAt g1 (2 * 0 + 1) 4) (slab_inb _ (wAt_slab g1 hS1 (2 * 0 + 1) 4)) ho1_4,
      deliv_of_exec (F := F) d L q fT f4 1 5 inb_S2x16x8x64_S1x1x8x64_1_5_0_0 21 f4 (k0_off23 (tile_spec.sl.v582 (F := F) g1)) _ (wAt g1 (2 * 0 + 1) 5) (slab_inb _ (wAt_slab g1 hS1 (2 * 0 + 1) 5)) ho1_5,
      deliv_of_exec (F := F) d L q fT f4 1 6 inb_S2x16x8x64_S1x1x8x64_1_6_0_0 22 f4 (k0_off24 (tile_spec.sl.v591 (F := F) g1)) _ (wAt g1 (2 * 0 + 1) 6) (slab_inb _ (wAt_slab g1 hS1 (2 * 0 + 1) 6)) ho1_6,
      deliv_of_exec (F := F) d L q fT f4 1 7 inb_S2x16x8x64_S1x1x8x64_1_7_0_0 23 f4 (k0_off25 (tile_spec.sl.v600 (F := F) g1)) _ (wAt g1 (2 * 0 + 1) 7) (slab_inb _ (wAt_slab g1 hS1 (2 * 0 + 1) 7)) ho1_7,
      deliv_of_exec (F := F) d L q fT f4 1 8 inb_S2x16x8x64_S1x1x8x64_1_8_0_0 24 f4 (k0_off26 (tile_spec.sl.v609 (F := F) g1)) _ (wAt g1 (2 * 0 + 1) 8) (slab_inb _ (wAt_slab g1 hS1 (2 * 0 + 1) 8)) ho1_8,
      deliv_of_exec (F := F) d L q fT f4 1 9 inb_S2x16x8x64_S1x1x8x64_1_9_0_0 25 f4 (k0_off27 (tile_spec.sl.v618 (F := F) g1)) _ (wAt g1 (2 * 0 + 1) 9) (slab_inb _ (wAt_slab g1 hS1 (2 * 0 + 1) 9)) ho1_9,
      deliv_of_exec (F := F) d L q fT f4 1 10 inb_S2x16x8x64_S1x1x8x64_1_10_0_0 26 f4 (k0_off28 (tile_spec.sl.v627 (F := F) g1)) _ (wAt g1 (2 * 0 + 1) 10) (slab_inb _ (wAt_slab g1 hS1 (2 * 0 + 1) 10)) ho1_10,
      deliv_of_exec (F := F) d L q fT f4 1 11 inb_S2x16x8x64_S1x1x8x64_1_11_0_0 27 f4 (k0_off29 (tile_spec.sl.v636 (F := F) g1)) _ (wAt g1 (2 * 0 + 1) 11) (slab_inb _ (wAt_slab g1 hS1 (2 * 0 + 1) 11)) ho1_11,
      deliv_of_exec (F := F) d L q fT f4 1 12 inb_S2x16x8x64_S1x1x8x64_1_12_0_0 28 f4 (k0_off30 (tile_spec.sl.v645 (F := F) g1)) _ (wAt g1 (2 * 0 + 1) 12) (slab_inb _ (wAt_slab g1 hS1 (2 * 0 + 1) 12)) ho1_12,
      deliv_of_exec (F := F) d L q fT f4 1 13 inb_S2x16x8x64_S1x1x8x64_1_13_0_0 29 f4 (k0_off31 (tile_spec.sl.v654 (F := F) g1)) _ (wAt g1 (2 * 0 + 1) 13) (slab_inb _ (wAt_slab g1 hS1 (2 * 0 + 1) 13)) ho1_13,
      deliv_of_exec (F := F) d L q fT f4 1 14 inb_S2x16x8x64_S1x1x8x64_1_14_0_0 30 f4 (k0_off32 (tile_spec.sl.v663 (F := F) g1)) _ (wAt g1 (2 * 0 + 1) 14) (slab_inb _ (wAt_slab g1 hS1 (2 * 0 + 1) 14)) ho1_14,
      deliv_of_exec (F := F) d L q fT f4 1 15 inb_S2x16x8x64_S1x1x8x64_1_15_0_0 31 f4 (k0_off33 (tile_spec.sl.v672 (F := F) g1)) _ (wAt g1 (2 * 0 + 1) 15) (slab_inb _ (wAt_slab g1 hS1 (2 * 0 + 1) 15)) ho1_15]
    delta inv
    rw [if_pos (by decide)]
    delta invBase rests flight0 flight1
    isplitl [Hmw Hi Ho H0 H1 H2 H3 Hs7 Hs8 HO]
    · isplitr; · iexact Hmw
      isplitl [Hi]; · iexact Hi
      isplitl [Ho]; · iexact Ho
      isplitl [H0]; · iexists _; iexact H0
      isplitl [H1]; · iexact H1
      isplitl [H2]; · iexact H2
      isplitl [H3]
      · iexists f3; isplitr
        · ipureintro; intro j c hj; exact absurd hj (by omega)
        · iexact H3
      isplitl [Hs7]; · iexact Hs7
      isplitl [Hs8]; · iexact Hs8
      iexists (insert (SemLoc.dma cc0_scoped0.sem, (default : HIx 1)) W); isplitr
      · ipureintro; intro p hp
        rcases Finset.mem_insert.mp hp with hp | hp
        · exact .inr (hp ▸ rfl)
        · exact .inl hp
      · iexact HO
    isplitl [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31]
    · isplitr; · iempintro
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      isplitl [Ht19]; · iexact Ht19
      isplitl [Ht20]; · iexact Ht20
      isplitl [Ht21]; · iexact Ht21
      isplitl [Ht22]; · iexact Ht22
      isplitl [Ht23]; · iexact Ht23
      isplitl [Ht24]; · iexact Ht24
      isplitl [Ht25]; · iexact Ht25
      isplitl [Ht26]; · iexact Ht26
      isplitl [Ht27]; · iexact Ht27
      isplitl [Ht28]; · iexact Ht28
      isplitl [Ht29]; · iexact Ht29
      isplitl [Ht30]; · iexact Ht30
      iexact Ht31
    isplitl [Hs5]; · iexact Hs5
    iexact Hs6
  -- after the last trip: the rows go out
  delta inv
  rw [if_neg (show ¬ (Scf.trips k0_t1_loop.lb k0_t1_loop.ub k0_t1_loop.st < 16) by decide)]
  delta invBase
  iintro %acc ⟨⟨-, Hi, Ho, ⟨%g0, H0⟩, H1, H2, ⟨%g3, %hdone, H3⟩, Hs7, Hs8, %W', %hW', HO⟩, -, -, -, -, -, -, -, -, -, -, -, -, -, -, -, -, -, -, -, -, -, -, -, -, -, -, -, -, -, -, -, -, A0, A1, A2, A3, A4, A5, A6, A7, A8, A9, A10, A11, A12, A13, A14, A15, B0, B1, B2, B3, B4, B5, B6, B7, B8, B9, B10, B11, B12, B13, B14, B15, Hs5, Hs6⟩
  sl_exec_parts
  sl_step
  delta tilePost
  isplitl [Hi]; · iexact Hi
  isplitl [Ho]
  · iexists _; isplitr
    · ipureintro; exact rows_of_done' (F := F) L fI fT fO _ hdone
    · iexact Ho
  isplitl [H0]; · iexists _; iexact H0
  isplitl [H1]; · iexists _; iexact H1
  isplitl [H2]; · iexists _; iexact H2
  isplitl [H3]; · iexists _; iexact H3
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [Hs5]; · iexact Hs5
  isplitl [Hs6]; · iexact Hs6
  isplitl [Hs7]; · iexact Hs7
  isplitl [Hs8]; · iexact Hs8
  iexists (insert (SemLoc.dma cc0_scoped1.sem, (default : HIx 1)) W'); isplitr
  · ipureintro; intro p hp
    rcases Finset.mem_insert.mp hp with hp | hp
    · exact .inr (hp ▸ rfl)
    · exact hW' p hp
  · iexact HO

end Cert.KITile

end
-- ==== Proof.TileSpecK.lean ====
import proofs.«207235_g30958124269674_cont_8to1_b_889_24_alg».proof.Defs
import Idealize.ShloMosaic.Lib.SparseCore.Launch
import Idealize.ShloMosaic.Lib.SparseCore.Ops
import Idealize.ShloMosaic.Lib.Batch
import Idealize.ShloMosaic.Lib.Pipeline.Kit
import Idealize.ShloMosaic.Lib.ValueIdx
import Idealize.ShloMosaic.Lib.Tactic
import proofs.«207235_g30958124269674_cont_8to1_b_889_24_alg».proof.Proof.Gen.Kernel
import proofs.«207235_g30958124269674_cont_8to1_b_889_24_alg».proof.Proof.Gen.Kernel.Skeleton

/-! What one vector subcore's task is given and what it gives back.

    The sixteen subcores of the two cores split the 16384 indices into 32 runs of 512: the subcore at coordinates
    `(c, s)` works on run `2 s + c`. It copies its run of `idx` into a scratch, splits each index `v` into
    `v &&& ~7` (the first row of the 8-row slab of the table that holds row `v`) and `v &&& 7` (the row's place
    inside the slab), fetches the slabs sixteen at a time into one half of a two-half ring of 8 × 64 slots while it
    picks rows out of the other half, and finally copies the 512 picked rows to its run of the output.

    The task holds: its run of `idx` and of the output; thirty-two read shares of the whole table, one per slab
    fetch that can be outstanding; its five scratch buffers, the ring as its thirty-two slots; its four semaphores
    at zero. It gives back the run of `idx` unchanged and the run of the output holding, at row `j`, row
    `idx[j]` of the table. -/

noncomputable section

namespace Cert.KTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev 𝒱₀ : Variants := Variants.none

/-- The ghost state: the launch handshakes' rounds beside the exclusive counters of the task's own copies. -/
abbrev UH : Type := URounds (GSem nD τ sig) ℕ
abbrev UU : Type := UH × Counters

local notation "𝕄" => MT nD τ sig (HIx 1) (Elt F) ℕ UU ℕ

/-- The index array, the table as the kernel is handed it, and the result, as locations of device `d`. -/
abbrev iLoc (d : Dev nD) : Loc nD τ sig := (SparseCore.T d).loc main_arg0
abbrev tLoc (d : Dev nD) : Loc nD τ sig := (SparseCore.T d).loc main_v1
abbrev oLoc (d : Dev nD) : Loc nD τ sig := (SparseCore.T d).loc main_v2

variable [FloatOps F]

abbrev iV : Memref sig .scVector .hbm S16384 .i32 := Memref.whole main_arg0_scv
abbrev tV : Memref sig .scVector .hbm S1000000x64 .f32 := Memref.whole main_v1_scv
abbrev oV : Memref sig .scVector .hbm S16384x64 .f32 := Memref.whole main_v2_scv
abbrev s0 : Memref sig .scVector .vmem S512 .i32 := Memref.whole cc0_scratch0
abbrev s1 : Memref sig .scVector .vmem S512 .i32 := Memref.whole cc0_scratch1
abbrev s2 : Memref sig .scVector .vmem S512 .i32 := Memref.whole cc0_scratch2
abbrev s3 : Memref sig .scVector .vmem S512x64 .f32 := Memref.whole cc0_scratch3
abbrev s4 : Memref sig .scVector .vmem S2x16x8x64 .f32 := Memref.whole cc0_scratch4

/-- The task's run of `idx` and of the output, as the program slices them. -/
abbrev iRow (L : grid0.Coords) : Memref sig .scVector .hbm S512 .i32 :=
  (iV).slice (Rect.unit (s := S16384) (k0_off1 L) S512.size (k0_off1_inb L)) (fun _ => rfl)
abbrev oRow (L : grid0.Coords) : Memref sig .scVector .hbm S512x64 .f32 :=
  (oV).slice (Rect.unit (s := S16384x64) (k0_off326 L) S512x64.size (k0_off326_inb L)) (fun _ => rfl)

/-- The ring's slots, as the program slices them: slot `k` of half `h`. -/
abbrev slot0_0 : Memref sig .scVector .vmem S8x64 .f32 :=
  (s4.slice (Rect.unit (s := S2x16x8x64) ![0, 0, 0, 0] S1x1x8x64.size inb_S2x16x8x64_S1x1x8x64_0_0_0_0) (fun _ => rfl)).squeeze S8x64 squeezes_S1x1x8x64_S8x64
abbrev slot0_1 : Memref sig .scVector .vmem S8x64 .f32 :=
  (s4.slice (Rect.unit (s := S2x16x8x64) ![0, 1, 0, 0] S1x1x8x64.size inb_S2x16x8x64_S1x1x8x64_0_1_0_0) (fun _ => rfl)).squeeze S8x64 squeezes_S1x1x8x64_S8x64
abbrev slot0_2 : Memref sig .scVector .vmem S8x64 .f32 :=
  (s4.slice (Rect.unit (s := S2x16x8x64) ![0, 2, 0, 0] S1x1x8x64.size inb_S2x16x8x64_S1x1x8x64_0_2_0_0) (fun _ => rfl)).squeeze S8x64 squeezes_S1x1x8x64_S8x64
abbrev slot0_3 : Memref sig .scVector .vmem S8x64 .f32 :=
  (s4.slice (Rect.unit (s := S2x16x8x64) ![0, 3, 0, 0] S1x1x8x64.size inb_S2x16x8x64_S1x1x8x64_0_3_0_0) (fun _ => rfl)).squeeze S8x64 squeezes_S1x1x8x64_S8x64
abbrev slot0_4 : Memref sig .scVector .vmem S8x64 .f32 :=
  (s4.slice (Rect.unit (s := S2x16x8x64) ![0, 4, 0, 0] S1x1x8x64.size inb_S2x16x8x64_S1x1x8x64_0_4_0_0) (fun _ => rfl)).squeeze S8x64 squeezes_S1x1x8x64_S8x64
abbrev slot0_5 : Memref sig .scVector .vmem S8x64 .f32 :=
  (s4.slice (Rect.unit (s := S2x16x8x64) ![0, 5, 0, 0] S1x1x8x64.size inb_S2x16x8x64_S1x1x8x64_0_5_0_0) (fun _ => rfl)).squeeze S8x64 squeezes_S1x1x8x64_S8x64
abbrev slot0_6 : Memref sig .scVector .vmem S8x64 .f32 :=
  (s4.slice (Rect.unit (s := S2x16x8x64) ![0, 6, 0, 0] S1x1x8x64.size inb_S2x16x8x64_S1x1x8x64_0_6_0_0) (fun _ => rfl)).squeeze S8x64 squeezes_S1x1x8x64_S8x64
abbrev slot0_7 : Memref sig .scVector .vmem S8x64 .f32 :=
  (s4.slice (Rect.unit (s := S2x16x8x64) ![0, 7, 0, 0] S1x1x8x64.size inb_S2x16x8x64_S1x1x8x64_0_7_0_0) (fun _ => rfl)).squeeze S8x64 squeezes_S1x1x8x64_S8x64
abbrev slot0_8 : Memref sig .scVector .vmem S8x64 .f32 :=
  (s4.slice (Rect.unit (s := S2x16x8x64) ![0, 8, 0, 0] S1x1x8x64.size inb_S2x16x8x64_S1x1x8x64_0_8_0_0) (fun _ => rfl)).squeeze S8x64 squeezes_S1x1x8x64_S8x64
abbrev slot0_9 : Memref sig .scVector .vmem S8x64 .f32 :=
  (s4.slice (Rect.unit (s := S2x16x8x64) ![0, 9, 0, 0] S1x1x8x64.size inb_S2x16x8x64_S1x1x8x64_0_9_0_0) (fun _ => rfl)).squeeze S8x64 squeezes_S1x1x8x64_S8x64
abbrev slot0_10 : Memref sig .scVector .vmem S8x64 .f32 :=
  (s4.slice (Rect.unit (s := S2x16x8x64) ![0, 10, 0, 0] S1x1x8x64.size inb_S2x16x8x64_S1x1x8x64_0_10_0_0) (fun _ => rfl)).squeeze S8x64 squeezes_S1x1x8x64_S8x64
abbrev slot0_11 : Memref sig .scVector .vmem S8x64 .f32 :=
  (s4.slice (Rect.unit (s := S2x16x8x64) ![0, 11, 0, 0] S1x1x8x64.size inb_S2x16x8x64_S1x1x8x64_0_11_0_0) (fun _ => rfl)).squeeze S8x64 squeezes_S1x1x8x64_S8x64
abbrev slot0_12 : Memref sig .scVector .vmem S8x64 .f32 :=
  (s4.slice (Rect.unit (s := S2x16x8x64) ![0, 12, 0, 0] S1x1x8x64.size inb_S2x16x8x64_S1x1x8x64_0_12_0_0) (fun _ => rfl)).squeeze S8x64 squeezes_S1x1x8x64_S8x64
abbrev slot0_13 : Memref sig .scVector .vmem S8x64 .f32 :=
  (s4.slice (Rect.unit (s := S2x16x8x64) ![0, 13, 0, 0] S1x1x8x64.size inb_S2x16x8x64_S1x1x8x64_0_13_0_0) (fun _ => rfl)).squeeze S8x64 squeezes_S1x1x8x64_S8x64
abbrev slot0_14 : Memref sig .scVector .vmem S8x64 .f32 :=
  (s4.slice (Rect.unit (s := S2x16x8x64) ![0, 14, 0, 0] S1x1x8x64.size inb_S2x16x8x64_S1x1x8x64_0_14_0_0) (fun _ => rfl)).squeeze S8x64 squeezes_S1x1x8x64_S8x64
abbrev slot0_15 : Memref sig .scVector .vmem S8x64 .f32 :=
  (s4.slice (Rect.unit (s := S2x16x8x64) ![0, 15, 0, 0] S1x1x8x64.size inb_S2x16x8x64_S1x1x8x64_0_15_0_0) (fun _ => rfl)).squeeze S8x64 squeezes_S1x1x8x64_S8x64
abbrev slot1_0 : Memref sig .scVector .vmem S8x64 .f32 :=
  (s4.slice (Rect.unit (s := S2x16x8x64) ![1, 0, 0, 0] S1x1x8x64.size inb_S2x16x8x64_S1x1x8x64_1_0_0_0) (fun _ => rfl)).squeeze S8x64 squeezes_S1x1x8x64_S8x64
abbrev slot1_1 : Memref sig .scVector .vmem S8x64 .f32 :=
  (s4.slice (Rect.unit (s := S2x16x8x64) ![1, 1, 0, 0] S1x1x8x64.size inb_S2x16x8x64_S1x1x8x64_1_1_0_0) (fun _ => rfl)).squeeze S8x64 squeezes_S1x1x8x64_S8x64
abbrev slot1_2 : Memref sig .scVector .vmem S8x64 .f32 :=
  (s4.slice (Rect.unit (s := S2x16x8x64) ![1, 2, 0, 0] S1x1x8x64.size inb_S2x16x8x64_S1x1x8x64_1_2_0_0) (fun _ => rfl)).squeeze S8x64 squeezes_S1x1x8x64_S8x64
abbrev slot1_3 : Memref sig .scVector .vmem S8x64 .f32 :=
  (s4.slice (Rect.unit (s := S2x16x8x64) ![1, 3, 0, 0] S1x1x8x64.size inb_S2x16x8x64_S1x1x8x64_1_3_0_0) (fun _ => rfl)).squeeze S8x64 squeezes_S1x1x8x64_S8x64
abbrev slot1_4 : Memref sig .scVector .vmem S8x64 .f32 :=
  (s4.slice (Rect.unit (s := S2x16x8x64) ![1, 4, 0, 0] S1x1x8x64.size inb_S2x16x8x64_S1x1x8x64_1_4_0_0) (fun _ => rfl)).squeeze S8x64 squeezes_S1x1x8x64_S8x64
abbrev slot1_5 : Memref sig .scVector .vmem S8x64 .f32 :=
  (s4.slice (Rect.unit (s := S2x16x8x64) ![1, 5, 0, 0] S1x1x8x64.size inb_S2x16x8x64_S1x1x8x64_1_5_0_0) (fun _ => rfl)).squeeze S8x64 squeezes_S1x1x8x64_S8x64
abbrev slot1_6 : Memref sig .scVector .vmem S8x64 .f32 :=
  (s4.slice (Rect.unit (s := S2x16x8x64) ![1, 6, 0, 0] S1x1x8x64.size inb_S2x16x8x64_S1x1x8x64_1_6_0_0) (fun _ => rfl)).squeeze S8x64 squeezes_S1x1x8x64_S8x64
abbrev slot1_7 : Memref sig .scVector .vmem S8x64 .f32 :=
  (s4.slice (Rect.unit (s := S2x16x8x64) ![1, 7, 0, 0] S1x1x8x64.size inb_S2x16x8x64_S1x1x8x64_1_7_0_0) (fun _ => rfl)).squeeze S8x64 squeezes_S1x1x8x64_S8x64
abbrev slot1_8 : Memref sig .scVector .vmem S8x64 .f32 :=
  (s4.slice (Rect.unit (s := S2x16x8x64) ![1, 8, 0, 0] S1x1x8x64.size inb_S2x16x8x64_S1x1x8x64_1_8_0_0) (fun _ => rfl)).squeeze S8x64 squeezes_S1x1x8x64_S8x64
abbrev slot1_9 : Memref sig .scVector .vmem S8x64 .f32 :=
  (s4.slice (Rect.unit (s := S2x16x8x64) ![1, 9, 0, 0] S1x1x8x64.size inb_S2x16x8x64_S1x1x8x64_1_9_0_0) (fun _ => rfl)).squeeze S8x64 squeezes_S1x1x8x64_S8x64
abbrev slot1_10 : Memref sig .scVector .vmem S8x64 .f32 :=
  (s4.slice (Rect.unit (s := S2x16x8x64) ![1, 10, 0, 0] S1x1x8x64.size inb_S2x16x8x64_S1x1x8x64_1_10_0_0) (fun _ => rfl)).squeeze S8x64 squeezes_S1x1x8x64_S8x64
abbrev slot1_11 : Memref sig .scVector .vmem S8x64 .f32 :=
  (s4.slice (Rect.unit (s := S2x16x8x64) ![1, 11, 0, 0] S1x1x8x64.size inb_S2x16x8x64_S1x1x8x64_1_11_0_0) (fun _ => rfl)).squeeze S8x64 squeezes_S1x1x8x64_S8x64
abbrev slot1_12 : Memref sig .scVector .vmem S8x64 .f32 :=
  (s4.slice (Rect.unit (s := S2x16x8x64) ![1, 12, 0, 0] S1x1x8x64.size inb_S2x16x8x64_S1x1x8x64_1_12_0_0) (fun _ => rfl)).squeeze S8x64 squeezes_S1x1x8x64_S8x64
abbrev slot1_13 : Memref sig .scVector .vmem S8x64 .f32 :=
  (s4.slice (Rect.unit (s := S2x16x8x64) ![1, 13, 0, 0] S1x1x8x64.size inb_S2x16x8x64_S1x1x8x64_1_13_0_0) (fun _ => rfl)).squeeze S8x64 squeezes_S1x1x8x64_S8x64
abbrev slot1_14 : Memref sig .scVector .vmem S8x64 .f32 :=
  (s4.slice (Rect.unit (s := S2x16x8x64) ![1, 14, 0, 0] S1x1x8x64.size inb_S2x16x8x64_S1x1x8x64_1_14_0_0) (fun _ => rfl)).squeeze S8x64 squeezes_S1x1x8x64_S8x64
abbrev slot1_15 : Memref sig .scVector .vmem S8x64 .f32 :=
  (s4.slice (Rect.unit (s := S2x16x8x64) ![1, 15, 0, 0] S1x1x8x64.size inb_S2x16x8x64_S1x1x8x64_1_15_0_0) (fun _ => rfl)).squeeze S8x64 squeezes_S1x1x8x64_S8x64

/-- The subcore's thread. -/
abbrev thr (d : Dev nD) (L : grid0.Coords) : Thread nD τ := V d ((L 0).castLE hcore0) ((L 1).castLE hsub0)

/-- Row `j` of the task's run of the output is row `idx[j]` of the table (for an index that names a row). -/
def RowsOK (L : grid0.Coords) (fI : S16384.Idx → BitVec 32) (fT : S1000000x64.Idx → Elt F .f32)
    (fO : S16384x64.Idx → Elt F .f32) : Prop :=
  ∀ (y : S512x64.Idx) (h : (fI ((iRow L).view.emb (ValueIdx.ix1 (y 0)))).toNat < 1000000),
    fO ((oRow L).view.emb y) = fT (ValueIdx.ix2 ⟨_, h⟩ (y 1))

/-- What the task holds when it starts. -/
def tilePre (d : Dev nD) (L : grid0.Coords) (q : PosShare TreeShare) (O : CellTallies nD τ sig (HIx 1)) (W : Waits sig (HIx 1))
    (fI : Buf (Elt F) (iLoc d)) (fT : Buf (Elt F) (tLoc d)) (fO : Buf (Elt F) (oLoc d))
    (f0 : Buf (Elt F) ((thr d L).loc cc0_scratch0)) (f1 : Buf (Elt F) ((thr d L).loc cc0_scratch1))
    (f2 : Buf (Elt F) ((thr d L).loc cc0_scratch2)) (f3 : Buf (Elt F) ((thr d L).loc cc0_scratch3))
    (f4 : Buf (Elt F) ((thr d L).loc cc0_scratch4)) : sProp 𝕄 :=
  iprop(Transfers.MayWaits (thr d L) (none : HIx 1) O
    ∗ ((iRow L).view.loc (thr d L) ↦[(iRow L).view.set]{fullShare} fI)
    ∗ ((tV).view.loc (thr d L) ↦{Transfers.shareTokN q 0} fT)
    ∗ ((tV).view.loc (thr d L) ↦{Transfers.shareTokN q 1} fT)
    ∗ ((tV).view.loc (thr d L) ↦{Transfers.shareTokN q 2} fT)
    ∗ ((tV).view.loc (thr d L) ↦{Transfers.shareTokN q 3} fT)
    ∗ ((tV).view.loc (thr d L) ↦{Transfers.shareTokN q 4} fT)
    ∗ ((tV).view.loc (thr d L) ↦{Transfers.shareTokN q 5} fT)
    ∗ ((tV).view.loc (thr d L) ↦{Transfers.shareTokN q 6} fT)
    ∗ ((tV).view.loc (thr d L) ↦{Transfers.shareTokN q 7} fT)
    ∗ ((tV).view.loc (thr d L) ↦{Transfers.shareTokN q 8} fT)
    ∗ ((tV).view.loc (thr d L) ↦{Transfers.shareTokN q 9} fT)
    ∗ ((tV).view.loc (thr d L) ↦{Transfers.shareTokN q 10} fT)
    ∗ ((tV).view.loc (thr d L) ↦{Transfers.shareTokN q 11} fT)
    ∗ ((tV).view.loc (thr d L) ↦{Transfers.shareTokN q 12} fT)
    ∗ ((tV).view.loc (thr d L) ↦{Transfers.shareTokN q 13} fT)
    ∗ ((tV).view.loc (thr d L) ↦{Transfers.shareTokN q 14} fT)
    ∗ ((tV).view.loc (thr d L) ↦{Transfers.shareTokN q 15} fT)
    ∗ ((tV).view.loc (thr d L) ↦{Transfers.shareTokN q 16} fT)
    ∗ ((tV).view.loc (thr d L) ↦{Transfers.shareTokN q 17} fT)
    ∗ ((tV).view.loc (thr d L) ↦{Transfers.shareTokN q 18} fT)
    ∗ ((tV).view.loc (thr d L) ↦{Transfers.shareTokN q 19} fT)
    ∗ ((tV).view.loc (thr d L) ↦{Transfers.shareTokN q 20} fT)
    ∗ ((tV).view.loc (thr d L) ↦{Transfers.shareTokN q 21} fT)
    ∗ ((tV).view.loc (thr d L) ↦{Transfers.shareTokN q 22} fT)
    ∗ ((tV).view.loc (thr d L) ↦{Transfers.shareTokN q 23} fT)
    ∗ ((tV).view.loc (thr d L) ↦{Transfers.shareTokN q 24} fT)
    ∗ ((tV).view.loc (thr d L) ↦{Transfers.shareTokN q 25} fT)
    ∗ ((tV).view.loc (thr d L) ↦{Transfers.shareTokN q 26} fT)
    ∗ ((tV).view.loc (thr d L) ↦{Transfers.shareTokN q 27} fT)
    ∗ ((tV).view.loc (thr d L) ↦{Transfers.shareTokN q 28} fT)
    ∗ ((tV).view.loc (thr d L) ↦{Transfers.shareTokN q 29} fT)
    ∗ ((tV).view.loc (thr d L) ↦{Transfers.shareTokN q 30} fT)
    ∗ ((tV).view.loc (thr d L) ↦{Transfers.shareTokN q 31} fT)
    ∗ ((oRow L).view.loc (thr d L) ↦[(oRow L).view.set]{fullShare} fO)
    ∗ ((s0).view.loc (thr d L) ↦{fullShare} f0)
    ∗ ((s1).view.loc (thr d L) ↦{fullShare} f1)
    ∗ ((s2).view.loc (thr d L) ↦{fullShare} f2)
    ∗ ((s3).view.loc (thr d L) ↦{fullShare} f3)
    ∗ ((slot0_0).view.loc (thr d L) ↦[(slot0_0).view.set]{fullShare} f4)
    ∗ ((slot0_1).view.loc (thr d L) ↦[(slot0_1).view.set]{fullShare} f4)
    ∗ ((slot0_2).view.loc (thr d L) ↦[(slot0_2).view.set]{fullShare} f4)
    ∗ ((slot0_3).view.loc (thr d L) ↦[(slot0_3).view.set]{fullShare} f4)
    ∗ ((slot0_4).view.loc (thr d L) ↦[(slot0_4).view.set]{fullShare} f4)
    ∗ ((slot0_5).view.loc (thr d L) ↦[(slot0_5).view.set]{fullShare} f4)
    ∗ ((slot0_6).view.loc (thr d L) ↦[(slot0_6).view.set]{fullShare} f4)
    ∗ ((slot0_7).view.loc (thr d L) ↦[(slot0_7).view.set]{fullShare} f4)
    ∗ ((slot0_8).view.loc (thr d L) ↦[(slot0_8).view.set]{fullShare} f4)
    ∗ ((slot0_9).view.loc (thr d L) ↦[(slot0_9).view.set]{fullShare} f4)
    ∗ ((slot0_10).view.loc (thr d L) ↦[(slot0_10).view.set]{fullShare} f4)
    ∗ ((slot0_11).view.loc (thr d L) ↦[(slot0_11).view.set]{fullShare} f4)
    ∗ ((slot0_12).view.loc (thr d L) ↦[(slot0_12).view.set]{fullShare} f4)
    ∗ ((slot0_13).view.loc (thr d L) ↦[(slot0_13).view.set]{fullShare} f4)
    ∗ ((slot0_14).view.loc (thr d L) ↦[(slot0_14).view.set]{fullShare} f4)
    ∗ ((slot0_15).view.loc (thr d L) ↦[(slot0_15).view.set]{fullShare} f4)
    ∗ ((slot1_0).view.loc (thr d L) ↦[(slot1_0).view.set]{fullShare} f4)
    ∗ ((slot1_1).view.loc (thr d L) ↦[(slot1_1).view.set]{fullShare} f4)
    ∗ ((slot1_2).view.loc (thr d L) ↦[(slot1_2).view.set]{fullShare} f4)
    ∗ ((slot1_3).view.loc (thr d L) ↦[(slot1_3).view.set]{fullShare} f4)
    ∗ ((slot1_4).view.loc (thr d L) ↦[(slot1_4).view.set]{fullShare} f4)
    ∗ ((slot1_5).view.loc (thr d L) ↦[(slot1_5).view.set]{fullShare} f4)
    ∗ ((slot1_6).view.loc (thr d L) ↦[(slot1_6).view.set]{fullShare} f4)
    ∗ ((slot1_7).view.loc (thr d L) ↦[(slot1_7).view.set]{fullShare} f4)
    ∗ ((slot1_8).view.loc (thr d L) ↦[(slot1_8).view.set]{fullShare} f4)
    ∗ ((slot1_9).view.loc (thr d L) ↦[(slot1_9).view.set]{fullShare} f4)
    ∗ ((slot1_10).view.loc (thr d L) ↦[(slot1_10).view.set]{fullShare} f4)
    ∗ ((slot1_11).view.loc (thr d L) ↦[(slot1_11).view.set]{fullShare} f4)
    ∗ ((slot1_12).view.loc (thr d L) ↦[(slot1_12).view.set]{fullShare} f4)
    ∗ ((slot1_13).view.loc (thr d L) ↦[(slot1_13).view.set]{fullShare} f4)
    ∗ ((slot1_14).view.loc (thr d L) ↦[(slot1_14).view.set]{fullShare} f4)
    ∗ ((slot1_15).view.loc (thr d L) ↦[(slot1_15).view.set]{fullShare} f4)
    ∗ semVal (thr d L, SemLoc.dma cc0_scratch5.sem) 0
    ∗ semVal (thr d L, SemLoc.dma cc0_scratch6.sem) 0
    ∗ semVal (thr d L, SemLoc.dma cc0_scoped0.sem) 0
    ∗ semVal (thr d L, SemLoc.dma cc0_scoped1.sem) 0
    ∗ owes (thr d L) O W)

/-- What it gives back. -/
def tilePost (d : Dev nD) (L : grid0.Coords) (O : CellTallies nD τ sig (HIx 1)) (W : Waits sig (HIx 1))
    (fI : Buf (Elt F) (iLoc d)) (fT : Buf (Elt F) (tLoc d)) : sProp 𝕄 :=
  iprop(((iRow L).view.loc (thr d L) ↦[(iRow L).view.set]{fullShare} fI)
    ∗ (∃ fO', ⌜RowsOK L fI fT fO'⌝ ∗ (oRow L).view.loc (thr d L) ↦[(oRow L).view.set]{fullShare} fO')
    ∗ (∃ g, (s0).view.loc (thr d L) ↦{fullShare} g)
    ∗ (∃ g, (s1).view.loc (thr d L) ↦{fullShare} g)
    ∗ (∃ g, (s2).view.loc (thr d L) ↦{fullShare} g)
    ∗ (∃ g, (s3).view.loc (thr d L) ↦{fullShare} g)
    ∗ (∃ g, (slot0_0).view.loc (thr d L) ↦[(slot0_0).view.set]{fullShare} g)
    ∗ (∃ g, (slot0_1).view.loc (thr d L) ↦[(slot0_1).view.set]{fullShare} g)
    ∗ (∃ g, (slot0_2).view.loc (thr d L) ↦[(slot0_2).view.set]{fullShare} g)
    ∗ (∃ g, (slot0_3).view.loc (thr d L) ↦[(slot0_3).view.set]{fullShare} g)
    ∗ (∃ g, (slot0_4).view.loc (thr d L) ↦[(slot0_4).view.set]{fullShare} g)
    ∗ (∃ g, (slot0_5).view.loc (thr d L) ↦[(slot0_5).view.set]{fullShare} g)
    ∗ (∃ g, (slot0_6).view.loc (thr d L) ↦[(slot0_6).view.set]{fullShare} g)
    ∗ (∃ g, (slot0_7).view.loc (thr d L) ↦[(slot0_7).view.set]{fullShare} g)
    ∗ (∃ g, (slot0_8).view.loc (thr d L) ↦[(slot0_8).view.set]{fullShare} g)
    ∗ (∃ g, (slot0_9).view.loc (thr d L) ↦[(slot0_9).view.set]{fullShare} g)
    ∗ (∃ g, (slot0_10).view.loc (thr d L) ↦[(slot0_10).view.set]{fullShare} g)
    ∗ (∃ g, (slot0_11).view.loc (thr d L) ↦[(slot0_11).view.set]{fullShare} g)
    ∗ (∃ g, (slot0_12).view.loc (thr d L) ↦[(slot0_12).view.set]{fullShare} g)
    ∗ (∃ g, (slot0_13).view.loc (thr d L) ↦[(slot0_13).view.set]{fullShare} g)
    ∗ (∃ g, (slot0_14).view.loc (thr d L) ↦[(slot0_14).view.set]{fullShare} g)
    ∗ (∃ g, (slot0_15).view.loc (thr d L) ↦[(slot0_15).view.set]{fullShare} g)
    ∗ (∃ g, (slot1_0).view.loc (thr d L) ↦[(slot1_0).view.set]{fullShare} g)
    ∗ (∃ g, (slot1_1).view.loc (thr d L) ↦[(slot1_1).view.set]{fullShare} g)
    ∗ (∃ g, (slot1_2).view.loc (thr d L) ↦[(slot1_2).view.set]{fullShare} g)
    ∗ (∃ g, (slot1_3).view.loc (thr d L) ↦[(slot1_3).view.set]{fullShare} g)
    ∗ (∃ g, (slot1_4).view.loc (thr d L) ↦[(slot1_4).view.set]{fullShare} g)
    ∗ (∃ g, (slot1_5).view.loc (thr d L) ↦[(slot1_5).view.set]{fullShare} g)
    ∗ (∃ g, (slot1_6).view.loc (thr d L) ↦[(slot1_6).view.set]{fullShare} g)
    ∗ (∃ g, (slot1_7).view.loc (thr d L) ↦[(slot1_7).view.set]{fullShare} g)
    ∗ (∃ g, (slot1_8).view.loc (thr d L) ↦[(slot1_8).view.set]{fullShare} g)
    ∗ (∃ g, (slot1_9).view.loc (thr d L) ↦[(slot1_9).view.set]{fullShare} g)
    ∗ (∃ g, (slot1_10).view.loc (thr d L) ↦[(slot1_10).view.set]{fullShare} g)
    ∗ (∃ g, (slot1_11).view.loc (thr d L) ↦[(slot1_11).view.set]{fullShare} g)
    ∗ (∃ g, (slot1_12).view.loc (thr d L) ↦[(slot1_12).view.set]{fullShare} g)
    ∗ (∃ g, (slot1_13).view.loc (thr d L) ↦[(slot1_13).view.set]{fullShare} g)
    ∗ (∃ g, (slot1_14).view.loc (thr d L) ↦[(slot1_14).view.set]{fullShare} g)
    ∗ (∃ g, (slot1_15).view.loc (thr d L) ↦[(slot1_15).view.set]{fullShare} g)
    ∗ semVal (thr d L, SemLoc.dma cc0_scratch5.sem) 0
    ∗ semVal (thr d L, SemLoc.dma cc0_scratch6.sem) 0
    ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

/-- The task's program at coordinates `L`, on the whole arrays and the subcore's own scratch. -/
abbrev tileProg (L : grid0.Coords) :=
  cc0__body (F := F) L iV (Memref.isWhole_whole _) tV (Memref.isWhole_whole _) oV (Memref.isWhole_whole _)
    s0 (Memref.isWhole_whole _) s1 (Memref.isWhole_whole _) s2 (Memref.isWhole_whole _) s3 (Memref.isWhole_whole _)
    s4 (Memref.isWhole_whole _) cc0_scratch5 cc0_scratch6 cc0_scoped0 cc0_scoped1

/-- The statement the task's proof establishes (and the launch consumes): under the index range, from `tilePre` the
    task runs to `tilePost`. -/
def TileSpec : Prop :=
  ∀ (d : Dev nD) (L : grid0.Coords) (q : PosShare TreeShare) (O : CellTallies nD τ sig (HIx 1)) (W : Waits sig (HIx 1))
    (_ : ∀ g, O g none = 0)
    (fI : Buf (Elt F) (iLoc d)) (fT : Buf (Elt F) (tLoc d)) (fO : Buf (Elt F) (oLoc d))
    (f0 : Buf (Elt F) ((thr d L).loc cc0_scratch0)) (f1 : Buf (Elt F) ((thr d L).loc cc0_scratch1))
    (f2 : Buf (Elt F) ((thr d L).loc cc0_scratch2)) (f3 : Buf (Elt F) ((thr d L).loc cc0_scratch3))
    (f4 : Buf (Elt F) ((thr d L).loc cc0_scratch4))
    (_ : ∀ j : S16384.Idx, (fI j).toNat ≤ 999999),
    (tilePre (F := F) d L q O W fI fT fO f0 f1 f2 f3 f4)
      ⊢ wp frame (wpE (defs₀ (F := F)) 𝒱₀ (thr d L) none) Set.univ (tileProg (F := F) L)
          fun _ => tilePost (F := F) d L O W fI fT

end Cert.KTile

end
-- ==== Proof.WordsK.lean ====
import proofs.«207235_g30958124269674_cont_8to1_b_889_24_alg».proof.Proof.TileSpecK
import Idealize.ShloMosaic.Lib.Pipeline.Value
import Idealize.ShloMosaic.Lib.Writes

noncomputable section

namespace Cert.KTile

open Cert.Kernel Cert.Kernel.Gen
open Idealize.ShloMosaic

variable {F : FTy → Type} [FloatOps F]

/-- Lane `k` of a 16-vector, read as the program reads it (a one-element slice, then its element). -/
theorem lane_word (V : IVec S16 32) (k : Nat) (hk : k < 16) (h : S16.Slices ![k] S1) (h' : ∀ a, (![0] : Fin 1 → Nat) a < S1.size a) :
    extractAt ![0] (extractStridedSlice S1 ![k] V h) h' = V (ValueIdx.ix1 ⟨k, hk⟩) := by
  unfold extractAt extractStridedSlice
  refine congrArg V (funext fun a => ?_)
  match a with
  | ⟨0, _⟩ => exact Fin.ext (by simp)

/-- A 16-vector and-ed lane by lane with `c`, as the program writes it (two identity reshapes around it). -/
theorem mask_vec (V : IVec S16 32) (c : BitVec 32) (h1 h2 : S16.ShapeCasts S16) (x : S16.Idx) :
    shapeCast S16 (andi (shapeCast S16 V h1) (broadcast S16 c)) h2 x = V x &&& c := by
  rw [shapeCast_self, shapeCast_self]
  rfl

/-- A load from the index scratch right after the copy that filled it reads the copied words. -/
theorem read_filled (f0 D : S512.Idx → BitVec 32) (R : Rect S512) (x : R.shape.Idx) :
    View.readAt (Elt F) (s0 : Memref sig .scVector .vmem S512 .i32).view R.toLoadRect
        (View.write (Elt F) (s0 : Memref sig .scVector .vmem S512 .i32).view f0 D Finset.univ) x = D (R.emb x) := by
  rw [View.readAt_apply]
  simp only [Memref.view_whole, View.read_whole]
  exact congrFun (View.write_whole_univ (Val := Elt F) (cc0_scratch0 : Ref sig .scVector) f0 D) _

/-- The task's run of the index array, as the copy into the index scratch reads it. -/
def idxRun {d : Dev nD} (L : grid0.Coords) (fI : Buf (Elt F) (iLoc d)) : S512.Idx → BitVec 32 :=
  ReadAs.same.apply (View.read (Elt F) (iRow L).view fI)

/-- The slab words: each index of the run with its low three bits cleared. -/
def G1 {d : Dev nD} (L : grid0.Coords) (fI : Buf (Elt F) (iLoc d)) : S512.Idx → BitVec 32 := fun p => idxRun (F := F) L fI p &&& 4294967288#32
/-- The row words: each index of the run's low three bits. -/
def G2 {d : Dev nD} (L : grid0.Coords) (fI : Buf (Elt F) (iLoc d)) : S512.Idx → BitVec 32 := fun p => idxRun (F := F) L fI p &&& 7#32

/-- One masking store leaves, at its sixteen places, the words of the run and-ed with `c`. -/
theorem mask_piece (c : BitVec 32) (f0 D : S512.Idx → BitVec 32) (off : Fin 1 → Nat) (inb : ∀ a, off a + S16.size a ≤ S512.size a)
    (h1 : (Rect.unit (s := S512) off S16.size inb).shape.ShapeCasts S16) (h2 : S16.ShapeCasts S16) (x : S16.Idx) :
    shapeCast S16 (andi (shapeCast S16 (View.readAt (Elt F) (s0 : Memref sig .scVector .vmem S512 .i32).view
        (Rect.unit (s := S512) off S16.size inb).toLoadRect (View.write (Elt F) (s0 : Memref sig .scVector .vmem S512 .i32).view f0 D Finset.univ)) h1)
        (broadcast S16 c)) h2 x
      = D ((Rect.unit (s := S512) off S16.size inb).emb x) &&& c :=
  (mask_vec _ c h1 h2 x).trans (congrArg (· &&& c) (read_filled (F := F) f0 D (Rect.unit (s := S512) off S16.size inb) x))

/-- A whole buffer written by pieces that all agree with one function and cover it holds that function. -/
theorem whole_writes_eq {κ : Kind} (b : Ref sig κ) (base : b.ty.Contents (Elt F)) (Lst : List (View.Piece (Elt F) b.ty.shape b.ty.elt))
    (G : b.ty.shape.Idx → Elt F b.ty.elt) (hp : ∀ p ∈ Lst, ∀ x : p.1.shape.Idx, p.2 x = G (p.1.emb x))
    (hc : ∀ y : b.ty.shape.Idx, ∃ p ∈ Lst, y ∈ p.1.set) :
    (View.whole b).writes (Elt F) base Lst = G :=
  funext fun y => View.read_writes_apply_of_pieces (v := View.whole b) (f := base) G Lst hp y (hc y)

end Cert.KTile

end
-- ==== Proof.Words2K.lean ====
import proofs.«207235_g30958124269674_cont_8to1_b_889_24_alg».proof.Proof.WordsK
import proofs.«207235_g30958124269674_cont_8to1_b_889_24_alg».proof.Proof.LibMask8

/-! Facts about the words the task reads back from its two mask scratches, and about the ring's rows.

    A slab word `v &&& ~7` of an index `v ≤ 999999` is a multiple of eight and the eight table rows from it on
    exist (1000000 is a multiple of eight). A row word `v &&& 7` is below eight, so the row it names lies in the
    8-row slot the slab was fetched into. -/

noncomputable section

namespace Cert.KTile

open Cert.Kernel Cert.Kernel.Gen
open Idealize.ShloMosaic

variable {F : FTy → Type} [FloatOps F]

/-- A word that can start a slab fetch: a multiple of eight with eight rows of the table from it on. -/
def Slab (w : BitVec 32) : Prop := 8 ∣ w.toNat ∧ w.toNat + 8 ≤ 1000000

/-- Every word of the run is at most 999999. -/
theorem idxRun_le {d : Dev nD} (L : grid0.Coords) (fI : Buf (Elt F) (iLoc d)) (hidx : ∀ j : S16384.Idx, (fI j).toNat ≤ 999999)
    (p : S512.Idx) : (idxRun (F := F) L fI p).toNat ≤ 999999 := by
  have e : idxRun (F := F) L fI p = fI ((iRow L).view.emb p) := (View.read_apply _ _).trans (cast_eq _ _)
  rw [e]; exact hidx _

theorem G1_slab {d : Dev nD} (L : grid0.Coords) (fI : Buf (Elt F) (iLoc d)) (hidx : ∀ j : S16384.Idx, (fI j).toNat ≤ 999999)
    (p : S512.Idx) : Slab (G1 (F := F) L fI p) :=
  ⟨Cert.Lib.Mask8.high_dvd _, Cert.Lib.Mask8.high_add_eight_le ⟨125000, rfl⟩ (Nat.lt_succ_of_le (idxRun_le L fI hidx p))⟩

theorem G2_lt {d : Dev nD} (L : grid0.Coords) (fI : Buf (Elt F) (iLoc d)) (p : S512.Idx) : (G2 (F := F) L fI p).toNat < 8 :=
  Cert.Lib.Mask8.low_lt _

/-- A lane of a 16-vector, as the program reads it, has whatever every lane has. -/
theorem lane_all (P : BitVec 32 → Prop) (V : IVec S16 32) (hV : ∀ x, P (V x)) (k : Nat) (hS : S16.Slices ![k] S1)
    (h' : ∀ a, (![0] : Fin 1 → Nat) a < S1.size a) : P (extractAt ![0] (extractStridedSlice S1 ![k] V hS) h') :=
  hV _

theorem lane_slab (V : IVec S16 32) (hV : ∀ x, Slab (V x)) (k : Nat) (hS : S16.Slices ![k] S1)
    (h' : ∀ a, (![0] : Fin 1 → Nat) a < S1.size a) : Slab (extractAt ![0] (extractStridedSlice S1 ![k] V hS) h') :=
  lane_all Slab V hV k hS h'

theorem lane_lt (V : IVec S16 32) (hV : ∀ x, (V x).toNat < 8) (k : Nat) (hS : S16.Slices ![k] S1)
    (h' : ∀ a, (![0] : Fin 1 → Nat) a < S1.size a) : (extractAt ![0] (extractStridedSlice S1 ![k] V hS) h').toNat < 8 :=
  lane_all (fun w => w.toNat < 8) V hV k hS h'

/-- Sixteen words loaded from the slab-word scratch holding `G1`, anywhere, are slab words. -/
theorem load_G1_slab {d : Dev nD} (L : grid0.Coords) (fI : Buf (Elt F) (iLoc d)) (hidx : ∀ j : S16384.Idx, (fI j).toNat ≤ 999999)
    (R : Rect S512) (h : R.shape.ShapeCasts S16) (x : S16.Idx) :
    Slab (shapeCast S16 (View.readAt (Elt F) (s1 : Memref sig .scVector .vmem S512 .i32).view R.toLoadRect (G1 (F := F) L fI)) h x) :=
  G1_slab L fI hidx _

/-- Sixteen words loaded from the row-word scratch holding `G2`, anywhere, are below eight. -/
theorem load_G2_lt {d : Dev nD} (L : grid0.Coords) (fI : Buf (Elt F) (iLoc d))
    (R : Rect S512) (h : R.shape.ShapeCasts S16) (x : S16.Idx) :
    (shapeCast S16 (View.readAt (Elt F) (s2 : Memref sig .scVector .vmem S512 .i32).view R.toLoadRect (G2 (F := F) L fI)) h x).toNat < 8 :=
  G2_lt L fI _

/-- The 16-lane piece at column `c` of row `r` of slot `(h, k)` lies in that slot. -/
theorem row_in_slot (h k r c : Nat) (inb : ∀ a, (![h, k, r, c] : Fin 4 → Nat) a + S1x1x1x16.size a ≤ S2x16x8x64.size a)
    (inb0 : ∀ a, (![h, k, 0, 0] : Fin 4 → Nat) a + S1x1x8x64.size a ≤ S2x16x8x64.size a) :
    (s4 : Memref sig .scVector .vmem S2x16x8x64 .f32).view.setOn (Rect.unit (s := S2x16x8x64) ![h, k, r, c] S1x1x1x16.size inb).set
      ⊆ ((s4.slice (Rect.unit (s := S2x16x8x64) ![h, k, 0, 0] S1x1x8x64.size inb0) (fun _ => rfl)).squeeze S8x64 squeezes_S1x1x8x64_S8x64).view.set := by
  show _ ⊆ (((s4 : Memref sig .scVector .vmem S2x16x8x64 .f32).view.slice (Rect.unit (s := S2x16x8x64) ![h, k, 0, 0] S1x1x8x64.size inb0)).reshape S8x64
    squeezes_S1x1x8x64_S8x64.numel_eq).set
  rw [View.set_reshape, View.set_slice]
  refine Finset.map_subset_map.mpr fun y hy => ?_
  have h2 := inb 2; have h3 := inb 3
  simp [Shape.size] at h2 h3
  rw [LoadRect.mem_set] at hy ⊢
  intro a
  obtain ⟨j, hj, e⟩ := hy a
  fin_cases a
  · exact ⟨j, hj, e⟩
  · exact ⟨j, hj, e⟩
  · refine ⟨r + j, ?_, ?_⟩
    · simp [Shape.size] at hj ⊢; omega
    · simp at e ⊢; omega
  · refine ⟨c + j, ?_, ?_⟩
    · simp [Shape.size] at hj ⊢; omega
    · simp at e ⊢; omega

/-- The slab check's content at a word. -/
theorem slab_ok (w : BitVec 32) (h : Slab w) :
    (8 ∣ w.toNat) ∧ (∀ a, (![w.toNat, 0] : Fin 2 → Nat) a + S8x64.size a ≤ S1000000x64.size a) := by
  refine ⟨h.1, fun a => ?_⟩
  fin_cases a
  · show w.toNat + 8 ≤ 1000000; exact h.2
  · show 0 + 64 ≤ 64; omega

/-- The same under a guard (the fetches issued inside the loop are guarded by the trip not being the last). -/
theorem slab_ok_g (C : Prop) (w : BitVec 32) (h : Slab w) :
    (∀ _ : C, 8 ∣ w.toNat) ∧ (∀ _ : C, ∀ a, (![w.toNat, 0] : Fin 2 → Nat) a + S8x64.size a ≤ S1000000x64.size a) :=
  ⟨fun _ => (slab_ok w h).1, fun _ => (slab_ok w h).2⟩

/-- The row check's content: the four 16-lane pieces of row `r` of slot `(h, k)` lie in the ring. -/
theorem row_ok4 (h k : Nat) (hh : h < 2) (hk : k < 16) (r : Nat) (hr : r < 8) :
    (∀ a, (![h, k, r, 0] : Fin 4 → Nat) a + S1x1x1x16.size a ≤ S2x16x8x64.size a) ∧
    (∀ a, (![h, k, r, 16] : Fin 4 → Nat) a + S1x1x1x16.size a ≤ S2x16x8x64.size a) ∧
    (∀ a, (![h, k, r, 32] : Fin 4 → Nat) a + S1x1x1x16.size a ≤ S2x16x8x64.size a) ∧
    (∀ a, (![h, k, r, 48] : Fin 4 → Nat) a + S1x1x1x16.size a ≤ S2x16x8x64.size a) := by
  refine ⟨fun a => ?_, fun a => ?_, fun a => ?_, fun a => ?_⟩ <;> fin_cases a <;> simp [Shape.size] <;> omega

end Cert.KTile

end
-- ==== Proof.InvK.lean ====
import proofs.«207235_g30958124269674_cont_8to1_b_889_24_alg».proof.Proof.Words2K

/-! The loop's invariant.

    Before trip `t` of the sixteen, the sixteen slabs of group `2 t` are on their way into the ring's first half and
    those of group `2 t + 1` into its second half, each fetch holding its own read share of the table (all of it but the
    slab stays with the task), and rows `0 … 32 t − 1` of the row scratch hold their rows of the table. After the
    last trip nothing is on its way: the ring's slots and the read shares are back. -/

noncomputable section

namespace Cert.KTile

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem slab_inb (w : BitVec 32) (h : Slab w) : ∀ a, (![w.toNat, 0] : Fin 2 → Nat) a + S8x64.size a ≤ S1000000x64.size a :=
  (slab_ok w h).2

/-- The eight table rows from word `w` on, as the program slices them. -/
abbrev slabM (w : BitVec 32) (hw : ∀ a, (![w.toNat, 0] : Fin 2 → Nat) a + S8x64.size a ≤ S1000000x64.size a) :
    Memref sig .scVector .hbm S8x64 .f32 :=
  (tV).slice (Rect.unit (s := S1000000x64) ![w.toNat, 0] S8x64.size hw) (fun _ => rfl)

/-- The slab word of lane `k` of group `g`, read off the slab-word scratch's contents `g1`. -/
def wAt (g1 : S512.Idx → BitVec 32) (g k : Nat) : BitVec 32 := g1 (ValueIdx.ix1 (Fin.ofNat 512 (16 * g + k)))

theorem wAt_slab (g1 : S512.Idx → BitVec 32) (hS1 : ∀ p, Slab (g1 p)) (g k : Nat) : Slab (wAt g1 g k) := hS1 _

/-- Rows `0 … n − 1` of the row scratch hold their rows of the table. -/
def Done {d : Dev nD} (L : grid0.Coords) (fI : Buf (Elt F) (iLoc d)) (fT : Buf (Elt F) (tLoc d)) (n : Nat)
    (g3 : S512x64.Idx → Elt F .f32) : Prop :=
  ∀ (j : Fin 512) (c : Fin 64), j.val < n → ∀ h : (idxRun (F := F) L fI (ValueIdx.ix1 j)).toNat < 1000000,
    g3 (ValueIdx.ix2 j c) = fT (ValueIdx.ix2 ⟨_, h⟩ c)

/-- What one fetch delivers: its ring slot holding the slab of the table at `w`, and the slab's read share back. -/
abbrev ringSlot (h k : Nat) (inb : ∀ a, (![h, k, 0, 0] : Fin 4 → Nat) a + S1x1x8x64.size a ≤ S2x16x8x64.size a) :
    Memref sig .scVector .vmem S8x64 .f32 :=
  ((s4).slice (Rect.unit (s := S2x16x8x64) ![h, k, 0, 0] S1x1x8x64.size inb) (fun _ => rfl)).squeeze S8x64 squeezes_S1x1x8x64_S8x64

abbrev deliv (d : Dev nD) (L : grid0.Coords) (q : PosShare TreeShare) (fT : Buf (Elt F) (tLoc d))
    (f4 : Buf (Elt F) ((thr d L).loc cc0_scratch4)) (h k : Nat)
    (inb : ∀ a, (![h, k, 0, 0] : Fin 4 → Nat) a + S1x1x8x64.size a ≤ S2x16x8x64.size a) (tok : Nat) (w : BitVec 32)
    (hw : ∀ a, (![w.toNat, 0] : Fin 2 → Nat) a + S8x64.size a ≤ S1000000x64.size a) : sProp 𝕄 :=
  iprop(((ringSlot h k inb).view.loc (thr d L) ↦[(ringSlot h k inb).view.set]{fullShare}
          (ringSlot h k inb).view.writes (Elt F) f4 [⟨Rect.whole S8x64, ReadAs.same.apply (View.read (Elt F) (slabM w hw).view fT)⟩])
        ∗ ((tV).view.loc (thr d L) ↦[(slabM w hw).view.set]{Transfers.shareTokN q tok} fT))

/-- What stays with the task of a fetch's read share. -/
abbrev rest (d : Dev nD) (L : grid0.Coords) (q : PosShare TreeShare) (fT : Buf (Elt F) (tLoc d)) (tok : Nat) (w : BitVec 32)
    (hw : ∀ a, (![w.toNat, 0] : Fin 2 → Nat) a + S8x64.size a ≤ S1000000x64.size a) : sProp 𝕄 :=
  (tV).view.loc (thr d L) ↦[Finset.univ \ (slabM w hw).view.set]{Transfers.shareTokN q tok} fT

section
variable (d : Dev nD) (L : grid0.Coords) (q : PosShare TreeShare) (O : CellTallies nD τ sig (HIx 1)) (W : Waits sig (HIx 1))
  (fI : Buf (Elt F) (iLoc d)) (fT : Buf (Elt F) (tLoc d)) (fO : Buf (Elt F) (oLoc d))
  (f0 : Buf (Elt F) ((thr d L).loc cc0_scratch0)) (f4 : Buf (Elt F) ((thr d L).loc cc0_scratch4))
  (g1 g2 : S512.Idx → BitVec 32) (hS1 : ∀ p, Slab (g1 p))

/-- What the task holds at every trip's head, in flight or not. -/
def invBase (n : Nat) : sProp 𝕄 :=
  iprop(Transfers.MayWaits (thr d L) (none : HIx 1) O
    ∗ ((iRow L).view.loc (thr d L) ↦[(iRow L).view.set]{fullShare} fI)
    ∗ ((oRow L).view.loc (thr d L) ↦[(oRow L).view.set]{fullShare} fO)
    ∗ (∃ g0, (s0).view.loc (thr d L) ↦{fullShare} g0)
    ∗ ((s1).view.loc (thr d L) ↦{fullShare} g1)
    ∗ ((s2).view.loc (thr d L) ↦{fullShare} g2)
    ∗ (∃ g3, ⌜Done (F := F) L fI fT n g3⌝ ∗ (s3).view.loc (thr d L) ↦{fullShare} g3)
    ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

/-- The sixteen fetches on their way into half `0` before trip `t`: what each delivers. -/
def flight0 (t : Nat) : List (sProp 𝕄) :=
  [deliv (F := F) d L q fT f4 0 0 inb_S2x16x8x64_S1x1x8x64_0_0_0_0 0 (wAt g1 (2 * t + 0) 0) (slab_inb _ (wAt_slab g1 hS1 (2 * t + 0) 0)),
      deliv (F := F) d L q fT f4 0 1 inb_S2x16x8x64_S1x1x8x64_0_1_0_0 1 (wAt g1 (2 * t + 0) 1) (slab_inb _ (wAt_slab g1 hS1 (2 * t + 0) 1)),
      deliv (F := F) d L q fT f4 0 2 inb_S2x16x8x64_S1x1x8x64_0_2_0_0 2 (wAt g1 (2 * t + 0) 2) (slab_inb _ (wAt_slab g1 hS1 (2 * t + 0) 2)),
      deliv (F := F) d L q fT f4 0 3 inb_S2x16x8x64_S1x1x8x64_0_3_0_0 3 (wAt g1 (2 * t + 0) 3) (slab_inb _ (wAt_slab g1 hS1 (2 * t + 0) 3)),
      deliv (F := F) d L q fT f4 0 4 inb_S2x16x8x64_S1x1x8x64_0_4_0_0 4 (wAt g1 (2 * t + 0) 4) (slab_inb _ (wAt_slab g1 hS1 (2 * t + 0) 4)),
      deliv (F := F) d L q fT f4 0 5 inb_S2x16x8x64_S1x1x8x64_0_5_0_0 5 (wAt g1 (2 * t + 0) 5) (slab_inb _ (wAt_slab g1 hS1 (2 * t + 0) 5)),
      deliv (F := F) d L q fT f4 0 6 inb_S2x16x8x64_S1x1x8x64_0_6_0_0 6 (wAt g1 (2 * t + 0) 6) (slab_inb _ (wAt_slab g1 hS1 (2 * t + 0) 6)),
      deliv (F := F) d L q fT f4 0 7 inb_S2x16x8x64_S1x1x8x64_0_7_0_0 7 (wAt g1 (2 * t + 0) 7) (slab_inb _ (wAt_slab g1 hS1 (2 * t + 0) 7)),
      deliv (F := F) d L q fT f4 0 8 inb_S2x16x8x64_S1x1x8x64_0_8_0_0 8 (wAt g1 (2 * t + 0) 8) (slab_inb _ (wAt_slab g1 hS1 (2 * t + 0) 8)),
      deliv (F := F) d L q fT f4 0 9 inb_S2x16x8x64_S1x1x8x64_0_9_0_0 9 (wAt g1 (2 * t + 0) 9) (slab_inb _ (wAt_slab g1 hS1 (2 * t + 0) 9)),
      deliv (F := F) d L q fT f4 0 10 inb_S2x16x8x64_S1x1x8x64_0_10_0_0 10 (wAt g1 (2 * t + 0) 10) (slab_inb _ (wAt_slab g1 hS1 (2 * t + 0) 10)),
      deliv (F := F) d L q fT f4 0 11 inb_S2x16x8x64_S1x1x8x64_0_11_0_0 11 (wAt g1 (2 * t + 0) 11) (slab_inb _ (wAt_slab g1 hS1 (2 * t + 0) 11)),
      deliv (F := F) d L q fT f4 0 12 inb_S2x16x8x64_S1x1x8x64_0_12_0_0 12 (wAt g1 (2 * t + 0) 12) (slab_inb _ (wAt_slab g1 hS1 (2 * t + 0) 12)),
      deliv (F := F) d L q fT f4 0 13 inb_S2x16x8x64_S1x1x8x64_0_13_0_0 13 (wAt g1 (2 * t + 0) 13) (slab_inb _ (wAt_slab g1 hS1 (2 * t + 0) 13)),
      deliv (F := F) d L q fT f4 0 14 inb_S2x16x8x64_S1x1x8x64_0_14_0_0 14 (wAt g1 (2 * t + 0) 14) (slab_inb _ (wAt_slab g1 hS1 (2 * t + 0) 14)),
      deliv (F := F) d L q fT f4 0 15 inb_S2x16x8x64_S1x1x8x64_0_15_0_0 15 (wAt g1 (2 * t + 0) 15) (slab_inb _ (wAt_slab g1 hS1 (2 * t + 0) 15))]

def flight1 (t : Nat) : List (sProp 𝕄) :=
  [deliv (F := F) d L q fT f4 1 0 inb_S2x16x8x64_S1x1x8x64_1_0_0_0 16 (wAt g1 (2 * t + 1) 0) (slab_inb _ (wAt_slab g1 hS1 (2 * t + 1) 0)),
      deliv (F := F) d L q fT f4 1 1 inb_S2x16x8x64_S1x1x8x64_1_1_0_0 17 (wAt g1 (2 * t + 1) 1) (slab_inb _ (wAt_slab g1 hS1 (2 * t + 1) 1)),
      deliv (F := F) d L q fT f4 1 2 inb_S2x16x8x64_S1x1x8x64_1_2_0_0 18 (wAt g1 (2 * t + 1) 2) (slab_inb _ (wAt_slab g1 hS1 (2 * t + 1) 2)),
      deliv (F := F) d L q fT f4 1 3 inb_S2x16x8x64_S1x1x8x64_1_3_0_0 19 (wAt g1 (2 * t + 1) 3) (slab_inb _ (wAt_slab g1 hS1 (2 * t + 1) 3)),
      deliv (F := F) d L q fT f4 1 4 inb_S2x16x8x64_S1x1x8x64_1_4_0_0 20 (wAt g1 (2 * t + 1) 4) (slab_inb _ (wAt_slab g1 hS1 (2 * t + 1) 4)),
      deliv (F := F) d L q fT f4 1 5 inb_S2x16x8x64_S1x1x8x64_1_5_0_0 21 (wAt g1 (2 * t + 1) 5) (slab_inb _ (wAt_slab g1 hS1 (2 * t + 1) 5)),
      deliv (F := F) d L q fT f4 1 6 inb_S2x16x8x64_S1x1x8x64_1_6_0_0 22 (wAt g1 (2 * t + 1) 6) (slab_inb _ (wAt_slab g1 hS1 (2 * t + 1) 6)),
      deliv (F := F) d L q fT f4 1 7 inb_S2x16x8x64_S1x1x8x64_1_7_0_0 23 (wAt g1 (2 * t + 1) 7) (slab_inb _ (wAt_slab g1 hS1 (2 * t + 1) 7)),
      deliv (F := F) d L q fT f4 1 8 inb_S2x16x8x64_S1x1x8x64_1_8_0_0 24 (wAt g1 (2 * t + 1) 8) (slab_inb _ (wAt_slab g1 hS1 (2 * t + 1) 8)),
      deliv (F := F) d L q fT f4 1 9 inb_S2x16x8x64_S1x1x8x64_1_9_0_0 25 (wAt g1 (2 * t + 1) 9) (slab_inb _ (wAt_slab g1 hS1 (2 * t + 1) 9)),
      deliv (F := F) d L q fT f4 1 10 inb_S2x16x8x64_S1x1x8x64_1_10_0_0 26 (wAt g1 (2 * t + 1) 10) (slab_inb _ (wAt_slab g1 hS1 (2 * t + 1) 10)),
      deliv (F := F) d L q fT f4 1 11 inb_S2x16x8x64_S1x1x8x64_1_11_0_0 27 (wAt g1 (2 * t + 1) 11) (slab_inb _ (wAt_slab g1 hS1 (2 * t + 1) 11)),
      deliv (F := F) d L q fT f4 1 12 inb_S2x16x8x64_S1x1x8x64_1_12_0_0 28 (wAt g1 (2 * t + 1) 12) (slab_inb _ (wAt_slab g1 hS1 (2 * t + 1) 12)),
      deliv (F := F) d L q fT f4 1 13 inb_S2x16x8x64_S1x1x8x64_1_13_0_0 29 (wAt g1 (2 * t + 1) 13) (slab_inb _ (wAt_slab g1 hS1 (2 * t + 1) 13)),
      deliv (F := F) d L q fT f4 1 14 inb_S2x16x8x64_S1x1x8x64_1_14_0_0 30 (wAt g1 (2 * t + 1) 14) (slab_inb _ (wAt_slab g1 hS1 (2 * t + 1) 14)),
      deliv (F := F) d L q fT f4 1 15 inb_S2x16x8x64_S1x1x8x64_1_15_0_0 31 (wAt g1 (2 * t + 1) 15) (slab_inb _ (wAt_slab g1 hS1 (2 * t + 1) 15))]

/-- What stays with the task of each fetch's read share: the table but the slab. -/
def rests (t : Nat) : sProp 𝕄 :=
  iprop(emp
    ∗ rest (F := F) d L q fT 0 (wAt g1 (2 * t + 0) 0) (slab_inb _ (wAt_slab g1 hS1 (2 * t + 0) 0))
    ∗ rest (F := F) d L q fT 1 (wAt g1 (2 * t + 0) 1) (slab_inb _ (wAt_slab g1 hS1 (2 * t + 0) 1))
    ∗ rest (F := F) d L q fT 2 (wAt g1 (2 * t + 0) 2) (slab_inb _ (wAt_slab g1 hS1 (2 * t + 0) 2))
    ∗ rest (F := F) d L q fT 3 (wAt g1 (2 * t + 0) 3) (slab_inb _ (wAt_slab g1 hS1 (2 * t + 0) 3))
    ∗ rest (F := F) d L q fT 4 (wAt g1 (2 * t + 0) 4) (slab_inb _ (wAt_slab g1 hS1 (2 * t + 0) 4))
    ∗ rest (F := F) d L q fT 5 (wAt g1 (2 * t + 0) 5) (slab_inb _ (wAt_slab g1 hS1 (2 * t + 0) 5))
    ∗ rest (F := F) d L q fT 6 (wAt g1 (2 * t + 0) 6) (slab_inb _ (wAt_slab g1 hS1 (2 * t + 0) 6))
    ∗ rest (F := F) d L q fT 7 (wAt g1 (2 * t + 0) 7) (slab_inb _ (wAt_slab g1 hS1 (2 * t + 0) 7))
    ∗ rest (F := F) d L q fT 8 (wAt g1 (2 * t + 0) 8) (slab_inb _ (wAt_slab g1 hS1 (2 * t + 0) 8))
    ∗ rest (F := F) d L q fT 9 (wAt g1 (2 * t + 0) 9) (slab_inb _ (wAt_slab g1 hS1 (2 * t + 0) 9))
    ∗ rest (F := F) d L q fT 10 (wAt g1 (2 * t + 0) 10) (slab_inb _ (wAt_slab g1 hS1 (2 * t + 0) 10))
    ∗ rest (F := F) d L q fT 11 (wAt g1 (2 * t + 0) 11) (slab_inb _ (wAt_slab g1 hS1 (2 * t + 0) 11))
    ∗ rest (F := F) d L q fT 12 (wAt g1 (2 * t + 0) 12) (slab_inb _ (wAt_slab g1 hS1 (2 * t + 0) 12))
    ∗ rest (F := F) d L q fT 13 (wAt g1 (2 * t + 0) 13) (slab_inb _ (wAt_slab g1 hS1 (2 * t + 0) 13))
    ∗ rest (F := F) d L q fT 14 (wAt g1 (2 * t + 0) 14) (slab_inb _ (wAt_slab g1 hS1 (2 * t + 0) 14))
    ∗ rest (F := F) d L q fT 15 (wAt g1 (2 * t + 0) 15) (slab_inb _ (wAt_slab g1 hS1 (2 * t + 0) 15))
    ∗ rest (F := F) d L q fT 16 (wAt g1 (2 * t + 1) 0) (slab_inb _ (wAt_slab g1 hS1 (2 * t + 1) 0))
    ∗ rest (F := F) d L q fT 17 (wAt g1 (2 * t + 1) 1) (slab_inb _ (wAt_slab g1 hS1 (2 * t + 1) 1))
    ∗ rest (F := F) d L q fT 18 (wAt g1 (2 * t + 1) 2) (slab_inb _ (wAt_slab g1 hS1 (2 * t + 1) 2))
    ∗ rest (F := F) d L q fT 19 (wAt g1 (2 * t + 1) 3) (slab_inb _ (wAt_slab g1 hS1 (2 * t + 1) 3))
    ∗ rest (F := F) d L q fT 20 (wAt g1 (2 * t + 1) 4) (slab_inb _ (wAt_slab g1 hS1 (2 * t + 1) 4))
    ∗ rest (F := F) d L q fT 21 (wAt g1 (2 * t + 1) 5) (slab_inb _ (wAt_slab g1 hS1 (2 * t + 1) 5))
    ∗ rest (F := F) d L q fT 22 (wAt g1 (2 * t + 1) 6) (slab_inb _ (wAt_slab g1 hS1 (2 * t + 1) 6))
    ∗ rest (F := F) d L q fT 23 (wAt g1 (2 * t + 1) 7) (slab_inb _ (wAt_slab g1 hS1 (2 * t + 1) 7))
    ∗ rest (F := F) d L q fT 24 (wAt g1 (2 * t + 1) 8) (slab_inb _ (wAt_slab g1 hS1 (2 * t + 1) 8))
    ∗ rest (F := F) d L q fT 25 (wAt g1 (2 * t + 1) 9) (slab_inb _ (wAt_slab g1 hS1 (2 * t + 1) 9))
    ∗ rest (F := F) d L q fT 26 (wAt g1 (2 * t + 1) 10) (slab_inb _ (wAt_slab g1 hS1 (2 * t + 1) 10))
    ∗ rest (F := F) d L q fT 27 (wAt g1 (2 * t + 1) 11) (slab_inb _ (wAt_slab g1 hS1 (2 * t + 1) 11))
    ∗ rest (F := F) d L q fT 28 (wAt g1 (2 * t + 1) 12) (slab_inb _ (wAt_slab g1 hS1 (2 * t + 1) 12))
    ∗ rest (F := F) d L q fT 29 (wAt g1 (2 * t + 1) 13) (slab_inb _ (wAt_slab g1 hS1 (2 * t + 1) 13))
    ∗ rest (F := F) d L q fT 30 (wAt g1 (2 * t + 1) 14) (slab_inb _ (wAt_slab g1 hS1 (2 * t + 1) 14))
    ∗ rest (F := F) d L q fT 31 (wAt g1 (2 * t + 1) 15) (slab_inb _ (wAt_slab g1 hS1 (2 * t + 1) 15)))

/-- The invariant: before trip `k < 16` the two groups' fetches are on their way; after the last trip nothing is. -/
def inv (k : Nat) (_ : PUnit) : sProp 𝕄 :=
  if k < 16 then
    iprop(invBase (F := F) d L O W fI fT fO g1 g2 (32 * k)
      ∗ rests (F := F) d L q fT g1 hS1 k
      ∗ Transfers.Batched countersEmb (thr d L) (SemLoc.dma cc0_scratch5.sem : SemLoc sig) default 16384 16 (flight0 (F := F) d L q fT f4 g1 hS1 k) 0
      ∗ Transfers.Batched countersEmb (thr d L) (SemLoc.dma cc0_scratch6.sem : SemLoc sig) default 16384 16 (flight1 (F := F) d L q fT f4 g1 hS1 k) 0)
  else
    iprop(invBase (F := F) d L O W fI fT fO g1 g2 512
    ∗ ((tV).view.loc (thr d L) ↦{Transfers.shareTokN q 0} fT)
    ∗ ((tV).view.loc (thr d L) ↦{Transfers.shareTokN q 1} fT)
    ∗ ((tV).view.loc (thr d L) ↦{Transfers.shareTokN q 2} fT)
    ∗ ((tV).view.loc (thr d L) ↦{Transfers.shareTokN q 3} fT)
    ∗ ((tV).view.loc (thr d L) ↦{Transfers.shareTokN q 4} fT)
    ∗ ((tV).view.loc (thr d L) ↦{Transfers.shareTokN q 5} fT)
    ∗ ((tV).view.loc (thr d L) ↦{Transfers.shareTokN q 6} fT)
    ∗ ((tV).view.loc (thr d L) ↦{Transfers.shareTokN q 7} fT)
    ∗ ((tV).view.loc (thr d L) ↦{Transfers.shareTokN q 8} fT)
    ∗ ((tV).view.loc (thr d L) ↦{Transfers.shareTokN q 9} fT)
    ∗ ((tV).view.loc (thr d L) ↦{Transfers.shareTokN q 10} fT)
    ∗ ((tV).view.loc (thr d L) ↦{Transfers.shareTokN q 11} fT)
    ∗ ((tV).view.loc (thr d L) ↦{Transfers.shareTokN q 12} fT)
    ∗ ((tV).view.loc (thr d L) ↦{Transfers.shareTokN q 13} fT)
    ∗ ((tV).view.loc (thr d L) ↦{Transfers.shareTokN q 14} fT)
    ∗ ((tV).view.loc (thr d L) ↦{Transfers.shareTokN q 15} fT)
    ∗ ((tV).view.loc (thr d L) ↦{Transfers.shareTokN q 16} fT)
    ∗ ((tV).view.loc (thr d L) ↦{Transfers.shareTokN q 17} fT)
    ∗ ((tV).view.loc (thr d L) ↦{Transfers.shareTokN q 18} fT)
    ∗ ((tV).view.loc (thr d L) ↦{Transfers.shareTokN q 19} fT)
    ∗ ((tV).view.loc (thr d L) ↦{Transfers.shareTokN q 20} fT)
    ∗ ((tV).view.loc (thr d L) ↦{Transfers.shareTokN q 21} fT)
    ∗ ((tV).view.loc (thr d L) ↦{Transfers.shareTokN q 22} fT)
    ∗ ((tV).view.loc (thr d L) ↦{Transfers.shareTokN q 23} fT)
    ∗ ((tV).view.loc (thr d L) ↦{Transfers.shareTokN q 24} fT)
    ∗ ((tV).view.loc (thr d L) ↦{Transfers.shareTokN q 25} fT)
    ∗ ((tV).view.loc (thr d L) ↦{Transfers.shareTokN q 26} fT)
    ∗ ((tV).view.loc (thr d L) ↦{Transfers.shareTokN q 27} fT)
    ∗ ((tV).view.loc (thr d L) ↦{Transfers.shareTokN q 28} fT)
    ∗ ((tV).view.loc (thr d L) ↦{Transfers.shareTokN q 29} fT)
    ∗ ((tV).view.loc (thr d L) ↦{Transfers.shareTokN q 30} fT)
    ∗ ((tV).view.loc (thr d L) ↦{Transfers.shareTokN q 31} fT)
    ∗ (∃ g, (slot0_0).view.loc (thr d L) ↦[(slot0_0).view.set]{fullShare} g)
    ∗ (∃ g, (slot0_1).view.loc (thr d L) ↦[(slot0_1).view.set]{fullShare} g)
    ∗ (∃ g, (slot0_2).view.loc (thr d L) ↦[(slot0_2).view.set]{fullShare} g)
    ∗ (∃ g, (slot0_3).view.loc (thr d L) ↦[(slot0_3).view.set]{fullShare} g)
    ∗ (∃ g, (slot0_4).view.loc (thr d L) ↦[(slot0_4).view.set]{fullShare} g)
    ∗ (∃ g, (slot0_5).view.loc (thr d L) ↦[(slot0_5).view.set]{fullShare} g)
    ∗ (∃ g, (slot0_6).view.loc (thr d L) ↦[(slot0_6).view.set]{fullShare} g)
    ∗ (∃ g, (slot0_7).view.loc (thr d L) ↦[(slot0_7).view.set]{fullShare} g)
    ∗ (∃ g, (slot0_8).view.loc (thr d L) ↦[(slot0_8).view.set]{fullShare} g)
    ∗ (∃ g, (slot0_9).view.loc (thr d L) ↦[(slot0_9).view.set]{fullShare} g)
    ∗ (∃ g, (slot0_10).view.loc (thr d L) ↦[(slot0_10).view.set]{fullShare} g)
    ∗ (∃ g, (slot0_11).view.loc (thr d L) ↦[(slot0_11).view.set]{fullShare} g)
    ∗ (∃ g, (slot0_12).view.loc (thr d L) ↦[(slot0_12).view.set]{fullShare} g)
    ∗ (∃ g, (slot0_13).view.loc (thr d L) ↦[(slot0_13).view.set]{fullShare} g)
    ∗ (∃ g, (slot0_14).view.loc (thr d L) ↦[(slot0_14).view.set]{fullShare} g)
    ∗ (∃ g, (slot0_15).view.loc (thr d L) ↦[(slot0_15).view.set]{fullShare} g)
    ∗ (∃ g, (slot1_0).view.loc (thr d L) ↦[(slot1_0).view.set]{fullShare} g)
    ∗ (∃ g, (slot1_1).view.loc (thr d L) ↦[(slot1_1).view.set]{fullShare} g)
    ∗ (∃ g, (slot1_2).view.loc (thr d L) ↦[(slot1_2).view.set]{fullShare} g)
    ∗ (∃ g, (slot1_3).view.loc (thr d L) ↦[(slot1_3).view.set]{fullShare} g)
    ∗ (∃ g, (slot1_4).view.loc (thr d L) ↦[(slot1_4).view.set]{fullShare} g)
    ∗ (∃ g, (slot1_5).view.loc (thr d L) ↦[(slot1_5).view.set]{fullShare} g)
    ∗ (∃ g, (slot1_6).view.loc (thr d L) ↦[(slot1_6).view.set]{fullShare} g)
    ∗ (∃ g, (slot1_7).view.loc (thr d L) ↦[(slot1_7).view.set]{fullShare} g)
    ∗ (∃ g, (slot1_8).view.loc (thr d L) ↦[(slot1_8).view.set]{fullShare} g)
    ∗ (∃ g, (slot1_9).view.loc (thr d L) ↦[(slot1_9).view.set]{fullShare} g)
    ∗ (∃ g, (slot1_10).view.loc (thr d L) ↦[(slot1_10).view.set]{fullShare} g)
    ∗ (∃ g, (slot1_11).view.loc (thr d L) ↦[(slot1_11).view.set]{fullShare} g)
    ∗ (∃ g, (slot1_12).view.loc (thr d L) ↦[(slot1_12).view.set]{fullShare} g)
    ∗ (∃ g, (slot1_13).view.loc (thr d L) ↦[(slot1_13).view.set]{fullShare} g)
    ∗ (∃ g, (slot1_14).view.loc (thr d L) ↦[(slot1_14).view.set]{fullShare} g)
    ∗ (∃ g, (slot1_15).view.loc (thr d L) ↦[(slot1_15).view.set]{fullShare} g)
      ∗ semVal (thr d L, SemLoc.dma cc0_scratch5.sem) 0
      ∗ semVal (thr d L, SemLoc.dma cc0_scratch6.sem) 0)

end

end Cert.KTile

end
-- ==== Proof.ValueK.lean ====
import proofs.«207235_g30958124269674_cont_8to1_b_889_24_alg».proof.Proof.InvK

/-! What a row pick reads. A ring slot filled by one whole-slot write holds the written 8 × 64 block: read through the
    whole ring at `(h, k, r, c …)` it gives the block at `(r, c …)`. The block a fetch writes is the 8-row slab of the
    table from row `w` on, whose row `r` is the table's row `w + r`. For an index `v`, with `w` the multiple of eight
    below it and `r` the remainder, that is row `v` of the table. -/

noncomputable section

namespace Cert.KTile

open Cert.Kernel Cert.Kernel.Gen

open Idealize.ShloMosaic

variable {F : FTy → Type} [FloatOps F]

/-! ## Where a slot's indices sit in the ring -/

/-- Index `(r, c)` of the 8 × 64 shape is matched with `(0, 0, r, c)` of the 1 × 1 × 8 × 64 shape. -/
theorem reshape_slot (hn : S8x64.numel = S1x1x8x64.numel) (y : S8x64.Idx) :
    Shape.reshapeEquiv hn y = (ValueIdx.ix4 (0 : Fin 1) (0 : Fin 1) (y 0) (y 1) : S1x1x8x64.Idx) := by
  refine Shape.reshapeEquiv_eq_of_rowMajor hn ?_
  rw [Shape.rowMajor_val_four, Shape.rowMajor_val_two]
  show ((0 * 1 + 0) * 8 + (y 0).val) * 64 + (y 1).val = (y 0).val * 64 + (y 1).val
  omega

/-- Index `(r, c)` of slot `k` of half `h` is element `(h, k, r, c)` of the ring. -/
theorem slot_emb_val (h k : Nat) (inb : ∀ a, (![h, k, 0, 0] : Fin 4 → Nat) a + S1x1x8x64.size a ≤ S2x16x8x64.size a)
    (y : S8x64.Idx) (a : Fin 4) :
    ((ringSlot h k inb).view.emb y a).val = (![h, k, (y 0).val, (y 1).val] : Fin 4 → Nat) a := by
  show (![h, k, 0, 0] : Fin 4 → Nat) a + 1 * (Shape.reshapeEquiv squeezes_S1x1x8x64_S8x64.numel_eq y a).val = _
  rw [reshape_slot]
  match a with
  | ⟨0, _⟩ => show h + 1 * 0 = h; omega
  | ⟨1, _⟩ => show k + 1 * 0 = k; omega
  | ⟨2, _⟩ => show 0 + 1 * (y 0).val = (y 0).val; omega
  | ⟨3, _⟩ => show 0 + 1 * (y 1).val = (y 1).val; omega

/-! ## A filled slot, read through the ring -/

section Slot

variable {d : Dev nD} {L : grid0.Coords}

/-- The sixteen lanes at column `c` of row `r` of slot `k` of half `h`, read through the whole ring after the slot was
    written whole with the block `P`: lane `x` is `P` at `(r, c + x)`. -/
theorem slot_read (h k : Nat) (inb : ∀ a, (![h, k, 0, 0] : Fin 4 → Nat) a + S1x1x8x64.size a ≤ S2x16x8x64.size a)
    (f4 : Buf (Elt F) ((thr d L).loc cc0_scratch4)) (P : S8x64.Idx → Elt F .f32) (r c : Nat)
    (inb' : ∀ a, (![h, k, r, c] : Fin 4 → Nat) a + S1x1x1x16.size a ≤ S2x16x8x64.size a)
    (x : (Rect.unit (s := S2x16x8x64) ![h, k, r, c] S1x1x1x16.size inb').toLoadRect.shape.Idx) :
    View.readAt (Elt F) (s4 : Memref sig .scVector .vmem S2x16x8x64 .f32).view
        (Rect.unit (s := S2x16x8x64) ![h, k, r, c] S1x1x1x16.size inb').toLoadRect
        ((ringSlot h k inb).view.writes (Elt F) f4 [⟨Rect.whole S8x64, P⟩]) x
      = P (ValueIdx.ix2 (⟨r, by have := inb' 2; simpa using this⟩ : Fin 8)
            (⟨c + (x 3).val, by have := inb' 3; have := (x 3).isLt; simp at *; omega⟩ : Fin 64)) := by
  have hr : r < 8 := by have := inb' 2; simpa using this
  have hc : c + (x 3).val < 64 := by have := inb' 3; have := (x 3).isLt; simp at *; omega
  -- the slot's view reads the block back
  have hP : (ringSlot h k inb).view.read (Elt F) ((ringSlot h k inb).view.writes (Elt F) f4 [⟨Rect.whole S8x64, P⟩])
      (ValueIdx.ix2 (⟨r, hr⟩ : Fin 8) (⟨c + (x 3).val, hc⟩ : Fin 64)) = P (ValueIdx.ix2 (⟨r, hr⟩ : Fin 8) (⟨c + (x 3).val, hc⟩ : Fin 64)) := by
    have := View.read_writes_cons_emb (ringSlot h k inb).view f4 (Rect.whole S8x64) P []
      (ValueIdx.ix2 (⟨r, hr⟩ : Fin 8) (⟨c + (x 3).val, hc⟩ : Fin 64))
    rwa [Rect.emb_whole_apply] at this
  -- and the lanes read through the ring are the same elements of the buffer
  have hemb : ((s4 : Memref sig .scVector .vmem S2x16x8x64 .f32).view.slice (Rect.unit (s := S2x16x8x64) ![h, k, r, c] S1x1x1x16.size inb')).emb x
      = (ringSlot h k inb).view.emb (ValueIdx.ix2 (⟨r, hr⟩ : Fin 8) (⟨c + (x 3).val, hc⟩ : Fin 64)) := by
    funext a
    refine Fin.ext ?_
    rw [slot_emb_val]
    have h0 : (x 0).val = 0 := by have : (x 0).val < 1 := (x 0).isLt; omega
    have h1 : (x 1).val = 0 := by have : (x 1).val < 1 := (x 1).isLt; omega
    have h2 : (x 2).val = 0 := by have : (x 2).val < 1 := (x 2).isLt; omega
    match a with
    | ⟨0, _⟩ => show h + 1 * (x 0).val = h; omega
    | ⟨1, _⟩ => show k + 1 * (x 1).val = k; omega
    | ⟨2, _⟩ => show r + 1 * (x 2).val = r; omega
    | ⟨3, _⟩ => show c + 1 * (x 3).val = c + (x 3).val; omega
  rw [← hP]
  show ((s4 : Memref sig .scVector .vmem S2x16x8x64 .f32).view.slice (Rect.unit (s := S2x16x8x64) ![h, k, r, c] S1x1x1x16.size inb')).read (Elt F) _ x = _
  rw [View.read_apply, View.read_apply, hemb]

end Slot

/-! ## A slab of the table -/

/-- Row `r` of the slab from row `w` on is row `w + r` of the table. -/
theorem slab_read {d : Dev nD} (w : BitVec 32) (hw : ∀ a, (![w.toNat, 0] : Fin 2 → Nat) a + S8x64.size a ≤ S1000000x64.size a)
    (fT : Buf (Elt F) (tLoc d)) (r : Fin 8) (c : Fin 64) :
    ReadAs.same.apply (View.read (Elt F) (slabM w hw).view fT) (ValueIdx.ix2 r c)
      = fT (ValueIdx.ix2 (⟨w.toNat + r.val, by have := hw 0; have := r.isLt; simp at *; omega⟩ : Fin 1000000) c) := by
  show fT ((slabM w hw).view.emb (ValueIdx.ix2 r c)) = _
  refine congrArg fT (funext fun a => Fin.ext ?_)
  match a with
  | ⟨0, _⟩ => show w.toNat + 1 * r.val = w.toNat + r.val; omega
  | ⟨1, _⟩ => show 0 + 1 * c.val = c.val; omega

/-! ## The row an index names -/

/-- A slot filled with the slab at `w = v &&& ~7`, read at row `v &&& 7`: the table's row `v`. -/
theorem row_value {d : Dev nD} {L : grid0.Coords} (h k : Nat)
    (inb : ∀ a, (![h, k, 0, 0] : Fin 4 → Nat) a + S1x1x8x64.size a ≤ S2x16x8x64.size a)
    (f4 : Buf (Elt F) ((thr d L).loc cc0_scratch4)) (fT : Buf (Elt F) (tLoc d))
    (v w : BitVec 32) (rr : Nat) (hv : v.toNat < 1000000) (hw1 : w = v &&& 4294967288#32) (hr1 : rr = (v &&& 7#32).toNat)
    (hw : ∀ a, (![w.toNat, 0] : Fin 2 → Nat) a + S8x64.size a ≤ S1000000x64.size a) (c : Nat)
    (inb' : ∀ a, (![h, k, rr, c] : Fin 4 → Nat) a + S1x1x1x16.size a ≤ S2x16x8x64.size a)
    (x : (Rect.unit (s := S2x16x8x64) ![h, k, rr, c] S1x1x1x16.size inb').toLoadRect.shape.Idx) :
    View.readAt (Elt F) (s4 : Memref sig .scVector .vmem S2x16x8x64 .f32).view
        (Rect.unit (s := S2x16x8x64) ![h, k, rr, c] S1x1x1x16.size inb').toLoadRect
        ((ringSlot h k inb).view.writes (Elt F) f4
          [⟨Rect.whole S8x64, ReadAs.same.apply (View.read (Elt F) (slabM w hw).view fT)⟩]) x
      = fT (ValueIdx.ix2 (⟨v.toNat, hv⟩ : Fin 1000000)
            (⟨c + (x 3).val, by have := inb' 3; have := (x 3).isLt; simp at *; omega⟩ : Fin 64)) := by
  rw [slot_read (d := d) (L := L) h k inb f4 _ rr c inb' x, slab_read (d := d) w hw fT]
  refine congrArg fT (funext fun a => Fin.ext ?_)
  match a with
  | ⟨0, _⟩ =>
    show w.toNat + rr = v.toNat
    rw [hw1, hr1]; exact Cert.Lib.Mask8.high_add_low v
  | ⟨1, _⟩ => rfl

end Cert.KTile

end
-- ==== Proof.ConvertK.lean ====
import proofs.«207235_g30958124269674_cont_8to1_b_889_24_alg».proof.Proof.InvK
import Idealize.ShloMosaic.Lib.Exec.Context

/-! What a finished fetch leaves, restated. A ring slot written whole holds the written block whatever it held before,
    so the slot after a fetch is the slot "holding the slab at `w`" over any prior contents; the fetch's read share of
    the slab, and what stays with the task of that share, are named by the slab word `w` once the fetch's offsets are
    known to be `(w, 0)`. And the word a lane of a sixteen-word load reads is the scratch's word at the load's offset
    plus the lane. -/

noncomputable section

namespace Cert.KTile

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## A delivered slab, over any prior contents of the ring -/

/-- The slot a fetch at offsets `off2 = (w, 0)` filled, over prior contents `X`, with the fetch's read share of the
    slab: what the invariant calls delivered at `w`, over the contents `f4`. -/
theorem deliv_of_exec (d : Dev nD) (L : grid0.Coords) (q : PosShare TreeShare) (fT : Buf (Elt F) (tLoc d))
    (f4 : Buf (Elt F) ((thr d L).loc cc0_scratch4)) (h k : Nat)
    (inb : ∀ a, (![h, k, 0, 0] : Fin 4 → Nat) a + S1x1x8x64.size a ≤ S2x16x8x64.size a) (tok : Nat)
    (X : Buf (Elt F) ((thr d L).loc cc0_scratch4)) (off2 : Fin 2 → Nat) (inb2 : ∀ a, off2 a + S8x64.size a ≤ S1000000x64.size a)
    (w : BitVec 32) (hw : ∀ a, (![w.toNat, 0] : Fin 2 → Nat) a + S8x64.size a ≤ S1000000x64.size a) (hoff : off2 = ![w.toNat, 0]) :
    (iprop(((ringSlot h k inb).view.loc (thr d L) ↦[(ringSlot h k inb).view.set]{fullShare}
          (ringSlot h k inb).view.writes (Elt F) X [⟨Rect.whole S8x64, ReadAs.same.apply (View.read (Elt F)
            ((tV).slice (Rect.unit (s := S1000000x64) off2 S8x64.size inb2) (fun _ => rfl)).view fT)⟩])
        ∗ ((tV).view.loc (thr d L) ↦[((tV).slice (Rect.unit (s := S1000000x64) off2 S8x64.size inb2) (fun _ => rfl)).view.set]{Transfers.shareTokN q tok} fT)) : sProp 𝕄)
      = deliv (F := F) d L q fT f4 h k inb tok w hw := by
  subst hoff
  rw [pointsTo_writes_whole_rebase (Ix := HIx 1) (Name := ℕ) (U := UU) (Lvl := ℕ) (thr d L) (ringSlot h k inb) X f4 _ fullShare]

/-- What stays with the task of the fetch's read share, named by the slab word. -/
theorem rest_of_exec (d : Dev nD) (L : grid0.Coords) (q : PosShare TreeShare) (fT : Buf (Elt F) (tLoc d)) (tok : Nat)
    (off2 : Fin 2 → Nat) (inb2 : ∀ a, off2 a + S8x64.size a ≤ S1000000x64.size a)
    (w : BitVec 32) (hw : ∀ a, (![w.toNat, 0] : Fin 2 → Nat) a + S8x64.size a ≤ S1000000x64.size a) (hoff : off2 = ![w.toNat, 0]) :
    ((tV).view.loc (thr d L) ↦[Finset.univ \ ((tV).slice (Rect.unit (s := S1000000x64) off2 S8x64.size inb2) (fun _ => rfl)).view.set]{Transfers.shareTokN q tok} fT : sProp 𝕄)
      = rest (F := F) d L q fT tok w hw := by
  subst hoff
  rfl

/-! ## The word a lane of a load reads -/

/-- Lane `j` of the sixteen words loaded at `off` from the scratch `s1` holding `g1` is `g1` at `off + j`. -/
theorem word_of_load1 (g1 : S512.Idx → BitVec 32) (off : Fin 1 → Nat) (inb : ∀ a, off a + S16.size a ≤ S512.size a) (j : Nat) (hj : j < 16)
    (h : (Rect.unit (s := S512) off S16.size inb).shape.ShapeCasts S16) (hS : S16.Slices ![j] S1) (h' : ∀ a, (![0] : Fin 1 → Nat) a < S1.size a) :
    extractAt ![0] (extractStridedSlice S1 ![j] (shapeCast S16 (View.readAt (Elt F) (s1 : Memref sig .scVector .vmem S512 .i32).view
        (Rect.unit (s := S512) off S16.size inb).toLoadRect g1) h) hS) h'
      = g1 (ValueIdx.ix1 (⟨off 0 + j, by have := inb 0; simp at this; omega⟩ : Fin 512)) := by
  rw [lane_word _ j hj hS h']
  have hs : ∀ (Vv : S16.Idx → BitVec 32) (hh : S16.ShapeCasts S16), shapeCast S16 Vv hh = Vv := fun Vv hh => shapeCast_self Vv hh
  rw [hs _ h, View.readAt_apply]
  show g1 ((Rect.unit (s := S512) off S16.size inb).emb (ValueIdx.ix1 (⟨j, hj⟩ : Fin 16))) = _
  refine congrArg g1 (funext fun a => Fin.ext ?_)
  match a with
  | ⟨0, _⟩ => show off 0 + 1 * j = off 0 + j; omega

/-- The same as the slab word of lane `j` of group `g`, when the load is at `16 g`. -/
theorem wAt_of_load1 (g1 : S512.Idx → BitVec 32) (off : Fin 1 → Nat) (inb : ∀ a, off a + S16.size a ≤ S512.size a) (j : Nat) (hj : j < 16)
    (h : (Rect.unit (s := S512) off S16.size inb).shape.ShapeCasts S16) (hS : S16.Slices ![j] S1) (h' : ∀ a, (![0] : Fin 1 → Nat) a < S1.size a)
    (g : Nat) (hoffg : off 0 = 16 * g) (hg : 16 * g + j < 512) :
    extractAt ![0] (extractStridedSlice S1 ![j] (shapeCast S16 (View.readAt (Elt F) (s1 : Memref sig .scVector .vmem S512 .i32).view
        (Rect.unit (s := S512) off S16.size inb).toLoadRect g1) h) hS) h'
      = wAt g1 g j := by
  rw [word_of_load1 (F := F) g1 off inb j hj h hS h']
  unfold wAt
  refine congrArg g1 (funext fun a => Fin.ext ?_)
  match a with
  | ⟨0, _⟩ =>
    show off 0 + j = (Fin.ofNat 512 (16 * g + j)).val
    rw [hoffg]; simp [Fin.ofNat, Nat.mod_eq_of_lt hg]

/-- Lane `j` of the sixteen words loaded at `off` from the scratch `s2` holding `g1` is `g1` at `off + j`. -/
theorem word_of_load2 (g1 : S512.Idx → BitVec 32) (off : Fin 1 → Nat) (inb : ∀ a, off a + S16.size a ≤ S512.size a) (j : Nat) (hj : j < 16)
    (h : (Rect.unit (s := S512) off S16.size inb).shape.ShapeCasts S16) (hS : S16.Slices ![j] S1) (h' : ∀ a, (![0] : Fin 1 → Nat) a < S1.size a) :
    extractAt ![0] (extractStridedSlice S1 ![j] (shapeCast S16 (View.readAt (Elt F) (s2 : Memref sig .scVector .vmem S512 .i32).view
        (Rect.unit (s := S512) off S16.size inb).toLoadRect g1) h) hS) h'
      = g1 (ValueIdx.ix1 (⟨off 0 + j, by have := inb 0; simp at this; omega⟩ : Fin 512)) := by
  rw [lane_word _ j hj hS h']
  have hs : ∀ (Vv : S16.Idx → BitVec 32) (hh : S16.ShapeCasts S16), shapeCast S16 Vv hh = Vv := fun Vv hh => shapeCast_self Vv hh
  rw [hs _ h, View.readAt_apply]
  show g1 ((Rect.unit (s := S512) off S16.size inb).emb (ValueIdx.ix1 (⟨j, hj⟩ : Fin 16))) = _
  refine congrArg g1 (funext fun a => Fin.ext ?_)
  match a with
  | ⟨0, _⟩ => show off 0 + 1 * j = off 0 + j; omega

/-- The same as the slab word of lane `j` of group `g`, when the load is at `16 g`. -/
theorem wAt_of_load2 (g1 : S512.Idx → BitVec 32) (off : Fin 1 → Nat) (inb : ∀ a, off a + S16.size a ≤ S512.size a) (j : Nat) (hj : j < 16)
    (h : (Rect.unit (s := S512) off S16.size inb).shape.ShapeCasts S16) (hS : S16.Slices ![j] S1) (h' : ∀ a, (![0] : Fin 1 → Nat) a < S1.size a)
    (g : Nat) (hoffg : off 0 = 16 * g) (hg : 16 * g + j < 512) :
    extractAt ![0] (extractStridedSlice S1 ![j] (shapeCast S16 (View.readAt (Elt F) (s2 : Memref sig .scVector .vmem S512 .i32).view
        (Rect.unit (s := S512) off S16.size inb).toLoadRect g1) h) hS) h'
      = wAt g1 g j := by
  rw [word_of_load2 (F := F) g1 off inb j hj h hS h']
  unfold wAt
  refine congrArg g1 (funext fun a => Fin.ext ?_)
  match a with
  | ⟨0, _⟩ =>
    show off 0 + j = (Fin.ofNat 512 (16 * g + j)).val
    rw [hoffg]; simp [Fin.ofNat, Nat.mod_eq_of_lt hg]

end Cert.KTile

end
-- ==== Proof.RowsK.lean ====
import proofs.«207235_g30958124269674_cont_8to1_b_889_24_alg».proof.Proof.InvK
import proofs.«207235_g30958124269674_cont_8to1_b_889_24_alg».proof.Proof.ValueK

/-! The row scratch fills row by row: once rows `0 … n − 1` hold their rows of the table, four 16-lane stores into
    row `n` that each hold the table's row `idx[n]` make it `n + 1` rows. -/

noncomputable section

namespace Cert.KTile

open Cert.Kernel Cert.Kernel.Gen
open Idealize.ShloMosaic

variable {F : FTy → Type} [FloatOps F]

/-- What the row scratch is to hold: at `(j, c)`, entry `c` of row `idx[j]` of the table. -/
def Gtab {d : Dev nD} (L : grid0.Coords) (fI : Buf (Elt F) (iLoc d)) (fT : Buf (Elt F) (tLoc d))
    (hidx : ∀ j : S16384.Idx, (fI j).toNat ≤ 999999) : S512x64.Idx → Elt F .f32 := fun y =>
  fT (ValueIdx.ix2 (⟨(idxRun (F := F) L fI (ValueIdx.ix1 (y 0))).toNat,
    Nat.lt_of_le_of_lt (idxRun_le L fI hidx _) (by norm_num)⟩ : Fin 1000000) (y 1))

theorem done_iff_Gtab {d : Dev nD} (L : grid0.Coords) (fI : Buf (Elt F) (iLoc d)) (fT : Buf (Elt F) (tLoc d))
    (hidx : ∀ j : S16384.Idx, (fI j).toNat ≤ 999999) (n : Nat) (g3 : S512x64.Idx → Elt F .f32) :
    Done (F := F) L fI fT n g3 ↔ ∀ y : S512x64.Idx, (y 0).val < n → g3 y = Gtab (F := F) L fI fT hidx y := by
  constructor
  · intro h y hy
    have := h (y 0) (y 1) hy (Nat.lt_of_le_of_lt (idxRun_le L fI hidx _) (by norm_num))
    exact (congrArg g3 (ValueIdx.eq_ix2 y)).trans this
  · intro h j c hj hlt
    have := h (ValueIdx.ix2 j c) hj
    exact this

/-- Stores that all hold `Gtab`, lie in row `n` and cover it, extend the finished rows from `n` to `n + 1`. -/
theorem lane_done {d : Dev nD} (L : grid0.Coords) (fI : Buf (Elt F) (iLoc d)) (fT : Buf (Elt F) (tLoc d))
    (hidx : ∀ j : S16384.Idx, (fI j).toNat ≤ 999999) (n : Nat) (g3 : S512x64.Idx → Elt F .f32)
    (hD : Done (F := F) L fI fT n g3) (Lst : List (View.Piece (Elt F) S512x64 .f32))
    (hp : ∀ p ∈ Lst, ∀ x : p.1.shape.Idx, p.2 x = Gtab (F := F) L fI fT hidx (p.1.emb x))
    (hrow : ∀ p ∈ Lst, ∀ y ∈ p.1.set, (y 0).val = n)
    (hcov : ∀ y : S512x64.Idx, (y 0).val = n → ∃ p ∈ Lst, y ∈ p.1.set) :
    Done (F := F) L fI fT (n + 1) ((s3 : Memref sig .scVector .vmem S512x64 .f32).view.writes (Elt F) g3 Lst) := by
  rw [done_iff_Gtab (hidx := hidx)] at hD ⊢
  intro y hy
  by_cases hyn : (y 0).val = n
  · exact View.read_writes_apply_of_pieces (v := (s3 : Memref sig .scVector .vmem S512x64 .f32).view) (f := g3)
      (Gtab (F := F) L fI fT hidx) Lst hp y (hcov y hyn)
  · have hlt : (y 0).val < n := by omega
    have hnot : ∀ p ∈ Lst, y ∉ p.1.set := fun p hpm hmem => hyn (hrow p hpm y hmem)
    exact (View.read_writes_apply_of_forall_not_mem (s3 : Memref sig .scVector .vmem S512x64 .f32).view g3 y Lst hnot).trans (hD y hlt)

end Cert.KTile

end
-- ==== Proof.PieceK.lean ====
import proofs.«207235_g30958124269674_cont_8to1_b_889_24_alg».proof.Proof.RowsK
import proofs.«207235_g30958124269674_cont_8to1_b_889_24_alg».proof.Proof.ConvertK

/-! One picked row. The sixteen lanes at column `c` of row `r` of a landed slot, stored at `(n, c …)` of the row
    scratch, are entry `c …` of row `idx[n]` of the table: the slot holds the slab from `idx[n] &&& ~7` on and
    `r = idx[n] &&& 7`. Four such stores, at columns 0, 16, 32, 48, make row `n`. -/

noncomputable section

namespace Cert.KTile

open Cert.Kernel Cert.Kernel.Gen
open Idealize.ShloMosaic

variable {F : FTy → Type} [FloatOps F]

theorem fin2_eq (f : Fin 2 → Nat) (a b : Nat) (h0 : f 0 = a) (h1 : f 1 = b) : f = ![a, b] := by
  funext i; fin_cases i
  · exact h0
  · exact h1

theorem cast_idx0 : ∀ x : S1x16.Idx,
    (Shape.reshapeEquiv shapeCasts_S1x1x1x16_S16 (Shape.reshapeEquiv shapeCasts_S16_S1x16 x) 3).val = (x 1).val := by
  decide +kernel

/-- Two identity reshapes around a 16-lane load: lane `x 1` of the stored piece is lane `x 1` of the load. -/
theorem cast_lane {α : Type} (V : S1x1x1x16.Idx → α) (h1 : S1x1x1x16.ShapeCasts S16) (h2 : S16.ShapeCasts S1x16) (x : S1x16.Idx) :
    ∃ x' : S1x1x1x16.Idx, (x' 3).val = (x 1).val ∧ shapeCast S1x16 (shapeCast S16 V h1) h2 x = V x' :=
  ⟨Shape.reshapeEquiv h1 (Shape.reshapeEquiv h2 x), cast_idx0 x, rfl⟩

theorem piece_val {d : Dev nD} (L : grid0.Coords) (fI : Buf (Elt F) (iLoc d)) (fT : Buf (Elt F) (tLoc d))
    (hidx : ∀ j : S16384.Idx, (fI j).toNat ≤ 999999) (g1 g2 : S512.Idx → BitVec 32)
    (hg1 : g1 = G1 (F := F) L fI) (hg2 : g2 = G2 (F := F) L fI)
    (h j : Nat) (inb : ∀ a, (![h, j, 0, 0] : Fin 4 → Nat) a + S1x1x8x64.size a ≤ S2x16x8x64.size a)
    (X : Buf (Elt F) ((thr d L).loc cc0_scratch4)) (n : Nat) (hn : n < 512)
    (w : BitVec 32) (hw : ∀ a, (![w.toNat, 0] : Fin 2 → Nat) a + S8x64.size a ≤ S1000000x64.size a)
    (hwn : w = g1 (ValueIdx.ix1 ⟨n, hn⟩)) (r : BitVec 32) (hrn : r = g2 (ValueIdx.ix1 ⟨n, hn⟩))
    (c : Nat) (off4 : Fin 4 → Nat) (hoff4 : off4 = ![h, j, (Scalar.indexCast r).toNat, c])
    (inb4 : ∀ a, off4 a + S1x1x1x16.size a ≤ S2x16x8x64.size a)
    (off2 : Fin 2 → Nat) (hoff2 : off2 = ![n, c]) (inb2 : ∀ a, off2 a + S1x16.size a ≤ S512x64.size a)
    (h1 : S1x1x1x16.ShapeCasts S16) (h2 : S16.ShapeCasts S1x16) (x : S1x16.Idx) :
    shapeCast S1x16 (shapeCast S16 (View.readAt (Elt F) (s4 : Memref sig .scVector .vmem S2x16x8x64 .f32).view
        (Rect.unit (s := S2x16x8x64) off4 S1x1x1x16.size inb4).toLoadRect
        ((ringSlot h j inb).view.writes (Elt F) X [⟨Rect.whole S8x64, ReadAs.same.apply (View.read (Elt F) (slabM w hw).view fT)⟩])) h1) h2 x
      = Gtab (F := F) L fI fT hidx ((Rect.unit (s := S512x64) off2 S1x16.size inb2).emb x) := by
  subst hoff4 hoff2
  obtain ⟨x', hx', e⟩ := cast_lane (View.readAt (Elt F) (s4 : Memref sig .scVector .vmem S2x16x8x64 .f32).view
        (Rect.unit (s := S2x16x8x64) ![h, j, (Scalar.indexCast r).toNat, c] S1x1x1x16.size inb4).toLoadRect
        ((ringSlot h j inb).view.writes (Elt F) X [⟨Rect.whole S8x64, ReadAs.same.apply (View.read (Elt F) (slabM w hw).view fT)⟩])) h1 h2 x
  rw [e]
  have hv : (idxRun (F := F) L fI (ValueIdx.ix1 ⟨n, hn⟩)).toNat < 1000000 :=
    Nat.lt_of_le_of_lt (idxRun_le L fI hidx _) (by norm_num)
  have hw1 : w = idxRun (F := F) L fI (ValueIdx.ix1 ⟨n, hn⟩) &&& 4294967288#32 := by rw [hwn, hg1]; rfl
  have hr1 : (Scalar.indexCast r).toNat = (idxRun (F := F) L fI (ValueIdx.ix1 ⟨n, hn⟩) &&& 7#32).toNat := by rw [hrn, hg2]; rfl
  rw [row_value (F := F) (d := d) (L := L) h j inb X fT (idxRun (F := F) L fI (ValueIdx.ix1 ⟨n, hn⟩)) w _ hv hw1 hr1 hw c inb4 x']
  have hx0 : (x 0).val = 0 := by have := (x 0).isLt; simpa using this
  have e0 : ((Rect.unit (s := S512x64) ![n, c] S1x16.size inb2).emb x) 0 = (⟨n, hn⟩ : Fin 512) :=
    Fin.ext (by rw [Rect.emb_apply]; show n + 1 * (x 0).val = n; omega)
  have e1 : (((Rect.unit (s := S512x64) ![n, c] S1x16.size inb2).emb x) 1).val = c + (x' 3).val := by
    rw [Rect.emb_apply]; show c + 1 * (x 1).val = _; omega
  unfold Gtab
  show fT _ = fT _
  refine congrArg fT ?_
  funext a
  match a with
  | ⟨0, _⟩ => exact Fin.ext (by show _ = (idxRun (F := F) L fI (ValueIdx.ix1 (((Rect.unit (s := S512x64) ![n, c] S1x16.size inb2).emb x) 0))).toNat; rw [e0])
  | ⟨1, _⟩ => exact Fin.ext e1.symm

/-- Four 16-lane stores at columns 0, 16, 32, 48 of row `n`, each holding the table's row, finish row `n`. -/
theorem lane_done4 {d : Dev nD} (L : grid0.Coords) (fI : Buf (Elt F) (iLoc d)) (fT : Buf (Elt F) (tLoc d))
    (hidx : ∀ j : S16384.Idx, (fI j).toNat ≤ 999999) (n : Nat) (g3 : S512x64.Idx → Elt F .f32)
    (hD : Done (F := F) L fI fT n g3)
    (o0 o1 o2 o3 : Fin 2 → Nat) (ho0 : o0 = ![n, 0]) (ho1 : o1 = ![n, 16]) (ho2 : o2 = ![n, 32]) (ho3 : o3 = ![n, 48])
    (i0 : ∀ a, o0 a + S1x16.size a ≤ S512x64.size a) (i1 : ∀ a, o1 a + S1x16.size a ≤ S512x64.size a)
    (i2 : ∀ a, o2 a + S1x16.size a ≤ S512x64.size a) (i3 : ∀ a, o3 a + S1x16.size a ≤ S512x64.size a)
    (p0 p1 p2 p3 : S1x16.Idx → Elt F .f32)
    (hp0 : ∀ x, p0 x = Gtab (F := F) L fI fT hidx ((Rect.unit (s := S512x64) o0 S1x16.size i0).emb x))
    (hp1 : ∀ x, p1 x = Gtab (F := F) L fI fT hidx ((Rect.unit (s := S512x64) o1 S1x16.size i1).emb x))
    (hp2 : ∀ x, p2 x = Gtab (F := F) L fI fT hidx ((Rect.unit (s := S512x64) o2 S1x16.size i2).emb x))
    (hp3 : ∀ x, p3 x = Gtab (F := F) L fI fT hidx ((Rect.unit (s := S512x64) o3 S1x16.size i3).emb x)) :
    Done (F := F) L fI fT (n + 1) ((s3 : Memref sig .scVector .vmem S512x64 .f32).view.writes (Elt F) g3
      [⟨Rect.unit (s := S512x64) o3 S1x16.size i3, p3⟩, ⟨Rect.unit (s := S512x64) o2 S1x16.size i2, p2⟩,
       ⟨Rect.unit (s := S512x64) o1 S1x16.size i1, p1⟩, ⟨Rect.unit (s := S512x64) o0 S1x16.size i0, p0⟩]) := by
  subst ho0 ho1 ho2 ho3
  have hmem : ∀ (c : Nat) (ic : ∀ a, (![n, c] : Fin 2 → Nat) a + S1x16.size a ≤ S512x64.size a) (y : S512x64.Idx),
      y ∈ (Rect.unit (s := S512x64) ![n, c] S1x16.size ic).set ↔ (y 0).val = n ∧ c ≤ (y 1).val ∧ (y 1).val < c + 16 := by
    intro c ic y
    rw [LoadRect.mem_set]
    constructor
    · intro h
      obtain ⟨j0, hj0, e0⟩ := h 0
      obtain ⟨j1, hj1, e1⟩ := h 1
      have hj0' : j0 < 1 := hj0
      have hj1' : j1 < 16 := hj1
      have e0' : (y 0).val = n + 1 * j0 := e0
      have e1' : (y 1).val = c + 1 * j1 := e1
      omega
    · rintro ⟨h0, h1, h2⟩ a
      match a with
      | ⟨0, _⟩ => exact ⟨0, by show 0 < 1; omega, by show (y 0).val = n + 1 * 0; omega⟩
      | ⟨1, _⟩ => exact ⟨(y 1).val - c, by show (y 1).val - c < 16; omega, by show (y 1).val = c + 1 * ((y 1).val - c); omega⟩
  refine lane_done (F := F) L fI fT hidx n g3 hD _ ?_ ?_ ?_
  · intro p hp
    simp only [List.mem_cons, List.not_mem_nil, or_false] at hp
    rcases hp with rfl | rfl | rfl | rfl
    · exact hp3
    · exact hp2
    · exact hp1
    · exact hp0
  · intro p hp y hy
    simp only [List.mem_cons, List.not_mem_nil, or_false] at hp
    rcases hp with rfl | rfl | rfl | rfl
    · exact ((hmem 48 i3 y).mp hy).1
    · exact ((hmem 32 i2 y).mp hy).1
    · exact ((hmem 16 i1 y).mp hy).1
    · exact ((hmem 0 i0 y).mp hy).1
  · intro y hy
    have hy1 : (y 1).val < 64 := (y 1).isLt
    by_cases h16 : (y 1).val < 16
    · exact ⟨_, List.mem_cons_of_mem _ (List.mem_cons_of_mem _ (List.mem_cons_of_mem _ List.mem_cons_self)), (hmem 0 i0 y).mpr ⟨hy, by omega, by omega⟩⟩
    · by_cases h32 : (y 1).val < 32
      · exact ⟨_, List.mem_cons_of_mem _ (List.mem_cons_of_mem _ List.mem_cons_self), (hmem 16 i1 y).mpr ⟨hy, by omega, by omega⟩⟩
      · by_cases h48 : (y 1).val < 48
        · exact ⟨_, List.mem_cons_of_mem _ List.mem_cons_self, (hmem 32 i2 y).mpr ⟨hy, by omega, by omega⟩⟩
        · exact ⟨_, List.mem_cons_self, (hmem 48 i3 y).mpr ⟨hy, by omega, by omega⟩⟩

theorem lane_done4' {d : Dev nD} (L : grid0.Coords) (fI : Buf (Elt F) (iLoc d)) (fT : Buf (Elt F) (tLoc d))
    (hidx : ∀ j : S16384.Idx, (fI j).toNat ≤ 999999) (n m : Nat) (hm : m = n + 1) (g3 : S512x64.Idx → Elt F .f32)
    (hD : Done (F := F) L fI fT n g3)
    (o0 o1 o2 o3 : Fin 2 → Nat) (ho0 : o0 = ![n, 0]) (ho1 : o1 = ![n, 16]) (ho2 : o2 = ![n, 32]) (ho3 : o3 = ![n, 48])
    (i0 : ∀ a, o0 a + S1x16.size a ≤ S512x64.size a) (i1 : ∀ a, o1 a + S1x16.size a ≤ S512x64.size a)
    (i2 : ∀ a, o2 a + S1x16.size a ≤ S512x64.size a) (i3 : ∀ a, o3 a + S1x16.size a ≤ S512x64.size a)
    (p0 p1 p2 p3 : S1x16.Idx → Elt F .f32)
    (hp0 : ∀ x, p0 x = Gtab (F := F) L fI fT hidx ((Rect.unit (s := S512x64) o0 S1x16.size i0).emb x))
    (hp1 : ∀ x, p1 x = Gtab (F := F) L fI fT hidx ((Rect.unit (s := S512x64) o1 S1x16.size i1).emb x))
    (hp2 : ∀ x, p2 x = Gtab (F := F) L fI fT hidx ((Rect.unit (s := S512x64) o2 S1x16.size i2).emb x))
    (hp3 : ∀ x, p3 x = Gtab (F := F) L fI fT hidx ((Rect.unit (s := S512x64) o3 S1x16.size i3).emb x)) :
    Done (F := F) L fI fT m ((s3 : Memref sig .scVector .vmem S512x64 .f32).view.writes (Elt F) g3
      [⟨Rect.unit (s := S512x64) o3 S1x16.size i3, p3⟩, ⟨Rect.unit (s := S512x64) o2 S1x16.size i2, p2⟩,
       ⟨Rect.unit (s := S512x64) o1 S1x16.size i1, p1⟩, ⟨Rect.unit (s := S512x64) o0 S1x16.size i0, p0⟩]) :=
  hm ▸ lane_done4 (F := F) L fI fT hidx n g3 hD o0 o1 o2 o3 ho0 ho1 ho2 ho3 i0 i1 i2 i3 p0 p1 p2 p3 hp0 hp1 hp2 hp3

end Cert.KTile

end
-- ==== Proof.OffsK.lean ====
import proofs.«207235_g30958124269674_cont_8to1_b_889_24_alg».proof.Proof.PieceK

/-! Where a trip reads and writes: trip `k` picks rows `32 k … 32 k + 31` of the run and fetches groups `2 k + 2`, `2 k + 3`. -/

noncomputable section

namespace Cert.KTile

open Cert.Kernel Cert.Kernel.Gen
open Idealize.ShloMosaic

theorem off34 : ∀ k : Fin k0_t1_loop.trips, k0_off34 k 0 = 32 * k.val := by decide +kernel
theorem off180 : ∀ k : Fin k0_t1_loop.trips, k0_off180 k 0 = 32 * k.val + 16 := by decide +kernel
theorem off163 : ∀ k : Fin k0_t1_loop.trips, k0_off163 k 0 = 32 * k.val + 32 := by decide +kernel
theorem off309 : ∀ k : Fin k0_t1_loop.trips, k0_off309 k 0 = 32 * k.val + 48 := by decide +kernel
theorem trips_le : ∀ k : Fin k0_t1_loop.trips, k.val < 16 := by decide +kernel

theorem offS_36_c : ∀ k : Fin k0_t1_loop.trips, k0_off36 k 0 = 32 * k.val + 0 ∧ k0_off36 k 1 = 0 := by decide +kernel
theorem offS_36 (k : Fin k0_t1_loop.trips) : k0_off36 k = ![32 * k.val + 0, 0] := fin2_eq _ _ _ (offS_36_c k).1 (offS_36_c k).2
theorem offS_38_c : ∀ k : Fin k0_t1_loop.trips, k0_off38 k 0 = 32 * k.val + 0 ∧ k0_off38 k 1 = 16 := by decide +kernel
theorem offS_38 (k : Fin k0_t1_loop.trips) : k0_off38 k = ![32 * k.val + 0, 16] := fin2_eq _ _ _ (offS_38_c k).1 (offS_38_c k).2
theorem offS_40_c : ∀ k : Fin k0_t1_loop.trips, k0_off40 k 0 = 32 * k.val + 0 ∧ k0_off40 k 1 = 32 := by decide +kernel
theorem offS_40 (k : Fin k0_t1_loop.trips) : k0_off40 k = ![32 * k.val + 0, 32] := fin2_eq _ _ _ (offS_40_c k).1 (offS_40_c k).2
theorem offS_42_c : ∀ k : Fin k0_t1_loop.trips, k0_off42 k 0 = 32 * k.val + 0 ∧ k0_off42 k 1 = 48 := by decide +kernel
theorem offS_42 (k : Fin k0_t1_loop.trips) : k0_off42 k = ![32 * k.val + 0, 48] := fin2_eq _ _ _ (offS_42_c k).1 (offS_42_c k).2
theorem offS_44_c : ∀ k : Fin k0_t1_loop.trips, k0_off44 k 0 = 32 * k.val + 1 ∧ k0_off44 k 1 = 0 := by decide +kernel
theorem offS_44 (k : Fin k0_t1_loop.trips) : k0_off44 k = ![32 * k.val + 1, 0] := fin2_eq _ _ _ (offS_44_c k).1 (offS_44_c k).2
theorem offS_46_c : ∀ k : Fin k0_t1_loop.trips, k0_off46 k 0 = 32 * k.val + 1 ∧ k0_off46 k 1 = 16 := by decide +kernel
theorem offS_46 (k : Fin k0_t1_loop.trips) : k0_off46 k = ![32 * k.val + 1, 16] := fin2_eq _ _ _ (offS_46_c k).1 (offS_46_c k).2
theorem offS_48_c : ∀ k : Fin k0_t1_loop.trips, k0_off48 k 0 = 32 * k.val + 1 ∧ k0_off48 k 1 = 32 := by decide +kernel
theorem offS_48 (k : Fin k0_t1_loop.trips) : k0_off48 k = ![32 * k.val + 1, 32] := fin2_eq _ _ _ (offS_48_c k).1 (offS_48_c k).2
theorem offS_50_c : ∀ k : Fin k0_t1_loop.trips, k0_off50 k 0 = 32 * k.val + 1 ∧ k0_off50 k 1 = 48 := by decide +kernel
theorem offS_50 (k : Fin k0_t1_loop.trips) : k0_off50 k = ![32 * k.val + 1, 48] := fin2_eq _ _ _ (offS_50_c k).1 (offS_50_c k).2
theorem offS_52_c : ∀ k : Fin k0_t1_loop.trips, k0_off52 k 0 = 32 * k.val + 2 ∧ k0_off52 k 1 = 0 := by decide +kernel
theorem offS_52 (k : Fin k0_t1_loop.trips) : k0_off52 k = ![32 * k.val + 2, 0] := fin2_eq _ _ _ (offS_52_c k).1 (offS_52_c k).2
theorem offS_54_c : ∀ k : Fin k0_t1_loop.trips, k0_off54 k 0 = 32 * k.val + 2 ∧ k0_off54 k 1 = 16 := by decide +kernel
theorem offS_54 (k : Fin k0_t1_loop.trips) : k0_off54 k = ![32 * k.val + 2, 16] := fin2_eq _ _ _ (offS_54_c k).1 (offS_54_c k).2
theorem offS_56_c : ∀ k : Fin k0_t1_loop.trips, k0_off56 k 0 = 32 * k.val + 2 ∧ k0_off56 k 1 = 32 := by decide +kernel
theorem offS_56 (k : Fin k0_t1_loop.trips) : k0_off56 k = ![32 * k.val + 2, 32] := fin2_eq _ _ _ (offS_56_c k).1 (offS_56_c k).2
theorem offS_58_c : ∀ k : Fin k0_t1_loop.trips, k0_off58 k 0 = 32 * k.val + 2 ∧ k0_off58 k 1 = 48 := by decide +kernel
theorem offS_58 (k : Fin k0_t1_loop.trips) : k0_off58 k = ![32 * k.val + 2, 48] := fin2_eq _ _ _ (offS_58_c k).1 (offS_58_c k).2
theorem offS_60_c : ∀ k : Fin k0_t1_loop.trips, k0_off60 k 0 = 32 * k.val + 3 ∧ k0_off60 k 1 = 0 := by decide +kernel
theorem offS_60 (k : Fin k0_t1_loop.trips) : k0_off60 k = ![32 * k.val + 3, 0] := fin2_eq _ _ _ (offS_60_c k).1 (offS_60_c k).2
theorem offS_62_c : ∀ k : Fin k0_t1_loop.trips, k0_off62 k 0 = 32 * k.val + 3 ∧ k0_off62 k 1 = 16 := by decide +kernel
theorem offS_62 (k : Fin k0_t1_loop.trips) : k0_off62 k = ![32 * k.val + 3, 16] := fin2_eq _ _ _ (offS_62_c k).1 (offS_62_c k).2
theorem offS_64_c : ∀ k : Fin k0_t1_loop.trips, k0_off64 k 0 = 32 * k.val + 3 ∧ k0_off64 k 1 = 32 := by decide +kernel
theorem offS_64 (k : Fin k0_t1_loop.trips) : k0_off64 k = ![32 * k.val + 3, 32] := fin2_eq _ _ _ (offS_64_c k).1 (offS_64_c k).2
theorem offS_66_c : ∀ k : Fin k0_t1_loop.trips, k0_off66 k 0 = 32 * k.val + 3 ∧ k0_off66 k 1 = 48 := by decide +kernel
theorem offS_66 (k : Fin k0_t1_loop.trips) : k0_off66 k = ![32 * k.val + 3, 48] := fin2_eq _ _ _ (offS_66_c k).1 (offS_66_c k).2
theorem offS_68_c : ∀ k : Fin k0_t1_loop.trips, k0_off68 k 0 = 32 * k.val + 4 ∧ k0_off68 k 1 = 0 := by decide +kernel
theorem offS_68 (k : Fin k0_t1_loop.trips) : k0_off68 k = ![32 * k.val + 4, 0] := fin2_eq _ _ _ (offS_68_c k).1 (offS_68_c k).2
theorem offS_70_c : ∀ k : Fin k0_t1_loop.trips, k0_off70 k 0 = 32 * k.val + 4 ∧ k0_off70 k 1 = 16 := by decide +kernel
theorem offS_70 (k : Fin k0_t1_loop.trips) : k0_off70 k = ![32 * k.val + 4, 16] := fin2_eq _ _ _ (offS_70_c k).1 (offS_70_c k).2
theorem offS_72_c : ∀ k : Fin k0_t1_loop.trips, k0_off72 k 0 = 32 * k.val + 4 ∧ k0_off72 k 1 = 32 := by decide +kernel
theorem offS_72 (k : Fin k0_t1_loop.trips) : k0_off72 k = ![32 * k.val + 4, 32] := fin2_eq _ _ _ (offS_72_c k).1 (offS_72_c k).2
theorem offS_74_c : ∀ k : Fin k0_t1_loop.trips, k0_off74 k 0 = 32 * k.val + 4 ∧ k0_off74 k 1 = 48 := by decide +kernel
theorem offS_74 (k : Fin k0_t1_loop.trips) : k0_off74 k = ![32 * k.val + 4, 48] := fin2_eq _ _ _ (offS_74_c k).1 (offS_74_c k).2
theorem offS_76_c : ∀ k : Fin k0_t1_loop.trips, k0_off76 k 0 = 32 * k.val + 5 ∧ k0_off76 k 1 = 0 := by decide +kernel
theorem offS_76 (k : Fin k0_t1_loop.trips) : k0_off76 k = ![32 * k.val + 5, 0] := fin2_eq _ _ _ (offS_76_c k).1 (offS_76_c k).2
theorem offS_78_c : ∀ k : Fin k0_t1_loop.trips, k0_off78 k 0 = 32 * k.val + 5 ∧ k0_off78 k 1 = 16 := by decide +kernel
theorem offS_78 (k : Fin k0_t1_loop.trips) : k0_off78 k = ![32 * k.val + 5, 16] := fin2_eq _ _ _ (offS_78_c k).1 (offS_78_c k).2
theorem offS_80_c : ∀ k : Fin k0_t1_loop.trips, k0_off80 k 0 = 32 * k.val + 5 ∧ k0_off80 k 1 = 32 := by decide +kernel
theorem offS_80 (k : Fin k0_t1_loop.trips) : k0_off80 k = ![32 * k.val + 5, 32] := fin2_eq _ _ _ (offS_80_c k).1 (offS_80_c k).2
theorem offS_82_c : ∀ k : Fin k0_t1_loop.trips, k0_off82 k 0 = 32 * k.val + 5 ∧ k0_off82 k 1 = 48 := by decide +kernel
theorem offS_82 (k : Fin k0_t1_loop.trips) : k0_off82 k = ![32 * k.val + 5, 48] := fin2_eq _ _ _ (offS_82_c k).1 (offS_82_c k).2
theorem offS_84_c : ∀ k : Fin k0_t1_loop.trips, k0_off84 k 0 = 32 * k.val + 6 ∧ k0_off84 k 1 = 0 := by decide +kernel
theorem offS_84 (k : Fin k0_t1_loop.trips) : k0_off84 k = ![32 * k.val + 6, 0] := fin2_eq _ _ _ (offS_84_c k).1 (offS_84_c k).2
theorem offS_86_c : ∀ k : Fin k0_t1_loop.trips, k0_off86 k 0 = 32 * k.val + 6 ∧ k0_off86 k 1 = 16 := by decide +kernel
theorem offS_86 (k : Fin k0_t1_loop.trips) : k0_off86 k = ![32 * k.val + 6, 16] := fin2_eq _ _ _ (offS_86_c k).1 (offS_86_c k).2
theorem offS_88_c : ∀ k : Fin k0_t1_loop.trips, k0_off88 k 0 = 32 * k.val + 6 ∧ k0_off88 k 1 = 32 := by decide +kernel
theorem offS_88 (k : Fin k0_t1_loop.trips) : k0_off88 k = ![32 * k.val + 6, 32] := fin2_eq _ _ _ (offS_88_c k).1 (offS_88_c k).2
theorem offS_90_c : ∀ k : Fin k0_t1_loop.trips, k0_off90 k 0 = 32 * k.val + 6 ∧ k0_off90 k 1 = 48 := by decide +kernel
theorem offS_90 (k : Fin k0_t1_loop.trips) : k0_off90 k = ![32 * k.val + 6, 48] := fin2_eq _ _ _ (offS_90_c k).1 (offS_90_c k).2
theorem offS_92_c : ∀ k : Fin k0_t1_loop.trips, k0_off92 k 0 = 32 * k.val + 7 ∧ k0_off92 k 1 = 0 := by decide +kernel
theorem offS_92 (k : Fin k0_t1_loop.trips) : k0_off92 k = ![32 * k.val + 7, 0] := fin2_eq _ _ _ (offS_92_c k).1 (offS_92_c k).2
theorem offS_94_c : ∀ k : Fin k0_t1_loop.trips, k0_off94 k 0 = 32 * k.val + 7 ∧ k0_off94 k 1 = 16 := by decide +kernel
theorem offS_94 (k : Fin k0_t1_loop.trips) : k0_off94 k = ![32 * k.val + 7, 16] := fin2_eq _ _ _ (offS_94_c k).1 (offS_94_c k).2
theorem offS_96_c : ∀ k : Fin k0_t1_loop.trips, k0_off96 k 0 = 32 * k.val + 7 ∧ k0_off96 k 1 = 32 := by decide +kernel
theorem offS_96 (k : Fin k0_t1_loop.trips) : k0_off96 k = ![32 * k.val + 7, 32] := fin2_eq _ _ _ (offS_96_c k).1 (offS_96_c k).2
theorem offS_98_c : ∀ k : Fin k0_t1_loop.trips, k0_off98 k 0 = 32 * k.val + 7 ∧ k0_off98 k 1 = 48 := by decide +kernel
theorem offS_98 (k : Fin k0_t1_loop.trips) : k0_off98 k = ![32 * k.val + 7, 48] := fin2_eq _ _ _ (offS_98_c k).1 (offS_98_c k).2
theorem offS_100_c : ∀ k : Fin k0_t1_loop.trips, k0_off100 k 0 = 32 * k.val + 8 ∧ k0_off100 k 1 = 0 := by decide +kernel
theorem offS_100 (k : Fin k0_t1_loop.trips) : k0_off100 k = ![32 * k.val + 8, 0] := fin2_eq _ _ _ (offS_100_c k).1 (offS_100_c k).2
theorem offS_102_c : ∀ k : Fin k0_t1_loop.trips, k0_off102 k 0 = 32 * k.val + 8 ∧ k0_off102 k 1 = 16 := by decide +kernel
theorem offS_102 (k : Fin k0_t1_loop.trips) : k0_off102 k = ![32 * k.val + 8, 16] := fin2_eq _ _ _ (offS_102_c k).1 (offS_102_c k).2
theorem offS_104_c : ∀ k : Fin k0_t1_loop.trips, k0_off104 k 0 = 32 * k.val + 8 ∧ k0_off104 k 1 = 32 := by decide +kernel
theorem offS_104 (k : Fin k0_t1_loop.trips) : k0_off104 k = ![32 * k.val + 8, 32] := fin2_eq _ _ _ (offS_104_c k).1 (offS_104_c k).2
theorem offS_106_c : ∀ k : Fin k0_t1_loop.trips, k0_off106 k 0 = 32 * k.val + 8 ∧ k0_off106 k 1 = 48 := by decide +kernel
theorem offS_106 (k : Fin k0_t1_loop.trips) : k0_off106 k = ![32 * k.val + 8, 48] := fin2_eq _ _ _ (offS_106_c k).1 (offS_106_c k).2
theorem offS_108_c : ∀ k : Fin k0_t1_loop.trips, k0_off108 k 0 = 32 * k.val + 9 ∧ k0_off108 k 1 = 0 := by decide +kernel
theorem offS_108 (k : Fin k0_t1_loop.trips) : k0_off108 k = ![32 * k.val + 9, 0] := fin2_eq _ _ _ (offS_108_c k).1 (offS_108_c k).2
theorem offS_110_c : ∀ k : Fin k0_t1_loop.trips, k0_off110 k 0 = 32 * k.val + 9 ∧ k0_off110 k 1 = 16 := by decide +kernel
theorem offS_110 (k : Fin k0_t1_loop.trips) : k0_off110 k = ![32 * k.val + 9, 16] := fin2_eq _ _ _ (offS_110_c k).1 (offS_110_c k).2
theorem offS_112_c : ∀ k : Fin k0_t1_loop.trips, k0_off112 k 0 = 32 * k.val + 9 ∧ k0_off112 k 1 = 32 := by decide +kernel
theorem offS_112 (k : Fin k0_t1_loop.trips) : k0_off112 k = ![32 * k.val + 9, 32] := fin2_eq _ _ _ (offS_112_c k).1 (offS_112_c k).2
theorem offS_114_c : ∀ k : Fin k0_t1_loop.trips, k0_off114 k 0 = 32 * k.val + 9 ∧ k0_off114 k 1 = 48 := by decide +kernel
theorem offS_114 (k : Fin k0_t1_loop.trips) : k0_off114 k = ![32 * k.val + 9, 48] := fin2_eq _ _ _ (offS_114_c k).1 (offS_114_c k).2
theorem offS_116_c : ∀ k : Fin k0_t1_loop.trips, k0_off116 k 0 = 32 * k.val + 10 ∧ k0_off116 k 1 = 0 := by decide +kernel
theorem offS_116 (k : Fin k0_t1_loop.trips) : k0_off116 k = ![32 * k.val + 10, 0] := fin2_eq _ _ _ (offS_116_c k).1 (offS_116_c k).2
theorem offS_118_c : ∀ k : Fin k0_t1_loop.trips, k0_off118 k 0 = 32 * k.val + 10 ∧ k0_off118 k 1 = 16 := by decide +kernel
theorem offS_118 (k : Fin k0_t1_loop.trips) : k0_off118 k = ![32 * k.val + 10, 16] := fin2_eq _ _ _ (offS_118_c k).1 (offS_118_c k).2
theorem offS_120_c : ∀ k : Fin k0_t1_loop.trips, k0_off120 k 0 = 32 * k.val + 10 ∧ k0_off120 k 1 = 32 := by decide +kernel
theorem offS_120 (k : Fin k0_t1_loop.trips) : k0_off120 k = ![32 * k.val + 10, 32] := fin2_eq _ _ _ (offS_120_c k).1 (offS_120_c k).2
theorem offS_122_c : ∀ k : Fin k0_t1_loop.trips, k0_off122 k 0 = 32 * k.val + 10 ∧ k0_off122 k 1 = 48 := by decide +kernel
theorem offS_122 (k : Fin k0_t1_loop.trips) : k0_off122 k = ![32 * k.val + 10, 48] := fin2_eq _ _ _ (offS_122_c k).1 (offS_122_c k).2
theorem offS_124_c : ∀ k : Fin k0_t1_loop.trips, k0_off124 k 0 = 32 * k.val + 11 ∧ k0_off124 k 1 = 0 := by decide +kernel
theorem offS_124 (k : Fin k0_t1_loop.trips) : k0_off124 k = ![32 * k.val + 11, 0] := fin2_eq _ _ _ (offS_124_c k).1 (offS_124_c k).2
theorem offS_126_c : ∀ k : Fin k0_t1_loop.trips, k0_off126 k 0 = 32 * k.val + 11 ∧ k0_off126 k 1 = 16 := by decide +kernel
theorem offS_126 (k : Fin k0_t1_loop.trips) : k0_off126 k = ![32 * k.val + 11, 16] := fin2_eq _ _ _ (offS_126_c k).1 (offS_126_c k).2
theorem offS_128_c : ∀ k : Fin k0_t1_loop.trips, k0_off128 k 0 = 32 * k.val + 11 ∧ k0_off128 k 1 = 32 := by decide +kernel
theorem offS_128 (k : Fin k0_t1_loop.trips) : k0_off128 k = ![32 * k.val + 11, 32] := fin2_eq _ _ _ (offS_128_c k).1 (offS_128_c k).2
theorem offS_130_c : ∀ k : Fin k0_t1_loop.trips, k0_off130 k 0 = 32 * k.val + 11 ∧ k0_off130 k 1 = 48 := by decide +kernel
theorem offS_130 (k : Fin k0_t1_loop.trips) : k0_off130 k = ![32 * k.val + 11, 48] := fin2_eq _ _ _ (offS_130_c k).1 (offS_130_c k).2
theorem offS_132_c : ∀ k : Fin k0_t1_loop.trips, k0_off132 k 0 = 32 * k.val + 12 ∧ k0_off132 k 1 = 0 := by decide +kernel
theorem offS_132 (k : Fin k0_t1_loop.trips) : k0_off132 k = ![32 * k.val + 12, 0] := fin2_eq _ _ _ (offS_132_c k).1 (offS_132_c k).2
theorem offS_134_c : ∀ k : Fin k0_t1_loop.trips, k0_off134 k 0 = 32 * k.val + 12 ∧ k0_off134 k 1 = 16 := by decide +kernel
theorem offS_134 (k : Fin k0_t1_loop.trips) : k0_off134 k = ![32 * k.val + 12, 16] := fin2_eq _ _ _ (offS_134_c k).1 (offS_134_c k).2
theorem offS_136_c : ∀ k : Fin k0_t1_loop.trips, k0_off136 k 0 = 32 * k.val + 12 ∧ k0_off136 k 1 = 32 := by decide +kernel
theorem offS_136 (k : Fin k0_t1_loop.trips) : k0_off136 k = ![32 * k.val + 12, 32] := fin2_eq _ _ _ (offS_136_c k).1 (offS_136_c k).2
theorem offS_138_c : ∀ k : Fin k0_t1_loop.trips, k0_off138 k 0 = 32 * k.val + 12 ∧ k0_off138 k 1 = 48 := by decide +kernel
theorem offS_138 (k : Fin k0_t1_loop.trips) : k0_off138 k = ![32 * k.val + 12, 48] := fin2_eq _ _ _ (offS_138_c k).1 (offS_138_c k).2
theorem offS_140_c : ∀ k : Fin k0_t1_loop.trips, k0_off140 k 0 = 32 * k.val + 13 ∧ k0_off140 k 1 = 0 := by decide +kernel
theorem offS_140 (k : Fin k0_t1_loop.trips) : k0_off140 k = ![32 * k.val + 13, 0] := fin2_eq _ _ _ (offS_140_c k).1 (offS_140_c k).2
theorem offS_142_c : ∀ k : Fin k0_t1_loop.trips, k0_off142 k 0 = 32 * k.val + 13 ∧ k0_off142 k 1 = 16 := by decide +kernel
theorem offS_142 (k : Fin k0_t1_loop.trips) : k0_off142 k = ![32 * k.val + 13, 16] := fin2_eq _ _ _ (offS_142_c k).1 (offS_142_c k).2
theorem offS_144_c : ∀ k : Fin k0_t1_loop.trips, k0_off144 k 0 = 32 * k.val + 13 ∧ k0_off144 k 1 = 32 := by decide +kernel
theorem offS_144 (k : Fin k0_t1_loop.trips) : k0_off144 k = ![32 * k.val + 13, 32] := fin2_eq _ _ _ (offS_144_c k).1 (offS_144_c k).2
theorem offS_146_c : ∀ k : Fin k0_t1_loop.trips, k0_off146 k 0 = 32 * k.val + 13 ∧ k0_off146 k 1 = 48 := by decide +kernel
theorem offS_146 (k : Fin k0_t1_loop.trips) : k0_off146 k = ![32 * k.val + 13, 48] := fin2_eq _ _ _ (offS_146_c k).1 (offS_146_c k).2
theorem offS_148_c : ∀ k : Fin k0_t1_loop.trips, k0_off148 k 0 = 32 * k.val + 14 ∧ k0_off148 k 1 = 0 := by decide +kernel
theorem offS_148 (k : Fin k0_t1_loop.trips) : k0_off148 k = ![32 * k.val + 14, 0] := fin2_eq _ _ _ (offS_148_c k).1 (offS_148_c k).2
theorem offS_150_c : ∀ k : Fin k0_t1_loop.trips, k0_off150 k 0 = 32 * k.val + 14 ∧ k0_off150 k 1 = 16 := by decide +kernel
theorem offS_150 (k : Fin k0_t1_loop.trips) : k0_off150 k = ![32 * k.val + 14, 16] := fin2_eq _ _ _ (offS_150_c k).1 (offS_150_c k).2
theorem offS_152_c : ∀ k : Fin k0_t1_loop.trips, k0_off152 k 0 = 32 * k.val + 14 ∧ k0_off152 k 1 = 32 := by decide +kernel
theorem offS_152 (k : Fin k0_t1_loop.trips) : k0_off152 k = ![32 * k.val + 14, 32] := fin2_eq _ _ _ (offS_152_c k).1 (offS_152_c k).2
theorem offS_154_c : ∀ k : Fin k0_t1_loop.trips, k0_off154 k 0 = 32 * k.val + 14 ∧ k0_off154 k 1 = 48 := by decide +kernel
theorem offS_154 (k : Fin k0_t1_loop.trips) : k0_off154 k = ![32 * k.val + 14, 48] := fin2_eq _ _ _ (offS_154_c k).1 (offS_154_c k).2
theorem offS_156_c : ∀ k : Fin k0_t1_loop.trips, k0_off156 k 0 = 32 * k.val + 15 ∧ k0_off156 k 1 = 0 := by decide +kernel
theorem offS_156 (k : Fin k0_t1_loop.trips) : k0_off156 k = ![32 * k.val + 15, 0] := fin2_eq _ _ _ (offS_156_c k).1 (offS_156_c k).2
theorem offS_158_c : ∀ k : Fin k0_t1_loop.trips, k0_off158 k 0 = 32 * k.val + 15 ∧ k0_off158 k 1 = 16 := by decide +kernel
theorem offS_158 (k : Fin k0_t1_loop.trips) : k0_off158 k = ![32 * k.val + 15, 16] := fin2_eq _ _ _ (offS_158_c k).1 (offS_158_c k).2
theorem offS_160_c : ∀ k : Fin k0_t1_loop.trips, k0_off160 k 0 = 32 * k.val + 15 ∧ k0_off160 k 1 = 32 := by decide +kernel
theorem offS_160 (k : Fin k0_t1_loop.trips) : k0_off160 k = ![32 * k.val + 15, 32] := fin2_eq _ _ _ (offS_160_c k).1 (offS_160_c k).2
theorem offS_162_c : ∀ k : Fin k0_t1_loop.trips, k0_off162 k 0 = 32 * k.val + 15 ∧ k0_off162 k 1 = 48 := by decide +kernel
theorem offS_162 (k : Fin k0_t1_loop.trips) : k0_off162 k = ![32 * k.val + 15, 48] := fin2_eq _ _ _ (offS_162_c k).1 (offS_162_c k).2
theorem offS_182_c : ∀ k : Fin k0_t1_loop.trips, k0_off182 k 0 = 32 * k.val + 16 ∧ k0_off182 k 1 = 0 := by decide +kernel
theorem offS_182 (k : Fin k0_t1_loop.trips) : k0_off182 k = ![32 * k.val + 16, 0] := fin2_eq _ _ _ (offS_182_c k).1 (offS_182_c k).2
theorem offS_184_c : ∀ k : Fin k0_t1_loop.trips, k0_off184 k 0 = 32 * k.val + 16 ∧ k0_off184 k 1 = 16 := by decide +kernel
theorem offS_184 (k : Fin k0_t1_loop.trips) : k0_off184 k = ![32 * k.val + 16, 16] := fin2_eq _ _ _ (offS_184_c k).1 (offS_184_c k).2
theorem offS_186_c : ∀ k : Fin k0_t1_loop.trips, k0_off186 k 0 = 32 * k.val + 16 ∧ k0_off186 k 1 = 32 := by decide +kernel
theorem offS_186 (k : Fin k0_t1_loop.trips) : k0_off186 k = ![32 * k.val + 16, 32] := fin2_eq _ _ _ (offS_186_c k).1 (offS_186_c k).2
theorem offS_188_c : ∀ k : Fin k0_t1_loop.trips, k0_off188 k 0 = 32 * k.val + 16 ∧ k0_off188 k 1 = 48 := by decide +kernel
theorem offS_188 (k : Fin k0_t1_loop.trips) : k0_off188 k = ![32 * k.val + 16, 48] := fin2_eq _ _ _ (offS_188_c k).1 (offS_188_c k).2
theorem offS_190_c : ∀ k : Fin k0_t1_loop.trips, k0_off190 k 0 = 32 * k.val + 17 ∧ k0_off190 k 1 = 0 := by decide +kernel
theorem offS_190 (k : Fin k0_t1_loop.trips) : k0_off190 k = ![32 * k.val + 17, 0] := fin2_eq _ _ _ (offS_190_c k).1 (offS_190_c k).2
theorem offS_192_c : ∀ k : Fin k0_t1_loop.trips, k0_off192 k 0 = 32 * k.val + 17 ∧ k0_off192 k 1 = 16 := by decide +kernel
theorem offS_192 (k : Fin k0_t1_loop.trips) : k0_off192 k = ![32 * k.val + 17, 16] := fin2_eq _ _ _ (offS_192_c k).1 (offS_192_c k).2
theorem offS_194_c : ∀ k : Fin k0_t1_loop.trips, k0_off194 k 0 = 32 * k.val + 17 ∧ k0_off194 k 1 = 32 := by decide +kernel
theorem offS_194 (k : Fin k0_t1_loop.trips) : k0_off194 k = ![32 * k.val + 17, 32] := fin2_eq _ _ _ (offS_194_c k).1 (offS_194_c k).2
theorem offS_196_c : ∀ k : Fin k0_t1_loop.trips, k0_off196 k 0 = 32 * k.val + 17 ∧ k0_off196 k 1 = 48 := by decide +kernel
theorem offS_196 (k : Fin k0_t1_loop.trips) : k0_off196 k = ![32 * k.val + 17, 48] := fin2_eq _ _ _ (offS_196_c k).1 (offS_196_c k).2
theorem offS_198_c : ∀ k : Fin k0_t1_loop.trips, k0_off198 k 0 = 32 * k.val + 18 ∧ k0_off198 k 1 = 0 := by decide +kernel
theorem offS_198 (k : Fin k0_t1_loop.trips) : k0_off198 k = ![32 * k.val + 18, 0] := fin2_eq _ _ _ (offS_198_c k).1 (offS_198_c k).2
theorem offS_200_c : ∀ k : Fin k0_t1_loop.trips, k0_off200 k 0 = 32 * k.val + 18 ∧ k0_off200 k 1 = 16 := by decide +kernel
theorem offS_200 (k : Fin k0_t1_loop.trips) : k0_off200 k = ![32 * k.val + 18, 16] := fin2_eq _ _ _ (offS_200_c k).1 (offS_200_c k).2
theorem offS_202_c : ∀ k : Fin k0_t1_loop.trips, k0_off202 k 0 = 32 * k.val + 18 ∧ k0_off202 k 1 = 32 := by decide +kernel
theorem offS_202 (k : Fin k0_t1_loop.trips) : k0_off202 k = ![32 * k.val + 18, 32] := fin2_eq _ _ _ (offS_202_c k).1 (offS_202_c k).2
theorem offS_204_c : ∀ k : Fin k0_t1_loop.trips, k0_off204 k 0 = 32 * k.val + 18 ∧ k0_off204 k 1 = 48 := by decide +kernel
theorem offS_204 (k : Fin k0_t1_loop.trips) : k0_off204 k = ![32 * k.val + 18, 48] := fin2_eq _ _ _ (offS_204_c k).1 (offS_204_c k).2
theorem offS_206_c : ∀ k : Fin k0_t1_loop.trips, k0_off206 k 0 = 32 * k.val + 19 ∧ k0_off206 k 1 = 0 := by decide +kernel
theorem offS_206 (k : Fin k0_t1_loop.trips) : k0_off206 k = ![32 * k.val + 19, 0] := fin2_eq _ _ _ (offS_206_c k).1 (offS_206_c k).2
theorem offS_208_c : ∀ k : Fin k0_t1_loop.trips, k0_off208 k 0 = 32 * k.val + 19 ∧ k0_off208 k 1 = 16 := by decide +kernel
theorem offS_208 (k : Fin k0_t1_loop.trips) : k0_off208 k = ![32 * k.val + 19, 16] := fin2_eq _ _ _ (offS_208_c k).1 (offS_208_c k).2
theorem offS_210_c : ∀ k : Fin k0_t1_loop.trips, k0_off210 k 0 = 32 * k.val + 19 ∧ k0_off210 k 1 = 32 := by decide +kernel
theorem offS_210 (k : Fin k0_t1_loop.trips) : k0_off210 k = ![32 * k.val + 19, 32] := fin2_eq _ _ _ (offS_210_c k).1 (offS_210_c k).2
theorem offS_212_c : ∀ k : Fin k0_t1_loop.trips, k0_off212 k 0 = 32 * k.val + 19 ∧ k0_off212 k 1 = 48 := by decide +kernel
theorem offS_212 (k : Fin k0_t1_loop.trips) : k0_off212 k = ![32 * k.val + 19, 48] := fin2_eq _ _ _ (offS_212_c k).1 (offS_212_c k).2
theorem offS_214_c : ∀ k : Fin k0_t1_loop.trips, k0_off214 k 0 = 32 * k.val + 20 ∧ k0_off214 k 1 = 0 := by decide +kernel
theorem offS_214 (k : Fin k0_t1_loop.trips) : k0_off214 k = ![32 * k.val + 20, 0] := fin2_eq _ _ _ (offS_214_c k).1 (offS_214_c k).2
theorem offS_216_c : ∀ k : Fin k0_t1_loop.trips, k0_off216 k 0 = 32 * k.val + 20 ∧ k0_off216 k 1 = 16 := by decide +kernel
theorem offS_216 (k : Fin k0_t1_loop.trips) : k0_off216 k = ![32 * k.val + 20, 16] := fin2_eq _ _ _ (offS_216_c k).1 (offS_216_c k).2
theorem offS_218_c : ∀ k : Fin k0_t1_loop.trips, k0_off218 k 0 = 32 * k.val + 20 ∧ k0_off218 k 1 = 32 := by decide +kernel
theorem offS_218 (k : Fin k0_t1_loop.trips) : k0_off218 k = ![32 * k.val + 20, 32] := fin2_eq _ _ _ (offS_218_c k).1 (offS_218_c k).2
theorem offS_220_c : ∀ k : Fin k0_t1_loop.trips, k0_off220 k 0 = 32 * k.val + 20 ∧ k0_off220 k 1 = 48 := by decide +kernel
theorem offS_220 (k : Fin k0_t1_loop.trips) : k0_off220 k = ![32 * k.val + 20, 48] := fin2_eq _ _ _ (offS_220_c k).1 (offS_220_c k).2
theorem offS_222_c : ∀ k : Fin k0_t1_loop.trips, k0_off222 k 0 = 32 * k.val + 21 ∧ k0_off222 k 1 = 0 := by decide +kernel
theorem offS_222 (k : Fin k0_t1_loop.trips) : k0_off222 k = ![32 * k.val + 21, 0] := fin2_eq _ _ _ (offS_222_c k).1 (offS_222_c k).2
theorem offS_224_c : ∀ k : Fin k0_t1_loop.trips, k0_off224 k 0 = 32 * k.val + 21 ∧ k0_off224 k 1 = 16 := by decide +kernel
theorem offS_224 (k : Fin k0_t1_loop.trips) : k0_off224 k = ![32 * k.val + 21, 16] := fin2_eq _ _ _ (offS_224_c k).1 (offS_224_c k).2
theorem offS_226_c : ∀ k : Fin k0_t1_loop.trips, k0_off226 k 0 = 32 * k.val + 21 ∧ k0_off226 k 1 = 32 := by decide +kernel
theorem offS_226 (k : Fin k0_t1_loop.trips) : k0_off226 k = ![32 * k.val + 21, 32] := fin2_eq _ _ _ (offS_226_c k).1 (offS_226_c k).2
theorem offS_228_c : ∀ k : Fin k0_t1_loop.trips, k0_off228 k 0 = 32 * k.val + 21 ∧ k0_off228 k 1 = 48 := by decide +kernel
theorem offS_228 (k : Fin k0_t1_loop.trips) : k0_off228 k = ![32 * k.val + 21, 48] := fin2_eq _ _ _ (offS_228_c k).1 (offS_228_c k).2
theorem offS_230_c : ∀ k : Fin k0_t1_loop.trips, k0_off230 k 0 = 32 * k.val + 22 ∧ k0_off230 k 1 = 0 := by decide +kernel
theorem offS_230 (k : Fin k0_t1_loop.trips) : k0_off230 k = ![32 * k.val + 22, 0] := fin2_eq _ _ _ (offS_230_c k).1 (offS_230_c k).2
theorem offS_232_c : ∀ k : Fin k0_t1_loop.trips, k0_off232 k 0 = 32 * k.val + 22 ∧ k0_off232 k 1 = 16 := by decide +kernel
theorem offS_232 (k : Fin k0_t1_loop.trips) : k0_off232 k = ![32 * k.val + 22, 16] := fin2_eq _ _ _ (offS_232_c k).1 (offS_232_c k).2
theorem offS_234_c : ∀ k : Fin k0_t1_loop.trips, k0_off234 k 0 = 32 * k.val + 22 ∧ k0_off234 k 1 = 32 := by decide +kernel
theorem offS_234 (k : Fin k0_t1_loop.trips) : k0_off234 k = ![32 * k.val + 22, 32] := fin2_eq _ _ _ (offS_234_c k).1 (offS_234_c k).2
theorem offS_236_c : ∀ k : Fin k0_t1_loop.trips, k0_off236 k 0 = 32 * k.val + 22 ∧ k0_off236 k 1 = 48 := by decide +kernel
theorem offS_236 (k : Fin k0_t1_loop.trips) : k0_off236 k = ![32 * k.val + 22, 48] := fin2_eq _ _ _ (offS_236_c k).1 (offS_236_c k).2
theorem offS_238_c : ∀ k : Fin k0_t1_loop.trips, k0_off238 k 0 = 32 * k.val + 23 ∧ k0_off238 k 1 = 0 := by decide +kernel
theorem offS_238 (k : Fin k0_t1_loop.trips) : k0_off238 k = ![32 * k.val + 23, 0] := fin2_eq _ _ _ (offS_238_c k).1 (offS_238_c k).2
theorem offS_240_c : ∀ k : Fin k0_t1_loop.trips, k0_off240 k 0 = 32 * k.val + 23 ∧ k0_off240 k 1 = 16 := by decide +kernel
theorem offS_240 (k : Fin k0_t1_loop.trips) : k0_off240 k = ![32 * k.val + 23, 16] := fin2_eq _ _ _ (offS_240_c k).1 (offS_240_c k).2
theorem offS_242_c : ∀ k : Fin k0_t1_loop.trips, k0_off242 k 0 = 32 * k.val + 23 ∧ k0_off242 k 1 = 32 := by decide +kernel
theorem offS_242 (k : Fin k0_t1_loop.trips) : k0_off242 k = ![32 * k.val + 23, 32] := fin2_eq _ _ _ (offS_242_c k).1 (offS_242_c k).2
theorem offS_244_c : ∀ k : Fin k0_t1_loop.trips, k0_off244 k 0 = 32 * k.val + 23 ∧ k0_off244 k 1 = 48 := by decide +kernel
theorem offS_244 (k : Fin k0_t1_loop.trips) : k0_off244 k = ![32 * k.val + 23, 48] := fin2_eq _ _ _ (offS_244_c k).1 (offS_244_c k).2
theorem offS_246_c : ∀ k : Fin k0_t1_loop.trips, k0_off246 k 0 = 32 * k.val + 24 ∧ k0_off246 k 1 = 0 := by decide +kernel
theorem offS_246 (k : Fin k0_t1_loop.trips) : k0_off246 k = ![32 * k.val + 24, 0] := fin2_eq _ _ _ (offS_246_c k).1 (offS_246_c k).2
theorem offS_248_c : ∀ k : Fin k0_t1_loop.trips, k0_off248 k 0 = 32 * k.val + 24 ∧ k0_off248 k 1 = 16 := by decide +kernel
theorem offS_248 (k : Fin k0_t1_loop.trips) : k0_off248 k = ![32 * k.val + 24, 16] := fin2_eq _ _ _ (offS_248_c k).1 (offS_248_c k).2
theorem offS_250_c : ∀ k : Fin k0_t1_loop.trips, k0_off250 k 0 = 32 * k.val + 24 ∧ k0_off250 k 1 = 32 := by decide +kernel
theorem offS_250 (k : Fin k0_t1_loop.trips) : k0_off250 k = ![32 * k.val + 24, 32] := fin2_eq _ _ _ (offS_250_c k).1 (offS_250_c k).2
theorem offS_252_c : ∀ k : Fin k0_t1_loop.trips, k0_off252 k 0 = 32 * k.val + 24 ∧ k0_off252 k 1 = 48 := by decide +kernel
theorem offS_252 (k : Fin k0_t1_loop.trips) : k0_off252 k = ![32 * k.val + 24, 48] := fin2_eq _ _ _ (offS_252_c k).1 (offS_252_c k).2
theorem offS_254_c : ∀ k : Fin k0_t1_loop.trips, k0_off254 k 0 = 32 * k.val + 25 ∧ k0_off254 k 1 = 0 := by decide +kernel
theorem offS_254 (k : Fin k0_t1_loop.trips) : k0_off254 k = ![32 * k.val + 25, 0] := fin2_eq _ _ _ (offS_254_c k).1 (offS_254_c k).2
theorem offS_256_c : ∀ k : Fin k0_t1_loop.trips, k0_off256 k 0 = 32 * k.val + 25 ∧ k0_off256 k 1 = 16 := by decide +kernel
theorem offS_256 (k : Fin k0_t1_loop.trips) : k0_off256 k = ![32 * k.val + 25, 16] := fin2_eq _ _ _ (offS_256_c k).1 (offS_256_c k).2
theorem offS_258_c : ∀ k : Fin k0_t1_loop.trips, k0_off258 k 0 = 32 * k.val + 25 ∧ k0_off258 k 1 = 32 := by decide +kernel
theorem offS_258 (k : Fin k0_t1_loop.trips) : k0_off258 k = ![32 * k.val + 25, 32] := fin2_eq _ _ _ (offS_258_c k).1 (offS_258_c k).2
theorem offS_260_c : ∀ k : Fin k0_t1_loop.trips, k0_off260 k 0 = 32 * k.val + 25 ∧ k0_off260 k 1 = 48 := by decide +kernel
theorem offS_260 (k : Fin k0_t1_loop.trips) : k0_off260 k = ![32 * k.val + 25, 48] := fin2_eq _ _ _ (offS_260_c k).1 (offS_260_c k).2
theorem offS_262_c : ∀ k : Fin k0_t1_loop.trips, k0_off262 k 0 = 32 * k.val + 26 ∧ k0_off262 k 1 = 0 := by decide +kernel
theorem offS_262 (k : Fin k0_t1_loop.trips) : k0_off262 k = ![32 * k.val + 26, 0] := fin2_eq _ _ _ (offS_262_c k).1 (offS_262_c k).2
theorem offS_264_c : ∀ k : Fin k0_t1_loop.trips, k0_off264 k 0 = 32 * k.val + 26 ∧ k0_off264 k 1 = 16 := by decide +kernel
theorem offS_264 (k : Fin k0_t1_loop.trips) : k0_off264 k = ![32 * k.val + 26, 16] := fin2_eq _ _ _ (offS_264_c k).1 (offS_264_c k).2
theorem offS_266_c : ∀ k : Fin k0_t1_loop.trips, k0_off266 k 0 = 32 * k.val + 26 ∧ k0_off266 k 1 = 32 := by decide +kernel
theorem offS_266 (k : Fin k0_t1_loop.trips) : k0_off266 k = ![32 * k.val + 26, 32] := fin2_eq _ _ _ (offS_266_c k).1 (offS_266_c k).2
theorem offS_268_c : ∀ k : Fin k0_t1_loop.trips, k0_off268 k 0 = 32 * k.val + 26 ∧ k0_off268 k 1 = 48 := by decide +kernel
theorem offS_268 (k : Fin k0_t1_loop.trips) : k0_off268 k = ![32 * k.val + 26, 48] := fin2_eq _ _ _ (offS_268_c k).1 (offS_268_c k).2
theorem offS_270_c : ∀ k : Fin k0_t1_loop.trips, k0_off270 k 0 = 32 * k.val + 27 ∧ k0_off270 k 1 = 0 := by decide +kernel
theorem offS_270 (k : Fin k0_t1_loop.trips) : k0_off270 k = ![32 * k.val + 27, 0] := fin2_eq _ _ _ (offS_270_c k).1 (offS_270_c k).2
theorem offS_272_c : ∀ k : Fin k0_t1_loop.trips, k0_off272 k 0 = 32 * k.val + 27 ∧ k0_off272 k 1 = 16 := by decide +kernel
theorem offS_272 (k : Fin k0_t1_loop.trips) : k0_off272 k = ![32 * k.val + 27, 16] := fin2_eq _ _ _ (offS_272_c k).1 (offS_272_c k).2
theorem offS_274_c : ∀ k : Fin k0_t1_loop.trips, k0_off274 k 0 = 32 * k.val + 27 ∧ k0_off274 k 1 = 32 := by decide +kernel
theorem offS_274 (k : Fin k0_t1_loop.trips) : k0_off274 k = ![32 * k.val + 27, 32] := fin2_eq _ _ _ (offS_274_c k).1 (offS_274_c k).2
theorem offS_276_c : ∀ k : Fin k0_t1_loop.trips, k0_off276 k 0 = 32 * k.val + 27 ∧ k0_off276 k 1 = 48 := by decide +kernel
theorem offS_276 (k : Fin k0_t1_loop.trips) : k0_off276 k = ![32 * k.val + 27, 48] := fin2_eq _ _ _ (offS_276_c k).1 (offS_276_c k).2
theorem offS_278_c : ∀ k : Fin k0_t1_loop.trips, k0_off278 k 0 = 32 * k.val + 28 ∧ k0_off278 k 1 = 0 := by decide +kernel
theorem offS_278 (k : Fin k0_t1_loop.trips) : k0_off278 k = ![32 * k.val + 28, 0] := fin2_eq _ _ _ (offS_278_c k).1 (offS_278_c k).2
theorem offS_280_c : ∀ k : Fin k0_t1_loop.trips, k0_off280 k 0 = 32 * k.val + 28 ∧ k0_off280 k 1 = 16 := by decide +kernel
theorem offS_280 (k : Fin k0_t1_loop.trips) : k0_off280 k = ![32 * k.val + 28, 16] := fin2_eq _ _ _ (offS_280_c k).1 (offS_280_c k).2
theorem offS_282_c : ∀ k : Fin k0_t1_loop.trips, k0_off282 k 0 = 32 * k.val + 28 ∧ k0_off282 k 1 = 32 := by decide +kernel
theorem offS_282 (k : Fin k0_t1_loop.trips) : k0_off282 k = ![32 * k.val + 28, 32] := fin2_eq _ _ _ (offS_282_c k).1 (offS_282_c k).2
theorem offS_284_c : ∀ k : Fin k0_t1_loop.trips, k0_off284 k 0 = 32 * k.val + 28 ∧ k0_off284 k 1 = 48 := by decide +kernel
theorem offS_284 (k : Fin k0_t1_loop.trips) : k0_off284 k = ![32 * k.val + 28, 48] := fin2_eq _ _ _ (offS_284_c k).1 (offS_284_c k).2
theorem offS_286_c : ∀ k : Fin k0_t1_loop.trips, k0_off286 k 0 = 32 * k.val + 29 ∧ k0_off286 k 1 = 0 := by decide +kernel
theorem offS_286 (k : Fin k0_t1_loop.trips) : k0_off286 k = ![32 * k.val + 29, 0] := fin2_eq _ _ _ (offS_286_c k).1 (offS_286_c k).2
theorem offS_288_c : ∀ k : Fin k0_t1_loop.trips, k0_off288 k 0 = 32 * k.val + 29 ∧ k0_off288 k 1 = 16 := by decide +kernel
theorem offS_288 (k : Fin k0_t1_loop.trips) : k0_off288 k = ![32 * k.val + 29, 16] := fin2_eq _ _ _ (offS_288_c k).1 (offS_288_c k).2
theorem offS_290_c : ∀ k : Fin k0_t1_loop.trips, k0_off290 k 0 = 32 * k.val + 29 ∧ k0_off290 k 1 = 32 := by decide +kernel
theorem offS_290 (k : Fin k0_t1_loop.trips) : k0_off290 k = ![32 * k.val + 29, 32] := fin2_eq _ _ _ (offS_290_c k).1 (offS_290_c k).2
theorem offS_292_c : ∀ k : Fin k0_t1_loop.trips, k0_off292 k 0 = 32 * k.val + 29 ∧ k0_off292 k 1 = 48 := by decide +kernel
theorem offS_292 (k : Fin k0_t1_loop.trips) : k0_off292 k = ![32 * k.val + 29, 48] := fin2_eq _ _ _ (offS_292_c k).1 (offS_292_c k).2
theorem offS_294_c : ∀ k : Fin k0_t1_loop.trips, k0_off294 k 0 = 32 * k.val + 30 ∧ k0_off294 k 1 = 0 := by decide +kernel
theorem offS_294 (k : Fin k0_t1_loop.trips) : k0_off294 k = ![32 * k.val + 30, 0] := fin2_eq _ _ _ (offS_294_c k).1 (offS_294_c k).2
theorem offS_296_c : ∀ k : Fin k0_t1_loop.trips, k0_off296 k 0 = 32 * k.val + 30 ∧ k0_off296 k 1 = 16 := by decide +kernel
theorem offS_296 (k : Fin k0_t1_loop.trips) : k0_off296 k = ![32 * k.val + 30, 16] := fin2_eq _ _ _ (offS_296_c k).1 (offS_296_c k).2
theorem offS_298_c : ∀ k : Fin k0_t1_loop.trips, k0_off298 k 0 = 32 * k.val + 30 ∧ k0_off298 k 1 = 32 := by decide +kernel
theorem offS_298 (k : Fin k0_t1_loop.trips) : k0_off298 k = ![32 * k.val + 30, 32] := fin2_eq _ _ _ (offS_298_c k).1 (offS_298_c k).2
theorem offS_300_c : ∀ k : Fin k0_t1_loop.trips, k0_off300 k 0 = 32 * k.val + 30 ∧ k0_off300 k 1 = 48 := by decide +kernel
theorem offS_300 (k : Fin k0_t1_loop.trips) : k0_off300 k = ![32 * k.val + 30, 48] := fin2_eq _ _ _ (offS_300_c k).1 (offS_300_c k).2
theorem offS_302_c : ∀ k : Fin k0_t1_loop.trips, k0_off302 k 0 = 32 * k.val + 31 ∧ k0_off302 k 1 = 0 := by decide +kernel
theorem offS_302 (k : Fin k0_t1_loop.trips) : k0_off302 k = ![32 * k.val + 31, 0] := fin2_eq _ _ _ (offS_302_c k).1 (offS_302_c k).2
theorem offS_304_c : ∀ k : Fin k0_t1_loop.trips, k0_off304 k 0 = 32 * k.val + 31 ∧ k0_off304 k 1 = 16 := by decide +kernel
theorem offS_304 (k : Fin k0_t1_loop.trips) : k0_off304 k = ![32 * k.val + 31, 16] := fin2_eq _ _ _ (offS_304_c k).1 (offS_304_c k).2
theorem offS_306_c : ∀ k : Fin k0_t1_loop.trips, k0_off306 k 0 = 32 * k.val + 31 ∧ k0_off306 k 1 = 32 := by decide +kernel
theorem offS_306 (k : Fin k0_t1_loop.trips) : k0_off306 k = ![32 * k.val + 31, 32] := fin2_eq _ _ _ (offS_306_c k).1 (offS_306_c k).2
theorem offS_308_c : ∀ k : Fin k0_t1_loop.trips, k0_off308 k 0 = 32 * k.val + 31 ∧ k0_off308 k 1 = 48 := by decide +kernel
theorem offS_308 (k : Fin k0_t1_loop.trips) : k0_off308 k = ![32 * k.val + 31, 48] := fin2_eq _ _ _ (offS_308_c k).1 (offS_308_c k).2

theorem wAt_eq (g1 : S512.Idx → BitVec 32) (g j n : Nat) (hn : n < 512) (e : 16 * g + j = n) :
    wAt g1 g j = g1 (ValueIdx.ix1 ⟨n, hn⟩) := by
  subst e
  unfold wAt
  refine congrArg g1 (congrArg ValueIdx.ix1 (Fin.ext ?_))
  simp [Fin.ofNat, Nat.mod_eq_of_lt hn]

end Cert.KTile

end
-- ==== Proof.RegionAK.lean ====
import proofs.«207235_g30958124269674_cont_8to1_b_889_24_alg».proof.Proof.InvK
import proofs.«207235_g30958124269674_cont_8to1_b_889_24_alg».proof.Proof.ValueK
import proofs.«207235_g30958124269674_cont_8to1_b_889_24_alg».proof.Proof.ConvertK
import proofs.«207235_g30958124269674_cont_8to1_b_889_24_alg».proof.Proof.OffsK

/-! One trip of the loop keeps the invariant: the first half's slabs land, their sixteen rows are picked into the row
    scratch, the next group is fetched into the first half (unless this is the last trip); the same for the second half. -/

noncomputable section

namespace Cert.KTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The slab check at a word `w'` that is `w` under a wrapper. -/
theorem slab_ok' (w w' : BitVec 32) (e : w' = w) (h : Slab w) :
    (8 ∣ w'.toNat) ∧ (∀ a, (![w.toNat, 0] : Fin 2 → Nat) a + S8x64.size a ≤ S1000000x64.size a) :=
  e ▸ slab_ok w h

theorem slab_ok_g' (C : Prop) (w w' : BitVec 32) (e : w' = w) (h : Slab w) :
    (∀ _ : C, 8 ∣ w'.toNat) ∧ (∀ _ : C, ∀ a, (![w.toNat, 0] : Fin 2 → Nat) a + S8x64.size a ≤ S1000000x64.size a) :=
  e ▸ slab_ok_g C w h

/-- The row check at a word under the index cast. -/
theorem row_ok4' (h k : Nat) (hh : h < 2) (hk : k < 16) (w : BitVec 32) (w' : Index) (e : w' = Scalar.indexCast w) (hr : w.toNat < 8) :
    (∀ a, (![h, k, w'.toNat, 0] : Fin 4 → Nat) a + S1x1x1x16.size a ≤ S2x16x8x64.size a) ∧
    (∀ a, (![h, k, w'.toNat, 16] : Fin 4 → Nat) a + S1x1x1x16.size a ≤ S2x16x8x64.size a) ∧
    (∀ a, (![h, k, w'.toNat, 32] : Fin 4 → Nat) a + S1x1x1x16.size a ≤ S2x16x8x64.size a) ∧
    (∀ a, (![h, k, w'.toNat, 48] : Fin 4 → Nat) a + S1x1x1x16.size a ≤ S2x16x8x64.size a) :=
  e ▸ row_ok4 h k hh hk _ hr

theorem hc1all : ∀ k : Fin k0_t1_loop.trips, k.val < 15 → k0_cond1 k = 1#1 := by decide +kernel
theorem hc2all : ∀ k : Fin k0_t1_loop.trips, k.val < 15 → k0_cond2 k = 1#1 := by decide +kernel

theorem writes_pair {sig' : RefSig} {κ : Kind} {sp : Space} {s : Shape} {e : EltTy} (v : View sig' κ sp s e)
    (f : v.ty.Contents (Elt F)) (a b : View.Piece (Elt F) s e) :
    v.writes (Elt F) f [a, b] = v.writes (Elt F) (v.writes (Elt F) f [b]) [a] := rfl

set_option maxHeartbeats 4000000 in
theorem region_lt {d : Dev nD} (L : grid0.Coords) (q : PosShare TreeShare) (O : CellTallies nD τ sig (HIx 1)) (W : Waits sig (HIx 1))
    (fI : Buf (Elt F) (iLoc d)) (fT : Buf (Elt F) (tLoc d)) (fO : Buf (Elt F) (oLoc d))
    (f4 : Buf (Elt F) ((thr d L).loc cc0_scratch4)) (g1 g2 : S512.Idx → BitVec 32)
    (hS1 : ∀ p, Slab (g1 p)) (hR2 : ∀ p, (g2 p).toNat < 8)
    (hidx : ∀ j : S16384.Idx, (fI j).toNat ≤ 999999) (hg1 : g1 = G1 (F := F) L fI) (hg2 : g2 = G2 (F := F) L fI)
    (k : Fin k0_t1_loop.trips) (acc : PUnit) (hk15 : k.val < 15) :
    inv (F := F) d L q O W fI fT fO f4 g1 g2 hS1 k acc
      ⊢ wp frame (wpE (defs₀ (F := F)) 𝒱₀ (thr d L) none) Set.univ
          (k0_t1_body (F := F) L iV (Memref.isWhole_whole _) tV (Memref.isWhole_whole _) oV (Memref.isWhole_whole _)
            s0 (Memref.isWhole_whole _) s1 (Memref.isWhole_whole _) s2 (Memref.isWhole_whole _) s3 (Memref.isWhole_whole _)
            s4 (Memref.isWhole_whole _) cc0_scratch5 cc0_scratch6 cc0_scoped0 cc0_scoped1 (0#32) k acc)
          (inv (F := F) d L q O W fI fT fO f4 g1 g2 hS1 (k.val + 1)) := by
  have hk16 : k.val < 16 := trips_le k
  have hc1 := hc1all k hk15
  have hc2 := hc2all k hk15
  have hb10 : Transfers.BatchOf (thr d L) (SemLoc.dma cc0_scratch5.sem : SemLoc sig) 16 := trivial
  have hb11 : Transfers.BatchOf (thr d L) (SemLoc.dma cc0_scratch6.sem : SemLoc sig) 16 := trivial
  have hA' : ∀ (R : Rect S512) (h : R.shape.ShapeCasts S16) (j : Nat) (hS : S16.Slices ![j] S1) (h' : ∀ a, (![0] : Fin 1 → Nat) a < S1.size a),
      Slab (extractAt ![0] (extractStridedSlice S1 ![j] (shapeCast S16 (View.readAt (Elt F) s1.view R.toLoadRect g1) h) hS) h') :=
    fun R h j hS h' => lane_slab _ (fun x => hS1 _) j hS h'
  have hR' : ∀ (R : Rect S512) (h : R.shape.ShapeCasts S16) (j : Nat) (hS : S16.Slices ![j] S1) (h' : ∀ a, (![0] : Fin 1 → Nat) a < S1.size a),
      (extractAt ![0] (extractStridedSlice S1 ![j] (shapeCast S16 (View.readAt (Elt F) s2.view R.toLoadRect g2) h) hS) h').toNat < 8 :=
    fun R h j hS h' => lane_lt _ (fun x => hR2 _) j hS h'
  delta inv
  rw [if_pos hk16]
  delta invBase rests flight0 flight1
  iintro ⟨⟨#Hmw, Hi, Ho, ⟨%g0, H0⟩, H1, H2, ⟨%g3_0, %hD, H3⟩, Hs7, Hs8, ⟨%W', %hW', HO⟩⟩, ⟨-, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31⟩, Hs5, Hs6⟩
  have hD_0 : Done (F := F) L fI fT (32 * k.val + 0) g3_0 := hD
  sl_unfold [k0_t1_body]
  sl_exec_parts (disch := first | exact slab_ok_g' _ _ _ rfl (hA' _ _ _ _ _) | (refine row_ok4' _ _ ?_ ?_ _ _ rfl (hR' _ _ _ _ _) <;> decide))
  have hin : ∀ (r c : Nat) (inb : ∀ a, (![0, 0, r, c] : Fin 4 → Nat) a + S1x1x1x16.size a ≤ S2x16x8x64.size a),
      (s4 : Memref sig .scVector .vmem S2x16x8x64 .f32).view.setOn (Rect.unit (s := S2x16x8x64) ![0, 0, r, c] S1x1x1x16.size inb).set ⊆ slot0_0.view.set :=
    fun r c inb => row_in_slot 0 0 r c inb inb_S2x16x8x64_S1x1x8x64_0_0_0_0
  sl_exec_parts (disch := (refine row_ok4' _ _ ?_ ?_ _ _ rfl (hR' _ _ _ _ _) <;> decide))
  clear hin
  have hr_0_0 : region_lt.sl.v783 (F := F) g2 k = g2 (ValueIdx.ix1 ⟨32 * k.val + 0, by omega⟩) :=
    (word_of_load2 (F := F) g2 (k0_off34 k) _ 0 (by decide) _ _ _).trans
      (congrArg g2 (congrArg ValueIdx.ix1 (Fin.ext (by have h := off34 k; show k0_off34 k 0 + 0 = 32 * k.val + 0; omega))))
  generalize hq0 : View.writes (s3 : Memref sig .scVector .vmem S512x64 .f32).view (Elt F) g3_0 _ = g3_1
  have hD_1 : Done (F := F) L fI fT (32 * k.val + 1) g3_1 := by
    rw [← hq0]
    exact lane_done4' (F := F) L fI fT hidx (32 * k.val + 0) _ rfl g3_0 hD_0
      (k0_off36 k) (k0_off38 k) (k0_off40 k) (k0_off42 k) (offS_36 k) (offS_38 k) (offS_40 k) (offS_42 k) _ _ _ _ _ _ _ _
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 0 _ rfl _ _ (offS_36 k) _ _ _ x)
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 16 _ rfl _ _ (offS_38 k) _ _ _ x)
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 32 _ rfl _ _ (offS_40 k) _ _ _ x)
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 48 _ rfl _ _ (offS_42 k) _ _ _ x)
  clear hq0 hD_0 hr_0_0
  have hin : ∀ (r c : Nat) (inb : ∀ a, (![0, 1, r, c] : Fin 4 → Nat) a + S1x1x1x16.size a ≤ S2x16x8x64.size a),
      (s4 : Memref sig .scVector .vmem S2x16x8x64 .f32).view.setOn (Rect.unit (s := S2x16x8x64) ![0, 1, r, c] S1x1x1x16.size inb).set ⊆ slot0_1.view.set :=
    fun r c inb => row_in_slot 0 1 r c inb inb_S2x16x8x64_S1x1x8x64_0_1_0_0
  sl_exec_parts (disch := (refine row_ok4' _ _ ?_ ?_ _ _ rfl (hR' _ _ _ _ _) <;> decide))
  clear hin
  have hr_0_1 : region_lt.sl.v823 (F := F) g2 k = g2 (ValueIdx.ix1 ⟨32 * k.val + 1, by omega⟩) :=
    (word_of_load2 (F := F) g2 (k0_off34 k) _ 1 (by decide) _ _ _).trans
      (congrArg g2 (congrArg ValueIdx.ix1 (Fin.ext (by have h := off34 k; show k0_off34 k 0 + 1 = 32 * k.val + 1; omega))))
  generalize hq1 : View.writes (s3 : Memref sig .scVector .vmem S512x64 .f32).view (Elt F) g3_1 _ = g3_2
  have hD_2 : Done (F := F) L fI fT (32 * k.val + 2) g3_2 := by
    rw [← hq1]
    exact lane_done4' (F := F) L fI fT hidx (32 * k.val + 1) _ rfl g3_1 hD_1
      (k0_off44 k) (k0_off46 k) (k0_off48 k) (k0_off50 k) (offS_44 k) (offS_46 k) (offS_48 k) (offS_50 k) _ _ _ _ _ _ _ _
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 0 _ rfl _ _ (offS_44 k) _ _ _ x)
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 16 _ rfl _ _ (offS_46 k) _ _ _ x)
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 32 _ rfl _ _ (offS_48 k) _ _ _ x)
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 48 _ rfl _ _ (offS_50 k) _ _ _ x)
  clear hq1 hD_1 hr_0_1
  have hin : ∀ (r c : Nat) (inb : ∀ a, (![0, 2, r, c] : Fin 4 → Nat) a + S1x1x1x16.size a ≤ S2x16x8x64.size a),
      (s4 : Memref sig .scVector .vmem S2x16x8x64 .f32).view.setOn (Rect.unit (s := S2x16x8x64) ![0, 2, r, c] S1x1x1x16.size inb).set ⊆ slot0_2.view.set :=
    fun r c inb => row_in_slot 0 2 r c inb inb_S2x16x8x64_S1x1x8x64_0_2_0_0
  sl_exec_parts (disch := (refine row_ok4' _ _ ?_ ?_ _ _ rfl (hR' _ _ _ _ _) <;> decide))
  clear hin
  have hr_0_2 : region_lt.sl.v863 (F := F) g2 k = g2 (ValueIdx.ix1 ⟨32 * k.val + 2, by omega⟩) :=
    (word_of_load2 (F := F) g2 (k0_off34 k) _ 2 (by decide) _ _ _).trans
      (congrArg g2 (congrArg ValueIdx.ix1 (Fin.ext (by have h := off34 k; show k0_off34 k 0 + 2 = 32 * k.val + 2; omega))))
  generalize hq2 : View.writes (s3 : Memref sig .scVector .vmem S512x64 .f32).view (Elt F) g3_2 _ = g3_3
  have hD_3 : Done (F := F) L fI fT (32 * k.val + 3) g3_3 := by
    rw [← hq2]
    exact lane_done4' (F := F) L fI fT hidx (32 * k.val + 2) _ rfl g3_2 hD_2
      (k0_off52 k) (k0_off54 k) (k0_off56 k) (k0_off58 k) (offS_52 k) (offS_54 k) (offS_56 k) (offS_58 k) _ _ _ _ _ _ _ _
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 0 _ rfl _ _ (offS_52 k) _ _ _ x)
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 16 _ rfl _ _ (offS_54 k) _ _ _ x)
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 32 _ rfl _ _ (offS_56 k) _ _ _ x)
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 48 _ rfl _ _ (offS_58 k) _ _ _ x)
  clear hq2 hD_2 hr_0_2
  have hin : ∀ (r c : Nat) (inb : ∀ a, (![0, 3, r, c] : Fin 4 → Nat) a + S1x1x1x16.size a ≤ S2x16x8x64.size a),
      (s4 : Memref sig .scVector .vmem S2x16x8x64 .f32).view.setOn (Rect.unit (s := S2x16x8x64) ![0, 3, r, c] S1x1x1x16.size inb).set ⊆ slot0_3.view.set :=
    fun r c inb => row_in_slot 0 3 r c inb inb_S2x16x8x64_S1x1x8x64_0_3_0_0
  sl_exec_parts (disch := (refine row_ok4' _ _ ?_ ?_ _ _ rfl (hR' _ _ _ _ _) <;> decide))
  clear hin
  have hr_0_3 : region_lt.sl.v903 (F := F) g2 k = g2 (ValueIdx.ix1 ⟨32 * k.val + 3, by omega⟩) :=
    (word_of_load2 (F := F) g2 (k0_off34 k) _ 3 (by decide) _ _ _).trans
      (congrArg g2 (congrArg ValueIdx.ix1 (Fin.ext (by have h := off34 k; show k0_off34 k 0 + 3 = 32 * k.val + 3; omega))))
  generalize hq3 : View.writes (s3 : Memref sig .scVector .vmem S512x64 .f32).view (Elt F) g3_3 _ = g3_4
  have hD_4 : Done (F := F) L fI fT (32 * k.val + 4) g3_4 := by
    rw [← hq3]
    exact lane_done4' (F := F) L fI fT hidx (32 * k.val + 3) _ rfl g3_3 hD_3
      (k0_off60 k) (k0_off62 k) (k0_off64 k) (k0_off66 k) (offS_60 k) (offS_62 k) (offS_64 k) (offS_66 k) _ _ _ _ _ _ _ _
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 0 _ rfl _ _ (offS_60 k) _ _ _ x)
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 16 _ rfl _ _ (offS_62 k) _ _ _ x)
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 32 _ rfl _ _ (offS_64 k) _ _ _ x)
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 48 _ rfl _ _ (offS_66 k) _ _ _ x)
  clear hq3 hD_3 hr_0_3
  have hin : ∀ (r c : Nat) (inb : ∀ a, (![0, 4, r, c] : Fin 4 → Nat) a + S1x1x1x16.size a ≤ S2x16x8x64.size a),
      (s4 : Memref sig .scVector .vmem S2x16x8x64 .f32).view.setOn (Rect.unit (s := S2x16x8x64) ![0, 4, r, c] S1x1x1x16.size inb).set ⊆ slot0_4.view.set :=
    fun r c inb => row_in_slot 0 4 r c inb inb_S2x16x8x64_S1x1x8x64_0_4_0_0
  sl_exec_parts (disch := (refine row_ok4' _ _ ?_ ?_ _ _ rfl (hR' _ _ _ _ _) <;> decide))
  clear hin
  have hr_0_4 : region_lt.sl.v943 (F := F) g2 k = g2 (ValueIdx.ix1 ⟨32 * k.val + 4, by omega⟩) :=
    (word_of_load2 (F := F) g2 (k0_off34 k) _ 4 (by decide) _ _ _).trans
      (congrArg g2 (congrArg ValueIdx.ix1 (Fin.ext (by have h := off34 k; show k0_off34 k 0 + 4 = 32 * k.val + 4; omega))))
  generalize hq4 : View.writes (s3 : Memref sig .scVector .vmem S512x64 .f32).view (Elt F) g3_4 _ = g3_5
  have hD_5 : Done (F := F) L fI fT (32 * k.val + 5) g3_5 := by
    rw [← hq4]
    exact lane_done4' (F := F) L fI fT hidx (32 * k.val + 4) _ rfl g3_4 hD_4
      (k0_off68 k) (k0_off70 k) (k0_off72 k) (k0_off74 k) (offS_68 k) (offS_70 k) (offS_72 k) (offS_74 k) _ _ _ _ _ _ _ _
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 0 _ rfl _ _ (offS_68 k) _ _ _ x)
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 16 _ rfl _ _ (offS_70 k) _ _ _ x)
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 32 _ rfl _ _ (offS_72 k) _ _ _ x)
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 48 _ rfl _ _ (offS_74 k) _ _ _ x)
  clear hq4 hD_4 hr_0_4
  have hin : ∀ (r c : Nat) (inb : ∀ a, (![0, 5, r, c] : Fin 4 → Nat) a + S1x1x1x16.size a ≤ S2x16x8x64.size a),
      (s4 : Memref sig .scVector .vmem S2x16x8x64 .f32).view.setOn (Rect.unit (s := S2x16x8x64) ![0, 5, r, c] S1x1x1x16.size inb).set ⊆ slot0_5.view.set :=
    fun r c inb => row_in_slot 0 5 r c inb inb_S2x16x8x64_S1x1x8x64_0_5_0_0
  sl_exec_parts (disch := (refine row_ok4' _ _ ?_ ?_ _ _ rfl (hR' _ _ _ _ _) <;> decide))
  clear hin
  have hr_0_5 : region_lt.sl.v983 (F := F) g2 k = g2 (ValueIdx.ix1 ⟨32 * k.val + 5, by omega⟩) :=
    (word_of_load2 (F := F) g2 (k0_off34 k) _ 5 (by decide) _ _ _).trans
      (congrArg g2 (congrArg ValueIdx.ix1 (Fin.ext (by have h := off34 k; show k0_off34 k 0 + 5 = 32 * k.val + 5; omega))))
  generalize hq5 : View.writes (s3 : Memref sig .scVector .vmem S512x64 .f32).view (Elt F) g3_5 _ = g3_6
  have hD_6 : Done (F := F) L fI fT (32 * k.val + 6) g3_6 := by
    rw [← hq5]
    exact lane_done4' (F := F) L fI fT hidx (32 * k.val + 5) _ rfl g3_5 hD_5
      (k0_off76 k) (k0_off78 k) (k0_off80 k) (k0_off82 k) (offS_76 k) (offS_78 k) (offS_80 k) (offS_82 k) _ _ _ _ _ _ _ _
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 0 _ rfl _ _ (offS_76 k) _ _ _ x)
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 16 _ rfl _ _ (offS_78 k) _ _ _ x)
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 32 _ rfl _ _ (offS_80 k) _ _ _ x)
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 48 _ rfl _ _ (offS_82 k) _ _ _ x)
  clear hq5 hD_5 hr_0_5
  have hin : ∀ (r c : Nat) (inb : ∀ a, (![0, 6, r, c] : Fin 4 → Nat) a + S1x1x1x16.size a ≤ S2x16x8x64.size a),
      (s4 : Memref sig .scVector .vmem S2x16x8x64 .f32).view.setOn (Rect.unit (s := S2x16x8x64) ![0, 6, r, c] S1x1x1x16.size inb).set ⊆ slot0_6.view.set :=
    fun r c inb => row_in_slot 0 6 r c inb inb_S2x16x8x64_S1x1x8x64_0_6_0_0
  sl_exec_parts (disch := (refine row_ok4' _ _ ?_ ?_ _ _ rfl (hR' _ _ _ _ _) <;> decide))
  clear hin
  have hr_0_6 : region_lt.sl.v1023 (F := F) g2 k = g2 (ValueIdx.ix1 ⟨32 * k.val + 6, by omega⟩) :=
    (word_of_load2 (F := F) g2 (k0_off34 k) _ 6 (by decide) _ _ _).trans
      (congrArg g2 (congrArg ValueIdx.ix1 (Fin.ext (by have h := off34 k; show k0_off34 k 0 + 6 = 32 * k.val + 6; omega))))
  generalize hq6 : View.writes (s3 : Memref sig .scVector .vmem S512x64 .f32).view (Elt F) g3_6 _ = g3_7
  have hD_7 : Done (F := F) L fI fT (32 * k.val + 7) g3_7 := by
    rw [← hq6]
    exact lane_done4' (F := F) L fI fT hidx (32 * k.val + 6) _ rfl g3_6 hD_6
      (k0_off84 k) (k0_off86 k) (k0_off88 k) (k0_off90 k) (offS_84 k) (offS_86 k) (offS_88 k) (offS_90 k) _ _ _ _ _ _ _ _
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 0 _ rfl _ _ (offS_84 k) _ _ _ x)
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 16 _ rfl _ _ (offS_86 k) _ _ _ x)
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 32 _ rfl _ _ (offS_88 k) _ _ _ x)
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 48 _ rfl _ _ (offS_90 k) _ _ _ x)
  clear hq6 hD_6 hr_0_6
  have hin : ∀ (r c : Nat) (inb : ∀ a, (![0, 7, r, c] : Fin 4 → Nat) a + S1x1x1x16.size a ≤ S2x16x8x64.size a),
      (s4 : Memref sig .scVector .vmem S2x16x8x64 .f32).view.setOn (Rect.unit (s := S2x16x8x64) ![0, 7, r, c] S1x1x1x16.size inb).set ⊆ slot0_7.view.set :=
    fun r c inb => row_in_slot 0 7 r c inb inb_S2x16x8x64_S1x1x8x64_0_7_0_0
  sl_exec_parts (disch := (refine row_ok4' _ _ ?_ ?_ _ _ rfl (hR' _ _ _ _ _) <;> decide))
  clear hin
  have hr_0_7 : region_lt.sl.v1063 (F := F) g2 k = g2 (ValueIdx.ix1 ⟨32 * k.val + 7, by omega⟩) :=
    (word_of_load2 (F := F) g2 (k0_off34 k) _ 7 (by decide) _ _ _).trans
      (congrArg g2 (congrArg ValueIdx.ix1 (Fin.ext (by have h := off34 k; show k0_off34 k 0 + 7 = 32 * k.val + 7; omega))))
  generalize hq7 : View.writes (s3 : Memref sig .scVector .vmem S512x64 .f32).view (Elt F) g3_7 _ = g3_8
  have hD_8 : Done (F := F) L fI fT (32 * k.val + 8) g3_8 := by
    rw [← hq7]
    exact lane_done4' (F := F) L fI fT hidx (32 * k.val + 7) _ rfl g3_7 hD_7
      (k0_off92 k) (k0_off94 k) (k0_off96 k) (k0_off98 k) (offS_92 k) (offS_94 k) (offS_96 k) (offS_98 k) _ _ _ _ _ _ _ _
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 0 _ rfl _ _ (offS_92 k) _ _ _ x)
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 16 _ rfl _ _ (offS_94 k) _ _ _ x)
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 32 _ rfl _ _ (offS_96 k) _ _ _ x)
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 48 _ rfl _ _ (offS_98 k) _ _ _ x)
  clear hq7 hD_7 hr_0_7
  have hin : ∀ (r c : Nat) (inb : ∀ a, (![0, 8, r, c] : Fin 4 → Nat) a + S1x1x1x16.size a ≤ S2x16x8x64.size a),
      (s4 : Memref sig .scVector .vmem S2x16x8x64 .f32).view.setOn (Rect.unit (s := S2x16x8x64) ![0, 8, r, c] S1x1x1x16.size inb).set ⊆ slot0_8.view.set :=
    fun r c inb => row_in_slot 0 8 r c inb inb_S2x16x8x64_S1x1x8x64_0_8_0_0
  sl_exec_parts (disch := (refine row_ok4' _ _ ?_ ?_ _ _ rfl (hR' _ _ _ _ _) <;> decide))
  clear hin
  have hr_0_8 : region_lt.sl.v1103 (F := F) g2 k = g2 (ValueIdx.ix1 ⟨32 * k.val + 8, by omega⟩) :=
    (word_of_load2 (F := F) g2 (k0_off34 k) _ 8 (by decide) _ _ _).trans
      (congrArg g2 (congrArg ValueIdx.ix1 (Fin.ext (by have h := off34 k; show k0_off34 k 0 + 8 = 32 * k.val + 8; omega))))
  generalize hq8 : View.writes (s3 : Memref sig .scVector .vmem S512x64 .f32).view (Elt F) g3_8 _ = g3_9
  have hD_9 : Done (F := F) L fI fT (32 * k.val + 9) g3_9 := by
    rw [← hq8]
    exact lane_done4' (F := F) L fI fT hidx (32 * k.val + 8) _ rfl g3_8 hD_8
      (k0_off100 k) (k0_off102 k) (k0_off104 k) (k0_off106 k) (offS_100 k) (offS_102 k) (offS_104 k) (offS_106 k) _ _ _ _ _ _ _ _
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 0 _ rfl _ _ (offS_100 k) _ _ _ x)
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 16 _ rfl _ _ (offS_102 k) _ _ _ x)
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 32 _ rfl _ _ (offS_104 k) _ _ _ x)
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 48 _ rfl _ _ (offS_106 k) _ _ _ x)
  clear hq8 hD_8 hr_0_8
  have hin : ∀ (r c : Nat) (inb : ∀ a, (![0, 9, r, c] : Fin 4 → Nat) a + S1x1x1x16.size a ≤ S2x16x8x64.size a),
      (s4 : Memref sig .scVector .vmem S2x16x8x64 .f32).view.setOn (Rect.unit (s := S2x16x8x64) ![0, 9, r, c] S1x1x1x16.size inb).set ⊆ slot0_9.view.set :=
    fun r c inb => row_in_slot 0 9 r c inb inb_S2x16x8x64_S1x1x8x64_0_9_0_0
  sl_exec_parts (disch := (refine row_ok4' _ _ ?_ ?_ _ _ rfl (hR' _ _ _ _ _) <;> decide))
  clear hin
  have hr_0_9 : region_lt.sl.v1143 (F := F) g2 k = g2 (ValueIdx.ix1 ⟨32 * k.val + 9, by omega⟩) :=
    (word_of_load2 (F := F) g2 (k0_off34 k) _ 9 (by decide) _ _ _).trans
      (congrArg g2 (congrArg ValueIdx.ix1 (Fin.ext (by have h := off34 k; show k0_off34 k 0 + 9 = 32 * k.val + 9; omega))))
  generalize hq9 : View.writes (s3 : Memref sig .scVector .vmem S512x64 .f32).view (Elt F) g3_9 _ = g3_10
  have hD_10 : Done (F := F) L fI fT (32 * k.val + 10) g3_10 := by
    rw [← hq9]
    exact lane_done4' (F := F) L fI fT hidx (32 * k.val + 9) _ rfl g3_9 hD_9
      (k0_off108 k) (k0_off110 k) (k0_off112 k) (k0_off114 k) (offS_108 k) (offS_110 k) (offS_112 k) (offS_114 k) _ _ _ _ _ _ _ _
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 0 _ rfl _ _ (offS_108 k) _ _ _ x)
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 16 _ rfl _ _ (offS_110 k) _ _ _ x)
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 32 _ rfl _ _ (offS_112 k) _ _ _ x)
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 48 _ rfl _ _ (offS_114 k) _ _ _ x)
  clear hq9 hD_9 hr_0_9
  have hin : ∀ (r c : Nat) (inb : ∀ a, (![0, 10, r, c] : Fin 4 → Nat) a + S1x1x1x16.size a ≤ S2x16x8x64.size a),
      (s4 : Memref sig .scVector .vmem S2x16x8x64 .f32).view.setOn (Rect.unit (s := S2x16x8x64) ![0, 10, r, c] S1x1x1x16.size inb).set ⊆ slot0_10.view.set :=
    fun r c inb => row_in_slot 0 10 r c inb inb_S2x16x8x64_S1x1x8x64_0_10_0_0
  sl_exec_parts (disch := (refine row_ok4' _ _ ?_ ?_ _ _ rfl (hR' _ _ _ _ _) <;> decide))
  clear hin
  have hr_0_10 : region_lt.sl.v1183 (F := F) g2 k = g2 (ValueIdx.ix1 ⟨32 * k.val + 10, by omega⟩) :=
    (word_of_load2 (F := F) g2 (k0_off34 k) _ 10 (by decide) _ _ _).trans
      (congrArg g2 (congrArg ValueIdx.ix1 (Fin.ext (by have h := off34 k; show k0_off34 k 0 + 10 = 32 * k.val + 10; omega))))
  generalize hq10 : View.writes (s3 : Memref sig .scVector .vmem S512x64 .f32).view (Elt F) g3_10 _ = g3_11
  have hD_11 : Done (F := F) L fI fT (32 * k.val + 11) g3_11 := by
    rw [← hq10]
    exact lane_done4' (F := F) L fI fT hidx (32 * k.val + 10) _ rfl g3_10 hD_10
      (k0_off116 k) (k0_off118 k) (k0_off120 k) (k0_off122 k) (offS_116 k) (offS_118 k) (offS_120 k) (offS_122 k) _ _ _ _ _ _ _ _
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 0 _ rfl _ _ (offS_116 k) _ _ _ x)
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 16 _ rfl _ _ (offS_118 k) _ _ _ x)
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 32 _ rfl _ _ (offS_120 k) _ _ _ x)
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 48 _ rfl _ _ (offS_122 k) _ _ _ x)
  clear hq10 hD_10 hr_0_10
  have hin : ∀ (r c : Nat) (inb : ∀ a, (![0, 11, r, c] : Fin 4 → Nat) a + S1x1x1x16.size a ≤ S2x16x8x64.size a),
      (s4 : Memref sig .scVector .vmem S2x16x8x64 .f32).view.setOn (Rect.unit (s := S2x16x8x64) ![0, 11, r, c] S1x1x1x16.size inb).set ⊆ slot0_11.view.set :=
    fun r c inb => row_in_slot 0 11 r c inb inb_S2x16x8x64_S1x1x8x64_0_11_0_0
  sl_exec_parts (disch := (refine row_ok4' _ _ ?_ ?_ _ _ rfl (hR' _ _ _ _ _) <;> decide))
  clear hin
  have hr_0_11 : region_lt.sl.v1223 (F := F) g2 k = g2 (ValueIdx.ix1 ⟨32 * k.val + 11, by omega⟩) :=
    (word_of_load2 (F := F) g2 (k0_off34 k) _ 11 (by decide) _ _ _).trans
      (congrArg g2 (congrArg ValueIdx.ix1 (Fin.ext (by have h := off34 k; show k0_off34 k 0 + 11 = 32 * k.val + 11; omega))))
  generalize hq11 : View.writes (s3 : Memref sig .scVector .vmem S512x64 .f32).view (Elt F) g3_11 _ = g3_12
  have hD_12 : Done (F := F) L fI fT (32 * k.val + 12) g3_12 := by
    rw [← hq11]
    exact lane_done4' (F := F) L fI fT hidx (32 * k.val + 11) _ rfl g3_11 hD_11
      (k0_off124 k) (k0_off126 k) (k0_off128 k) (k0_off130 k) (offS_124 k) (offS_126 k) (offS_128 k) (offS_130 k) _ _ _ _ _ _ _ _
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 0 _ rfl _ _ (offS_124 k) _ _ _ x)
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 16 _ rfl _ _ (offS_126 k) _ _ _ x)
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 32 _ rfl _ _ (offS_128 k) _ _ _ x)
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 48 _ rfl _ _ (offS_130 k) _ _ _ x)
  clear hq11 hD_11 hr_0_11
  have hin : ∀ (r c : Nat) (inb : ∀ a, (![0, 12, r, c] : Fin 4 → Nat) a + S1x1x1x16.size a ≤ S2x16x8x64.size a),
      (s4 : Memref sig .scVector .vmem S2x16x8x64 .f32).view.setOn (Rect.unit (s := S2x16x8x64) ![0, 12, r, c] S1x1x1x16.size inb).set ⊆ slot0_12.view.set :=
    fun r c inb => row_in_slot 0 12 r c inb inb_S2x16x8x64_S1x1x8x64_0_12_0_0
  sl_exec_parts (disch := (refine row_ok4' _ _ ?_ ?_ _ _ rfl (hR' _ _ _ _ _) <;> decide))
  clear hin
  have hr_0_12 : region_lt.sl.v1263 (F := F) g2 k = g2 (ValueIdx.ix1 ⟨32 * k.val + 12, by omega⟩) :=
    (word_of_load2 (F := F) g2 (k0_off34 k) _ 12 (by decide) _ _ _).trans
      (congrArg g2 (congrArg ValueIdx.ix1 (Fin.ext (by have h := off34 k; show k0_off34 k 0 + 12 = 32 * k.val + 12; omega))))
  generalize hq12 : View.writes (s3 : Memref sig .scVector .vmem S512x64 .f32).view (Elt F) g3_12 _ = g3_13
  have hD_13 : Done (F := F) L fI fT (32 * k.val + 13) g3_13 := by
    rw [← hq12]
    exact lane_done4' (F := F) L fI fT hidx (32 * k.val + 12) _ rfl g3_12 hD_12
      (k0_off132 k) (k0_off134 k) (k0_off136 k) (k0_off138 k) (offS_132 k) (offS_134 k) (offS_136 k) (offS_138 k) _ _ _ _ _ _ _ _
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 0 _ rfl _ _ (offS_132 k) _ _ _ x)
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 16 _ rfl _ _ (offS_134 k) _ _ _ x)
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 32 _ rfl _ _ (offS_136 k) _ _ _ x)
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 48 _ rfl _ _ (offS_138 k) _ _ _ x)
  clear hq12 hD_12 hr_0_12
  have hin : ∀ (r c : Nat) (inb : ∀ a, (![0, 13, r, c] : Fin 4 → Nat) a + S1x1x1x16.size a ≤ S2x16x8x64.size a),
      (s4 : Memref sig .scVector .vmem S2x16x8x64 .f32).view.setOn (Rect.unit (s := S2x16x8x64) ![0, 13, r, c] S1x1x1x16.size inb).set ⊆ slot0_13.view.set :=
    fun r c inb => row_in_slot 0 13 r c inb inb_S2x16x8x64_S1x1x8x64_0_13_0_0
  sl_exec_parts (disch := (refine row_ok4' _ _ ?_ ?_ _ _ rfl (hR' _ _ _ _ _) <;> decide))
  clear hin
  have hr_0_13 : region_lt.sl.v1303 (F := F) g2 k = g2 (ValueIdx.ix1 ⟨32 * k.val + 13, by omega⟩) :=
    (word_of_load2 (F := F) g2 (k0_off34 k) _ 13 (by decide) _ _ _).trans
      (congrArg g2 (congrArg ValueIdx.ix1 (Fin.ext (by have h := off34 k; show k0_off34 k 0 + 13 = 32 * k.val + 13; omega))))
  generalize hq13 : View.writes (s3 : Memref sig .scVector .vmem S512x64 .f32).view (Elt F) g3_13 _ = g3_14
  have hD_14 : Done (F := F) L fI fT (32 * k.val + 14) g3_14 := by
    rw [← hq13]
    exact lane_done4' (F := F) L fI fT hidx (32 * k.val + 13) _ rfl g3_13 hD_13
      (k0_off140 k) (k0_off142 k) (k0_off144 k) (k0_off146 k) (offS_140 k) (offS_142 k) (offS_144 k) (offS_146 k) _ _ _ _ _ _ _ _
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 0 _ rfl _ _ (offS_140 k) _ _ _ x)
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 16 _ rfl _ _ (offS_142 k) _ _ _ x)
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 32 _ rfl _ _ (offS_144 k) _ _ _ x)
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 48 _ rfl _ _ (offS_146 k) _ _ _ x)
  clear hq13 hD_13 hr_0_13
  have hin : ∀ (r c : Nat) (inb : ∀ a, (![0, 14, r, c] : Fin 4 → Nat) a + S1x1x1x16.size a ≤ S2x16x8x64.size a),
      (s4 : Memref sig .scVector .vmem S2x16x8x64 .f32).view.setOn (Rect.unit (s := S2x16x8x64) ![0, 14, r, c] S1x1x1x16.size inb).set ⊆ slot0_14.view.set :=
    fun r c inb => row_in_slot 0 14 r c inb inb_S2x16x8x64_S1x1x8x64_0_14_0_0
  sl_exec_parts (disch := (refine row_ok4' _ _ ?_ ?_ _ _ rfl (hR' _ _ _ _ _) <;> decide))
  clear hin
  have hr_0_14 : region_lt.sl.v1343 (F := F) g2 k = g2 (ValueIdx.ix1 ⟨32 * k.val + 14, by omega⟩) :=
    (word_of_load2 (F := F) g2 (k0_off34 k) _ 14 (by decide) _ _ _).trans
      (congrArg g2 (congrArg ValueIdx.ix1 (Fin.ext (by have h := off34 k; show k0_off34 k 0 + 14 = 32 * k.val + 14; omega))))
  generalize hq14 : View.writes (s3 : Memref sig .scVector .vmem S512x64 .f32).view (Elt F) g3_14 _ = g3_15
  have hD_15 : Done (F := F) L fI fT (32 * k.val + 15) g3_15 := by
    rw [← hq14]
    exact lane_done4' (F := F) L fI fT hidx (32 * k.val + 14) _ rfl g3_14 hD_14
      (k0_off148 k) (k0_off150 k) (k0_off152 k) (k0_off154 k) (offS_148 k) (offS_150 k) (offS_152 k) (offS_154 k) _ _ _ _ _ _ _ _
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 0 _ rfl _ _ (offS_148 k) _ _ _ x)
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 16 _ rfl _ _ (offS_150 k) _ _ _ x)
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 32 _ rfl _ _ (offS_152 k) _ _ _ x)
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 48 _ rfl _ _ (offS_154 k) _ _ _ x)
  clear hq14 hD_14 hr_0_14
  have hin : ∀ (r c : Nat) (inb : ∀ a, (![0, 15, r, c] : Fin 4 → Nat) a + S1x1x1x16.size a ≤ S2x16x8x64.size a),
      (s4 : Memref sig .scVector .vmem S2x16x8x64 .f32).view.setOn (Rect.unit (s := S2x16x8x64) ![0, 15, r, c] S1x1x1x16.size inb).set ⊆ slot0_15.view.set :=
    fun r c inb => row_in_slot 0 15 r c inb inb_S2x16x8x64_S1x1x8x64_0_15_0_0
  sl_exec_parts (disch := first | exact slab_ok_g' _ _ _ rfl (hA' _ _ _ _ _) | (refine row_ok4' _ _ ?_ ?_ _ _ rfl (hR' _ _ _ _ _) <;> decide))
  clear hin
  have hr_0_15 : region_lt.sl.v1383 (F := F) g2 k = g2 (ValueIdx.ix1 ⟨32 * k.val + 15, by omega⟩) :=
    (word_of_load2 (F := F) g2 (k0_off34 k) _ 15 (by decide) _ _ _).trans
      (congrArg g2 (congrArg ValueIdx.ix1 (Fin.ext (by have h := off34 k; show k0_off34 k 0 + 15 = 32 * k.val + 15; omega))))
  generalize hq15 : View.writes (s3 : Memref sig .scVector .vmem S512x64 .f32).view (Elt F) g3_15 _ = g3_16
  have hD_16 : Done (F := F) L fI fT (32 * k.val + 16) g3_16 := by
    rw [← hq15]
    exact lane_done4' (F := F) L fI fT hidx (32 * k.val + 15) _ rfl g3_15 hD_15
      (k0_off156 k) (k0_off158 k) (k0_off160 k) (k0_off162 k) (offS_156 k) (offS_158 k) (offS_160 k) (offS_162 k) _ _ _ _ _ _ _ _
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 0 _ rfl _ _ (offS_156 k) _ _ _ x)
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 16 _ rfl _ _ (offS_158 k) _ _ _ x)
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 32 _ rfl _ _ (offS_160 k) _ _ _ x)
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 48 _ rfl _ _ (offS_162 k) _ _ _ x)
  clear hq15 hD_15 hr_0_15
  have hin : ∀ (r c : Nat) (inb : ∀ a, (![1, 0, r, c] : Fin 4 → Nat) a + S1x1x1x16.size a ≤ S2x16x8x64.size a),
      (s4 : Memref sig .scVector .vmem S2x16x8x64 .f32).view.setOn (Rect.unit (s := S2x16x8x64) ![1, 0, r, c] S1x1x1x16.size inb).set ⊆ slot1_0.view.set :=
    fun r c inb => row_in_slot 1 0 r c inb inb_S2x16x8x64_S1x1x8x64_1_0_0_0
  sl_exec_parts (disch := (refine row_ok4' _ _ ?_ ?_ _ _ rfl (hR' _ _ _ _ _) <;> decide))
  clear hin
  have hr_1_0 : region_lt.sl.v1527 (F := F) g2 k = g2 (ValueIdx.ix1 ⟨32 * k.val + 16, by omega⟩) :=
    (word_of_load2 (F := F) g2 (k0_off180 k) _ 0 (by decide) _ _ _).trans
      (congrArg g2 (congrArg ValueIdx.ix1 (Fin.ext (by have h := off180 k; show k0_off180 k 0 + 0 = 32 * k.val + 16; omega))))
  generalize hq16 : View.writes (s3 : Memref sig .scVector .vmem S512x64 .f32).view (Elt F) g3_16 _ = g3_17
  have hD_17 : Done (F := F) L fI fT (32 * k.val + 17) g3_17 := by
    rw [← hq16]
    exact lane_done4' (F := F) L fI fT hidx (32 * k.val + 16) _ rfl g3_16 hD_16
      (k0_off182 k) (k0_off184 k) (k0_off186 k) (k0_off188 k) (offS_182 k) (offS_184 k) (offS_186 k) (offS_188 k) _ _ _ _ _ _ _ _
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 0 _ rfl _ _ (offS_182 k) _ _ _ x)
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 16 _ rfl _ _ (offS_184 k) _ _ _ x)
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 32 _ rfl _ _ (offS_186 k) _ _ _ x)
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 48 _ rfl _ _ (offS_188 k) _ _ _ x)
  clear hq16 hD_16 hr_1_0
  have hin : ∀ (r c : Nat) (inb : ∀ a, (![1, 1, r, c] : Fin 4 → Nat) a + S1x1x1x16.size a ≤ S2x16x8x64.size a),
      (s4 : Memref sig .scVector .vmem S2x16x8x64 .f32).view.setOn (Rect.unit (s := S2x16x8x64) ![1, 1, r, c] S1x1x1x16.size inb).set ⊆ slot1_1.view.set :=
    fun r c inb => row_in_slot 1 1 r c inb inb_S2x16x8x64_S1x1x8x64_1_1_0_0
  sl_exec_parts (disch := (refine row_ok4' _ _ ?_ ?_ _ _ rfl (hR' _ _ _ _ _) <;> decide))
  clear hin
  have hr_1_1 : region_lt.sl.v1567 (F := F) g2 k = g2 (ValueIdx.ix1 ⟨32 * k.val + 17, by omega⟩) :=
    (word_of_load2 (F := F) g2 (k0_off180 k) _ 1 (by decide) _ _ _).trans
      (congrArg g2 (congrArg ValueIdx.ix1 (Fin.ext (by have h := off180 k; show k0_off180 k 0 + 1 = 32 * k.val + 17; omega))))
  generalize hq17 : View.writes (s3 : Memref sig .scVector .vmem S512x64 .f32).view (Elt F) g3_17 _ = g3_18
  have hD_18 : Done (F := F) L fI fT (32 * k.val + 18) g3_18 := by
    rw [← hq17]
    exact lane_done4' (F := F) L fI fT hidx (32 * k.val + 17) _ rfl g3_17 hD_17
      (k0_off190 k) (k0_off192 k) (k0_off194 k) (k0_off196 k) (offS_190 k) (offS_192 k) (offS_194 k) (offS_196 k) _ _ _ _ _ _ _ _
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 0 _ rfl _ _ (offS_190 k) _ _ _ x)
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 16 _ rfl _ _ (offS_192 k) _ _ _ x)
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 32 _ rfl _ _ (offS_194 k) _ _ _ x)
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 48 _ rfl _ _ (offS_196 k) _ _ _ x)
  clear hq17 hD_17 hr_1_1
  have hin : ∀ (r c : Nat) (inb : ∀ a, (![1, 2, r, c] : Fin 4 → Nat) a + S1x1x1x16.size a ≤ S2x16x8x64.size a),
      (s4 : Memref sig .scVector .vmem S2x16x8x64 .f32).view.setOn (Rect.unit (s := S2x16x8x64) ![1, 2, r, c] S1x1x1x16.size inb).set ⊆ slot1_2.view.set :=
    fun r c inb => row_in_slot 1 2 r c inb inb_S2x16x8x64_S1x1x8x64_1_2_0_0
  sl_exec_parts (disch := (refine row_ok4' _ _ ?_ ?_ _ _ rfl (hR' _ _ _ _ _) <;> decide))
  clear hin
  have hr_1_2 : region_lt.sl.v1607 (F := F) g2 k = g2 (ValueIdx.ix1 ⟨32 * k.val + 18, by omega⟩) :=
    (word_of_load2 (F := F) g2 (k0_off180 k) _ 2 (by decide) _ _ _).trans
      (congrArg g2 (congrArg ValueIdx.ix1 (Fin.ext (by have h := off180 k; show k0_off180 k 0 + 2 = 32 * k.val + 18; omega))))
  generalize hq18 : View.writes (s3 : Memref sig .scVector .vmem S512x64 .f32).view (Elt F) g3_18 _ = g3_19
  have hD_19 : Done (F := F) L fI fT (32 * k.val + 19) g3_19 := by
    rw [← hq18]
    exact lane_done4' (F := F) L fI fT hidx (32 * k.val + 18) _ rfl g3_18 hD_18
      (k0_off198 k) (k0_off200 k) (k0_off202 k) (k0_off204 k) (offS_198 k) (offS_200 k) (offS_202 k) (offS_204 k) _ _ _ _ _ _ _ _
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 0 _ rfl _ _ (offS_198 k) _ _ _ x)
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 16 _ rfl _ _ (offS_200 k) _ _ _ x)
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 32 _ rfl _ _ (offS_202 k) _ _ _ x)
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 48 _ rfl _ _ (offS_204 k) _ _ _ x)
  clear hq18 hD_18 hr_1_2
  have hin : ∀ (r c : Nat) (inb : ∀ a, (![1, 3, r, c] : Fin 4 → Nat) a + S1x1x1x16.size a ≤ S2x16x8x64.size a),
      (s4 : Memref sig .scVector .vmem S2x16x8x64 .f32).view.setOn (Rect.unit (s := S2x16x8x64) ![1, 3, r, c] S1x1x1x16.size inb).set ⊆ slot1_3.view.set :=
    fun r c inb => row_in_slot 1 3 r c inb inb_S2x16x8x64_S1x1x8x64_1_3_0_0
  sl_exec_parts (disch := (refine row_ok4' _ _ ?_ ?_ _ _ rfl (hR' _ _ _ _ _) <;> decide))
  clear hin
  have hr_1_3 : region_lt.sl.v1647 (F := F) g2 k = g2 (ValueIdx.ix1 ⟨32 * k.val + 19, by omega⟩) :=
    (word_of_load2 (F := F) g2 (k0_off180 k) _ 3 (by decide) _ _ _).trans
      (congrArg g2 (congrArg ValueIdx.ix1 (Fin.ext (by have h := off180 k; show k0_off180 k 0 + 3 = 32 * k.val + 19; omega))))
  generalize hq19 : View.writes (s3 : Memref sig .scVector .vmem S512x64 .f32).view (Elt F) g3_19 _ = g3_20
  have hD_20 : Done (F := F) L fI fT (32 * k.val + 20) g3_20 := by
    rw [← hq19]
    exact lane_done4' (F := F) L fI fT hidx (32 * k.val + 19) _ rfl g3_19 hD_19
      (k0_off206 k) (k0_off208 k) (k0_off210 k) (k0_off212 k) (offS_206 k) (offS_208 k) (offS_210 k) (offS_212 k) _ _ _ _ _ _ _ _
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 0 _ rfl _ _ (offS_206 k) _ _ _ x)
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 16 _ rfl _ _ (offS_208 k) _ _ _ x)
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 32 _ rfl _ _ (offS_210 k) _ _ _ x)
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 48 _ rfl _ _ (offS_212 k) _ _ _ x)
  clear hq19 hD_19 hr_1_3
  have hin : ∀ (r c : Nat) (inb : ∀ a, (![1, 4, r, c] : Fin 4 → Nat) a + S1x1x1x16.size a ≤ S2x16x8x64.size a),
      (s4 : Memref sig .scVector .vmem S2x16x8x64 .f32).view.setOn (Rect.unit (s := S2x16x8x64) ![1, 4, r, c] S1x1x1x16.size inb).set ⊆ slot1_4.view.set :=
    fun r c inb => row_in_slot 1 4 r c inb inb_S2x16x8x64_S1x1x8x64_1_4_0_0
  sl_exec_parts (disch := (refine row_ok4' _ _ ?_ ?_ _ _ rfl (hR' _ _ _ _ _) <;> decide))
  clear hin
  have hr_1_4 : region_lt.sl.v1687 (F := F) g2 k = g2 (ValueIdx.ix1 ⟨32 * k.val + 20, by omega⟩) :=
    (word_of_load2 (F := F) g2 (k0_off180 k) _ 4 (by decide) _ _ _).trans
      (congrArg g2 (congrArg ValueIdx.ix1 (Fin.ext (by have h := off180 k; show k0_off180 k 0 + 4 = 32 * k.val + 20; omega))))
  generalize hq20 : View.writes (s3 : Memref sig .scVector .vmem S512x64 .f32).view (Elt F) g3_20 _ = g3_21
  have hD_21 : Done (F := F) L fI fT (32 * k.val + 21) g3_21 := by
    rw [← hq20]
    exact lane_done4' (F := F) L fI fT hidx (32 * k.val + 20) _ rfl g3_20 hD_20
      (k0_off214 k) (k0_off216 k) (k0_off218 k) (k0_off220 k) (offS_214 k) (offS_216 k) (offS_218 k) (offS_220 k) _ _ _ _ _ _ _ _
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 0 _ rfl _ _ (offS_214 k) _ _ _ x)
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 16 _ rfl _ _ (offS_216 k) _ _ _ x)
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 32 _ rfl _ _ (offS_218 k) _ _ _ x)
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 48 _ rfl _ _ (offS_220 k) _ _ _ x)
  clear hq20 hD_20 hr_1_4
  have hin : ∀ (r c : Nat) (inb : ∀ a, (![1, 5, r, c] : Fin 4 → Nat) a + S1x1x1x16.size a ≤ S2x16x8x64.size a),
      (s4 : Memref sig .scVector .vmem S2x16x8x64 .f32).view.setOn (Rect.unit (s := S2x16x8x64) ![1, 5, r, c] S1x1x1x16.size inb).set ⊆ slot1_5.view.set :=
    fun r c inb => row_in_slot 1 5 r c inb inb_S2x16x8x64_S1x1x8x64_1_5_0_0
  sl_exec_parts (disch := (refine row_ok4' _ _ ?_ ?_ _ _ rfl (hR' _ _ _ _ _) <;> decide))
  clear hin
  have hr_1_5 : region_lt.sl.v1727 (F := F) g2 k = g2 (ValueIdx.ix1 ⟨32 * k.val + 21, by omega⟩) :=
    (word_of_load2 (F := F) g2 (k0_off180 k) _ 5 (by decide) _ _ _).trans
      (congrArg g2 (congrArg ValueIdx.ix1 (Fin.ext (by have h := off180 k; show k0_off180 k 0 + 5 = 32 * k.val + 21; omega))))
  generalize hq21 : View.writes (s3 : Memref sig .scVector .vmem S512x64 .f32).view (Elt F) g3_21 _ = g3_22
  have hD_22 : Done (F := F) L fI fT (32 * k.val + 22) g3_22 := by
    rw [← hq21]
    exact lane_done4' (F := F) L fI fT hidx (32 * k.val + 21) _ rfl g3_21 hD_21
      (k0_off222 k) (k0_off224 k) (k0_off226 k) (k0_off228 k) (offS_222 k) (offS_224 k) (offS_226 k) (offS_228 k) _ _ _ _ _ _ _ _
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 0 _ rfl _ _ (offS_222 k) _ _ _ x)
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 16 _ rfl _ _ (offS_224 k) _ _ _ x)
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 32 _ rfl _ _ (offS_226 k) _ _ _ x)
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 48 _ rfl _ _ (offS_228 k) _ _ _ x)
  clear hq21 hD_21 hr_1_5
  have hin : ∀ (r c : Nat) (inb : ∀ a, (![1, 6, r, c] : Fin 4 → Nat) a + S1x1x1x16.size a ≤ S2x16x8x64.size a),
      (s4 : Memref sig .scVector .vmem S2x16x8x64 .f32).view.setOn (Rect.unit (s := S2x16x8x64) ![1, 6, r, c] S1x1x1x16.size inb).set ⊆ slot1_6.view.set :=
    fun r c inb => row_in_slot 1 6 r c inb inb_S2x16x8x64_S1x1x8x64_1_6_0_0
  sl_exec_parts (disch := (refine row_ok4' _ _ ?_ ?_ _ _ rfl (hR' _ _ _ _ _) <;> decide))
  clear hin
  have hr_1_6 : region_lt.sl.v1767 (F := F) g2 k = g2 (ValueIdx.ix1 ⟨32 * k.val + 22, by omega⟩) :=
    (word_of_load2 (F := F) g2 (k0_off180 k) _ 6 (by decide) _ _ _).trans
      (congrArg g2 (congrArg ValueIdx.ix1 (Fin.ext (by have h := off180 k; show k0_off180 k 0 + 6 = 32 * k.val + 22; omega))))
  generalize hq22 : View.writes (s3 : Memref sig .scVector .vmem S512x64 .f32).view (Elt F) g3_22 _ = g3_23
  have hD_23 : Done (F := F) L fI fT (32 * k.val + 23) g3_23 := by
    rw [← hq22]
    exact lane_done4' (F := F) L fI fT hidx (32 * k.val + 22) _ rfl g3_22 hD_22
      (k0_off230 k) (k0_off232 k) (k0_off234 k) (k0_off236 k) (offS_230 k) (offS_232 k) (offS_234 k) (offS_236 k) _ _ _ _ _ _ _ _
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 0 _ rfl _ _ (offS_230 k) _ _ _ x)
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 16 _ rfl _ _ (offS_232 k) _ _ _ x)
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 32 _ rfl _ _ (offS_234 k) _ _ _ x)
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 48 _ rfl _ _ (offS_236 k) _ _ _ x)
  clear hq22 hD_22 hr_1_6
  have hin : ∀ (r c : Nat) (inb : ∀ a, (![1, 7, r, c] : Fin 4 → Nat) a + S1x1x1x16.size a ≤ S2x16x8x64.size a),
      (s4 : Memref sig .scVector .vmem S2x16x8x64 .f32).view.setOn (Rect.unit (s := S2x16x8x64) ![1, 7, r, c] S1x1x1x16.size inb).set ⊆ slot1_7.view.set :=
    fun r c inb => row_in_slot 1 7 r c inb inb_S2x16x8x64_S1x1x8x64_1_7_0_0
  sl_exec_parts (disch := (refine row_ok4' _ _ ?_ ?_ _ _ rfl (hR' _ _ _ _ _) <;> decide))
  clear hin
  have hr_1_7 : region_lt.sl.v1807 (F := F) g2 k = g2 (ValueIdx.ix1 ⟨32 * k.val + 23, by omega⟩) :=
    (word_of_load2 (F := F) g2 (k0_off180 k) _ 7 (by decide) _ _ _).trans
      (congrArg g2 (congrArg ValueIdx.ix1 (Fin.ext (by have h := off180 k; show k0_off180 k 0 + 7 = 32 * k.val + 23; omega))))
  generalize hq23 : View.writes (s3 : Memref sig .scVector .vmem S512x64 .f32).view (Elt F) g3_23 _ = g3_24
  have hD_24 : Done (F := F) L fI fT (32 * k.val + 24) g3_24 := by
    rw [← hq23]
    exact lane_done4' (F := F) L fI fT hidx (32 * k.val + 23) _ rfl g3_23 hD_23
      (k0_off238 k) (k0_off240 k) (k0_off242 k) (k0_off244 k) (offS_238 k) (offS_240 k) (offS_242 k) (offS_244 k) _ _ _ _ _ _ _ _
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 0 _ rfl _ _ (offS_238 k) _ _ _ x)
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 16 _ rfl _ _ (offS_240 k) _ _ _ x)
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 32 _ rfl _ _ (offS_242 k) _ _ _ x)
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 48 _ rfl _ _ (offS_244 k) _ _ _ x)
  clear hq23 hD_23 hr_1_7
  have hin : ∀ (r c : Nat) (inb : ∀ a, (![1, 8, r, c] : Fin 4 → Nat) a + S1x1x1x16.size a ≤ S2x16x8x64.size a),
      (s4 : Memref sig .scVector .vmem S2x16x8x64 .f32).view.setOn (Rect.unit (s := S2x16x8x64) ![1, 8, r, c] S1x1x1x16.size inb).set ⊆ slot1_8.view.set :=
    fun r c inb => row_in_slot 1 8 r c inb inb_S2x16x8x64_S1x1x8x64_1_8_0_0
  sl_exec_parts (disch := (refine row_ok4' _ _ ?_ ?_ _ _ rfl (hR' _ _ _ _ _) <;> decide))
  clear hin
  have hr_1_8 : region_lt.sl.v1847 (F := F) g2 k = g2 (ValueIdx.ix1 ⟨32 * k.val + 24, by omega⟩) :=
    (word_of_load2 (F := F) g2 (k0_off180 k) _ 8 (by decide) _ _ _).trans
      (congrArg g2 (congrArg ValueIdx.ix1 (Fin.ext (by have h := off180 k; show k0_off180 k 0 + 8 = 32 * k.val + 24; omega))))
  generalize hq24 : View.writes (s3 : Memref sig .scVector .vmem S512x64 .f32).view (Elt F) g3_24 _ = g3_25
  have hD_25 : Done (F := F) L fI fT (32 * k.val + 25) g3_25 := by
    rw [← hq24]
    exact lane_done4' (F := F) L fI fT hidx (32 * k.val + 24) _ rfl g3_24 hD_24
      (k0_off246 k) (k0_off248 k) (k0_off250 k) (k0_off252 k) (offS_246 k) (offS_248 k) (offS_250 k) (offS_252 k) _ _ _ _ _ _ _ _
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 0 _ rfl _ _ (offS_246 k) _ _ _ x)
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 16 _ rfl _ _ (offS_248 k) _ _ _ x)
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 32 _ rfl _ _ (offS_250 k) _ _ _ x)
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 48 _ rfl _ _ (offS_252 k) _ _ _ x)
  clear hq24 hD_24 hr_1_8
  have hin : ∀ (r c : Nat) (inb : ∀ a, (![1, 9, r, c] : Fin 4 → Nat) a + S1x1x1x16.size a ≤ S2x16x8x64.size a),
      (s4 : Memref sig .scVector .vmem S2x16x8x64 .f32).view.setOn (Rect.unit (s := S2x16x8x64) ![1, 9, r, c] S1x1x1x16.size inb).set ⊆ slot1_9.view.set :=
    fun r c inb => row_in_slot 1 9 r c inb inb_S2x16x8x64_S1x1x8x64_1_9_0_0
  sl_exec_parts (disch := (refine row_ok4' _ _ ?_ ?_ _ _ rfl (hR' _ _ _ _ _) <;> decide))
  clear hin
  have hr_1_9 : region_lt.sl.v1887 (F := F) g2 k = g2 (ValueIdx.ix1 ⟨32 * k.val + 25, by omega⟩) :=
    (word_of_load2 (F := F) g2 (k0_off180 k) _ 9 (by decide) _ _ _).trans
      (congrArg g2 (congrArg ValueIdx.ix1 (Fin.ext (by have h := off180 k; show k0_off180 k 0 + 9 = 32 * k.val + 25; omega))))
  generalize hq25 : View.writes (s3 : Memref sig .scVector .vmem S512x64 .f32).view (Elt F) g3_25 _ = g3_26
  have hD_26 : Done (F := F) L fI fT (32 * k.val + 26) g3_26 := by
    rw [← hq25]
    exact lane_done4' (F := F) L fI fT hidx (32 * k.val + 25) _ rfl g3_25 hD_25
      (k0_off254 k) (k0_off256 k) (k0_off258 k) (k0_off260 k) (offS_254 k) (offS_256 k) (offS_258 k) (offS_260 k) _ _ _ _ _ _ _ _
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 0 _ rfl _ _ (offS_254 k) _ _ _ x)
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 16 _ rfl _ _ (offS_256 k) _ _ _ x)
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 32 _ rfl _ _ (offS_258 k) _ _ _ x)
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 48 _ rfl _ _ (offS_260 k) _ _ _ x)
  clear hq25 hD_25 hr_1_9
  have hin : ∀ (r c : Nat) (inb : ∀ a, (![1, 10, r, c] : Fin 4 → Nat) a + S1x1x1x16.size a ≤ S2x16x8x64.size a),
      (s4 : Memref sig .scVector .vmem S2x16x8x64 .f32).view.setOn (Rect.unit (s := S2x16x8x64) ![1, 10, r, c] S1x1x1x16.size inb).set ⊆ slot1_10.view.set :=
    fun r c inb => row_in_slot 1 10 r c inb inb_S2x16x8x64_S1x1x8x64_1_10_0_0
  sl_exec_parts (disch := (refine row_ok4' _ _ ?_ ?_ _ _ rfl (hR' _ _ _ _ _) <;> decide))
  clear hin
  have hr_1_10 : region_lt.sl.v1927 (F := F) g2 k = g2 (ValueIdx.ix1 ⟨32 * k.val + 26, by omega⟩) :=
    (word_of_load2 (F := F) g2 (k0_off180 k) _ 10 (by decide) _ _ _).trans
      (congrArg g2 (congrArg ValueIdx.ix1 (Fin.ext (by have h := off180 k; show k0_off180 k 0 + 10 = 32 * k.val + 26; omega))))
  generalize hq26 : View.writes (s3 : Memref sig .scVector .vmem S512x64 .f32).view (Elt F) g3_26 _ = g3_27
  have hD_27 : Done (F := F) L fI fT (32 * k.val + 27) g3_27 := by
    rw [← hq26]
    exact lane_done4' (F := F) L fI fT hidx (32 * k.val + 26) _ rfl g3_26 hD_26
      (k0_off262 k) (k0_off264 k) (k0_off266 k) (k0_off268 k) (offS_262 k) (offS_264 k) (offS_266 k) (offS_268 k) _ _ _ _ _ _ _ _
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 0 _ rfl _ _ (offS_262 k) _ _ _ x)
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 16 _ rfl _ _ (offS_264 k) _ _ _ x)
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 32 _ rfl _ _ (offS_266 k) _ _ _ x)
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 48 _ rfl _ _ (offS_268 k) _ _ _ x)
  clear hq26 hD_26 hr_1_10
  have hin : ∀ (r c : Nat) (inb : ∀ a, (![1, 11, r, c] : Fin 4 → Nat) a + S1x1x1x16.size a ≤ S2x16x8x64.size a),
      (s4 : Memref sig .scVector .vmem S2x16x8x64 .f32).view.setOn (Rect.unit (s := S2x16x8x64) ![1, 11, r, c] S1x1x1x16.size inb).set ⊆ slot1_11.view.set :=
    fun r c inb => row_in_slot 1 11 r c inb inb_S2x16x8x64_S1x1x8x64_1_11_0_0
  sl_exec_parts (disch := (refine row_ok4' _ _ ?_ ?_ _ _ rfl (hR' _ _ _ _ _) <;> decide))
  clear hin
  have hr_1_11 : region_lt.sl.v1967 (F := F) g2 k = g2 (ValueIdx.ix1 ⟨32 * k.val + 27, by omega⟩) :=
    (word_of_load2 (F := F) g2 (k0_off180 k) _ 11 (by decide) _ _ _).trans
      (congrArg g2 (congrArg ValueIdx.ix1 (Fin.ext (by have h := off180 k; show k0_off180 k 0 + 11 = 32 * k.val + 27; omega))))
  generalize hq27 : View.writes (s3 : Memref sig .scVector .vmem S512x64 .f32).view (Elt F) g3_27 _ = g3_28
  have hD_28 : Done (F := F) L fI fT (32 * k.val + 28) g3_28 := by
    rw [← hq27]
    exact lane_done4' (F := F) L fI fT hidx (32 * k.val + 27) _ rfl g3_27 hD_27
      (k0_off270 k) (k0_off272 k) (k0_off274 k) (k0_off276 k) (offS_270 k) (offS_272 k) (offS_274 k) (offS_276 k) _ _ _ _ _ _ _ _
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 0 _ rfl _ _ (offS_270 k) _ _ _ x)
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 16 _ rfl _ _ (offS_272 k) _ _ _ x)
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 32 _ rfl _ _ (offS_274 k) _ _ _ x)
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 48 _ rfl _ _ (offS_276 k) _ _ _ x)
  clear hq27 hD_27 hr_1_11
  have hin : ∀ (r c : Nat) (inb : ∀ a, (![1, 12, r, c] : Fin 4 → Nat) a + S1x1x1x16.size a ≤ S2x16x8x64.size a),
      (s4 : Memref sig .scVector .vmem S2x16x8x64 .f32).view.setOn (Rect.unit (s := S2x16x8x64) ![1, 12, r, c] S1x1x1x16.size inb).set ⊆ slot1_12.view.set :=
    fun r c inb => row_in_slot 1 12 r c inb inb_S2x16x8x64_S1x1x8x64_1_12_0_0
  sl_exec_parts (disch := (refine row_ok4' _ _ ?_ ?_ _ _ rfl (hR' _ _ _ _ _) <;> decide))
  clear hin
  have hr_1_12 : region_lt.sl.v2007 (F := F) g2 k = g2 (ValueIdx.ix1 ⟨32 * k.val + 28, by omega⟩) :=
    (word_of_load2 (F := F) g2 (k0_off180 k) _ 12 (by decide) _ _ _).trans
      (congrArg g2 (congrArg ValueIdx.ix1 (Fin.ext (by have h := off180 k; show k0_off180 k 0 + 12 = 32 * k.val + 28; omega))))
  generalize hq28 : View.writes (s3 : Memref sig .scVector .vmem S512x64 .f32).view (Elt F) g3_28 _ = g3_29
  have hD_29 : Done (F := F) L fI fT (32 * k.val + 29) g3_29 := by
    rw [← hq28]
    exact lane_done4' (F := F) L fI fT hidx (32 * k.val + 28) _ rfl g3_28 hD_28
      (k0_off278 k) (k0_off280 k) (k0_off282 k) (k0_off284 k) (offS_278 k) (offS_280 k) (offS_282 k) (offS_284 k) _ _ _ _ _ _ _ _
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 0 _ rfl _ _ (offS_278 k) _ _ _ x)
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 16 _ rfl _ _ (offS_280 k) _ _ _ x)
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 32 _ rfl _ _ (offS_282 k) _ _ _ x)
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 48 _ rfl _ _ (offS_284 k) _ _ _ x)
  clear hq28 hD_28 hr_1_12
  have hin : ∀ (r c : Nat) (inb : ∀ a, (![1, 13, r, c] : Fin 4 → Nat) a + S1x1x1x16.size a ≤ S2x16x8x64.size a),
      (s4 : Memref sig .scVector .vmem S2x16x8x64 .f32).view.setOn (Rect.unit (s := S2x16x8x64) ![1, 13, r, c] S1x1x1x16.size inb).set ⊆ slot1_13.view.set :=
    fun r c inb => row_in_slot 1 13 r c inb inb_S2x16x8x64_S1x1x8x64_1_13_0_0
  sl_exec_parts (disch := (refine row_ok4' _ _ ?_ ?_ _ _ rfl (hR' _ _ _ _ _) <;> decide))
  clear hin
  have hr_1_13 : region_lt.sl.v2047 (F := F) g2 k = g2 (ValueIdx.ix1 ⟨32 * k.val + 29, by omega⟩) :=
    (word_of_load2 (F := F) g2 (k0_off180 k) _ 13 (by decide) _ _ _).trans
      (congrArg g2 (congrArg ValueIdx.ix1 (Fin.ext (by have h := off180 k; show k0_off180 k 0 + 13 = 32 * k.val + 29; omega))))
  generalize hq29 : View.writes (s3 : Memref sig .scVector .vmem S512x64 .f32).view (Elt F) g3_29 _ = g3_30
  have hD_30 : Done (F := F) L fI fT (32 * k.val + 30) g3_30 := by
    rw [← hq29]
    exact lane_done4' (F := F) L fI fT hidx (32 * k.val + 29) _ rfl g3_29 hD_29
      (k0_off286 k) (k0_off288 k) (k0_off290 k) (k0_off292 k) (offS_286 k) (offS_288 k) (offS_290 k) (offS_292 k) _ _ _ _ _ _ _ _
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 0 _ rfl _ _ (offS_286 k) _ _ _ x)
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 16 _ rfl _ _ (offS_288 k) _ _ _ x)
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 32 _ rfl _ _ (offS_290 k) _ _ _ x)
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 48 _ rfl _ _ (offS_292 k) _ _ _ x)
  clear hq29 hD_29 hr_1_13
  have hin : ∀ (r c : Nat) (inb : ∀ a, (![1, 14, r, c] : Fin 4 → Nat) a + S1x1x1x16.size a ≤ S2x16x8x64.size a),
      (s4 : Memref sig .scVector .vmem S2x16x8x64 .f32).view.setOn (Rect.unit (s := S2x16x8x64) ![1, 14, r, c] S1x1x1x16.size inb).set ⊆ slot1_14.view.set :=
    fun r c inb => row_in_slot 1 14 r c inb inb_S2x16x8x64_S1x1x8x64_1_14_0_0
  sl_exec_parts (disch := (refine row_ok4' _ _ ?_ ?_ _ _ rfl (hR' _ _ _ _ _) <;> decide))
  clear hin
  have hr_1_14 : region_lt.sl.v2087 (F := F) g2 k = g2 (ValueIdx.ix1 ⟨32 * k.val + 30, by omega⟩) :=
    (word_of_load2 (F := F) g2 (k0_off180 k) _ 14 (by decide) _ _ _).trans
      (congrArg g2 (congrArg ValueIdx.ix1 (Fin.ext (by have h := off180 k; show k0_off180 k 0 + 14 = 32 * k.val + 30; omega))))
  generalize hq30 : View.writes (s3 : Memref sig .scVector .vmem S512x64 .f32).view (Elt F) g3_30 _ = g3_31
  have hD_31 : Done (F := F) L fI fT (32 * k.val + 31) g3_31 := by
    rw [← hq30]
    exact lane_done4' (F := F) L fI fT hidx (32 * k.val + 30) _ rfl g3_30 hD_30
      (k0_off294 k) (k0_off296 k) (k0_off298 k) (k0_off300 k) (offS_294 k) (offS_296 k) (offS_298 k) (offS_300 k) _ _ _ _ _ _ _ _
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 0 _ rfl _ _ (offS_294 k) _ _ _ x)
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 16 _ rfl _ _ (offS_296 k) _ _ _ x)
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 32 _ rfl _ _ (offS_298 k) _ _ _ x)
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 48 _ rfl _ _ (offS_300 k) _ _ _ x)
  clear hq30 hD_30 hr_1_14
  have hin : ∀ (r c : Nat) (inb : ∀ a, (![1, 15, r, c] : Fin 4 → Nat) a + S1x1x1x16.size a ≤ S2x16x8x64.size a),
      (s4 : Memref sig .scVector .vmem S2x16x8x64 .f32).view.setOn (Rect.unit (s := S2x16x8x64) ![1, 15, r, c] S1x1x1x16.size inb).set ⊆ slot1_15.view.set :=
    fun r c inb => row_in_slot 1 15 r c inb inb_S2x16x8x64_S1x1x8x64_1_15_0_0
  set_option sl_exec.stopBefore "k0_cond2" in sl_exec_parts (disch := first | exact slab_ok_g' _ _ _ rfl (hA' _ _ _ _ _) | (refine row_ok4' _ _ ?_ ?_ _ _ rfl (hR' _ _ _ _ _) <;> decide))
  clear hin
  have hr_1_15 : region_lt.sl.v2127 (F := F) g2 k = g2 (ValueIdx.ix1 ⟨32 * k.val + 31, by omega⟩) :=
    (word_of_load2 (F := F) g2 (k0_off180 k) _ 15 (by decide) _ _ _).trans
      (congrArg g2 (congrArg ValueIdx.ix1 (Fin.ext (by have h := off180 k; show k0_off180 k 0 + 15 = 32 * k.val + 31; omega))))
  generalize hq31 : View.writes (s3 : Memref sig .scVector .vmem S512x64 .f32).view (Elt F) g3_31 _ = g3_32
  have hD_32 : Done (F := F) L fI fT (32 * k.val + 32) g3_32 := by
    rw [← hq31]
    exact lane_done4' (F := F) L fI fT hidx (32 * k.val + 31) _ rfl g3_31 hD_31
      (k0_off302 k) (k0_off304 k) (k0_off306 k) (k0_off308 k) (offS_302 k) (offS_304 k) (offS_306 k) (offS_308 k) _ _ _ _ _ _ _ _
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 0 _ rfl _ _ (offS_302 k) _ _ _ x)
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 16 _ rfl _ _ (offS_304 k) _ _ _ x)
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 32 _ rfl _ _ (offS_306 k) _ _ _ x)
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 48 _ rfl _ _ (offS_308 k) _ _ _ x)
  clear hq31 hD_31 hr_1_15
  -- the read shares the first half's new fetches hold go behind the ones that are back
  irevert Ht0 Ht1 Ht2 Ht3 Ht4 Ht5 Ht6 Ht7 Ht8 Ht9 Ht10 Ht11 Ht12 Ht13 Ht14 Ht15
  iintro Ht0 Ht1 Ht2 Ht3 Ht4 Ht5 Ht6 Ht7 Ht8 Ht9 Ht10 Ht11 Ht12 Ht13 Ht14 Ht15
  -- (the second half's fetches complete on the cell numbered 1: the read share numbered 1 is kept out of sight meanwhile)
  generalize hq1 : Transfers.shareTokN q 1 = q1
  sl_exec_parts (disch := first | exact slab_ok_g' _ _ _ rfl (hA' _ _ _ _ _) | (refine row_ok4' _ _ ?_ ?_ _ _ rfl (hR' _ _ _ _ _) <;> decide))
  subst hq1
  sl_step
  rw [if_pos (by omega)]
  -- the new fetches' slab words are the slab-word scratch's words of groups 2 (k + 1) and 2 (k + 1) + 1
  have hw0_0 : region_lt.sl.v2175 (F := F) g1 k hc1 = wAt g1 (2 * (k.val + 1) + 0) 0 :=
    wAt_of_load1 (F := F) g1 (k0_off163 k) _ 0 (by decide) _ _ _ (2 * (k.val + 1) + 0) (by have h := off163 k; omega) (by omega)
  have ho0_0 : k0_off164 (region_lt.sl.v2175 (F := F) g1 k hc1) = ![(wAt g1 (2 * (k.val + 1) + 0) 0).toNat, 0] := by rw [hw0_0]; rfl
  ihave Ht0 := (Entails.of_eq (rest_of_exec (F := F) d L q fT 0 (k0_off164 (region_lt.sl.v2175 (F := F) g1 k hc1)) _ (wAt g1 (2 * (k.val + 1) + 0) 0) (slab_inb _ (wAt_slab g1 hS1 (2 * (k.val + 1) + 0) 0)) ho0_0)) $$ Ht0
  have hw0_1 : region_lt.sl.v2184 (F := F) g1 k hc1 = wAt g1 (2 * (k.val + 1) + 0) 1 :=
    wAt_of_load1 (F := F) g1 (k0_off163 k) _ 1 (by decide) _ _ _ (2 * (k.val + 1) + 0) (by have h := off163 k; omega) (by omega)
  have ho0_1 : k0_off165 (region_lt.sl.v2184 (F := F) g1 k hc1) = ![(wAt g1 (2 * (k.val + 1) + 0) 1).toNat, 0] := by rw [hw0_1]; rfl
  ihave Ht1 := (Entails.of_eq (rest_of_exec (F := F) d L q fT 1 (k0_off165 (region_lt.sl.v2184 (F := F) g1 k hc1)) _ (wAt g1 (2 * (k.val + 1) + 0) 1) (slab_inb _ (wAt_slab g1 hS1 (2 * (k.val + 1) + 0) 1)) ho0_1)) $$ Ht1
  have hw0_2 : region_lt.sl.v2193 (F := F) g1 k hc1 = wAt g1 (2 * (k.val + 1) + 0) 2 :=
    wAt_of_load1 (F := F) g1 (k0_off163 k) _ 2 (by decide) _ _ _ (2 * (k.val + 1) + 0) (by have h := off163 k; omega) (by omega)
  have ho0_2 : k0_off166 (region_lt.sl.v2193 (F := F) g1 k hc1) = ![(wAt g1 (2 * (k.val + 1) + 0) 2).toNat, 0] := by rw [hw0_2]; rfl
  ihave Ht2 := (Entails.of_eq (rest_of_exec (F := F) d L q fT 2 (k0_off166 (region_lt.sl.v2193 (F := F) g1 k hc1)) _ (wAt g1 (2 * (k.val + 1) + 0) 2) (slab_inb _ (wAt_slab g1 hS1 (2 * (k.val + 1) + 0) 2)) ho0_2)) $$ Ht2
  have hw0_3 : region_lt.sl.v2202 (F := F) g1 k hc1 = wAt g1 (2 * (k.val + 1) + 0) 3 :=
    wAt_of_load1 (F := F) g1 (k0_off163 k) _ 3 (by decide) _ _ _ (2 * (k.val + 1) + 0) (by have h := off163 k; omega) (by omega)
  have ho0_3 : k0_off167 (region_lt.sl.v2202 (F := F) g1 k hc1) = ![(wAt g1 (2 * (k.val + 1) + 0) 3).toNat, 0] := by rw [hw0_3]; rfl
  ihave Ht3 := (Entails.of_eq (rest_of_exec (F := F) d L q fT 3 (k0_off167 (region_lt.sl.v2202 (F := F) g1 k hc1)) _ (wAt g1 (2 * (k.val + 1) + 0) 3) (slab_inb _ (wAt_slab g1 hS1 (2 * (k.val + 1) + 0) 3)) ho0_3)) $$ Ht3
  have hw0_4 : region_lt.sl.v2211 (F := F) g1 k hc1 = wAt g1 (2 * (k.val + 1) + 0) 4 :=
    wAt_of_load1 (F := F) g1 (k0_off163 k) _ 4 (by decide) _ _ _ (2 * (k.val + 1) + 0) (by have h := off163 k; omega) (by omega)
  have ho0_4 : k0_off168 (region_lt.sl.v2211 (F := F) g1 k hc1) = ![(wAt g1 (2 * (k.val + 1) + 0) 4).toNat, 0] := by rw [hw0_4]; rfl
  ihave Ht4 := (Entails.of_eq (rest_of_exec (F := F) d L q fT 4 (k0_off168 (region_lt.sl.v2211 (F := F) g1 k hc1)) _ (wAt g1 (2 * (k.val + 1) + 0) 4) (slab_inb _ (wAt_slab g1 hS1 (2 * (k.val + 1) + 0) 4)) ho0_4)) $$ Ht4
  have hw0_5 : region_lt.sl.v2220 (F := F) g1 k hc1 = wAt g1 (2 * (k.val + 1) + 0) 5 :=
    wAt_of_load1 (F := F) g1 (k0_off163 k) _ 5 (by decide) _ _ _ (2 * (k.val + 1) + 0) (by have h := off163 k; omega) (by omega)
  have ho0_5 : k0_off169 (region_lt.sl.v2220 (F := F) g1 k hc1) = ![(wAt g1 (2 * (k.val + 1) + 0) 5).toNat, 0] := by rw [hw0_5]; rfl
  ihave Ht5 := (Entails.of_eq (rest_of_exec (F := F) d L q fT 5 (k0_off169 (region_lt.sl.v2220 (F := F) g1 k hc1)) _ (wAt g1 (2 * (k.val + 1) + 0) 5) (slab_inb _ (wAt_slab g1 hS1 (2 * (k.val + 1) + 0) 5)) ho0_5)) $$ Ht5
  have hw0_6 : region_lt.sl.v2229 (F := F) g1 k hc1 = wAt g1 (2 * (k.val + 1) + 0) 6 :=
    wAt_of_load1 (F := F) g1 (k0_off163 k) _ 6 (by decide) _ _ _ (2 * (k.val + 1) + 0) (by have h := off163 k; omega) (by omega)
  have ho0_6 : k0_off170 (region_lt.sl.v2229 (F := F) g1 k hc1) = ![(wAt g1 (2 * (k.val + 1) + 0) 6).toNat, 0] := by rw [hw0_6]; rfl
  ihave Ht6 := (Entails.of_eq (rest_of_exec (F := F) d L q fT 6 (k0_off170 (region_lt.sl.v2229 (F := F) g1 k hc1)) _ (wAt g1 (2 * (k.val + 1) + 0) 6) (slab_inb _ (wAt_slab g1 hS1 (2 * (k.val + 1) + 0) 6)) ho0_6)) $$ Ht6
  have hw0_7 : region_lt.sl.v2238 (F := F) g1 k hc1 = wAt g1 (2 * (k.val + 1) + 0) 7 :=
    wAt_of_load1 (F := F) g1 (k0_off163 k) _ 7 (by decide) _ _ _ (2 * (k.val + 1) + 0) (by have h := off163 k; omega) (by omega)
  have ho0_7 : k0_off171 (region_lt.sl.v2238 (F := F) g1 k hc1) = ![(wAt g1 (2 * (k.val + 1) + 0) 7).toNat, 0] := by rw [hw0_7]; rfl
  ihave Ht7 := (Entails.of_eq (rest_of_exec (F := F) d L q fT 7 (k0_off171 (region_lt.sl.v2238 (F := F) g1 k hc1)) _ (wAt g1 (2 * (k.val + 1) + 0) 7) (slab_inb _ (wAt_slab g1 hS1 (2 * (k.val + 1) + 0) 7)) ho0_7)) $$ Ht7
  have hw0_8 : region_lt.sl.v2247 (F := F) g1 k hc1 = wAt g1 (2 * (k.val + 1) + 0) 8 :=
    wAt_of_load1 (F := F) g1 (k0_off163 k) _ 8 (by decide) _ _ _ (2 * (k.val + 1) + 0) (by have h := off163 k; omega) (by omega)
  have ho0_8 : k0_off172 (region_lt.sl.v2247 (F := F) g1 k hc1) = ![(wAt g1 (2 * (k.val + 1) + 0) 8).toNat, 0] := by rw [hw0_8]; rfl
  ihave Ht8 := (Entails.of_eq (rest_of_exec (F := F) d L q fT 8 (k0_off172 (region_lt.sl.v2247 (F := F) g1 k hc1)) _ (wAt g1 (2 * (k.val + 1) + 0) 8) (slab_inb _ (wAt_slab g1 hS1 (2 * (k.val + 1) + 0) 8)) ho0_8)) $$ Ht8
  have hw0_9 : region_lt.sl.v2256 (F := F) g1 k hc1 = wAt g1 (2 * (k.val + 1) + 0) 9 :=
    wAt_of_load1 (F := F) g1 (k0_off163 k) _ 9 (by decide) _ _ _ (2 * (k.val + 1) + 0) (by have h := off163 k; omega) (by omega)
  have ho0_9 : k0_off173 (region_lt.sl.v2256 (F := F) g1 k hc1) = ![(wAt g1 (2 * (k.val + 1) + 0) 9).toNat, 0] := by rw [hw0_9]; rfl
  ihave Ht9 := (Entails.of_eq (rest_of_exec (F := F) d L q fT 9 (k0_off173 (region_lt.sl.v2256 (F := F) g1 k hc1)) _ (wAt g1 (2 * (k.val + 1) + 0) 9) (slab_inb _ (wAt_slab g1 hS1 (2 * (k.val + 1) + 0) 9)) ho0_9)) $$ Ht9
  have hw0_10 : region_lt.sl.v2265 (F := F) g1 k hc1 = wAt g1 (2 * (k.val + 1) + 0) 10 :=
    wAt_of_load1 (F := F) g1 (k0_off163 k) _ 10 (by decide) _ _ _ (2 * (k.val + 1) + 0) (by have h := off163 k; omega) (by omega)
  have ho0_10 : k0_off174 (region_lt.sl.v2265 (F := F) g1 k hc1) = ![(wAt g1 (2 * (k.val + 1) + 0) 10).toNat, 0] := by rw [hw0_10]; rfl
  ihave Ht10 := (Entails.of_eq (rest_of_exec (F := F) d L q fT 10 (k0_off174 (region_lt.sl.v2265 (F := F) g1 k hc1)) _ (wAt g1 (2 * (k.val + 1) + 0) 10) (slab_inb _ (wAt_slab g1 hS1 (2 * (k.val + 1) + 0) 10)) ho0_10)) $$ Ht10
  have hw0_11 : region_lt.sl.v2274 (F := F) g1 k hc1 = wAt g1 (2 * (k.val + 1) + 0) 11 :=
    wAt_of_load1 (F := F) g1 (k0_off163 k) _ 11 (by decide) _ _ _ (2 * (k.val + 1) + 0) (by have h := off163 k; omega) (by omega)
  have ho0_11 : k0_off175 (region_lt.sl.v2274 (F := F) g1 k hc1) = ![(wAt g1 (2 * (k.val + 1) + 0) 11).toNat, 0] := by rw [hw0_11]; rfl
  ihave Ht11 := (Entails.of_eq (rest_of_exec (F := F) d L q fT 11 (k0_off175 (region_lt.sl.v2274 (F := F) g1 k hc1)) _ (wAt g1 (2 * (k.val + 1) + 0) 11) (slab_inb _ (wAt_slab g1 hS1 (2 * (k.val + 1) + 0) 11)) ho0_11)) $$ Ht11
  have hw0_12 : region_lt.sl.v2283 (F := F) g1 k hc1 = wAt g1 (2 * (k.val + 1) + 0) 12 :=
    wAt_of_load1 (F := F) g1 (k0_off163 k) _ 12 (by decide) _ _ _ (2 * (k.val + 1) + 0) (by have h := off163 k; omega) (by omega)
  have ho0_12 : k0_off176 (region_lt.sl.v2283 (F := F) g1 k hc1) = ![(wAt g1 (2 * (k.val + 1) + 0) 12).toNat, 0] := by rw [hw0_12]; rfl
  ihave Ht12 := (Entails.of_eq (rest_of_exec (F := F) d L q fT 12 (k0_off176 (region_lt.sl.v2283 (F := F) g1 k hc1)) _ (wAt g1 (2 * (k.val + 1) + 0) 12) (slab_inb _ (wAt_slab g1 hS1 (2 * (k.val + 1) + 0) 12)) ho0_12)) $$ Ht12
  have hw0_13 : region_lt.sl.v2292 (F := F) g1 k hc1 = wAt g1 (2 * (k.val + 1) + 0) 13 :=
    wAt_of_load1 (F := F) g1 (k0_off163 k) _ 13 (by decide) _ _ _ (2 * (k.val + 1) + 0) (by have h := off163 k; omega) (by omega)
  have ho0_13 : k0_off177 (region_lt.sl.v2292 (F := F) g1 k hc1) = ![(wAt g1 (2 * (k.val + 1) + 0) 13).toNat, 0] := by rw [hw0_13]; rfl
  ihave Ht13 := (Entails.of_eq (rest_of_exec (F := F) d L q fT 13 (k0_off177 (region_lt.sl.v2292 (F := F) g1 k hc1)) _ (wAt g1 (2 * (k.val + 1) + 0) 13) (slab_inb _ (wAt_slab g1 hS1 (2 * (k.val + 1) + 0) 13)) ho0_13)) $$ Ht13
  have hw0_14 : region_lt.sl.v2301 (F := F) g1 k hc1 = wAt g1 (2 * (k.val + 1) + 0) 14 :=
    wAt_of_load1 (F := F) g1 (k0_off163 k) _ 14 (by decide) _ _ _ (2 * (k.val + 1) + 0) (by have h := off163 k; omega) (by omega)
  have ho0_14 : k0_off178 (region_lt.sl.v2301 (F := F) g1 k hc1) = ![(wAt g1 (2 * (k.val + 1) + 0) 14).toNat, 0] := by rw [hw0_14]; rfl
  ihave Ht14 := (Entails.of_eq (rest_of_exec (F := F) d L q fT 14 (k0_off178 (region_lt.sl.v2301 (F := F) g1 k hc1)) _ (wAt g1 (2 * (k.val + 1) + 0) 14) (slab_inb _ (wAt_slab g1 hS1 (2 * (k.val + 1) + 0) 14)) ho0_14)) $$ Ht14
  have hw0_15 : region_lt.sl.v2310 (F := F) g1 k hc1 = wAt g1 (2 * (k.val + 1) + 0) 15 :=
    wAt_of_load1 (F := F) g1 (k0_off163 k) _ 15 (by decide) _ _ _ (2 * (k.val + 1) + 0) (by have h := off163 k; omega) (by omega)
  have ho0_15 : k0_off179 (region_lt.sl.v2310 (F := F) g1 k hc1) = ![(wAt g1 (2 * (k.val + 1) + 0) 15).toNat, 0] := by rw [hw0_15]; rfl
  ihave Ht15 := (Entails.of_eq (rest_of_exec (F := F) d L q fT 15 (k0_off179 (region_lt.sl.v2310 (F := F) g1 k hc1)) _ (wAt g1 (2 * (k.val + 1) + 0) 15) (slab_inb _ (wAt_slab g1 hS1 (2 * (k.val + 1) + 0) 15)) ho0_15)) $$ Ht15
  have hw1_0 : region_lt.sl.v2175_1 (F := F) g1 k hc2 = wAt g1 (2 * (k.val + 1) + 1) 0 :=
    wAt_of_load1 (F := F) g1 (k0_off309 k) _ 0 (by decide) _ _ _ (2 * (k.val + 1) + 1) (by have h := off309 k; omega) (by omega)
  have ho1_0 : k0_off310 (region_lt.sl.v2175_1 (F := F) g1 k hc2) = ![(wAt g1 (2 * (k.val + 1) + 1) 0).toNat, 0] := by rw [hw1_0]; rfl
  ihave Ht16 := (Entails.of_eq (rest_of_exec (F := F) d L q fT 16 (k0_off310 (region_lt.sl.v2175_1 (F := F) g1 k hc2)) _ (wAt g1 (2 * (k.val + 1) + 1) 0) (slab_inb _ (wAt_slab g1 hS1 (2 * (k.val + 1) + 1) 0)) ho1_0)) $$ Ht16
  have hw1_1 : region_lt.sl.v2184_1 (F := F) g1 k hc2 = wAt g1 (2 * (k.val + 1) + 1) 1 :=
    wAt_of_load1 (F := F) g1 (k0_off309 k) _ 1 (by decide) _ _ _ (2 * (k.val + 1) + 1) (by have h := off309 k; omega) (by omega)
  have ho1_1 : k0_off311 (region_lt.sl.v2184_1 (F := F) g1 k hc2) = ![(wAt g1 (2 * (k.val + 1) + 1) 1).toNat, 0] := by rw [hw1_1]; rfl
  ihave Ht17 := (Entails.of_eq (rest_of_exec (F := F) d L q fT 17 (k0_off311 (region_lt.sl.v2184_1 (F := F) g1 k hc2)) _ (wAt g1 (2 * (k.val + 1) + 1) 1) (slab_inb _ (wAt_slab g1 hS1 (2 * (k.val + 1) + 1) 1)) ho1_1)) $$ Ht17
  have hw1_2 : region_lt.sl.v2193_1 (F := F) g1 k hc2 = wAt g1 (2 * (k.val + 1) + 1) 2 :=
    wAt_of_load1 (F := F) g1 (k0_off309 k) _ 2 (by decide) _ _ _ (2 * (k.val + 1) + 1) (by have h := off309 k; omega) (by omega)
  have ho1_2 : k0_off312 (region_lt.sl.v2193_1 (F := F) g1 k hc2) = ![(wAt g1 (2 * (k.val + 1) + 1) 2).toNat, 0] := by rw [hw1_2]; rfl
  ihave Ht18 := (Entails.of_eq (rest_of_exec (F := F) d L q fT 18 (k0_off312 (region_lt.sl.v2193_1 (F := F) g1 k hc2)) _ (wAt g1 (2 * (k.val + 1) + 1) 2) (slab_inb _ (wAt_slab g1 hS1 (2 * (k.val + 1) + 1) 2)) ho1_2)) $$ Ht18
  have hw1_3 : region_lt.sl.v2202_1 (F := F) g1 k hc2 = wAt g1 (2 * (k.val + 1) + 1) 3 :=
    wAt_of_load1 (F := F) g1 (k0_off309 k) _ 3 (by decide) _ _ _ (2 * (k.val + 1) + 1) (by have h := off309 k; omega) (by omega)
  have ho1_3 : k0_off313 (region_lt.sl.v2202_1 (F := F) g1 k hc2) = ![(wAt g1 (2 * (k.val + 1) + 1) 3).toNat, 0] := by rw [hw1_3]; rfl
  ihave Ht19 := (Entails.of_eq (rest_of_exec (F := F) d L q fT 19 (k0_off313 (region_lt.sl.v2202_1 (F := F) g1 k hc2)) _ (wAt g1 (2 * (k.val + 1) + 1) 3) (slab_inb _ (wAt_slab g1 hS1 (2 * (k.val + 1) + 1) 3)) ho1_3)) $$ Ht19
  have hw1_4 : region_lt.sl.v2211_1 (F := F) g1 k hc2 = wAt g1 (2 * (k.val + 1) + 1) 4 :=
    wAt_of_load1 (F := F) g1 (k0_off309 k) _ 4 (by decide) _ _ _ (2 * (k.val + 1) + 1) (by have h := off309 k; omega) (by omega)
  have ho1_4 : k0_off314 (region_lt.sl.v2211_1 (F := F) g1 k hc2) = ![(wAt g1 (2 * (k.val + 1) + 1) 4).toNat, 0] := by rw [hw1_4]; rfl
  ihave Ht20 := (Entails.of_eq (rest_of_exec (F := F) d L q fT 20 (k0_off314 (region_lt.sl.v2211_1 (F := F) g1 k hc2)) _ (wAt g1 (2 * (k.val + 1) + 1) 4) (slab_inb _ (wAt_slab g1 hS1 (2 * (k.val + 1) + 1) 4)) ho1_4)) $$ Ht20
  have hw1_5 : region_lt.sl.v2220_1 (F := F) g1 k hc2 = wAt g1 (2 * (k.val + 1) + 1) 5 :=
    wAt_of_load1 (F := F) g1 (k0_off309 k) _ 5 (by decide) _ _ _ (2 * (k.val + 1) + 1) (by have h := off309 k; omega) (by omega)
  have ho1_5 : k0_off315 (region_lt.sl.v2220_1 (F := F) g1 k hc2) = ![(wAt g1 (2 * (k.val + 1) + 1) 5).toNat, 0] := by rw [hw1_5]; rfl
  ihave Ht21 := (Entails.of_eq (rest_of_exec (F := F) d L q fT 21 (k0_off315 (region_lt.sl.v2220_1 (F := F) g1 k hc2)) _ (wAt g1 (2 * (k.val + 1) + 1) 5) (slab_inb _ (wAt_slab g1 hS1 (2 * (k.val + 1) + 1) 5)) ho1_5)) $$ Ht21
  have hw1_6 : region_lt.sl.v2229_1 (F := F) g1 k hc2 = wAt g1 (2 * (k.val + 1) + 1) 6 :=
    wAt_of_load1 (F := F) g1 (k0_off309 k) _ 6 (by decide) _ _ _ (2 * (k.val + 1) + 1) (by have h := off309 k; omega) (by omega)
  have ho1_6 : k0_off316 (region_lt.sl.v2229_1 (F := F) g1 k hc2) = ![(wAt g1 (2 * (k.val + 1) + 1) 6).toNat, 0] := by rw [hw1_6]; rfl
  ihave Ht22 := (Entails.of_eq (rest_of_exec (F := F) d L q fT 22 (k0_off316 (region_lt.sl.v2229_1 (F := F) g1 k hc2)) _ (wAt g1 (2 * (k.val + 1) + 1) 6) (slab_inb _ (wAt_slab g1 hS1 (2 * (k.val + 1) + 1) 6)) ho1_6)) $$ Ht22
  have hw1_7 : region_lt.sl.v2238_1 (F := F) g1 k hc2 = wAt g1 (2 * (k.val + 1) + 1) 7 :=
    wAt_of_load1 (F := F) g1 (k0_off309 k) _ 7 (by decide) _ _ _ (2 * (k.val + 1) + 1) (by have h := off309 k; omega) (by omega)
  have ho1_7 : k0_off317 (region_lt.sl.v2238_1 (F := F) g1 k hc2) = ![(wAt g1 (2 * (k.val + 1) + 1) 7).toNat, 0] := by rw [hw1_7]; rfl
  ihave Ht23 := (Entails.of_eq (rest_of_exec (F := F) d L q fT 23 (k0_off317 (region_lt.sl.v2238_1 (F := F) g1 k hc2)) _ (wAt g1 (2 * (k.val + 1) + 1) 7) (slab_inb _ (wAt_slab g1 hS1 (2 * (k.val + 1) + 1) 7)) ho1_7)) $$ Ht23
  have hw1_8 : region_lt.sl.v2247_1 (F := F) g1 k hc2 = wAt g1 (2 * (k.val + 1) + 1) 8 :=
    wAt_of_load1 (F := F) g1 (k0_off309 k) _ 8 (by decide) _ _ _ (2 * (k.val + 1) + 1) (by have h := off309 k; omega) (by omega)
  have ho1_8 : k0_off318 (region_lt.sl.v2247_1 (F := F) g1 k hc2) = ![(wAt g1 (2 * (k.val + 1) + 1) 8).toNat, 0] := by rw [hw1_8]; rfl
  ihave Ht24 := (Entails.of_eq (rest_of_exec (F := F) d L q fT 24 (k0_off318 (region_lt.sl.v2247_1 (F := F) g1 k hc2)) _ (wAt g1 (2 * (k.val + 1) + 1) 8) (slab_inb _ (wAt_slab g1 hS1 (2 * (k.val + 1) + 1) 8)) ho1_8)) $$ Ht24
  have hw1_9 : region_lt.sl.v2256_1 (F := F) g1 k hc2 = wAt g1 (2 * (k.val + 1) + 1) 9 :=
    wAt_of_load1 (F := F) g1 (k0_off309 k) _ 9 (by decide) _ _ _ (2 * (k.val + 1) + 1) (by have h := off309 k; omega) (by omega)
  have ho1_9 : k0_off319 (region_lt.sl.v2256_1 (F := F) g1 k hc2) = ![(wAt g1 (2 * (k.val + 1) + 1) 9).toNat, 0] := by rw [hw1_9]; rfl
  ihave Ht25 := (Entails.of_eq (rest_of_exec (F := F) d L q fT 25 (k0_off319 (region_lt.sl.v2256_1 (F := F) g1 k hc2)) _ (wAt g1 (2 * (k.val + 1) + 1) 9) (slab_inb _ (wAt_slab g1 hS1 (2 * (k.val + 1) + 1) 9)) ho1_9)) $$ Ht25
  have hw1_10 : region_lt.sl.v2265_1 (F := F) g1 k hc2 = wAt g1 (2 * (k.val + 1) + 1) 10 :=
    wAt_of_load1 (F := F) g1 (k0_off309 k) _ 10 (by decide) _ _ _ (2 * (k.val + 1) + 1) (by have h := off309 k; omega) (by omega)
  have ho1_10 : k0_off320 (region_lt.sl.v2265_1 (F := F) g1 k hc2) = ![(wAt g1 (2 * (k.val + 1) + 1) 10).toNat, 0] := by rw [hw1_10]; rfl
  ihave Ht26 := (Entails.of_eq (rest_of_exec (F := F) d L q fT 26 (k0_off320 (region_lt.sl.v2265_1 (F := F) g1 k hc2)) _ (wAt g1 (2 * (k.val + 1) + 1) 10) (slab_inb _ (wAt_slab g1 hS1 (2 * (k.val + 1) + 1) 10)) ho1_10)) $$ Ht26
  have hw1_11 : region_lt.sl.v2274_1 (F := F) g1 k hc2 = wAt g1 (2 * (k.val + 1) + 1) 11 :=
    wAt_of_load1 (F := F) g1 (k0_off309 k) _ 11 (by decide) _ _ _ (2 * (k.val + 1) + 1) (by have h := off309 k; omega) (by omega)
  have ho1_11 : k0_off321 (region_lt.sl.v2274_1 (F := F) g1 k hc2) = ![(wAt g1 (2 * (k.val + 1) + 1) 11).toNat, 0] := by rw [hw1_11]; rfl
  ihave Ht27 := (Entails.of_eq (rest_of_exec (F := F) d L q fT 27 (k0_off321 (region_lt.sl.v2274_1 (F := F) g1 k hc2)) _ (wAt g1 (2 * (k.val + 1) + 1) 11) (slab_inb _ (wAt_slab g1 hS1 (2 * (k.val + 1) + 1) 11)) ho1_11)) $$ Ht27
  have hw1_12 : region_lt.sl.v2283_1 (F := F) g1 k hc2 = wAt g1 (2 * (k.val + 1) + 1) 12 :=
    wAt_of_load1 (F := F) g1 (k0_off309 k) _ 12 (by decide) _ _ _ (2 * (k.val + 1) + 1) (by have h := off309 k; omega) (by omega)
  have ho1_12 : k0_off322 (region_lt.sl.v2283_1 (F := F) g1 k hc2) = ![(wAt g1 (2 * (k.val + 1) + 1) 12).toNat, 0] := by rw [hw1_12]; rfl
  ihave Ht28 := (Entails.of_eq (rest_of_exec (F := F) d L q fT 28 (k0_off322 (region_lt.sl.v2283_1 (F := F) g1 k hc2)) _ (wAt g1 (2 * (k.val + 1) + 1) 12) (slab_inb _ (wAt_slab g1 hS1 (2 * (k.val + 1) + 1) 12)) ho1_12)) $$ Ht28
  have hw1_13 : region_lt.sl.v2292_1 (F := F) g1 k hc2 = wAt g1 (2 * (k.val + 1) + 1) 13 :=
    wAt_of_load1 (F := F) g1 (k0_off309 k) _ 13 (by decide) _ _ _ (2 * (k.val + 1) + 1) (by have h := off309 k; omega) (by omega)
  have ho1_13 : k0_off323 (region_lt.sl.v2292_1 (F := F) g1 k hc2) = ![(wAt g1 (2 * (k.val + 1) + 1) 13).toNat, 0] := by rw [hw1_13]; rfl
  ihave Ht29 := (Entails.of_eq (rest_of_exec (F := F) d L q fT 29 (k0_off323 (region_lt.sl.v2292_1 (F := F) g1 k hc2)) _ (wAt g1 (2 * (k.val + 1) + 1) 13) (slab_inb _ (wAt_slab g1 hS1 (2 * (k.val + 1) + 1) 13)) ho1_13)) $$ Ht29
  have hw1_14 : region_lt.sl.v2301_1 (F := F) g1 k hc2 = wAt g1 (2 * (k.val + 1) + 1) 14 :=
    wAt_of_load1 (F := F) g1 (k0_off309 k) _ 14 (by decide) _ _ _ (2 * (k.val + 1) + 1) (by have h := off309 k; omega) (by omega)
  have ho1_14 : k0_off324 (region_lt.sl.v2301_1 (F := F) g1 k hc2) = ![(wAt g1 (2 * (k.val + 1) + 1) 14).toNat, 0] := by rw [hw1_14]; rfl
  ihave Ht30 := (Entails.of_eq (rest_of_exec (F := F) d L q fT 30 (k0_off324 (region_lt.sl.v2301_1 (F := F) g1 k hc2)) _ (wAt g1 (2 * (k.val + 1) + 1) 14) (slab_inb _ (wAt_slab g1 hS1 (2 * (k.val + 1) + 1) 14)) ho1_14)) $$ Ht30
  have hw1_15 : region_lt.sl.v2310_1 (F := F) g1 k hc2 = wAt g1 (2 * (k.val + 1) + 1) 15 :=
    wAt_of_load1 (F := F) g1 (k0_off309 k) _ 15 (by decide) _ _ _ (2 * (k.val + 1) + 1) (by have h := off309 k; omega) (by omega)
  have ho1_15 : k0_off325 (region_lt.sl.v2310_1 (F := F) g1 k hc2) = ![(wAt g1 (2 * (k.val + 1) + 1) 15).toNat, 0] := by rw [hw1_15]; rfl
  ihave Ht31 := (Entails.of_eq (rest_of_exec (F := F) d L q fT 31 (k0_off325 (region_lt.sl.v2310_1 (F := F) g1 k hc2)) _ (wAt g1 (2 * (k.val + 1) + 1) 15) (slab_inb _ (wAt_slab g1 hS1 (2 * (k.val + 1) + 1) 15)) ho1_15)) $$ Ht31
  try delta region_lt.sl.dma0
  try delta region_lt.sl.dma1
  try delta region_lt.sl.dma2
  try delta region_lt.sl.dma3
  try delta region_lt.sl.dma4
  try delta region_lt.sl.dma5
  try delta region_lt.sl.dma6
  try delta region_lt.sl.dma7
  try delta region_lt.sl.dma8
  try delta region_lt.sl.dma9
  try delta region_lt.sl.dma10
  try delta region_lt.sl.dma11
  try delta region_lt.sl.dma12
  try delta region_lt.sl.dma13
  try delta region_lt.sl.dma14
  try delta region_lt.sl.dma15
  try delta region_lt.sl.dma16
  try delta region_lt.sl.dma17
  try delta region_lt.sl.dma18
  try delta region_lt.sl.dma19
  try delta region_lt.sl.dma20
  try delta region_lt.sl.dma21
  try delta region_lt.sl.dma22
  try delta region_lt.sl.dma23
  try delta region_lt.sl.dma24
  try delta region_lt.sl.dma25
  try delta region_lt.sl.dma26
  try delta region_lt.sl.dma27
  try delta region_lt.sl.dma28
  try delta region_lt.sl.dma29
  try delta region_lt.sl.dma30
  try delta region_lt.sl.dma31
  try delta region_lt.sl.dma32
  try delta region_lt.sl.dma33
  try delta region_lt.sl.dma34
  try delta region_lt.sl.dma35
  try delta region_lt.sl.dma36
  try delta region_lt.sl.dma37
  try delta region_lt.sl.dma38
  try delta region_lt.sl.dma39
  try delta region_lt.sl.dma40
  try delta region_lt.sl.dma41
  try delta region_lt.sl.dma42
  try delta region_lt.sl.dma43
  try delta region_lt.sl.dma44
  try delta region_lt.sl.dma45
  try delta region_lt.sl.dma46
  try delta region_lt.sl.dma47
  try delta region_lt.sl.dma48
  try delta region_lt.sl.dma49
  try delta region_lt.sl.dma50
  try delta region_lt.sl.dma51
  try delta region_lt.sl.dma52
  try delta region_lt.sl.dma53
  try delta region_lt.sl.dma54
  try delta region_lt.sl.dma55
  try delta region_lt.sl.dma56
  try delta region_lt.sl.dma57
  try delta region_lt.sl.dma58
  try delta region_lt.sl.dma59
  try delta region_lt.sl.dma60
  try delta region_lt.sl.dma61
  try delta region_lt.sl.dma62
  try delta region_lt.sl.dma63
  try delta region_lt.sl.dma0_1
  try delta region_lt.sl.dma1_1
  try delta region_lt.sl.dma2_1
  try delta region_lt.sl.dma3_1
  try delta region_lt.sl.dma4_1
  try delta region_lt.sl.dma5_1
  try delta region_lt.sl.dma6_1
  try delta region_lt.sl.dma7_1
  try delta region_lt.sl.dma8_1
  try delta region_lt.sl.dma9_1
  try delta region_lt.sl.dma10_1
  try delta region_lt.sl.dma11_1
  try delta region_lt.sl.dma12_1
  try delta region_lt.sl.dma13_1
  try delta region_lt.sl.dma14_1
  try delta region_lt.sl.dma15_1
  try delta region_lt.sl.dma16_1
  try delta region_lt.sl.dma17_1
  try delta region_lt.sl.dma18_1
  try delta region_lt.sl.dma19_1
  try delta region_lt.sl.dma20_1
  try delta region_lt.sl.dma21_1
  try delta region_lt.sl.dma22_1
  try delta region_lt.sl.dma23_1
  try delta region_lt.sl.dma24_1
  try delta region_lt.sl.dma25_1
  try delta region_lt.sl.dma26_1
  try delta region_lt.sl.dma27_1
  try delta region_lt.sl.dma28_1
  try delta region_lt.sl.dma29_1
  try delta region_lt.sl.dma30_1
  try delta region_lt.sl.dma31_1
  try delta region_lt.sl.dma32_1
  try delta region_lt.sl.dma33_1
  try delta region_lt.sl.dma34_1
  try delta region_lt.sl.dma35_1
  try delta region_lt.sl.dma36_1
  try delta region_lt.sl.dma37_1
  try delta region_lt.sl.dma38_1
  try delta region_lt.sl.dma39_1
  try delta region_lt.sl.dma0_2
  try delta region_lt.sl.dma1_2
  try delta region_lt.sl.dma2_2
  try delta region_lt.sl.dma3_2
  try delta region_lt.sl.dma4_2
  try delta region_lt.sl.dma5_2
  try delta region_lt.sl.dma6_2
  try delta region_lt.sl.dma7_2
  try delta region_lt.sl.dma8_2
  try delta region_lt.sl.dma9_2
  try delta region_lt.sl.dma10_2
  try delta region_lt.sl.dma11_2
  try delta region_lt.sl.dma12_2
  try delta region_lt.sl.dma13_2
  try delta region_lt.sl.dma14_2
  try delta region_lt.sl.dma15_2
  try delta region_lt.sl.dma16_2
  try delta region_lt.sl.dma17_2
  try delta region_lt.sl.dma18_2
  try delta region_lt.sl.dma19_2
  simp only [writes_pair]
  rw [deliv_of_exec (F := F) d L q fT f4 0 0 inb_S2x16x8x64_S1x1x8x64_0_0_0_0 0 _ (k0_off164 (region_lt.sl.v2175 (F := F) g1 k hc1)) _ (wAt g1 (2 * (k.val + 1) + 0) 0) (slab_inb _ (wAt_slab g1 hS1 (2 * (k.val + 1) + 0) 0)) ho0_0,
    deliv_of_exec (F := F) d L q fT f4 0 1 inb_S2x16x8x64_S1x1x8x64_0_1_0_0 1 _ (k0_off165 (region_lt.sl.v2184 (F := F) g1 k hc1)) _ (wAt g1 (2 * (k.val + 1) + 0) 1) (slab_inb _ (wAt_slab g1 hS1 (2 * (k.val + 1) + 0) 1)) ho0_1,
    deliv_of_exec (F := F) d L q fT f4 0 2 inb_S2x16x8x64_S1x1x8x64_0_2_0_0 2 _ (k0_off166 (region_lt.sl.v2193 (F := F) g1 k hc1)) _ (wAt g1 (2 * (k.val + 1) + 0) 2) (slab_inb _ (wAt_slab g1 hS1 (2 * (k.val + 1) + 0) 2)) ho0_2,
    deliv_of_exec (F := F) d L q fT f4 0 3 inb_S2x16x8x64_S1x1x8x64_0_3_0_0 3 _ (k0_off167 (region_lt.sl.v2202 (F := F) g1 k hc1)) _ (wAt g1 (2 * (k.val + 1) + 0) 3) (slab_inb _ (wAt_slab g1 hS1 (2 * (k.val + 1) + 0) 3)) ho0_3,
    deliv_of_exec (F := F) d L q fT f4 0 4 inb_S2x16x8x64_S1x1x8x64_0_4_0_0 4 _ (k0_off168 (region_lt.sl.v2211 (F := F) g1 k hc1)) _ (wAt g1 (2 * (k.val + 1) + 0) 4) (slab_inb _ (wAt_slab g1 hS1 (2 * (k.val + 1) + 0) 4)) ho0_4,
    deliv_of_exec (F := F) d L q fT f4 0 5 inb_S2x16x8x64_S1x1x8x64_0_5_0_0 5 _ (k0_off169 (region_lt.sl.v2220 (F := F) g1 k hc1)) _ (wAt g1 (2 * (k.val + 1) + 0) 5) (slab_inb _ (wAt_slab g1 hS1 (2 * (k.val + 1) + 0) 5)) ho0_5,
    deliv_of_exec (F := F) d L q fT f4 0 6 inb_S2x16x8x64_S1x1x8x64_0_6_0_0 6 _ (k0_off170 (region_lt.sl.v2229 (F := F) g1 k hc1)) _ (wAt g1 (2 * (k.val + 1) + 0) 6) (slab_inb _ (wAt_slab g1 hS1 (2 * (k.val + 1) + 0) 6)) ho0_6,
    deliv_of_exec (F := F) d L q fT f4 0 7 inb_S2x16x8x64_S1x1x8x64_0_7_0_0 7 _ (k0_off171 (region_lt.sl.v2238 (F := F) g1 k hc1)) _ (wAt g1 (2 * (k.val + 1) + 0) 7) (slab_inb _ (wAt_slab g1 hS1 (2 * (k.val + 1) + 0) 7)) ho0_7,
    deliv_of_exec (F := F) d L q fT f4 0 8 inb_S2x16x8x64_S1x1x8x64_0_8_0_0 8 _ (k0_off172 (region_lt.sl.v2247 (F := F) g1 k hc1)) _ (wAt g1 (2 * (k.val + 1) + 0) 8) (slab_inb _ (wAt_slab g1 hS1 (2 * (k.val + 1) + 0) 8)) ho0_8,
    deliv_of_exec (F := F) d L q fT f4 0 9 inb_S2x16x8x64_S1x1x8x64_0_9_0_0 9 _ (k0_off173 (region_lt.sl.v2256 (F := F) g1 k hc1)) _ (wAt g1 (2 * (k.val + 1) + 0) 9) (slab_inb _ (wAt_slab g1 hS1 (2 * (k.val + 1) + 0) 9)) ho0_9,
    deliv_of_exec (F := F) d L q fT f4 0 10 inb_S2x16x8x64_S1x1x8x64_0_10_0_0 10 _ (k0_off174 (region_lt.sl.v2265 (F := F) g1 k hc1)) _ (wAt g1 (2 * (k.val + 1) + 0) 10) (slab_inb _ (wAt_slab g1 hS1 (2 * (k.val + 1) + 0) 10)) ho0_10,
    deliv_of_exec (F := F) d L q fT f4 0 11 inb_S2x16x8x64_S1x1x8x64_0_11_0_0 11 _ (k0_off175 (region_lt.sl.v2274 (F := F) g1 k hc1)) _ (wAt g1 (2 * (k.val + 1) + 0) 11) (slab_inb _ (wAt_slab g1 hS1 (2 * (k.val + 1) + 0) 11)) ho0_11,
    deliv_of_exec (F := F) d L q fT f4 0 12 inb_S2x16x8x64_S1x1x8x64_0_12_0_0 12 _ (k0_off176 (region_lt.sl.v2283 (F := F) g1 k hc1)) _ (wAt g1 (2 * (k.val + 1) + 0) 12) (slab_inb _ (wAt_slab g1 hS1 (2 * (k.val + 1) + 0) 12)) ho0_12,
    deliv_of_exec (F := F) d L q fT f4 0 13 inb_S2x16x8x64_S1x1x8x64_0_13_0_0 13 _ (k0_off177 (region_lt.sl.v2292 (F := F) g1 k hc1)) _ (wAt g1 (2 * (k.val + 1) + 0) 13) (slab_inb _ (wAt_slab g1 hS1 (2 * (k.val + 1) + 0) 13)) ho0_13,
    deliv_of_exec (F := F) d L q fT f4 0 14 inb_S2x16x8x64_S1x1x8x64_0_14_0_0 14 _ (k0_off178 (region_lt.sl.v2301 (F := F) g1 k hc1)) _ (wAt g1 (2 * (k.val + 1) + 0) 14) (slab_inb _ (wAt_slab g1 hS1 (2 * (k.val + 1) + 0) 14)) ho0_14,
    deliv_of_exec (F := F) d L q fT f4 0 15 inb_S2x16x8x64_S1x1x8x64_0_15_0_0 15 _ (k0_off179 (region_lt.sl.v2310 (F := F) g1 k hc1)) _ (wAt g1 (2 * (k.val + 1) + 0) 15) (slab_inb _ (wAt_slab g1 hS1 (2 * (k.val + 1) + 0) 15)) ho0_15]
  rw [deliv_of_exec (F := F) d L q fT f4 1 0 inb_S2x16x8x64_S1x1x8x64_1_0_0_0 16 _ (k0_off310 (region_lt.sl.v2175_1 (F := F) g1 k hc2)) _ (wAt g1 (2 * (k.val + 1) + 1) 0) (slab_inb _ (wAt_slab g1 hS1 (2 * (k.val + 1) + 1) 0)) ho1_0,
    deliv_of_exec (F := F) d L q fT f4 1 1 inb_S2x16x8x64_S1x1x8x64_1_1_0_0 17 _ (k0_off311 (region_lt.sl.v2184_1 (F := F) g1 k hc2)) _ (wAt g1 (2 * (k.val + 1) + 1) 1) (slab_inb _ (wAt_slab g1 hS1 (2 * (k.val + 1) + 1) 1)) ho1_1,
    deliv_of_exec (F := F) d L q fT f4 1 2 inb_S2x16x8x64_S1x1x8x64_1_2_0_0 18 _ (k0_off312 (region_lt.sl.v2193_1 (F := F) g1 k hc2)) _ (wAt g1 (2 * (k.val + 1) + 1) 2) (slab_inb _ (wAt_slab g1 hS1 (2 * (k.val + 1) + 1) 2)) ho1_2,
    deliv_of_exec (F := F) d L q fT f4 1 3 inb_S2x16x8x64_S1x1x8x64_1_3_0_0 19 _ (k0_off313 (region_lt.sl.v2202_1 (F := F) g1 k hc2)) _ (wAt g1 (2 * (k.val + 1) + 1) 3) (slab_inb _ (wAt_slab g1 hS1 (2 * (k.val + 1) + 1) 3)) ho1_3,
    deliv_of_exec (F := F) d L q fT f4 1 4 inb_S2x16x8x64_S1x1x8x64_1_4_0_0 20 _ (k0_off314 (region_lt.sl.v2211_1 (F := F) g1 k hc2)) _ (wAt g1 (2 * (k.val + 1) + 1) 4) (slab_inb _ (wAt_slab g1 hS1 (2 * (k.val + 1) + 1) 4)) ho1_4,
    deliv_of_exec (F := F) d L q fT f4 1 5 inb_S2x16x8x64_S1x1x8x64_1_5_0_0 21 _ (k0_off315 (region_lt.sl.v2220_1 (F := F) g1 k hc2)) _ (wAt g1 (2 * (k.val + 1) + 1) 5) (slab_inb _ (wAt_slab g1 hS1 (2 * (k.val + 1) + 1) 5)) ho1_5,
    deliv_of_exec (F := F) d L q fT f4 1 6 inb_S2x16x8x64_S1x1x8x64_1_6_0_0 22 _ (k0_off316 (region_lt.sl.v2229_1 (F := F) g1 k hc2)) _ (wAt g1 (2 * (k.val + 1) + 1) 6) (slab_inb _ (wAt_slab g1 hS1 (2 * (k.val + 1) + 1) 6)) ho1_6,
    deliv_of_exec (F := F) d L q fT f4 1 7 inb_S2x16x8x64_S1x1x8x64_1_7_0_0 23 _ (k0_off317 (region_lt.sl.v2238_1 (F := F) g1 k hc2)) _ (wAt g1 (2 * (k.val + 1) + 1) 7) (slab_inb _ (wAt_slab g1 hS1 (2 * (k.val + 1) + 1) 7)) ho1_7,
    deliv_of_exec (F := F) d L q fT f4 1 8 inb_S2x16x8x64_S1x1x8x64_1_8_0_0 24 _ (k0_off318 (region_lt.sl.v2247_1 (F := F) g1 k hc2)) _ (wAt g1 (2 * (k.val + 1) + 1) 8) (slab_inb _ (wAt_slab g1 hS1 (2 * (k.val + 1) + 1) 8)) ho1_8,
    deliv_of_exec (F := F) d L q fT f4 1 9 inb_S2x16x8x64_S1x1x8x64_1_9_0_0 25 _ (k0_off319 (region_lt.sl.v2256_1 (F := F) g1 k hc2)) _ (wAt g1 (2 * (k.val + 1) + 1) 9) (slab_inb _ (wAt_slab g1 hS1 (2 * (k.val + 1) + 1) 9)) ho1_9,
    deliv_of_exec (F := F) d L q fT f4 1 10 inb_S2x16x8x64_S1x1x8x64_1_10_0_0 26 _ (k0_off320 (region_lt.sl.v2265_1 (F := F) g1 k hc2)) _ (wAt g1 (2 * (k.val + 1) + 1) 10) (slab_inb _ (wAt_slab g1 hS1 (2 * (k.val + 1) + 1) 10)) ho1_10,
    deliv_of_exec (F := F) d L q fT f4 1 11 inb_S2x16x8x64_S1x1x8x64_1_11_0_0 27 _ (k0_off321 (region_lt.sl.v2274_1 (F := F) g1 k hc2)) _ (wAt g1 (2 * (k.val + 1) + 1) 11) (slab_inb _ (wAt_slab g1 hS1 (2 * (k.val + 1) + 1) 11)) ho1_11,
    deliv_of_exec (F := F) d L q fT f4 1 12 inb_S2x16x8x64_S1x1x8x64_1_12_0_0 28 _ (k0_off322 (region_lt.sl.v2283_1 (F := F) g1 k hc2)) _ (wAt g1 (2 * (k.val + 1) + 1) 12) (slab_inb _ (wAt_slab g1 hS1 (2 * (k.val + 1) + 1) 12)) ho1_12,
    deliv_of_exec (F := F) d L q fT f4 1 13 inb_S2x16x8x64_S1x1x8x64_1_13_0_0 29 _ (k0_off323 (region_lt.sl.v2292_1 (F := F) g1 k hc2)) _ (wAt g1 (2 * (k.val + 1) + 1) 13) (slab_inb _ (wAt_slab g1 hS1 (2 * (k.val + 1) + 1) 13)) ho1_13,
    deliv_of_exec (F := F) d L q fT f4 1 14 inb_S2x16x8x64_S1x1x8x64_1_14_0_0 30 _ (k0_off324 (region_lt.sl.v2301_1 (F := F) g1 k hc2)) _ (wAt g1 (2 * (k.val + 1) + 1) 14) (slab_inb _ (wAt_slab g1 hS1 (2 * (k.val + 1) + 1) 14)) ho1_14,
    deliv_of_exec (F := F) d L q fT f4 1 15 inb_S2x16x8x64_S1x1x8x64_1_15_0_0 31 _ (k0_off325 (region_lt.sl.v2310_1 (F := F) g1 k hc2)) _ (wAt g1 (2 * (k.val + 1) + 1) 15) (slab_inb _ (wAt_slab g1 hS1 (2 * (k.val + 1) + 1) 15)) ho1_15]
  isplitl [Hmw Hi Ho H0 H1 H2 H3 Hs7 Hs8 HO]
  · isplitr; · iexact Hmw
    isplitl [Hi]; · iexact Hi
    isplitl [Ho]; · iexact Ho
    isplitl [H0]; · iexists _; iexact H0
    isplitl [H1]; · iexact H1
    isplitl [H2]; · iexact H2
    isplitl [H3]
    · iexists g3_32; isplitr
      · ipureintro; have h := hD_32; rw [show 32 * k.val + 32 = 32 * (k.val + 1) by ring] at h; exact h
      · iexact H3
    isplitl [Hs7]; · iexact Hs7
    isplitl [Hs8]; · iexact Hs8
    iexists _; isplitr
    rotate_left
    · iexact HO
    · ipureintro; intro p hp
      repeat (first | exact hW' p hp | (rcases Finset.mem_insert.mp hp with hp | hp; · exact .inr (hp ▸ rfl)))
  isplitl [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31]
  · isplitr; · iempintro
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    iexact Ht31
  isplitl [Hs5]; · iexact Hs5
  iexact Hs6

end Cert.KTile

end
-- ==== Proof.RegionBK.lean ====
import proofs.«207235_g30958124269674_cont_8to1_b_889_24_alg».proof.Proof.InvK
import proofs.«207235_g30958124269674_cont_8to1_b_889_24_alg».proof.Proof.ValueK
import proofs.«207235_g30958124269674_cont_8to1_b_889_24_alg».proof.Proof.ConvertK
import proofs.«207235_g30958124269674_cont_8to1_b_889_24_alg».proof.Proof.OffsK

/-! One trip of the loop keeps the invariant: the first half's slabs land, their sixteen rows are picked into the row
    scratch, the next group is fetched into the first half (unless this is the last trip); the same for the second half. -/

noncomputable section

namespace Cert.KTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The slab check at a word `w'` that is `w` under a wrapper. -/
theorem slab_ok' (w w' : BitVec 32) (e : w' = w) (h : Slab w) :
    (8 ∣ w'.toNat) ∧ (∀ a, (![w.toNat, 0] : Fin 2 → Nat) a + S8x64.size a ≤ S1000000x64.size a) :=
  e ▸ slab_ok w h

theorem slab_ok_g' (C : Prop) (w w' : BitVec 32) (e : w' = w) (h : Slab w) :
    (∀ _ : C, 8 ∣ w'.toNat) ∧ (∀ _ : C, ∀ a, (![w.toNat, 0] : Fin 2 → Nat) a + S8x64.size a ≤ S1000000x64.size a) :=
  e ▸ slab_ok_g C w h

/-- The row check at a word under the index cast. -/
theorem row_ok4' (h k : Nat) (hh : h < 2) (hk : k < 16) (w : BitVec 32) (w' : Index) (e : w' = Scalar.indexCast w) (hr : w.toNat < 8) :
    (∀ a, (![h, k, w'.toNat, 0] : Fin 4 → Nat) a + S1x1x1x16.size a ≤ S2x16x8x64.size a) ∧
    (∀ a, (![h, k, w'.toNat, 16] : Fin 4 → Nat) a + S1x1x1x16.size a ≤ S2x16x8x64.size a) ∧
    (∀ a, (![h, k, w'.toNat, 32] : Fin 4 → Nat) a + S1x1x1x16.size a ≤ S2x16x8x64.size a) ∧
    (∀ a, (![h, k, w'.toNat, 48] : Fin 4 → Nat) a + S1x1x1x16.size a ≤ S2x16x8x64.size a) :=
  e ▸ row_ok4 h k hh hk _ hr

theorem hc1none : ∀ k : Fin k0_t1_loop.trips, ¬ k.val < 15 → ¬ k0_cond1 k = 1#1 := by decide +kernel
theorem hc2none : ∀ k : Fin k0_t1_loop.trips, ¬ k.val < 15 → ¬ k0_cond2 k = 1#1 := by decide +kernel

set_option maxHeartbeats 4000000 in
theorem region_last {d : Dev nD} (L : grid0.Coords) (q : PosShare TreeShare) (O : CellTallies nD τ sig (HIx 1)) (W : Waits sig (HIx 1))
    (fI : Buf (Elt F) (iLoc d)) (fT : Buf (Elt F) (tLoc d)) (fO : Buf (Elt F) (oLoc d))
    (f4 : Buf (Elt F) ((thr d L).loc cc0_scratch4)) (g1 g2 : S512.Idx → BitVec 32)
    (hS1 : ∀ p, Slab (g1 p)) (hR2 : ∀ p, (g2 p).toNat < 8)
    (hidx : ∀ j : S16384.Idx, (fI j).toNat ≤ 999999) (hg1 : g1 = G1 (F := F) L fI) (hg2 : g2 = G2 (F := F) L fI)
    (k : Fin k0_t1_loop.trips) (acc : PUnit) (hk15 : ¬ k.val < 15) :
    inv (F := F) d L q O W fI fT fO f4 g1 g2 hS1 k acc
      ⊢ wp frame (wpE (defs₀ (F := F)) 𝒱₀ (thr d L) none) Set.univ
          (k0_t1_body (F := F) L iV (Memref.isWhole_whole _) tV (Memref.isWhole_whole _) oV (Memref.isWhole_whole _)
            s0 (Memref.isWhole_whole _) s1 (Memref.isWhole_whole _) s2 (Memref.isWhole_whole _) s3 (Memref.isWhole_whole _)
            s4 (Memref.isWhole_whole _) cc0_scratch5 cc0_scratch6 cc0_scoped0 cc0_scoped1 (0#32) k acc)
          (inv (F := F) d L q O W fI fT fO f4 g1 g2 hS1 (k.val + 1)) := by
  have hk16 : k.val < 16 := trips_le k
  have hc1 := hc1none k hk15
  have hc2 := hc2none k hk15
  have hb10 : Transfers.BatchOf (thr d L) (SemLoc.dma cc0_scratch5.sem : SemLoc sig) 16 := trivial
  have hb11 : Transfers.BatchOf (thr d L) (SemLoc.dma cc0_scratch6.sem : SemLoc sig) 16 := trivial
  have hA' : ∀ (R : Rect S512) (h : R.shape.ShapeCasts S16) (j : Nat) (hS : S16.Slices ![j] S1) (h' : ∀ a, (![0] : Fin 1 → Nat) a < S1.size a),
      Slab (extractAt ![0] (extractStridedSlice S1 ![j] (shapeCast S16 (View.readAt (Elt F) s1.view R.toLoadRect g1) h) hS) h') :=
    fun R h j hS h' => lane_slab _ (fun x => hS1 _) j hS h'
  have hR' : ∀ (R : Rect S512) (h : R.shape.ShapeCasts S16) (j : Nat) (hS : S16.Slices ![j] S1) (h' : ∀ a, (![0] : Fin 1 → Nat) a < S1.size a),
      (extractAt ![0] (extractStridedSlice S1 ![j] (shapeCast S16 (View.readAt (Elt F) s2.view R.toLoadRect g2) h) hS) h').toNat < 8 :=
    fun R h j hS h' => lane_lt _ (fun x => hR2 _) j hS h'
  delta inv
  rw [if_pos hk16]
  delta invBase rests flight0 flight1
  iintro ⟨⟨#Hmw, Hi, Ho, ⟨%g0, H0⟩, H1, H2, ⟨%g3_0, %hD, H3⟩, Hs7, Hs8, ⟨%W', %hW', HO⟩⟩, ⟨-, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31⟩, Hs5, Hs6⟩
  have hD_0 : Done (F := F) L fI fT (32 * k.val + 0) g3_0 := hD
  sl_unfold [k0_t1_body]
  sl_exec_parts (disch := first | exact slab_ok_g' _ _ _ rfl (hA' _ _ _ _ _) | (refine row_ok4' _ _ ?_ ?_ _ _ rfl (hR' _ _ _ _ _) <;> decide))
  have hin : ∀ (r c : Nat) (inb : ∀ a, (![0, 0, r, c] : Fin 4 → Nat) a + S1x1x1x16.size a ≤ S2x16x8x64.size a),
      (s4 : Memref sig .scVector .vmem S2x16x8x64 .f32).view.setOn (Rect.unit (s := S2x16x8x64) ![0, 0, r, c] S1x1x1x16.size inb).set ⊆ slot0_0.view.set :=
    fun r c inb => row_in_slot 0 0 r c inb inb_S2x16x8x64_S1x1x8x64_0_0_0_0
  sl_exec_parts (disch := (refine row_ok4' _ _ ?_ ?_ _ _ rfl (hR' _ _ _ _ _) <;> decide))
  clear hin
  have hr_0_0 : region_last.sl.v783 (F := F) g2 k = g2 (ValueIdx.ix1 ⟨32 * k.val + 0, by omega⟩) :=
    (word_of_load2 (F := F) g2 (k0_off34 k) _ 0 (by decide) _ _ _).trans
      (congrArg g2 (congrArg ValueIdx.ix1 (Fin.ext (by have h := off34 k; show k0_off34 k 0 + 0 = 32 * k.val + 0; omega))))
  generalize hq0 : View.writes (s3 : Memref sig .scVector .vmem S512x64 .f32).view (Elt F) g3_0 _ = g3_1
  have hD_1 : Done (F := F) L fI fT (32 * k.val + 1) g3_1 := by
    rw [← hq0]
    exact lane_done4' (F := F) L fI fT hidx (32 * k.val + 0) _ rfl g3_0 hD_0
      (k0_off36 k) (k0_off38 k) (k0_off40 k) (k0_off42 k) (offS_36 k) (offS_38 k) (offS_40 k) (offS_42 k) _ _ _ _ _ _ _ _
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 0 _ rfl _ _ (offS_36 k) _ _ _ x)
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 16 _ rfl _ _ (offS_38 k) _ _ _ x)
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 32 _ rfl _ _ (offS_40 k) _ _ _ x)
      (fun x => piece_val (F := F) L fI fT hidx g1 g2 hg1 hg2 0 0 inb_S2x16x8x64_S1x1x8x64_0_0_0_0 _ (32 * k.val + 0) (by omega) _ _ (wAt_eq g1 (2 * k.val + 0) 0 _ _ (by omega)) _ hr_0_0 48 _ rfl _ _ (offS_42 k) _ _ _ x)
  clear hq0 hD_0 hr_0_0
  have hin : ∀ (r c : Nat) (inb : ∀ a, (![0, 1, r, c] : Fin 4 → Nat) a + S1x1x1x16.size a ≤ S2x16x8x64.size a),
      (s4 : Memref sig .scVector .vmem S2x16x8x64 .f32).view.setOn (Rect.unit (s := S2x16x8x64) ![0, 1, r, c] S1x1x1x16.size inb).set ⊆ slot0_1.view.set :=
    fun r c inb => row_in_slot 0 1 r c inb inb_S2x16x8x64_S1x1x8x64_0_1_0_0
  sl_exec_parts (disch := (refine row_ok4' _ _ ?_ ?_ _ _ rfl (hR' _ _ _ _ _) <;> decide))
  clear hin
  have hr_0_1 : region_last.sl.v823 (F := F) g2 k = g2 (ValueIdx.ix1 ⟨32 * k.val + 1, by omega⟩) :=
    (word_of_load2 (F := F) g2 (k0_off34 k) _ 1 (by decide) _ _ _).trans
      (congrArg g2 (congrArg ValueIdx.ix1 (Fin.ext (by have h := off34 k; show k0_off34 k 0 + 1 = 32 * k.val + 1; omega))))
  generalize hq1 : View.writes (s3 : Memref sig .scVector .vmem S512x64 .f32).view (Elt F) g3_1 _ = g3_2
  have hD_2 : Done (F := F) L fI fT (32 * k.val + 2) g3_2 := by
    rw [← hq1]
    exact lane_done4' (F := F) L fI fT hidx (32 * k.val + 1) _ rfl g3_1 hD_1
      (k0_off44 k) (k0_off46 k) (k0_off48 k) (k0_off50 k) (offS_44 k) (offS_46 k) (offS_48 k) (offS_50 k) _ _ _ _ _ _ _ _
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 0 _ rfl _ _ (offS_44 k) _ _ _ x)
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 16 _ rfl _ _ (offS_46 k) _ _ _ x)
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 32 _ rfl _ _ (offS_48 k) _ _ _ x)
      (fun x => piece_val (F := F) L fI fT hidx g1 g2 hg1 hg2 0 1 inb_S2x16x8x64_S1x1x8x64_0_1_0_0 _ (32 * k.val + 1) (by omega) _ _ (wAt_eq g1 (2 * k.val + 0) 1 _ _ (by omega)) _ hr_0_1 48 _ rfl _ _ (offS_50 k) _ _ _ x)
  clear hq1 hD_1 hr_0_1
  have hin : ∀ (r c : Nat) (inb : ∀ a, (![0, 2, r, c] : Fin 4 → Nat) a + S1x1x1x16.size a ≤ S2x16x8x64.size a),
      (s4 : Memref sig .scVector .vmem S2x16x8x64 .f32).view.setOn (Rect.unit (s := S2x16x8x64) ![0, 2, r, c] S1x1x1x16.size inb).set ⊆ slot0_2.view.set :=
    fun r c inb => row_in_slot 0 2 r c inb inb_S2x16x8x64_S1x1x8x64_0_2_0_0
  sl_exec_parts (disch := (refine row_ok4' _ _ ?_ ?_ _ _ rfl (hR' _ _ _ _ _) <;> decide))
  clear hin
  have hr_0_2 : region_last.sl.v863 (F := F) g2 k = g2 (ValueIdx.ix1 ⟨32 * k.val + 2, by omega⟩) :=
    (word_of_load2 (F := F) g2 (k0_off34 k) _ 2 (by decide) _ _ _).trans
      (congrArg g2 (congrArg ValueIdx.ix1 (Fin.ext (by have h := off34 k; show k0_off34 k 0 + 2 = 32 * k.val + 2; omega))))
  generalize hq2 : View.writes (s3 : Memref sig .scVector .vmem S512x64 .f32).view (Elt F) g3_2 _ = g3_3
  have hD_3 : Done (F := F) L fI fT (32 * k.val + 3) g3_3 := by
    rw [← hq2]
    exact lane_done4' (F := F) L fI fT hidx (32 * k.val + 2) _ rfl g3_2 hD_2
      (k0_off52 k) (k0_off54 k) (k0_off56 k) (k0_off58 k) (offS_52 k) (offS_54 k) (offS_56 k) (offS_58 k) _ _ _ _ _ _ _ _
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 0 _ rfl _ _ (offS_52 k) _ _ _ x)
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 16 _ rfl _ _ (offS_54 k) _ _ _ x)
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 32 _ rfl _ _ (offS_56 k) _ _ _ x)
      (fun x => piece_val (F := F) L fI fT hidx g1 g2 hg1 hg2 0 2 inb_S2x16x8x64_S1x1x8x64_0_2_0_0 _ (32 * k.val + 2) (by omega) _ _ (wAt_eq g1 (2 * k.val + 0) 2 _ _ (by omega)) _ hr_0_2 48 _ rfl _ _ (offS_58 k) _ _ _ x)
  clear hq2 hD_2 hr_0_2
  have hin : ∀ (r c : Nat) (inb : ∀ a, (![0, 3, r, c] : Fin 4 → Nat) a + S1x1x1x16.size a ≤ S2x16x8x64.size a),
      (s4 : Memref sig .scVector .vmem S2x16x8x64 .f32).view.setOn (Rect.unit (s := S2x16x8x64) ![0, 3, r, c] S1x1x1x16.size inb).set ⊆ slot0_3.view.set :=
    fun r c inb => row_in_slot 0 3 r c inb inb_S2x16x8x64_S1x1x8x64_0_3_0_0
  sl_exec_parts (disch := (refine row_ok4' _ _ ?_ ?_ _ _ rfl (hR' _ _ _ _ _) <;> decide))
  clear hin
  have hr_0_3 : region_last.sl.v903 (F := F) g2 k = g2 (ValueIdx.ix1 ⟨32 * k.val + 3, by omega⟩) :=
    (word_of_load2 (F := F) g2 (k0_off34 k) _ 3 (by decide) _ _ _).trans
      (congrArg g2 (congrArg ValueIdx.ix1 (Fin.ext (by have h := off34 k; show k0_off34 k 0 + 3 = 32 * k.val + 3; omega))))
  generalize hq3 : View.writes (s3 : Memref sig .scVector .vmem S512x64 .f32).view (Elt F) g3_3 _ = g3_4
  have hD_4 : Done (F := F) L fI fT (32 * k.val + 4) g3_4 := by
    rw [← hq3]
    exact lane_done4' (F := F) L fI fT hidx (32 * k.val + 3) _ rfl g3_3 hD_3
      (k0_off60 k) (k0_off62 k) (k0_off64 k) (k0_off66 k) (offS_60 k) (offS_62 k) (offS_64 k) (offS_66 k) _ _ _ _ _ _ _ _
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 0 _ rfl _ _ (offS_60 k) _ _ _ x)
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 16 _ rfl _ _ (offS_62 k) _ _ _ x)
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 32 _ rfl _ _ (offS_64 k) _ _ _ x)
      (fun x => piece_val (F := F) L fI fT hidx g1 g2 hg1 hg2 0 3 inb_S2x16x8x64_S1x1x8x64_0_3_0_0 _ (32 * k.val + 3) (by omega) _ _ (wAt_eq g1 (2 * k.val + 0) 3 _ _ (by omega)) _ hr_0_3 48 _ rfl _ _ (offS_66 k) _ _ _ x)
  clear hq3 hD_3 hr_0_3
  have hin : ∀ (r c : Nat) (inb : ∀ a, (![0, 4, r, c] : Fin 4 → Nat) a + S1x1x1x16.size a ≤ S2x16x8x64.size a),
      (s4 : Memref sig .scVector .vmem S2x16x8x64 .f32).view.setOn (Rect.unit (s := S2x16x8x64) ![0, 4, r, c] S1x1x1x16.size inb).set ⊆ slot0_4.view.set :=
    fun r c inb => row_in_slot 0 4 r c inb inb_S2x16x8x64_S1x1x8x64_0_4_0_0
  sl_exec_parts (disch := (refine row_ok4' _ _ ?_ ?_ _ _ rfl (hR' _ _ _ _ _) <;> decide))
  clear hin
  have hr_0_4 : region_last.sl.v943 (F := F) g2 k = g2 (ValueIdx.ix1 ⟨32 * k.val + 4, by omega⟩) :=
    (word_of_load2 (F := F) g2 (k0_off34 k) _ 4 (by decide) _ _ _).trans
      (congrArg g2 (congrArg ValueIdx.ix1 (Fin.ext (by have h := off34 k; show k0_off34 k 0 + 4 = 32 * k.val + 4; omega))))
  generalize hq4 : View.writes (s3 : Memref sig .scVector .vmem S512x64 .f32).view (Elt F) g3_4 _ = g3_5
  have hD_5 : Done (F := F) L fI fT (32 * k.val + 5) g3_5 := by
    rw [← hq4]
    exact lane_done4' (F := F) L fI fT hidx (32 * k.val + 4) _ rfl g3_4 hD_4
      (k0_off68 k) (k0_off70 k) (k0_off72 k) (k0_off74 k) (offS_68 k) (offS_70 k) (offS_72 k) (offS_74 k) _ _ _ _ _ _ _ _
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 0 _ rfl _ _ (offS_68 k) _ _ _ x)
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 16 _ rfl _ _ (offS_70 k) _ _ _ x)
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 32 _ rfl _ _ (offS_72 k) _ _ _ x)
      (fun x => piece_val (F := F) L fI fT hidx g1 g2 hg1 hg2 0 4 inb_S2x16x8x64_S1x1x8x64_0_4_0_0 _ (32 * k.val + 4) (by omega) _ _ (wAt_eq g1 (2 * k.val + 0) 4 _ _ (by omega)) _ hr_0_4 48 _ rfl _ _ (offS_74 k) _ _ _ x)
  clear hq4 hD_4 hr_0_4
  have hin : ∀ (r c : Nat) (inb : ∀ a, (![0, 5, r, c] : Fin 4 → Nat) a + S1x1x1x16.size a ≤ S2x16x8x64.size a),
      (s4 : Memref sig .scVector .vmem S2x16x8x64 .f32).view.setOn (Rect.unit (s := S2x16x8x64) ![0, 5, r, c] S1x1x1x16.size inb).set ⊆ slot0_5.view.set :=
    fun r c inb => row_in_slot 0 5 r c inb inb_S2x16x8x64_S1x1x8x64_0_5_0_0
  sl_exec_parts (disch := (refine row_ok4' _ _ ?_ ?_ _ _ rfl (hR' _ _ _ _ _) <;> decide))
  clear hin
  have hr_0_5 : region_last.sl.v983 (F := F) g2 k = g2 (ValueIdx.ix1 ⟨32 * k.val + 5, by omega⟩) :=
    (word_of_load2 (F := F) g2 (k0_off34 k) _ 5 (by decide) _ _ _).trans
      (congrArg g2 (congrArg ValueIdx.ix1 (Fin.ext (by have h := off34 k; show k0_off34 k 0 + 5 = 32 * k.val + 5; omega))))
  generalize hq5 : View.writes (s3 : Memref sig .scVector .vmem S512x64 .f32).view (Elt F) g3_5 _ = g3_6
  have hD_6 : Done (F := F) L fI fT (32 * k.val + 6) g3_6 := by
    rw [← hq5]
    exact lane_done4' (F := F) L fI fT hidx (32 * k.val + 5) _ rfl g3_5 hD_5
      (k0_off76 k) (k0_off78 k) (k0_off80 k) (k0_off82 k) (offS_76 k) (offS_78 k) (offS_80 k) (offS_82 k) _ _ _ _ _ _ _ _
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 0 _ rfl _ _ (offS_76 k) _ _ _ x)
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 16 _ rfl _ _ (offS_78 k) _ _ _ x)
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 32 _ rfl _ _ (offS_80 k) _ _ _ x)
      (fun x => piece_val (F := F) L fI fT hidx g1 g2 hg1 hg2 0 5 inb_S2x16x8x64_S1x1x8x64_0_5_0_0 _ (32 * k.val + 5) (by omega) _ _ (wAt_eq g1 (2 * k.val + 0) 5 _ _ (by omega)) _ hr_0_5 48 _ rfl _ _ (offS_82 k) _ _ _ x)
  clear hq5 hD_5 hr_0_5
  have hin : ∀ (r c : Nat) (inb : ∀ a, (![0, 6, r, c] : Fin 4 → Nat) a + S1x1x1x16.size a ≤ S2x16x8x64.size a),
      (s4 : Memref sig .scVector .vmem S2x16x8x64 .f32).view.setOn (Rect.unit (s := S2x16x8x64) ![0, 6, r, c] S1x1x1x16.size inb).set ⊆ slot0_6.view.set :=
    fun r c inb => row_in_slot 0 6 r c inb inb_S2x16x8x64_S1x1x8x64_0_6_0_0
  sl_exec_parts (disch := (refine row_ok4' _ _ ?_ ?_ _ _ rfl (hR' _ _ _ _ _) <;> decide))
  clear hin
  have hr_0_6 : region_last.sl.v1023 (F := F) g2 k = g2 (ValueIdx.ix1 ⟨32 * k.val + 6, by omega⟩) :=
    (word_of_load2 (F := F) g2 (k0_off34 k) _ 6 (by decide) _ _ _).trans
      (congrArg g2 (congrArg ValueIdx.ix1 (Fin.ext (by have h := off34 k; show k0_off34 k 0 + 6 = 32 * k.val + 6; omega))))
  generalize hq6 : View.writes (s3 : Memref sig .scVector .vmem S512x64 .f32).view (Elt F) g3_6 _ = g3_7
  have hD_7 : Done (F := F) L fI fT (32 * k.val + 7) g3_7 := by
    rw [← hq6]
    exact lane_done4' (F := F) L fI fT hidx (32 * k.val + 6) _ rfl g3_6 hD_6
      (k0_off84 k) (k0_off86 k) (k0_off88 k) (k0_off90 k) (offS_84 k) (offS_86 k) (offS_88 k) (offS_90 k) _ _ _ _ _ _ _ _
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 0 _ rfl _ _ (offS_84 k) _ _ _ x)
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 16 _ rfl _ _ (offS_86 k) _ _ _ x)
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 32 _ rfl _ _ (offS_88 k) _ _ _ x)
      (fun x => piece_val (F := F) L fI fT hidx g1 g2 hg1 hg2 0 6 inb_S2x16x8x64_S1x1x8x64_0_6_0_0 _ (32 * k.val + 6) (by omega) _ _ (wAt_eq g1 (2 * k.val + 0) 6 _ _ (by omega)) _ hr_0_6 48 _ rfl _ _ (offS_90 k) _ _ _ x)
  clear hq6 hD_6 hr_0_6
  have hin : ∀ (r c : Nat) (inb : ∀ a, (![0, 7, r, c] : Fin 4 → Nat) a + S1x1x1x16.size a ≤ S2x16x8x64.size a),
      (s4 : Memref sig .scVector .vmem S2x16x8x64 .f32).view.setOn (Rect.unit (s := S2x16x8x64) ![0, 7, r, c] S1x1x1x16.size inb).set ⊆ slot0_7.view.set :=
    fun r c inb => row_in_slot 0 7 r c inb inb_S2x16x8x64_S1x1x8x64_0_7_0_0
  sl_exec_parts (disch := (refine row_ok4' _ _ ?_ ?_ _ _ rfl (hR' _ _ _ _ _) <;> decide))
  clear hin
  have hr_0_7 : region_last.sl.v1063 (F := F) g2 k = g2 (ValueIdx.ix1 ⟨32 * k.val + 7, by omega⟩) :=
    (word_of_load2 (F := F) g2 (k0_off34 k) _ 7 (by decide) _ _ _).trans
      (congrArg g2 (congrArg ValueIdx.ix1 (Fin.ext (by have h := off34 k; show k0_off34 k 0 + 7 = 32 * k.val + 7; omega))))
  generalize hq7 : View.writes (s3 : Memref sig .scVector .vmem S512x64 .f32).view (Elt F) g3_7 _ = g3_8
  have hD_8 : Done (F := F) L fI fT (32 * k.val + 8) g3_8 := by
    rw [← hq7]
    exact lane_done4' (F := F) L fI fT hidx (32 * k.val + 7) _ rfl g3_7 hD_7
      (k0_off92 k) (k0_off94 k) (k0_off96 k) (k0_off98 k) (offS_92 k) (offS_94 k) (offS_96 k) (offS_98 k) _ _ _ _ _ _ _ _
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 0 _ rfl _ _ (offS_92 k) _ _ _ x)
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 16 _ rfl _ _ (offS_94 k) _ _ _ x)
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 32 _ rfl _ _ (offS_96 k) _ _ _ x)
      (fun x => piece_val (F := F) L fI fT hidx g1 g2 hg1 hg2 0 7 inb_S2x16x8x64_S1x1x8x64_0_7_0_0 _ (32 * k.val + 7) (by omega) _ _ (wAt_eq g1 (2 * k.val + 0) 7 _ _ (by omega)) _ hr_0_7 48 _ rfl _ _ (offS_98 k) _ _ _ x)
  clear hq7 hD_7 hr_0_7
  have hin : ∀ (r c : Nat) (inb : ∀ a, (![0, 8, r, c] : Fin 4 → Nat) a + S1x1x1x16.size a ≤ S2x16x8x64.size a),
      (s4 : Memref sig .scVector .vmem S2x16x8x64 .f32).view.setOn (Rect.unit (s := S2x16x8x64) ![0, 8, r, c] S1x1x1x16.size inb).set ⊆ slot0_8.view.set :=
    fun r c inb => row_in_slot 0 8 r c inb inb_S2x16x8x64_S1x1x8x64_0_8_0_0
  sl_exec_parts (disch := (refine row_ok4' _ _ ?_ ?_ _ _ rfl (hR' _ _ _ _ _) <;> decide))
  clear hin
  have hr_0_8 : region_last.sl.v1103 (F := F) g2 k = g2 (ValueIdx.ix1 ⟨32 * k.val + 8, by omega⟩) :=
    (word_of_load2 (F := F) g2 (k0_off34 k) _ 8 (by decide) _ _ _).trans
      (congrArg g2 (congrArg ValueIdx.ix1 (Fin.ext (by have h := off34 k; show k0_off34 k 0 + 8 = 32 * k.val + 8; omega))))
  generalize hq8 : View.writes (s3 : Memref sig .scVector .vmem S512x64 .f32).view (Elt F) g3_8 _ = g3_9
  have hD_9 : Done (F := F) L fI fT (32 * k.val + 9) g3_9 := by
    rw [← hq8]
    exact lane_done4' (F := F) L fI fT hidx (32 * k.val + 8) _ rfl g3_8 hD_8
      (k0_off100 k) (k0_off102 k) (k0_off104 k) (k0_off106 k) (offS_100 k) (offS_102 k) (offS_104 k) (offS_106 k) _ _ _ _ _ _ _ _
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 0 _ rfl _ _ (offS_100 k) _ _ _ x)
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 16 _ rfl _ _ (offS_102 k) _ _ _ x)
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 32 _ rfl _ _ (offS_104 k) _ _ _ x)
      (fun x => piece_val (F := F) L fI fT hidx g1 g2 hg1 hg2 0 8 inb_S2x16x8x64_S1x1x8x64_0_8_0_0 _ (32 * k.val + 8) (by omega) _ _ (wAt_eq g1 (2 * k.val + 0) 8 _ _ (by omega)) _ hr_0_8 48 _ rfl _ _ (offS_106 k) _ _ _ x)
  clear hq8 hD_8 hr_0_8
  have hin : ∀ (r c : Nat) (inb : ∀ a, (![0, 9, r, c] : Fin 4 → Nat) a + S1x1x1x16.size a ≤ S2x16x8x64.size a),
      (s4 : Memref sig .scVector .vmem S2x16x8x64 .f32).view.setOn (Rect.unit (s := S2x16x8x64) ![0, 9, r, c] S1x1x1x16.size inb).set ⊆ slot0_9.view.set :=
    fun r c inb => row_in_slot 0 9 r c inb inb_S2x16x8x64_S1x1x8x64_0_9_0_0
  sl_exec_parts (disch := (refine row_ok4' _ _ ?_ ?_ _ _ rfl (hR' _ _ _ _ _) <;> decide))
  clear hin
  have hr_0_9 : region_last.sl.v1143 (F := F) g2 k = g2 (ValueIdx.ix1 ⟨32 * k.val + 9, by omega⟩) :=
    (word_of_load2 (F := F) g2 (k0_off34 k) _ 9 (by decide) _ _ _).trans
      (congrArg g2 (congrArg ValueIdx.ix1 (Fin.ext (by have h := off34 k; show k0_off34 k 0 + 9 = 32 * k.val + 9; omega))))
  generalize hq9 : View.writes (s3 : Memref sig .scVector .vmem S512x64 .f32).view (Elt F) g3_9 _ = g3_10
  have hD_10 : Done (F := F) L fI fT (32 * k.val + 10) g3_10 := by
    rw [← hq9]
    exact lane_done4' (F := F) L fI fT hidx (32 * k.val + 9) _ rfl g3_9 hD_9
      (k0_off108 k) (k0_off110 k) (k0_off112 k) (k0_off114 k) (offS_108 k) (offS_110 k) (offS_112 k) (offS_114 k) _ _ _ _ _ _ _ _
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 0 _ rfl _ _ (offS_108 k) _ _ _ x)
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 16 _ rfl _ _ (offS_110 k) _ _ _ x)
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 32 _ rfl _ _ (offS_112 k) _ _ _ x)
      (fun x => piece_val (F := F) L fI fT hidx g1 g2 hg1 hg2 0 9 inb_S2x16x8x64_S1x1x8x64_0_9_0_0 _ (32 * k.val + 9) (by omega) _ _ (wAt_eq g1 (2 * k.val + 0) 9 _ _ (by omega)) _ hr_0_9 48 _ rfl _ _ (offS_114 k) _ _ _ x)
  clear hq9 hD_9 hr_0_9
  have hin : ∀ (r c : Nat) (inb : ∀ a, (![0, 10, r, c] : Fin 4 → Nat) a + S1x1x1x16.size a ≤ S2x16x8x64.size a),
      (s4 : Memref sig .scVector .vmem S2x16x8x64 .f32).view.setOn (Rect.unit (s := S2x16x8x64) ![0, 10, r, c] S1x1x1x16.size inb).set ⊆ slot0_10.view.set :=
    fun r c inb => row_in_slot 0 10 r c inb inb_S2x16x8x64_S1x1x8x64_0_10_0_0
  sl_exec_parts (disch := (refine row_ok4' _ _ ?_ ?_ _ _ rfl (hR' _ _ _ _ _) <;> decide))
  clear hin
  have hr_0_10 : region_last.sl.v1183 (F := F) g2 k = g2 (ValueIdx.ix1 ⟨32 * k.val + 10, by omega⟩) :=
    (word_of_load2 (F := F) g2 (k0_off34 k) _ 10 (by decide) _ _ _).trans
      (congrArg g2 (congrArg ValueIdx.ix1 (Fin.ext (by have h := off34 k; show k0_off34 k 0 + 10 = 32 * k.val + 10; omega))))
  generalize hq10 : View.writes (s3 : Memref sig .scVector .vmem S512x64 .f32).view (Elt F) g3_10 _ = g3_11
  have hD_11 : Done (F := F) L fI fT (32 * k.val + 11) g3_11 := by
    rw [← hq10]
    exact lane_done4' (F := F) L fI fT hidx (32 * k.val + 10) _ rfl g3_10 hD_10
      (k0_off116 k) (k0_off118 k) (k0_off120 k) (k0_off122 k) (offS_116 k) (offS_118 k) (offS_120 k) (offS_122 k) _ _ _ _ _ _ _ _
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 0 _ rfl _ _ (offS_116 k) _ _ _ x)
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 16 _ rfl _ _ (offS_118 k) _ _ _ x)
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 32 _ rfl _ _ (offS_120 k) _ _ _ x)
      (fun x => piece_val (F := F) L fI fT hidx g1 g2 hg1 hg2 0 10 inb_S2x16x8x64_S1x1x8x64_0_10_0_0 _ (32 * k.val + 10) (by omega) _ _ (wAt_eq g1 (2 * k.val + 0) 10 _ _ (by omega)) _ hr_0_10 48 _ rfl _ _ (offS_122 k) _ _ _ x)
  clear hq10 hD_10 hr_0_10
  have hin : ∀ (r c : Nat) (inb : ∀ a, (![0, 11, r, c] : Fin 4 → Nat) a + S1x1x1x16.size a ≤ S2x16x8x64.size a),
      (s4 : Memref sig .scVector .vmem S2x16x8x64 .f32).view.setOn (Rect.unit (s := S2x16x8x64) ![0, 11, r, c] S1x1x1x16.size inb).set ⊆ slot0_11.view.set :=
    fun r c inb => row_in_slot 0 11 r c inb inb_S2x16x8x64_S1x1x8x64_0_11_0_0
  sl_exec_parts (disch := (refine row_ok4' _ _ ?_ ?_ _ _ rfl (hR' _ _ _ _ _) <;> decide))
  clear hin
  have hr_0_11 : region_last.sl.v1223 (F := F) g2 k = g2 (ValueIdx.ix1 ⟨32 * k.val + 11, by omega⟩) :=
    (word_of_load2 (F := F) g2 (k0_off34 k) _ 11 (by decide) _ _ _).trans
      (congrArg g2 (congrArg ValueIdx.ix1 (Fin.ext (by have h := off34 k; show k0_off34 k 0 + 11 = 32 * k.val + 11; omega))))
  generalize hq11 : View.writes (s3 : Memref sig .scVector .vmem S512x64 .f32).view (Elt F) g3_11 _ = g3_12
  have hD_12 : Done (F := F) L fI fT (32 * k.val + 12) g3_12 := by
    rw [← hq11]
    exact lane_done4' (F := F) L fI fT hidx (32 * k.val + 11) _ rfl g3_11 hD_11
      (k0_off124 k) (k0_off126 k) (k0_off128 k) (k0_off130 k) (offS_124 k) (offS_126 k) (offS_128 k) (offS_130 k) _ _ _ _ _ _ _ _
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 0 _ rfl _ _ (offS_124 k) _ _ _ x)
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 16 _ rfl _ _ (offS_126 k) _ _ _ x)
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 32 _ rfl _ _ (offS_128 k) _ _ _ x)
      (fun x => piece_val (F := F) L fI fT hidx g1 g2 hg1 hg2 0 11 inb_S2x16x8x64_S1x1x8x64_0_11_0_0 _ (32 * k.val + 11) (by omega) _ _ (wAt_eq g1 (2 * k.val + 0) 11 _ _ (by omega)) _ hr_0_11 48 _ rfl _ _ (offS_130 k) _ _ _ x)
  clear hq11 hD_11 hr_0_11
  have hin : ∀ (r c : Nat) (inb : ∀ a, (![0, 12, r, c] : Fin 4 → Nat) a + S1x1x1x16.size a ≤ S2x16x8x64.size a),
      (s4 : Memref sig .scVector .vmem S2x16x8x64 .f32).view.setOn (Rect.unit (s := S2x16x8x64) ![0, 12, r, c] S1x1x1x16.size inb).set ⊆ slot0_12.view.set :=
    fun r c inb => row_in_slot 0 12 r c inb inb_S2x16x8x64_S1x1x8x64_0_12_0_0
  sl_exec_parts (disch := (refine row_ok4' _ _ ?_ ?_ _ _ rfl (hR' _ _ _ _ _) <;> decide))
  clear hin
  have hr_0_12 : region_last.sl.v1263 (F := F) g2 k = g2 (ValueIdx.ix1 ⟨32 * k.val + 12, by omega⟩) :=
    (word_of_load2 (F := F) g2 (k0_off34 k) _ 12 (by decide) _ _ _).trans
      (congrArg g2 (congrArg ValueIdx.ix1 (Fin.ext (by have h := off34 k; show k0_off34 k 0 + 12 = 32 * k.val + 12; omega))))
  generalize hq12 : View.writes (s3 : Memref sig .scVector .vmem S512x64 .f32).view (Elt F) g3_12 _ = g3_13
  have hD_13 : Done (F := F) L fI fT (32 * k.val + 13) g3_13 := by
    rw [← hq12]
    exact lane_done4' (F := F) L fI fT hidx (32 * k.val + 12) _ rfl g3_12 hD_12
      (k0_off132 k) (k0_off134 k) (k0_off136 k) (k0_off138 k) (offS_132 k) (offS_134 k) (offS_136 k) (offS_138 k) _ _ _ _ _ _ _ _
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 0 _ rfl _ _ (offS_132 k) _ _ _ x)
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 16 _ rfl _ _ (offS_134 k) _ _ _ x)
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 32 _ rfl _ _ (offS_136 k) _ _ _ x)
      (fun x => piece_val (F := F) L fI fT hidx g1 g2 hg1 hg2 0 12 inb_S2x16x8x64_S1x1x8x64_0_12_0_0 _ (32 * k.val + 12) (by omega) _ _ (wAt_eq g1 (2 * k.val + 0) 12 _ _ (by omega)) _ hr_0_12 48 _ rfl _ _ (offS_138 k) _ _ _ x)
  clear hq12 hD_12 hr_0_12
  have hin : ∀ (r c : Nat) (inb : ∀ a, (![0, 13, r, c] : Fin 4 → Nat) a + S1x1x1x16.size a ≤ S2x16x8x64.size a),
      (s4 : Memref sig .scVector .vmem S2x16x8x64 .f32).view.setOn (Rect.unit (s := S2x16x8x64) ![0, 13, r, c] S1x1x1x16.size inb).set ⊆ slot0_13.view.set :=
    fun r c inb => row_in_slot 0 13 r c inb inb_S2x16x8x64_S1x1x8x64_0_13_0_0
  sl_exec_parts (disch := (refine row_ok4' _ _ ?_ ?_ _ _ rfl (hR' _ _ _ _ _) <;> decide))
  clear hin
  have hr_0_13 : region_last.sl.v1303 (F := F) g2 k = g2 (ValueIdx.ix1 ⟨32 * k.val + 13, by omega⟩) :=
    (word_of_load2 (F := F) g2 (k0_off34 k) _ 13 (by decide) _ _ _).trans
      (congrArg g2 (congrArg ValueIdx.ix1 (Fin.ext (by have h := off34 k; show k0_off34 k 0 + 13 = 32 * k.val + 13; omega))))
  generalize hq13 : View.writes (s3 : Memref sig .scVector .vmem S512x64 .f32).view (Elt F) g3_13 _ = g3_14
  have hD_14 : Done (F := F) L fI fT (32 * k.val + 14) g3_14 := by
    rw [← hq13]
    exact lane_done4' (F := F) L fI fT hidx (32 * k.val + 13) _ rfl g3_13 hD_13
      (k0_off140 k) (k0_off142 k) (k0_off144 k) (k0_off146 k) (offS_140 k) (offS_142 k) (offS_144 k) (offS_146 k) _ _ _ _ _ _ _ _
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 0 _ rfl _ _ (offS_140 k) _ _ _ x)
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 16 _ rfl _ _ (offS_142 k) _ _ _ x)
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 32 _ rfl _ _ (offS_144 k) _ _ _ x)
      (fun x => piece_val (F := F) L fI fT hidx g1 g2 hg1 hg2 0 13 inb_S2x16x8x64_S1x1x8x64_0_13_0_0 _ (32 * k.val + 13) (by omega) _ _ (wAt_eq g1 (2 * k.val + 0) 13 _ _ (by omega)) _ hr_0_13 48 _ rfl _ _ (offS_146 k) _ _ _ x)
  clear hq13 hD_13 hr_0_13
  have hin : ∀ (r c : Nat) (inb : ∀ a, (![0, 14, r, c] : Fin 4 → Nat) a + S1x1x1x16.size a ≤ S2x16x8x64.size a),
      (s4 : Memref sig .scVector .vmem S2x16x8x64 .f32).view.setOn (Rect.unit (s := S2x16x8x64) ![0, 14, r, c] S1x1x1x16.size inb).set ⊆ slot0_14.view.set :=
    fun r c inb => row_in_slot 0 14 r c inb inb_S2x16x8x64_S1x1x8x64_0_14_0_0
  sl_exec_parts (disch := (refine row_ok4' _ _ ?_ ?_ _ _ rfl (hR' _ _ _ _ _) <;> decide))
  clear hin
  have hr_0_14 : region_last.sl.v1343 (F := F) g2 k = g2 (ValueIdx.ix1 ⟨32 * k.val + 14, by omega⟩) :=
    (word_of_load2 (F := F) g2 (k0_off34 k) _ 14 (by decide) _ _ _).trans
      (congrArg g2 (congrArg ValueIdx.ix1 (Fin.ext (by have h := off34 k; show k0_off34 k 0 + 14 = 32 * k.val + 14; omega))))
  generalize hq14 : View.writes (s3 : Memref sig .scVector .vmem S512x64 .f32).view (Elt F) g3_14 _ = g3_15
  have hD_15 : Done (F := F) L fI fT (32 * k.val + 15) g3_15 := by
    rw [← hq14]
    exact lane_done4' (F := F) L fI fT hidx (32 * k.val + 14) _ rfl g3_14 hD_14
      (k0_off148 k) (k0_off150 k) (k0_off152 k) (k0_off154 k) (offS_148 k) (offS_150 k) (offS_152 k) (offS_154 k) _ _ _ _ _ _ _ _
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 0 _ rfl _ _ (offS_148 k) _ _ _ x)
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 16 _ rfl _ _ (offS_150 k) _ _ _ x)
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 32 _ rfl _ _ (offS_152 k) _ _ _ x)
      (fun x => piece_val (F := F) L fI fT hidx g1 g2 hg1 hg2 0 14 inb_S2x16x8x64_S1x1x8x64_0_14_0_0 _ (32 * k.val + 14) (by omega) _ _ (wAt_eq g1 (2 * k.val + 0) 14 _ _ (by omega)) _ hr_0_14 48 _ rfl _ _ (offS_154 k) _ _ _ x)
  clear hq14 hD_14 hr_0_14
  have hin : ∀ (r c : Nat) (inb : ∀ a, (![0, 15, r, c] : Fin 4 → Nat) a + S1x1x1x16.size a ≤ S2x16x8x64.size a),
      (s4 : Memref sig .scVector .vmem S2x16x8x64 .f32).view.setOn (Rect.unit (s := S2x16x8x64) ![0, 15, r, c] S1x1x1x16.size inb).set ⊆ slot0_15.view.set :=
    fun r c inb => row_in_slot 0 15 r c inb inb_S2x16x8x64_S1x1x8x64_0_15_0_0
  sl_exec_parts (disch := first | exact slab_ok_g' _ _ _ rfl (hA' _ _ _ _ _) | (refine row_ok4' _ _ ?_ ?_ _ _ rfl (hR' _ _ _ _ _) <;> decide))
  clear hin
  have hr_0_15 : region_last.sl.v1383 (F := F) g2 k = g2 (ValueIdx.ix1 ⟨32 * k.val + 15, by omega⟩) :=
    (word_of_load2 (F := F) g2 (k0_off34 k) _ 15 (by decide) _ _ _).trans
      (congrArg g2 (congrArg ValueIdx.ix1 (Fin.ext (by have h := off34 k; show k0_off34 k 0 + 15 = 32 * k.val + 15; omega))))
  generalize hq15 : View.writes (s3 : Memref sig .scVector .vmem S512x64 .f32).view (Elt F) g3_15 _ = g3_16
  have hD_16 : Done (F := F) L fI fT (32 * k.val + 16) g3_16 := by
    rw [← hq15]
    exact lane_done4' (F := F) L fI fT hidx (32 * k.val + 15) _ rfl g3_15 hD_15
      (k0_off156 k) (k0_off158 k) (k0_off160 k) (k0_off162 k) (offS_156 k) (offS_158 k) (offS_160 k) (offS_162 k) _ _ _ _ _ _ _ _
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 0 _ rfl _ _ (offS_156 k) _ _ _ x)
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 16 _ rfl _ _ (offS_158 k) _ _ _ x)
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 32 _ rfl _ _ (offS_160 k) _ _ _ x)
      (fun x => piece_val (F := F) L fI fT hidx g1 g2 hg1 hg2 0 15 inb_S2x16x8x64_S1x1x8x64_0_15_0_0 _ (32 * k.val + 15) (by omega) _ _ (wAt_eq g1 (2 * k.val + 0) 15 _ _ (by omega)) _ hr_0_15 48 _ rfl _ _ (offS_162 k) _ _ _ x)
  clear hq15 hD_15 hr_0_15
  have hin : ∀ (r c : Nat) (inb : ∀ a, (![1, 0, r, c] : Fin 4 → Nat) a + S1x1x1x16.size a ≤ S2x16x8x64.size a),
      (s4 : Memref sig .scVector .vmem S2x16x8x64 .f32).view.setOn (Rect.unit (s := S2x16x8x64) ![1, 0, r, c] S1x1x1x16.size inb).set ⊆ slot1_0.view.set :=
    fun r c inb => row_in_slot 1 0 r c inb inb_S2x16x8x64_S1x1x8x64_1_0_0_0
  sl_exec_parts (disch := (refine row_ok4' _ _ ?_ ?_ _ _ rfl (hR' _ _ _ _ _) <;> decide))
  clear hin
  have hr_1_0 : region_last.sl.v1527 (F := F) g2 k = g2 (ValueIdx.ix1 ⟨32 * k.val + 16, by omega⟩) :=
    (word_of_load2 (F := F) g2 (k0_off180 k) _ 0 (by decide) _ _ _).trans
      (congrArg g2 (congrArg ValueIdx.ix1 (Fin.ext (by have h := off180 k; show k0_off180 k 0 + 0 = 32 * k.val + 16; omega))))
  generalize hq16 : View.writes (s3 : Memref sig .scVector .vmem S512x64 .f32).view (Elt F) g3_16 _ = g3_17
  have hD_17 : Done (F := F) L fI fT (32 * k.val + 17) g3_17 := by
    rw [← hq16]
    exact lane_done4' (F := F) L fI fT hidx (32 * k.val + 16) _ rfl g3_16 hD_16
      (k0_off182 k) (k0_off184 k) (k0_off186 k) (k0_off188 k) (offS_182 k) (offS_184 k) (offS_186 k) (offS_188 k) _ _ _ _ _ _ _ _
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 0 _ rfl _ _ (offS_182 k) _ _ _ x)
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 16 _ rfl _ _ (offS_184 k) _ _ _ x)
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 32 _ rfl _ _ (offS_186 k) _ _ _ x)
      (fun x => piece_val (F := F) L fI fT hidx g1 g2 hg1 hg2 1 0 inb_S2x16x8x64_S1x1x8x64_1_0_0_0 _ (32 * k.val + 16) (by omega) _ _ (wAt_eq g1 (2 * k.val + 1) 0 _ _ (by omega)) _ hr_1_0 48 _ rfl _ _ (offS_188 k) _ _ _ x)
  clear hq16 hD_16 hr_1_0
  have hin : ∀ (r c : Nat) (inb : ∀ a, (![1, 1, r, c] : Fin 4 → Nat) a + S1x1x1x16.size a ≤ S2x16x8x64.size a),
      (s4 : Memref sig .scVector .vmem S2x16x8x64 .f32).view.setOn (Rect.unit (s := S2x16x8x64) ![1, 1, r, c] S1x1x1x16.size inb).set ⊆ slot1_1.view.set :=
    fun r c inb => row_in_slot 1 1 r c inb inb_S2x16x8x64_S1x1x8x64_1_1_0_0
  sl_exec_parts (disch := (refine row_ok4' _ _ ?_ ?_ _ _ rfl (hR' _ _ _ _ _) <;> decide))
  clear hin
  have hr_1_1 : region_last.sl.v1567 (F := F) g2 k = g2 (ValueIdx.ix1 ⟨32 * k.val + 17, by omega⟩) :=
    (word_of_load2 (F := F) g2 (k0_off180 k) _ 1 (by decide) _ _ _).trans
      (congrArg g2 (congrArg ValueIdx.ix1 (Fin.ext (by have h := off180 k; show k0_off180 k 0 + 1 = 32 * k.val + 17; omega))))
  generalize hq17 : View.writes (s3 : Memref sig .scVector .vmem S512x64 .f32).view (Elt F) g3_17 _ = g3_18
  have hD_18 : Done (F := F) L fI fT (32 * k.val + 18) g3_18 := by
    rw [← hq17]
    exact lane_done4' (F := F) L fI fT hidx (32 * k.val + 17) _ rfl g3_17 hD_17
      (k0_off190 k) (k0_off192 k) (k0_off194 k) (k0_off196 k) (offS_190 k) (offS_192 k) (offS_194 k) (offS_196 k) _ _ _ _ _ _ _ _
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 0 _ rfl _ _ (offS_190 k) _ _ _ x)
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 16 _ rfl _ _ (offS_192 k) _ _ _ x)
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 32 _ rfl _ _ (offS_194 k) _ _ _ x)
      (fun x => piece_val (F := F) L fI fT hidx g1 g2 hg1 hg2 1 1 inb_S2x16x8x64_S1x1x8x64_1_1_0_0 _ (32 * k.val + 17) (by omega) _ _ (wAt_eq g1 (2 * k.val + 1) 1 _ _ (by omega)) _ hr_1_1 48 _ rfl _ _ (offS_196 k) _ _ _ x)
  clear hq17 hD_17 hr_1_1
  have hin : ∀ (r c : Nat) (inb : ∀ a, (![1, 2, r, c] : Fin 4 → Nat) a + S1x1x1x16.size a ≤ S2x16x8x64.size a),
      (s4 : Memref sig .scVector .vmem S2x16x8x64 .f32).view.setOn (Rect.unit (s := S2x16x8x64) ![1, 2, r, c] S1x1x1x16.size inb).set ⊆ slot1_2.view.set :=
    fun r c inb => row_in_slot 1 2 r c inb inb_S2x16x8x64_S1x1x8x64_1_2_0_0
  sl_exec_parts (disch := (refine row_ok4' _ _ ?_ ?_ _ _ rfl (hR' _ _ _ _ _) <;> decide))
  clear hin
  have hr_1_2 : region_last.sl.v1607 (F := F) g2 k = g2 (ValueIdx.ix1 ⟨32 * k.val + 18, by omega⟩) :=
    (word_of_load2 (F := F) g2 (k0_off180 k) _ 2 (by decide) _ _ _).trans
      (congrArg g2 (congrArg ValueIdx.ix1 (Fin.ext (by have h := off180 k; show k0_off180 k 0 + 2 = 32 * k.val + 18; omega))))
  generalize hq18 : View.writes (s3 : Memref sig .scVector .vmem S512x64 .f32).view (Elt F) g3_18 _ = g3_19
  have hD_19 : Done (F := F) L fI fT (32 * k.val + 19) g3_19 := by
    rw [← hq18]
    exact lane_done4' (F := F) L fI fT hidx (32 * k.val + 18) _ rfl g3_18 hD_18
      (k0_off198 k) (k0_off200 k) (k0_off202 k) (k0_off204 k) (offS_198 k) (offS_200 k) (offS_202 k) (offS_204 k) _ _ _ _ _ _ _ _
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 0 _ rfl _ _ (offS_198 k) _ _ _ x)
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 16 _ rfl _ _ (offS_200 k) _ _ _ x)
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 32 _ rfl _ _ (offS_202 k) _ _ _ x)
      (fun x => piece_val (F := F) L fI fT hidx g1 g2 hg1 hg2 1 2 inb_S2x16x8x64_S1x1x8x64_1_2_0_0 _ (32 * k.val + 18) (by omega) _ _ (wAt_eq g1 (2 * k.val + 1) 2 _ _ (by omega)) _ hr_1_2 48 _ rfl _ _ (offS_204 k) _ _ _ x)
  clear hq18 hD_18 hr_1_2
  have hin : ∀ (r c : Nat) (inb : ∀ a, (![1, 3, r, c] : Fin 4 → Nat) a + S1x1x1x16.size a ≤ S2x16x8x64.size a),
      (s4 : Memref sig .scVector .vmem S2x16x8x64 .f32).view.setOn (Rect.unit (s := S2x16x8x64) ![1, 3, r, c] S1x1x1x16.size inb).set ⊆ slot1_3.view.set :=
    fun r c inb => row_in_slot 1 3 r c inb inb_S2x16x8x64_S1x1x8x64_1_3_0_0
  sl_exec_parts (disch := (refine row_ok4' _ _ ?_ ?_ _ _ rfl (hR' _ _ _ _ _) <;> decide))
  clear hin
  have hr_1_3 : region_last.sl.v1647 (F := F) g2 k = g2 (ValueIdx.ix1 ⟨32 * k.val + 19, by omega⟩) :=
    (word_of_load2 (F := F) g2 (k0_off180 k) _ 3 (by decide) _ _ _).trans
      (congrArg g2 (congrArg ValueIdx.ix1 (Fin.ext (by have h := off180 k; show k0_off180 k 0 + 3 = 32 * k.val + 19; omega))))
  generalize hq19 : View.writes (s3 : Memref sig .scVector .vmem S512x64 .f32).view (Elt F) g3_19 _ = g3_20
  have hD_20 : Done (F := F) L fI fT (32 * k.val + 20) g3_20 := by
    rw [← hq19]
    exact lane_done4' (F := F) L fI fT hidx (32 * k.val + 19) _ rfl g3_19 hD_19
      (k0_off206 k) (k0_off208 k) (k0_off210 k) (k0_off212 k) (offS_206 k) (offS_208 k) (offS_210 k) (offS_212 k) _ _ _ _ _ _ _ _
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 0 _ rfl _ _ (offS_206 k) _ _ _ x)
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 16 _ rfl _ _ (offS_208 k) _ _ _ x)
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 32 _ rfl _ _ (offS_210 k) _ _ _ x)
      (fun x => piece_val (F := F) L fI fT hidx g1 g2 hg1 hg2 1 3 inb_S2x16x8x64_S1x1x8x64_1_3_0_0 _ (32 * k.val + 19) (by omega) _ _ (wAt_eq g1 (2 * k.val + 1) 3 _ _ (by omega)) _ hr_1_3 48 _ rfl _ _ (offS_212 k) _ _ _ x)
  clear hq19 hD_19 hr_1_3
  have hin : ∀ (r c : Nat) (inb : ∀ a, (![1, 4, r, c] : Fin 4 → Nat) a + S1x1x1x16.size a ≤ S2x16x8x64.size a),
      (s4 : Memref sig .scVector .vmem S2x16x8x64 .f32).view.setOn (Rect.unit (s := S2x16x8x64) ![1, 4, r, c] S1x1x1x16.size inb).set ⊆ slot1_4.view.set :=
    fun r c inb => row_in_slot 1 4 r c inb inb_S2x16x8x64_S1x1x8x64_1_4_0_0
  sl_exec_parts (disch := (refine row_ok4' _ _ ?_ ?_ _ _ rfl (hR' _ _ _ _ _) <;> decide))
  clear hin
  have hr_1_4 : region_last.sl.v1687 (F := F) g2 k = g2 (ValueIdx.ix1 ⟨32 * k.val + 20, by omega⟩) :=
    (word_of_load2 (F := F) g2 (k0_off180 k) _ 4 (by decide) _ _ _).trans
      (congrArg g2 (congrArg ValueIdx.ix1 (Fin.ext (by have h := off180 k; show k0_off180 k 0 + 4 = 32 * k.val + 20; omega))))
  generalize hq20 : View.writes (s3 : Memref sig .scVector .vmem S512x64 .f32).view (Elt F) g3_20 _ = g3_21
  have hD_21 : Done (F := F) L fI fT (32 * k.val + 21) g3_21 := by
    rw [← hq20]
    exact lane_done4' (F := F) L fI fT hidx (32 * k.val + 20) _ rfl g3_20 hD_20
      (k0_off214 k) (k0_off216 k) (k0_off218 k) (k0_off220 k) (offS_214 k) (offS_216 k) (offS_218 k) (offS_220 k) _ _ _ _ _ _ _ _
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 0 _ rfl _ _ (offS_214 k) _ _ _ x)
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 16 _ rfl _ _ (offS_216 k) _ _ _ x)
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 32 _ rfl _ _ (offS_218 k) _ _ _ x)
      (fun x => piece_val (F := F) L fI fT hidx g1 g2 hg1 hg2 1 4 inb_S2x16x8x64_S1x1x8x64_1_4_0_0 _ (32 * k.val + 20) (by omega) _ _ (wAt_eq g1 (2 * k.val + 1) 4 _ _ (by omega)) _ hr_1_4 48 _ rfl _ _ (offS_220 k) _ _ _ x)
  clear hq20 hD_20 hr_1_4
  have hin : ∀ (r c : Nat) (inb : ∀ a, (![1, 5, r, c] : Fin 4 → Nat) a + S1x1x1x16.size a ≤ S2x16x8x64.size a),
      (s4 : Memref sig .scVector .vmem S2x16x8x64 .f32).view.setOn (Rect.unit (s := S2x16x8x64) ![1, 5, r, c] S1x1x1x16.size inb).set ⊆ slot1_5.view.set :=
    fun r c inb => row_in_slot 1 5 r c inb inb_S2x16x8x64_S1x1x8x64_1_5_0_0
  sl_exec_parts (disch := (refine row_ok4' _ _ ?_ ?_ _ _ rfl (hR' _ _ _ _ _) <;> decide))
  clear hin
  have hr_1_5 : region_last.sl.v1727 (F := F) g2 k = g2 (ValueIdx.ix1 ⟨32 * k.val + 21, by omega⟩) :=
    (word_of_load2 (F := F) g2 (k0_off180 k) _ 5 (by decide) _ _ _).trans
      (congrArg g2 (congrArg ValueIdx.ix1 (Fin.ext (by have h := off180 k; show k0_off180 k 0 + 5 = 32 * k.val + 21; omega))))
  generalize hq21 : View.writes (s3 : Memref sig .scVector .vmem S512x64 .f32).view (Elt F) g3_21 _ = g3_22
  have hD_22 : Done (F := F) L fI fT (32 * k.val + 22) g3_22 := by
    rw [← hq21]
    exact lane_done4' (F := F) L fI fT hidx (32 * k.val + 21) _ rfl g3_21 hD_21
      (k0_off222 k) (k0_off224 k) (k0_off226 k) (k0_off228 k) (offS_222 k) (offS_224 k) (offS_226 k) (offS_228 k) _ _ _ _ _ _ _ _
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 0 _ rfl _ _ (offS_222 k) _ _ _ x)
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 16 _ rfl _ _ (offS_224 k) _ _ _ x)
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 32 _ rfl _ _ (offS_226 k) _ _ _ x)
      (fun x => piece_val (F := F) L fI fT hidx g1 g2 hg1 hg2 1 5 inb_S2x16x8x64_S1x1x8x64_1_5_0_0 _ (32 * k.val + 21) (by omega) _ _ (wAt_eq g1 (2 * k.val + 1) 5 _ _ (by omega)) _ hr_1_5 48 _ rfl _ _ (offS_228 k) _ _ _ x)
  clear hq21 hD_21 hr_1_5
  have hin : ∀ (r c : Nat) (inb : ∀ a, (![1, 6, r, c] : Fin 4 → Nat) a + S1x1x1x16.size a ≤ S2x16x8x64.size a),
      (s4 : Memref sig .scVector .vmem S2x16x8x64 .f32).view.setOn (Rect.unit (s := S2x16x8x64) ![1, 6, r, c] S1x1x1x16.size inb).set ⊆ slot1_6.view.set :=
    fun r c inb => row_in_slot 1 6 r c inb inb_S2x16x8x64_S1x1x8x64_1_6_0_0
  sl_exec_parts (disch := (refine row_ok4' _ _ ?_ ?_ _ _ rfl (hR' _ _ _ _ _) <;> decide))
  clear hin
  have hr_1_6 : region_last.sl.v1767 (F := F) g2 k = g2 (ValueIdx.ix1 ⟨32 * k.val + 22, by omega⟩) :=
    (word_of_load2 (F := F) g2 (k0_off180 k) _ 6 (by decide) _ _ _).trans
      (congrArg g2 (congrArg ValueIdx.ix1 (Fin.ext (by have h := off180 k; show k0_off180 k 0 + 6 = 32 * k.val + 22; omega))))
  generalize hq22 : View.writes (s3 : Memref sig .scVector .vmem S512x64 .f32).view (Elt F) g3_22 _ = g3_23
  have hD_23 : Done (F := F) L fI fT (32 * k.val + 23) g3_23 := by
    rw [← hq22]
    exact lane_done4' (F := F) L fI fT hidx (32 * k.val + 22) _ rfl g3_22 hD_22
      (k0_off230 k) (k0_off232 k) (k0_off234 k) (k0_off236 k) (offS_230 k) (offS_232 k) (offS_234 k) (offS_236 k) _ _ _ _ _ _ _ _
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 0 _ rfl _ _ (offS_230 k) _ _ _ x)
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 16 _ rfl _ _ (offS_232 k) _ _ _ x)
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 32 _ rfl _ _ (offS_234 k) _ _ _ x)
      (fun x => piece_val (F := F) L fI fT hidx g1 g2 hg1 hg2 1 6 inb_S2x16x8x64_S1x1x8x64_1_6_0_0 _ (32 * k.val + 22) (by omega) _ _ (wAt_eq g1 (2 * k.val + 1) 6 _ _ (by omega)) _ hr_1_6 48 _ rfl _ _ (offS_236 k) _ _ _ x)
  clear hq22 hD_22 hr_1_6
  have hin : ∀ (r c : Nat) (inb : ∀ a, (![1, 7, r, c] : Fin 4 → Nat) a + S1x1x1x16.size a ≤ S2x16x8x64.size a),
      (s4 : Memref sig .scVector .vmem S2x16x8x64 .f32).view.setOn (Rect.unit (s := S2x16x8x64) ![1, 7, r, c] S1x1x1x16.size inb).set ⊆ slot1_7.view.set :=
    fun r c inb => row_in_slot 1 7 r c inb inb_S2x16x8x64_S1x1x8x64_1_7_0_0
  sl_exec_parts (disch := (refine row_ok4' _ _ ?_ ?_ _ _ rfl (hR' _ _ _ _ _) <;> decide))
  clear hin
  have hr_1_7 : region_last.sl.v1807 (F := F) g2 k = g2 (ValueIdx.ix1 ⟨32 * k.val + 23, by omega⟩) :=
    (word_of_load2 (F := F) g2 (k0_off180 k) _ 7 (by decide) _ _ _).trans
      (congrArg g2 (congrArg ValueIdx.ix1 (Fin.ext (by have h := off180 k; show k0_off180 k 0 + 7 = 32 * k.val + 23; omega))))
  generalize hq23 : View.writes (s3 : Memref sig .scVector .vmem S512x64 .f32).view (Elt F) g3_23 _ = g3_24
  have hD_24 : Done (F := F) L fI fT (32 * k.val + 24) g3_24 := by
    rw [← hq23]
    exact lane_done4' (F := F) L fI fT hidx (32 * k.val + 23) _ rfl g3_23 hD_23
      (k0_off238 k) (k0_off240 k) (k0_off242 k) (k0_off244 k) (offS_238 k) (offS_240 k) (offS_242 k) (offS_244 k) _ _ _ _ _ _ _ _
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 0 _ rfl _ _ (offS_238 k) _ _ _ x)
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 16 _ rfl _ _ (offS_240 k) _ _ _ x)
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 32 _ rfl _ _ (offS_242 k) _ _ _ x)
      (fun x => piece_val (F := F) L fI fT hidx g1 g2 hg1 hg2 1 7 inb_S2x16x8x64_S1x1x8x64_1_7_0_0 _ (32 * k.val + 23) (by omega) _ _ (wAt_eq g1 (2 * k.val + 1) 7 _ _ (by omega)) _ hr_1_7 48 _ rfl _ _ (offS_244 k) _ _ _ x)
  clear hq23 hD_23 hr_1_7
  have hin : ∀ (r c : Nat) (inb : ∀ a, (![1, 8, r, c] : Fin 4 → Nat) a + S1x1x1x16.size a ≤ S2x16x8x64.size a),
      (s4 : Memref sig .scVector .vmem S2x16x8x64 .f32).view.setOn (Rect.unit (s := S2x16x8x64) ![1, 8, r, c] S1x1x1x16.size inb).set ⊆ slot1_8.view.set :=
    fun r c inb => row_in_slot 1 8 r c inb inb_S2x16x8x64_S1x1x8x64_1_8_0_0
  sl_exec_parts (disch := (refine row_ok4' _ _ ?_ ?_ _ _ rfl (hR' _ _ _ _ _) <;> decide))
  clear hin
  have hr_1_8 : region_last.sl.v1847 (F := F) g2 k = g2 (ValueIdx.ix1 ⟨32 * k.val + 24, by omega⟩) :=
    (word_of_load2 (F := F) g2 (k0_off180 k) _ 8 (by decide) _ _ _).trans
      (congrArg g2 (congrArg ValueIdx.ix1 (Fin.ext (by have h := off180 k; show k0_off180 k 0 + 8 = 32 * k.val + 24; omega))))
  generalize hq24 : View.writes (s3 : Memref sig .scVector .vmem S512x64 .f32).view (Elt F) g3_24 _ = g3_25
  have hD_25 : Done (F := F) L fI fT (32 * k.val + 25) g3_25 := by
    rw [← hq24]
    exact lane_done4' (F := F) L fI fT hidx (32 * k.val + 24) _ rfl g3_24 hD_24
      (k0_off246 k) (k0_off248 k) (k0_off250 k) (k0_off252 k) (offS_246 k) (offS_248 k) (offS_250 k) (offS_252 k) _ _ _ _ _ _ _ _
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 0 _ rfl _ _ (offS_246 k) _ _ _ x)
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 16 _ rfl _ _ (offS_248 k) _ _ _ x)
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 32 _ rfl _ _ (offS_250 k) _ _ _ x)
      (fun x => piece_val (F := F) L fI fT hidx g1 g2 hg1 hg2 1 8 inb_S2x16x8x64_S1x1x8x64_1_8_0_0 _ (32 * k.val + 24) (by omega) _ _ (wAt_eq g1 (2 * k.val + 1) 8 _ _ (by omega)) _ hr_1_8 48 _ rfl _ _ (offS_252 k) _ _ _ x)
  clear hq24 hD_24 hr_1_8
  have hin : ∀ (r c : Nat) (inb : ∀ a, (![1, 9, r, c] : Fin 4 → Nat) a + S1x1x1x16.size a ≤ S2x16x8x64.size a),
      (s4 : Memref sig .scVector .vmem S2x16x8x64 .f32).view.setOn (Rect.unit (s := S2x16x8x64) ![1, 9, r, c] S1x1x1x16.size inb).set ⊆ slot1_9.view.set :=
    fun r c inb => row_in_slot 1 9 r c inb inb_S2x16x8x64_S1x1x8x64_1_9_0_0
  sl_exec_parts (disch := (refine row_ok4' _ _ ?_ ?_ _ _ rfl (hR' _ _ _ _ _) <;> decide))
  clear hin
  have hr_1_9 : region_last.sl.v1887 (F := F) g2 k = g2 (ValueIdx.ix1 ⟨32 * k.val + 25, by omega⟩) :=
    (word_of_load2 (F := F) g2 (k0_off180 k) _ 9 (by decide) _ _ _).trans
      (congrArg g2 (congrArg ValueIdx.ix1 (Fin.ext (by have h := off180 k; show k0_off180 k 0 + 9 = 32 * k.val + 25; omega))))
  generalize hq25 : View.writes (s3 : Memref sig .scVector .vmem S512x64 .f32).view (Elt F) g3_25 _ = g3_26
  have hD_26 : Done (F := F) L fI fT (32 * k.val + 26) g3_26 := by
    rw [← hq25]
    exact lane_done4' (F := F) L fI fT hidx (32 * k.val + 25) _ rfl g3_25 hD_25
      (k0_off254 k) (k0_off256 k) (k0_off258 k) (k0_off260 k) (offS_254 k) (offS_256 k) (offS_258 k) (offS_260 k) _ _ _ _ _ _ _ _
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 0 _ rfl _ _ (offS_254 k) _ _ _ x)
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 16 _ rfl _ _ (offS_256 k) _ _ _ x)
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 32 _ rfl _ _ (offS_258 k) _ _ _ x)
      (fun x => piece_val (F := F) L fI fT hidx g1 g2 hg1 hg2 1 9 inb_S2x16x8x64_S1x1x8x64_1_9_0_0 _ (32 * k.val + 25) (by omega) _ _ (wAt_eq g1 (2 * k.val + 1) 9 _ _ (by omega)) _ hr_1_9 48 _ rfl _ _ (offS_260 k) _ _ _ x)
  clear hq25 hD_25 hr_1_9
  have hin : ∀ (r c : Nat) (inb : ∀ a, (![1, 10, r, c] : Fin 4 → Nat) a + S1x1x1x16.size a ≤ S2x16x8x64.size a),
      (s4 : Memref sig .scVector .vmem S2x16x8x64 .f32).view.setOn (Rect.unit (s := S2x16x8x64) ![1, 10, r, c] S1x1x1x16.size inb).set ⊆ slot1_10.view.set :=
    fun r c inb => row_in_slot 1 10 r c inb inb_S2x16x8x64_S1x1x8x64_1_10_0_0
  sl_exec_parts (disch := (refine row_ok4' _ _ ?_ ?_ _ _ rfl (hR' _ _ _ _ _) <;> decide))
  clear hin
  have hr_1_10 : region_last.sl.v1927 (F := F) g2 k = g2 (ValueIdx.ix1 ⟨32 * k.val + 26, by omega⟩) :=
    (word_of_load2 (F := F) g2 (k0_off180 k) _ 10 (by decide) _ _ _).trans
      (congrArg g2 (congrArg ValueIdx.ix1 (Fin.ext (by have h := off180 k; show k0_off180 k 0 + 10 = 32 * k.val + 26; omega))))
  generalize hq26 : View.writes (s3 : Memref sig .scVector .vmem S512x64 .f32).view (Elt F) g3_26 _ = g3_27
  have hD_27 : Done (F := F) L fI fT (32 * k.val + 27) g3_27 := by
    rw [← hq26]
    exact lane_done4' (F := F) L fI fT hidx (32 * k.val + 26) _ rfl g3_26 hD_26
      (k0_off262 k) (k0_off264 k) (k0_off266 k) (k0_off268 k) (offS_262 k) (offS_264 k) (offS_266 k) (offS_268 k) _ _ _ _ _ _ _ _
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 0 _ rfl _ _ (offS_262 k) _ _ _ x)
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 16 _ rfl _ _ (offS_264 k) _ _ _ x)
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 32 _ rfl _ _ (offS_266 k) _ _ _ x)
      (fun x => piece_val (F := F) L fI fT hidx g1 g2 hg1 hg2 1 10 inb_S2x16x8x64_S1x1x8x64_1_10_0_0 _ (32 * k.val + 26) (by omega) _ _ (wAt_eq g1 (2 * k.val + 1) 10 _ _ (by omega)) _ hr_1_10 48 _ rfl _ _ (offS_268 k) _ _ _ x)
  clear hq26 hD_26 hr_1_10
  have hin : ∀ (r c : Nat) (inb : ∀ a, (![1, 11, r, c] : Fin 4 → Nat) a + S1x1x1x16.size a ≤ S2x16x8x64.size a),
      (s4 : Memref sig .scVector .vmem S2x16x8x64 .f32).view.setOn (Rect.unit (s := S2x16x8x64) ![1, 11, r, c] S1x1x1x16.size inb).set ⊆ slot1_11.view.set :=
    fun r c inb => row_in_slot 1 11 r c inb inb_S2x16x8x64_S1x1x8x64_1_11_0_0
  sl_exec_parts (disch := (refine row_ok4' _ _ ?_ ?_ _ _ rfl (hR' _ _ _ _ _) <;> decide))
  clear hin
  have hr_1_11 : region_last.sl.v1967 (F := F) g2 k = g2 (ValueIdx.ix1 ⟨32 * k.val + 27, by omega⟩) :=
    (word_of_load2 (F := F) g2 (k0_off180 k) _ 11 (by decide) _ _ _).trans
      (congrArg g2 (congrArg ValueIdx.ix1 (Fin.ext (by have h := off180 k; show k0_off180 k 0 + 11 = 32 * k.val + 27; omega))))
  generalize hq27 : View.writes (s3 : Memref sig .scVector .vmem S512x64 .f32).view (Elt F) g3_27 _ = g3_28
  have hD_28 : Done (F := F) L fI fT (32 * k.val + 28) g3_28 := by
    rw [← hq27]
    exact lane_done4' (F := F) L fI fT hidx (32 * k.val + 27) _ rfl g3_27 hD_27
      (k0_off270 k) (k0_off272 k) (k0_off274 k) (k0_off276 k) (offS_270 k) (offS_272 k) (offS_274 k) (offS_276 k) _ _ _ _ _ _ _ _
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 0 _ rfl _ _ (offS_270 k) _ _ _ x)
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 16 _ rfl _ _ (offS_272 k) _ _ _ x)
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 32 _ rfl _ _ (offS_274 k) _ _ _ x)
      (fun x => piece_val (F := F) L fI fT hidx g1 g2 hg1 hg2 1 11 inb_S2x16x8x64_S1x1x8x64_1_11_0_0 _ (32 * k.val + 27) (by omega) _ _ (wAt_eq g1 (2 * k.val + 1) 11 _ _ (by omega)) _ hr_1_11 48 _ rfl _ _ (offS_276 k) _ _ _ x)
  clear hq27 hD_27 hr_1_11
  have hin : ∀ (r c : Nat) (inb : ∀ a, (![1, 12, r, c] : Fin 4 → Nat) a + S1x1x1x16.size a ≤ S2x16x8x64.size a),
      (s4 : Memref sig .scVector .vmem S2x16x8x64 .f32).view.setOn (Rect.unit (s := S2x16x8x64) ![1, 12, r, c] S1x1x1x16.size inb).set ⊆ slot1_12.view.set :=
    fun r c inb => row_in_slot 1 12 r c inb inb_S2x16x8x64_S1x1x8x64_1_12_0_0
  sl_exec_parts (disch := (refine row_ok4' _ _ ?_ ?_ _ _ rfl (hR' _ _ _ _ _) <;> decide))
  clear hin
  have hr_1_12 : region_last.sl.v2007 (F := F) g2 k = g2 (ValueIdx.ix1 ⟨32 * k.val + 28, by omega⟩) :=
    (word_of_load2 (F := F) g2 (k0_off180 k) _ 12 (by decide) _ _ _).trans
      (congrArg g2 (congrArg ValueIdx.ix1 (Fin.ext (by have h := off180 k; show k0_off180 k 0 + 12 = 32 * k.val + 28; omega))))
  generalize hq28 : View.writes (s3 : Memref sig .scVector .vmem S512x64 .f32).view (Elt F) g3_28 _ = g3_29
  have hD_29 : Done (F := F) L fI fT (32 * k.val + 29) g3_29 := by
    rw [← hq28]
    exact lane_done4' (F := F) L fI fT hidx (32 * k.val + 28) _ rfl g3_28 hD_28
      (k0_off278 k) (k0_off280 k) (k0_off282 k) (k0_off284 k) (offS_278 k) (offS_280 k) (offS_282 k) (offS_284 k) _ _ _ _ _ _ _ _
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 0 _ rfl _ _ (offS_278 k) _ _ _ x)
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 16 _ rfl _ _ (offS_280 k) _ _ _ x)
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 32 _ rfl _ _ (offS_282 k) _ _ _ x)
      (fun x => piece_val (F := F) L fI fT hidx g1 g2 hg1 hg2 1 12 inb_S2x16x8x64_S1x1x8x64_1_12_0_0 _ (32 * k.val + 28) (by omega) _ _ (wAt_eq g1 (2 * k.val + 1) 12 _ _ (by omega)) _ hr_1_12 48 _ rfl _ _ (offS_284 k) _ _ _ x)
  clear hq28 hD_28 hr_1_12
  have hin : ∀ (r c : Nat) (inb : ∀ a, (![1, 13, r, c] : Fin 4 → Nat) a + S1x1x1x16.size a ≤ S2x16x8x64.size a),
      (s4 : Memref sig .scVector .vmem S2x16x8x64 .f32).view.setOn (Rect.unit (s := S2x16x8x64) ![1, 13, r, c] S1x1x1x16.size inb).set ⊆ slot1_13.view.set :=
    fun r c inb => row_in_slot 1 13 r c inb inb_S2x16x8x64_S1x1x8x64_1_13_0_0
  sl_exec_parts (disch := (refine row_ok4' _ _ ?_ ?_ _ _ rfl (hR' _ _ _ _ _) <;> decide))
  clear hin
  have hr_1_13 : region_last.sl.v2047 (F := F) g2 k = g2 (ValueIdx.ix1 ⟨32 * k.val + 29, by omega⟩) :=
    (word_of_load2 (F := F) g2 (k0_off180 k) _ 13 (by decide) _ _ _).trans
      (congrArg g2 (congrArg ValueIdx.ix1 (Fin.ext (by have h := off180 k; show k0_off180 k 0 + 13 = 32 * k.val + 29; omega))))
  generalize hq29 : View.writes (s3 : Memref sig .scVector .vmem S512x64 .f32).view (Elt F) g3_29 _ = g3_30
  have hD_30 : Done (F := F) L fI fT (32 * k.val + 30) g3_30 := by
    rw [← hq29]
    exact lane_done4' (F := F) L fI fT hidx (32 * k.val + 29) _ rfl g3_29 hD_29
      (k0_off286 k) (k0_off288 k) (k0_off290 k) (k0_off292 k) (offS_286 k) (offS_288 k) (offS_290 k) (offS_292 k) _ _ _ _ _ _ _ _
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 0 _ rfl _ _ (offS_286 k) _ _ _ x)
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 16 _ rfl _ _ (offS_288 k) _ _ _ x)
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 32 _ rfl _ _ (offS_290 k) _ _ _ x)
      (fun x => piece_val (F := F) L fI fT hidx g1 g2 hg1 hg2 1 13 inb_S2x16x8x64_S1x1x8x64_1_13_0_0 _ (32 * k.val + 29) (by omega) _ _ (wAt_eq g1 (2 * k.val + 1) 13 _ _ (by omega)) _ hr_1_13 48 _ rfl _ _ (offS_292 k) _ _ _ x)
  clear hq29 hD_29 hr_1_13
  have hin : ∀ (r c : Nat) (inb : ∀ a, (![1, 14, r, c] : Fin 4 → Nat) a + S1x1x1x16.size a ≤ S2x16x8x64.size a),
      (s4 : Memref sig .scVector .vmem S2x16x8x64 .f32).view.setOn (Rect.unit (s := S2x16x8x64) ![1, 14, r, c] S1x1x1x16.size inb).set ⊆ slot1_14.view.set :=
    fun r c inb => row_in_slot 1 14 r c inb inb_S2x16x8x64_S1x1x8x64_1_14_0_0
  sl_exec_parts (disch := (refine row_ok4' _ _ ?_ ?_ _ _ rfl (hR' _ _ _ _ _) <;> decide))
  clear hin
  have hr_1_14 : region_last.sl.v2087 (F := F) g2 k = g2 (ValueIdx.ix1 ⟨32 * k.val + 30, by omega⟩) :=
    (word_of_load2 (F := F) g2 (k0_off180 k) _ 14 (by decide) _ _ _).trans
      (congrArg g2 (congrArg ValueIdx.ix1 (Fin.ext (by have h := off180 k; show k0_off180 k 0 + 14 = 32 * k.val + 30; omega))))
  generalize hq30 : View.writes (s3 : Memref sig .scVector .vmem S512x64 .f32).view (Elt F) g3_30 _ = g3_31
  have hD_31 : Done (F := F) L fI fT (32 * k.val + 31) g3_31 := by
    rw [← hq30]
    exact lane_done4' (F := F) L fI fT hidx (32 * k.val + 30) _ rfl g3_30 hD_30
      (k0_off294 k) (k0_off296 k) (k0_off298 k) (k0_off300 k) (offS_294 k) (offS_296 k) (offS_298 k) (offS_300 k) _ _ _ _ _ _ _ _
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 0 _ rfl _ _ (offS_294 k) _ _ _ x)
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 16 _ rfl _ _ (offS_296 k) _ _ _ x)
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 32 _ rfl _ _ (offS_298 k) _ _ _ x)
      (fun x => piece_val (F := F) L fI fT hidx g1 g2 hg1 hg2 1 14 inb_S2x16x8x64_S1x1x8x64_1_14_0_0 _ (32 * k.val + 30) (by omega) _ _ (wAt_eq g1 (2 * k.val + 1) 14 _ _ (by omega)) _ hr_1_14 48 _ rfl _ _ (offS_300 k) _ _ _ x)
  clear hq30 hD_30 hr_1_14
  have hin : ∀ (r c : Nat) (inb : ∀ a, (![1, 15, r, c] : Fin 4 → Nat) a + S1x1x1x16.size a ≤ S2x16x8x64.size a),
      (s4 : Memref sig .scVector .vmem S2x16x8x64 .f32).view.setOn (Rect.unit (s := S2x16x8x64) ![1, 15, r, c] S1x1x1x16.size inb).set ⊆ slot1_15.view.set :=
    fun r c inb => row_in_slot 1 15 r c inb inb_S2x16x8x64_S1x1x8x64_1_15_0_0
  sl_exec_parts (disch := first | exact slab_ok_g' _ _ _ rfl (hA' _ _ _ _ _) | (refine row_ok4' _ _ ?_ ?_ _ _ rfl (hR' _ _ _ _ _) <;> decide))
  clear hin
  have hr_1_15 : region_last.sl.v2127 (F := F) g2 k = g2 (ValueIdx.ix1 ⟨32 * k.val + 31, by omega⟩) :=
    (word_of_load2 (F := F) g2 (k0_off180 k) _ 15 (by decide) _ _ _).trans
      (congrArg g2 (congrArg ValueIdx.ix1 (Fin.ext (by have h := off180 k; show k0_off180 k 0 + 15 = 32 * k.val + 31; omega))))
  generalize hq31 : View.writes (s3 : Memref sig .scVector .vmem S512x64 .f32).view (Elt F) g3_31 _ = g3_32
  have hD_32 : Done (F := F) L fI fT (32 * k.val + 32) g3_32 := by
    rw [← hq31]
    exact lane_done4' (F := F) L fI fT hidx (32 * k.val + 31) _ rfl g3_31 hD_31
      (k0_off302 k) (k0_off304 k) (k0_off306 k) (k0_off308 k) (offS_302 k) (offS_304 k) (offS_306 k) (offS_308 k) _ _ _ _ _ _ _ _
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 0 _ rfl _ _ (offS_302 k) _ _ _ x)
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 16 _ rfl _ _ (offS_304 k) _ _ _ x)
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 32 _ rfl _ _ (offS_306 k) _ _ _ x)
      (fun x => piece_val (F := F) L fI fT hidx g1 g2 hg1 hg2 1 15 inb_S2x16x8x64_S1x1x8x64_1_15_0_0 _ (32 * k.val + 31) (by omega) _ _ (wAt_eq g1 (2 * k.val + 1) 15 _ _ (by omega)) _ hr_1_15 48 _ rfl _ _ (offS_308 k) _ _ _ x)
  clear hq31 hD_31 hr_1_15
  try sl_exec_parts (disch := first | exact slab_ok_g' _ _ _ rfl (hA' _ _ _ _ _) | (refine row_ok4' _ _ ?_ ?_ _ _ rfl (hR' _ _ _ _ _) <;> decide))
  sl_step
  have hk15e : k.val = 15 := by omega
  rw [if_neg (by omega)]
  isplitl [Hmw Hi Ho H0 H1 H2 H3 Hs7 Hs8 HO]
  · isplitr; · iexact Hmw
    isplitl [Hi]; · iexact Hi
    isplitl [Ho]; · iexact Ho
    isplitl [H0]; · iexists _; iexact H0
    isplitl [H1]; · iexact H1
    isplitl [H2]; · iexact H2
    isplitl [H3]
    · iexists g3_32; isplitr
      · ipureintro; have h := hD_32; rw [hk15e] at h; exact h
      · iexact H3
    isplitl [Hs7]; · iexact Hs7
    isplitl [Hs8]; · iexact Hs8
    iexists _; isplitr
    rotate_left
    · iexact HO
    · ipureintro; intro p hp
      repeat (first | exact hW' p hp | (rcases Finset.mem_insert.mp hp with hp | hp; · exact .inr (hp ▸ rfl)))
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Ht17]; · iexact Ht17
  isplitl [Ht18]; · iexact Ht18
  isplitl [Ht19]; · iexact Ht19
  isplitl [Ht20]; · iexact Ht20
  isplitl [Ht21]; · iexact Ht21
  isplitl [Ht22]; · iexact Ht22
  isplitl [Ht23]; · iexact Ht23
  isplitl [Ht24]; · iexact Ht24
  isplitl [Ht25]; · iexact Ht25
  isplitl [Ht26]; · iexact Ht26
  isplitl [Ht27]; · iexact Ht27
  isplitl [Ht28]; · iexact Ht28
  isplitl [Ht29]; · iexact Ht29
  isplitl [Ht30]; · iexact Ht30
  isplitl [Ht31]; · iexact Ht31
  isplitl [Hs5_dst0]; · iexists _; iexact Hs5_dst0
  isplitl [Hs5_dst1]; · iexists _; iexact Hs5_dst1
  isplitl [Hs5_dst2]; · iexists _; iexact Hs5_dst2
  isplitl [Hs5_dst3]; · iexists _; iexact Hs5_dst3
  isplitl [Hs5_dst4]; · iexists _; iexact Hs5_dst4
  isplitl [Hs5_dst5]; · iexists _; iexact Hs5_dst5
  isplitl [Hs5_dst6]; · iexists _; iexact Hs5_dst6
  isplitl [Hs5_dst7]; · iexists _; iexact Hs5_dst7
  isplitl [Hs5_dst8]; · iexists _; iexact Hs5_dst8
  isplitl [Hs5_dst9]; · iexists _; iexact Hs5_dst9
  isplitl [Hs5_dst10]; · iexists _; iexact Hs5_dst10
  isplitl [Hs5_dst11]; · iexists _; iexact Hs5_dst11
  isplitl [Hs5_dst12]; · iexists _; iexact Hs5_dst12
  isplitl [Hs5_dst13]; · iexists _; iexact Hs5_dst13
  isplitl [Hs5_dst14]; · iexists _; iexact Hs5_dst14
  isplitl [Hs5_dst15]; · iexists _; iexact Hs5_dst15
  isplitl [Hs6_dst0]; · iexists _; iexact Hs6_dst0
  isplitl [Hs6_dst1]; · iexists _; iexact Hs6_dst1
  isplitl [Hs6_dst2]; · iexists _; iexact Hs6_dst2
  isplitl [Hs6_dst3]; · iexists _; iexact Hs6_dst3
  isplitl [Hs6_dst4]; · iexists _; iexact Hs6_dst4
  isplitl [Hs6_dst5]; · iexists _; iexact Hs6_dst5
  isplitl [Hs6_dst6]; · iexists _; iexact Hs6_dst6
  isplitl [Hs6_dst7]; · iexists _; iexact Hs6_dst7
  isplitl [Hs6_dst8]; · iexists _; iexact Hs6_dst8
  isplitl [Hs6_dst9]; · iexists _; iexact Hs6_dst9
  isplitl [Hs6_dst10]; · iexists _; iexact Hs6_dst10
  isplitl [Hs6_dst11]; · iexists _; iexact Hs6_dst11
  isplitl [Hs6_dst12]; · iexists _; iexact Hs6_dst12
  isplitl [Hs6_dst13]; · iexists _; iexact Hs6_dst13
  isplitl [Hs6_dst14]; · iexists _; iexact Hs6_dst14
  isplitl [Hs6_dst15]; · iexists _; iexact Hs6_dst15
  isplitl [Hs5]; · iexact Hs5
  iexact Hs6

end Cert.KTile

end
-- ==== Proof.RegionK.lean ====
import proofs.«207235_g30958124269674_cont_8to1_b_889_24_alg».proof.Proof.RegionAK
import proofs.«207235_g30958124269674_cont_8to1_b_889_24_alg».proof.Proof.RegionBK

/-! One trip of the loop keeps the invariant: the first half's slabs land, their sixteen rows are picked into the row
    scratch, the next group is fetched into the first half (unless this is the last trip); the same for the second half. -/

noncomputable section

namespace Cert.KTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- One trip of the loop keeps the invariant, whichever trip it is. -/
theorem loop_region {d : Dev nD} (L : grid0.Coords) (q : PosShare TreeShare) (O : CellTallies nD τ sig (HIx 1)) (W : Waits sig (HIx 1))
    (fI : Buf (Elt F) (iLoc d)) (fT : Buf (Elt F) (tLoc d)) (fO : Buf (Elt F) (oLoc d))
    (f4 : Buf (Elt F) ((thr d L).loc cc0_scratch4)) (g1 g2 : S512.Idx → BitVec 32)
    (hS1 : ∀ p, Slab (g1 p)) (hR2 : ∀ p, (g2 p).toNat < 8)
    (hidx : ∀ j : S16384.Idx, (fI j).toNat ≤ 999999) (hg1 : g1 = G1 (F := F) L fI) (hg2 : g2 = G2 (F := F) L fI)
    (k : Fin k0_t1_loop.trips) (acc : PUnit) :
    inv (F := F) d L q O W fI fT fO f4 g1 g2 hS1 k acc
      ⊢ wp frame (wpE (defs₀ (F := F)) 𝒱₀ (thr d L) none) Set.univ
          (k0_t1_body (F := F) L iV (Memref.isWhole_whole _) tV (Memref.isWhole_whole _) oV (Memref.isWhole_whole _)
            s0 (Memref.isWhole_whole _) s1 (Memref.isWhole_whole _) s2 (Memref.isWhole_whole _) s3 (Memref.isWhole_whole _)
            s4 (Memref.isWhole_whole _) cc0_scratch5 cc0_scratch6 cc0_scoped0 cc0_scoped1 (0#32) k acc)
          (inv (F := F) d L q O W fI fT fO f4 g1 g2 hS1 (k.val + 1)) := by
  by_cases hk15 : k.val < 15
  · exact region_lt (F := F) L q O W fI fT fO f4 g1 g2 hS1 hR2 hidx hg1 hg2 k acc hk15
  · exact region_last (F := F) L q O W fI fT fO f4 g1 g2 hS1 hR2 hidx hg1 hg2 k acc hk15

end Cert.KTile

end
-- ==== Proof.EpilogueK.lean ====
import proofs.«207235_g30958124269674_cont_8to1_b_889_24_alg».proof.Proof.InvK

/-! The rows go out. When every row of the row scratch holds the table's row its index names, the task's run of the
    output, written whole from the row scratch, holds at row `j` row `idx[j]` of the table. -/

noncomputable section

namespace Cert.KTile

open Cert.Kernel Cert.Kernel.Gen

open Idealize.ShloMosaic

variable {F : FTy → Type} [FloatOps F]

/-- The run's word at place `p` is the index array's at the run's place `p`. -/
theorem idxRun_apply {d : Dev nD} (L : grid0.Coords) (fI : Buf (Elt F) (iLoc d)) (p : S512.Idx) :
    idxRun (F := F) L fI p = fI ((iRow L).view.emb p) := (View.read_apply _ _).trans (cast_eq _ _)

/-- The run of the output written whole with the rows `P`, all of them done: row `j` is row `idx[j]` of the table. -/
theorem rows_of_done {d : Dev nD} (L : grid0.Coords) (fI : Buf (Elt F) (iLoc d)) (fT : Buf (Elt F) (tLoc d)) (fO : Buf (Elt F) (oLoc d))
    (P : S512x64.Idx → Elt F .f32) (hd : Done (F := F) L fI fT 512 P) :
    RowsOK (F := F) L fI fT (View.write (Elt F) (oRow L).view fO P Finset.univ) := by
  intro y h
  have hw : View.write (Elt F) (oRow L).view fO P Finset.univ ((oRow L).view.emb y) = P y :=
    (View.write_emb_of_mem (v := (oRow L).view) fO P (Finset.mem_univ y)).trans (cast_eq _ _)
  have ey : P y = P (ValueIdx.ix2 (y 0) (y 1)) := congrArg P (ValueIdx.eq_ix2 y)
  rw [hw, ey]
  have hj : (y 0).val < 512 := (y 0).isLt
  have h' : (idxRun (F := F) L fI (ValueIdx.ix1 (y 0))).toNat < 1000000 := by rw [idxRun_apply]; exact h
  have := hd (y 0) (y 1) hj h'
  rw [this]
  have key : ∀ (v v' : BitVec 32) (e : v = v') (a : v.toNat < 1000000) (b : v'.toNat < 1000000),
      fT (ValueIdx.ix2 (⟨v.toNat, a⟩ : Fin 1000000) (y 1)) = fT (ValueIdx.ix2 (⟨v'.toNat, b⟩ : Fin 1000000) (y 1)) := by
    intro v v' e a b; subst e; rfl
  exact key _ _ (idxRun_apply L fI _) _ _

/-- The same when the run was written as one whole piece. -/
theorem rows_of_done' {d : Dev nD} (L : grid0.Coords) (fI : Buf (Elt F) (iLoc d)) (fT : Buf (Elt F) (tLoc d)) (fO : Buf (Elt F) (oLoc d))
    (P : S512x64.Idx → Elt F .f32) (hd : Done (F := F) L fI fT 512 P) :
    RowsOK (F := F) L fI fT ((oRow L).view.writes (Elt F) fO [⟨Rect.whole S512x64, P⟩]) := by
  intro y h
  have hw : (oRow L).view.writes (Elt F) fO [⟨Rect.whole S512x64, P⟩] ((oRow L).view.emb y) = P y := by
    have := View.read_writes_cons_emb (oRow L).view fO (Rect.whole S512x64) P [] y
    rw [Rect.emb_whole_apply, View.read_apply] at this
    exact (cast_eq _ _).symm.trans this
  have ey : P y = P (ValueIdx.ix2 (y 0) (y 1)) := congrArg P (ValueIdx.eq_ix2 y)
  rw [hw, ey]
  have hj : (y 0).val < 512 := (y 0).isLt
  have h' : (idxRun (F := F) L fI (ValueIdx.ix1 (y 0))).toNat < 1000000 := by rw [idxRun_apply]; exact h
  have := hd (y 0) (y 1) hj h'
  rw [this]
  have key : ∀ (v v' : BitVec 32) (e : v = v') (a : v.toNat < 1000000) (b : v'.toNat < 1000000),
      fT (ValueIdx.ix2 (⟨v.toNat, a⟩ : Fin 1000000) (y 1)) = fT (ValueIdx.ix2 (⟨v'.toNat, b⟩ : Fin 1000000) (y 1)) := by
    intro v v' e a b; subst e; rfl
  exact key _ _ (idxRun_apply L fI _) _ _

end Cert.KTile

end
-- ==== Proof.TileK.lean ====
import proofs.«207235_g30958124269674_cont_8to1_b_889_24_alg».proof.Proof.TileSpecK
import proofs.«207235_g30958124269674_cont_8to1_b_889_24_alg».proof.Proof.WordsK
import proofs.«207235_g30958124269674_cont_8to1_b_889_24_alg».proof.Proof.Words2K
import proofs.«207235_g30958124269674_cont_8to1_b_889_24_alg».proof.Proof.InvK
import proofs.«207235_g30958124269674_cont_8to1_b_889_24_alg».proof.Proof.RegionK
import proofs.«207235_g30958124269674_cont_8to1_b_889_24_alg».proof.Proof.EpilogueK
import proofs.«207235_g30958124269674_cont_8to1_b_889_24_alg».proof.Proof.PreDecode
import proofs.«207235_g30958124269674_cont_8to1_b_889_24_alg».proof.Proof.LibMask8

/-! The task's proof: from what it holds to what it gives back (`TileSpec`). -/

noncomputable section

namespace Cert.KTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 4000000 in
theorem tile_spec : TileSpec (F := F) := by
  intro d L q O W hO fI fT fO f0 f1 f2 f3 f4 hidx
  have hb10 : Transfers.BatchOf (thr d L) (SemLoc.dma cc0_scratch5.sem : SemLoc sig) 16 := trivial
  have hb11 : Transfers.BatchOf (thr d L) (SemLoc.dma cc0_scratch6.sem : SemLoc sig) 16 := trivial
  delta tilePre tileProg
  iintro ⟨#Hmw, Hi, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ho, H0, H1, H2, H3, Hr0_0, Hr0_1, Hr0_2, Hr0_3, Hr0_4, Hr0_5, Hr0_6, Hr0_7, Hr0_8, Hr0_9, Hr0_10, Hr0_11, Hr0_12, Hr0_13, Hr0_14, Hr0_15, Hr1_0, Hr1_1, Hr1_2, Hr1_3, Hr1_4, Hr1_5, Hr1_6, Hr1_7, Hr1_8, Hr1_9, Hr1_10, Hr1_11, Hr1_12, Hr1_13, Hr1_14, Hr1_15, Hs5, Hs6, Hs7, Hs8, HO⟩
  sl_unfold [cc0__body]
  sl_exec_parts
  -- the two mask scratches hold, word for word, the run of idx with its low bits cleared / alone
  have hp1 : ∀ p ∈ tile_spec.sl.H1_32 d L fI f0, ∀ x : p.1.shape.Idx, p.2 x = G1 (F := F) L fI (p.1.emb x) := by
    delta tile_spec.sl.H1_32 tile_spec.sl.H1_31 tile_spec.sl.H1_28 tile_spec.sl.H1_25 tile_spec.sl.H1_21 tile_spec.sl.H1_18 tile_spec.sl.H1_15 tile_spec.sl.H1_12 tile_spec.sl.H1_9 tile_spec.sl.H1_6 tile_spec.sl.H1_2 tile_spec.sl.v9 tile_spec.sl.v6 tile_spec.sl.v5 tile_spec.sl.v4 tile_spec.sl.v21 tile_spec.sl.v18 tile_spec.sl.v16 tile_spec.sl.v33 tile_spec.sl.v30 tile_spec.sl.v28 tile_spec.sl.v45 tile_spec.sl.v42 tile_spec.sl.v40 tile_spec.sl.v57 tile_spec.sl.v54 tile_spec.sl.v52 tile_spec.sl.v69 tile_spec.sl.v66 tile_spec.sl.v64 tile_spec.sl.v81 tile_spec.sl.v78 tile_spec.sl.v76 tile_spec.sl.v93 tile_spec.sl.v90 tile_spec.sl.v88 tile_spec.sl.v105 tile_spec.sl.v102 tile_spec.sl.v100 tile_spec.sl.v117 tile_spec.sl.v114 tile_spec.sl.v112 tile_spec.sl.v129 tile_spec.sl.v126 tile_spec.sl.v124 tile_spec.sl.v141 tile_spec.sl.v138 tile_spec.sl.v136 tile_spec.sl.v153 tile_spec.sl.v150 tile_spec.sl.v148 tile_spec.sl.v165 tile_spec.sl.v162 tile_spec.sl.v160 tile_spec.sl.v177 tile_spec.sl.v174 tile_spec.sl.v172 tile_spec.sl.v189 tile_spec.sl.v186 tile_spec.sl.v184 tile_spec.sl.r tile_spec.sl.v201 tile_spec.sl.v198 tile_spec.sl.v196 tile_spec.sl.v213 tile_spec.sl.v210 tile_spec.sl.v208 tile_spec.sl.v225 tile_spec.sl.v222 tile_spec.sl.v220 tile_spec.sl.v237 tile_spec.sl.v234 tile_spec.sl.v232 tile_spec.sl.v249 tile_spec.sl.v246 tile_spec.sl.v244 tile_spec.sl.v261 tile_spec.sl.v258 tile_spec.sl.v256 tile_spec.sl.v273 tile_spec.sl.v270 tile_spec.sl.v268 tile_spec.sl.v285 tile_spec.sl.v282 tile_spec.sl.v280 tile_spec.sl.v297 tile_spec.sl.v294 tile_spec.sl.v292 tile_spec.sl.v309 tile_spec.sl.v306 tile_spec.sl.v304 tile_spec.sl.v321 tile_spec.sl.v318 tile_spec.sl.v316 tile_spec.sl.v333 tile_spec.sl.v330 tile_spec.sl.v328 tile_spec.sl.v345 tile_spec.sl.v342 tile_spec.sl.v340 tile_spec.sl.v357 tile_spec.sl.v354 tile_spec.sl.v352 tile_spec.sl.v369 tile_spec.sl.v366 tile_spec.sl.v364 tile_spec.sl.v381 tile_spec.sl.v378 tile_spec.sl.v376
    simp only [List.forall_mem_cons, List.not_mem_nil, IsEmpty.forall_iff, implies_true, and_true]
    repeat' constructor
    all_goals (intro x; exact mask_piece (F := F) _ f0 _ _ _ _ _ x)
  have hp2 : ∀ p ∈ ((⟨Rect.unit (s := S512) ![496] S16.size inb_S512_S16_496, tile_spec.sl.v386 d L fI f0⟩ ::
        ⟨Rect.unit (s := S512) ![480] S16.size inb_S512_S16_480, tile_spec.sl.v374 d L fI f0⟩ :: tile_spec.sl.H2_30 d L fI f0 :
          List (View.Piece (Elt F) S512 .i32))), ∀ x : p.1.shape.Idx, p.2 x = G2 (F := F) L fI (p.1.emb x) := by
    delta tile_spec.sl.H2_30 tile_spec.sl.H2_27 tile_spec.sl.H2_24 tile_spec.sl.H2_21 tile_spec.sl.H2_18 tile_spec.sl.H2_15 tile_spec.sl.H2_11 tile_spec.sl.H2_8 tile_spec.sl.H2_5 tile_spec.sl.H2_2 tile_spec.sl.v14 tile_spec.sl.v11 tile_spec.sl.v10 tile_spec.sl.v4 tile_spec.sl.v26 tile_spec.sl.v23 tile_spec.sl.v16 tile_spec.sl.v38 tile_spec.sl.v35 tile_spec.sl.v28 tile_spec.sl.v50 tile_spec.sl.v47 tile_spec.sl.v40 tile_spec.sl.v62 tile_spec.sl.v59 tile_spec.sl.v52 tile_spec.sl.v74 tile_spec.sl.v71 tile_spec.sl.v64 tile_spec.sl.v86 tile_spec.sl.v83 tile_spec.sl.v76 tile_spec.sl.v98 tile_spec.sl.v95 tile_spec.sl.v88 tile_spec.sl.v110 tile_spec.sl.v107 tile_spec.sl.v100 tile_spec.sl.v122 tile_spec.sl.v119 tile_spec.sl.v112 tile_spec.sl.v134 tile_spec.sl.v131 tile_spec.sl.v124 tile_spec.sl.v146 tile_spec.sl.v143 tile_spec.sl.v136 tile_spec.sl.v158 tile_spec.sl.v155 tile_spec.sl.v148 tile_spec.sl.v170 tile_spec.sl.v167 tile_spec.sl.v160 tile_spec.sl.v182 tile_spec.sl.v179 tile_spec.sl.v172 tile_spec.sl.v194 tile_spec.sl.v191 tile_spec.sl.v184 tile_spec.sl.r tile_spec.sl.v206 tile_spec.sl.v203 tile_spec.sl.v196 tile_spec.sl.v218 tile_spec.sl.v215 tile_spec.sl.v208 tile_spec.sl.v230 tile_spec.sl.v227 tile_spec.sl.v220 tile_spec.sl.v242 tile_spec.sl.v239 tile_spec.sl.v232 tile_spec.sl.v254 tile_spec.sl.v251 tile_spec.sl.v244 tile_spec.sl.v266 tile_spec.sl.v263 tile_spec.sl.v256 tile_spec.sl.v278 tile_spec.sl.v275 tile_spec.sl.v268 tile_spec.sl.v290 tile_spec.sl.v287 tile_spec.sl.v280 tile_spec.sl.v302 tile_spec.sl.v299 tile_spec.sl.v292 tile_spec.sl.v314 tile_spec.sl.v311 tile_spec.sl.v304 tile_spec.sl.v326 tile_spec.sl.v323 tile_spec.sl.v316 tile_spec.sl.v338 tile_spec.sl.v335 tile_spec.sl.v328 tile_spec.sl.v350 tile_spec.sl.v347 tile_spec.sl.v340 tile_spec.sl.v362 tile_spec.sl.v359 tile_spec.sl.v352 tile_spec.sl.v374 tile_spec.sl.v371 tile_spec.sl.v364 tile_spec.sl.v386 tile_spec.sl.v383 tile_spec.sl.v376
    simp only [List.forall_mem_cons, List.not_mem_nil, IsEmpty.forall_iff, implies_true, and_true]
    repeat' constructor
    all_goals (intro x; exact mask_piece (F := F) _ f0 _ _ _ _ _ x)
  have e1 : ∀ base, s1.view.writes (Elt F) base (tile_spec.sl.H1_32 d L fI f0) = G1 (F := F) L fI := fun base =>
    whole_writes_eq (F := F) (cc0_scratch1 : Ref sig .scVector) base _ _ hp1 (View.cover_of_tiled _ ![16] rfl)
  have e2 : s2.view.writes (Elt F) f2 ((⟨Rect.unit (s := S512) ![496] S16.size inb_S512_S16_496, tile_spec.sl.v386 d L fI f0⟩ ::
        ⟨Rect.unit (s := S512) ![480] S16.size inb_S512_S16_480, tile_spec.sl.v374 d L fI f0⟩ :: tile_spec.sl.H2_30 d L fI f0 :
          List (View.Piece (Elt F) S512 .i32))) = G2 (F := F) L fI :=
    whole_writes_eq (F := F) (cc0_scratch2 : Ref sig .scVector) f2 _ _ hp2 (View.cover_of_tiled _ ![16] rfl)
  rw [e1 f1, e2]
  -- from here on the two scratches' contents are just named: `g1`, `g2`
  obtain ⟨g1, hg1⟩ : ∃ g1 : S512.Idx → BitVec 32, g1 = G1 (F := F) L fI := ⟨_, rfl⟩
  obtain ⟨g2, hg2⟩ : ∃ g2 : S512.Idx → BitVec 32, g2 = G2 (F := F) L fI := ⟨_, rfl⟩
  rw [← hg1, ← hg2]
  -- every word a fetch starts from is a slab word, read either way
  have hA : ∀ (R : Rect S512) (h : R.shape.ShapeCasts S16) (x : S16.Idx),
      Slab (shapeCast S16 (View.readAt (Elt F) s1.view R.toLoadRect g1) h x) := by
    intro R h x; rw [hg1]; exact load_G1_slab (F := F) L fI hidx R h x
  have hB : ∀ (R : Rect S512) (h : R.shape.ShapeCasts S16) (x : S16.Idx),
      Slab (shapeCast S16 (s1.view.readCov (tile_spec.sl.H1_32 d L fI f0) R.toLoadRect) h x) := by
    intro R h x
    show Slab (shapeCast S16 (View.readAt (Elt F) s1.view R.toLoadRect
      (s1.view.writes (Elt F) s1.view.junk (tile_spec.sl.H1_32 d L fI f0))) h x)
    rw [e1]; exact load_G1_slab (F := F) L fI hidx R h x
  have hA' : ∀ (R : Rect S512) (h : R.shape.ShapeCasts S16) (k : Nat) (hS : S16.Slices ![k] S1) (h' : ∀ a, (![0] : Fin 1 → Nat) a < S1.size a),
      Slab (extractAt ![0] (extractStridedSlice S1 ![k] (shapeCast S16 (View.readAt (Elt F) s1.view R.toLoadRect g1) h) hS) h') :=
    fun R h k hS h' => lane_slab _ (hA R h) k hS h'
  have hB' : ∀ (R : Rect S512) (h : R.shape.ShapeCasts S16) (k : Nat) (hS : S16.Slices ![k] S1) (h' : ∀ a, (![0] : Fin 1 → Nat) a < S1.size a),
      Slab (extractAt ![0] (extractStridedSlice S1 ![k] (shapeCast S16 (s1.view.readCov (tile_spec.sl.H1_32 d L fI f0) R.toLoadRect) h) hS) h') :=
    fun R h k hS h' => lane_slab _ (hB R h) k hS h'
  sl_exec_parts (disch := first | (clear hA' hA hg1 g1; exact slab_ok' _ _ rfl (hB' _ _ _ _ _)) | exact slab_ok' _ _ rfl (hA' _ _ _ _ _))
  have hS1 : ∀ p, Slab (g1 p) := fun p => by rw [hg1]; exact G1_slab (F := F) L fI hidx p
  have hR2 : ∀ p, (g2 p).toNat < 8 := fun p => by rw [hg2]; exact G2_lt (F := F) L fI p
  sl_for (inv (F := F) d L q O W fI fT fO f4 g1 g2 hS1) $$ [Hmw Ho H1 H2 H3 Hs8 H0 Hi Hs7 HO Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Hs5 Hs6]
  case region =>
    intro k acc
    exact loop_region (F := F) L q O W fI fT fO f4 g1 g2 hS1 hR2 hidx hg1 hg2 k acc
  · -- the invariant holds before the first trip
    -- the thirty-two slab words, as the two batches' loads read them, are the slab-word scratch's words
    have hw0_0 : tile_spec.sl.v391 d L fI f0 = wAt g1 (2 * 0 + 0) 0 := by
      show extractAt ![0] (extractStridedSlice S1 ![0] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 0 (by decide) _ _ _ 0 rfl (by decide)
    have hw0_1 : tile_spec.sl.v400 d L fI f0 = wAt g1 (2 * 0 + 0) 1 := by
      show extractAt ![0] (extractStridedSlice S1 ![1] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 1 (by decide) _ _ _ 0 rfl (by decide)
    have hw0_2 : tile_spec.sl.v409 d L fI f0 = wAt g1 (2 * 0 + 0) 2 := by
      show extractAt ![0] (extractStridedSlice S1 ![2] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 2 (by decide) _ _ _ 0 rfl (by decide)
    have hw0_3 : tile_spec.sl.v418 d L fI f0 = wAt g1 (2 * 0 + 0) 3 := by
      show extractAt ![0] (extractStridedSlice S1 ![3] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 3 (by decide) _ _ _ 0 rfl (by decide)
    have hw0_4 : tile_spec.sl.v427 d L fI f0 = wAt g1 (2 * 0 + 0) 4 := by
      show extractAt ![0] (extractStridedSlice S1 ![4] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 4 (by decide) _ _ _ 0 rfl (by decide)
    have hw0_5 : tile_spec.sl.v436 d L fI f0 = wAt g1 (2 * 0 + 0) 5 := by
      show extractAt ![0] (extractStridedSlice S1 ![5] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 5 (by decide) _ _ _ 0 rfl (by decide)
    have hw0_6 : tile_spec.sl.v445 d L fI f0 = wAt g1 (2 * 0 + 0) 6 := by
      show extractAt ![0] (extractStridedSlice S1 ![6] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 6 (by decide) _ _ _ 0 rfl (by decide)
    have hw0_7 : tile_spec.sl.v454 d L fI f0 = wAt g1 (2 * 0 + 0) 7 := by
      show extractAt ![0] (extractStridedSlice S1 ![7] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 7 (by decide) _ _ _ 0 rfl (by decide)
    have hw0_8 : tile_spec.sl.v463 d L fI f0 = wAt g1 (2 * 0 + 0) 8 := by
      show extractAt ![0] (extractStridedSlice S1 ![8] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 8 (by decide) _ _ _ 0 rfl (by decide)
    have hw0_9 : tile_spec.sl.v472 d L fI f0 = wAt g1 (2 * 0 + 0) 9 := by
      show extractAt ![0] (extractStridedSlice S1 ![9] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 9 (by decide) _ _ _ 0 rfl (by decide)
    have hw0_10 : tile_spec.sl.v481 d L fI f0 = wAt g1 (2 * 0 + 0) 10 := by
      show extractAt ![0] (extractStridedSlice S1 ![10] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 10 (by decide) _ _ _ 0 rfl (by decide)
    have hw0_11 : tile_spec.sl.v490 d L fI f0 = wAt g1 (2 * 0 + 0) 11 := by
      show extractAt ![0] (extractStridedSlice S1 ![11] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 11 (by decide) _ _ _ 0 rfl (by decide)
    have hw0_12 : tile_spec.sl.v499 d L fI f0 = wAt g1 (2 * 0 + 0) 12 := by
      show extractAt ![0] (extractStridedSlice S1 ![12] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 12 (by decide) _ _ _ 0 rfl (by decide)
    have hw0_13 : tile_spec.sl.v508 d L fI f0 = wAt g1 (2 * 0 + 0) 13 := by
      show extractAt ![0] (extractStridedSlice S1 ![13] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 13 (by decide) _ _ _ 0 rfl (by decide)
    have hw0_14 : tile_spec.sl.v517 d L fI f0 = wAt g1 (2 * 0 + 0) 14 := by
      show extractAt ![0] (extractStridedSlice S1 ![14] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 14 (by decide) _ _ _ 0 rfl (by decide)
    have hw0_15 : tile_spec.sl.v526 d L fI f0 = wAt g1 (2 * 0 + 0) 15 := by
      show extractAt ![0] (extractStridedSlice S1 ![15] (shapeCast S16 (View.readAt (Elt F) (s1 : Memref sig .scVector .vmem S512 .i32).view
        (Rect.unit (s := S512) ![0] S16.size _).toLoadRect (s1.view.writes (Elt F) s1.view.junk (tile_spec.sl.H1_32 d L fI f0))) _) _) _ = _
      rw [e1, ← hg1]
      exact wAt_of_load1 (F := F) g1 ![0] _ 15 (by decide) _ _ _ 0 rfl (by decide)
    have hw1_0 : tile_spec.sl.v537 (F := F) g1 = wAt g1 (2 * 0 + 1) 0 :=
      wAt_of_load1 (F := F) g1 ![16] _ 0 (by decide) _ _ _ 1 rfl (by decide)
    have hw1_1 : tile_spec.sl.v546 (F := F) g1 = wAt g1 (2 * 0 + 1) 1 :=
      wAt_of_load1 (F := F) g1 ![16] _ 1 (by decide) _ _ _ 1 rfl (by decide)
    have hw1_2 : tile_spec.sl.v555 (F := F) g1 = wAt g1 (2 * 0 + 1) 2 :=
      wAt_of_load1 (F := F) g1 ![16] _ 2 (by decide) _ _ _ 1 rfl (by decide)
    have hw1_3 : tile_spec.sl.v564 (F := F) g1 = wAt g1 (2 * 0 + 1) 3 :=
      wAt_of_load1 (F := F) g1 ![16] _ 3 (by decide) _ _ _ 1 rfl (by decide)
    have hw1_4 : tile_spec.sl.v573 (F := F) g1 = wAt g1 (2 * 0 + 1) 4 :=
      wAt_of_load1 (F := F) g1 ![16] _ 4 (by decide) _ _ _ 1 rfl (by decide)
    have hw1_5 : tile_spec.sl.v582 (F := F) g1 = wAt g1 (2 * 0 + 1) 5 :=
      wAt_of_load1 (F := F) g1 ![16] _ 5 (by decide) _ _ _ 1 rfl (by decide)
    have hw1_6 : tile_spec.sl.v591 (F := F) g1 = wAt g1 (2 * 0 + 1) 6 :=
      wAt_of_load1 (F := F) g1 ![16] _ 6 (by decide) _ _ _ 1 rfl (by decide)
    have hw1_7 : tile_spec.sl.v600 (F := F) g1 = wAt g1 (2 * 0 + 1) 7 :=
      wAt_of_load1 (F := F) g1 ![16] _ 7 (by decide) _ _ _ 1 rfl (by decide)
    have hw1_8 : tile_spec.sl.v609 (F := F) g1 = wAt g1 (2 * 0 + 1) 8 :=
      wAt_of_load1 (F := F) g1 ![16] _ 8 (by decide) _ _ _ 1 rfl (by decide)
    have hw1_9 : tile_spec.sl.v618 (F := F) g1 = wAt g1 (2 * 0 + 1) 9 :=
      wAt_of_load1 (F := F) g1 ![16] _ 9 (by decide) _ _ _ 1 rfl (by decide)
    have hw1_10 : tile_spec.sl.v627 (F := F) g1 = wAt g1 (2 * 0 + 1) 10 :=
      wAt_of_load1 (F := F) g1 ![16] _ 10 (by decide) _ _ _ 1 rfl (by decide)
    have hw1_11 : tile_spec.sl.v636 (F := F) g1 = wAt g1 (2 * 0 + 1) 11 :=
      wAt_of_load1 (F := F) g1 ![16] _ 11 (by decide) _ _ _ 1 rfl (by decide)
    have hw1_12 : tile_spec.sl.v645 (F := F) g1 = wAt g1 (2 * 0 + 1) 12 :=
      wAt_of_load1 (F := F) g1 ![16] _ 12 (by decide) _ _ _ 1 rfl (by decide)
    have hw1_13 : tile_spec.sl.v654 (F := F) g1 = wAt g1 (2 * 0 + 1) 13 :=
      wAt_of_load1 (F := F) g1 ![16] _ 13 (by decide) _ _ _ 1 rfl (by decide)
    have hw1_14 : tile_spec.sl.v663 (F := F) g1 = wAt g1 (2 * 0 + 1) 14 :=
      wAt_of_load1 (F := F) g1 ![16] _ 14 (by decide) _ _ _ 1 rfl (by decide)
    have hw1_15 : tile_spec.sl.v672 (F := F) g1 = wAt g1 (2 * 0 + 1) 15 :=
      wAt_of_load1 (F := F) g1 ![16] _ 15 (by decide) _ _ _ 1 rfl (by decide)
    have ho0_0 : k0_off2 (tile_spec.sl.v391 d L fI f0) = ![(wAt g1 (2 * 0 + 0) 0).toNat, 0] := by rw [hw0_0]; rfl
    have ho0_1 : k0_off3 (tile_spec.sl.v400 d L fI f0) = ![(wAt g1 (2 * 0 + 0) 1).toNat, 0] := by rw [hw0_1]; rfl
    have ho0_2 : k0_off4 (tile_spec.sl.v409 d L fI f0) = ![(wAt g1 (2 * 0 + 0) 2).toNat, 0] := by rw [hw0_2]; rfl
    have ho0_3 : k0_off5 (tile_spec.sl.v418 d L fI f0) = ![(wAt g1 (2 * 0 + 0) 3).toNat, 0] := by rw [hw0_3]; rfl
    have ho0_4 : k0_off6 (tile_spec.sl.v427 d L fI f0) = ![(wAt g1 (2 * 0 + 0) 4).toNat, 0] := by rw [hw0_4]; rfl
    have ho0_5 : k0_off7 (tile_spec.sl.v436 d L fI f0) = ![(wAt g1 (2 * 0 + 0) 5).toNat, 0] := by rw [hw0_5]; rfl
    have ho0_6 : k0_off8 (tile_spec.sl.v445 d L fI f0) = ![(wAt g1 (2 * 0 + 0) 6).toNat, 0] := by rw [hw0_6]; rfl
    have ho0_7 : k0_off9 (tile_spec.sl.v454 d L fI f0) = ![(wAt g1 (2 * 0 + 0) 7).toNat, 0] := by rw [hw0_7]; rfl
    have ho0_8 : k0_off10 (tile_spec.sl.v463 d L fI f0) = ![(wAt g1 (2 * 0 + 0) 8).toNat, 0] := by rw [hw0_8]; rfl
    have ho0_9 : k0_off11 (tile_spec.sl.v472 d L fI f0) = ![(wAt g1 (2 * 0 + 0) 9).toNat, 0] := by rw [hw0_9]; rfl
    have ho0_10 : k0_off12 (tile_spec.sl.v481 d L fI f0) = ![(wAt g1 (2 * 0 + 0) 10).toNat, 0] := by rw [hw0_10]; rfl
    have ho0_11 : k0_off13 (tile_spec.sl.v490 d L fI f0) = ![(wAt g1 (2 * 0 + 0) 11).toNat, 0] := by rw [hw0_11]; rfl
    have ho0_12 : k0_off14 (tile_spec.sl.v499 d L fI f0) = ![(wAt g1 (2 * 0 + 0) 12).toNat, 0] := by rw [hw0_12]; rfl
    have ho0_13 : k0_off15 (tile_spec.sl.v508 d L fI f0) = ![(wAt g1 (2 * 0 + 0) 13).toNat, 0] := by rw [hw0_13]; rfl
    have ho0_14 : k0_off16 (tile_spec.sl.v517 d L fI f0) = ![(wAt g1 (2 * 0 + 0) 14).toNat, 0] := by rw [hw0_14]; rfl
    have ho0_15 : k0_off17 (tile_spec.sl.v526 d L fI f0) = ![(wAt g1 (2 * 0 + 0) 15).toNat, 0] := by rw [hw0_15]; rfl
    have ho1_0 : k0_off18 (tile_spec.sl.v537 (F := F) g1) = ![(wAt g1 (2 * 0 + 1) 0).toNat, 0] := by rw [hw1_0]; rfl
    have ho1_1 : k0_off19 (tile_spec.sl.v546 (F := F) g1) = ![(wAt g1 (2 * 0 + 1) 1).toNat, 0] := by rw [hw1_1]; rfl
    have ho1_2 : k0_off20 (tile_spec.sl.v555 (F := F) g1) = ![(wAt g1 (2 * 0 + 1) 2).toNat, 0] := by rw [hw1_2]; rfl
    have ho1_3 : k0_off21 (tile_spec.sl.v564 (F := F) g1) = ![(wAt g1 (2 * 0 + 1) 3).toNat, 0] := by rw [hw1_3]; rfl
    have ho1_4 : k0_off22 (tile_spec.sl.v573 (F := F) g1) = ![(wAt g1 (2 * 0 + 1) 4).toNat, 0] := by rw [hw1_4]; rfl
    have ho1_5 : k0_off23 (tile_spec.sl.v582 (F := F) g1) = ![(wAt g1 (2 * 0 + 1) 5).toNat, 0] := by rw [hw1_5]; rfl
    have ho1_6 : k0_off24 (tile_spec.sl.v591 (F := F) g1) = ![(wAt g1 (2 * 0 + 1) 6).toNat, 0] := by rw [hw1_6]; rfl
    have ho1_7 : k0_off25 (tile_spec.sl.v600 (F := F) g1) = ![(wAt g1 (2 * 0 + 1) 7).toNat, 0] := by rw [hw1_7]; rfl
    have ho1_8 : k0_off26 (tile_spec.sl.v609 (F := F) g1) = ![(wAt g1 (2 * 0 + 1) 8).toNat, 0] := by rw [hw1_8]; rfl
    have ho1_9 : k0_off27 (tile_spec.sl.v618 (F := F) g1) = ![(wAt g1 (2 * 0 + 1) 9).toNat, 0] := by rw [hw1_9]; rfl
    have ho1_10 : k0_off28 (tile_spec.sl.v627 (F := F) g1) = ![(wAt g1 (2 * 0 + 1) 10).toNat, 0] := by rw [hw1_10]; rfl
    have ho1_11 : k0_off29 (tile_spec.sl.v636 (F := F) g1) = ![(wAt g1 (2 * 0 + 1) 11).toNat, 0] := by rw [hw1_11]; rfl
    have ho1_12 : k0_off30 (tile_spec.sl.v645 (F := F) g1) = ![(wAt g1 (2 * 0 + 1) 12).toNat, 0] := by rw [hw1_12]; rfl
    have ho1_13 : k0_off31 (tile_spec.sl.v654 (F := F) g1) = ![(wAt g1 (2 * 0 + 1) 13).toNat, 0] := by rw [hw1_13]; rfl
    have ho1_14 : k0_off32 (tile_spec.sl.v663 (F := F) g1) = ![(wAt g1 (2 * 0 + 1) 14).toNat, 0] := by rw [hw1_14]; rfl
    have ho1_15 : k0_off33 (tile_spec.sl.v672 (F := F) g1) = ![(wAt g1 (2 * 0 + 1) 15).toNat, 0] := by rw [hw1_15]; rfl
    ihave Ht0 := (Entails.of_eq (rest_of_exec (F := F) d L q fT 0 (k0_off2 (tile_spec.sl.v391 d L fI f0)) _ (wAt g1 (2 * 0 + 0) 0) (slab_inb _ (wAt_slab g1 hS1 (2 * 0 + 0) 0)) ho0_0)) $$ Ht0
    ihave Ht1 := (Entails.of_eq (rest_of_exec (F := F) d L q fT 1 (k0_off3 (tile_spec.sl.v400 d L fI f0)) _ (wAt g1 (2 * 0 + 0) 1) (slab_inb _ (wAt_slab g1 hS1 (2 * 0 + 0) 1)) ho0_1)) $$ Ht1
    ihave Ht2 := (Entails.of_eq (rest_of_exec (F := F) d L q fT 2 (k0_off4 (tile_spec.sl.v409 d L fI f0)) _ (wAt g1 (2 * 0 + 0) 2) (slab_inb _ (wAt_slab g1 hS1 (2 * 0 + 0) 2)) ho0_2)) $$ Ht2
    ihave Ht3 := (Entails.of_eq (rest_of_exec (F := F) d L q fT 3 (k0_off5 (tile_spec.sl.v418 d L fI f0)) _ (wAt g1 (2 * 0 + 0) 3) (slab_inb _ (wAt_slab g1 hS1 (2 * 0 + 0) 3)) ho0_3)) $$ Ht3
    ihave Ht4 := (Entails.of_eq (rest_of_exec (F := F) d L q fT 4 (k0_off6 (tile_spec.sl.v427 d L fI f0)) _ (wAt g1 (2 * 0 + 0) 4) (slab_inb _ (wAt_slab g1 hS1 (2 * 0 + 0) 4)) ho0_4)) $$ Ht4
    ihave Ht5 := (Entails.of_eq (rest_of_exec (F := F) d L q fT 5 (k0_off7 (tile_spec.sl.v436 d L fI f0)) _ (wAt g1 (2 * 0 + 0) 5) (slab_inb _ (wAt_slab g1 hS1 (2 * 0 + 0) 5)) ho0_5)) $$ Ht5
    ihave Ht6 := (Entails.of_eq (rest_of_exec (F := F) d L q fT 6 (k0_off8 (tile_spec.sl.v445 d L fI f0)) _ (wAt g1 (2 * 0 + 0) 6) (slab_inb _ (wAt_slab g1 hS1 (2 * 0 + 0) 6)) ho0_6)) $$ Ht6
    ihave Ht7 := (Entails.of_eq (rest_of_exec (F := F) d L q fT 7 (k0_off9 (tile_spec.sl.v454 d L fI f0)) _ (wAt g1 (2 * 0 + 0) 7) (slab_inb _ (wAt_slab g1 hS1 (2 * 0 + 0) 7)) ho0_7)) $$ Ht7
    ihave Ht8 := (Entails.of_eq (rest_of_exec (F := F) d L q fT 8 (k0_off10 (tile_spec.sl.v463 d L fI f0)) _ (wAt g1 (2 * 0 + 0) 8) (slab_inb _ (wAt_slab g1 hS1 (2 * 0 + 0) 8)) ho0_8)) $$ Ht8
    ihave Ht9 := (Entails.of_eq (rest_of_exec (F := F) d L q fT 9 (k0_off11 (tile_spec.sl.v472 d L fI f0)) _ (wAt g1 (2 * 0 + 0) 9) (slab_inb _ (wAt_slab g1 hS1 (2 * 0 + 0) 9)) ho0_9)) $$ Ht9
    ihave Ht10 := (Entails.of_eq (rest_of_exec (F := F) d L q fT 10 (k0_off12 (tile_spec.sl.v481 d L fI f0)) _ (wAt g1 (2 * 0 + 0) 10) (slab_inb _ (wAt_slab g1 hS1 (2 * 0 + 0) 10)) ho0_10)) $$ Ht10
    ihave Ht11 := (Entails.of_eq (rest_of_exec (F := F) d L q fT 11 (k0_off13 (tile_spec.sl.v490 d L fI f0)) _ (wAt g1 (2 * 0 + 0) 11) (slab_inb _ (wAt_slab g1 hS1 (2 * 0 + 0) 11)) ho0_11)) $$ Ht11
    ihave Ht12 := (Entails.of_eq (rest_of_exec (F := F) d L q fT 12 (k0_off14 (tile_spec.sl.v499 d L fI f0)) _ (wAt g1 (2 * 0 + 0) 12) (slab_inb _ (wAt_slab g1 hS1 (2 * 0 + 0) 12)) ho0_12)) $$ Ht12
    ihave Ht13 := (Entails.of_eq (rest_of_exec (F := F) d L q fT 13 (k0_off15 (tile_spec.sl.v508 d L fI f0)) _ (wAt g1 (2 * 0 + 0) 13) (slab_inb _ (wAt_slab g1 hS1 (2 * 0 + 0) 13)) ho0_13)) $$ Ht13
    ihave Ht14 := (Entails.of_eq (rest_of_exec (F := F) d L q fT 14 (k0_off16 (tile_spec.sl.v517 d L fI f0)) _ (wAt g1 (2 * 0 + 0) 14) (slab_inb _ (wAt_slab g1 hS1 (2 * 0 + 0) 14)) ho0_14)) $$ Ht14
    ihave Ht15 := (Entails.of_eq (rest_of_exec (F := F) d L q fT 15 (k0_off17 (tile_spec.sl.v526 d L fI f0)) _ (wAt g1 (2 * 0 + 0) 15) (slab_inb _ (wAt_slab g1 hS1 (2 * 0 + 0) 15)) ho0_15)) $$ Ht15
    ihave Ht16 := (Entails.of_eq (rest_of_exec (F := F) d L q fT 16 (k0_off18 (tile_spec.sl.v537 (F := F) g1)) _ (wAt g1 (2 * 0 + 1) 0) (slab_inb _ (wAt_slab g1 hS1 (2 * 0 + 1) 0)) ho1_0)) $$ Ht16
    ihave Ht17 := (Entails.of_eq (rest_of_exec (F := F) d L q fT 17 (k0_off19 (tile_spec.sl.v546 (F := F) g1)) _ (wAt g1 (2 * 0 + 1) 1) (slab_inb _ (wAt_slab g1 hS1 (2 * 0 + 1) 1)) ho1_1)) $$ Ht17
    ihave Ht18 := (Entails.of_eq (rest_of_exec (F := F) d L q fT 18 (k0_off20 (tile_spec.sl.v555 (F := F) g1)) _ (wAt g1 (2 * 0 + 1) 2) (slab_inb _ (wAt_slab g1 hS1 (2 * 0 + 1) 2)) ho1_2)) $$ Ht18
    ihave Ht19 := (Entails.of_eq (rest_of_exec (F := F) d L q fT 19 (k0_off21 (tile_spec.sl.v564 (F := F) g1)) _ (wAt g1 (2 * 0 + 1) 3) (slab_inb _ (wAt_slab g1 hS1 (2 * 0 + 1) 3)) ho1_3)) $$ Ht19
    ihave Ht20 := (Entails.of_eq (rest_of_exec (F := F) d L q fT 20 (k0_off22 (tile_spec.sl.v573 (F := F) g1)) _ (wAt g1 (2 * 0 + 1) 4) (slab_inb _ (wAt_slab g1 hS1 (2 * 0 + 1) 4)) ho1_4)) $$ Ht20
    ihave Ht21 := (Entails.of_eq (rest_of_exec (F := F) d L q fT 21 (k0_off23 (tile_spec.sl.v582 (F := F) g1)) _ (wAt g1 (2 * 0 + 1) 5) (slab_inb _ (wAt_slab g1 hS1 (2 * 0 + 1) 5)) ho1_5)) $$ Ht21
    ihave Ht22 := (Entails.of_eq (rest_of_exec (F := F) d L q fT 22 (k0_off24 (tile_spec.sl.v591 (F := F) g1)) _ (wAt g1 (2 * 0 + 1) 6) (slab_inb _ (wAt_slab g1 hS1 (2 * 0 + 1) 6)) ho1_6)) $$ Ht22
    ihave Ht23 := (Entails.of_eq (rest_of_exec (F := F) d L q fT 23 (k0_off25 (tile_spec.sl.v600 (F := F) g1)) _ (wAt g1 (2 * 0 + 1) 7) (slab_inb _ (wAt_slab g1 hS1 (2 * 0 + 1) 7)) ho1_7)) $$ Ht23
    ihave Ht24 := (Entails.of_eq (rest_of_exec (F := F) d L q fT 24 (k0_off26 (tile_spec.sl.v609 (F := F) g1)) _ (wAt g1 (2 * 0 + 1) 8) (slab_inb _ (wAt_slab g1 hS1 (2 * 0 + 1) 8)) ho1_8)) $$ Ht24
    ihave Ht25 := (Entails.of_eq (rest_of_exec (F := F) d L q fT 25 (k0_off27 (tile_spec.sl.v618 (F := F) g1)) _ (wAt g1 (2 * 0 + 1) 9) (slab_inb _ (wAt_slab g1 hS1 (2 * 0 + 1) 9)) ho1_9)) $$ Ht25
    ihave Ht26 := (Entails.of_eq (rest_of_exec (F := F) d L q fT 26 (k0_off28 (tile_spec.sl.v627 (F := F) g1)) _ (wAt g1 (2 * 0 + 1) 10) (slab_inb _ (wAt_slab g1 hS1 (2 * 0 + 1) 10)) ho1_10)) $$ Ht26
    ihave Ht27 := (Entails.of_eq (rest_of_exec (F := F) d L q fT 27 (k0_off29 (tile_spec.sl.v636 (F := F) g1)) _ (wAt g1 (2 * 0 + 1) 11) (slab_inb _ (wAt_slab g1 hS1 (2 * 0 + 1) 11)) ho1_11)) $$ Ht27
    ihave Ht28 := (Entails.of_eq (rest_of_exec (F := F) d L q fT 28 (k0_off30 (tile_spec.sl.v645 (F := F) g1)) _ (wAt g1 (2 * 0 + 1) 12) (slab_inb _ (wAt_slab g1 hS1 (2 * 0 + 1) 12)) ho1_12)) $$ Ht28
    ihave Ht29 := (Entails.of_eq (rest_of_exec (F := F) d L q fT 29 (k0_off31 (tile_spec.sl.v654 (F := F) g1)) _ (wAt g1 (2 * 0 + 1) 13) (slab_inb _ (wAt_slab g1 hS1 (2 * 0 + 1) 13)) ho1_13)) $$ Ht29
    ihave Ht30 := (Entails.of_eq (rest_of_exec (F := F) d L q fT 30 (k0_off32 (tile_spec.sl.v663 (F := F) g1)) _ (wAt g1 (2 * 0 + 1) 14) (slab_inb _ (wAt_slab g1 hS1 (2 * 0 + 1) 14)) ho1_14)) $$ Ht30
    ihave Ht31 := (Entails.of_eq (rest_of_exec (F := F) d L q fT 31 (k0_off33 (tile_spec.sl.v672 (F := F) g1)) _ (wAt g1 (2 * 0 + 1) 15) (slab_inb _ (wAt_slab g1 hS1 (2 * 0 + 1) 15)) ho1_15)) $$ Ht31
    delta tile_spec.sl.dma0_1 tile_spec.sl.dma1 tile_spec.sl.dma2 tile_spec.sl.dma3 tile_spec.sl.dma4 tile_spec.sl.dma5 tile_spec.sl.dma6 tile_spec.sl.dma7 tile_spec.sl.dma8 tile_spec.sl.dma9 tile_spec.sl.dma10 tile_spec.sl.dma11 tile_spec.sl.dma12 tile_spec.sl.dma13 tile_spec.sl.dma14 tile_spec.sl.dma15 tile_spec.sl.dma17 tile_spec.sl.dma18 tile_spec.sl.dma19 tile_spec.sl.dma20 tile_spec.sl.dma21 tile_spec.sl.dma22 tile_spec.sl.dma23 tile_spec.sl.dma24 tile_spec.sl.dma25 tile_spec.sl.dma26 tile_spec.sl.dma27 tile_spec.sl.dma28 tile_spec.sl.dma29 tile_spec.sl.dma30 tile_spec.sl.dma31 tile_spec.sl.dma32
    rw [deliv_of_exec (F := F) d L q fT f4 0 0 inb_S2x16x8x64_S1x1x8x64_0_0_0_0 0 f4 (k0_off2 (tile_spec.sl.v391 d L fI f0)) _ (wAt g1 (2 * 0 + 0) 0) (slab_inb _ (wAt_slab g1 hS1 (2 * 0 + 0) 0)) ho0_0,
      deliv_of_exec (F := F) d L q fT f4 0 1 inb_S2x16x8x64_S1x1x8x64_0_1_0_0 1 f4 (k0_off3 (tile_spec.sl.v400 d L fI f0)) _ (wAt g1 (2 * 0 + 0) 1) (slab_inb _ (wAt_slab g1 hS1 (2 * 0 + 0) 1)) ho0_1,
      deliv_of_exec (F := F) d L q fT f4 0 2 inb_S2x16x8x64_S1x1x8x64_0_2_0_0 2 f4 (k0_off4 (tile_spec.sl.v409 d L fI f0)) _ (wAt g1 (2 * 0 + 0) 2) (slab_inb _ (wAt_slab g1 hS1 (2 * 0 + 0) 2)) ho0_2,
      deliv_of_exec (F := F) d L q fT f4 0 3 inb_S2x16x8x64_S1x1x8x64_0_3_0_0 3 f4 (k0_off5 (tile_spec.sl.v418 d L fI f0)) _ (wAt g1 (2 * 0 + 0) 3) (slab_inb _ (wAt_slab g1 hS1 (2 * 0 + 0) 3)) ho0_3,
      deliv_of_exec (F := F) d L q fT f4 0 4 inb_S2x16x8x64_S1x1x8x64_0_4_0_0 4 f4 (k0_off6 (tile_spec.sl.v427 d L fI f0)) _ (wAt g1 (2 * 0 + 0) 4) (slab_inb _ (wAt_slab g1 hS1 (2 * 0 + 0) 4)) ho0_4,
      deliv_of_exec (F := F) d L q fT f4 0 5 inb_S2x16x8x64_S1x1x8x64_0_5_0_0 5 f4 (k0_off7 (tile_spec.sl.v436 d L fI f0)) _ (wAt g1 (2 * 0 + 0) 5) (slab_inb _ (wAt_slab g1 hS1 (2 * 0 + 0) 5)) ho0_5,
      deliv_of_exec (F := F) d L q fT f4 0 6 inb_S2x16x8x64_S1x1x8x64_0_6_0_0 6 f4 (k0_off8 (tile_spec.sl.v445 d L fI f0)) _ (wAt g1 (2 * 0 + 0) 6) (slab_inb _ (wAt_slab g1 hS1 (2 * 0 + 0) 6)) ho0_6,
      deliv_of_exec (F := F) d L q fT f4 0 7 inb_S2x16x8x64_S1x1x8x64_0_7_0_0 7 f4 (k0_off9 (tile_spec.sl.v454 d L fI f0)) _ (wAt g1 (2 * 0 + 0) 7) (slab_inb _ (wAt_slab g1 hS1 (2 * 0 + 0) 7)) ho0_7,
      deliv_of_exec (F := F) d L q fT f4 0 8 inb_S2x16x8x64_S1x1x8x64_0_8_0_0 8 f4 (k0_off10 (tile_spec.sl.v463 d L fI f0)) _ (wAt g1 (2 * 0 + 0) 8) (slab_inb _ (wAt_slab g1 hS1 (2 * 0 + 0) 8)) ho0_8,
      deliv_of_exec (F := F) d L q fT f4 0 9 inb_S2x16x8x64_S1x1x8x64_0_9_0_0 9 f4 (k0_off11 (tile_spec.sl.v472 d L fI f0)) _ (wAt g1 (2 * 0 + 0) 9) (slab_inb _ (wAt_slab g1 hS1 (2 * 0 + 0) 9)) ho0_9,
      deliv_of_exec (F := F) d L q fT f4 0 10 inb_S2x16x8x64_S1x1x8x64_0_10_0_0 10 f4 (k0_off12 (tile_spec.sl.v481 d L fI f0)) _ (wAt g1 (2 * 0 + 0) 10) (slab_inb _ (wAt_slab g1 hS1 (2 * 0 + 0) 10)) ho0_10,
      deliv_of_exec (F := F) d L q fT f4 0 11 inb_S2x16x8x64_S1x1x8x64_0_11_0_0 11 f4 (k0_off13 (tile_spec.sl.v490 d L fI f0)) _ (wAt g1 (2 * 0 + 0) 11) (slab_inb _ (wAt_slab g1 hS1 (2 * 0 + 0) 11)) ho0_11,
      deliv_of_exec (F := F) d L q fT f4 0 12 inb_S2x16x8x64_S1x1x8x64_0_12_0_0 12 f4 (k0_off14 (tile_spec.sl.v499 d L fI f0)) _ (wAt g1 (2 * 0 + 0) 12) (slab_inb _ (wAt_slab g1 hS1 (2 * 0 + 0) 12)) ho0_12,
      deliv_of_exec (F := F) d L q fT f4 0 13 inb_S2x16x8x64_S1x1x8x64_0_13_0_0 13 f4 (k0_off15 (tile_spec.sl.v508 d L fI f0)) _ (wAt g1 (2 * 0 + 0) 13) (slab_inb _ (wAt_slab g1 hS1 (2 * 0 + 0) 13)) ho0_13,
      deliv_of_exec (F := F) d L q fT f4 0 14 inb_S2x16x8x64_S1x1x8x64_0_14_0_0 14 f4 (k0_off16 (tile_spec.sl.v517 d L fI f0)) _ (wAt g1 (2 * 0 + 0) 14) (slab_inb _ (wAt_slab g1 hS1 (2 * 0 + 0) 14)) ho0_14,
      deliv_of_exec (F := F) d L q fT f4 0 15 inb_S2x16x8x64_S1x1x8x64_0_15_0_0 15 f4 (k0_off17 (tile_spec.sl.v526 d L fI f0)) _ (wAt g1 (2 * 0 + 0) 15) (slab_inb _ (wAt_slab g1 hS1 (2 * 0 + 0) 15)) ho0_15,
      deliv_of_exec (F := F) d L q fT f4 1 0 inb_S2x16x8x64_S1x1x8x64_1_0_0_0 16 f4 (k0_off18 (tile_spec.sl.v537 (F := F) g1)) _ (wAt g1 (2 * 0 + 1) 0) (slab_inb _ (wAt_slab g1 hS1 (2 * 0 + 1) 0)) ho1_0,
      deliv_of_exec (F := F) d L q fT f4 1 1 inb_S2x16x8x64_S1x1x8x64_1_1_0_0 17 f4 (k0_off19 (tile_spec.sl.v546 (F := F) g1)) _ (wAt g1 (2 * 0 + 1) 1) (slab_inb _ (wAt_slab g1 hS1 (2 * 0 + 1) 1)) ho1_1,
      deliv_of_exec (F := F) d L q fT f4 1 2 inb_S2x16x8x64_S1x1x8x64_1_2_0_0 18 f4 (k0_off20 (tile_spec.sl.v555 (F := F) g1)) _ (wAt g1 (2 * 0 + 1) 2) (slab_inb _ (wAt_slab g1 hS1 (2 * 0 + 1) 2)) ho1_2,
      deliv_of_exec (F := F) d L q fT f4 1 3 inb_S2x16x8x64_S1x1x8x64_1_3_0_0 19 f4 (k0_off21 (tile_spec.sl.v564 (F := F) g1)) _ (wAt g1 (2 * 0 + 1) 3) (slab_inb _ (wAt_slab g1 hS1 (2 * 0 + 1) 3)) ho1_3,
      deliv_of_exec (F := F) d L q fT f4 1 4 inb_S2x16x8x64_S1x1x8x64_1_4_0_0 20 f4 (k0_off22 (tile_spec.sl.v573 (F := F) g1)) _ (wAt g1 (2 * 0 + 1) 4) (slab_inb _ (wAt_slab g1 hS1 (2 * 0 + 1) 4)) ho1_4,
      deliv_of_exec (F := F) d L q fT f4 1 5 inb_S2x16x8x64_S1x1x8x64_1_5_0_0 21 f4 (k0_off23 (tile_spec.sl.v582 (F := F) g1)) _ (wAt g1 (2 * 0 + 1) 5) (slab_inb _ (wAt_slab g1 hS1 (2 * 0 + 1) 5)) ho1_5,
      deliv_of_exec (F := F) d L q fT f4 1 6 inb_S2x16x8x64_S1x1x8x64_1_6_0_0 22 f4 (k0_off24 (tile_spec.sl.v591 (F := F) g1)) _ (wAt g1 (2 * 0 + 1) 6) (slab_inb _ (wAt_slab g1 hS1 (2 * 0 + 1) 6)) ho1_6,
      deliv_of_exec (F := F) d L q fT f4 1 7 inb_S2x16x8x64_S1x1x8x64_1_7_0_0 23 f4 (k0_off25 (tile_spec.sl.v600 (F := F) g1)) _ (wAt g1 (2 * 0 + 1) 7) (slab_inb _ (wAt_slab g1 hS1 (2 * 0 + 1) 7)) ho1_7,
      deliv_of_exec (F := F) d L q fT f4 1 8 inb_S2x16x8x64_S1x1x8x64_1_8_0_0 24 f4 (k0_off26 (tile_spec.sl.v609 (F := F) g1)) _ (wAt g1 (2 * 0 + 1) 8) (slab_inb _ (wAt_slab g1 hS1 (2 * 0 + 1) 8)) ho1_8,
      deliv_of_exec (F := F) d L q fT f4 1 9 inb_S2x16x8x64_S1x1x8x64_1_9_0_0 25 f4 (k0_off27 (tile_spec.sl.v618 (F := F) g1)) _ (wAt g1 (2 * 0 + 1) 9) (slab_inb _ (wAt_slab g1 hS1 (2 * 0 + 1) 9)) ho1_9,
      deliv_of_exec (F := F) d L q fT f4 1 10 inb_S2x16x8x64_S1x1x8x64_1_10_0_0 26 f4 (k0_off28 (tile_spec.sl.v627 (F := F) g1)) _ (wAt g1 (2 * 0 + 1) 10) (slab_inb _ (wAt_slab g1 hS1 (2 * 0 + 1) 10)) ho1_10,
      deliv_of_exec (F := F) d L q fT f4 1 11 inb_S2x16x8x64_S1x1x8x64_1_11_0_0 27 f4 (k0_off29 (tile_spec.sl.v636 (F := F) g1)) _ (wAt g1 (2 * 0 + 1) 11) (slab_inb _ (wAt_slab g1 hS1 (2 * 0 + 1) 11)) ho1_11,
      deliv_of_exec (F := F) d L q fT f4 1 12 inb_S2x16x8x64_S1x1x8x64_1_12_0_0 28 f4 (k0_off30 (tile_spec.sl.v645 (F := F) g1)) _ (wAt g1 (2 * 0 + 1) 12) (slab_inb _ (wAt_slab g1 hS1 (2 * 0 + 1) 12)) ho1_12,
      deliv_of_exec (F := F) d L q fT f4 1 13 inb_S2x16x8x64_S1x1x8x64_1_13_0_0 29 f4 (k0_off31 (tile_spec.sl.v654 (F := F) g1)) _ (wAt g1 (2 * 0 + 1) 13) (slab_inb _ (wAt_slab g1 hS1 (2 * 0 + 1) 13)) ho1_13,
      deliv_of_exec (F := F) d L q fT f4 1 14 inb_S2x16x8x64_S1x1x8x64_1_14_0_0 30 f4 (k0_off32 (tile_spec.sl.v663 (F := F) g1)) _ (wAt g1 (2 * 0 + 1) 14) (slab_inb _ (wAt_slab g1 hS1 (2 * 0 + 1) 14)) ho1_14,
      deliv_of_exec (F := F) d L q fT f4 1 15 inb_S2x16x8x64_S1x1x8x64_1_15_0_0 31 f4 (k0_off33 (tile_spec.sl.v672 (F := F) g1)) _ (wAt g1 (2 * 0 + 1) 15) (slab_inb _ (wAt_slab g1 hS1 (2 * 0 + 1) 15)) ho1_15]
    delta inv
    rw [if_pos (by decide)]
    delta invBase rests flight0 flight1
    isplitl [Hmw Hi Ho H0 H1 H2 H3 Hs7 Hs8 HO]
    · isplitr; · iexact Hmw
      isplitl [Hi]; · iexact Hi
      isplitl [Ho]; · iexact Ho
      isplitl [H0]; · iexists _; iexact H0
      isplitl [H1]; · iexact H1
      isplitl [H2]; · iexact H2
      isplitl [H3]
      · iexists f3; isplitr
        · ipureintro; intro j c hj; exact absurd hj (by omega)
        · iexact H3
      isplitl [Hs7]; · iexact Hs7
      isplitl [Hs8]; · iexact Hs8
      iexists (insert (SemLoc.dma cc0_scoped0.sem, (default : HIx 1)) W); isplitr
      · ipureintro; intro p hp
        rcases Finset.mem_insert.mp hp with hp | hp
        · exact .inr (hp ▸ rfl)
        · exact .inl hp
      · iexact HO
    isplitl [Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31]
    · isplitr; · iempintro
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      isplitl [Ht9]; · iexact Ht9
      isplitl [Ht10]; · iexact Ht10
      isplitl [Ht11]; · iexact Ht11
      isplitl [Ht12]; · iexact Ht12
      isplitl [Ht13]; · iexact Ht13
      isplitl [Ht14]; · iexact Ht14
      isplitl [Ht15]; · iexact Ht15
      isplitl [Ht16]; · iexact Ht16
      isplitl [Ht17]; · iexact Ht17
      isplitl [Ht18]; · iexact Ht18
      isplitl [Ht19]; · iexact Ht19
      isplitl [Ht20]; · iexact Ht20
      isplitl [Ht21]; · iexact Ht21
      isplitl [Ht22]; · iexact Ht22
      isplitl [Ht23]; · iexact Ht23
      isplitl [Ht24]; · iexact Ht24
      isplitl [Ht25]; · iexact Ht25
      isplitl [Ht26]; · iexact Ht26
      isplitl [Ht27]; · iexact Ht27
      isplitl [Ht28]; · iexact Ht28
      isplitl [Ht29]; · iexact Ht29
      isplitl [Ht30]; · iexact Ht30
      iexact Ht31
    isplitl [Hs5]; · iexact Hs5
    iexact Hs6
  -- after the last trip: the rows go out
  delta inv
  rw [if_neg (show ¬ (Scf.trips k0_t1_loop.lb k0_t1_loop.ub k0_t1_loop.st < 16) by decide)]
  delta invBase
  iintro %acc ⟨⟨-, Hi, Ho, ⟨%g0, H0⟩, H1, H2, ⟨%g3, %hdone, H3⟩, Hs7, Hs8, %W', %hW', HO⟩, -, -, -, -, -, -, -, -, -, -, -, -, -, -, -, -, -, -, -, -, -, -, -, -, -, -, -, -, -, -, -, -, A0, A1, A2, A3, A4, A5, A6, A7, A8, A9, A10, A11, A12, A13, A14, A15, B0, B1, B2, B3, B4, B5, B6, B7, B8, B9, B10, B11, B12, B13, B14, B15, Hs5, Hs6⟩
  sl_exec_parts
  sl_step
  delta tilePost
  isplitl [Hi]; · iexact Hi
  isplitl [Ho]
  · iexists _; isplitr
    · ipureintro; exact rows_of_done' (F := F) L fI fT fO _ hdone
    · iexact Ho
  isplitl [H0]; · iexists _; iexact H0
  isplitl [H1]; · iexists _; iexact H1
  isplitl [H2]; · iexists _; iexact H2
  isplitl [H3]; · iexists _; iexact H3
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [Hs5]; · iexact Hs5
  isplitl [Hs6]; · iexact Hs6
  isplitl [Hs7]; · iexact Hs7
  isplitl [Hs8]; · iexact Hs8
  iexists (insert (SemLoc.dma cc0_scoped1.sem, (default : HIx 1)) W'); isplitr
  · ipureintro; intro p hp
    rcases Finset.mem_insert.mp hp with hp | hp
    · exact .inr (hp ▸ rfl)
    · exact hW' p hp
  · iexact HO

end Cert.KTile

end
-- ==== Proof.Launch.Base.lean ====
import proofs.«207235_g30958124269674_cont_8to1_b_889_24_alg».proof.Proof.TileSpec
import Idealize.ShloMosaic.Lib.StableHlo.Run
import Idealize.ShloMosaic.Lib.Ring

/-! The launch of the lookup: from the statement of one vector subcore's task (`TileSpec`) to the run of the whole
    program.

    The thirty-two tasks split the 16384 indices and the 16384 output rows into runs of 512; the table, which every
    task reads whole, goes out as read shares. @main makes two identity copies of the table, hands the index array,
    the copy of the table and the output to the two cores, and takes the index array and the output back; the final
    memory is read off what it then holds. -/

noncomputable section

namespace Cert.KILaunch

open Cert.KernelIdeal Cert.KernelIdeal.Gen
open Cert.KITile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

abbrev D [FloatOps F] : Defs nD τ sig (Elt F) (ΛP (F := F)) := Pipeline.defs pcfgs defs₀
abbrev 𝒱 : Variants := 𝒱₀.lift
abbrev v₀ : 𝒱.V := Sum.inl none

/-- The table as @main is given it. -/
abbrev aLoc (d : Dev nD) : Loc nD τ sig := (SparseCore.T d).loc main_arg1

/-! ## The program as the launch theorem sees it -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the left factor of the ghost state; the copies' counters are found in the right. -/
abbrev EH : Emb UH (MT nD τ sig (HIx 1) (Elt F) ℕ UU ℕ) := embL

/-! ## The tasks and their runs -/

/-- The coordinates of the task on subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

abbrev LL (c : Fin 2) (i : Fin 16) : grid0.Coords := coordsV ⟨c.val, c.isLt⟩ ⟨i.val, i.isLt⟩

/-- The number of the run the task at `L` works on: `2 s + c`. -/
def runOf (L : grid0.Coords) : Fin 32 := ⟨2 * (L 1).val + (L 0).val, by
  have h0 : (L 0).val < 2 := (L 0).isLt
  have h1 : (L 1).val < 16 := (L 1).isLt
  omega⟩

theorem hdivI : 32 ∣ S16384.size 0 := ⟨512, rfl⟩
theorem hdivO : 32 ∣ S16384x64.size 0 := ⟨512, rfl⟩
/-- Run `t` of the index array: entries `[512 t, 512 t + 512)`; of the output: the same rows. -/
abbrev partI (t : Fin 32) : Rect S16384 := Rect.part (s := S16384) (a₀ := 0) hdivI t
abbrev partO (t : Fin 32) : Rect S16384x64 := Rect.part (s := S16384x64) (a₀ := 0) hdivO t

theorem iRect_eq (L : grid0.Coords) :
    Rect.unit (s := S16384) (k0_off1 L) S512.size (k0_off1_inb L) = partI (runOf L) := by
  unfold partI Rect.part Rect.block
  congr 1 <;> funext a
  · rw [k0_off1_eq]
    match a with
    | 0 => simp [Shape.partIx, Shape.partSize, runOf]; omega
  · match a with
    | 0 => simp [Shape.partSize]

theorem oRect_eq (L : grid0.Coords) :
    Rect.unit (s := S16384x64) (k0_off326 L) S512x64.size (k0_off326_inb L) = partO (runOf L) := by
  unfold partO Rect.part Rect.block
  congr 1 <;> funext a
  · rw [k0_off326_eq]
    match a with
    | 0 => simp [Shape.partIx, Shape.partSize, runOf]; omega
    | 1 => simp [Shape.partIx, Shape.partSize]
  · match a with
    | 0 => simp [Shape.partSize]
    | 1 => simp [Shape.partSize]

variable [FloatOps F]

theorem set_iRow (L : grid0.Coords) : (iRow L).view.set = (partI (runOf L)).set := by
  show ((iV).view.slice (Rect.unit (s := S16384) (k0_off1 L) S512.size (k0_off1_inb L))).set = _
  rw [iRect_eq, View.set_slice]; exact Finset.map_refl
theorem set_oRow (L : grid0.Coords) : (oRow L).view.set = (partO (runOf L)).set := by
  show ((oV).view.slice (Rect.unit (s := S16384x64) (k0_off326 L) S512x64.size (k0_off326_inb L))).set = _
  rw [oRect_eq, View.set_slice]; exact Finset.map_refl

/-! ## What the handshakes carry -/

variable (m : (ℓ : Loc nD τ sig) → Buf (Elt F) ℓ)

/-- The launch contents of the index array, of the table (which the kernel reads in @main's second copy) and of the
    output. -/
abbrev fI (d : Dev nD) : Buf (Elt F) (iLoc d) := m (iLoc d)
abbrev fT (d : Dev nD) : Buf (Elt F) (tLoc d) := m (aLoc d)
abbrev fO (d : Dev nD) : Buf (Elt F) (oLoc d) := m (oLoc d)

/-- The read share of the table core `c` is handed, and of it the share of its subcore `i`. -/
abbrev qC (c : Fin 2) : PosShare TreeShare := Transfers.shareTokN fullShare c.val
abbrev qT (c : Fin 2) (i : Fin 16) : PosShare TreeShare := Transfers.shareTokN (qC c) i.val

/-- What a task is handed: its run of the index array, its read share of the table, its run of the output. -/
def goF (d : Dev nD) (c : Fin 2) (i : Fin 16) : sProp 𝕄 :=
  iprop((iLoc d ↦[(iRow (LL c i)).view.set]{fullShare} fI m d)
    ∗ (tLoc d ↦{qT c i} fT m d)
    ∗ (oLoc d ↦[(oRow (LL c i)).view.set]{fullShare} fO m d))

/-- What it hands back: the run of the index array, and its run of the output holding the rows the indices name. -/
def tdF (d : Dev nD) (c : Fin 2) (i : Fin 16) : sProp 𝕄 :=
  iprop((iLoc d ↦[(iRow (LL c i)).view.set]{fullShare} fI m d)
    ∗ ∃ fO' : Buf (Elt F) (oLoc d), ⌜RowsOK (LL c i) (fI m d) (fT m d) fO'⌝ ∗ oLoc d ↦[(oRow (LL c i)).view.set]{fullShare} fO')

/-- The one call's payloads: a core is handed its sixteen tasks' pieces and hands back theirs. -/
def P : (K (F := F)).Pay (nD := nD) (Val := Elt F) (Name := ℕ) (U := UU) where
  st := fun q d c => match q with | 0 => bigSep Finset.univ fun i : Fin 16 => goF m d c i
  dn := fun q d c => match q with | 0 => bigSep Finset.univ fun i : Fin 16 => tdF m d c i
  go := fun q d c i => match q with | 0 => goF m d c i
  td := fun q d c i => match q with | 0 => tdF m d c i
  x := fun _ _ => iprop(emp)

instance goF_storable (d : Dev nD) (c : Fin 2) (i : Fin 16) : BI.Storable (upEmb : UEmb _ 𝕄) (goF m d c i) := by
  unfold goF; infer_instance
instance tdF_storable (d : Dev nD) (c : Fin 2) (i : Fin 16) : BI.Storable (upEmb : UEmb _ 𝕄) (tdF m d c i) := by
  unfold tdF; infer_instance

instance P_storable : (P (F := F) m).IsStorable where
  st q d c := match q with
    | 0 => (inferInstance : BI.Storable (upEmb : UEmb _ 𝕄) (bigSep Finset.univ fun i : Fin 16 => goF m d c i))
  dn q d c := match q with
    | 0 => (inferInstance : BI.Storable (upEmb : UEmb _ 𝕄) (bigSep Finset.univ fun i : Fin 16 => tdF m d c i))
  go q d c i := match q with
    | 0 => (inferInstance : BI.Storable (upEmb : UEmb _ 𝕄) (goF m d c i))
  td q d c i := match q with
    | 0 => (inferInstance : BI.Storable (upEmb : UEmb _ 𝕄) (tdF m d c i))

/-! ## A core's pieces are its tasks' -/

theorem vecSplit : (K (F := F)).VecSplit' (P m) 0 := by
  intro d c
  show (bigSep Finset.univ fun i : Fin 16 => goF m d c i) ⊢ |={Set.univ}=> iprop(
      (bigSep Finset.univ fun i : Fin 16 => goF m d c i)
      ∗ ((bigSep Finset.univ fun i : Fin 16 => tdF m d c i) -∗ bigSep Finset.univ fun i : Fin 16 => tdF m d c i))
  iintro H; imodintro
  isplitl [H]; · iexact H
  iintro H; iexact H

/-! ## A subcore's own semaphores and buffers, one by one -/

section Tile

variable (d : Dev nD) (L : grid0.Coords)

abbrev cV (L : grid0.Coords) : Fin τ.nSC := (L 0).castLE hcore0
abbrev jV (L : grid0.Coords) : Fin τ.nSub := (L 1).castLE hsub0

abbrev cellA (d : Dev nD) (L : grid0.Coords) : GSem nD τ sig := (thr d L, SemLoc.dma cc0_scratch5.sem)
abbrev cellB (d : Dev nD) (L : grid0.Coords) : GSem nD τ sig := (thr d L, SemLoc.dma cc0_scratch6.sem)
abbrev cellC (d : Dev nD) (L : grid0.Coords) : GSem nD τ sig := (thr d L, SemLoc.dma cc0_scoped0.sem)
abbrev cellD (d : Dev nD) (L : grid0.Coords) : GSem nD τ sig := (thr d L, SemLoc.dma cc0_scoped1.sem)

omit [FloatOps F] in
theorem dma_mem (s : DmaSem sig) : ((thr d L, SemLoc.dma s) : GSem nD τ sig) ∈ ownCells (thr d L) :=
  mem_ownCells.mpr ⟨rfl, (show ∀ s : DmaSem sig, (SemLoc.dma s : SemLoc sig).isScoped .scVector = true by decide) _⟩

omit [FloatOps F] in
/-- The subcore's own semaphores at zero: the four the task names, and the rest. -/
theorem ownSems0_V :
    (ownSems0 (thr d L) : sProp 𝕄)
      = iprop(semVal (cellA d L) 0 ∗ semVal (cellB d L) 0 ∗ semVal (cellC d L) 0 ∗ semVal (cellD d L) 0
          ∗ bigSep (((((ownCells (thr d L)).erase (cellA d L)).erase (cellB d L)).erase (cellC d L)).erase (cellD d L))
              fun g => semVal g 0) := by
  unfold SparseCore.Cfg.ownSems0
  have hAB : cellB d L ≠ cellA d L := by simp [cellA, cellB]; decide
  have hAC : cellC d L ≠ cellA d L := by simp [cellA, cellC]; decide
  have hAD : cellD d L ≠ cellA d L := by simp [cellA, cellD]; decide
  have hBC : cellC d L ≠ cellB d L := by simp [cellB, cellC]; decide
  have hBD : cellD d L ≠ cellB d L := by simp [cellB, cellD]; decide
  have hCD : cellD d L ≠ cellC d L := by simp [cellC, cellD]; decide
  rw [SparseCore.bigSep_erase' (dma_mem d L cc0_scratch5.sem),
    SparseCore.bigSep_erase' (Finset.mem_erase.mpr ⟨hAB, dma_mem d L cc0_scratch6.sem⟩),
    SparseCore.bigSep_erase' (Finset.mem_erase.mpr ⟨hBC, Finset.mem_erase.mpr ⟨hAC, dma_mem d L cc0_scoped0.sem⟩⟩),
    SparseCore.bigSep_erase' (Finset.mem_erase.mpr ⟨hCD, Finset.mem_erase.mpr ⟨hBD, Finset.mem_erase.mpr ⟨hAD, dma_mem d L cc0_scoped1.sem⟩⟩⟩)]

abbrev pV (L : grid0.Coords) : Proc τ := Proc.scVector (cV L) (jV L)

omit [FloatOps F] in
theorem ref_mem {b : Ref sig .scVector} (h : ((pV L).devRef b : DevRef τ sig).owner = .proc (pV L)) :
    (pV L).devRef b ∈ ownRefs (τ := τ) (sig := sig) (pV L) :=
  SparseCore.Cfg.mem_ownRefs_of_owner (p := pV L) (b := (pV L).devRef b) h

omit [FloatOps F] in
theorem ref_ne {b b' : Ref sig .scVector} (h : b ≠ b') : (pV L).devRef b ≠ (pV L).devRef b' :=
  fun e => h (Proc.devRef_injective _ e)

omit [FloatOps F] in
/-- The five scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (pV L)).erase ((pV L).devRef cc0_scratch0)).erase ((pV L).devRef cc0_scratch1)).erase
              ((pV L).devRef cc0_scratch2)).erase ((pV L).devRef cc0_scratch3)).erase ((pV L).devRef cc0_scratch4))
              fun b => iprop(∃ f, ((d, b) : Loc nD τ sig) ↦{fullShare} f)) := by
  unfold SparseCore.Cfg.ownBufs
  refine (SparseCore.bigSep_erase' (ref_mem L (b := cc0_scratch0) rfl)).trans ?_
  rw [SparseCore.bigSep_erase' (Finset.mem_erase.mpr ⟨ref_ne L (show (cc0_scratch1 : Ref sig .scVector) ≠ cc0_scratch0 by decide), ref_mem L (b := cc0_scratch1) rfl⟩),
    SparseCore.bigSep_erase' (Finset.mem_erase.mpr ⟨ref_ne L (show (cc0_scratch2 : Ref sig .scVector) ≠ cc0_scratch1 by decide),
      Finset.mem_erase.mpr ⟨ref_ne L (show (cc0_scratch2 : Ref sig .scVector) ≠ cc0_scratch0 by decide), ref_mem L (b := cc0_scratch2) rfl⟩⟩),
    SparseCore.bigSep_erase' (Finset.mem_erase.mpr ⟨ref_ne L (show (cc0_scratch3 : Ref sig .scVector) ≠ cc0_scratch2 by decide),
      Finset.mem_erase.mpr ⟨ref_ne L (show (cc0_scratch3 : Ref sig .scVector) ≠ cc0_scratch1 by decide),
      Finset.mem_erase.mpr ⟨ref_ne L (show (cc0_scratch3 : Ref sig .scVector) ≠ cc0_scratch0 by decide), ref_mem L (b := cc0_scratch3) rfl⟩⟩⟩),
    SparseCore.bigSep_erase' (Finset.mem_erase.mpr ⟨ref_ne L (show (cc0_scratch4 : Ref sig .scVector) ≠ cc0_scratch3 by decide),
      Finset.mem_erase.mpr ⟨ref_ne L (show (cc0_scratch4 : Ref sig .scVector) ≠ cc0_scratch2 by decide),
      Finset.mem_erase.mpr ⟨ref_ne L (show (cc0_scratch4 : Ref sig .scVector) ≠ cc0_scratch1 by decide),
      Finset.mem_erase.mpr ⟨ref_ne L (show (cc0_scratch4 : Ref sig .scVector) ≠ cc0_scratch0 by decide), ref_mem L (b := cc0_scratch4) rfl⟩⟩⟩⟩)]

end Tile

end Cert.KILaunch

end
-- ==== Proof.Launch.Slots.lean ====
import proofs.«207235_g30958124269674_cont_8to1_b_889_24_alg».proof.Proof.Launch.Base

/-! The ring buffer of a subcore is its thirty-two slots: slot `k` of half `h` is the 8 × 64 block at `(h, k)` on the
    first two axes; the blocks are pairwise apart and cover the buffer. -/

noncomputable section

namespace Cert.KILaunch

open Cert.KernelIdeal Cert.KernelIdeal.Gen
open Cert.KITile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

section Slots

variable (d : Dev nD) (L : grid0.Coords)

omit [FloatOps F] in
theorem slot_inb (p : Fin 2 × Fin 16) :
    ∀ a, (![p.1.val, p.2.val, 0, 0] : Fin 4 → Nat) a + S1x1x8x64.size a ≤ S2x16x8x64.size a := by
  have := p.1.isLt; have := p.2.isLt; intro a; fin_cases a
  · show p.1.val + 1 ≤ 2; omega
  · show p.2.val + 1 ≤ 16; omega
  · show 0 + 8 ≤ 8; omega
  · show 0 + 64 ≤ 64; omega

/-- Slot `k` of half `h`: the 8 × 64 block at `(h, k)` on the first two axes. -/
abbrev slotRect (p : Fin 2 × Fin 16) : Rect S2x16x8x64 :=
  Rect.unit (s := S2x16x8x64) ![p.1.val, p.2.val, 0, 0] S1x1x8x64.size (slot_inb p)
abbrev slotSet (p : Fin 2 × Fin 16) : Finset S2x16x8x64.Idx := (slotRect p).set

/-- A slot as the program slices it holds the elements of its block. -/
theorem slot_set (off : Fin 4 → Nat) (inb : ∀ a, off a + S1x1x8x64.size a ≤ S2x16x8x64.size a) :
    (((s4).slice (Rect.unit (s := S2x16x8x64) off S1x1x8x64.size inb) (fun _ => rfl)).squeeze S8x64 squeezes_S1x1x8x64_S8x64).view.set
      = (Rect.unit (s := S2x16x8x64) off S1x1x8x64.size inb).set := by
  show (((s4).view.slice (Rect.unit (s := S2x16x8x64) off S1x1x8x64.size inb)).reshape S8x64 squeezes_S1x1x8x64_S8x64.numel_eq).set = _
  rw [View.set_reshape, View.set_slice]; exact Finset.map_refl

omit [FloatOps F] in
/-- Two slots differ in the half or in the place, and are apart on that axis. -/
theorem slots_disjoint : ∀ p p' : Fin 2 × Fin 16, p ≠ p' → Disjoint (slotSet p) (slotSet p') := by
  intro p p' h
  by_cases h0 : p.1 = p'.1
  · have h1 : p.2.val ≠ p'.2.val := fun e => h (Prod.ext h0 (Fin.ext e))
    refine Rect.unit_disjoint (1 : Fin 4) ?_
    show p.2.val + 1 ≤ p'.2.val ∨ p'.2.val + 1 ≤ p.2.val
    omega
  · have h1 : p.1.val ≠ p'.1.val := fun e => h0 (Fin.ext e)
    refine Rect.unit_disjoint (0 : Fin 4) ?_
    show p.1.val + 1 ≤ p'.1.val ∨ p'.1.val + 1 ≤ p.1.val
    omega

omit [FloatOps F] in
/-- Every element of the ring lies in the slot its first two coordinates name. -/
theorem slots_cover : (Finset.univ : Finset (Fin 2 × Fin 16)).biUnion slotSet = Finset.univ := by
  ext x
  simp only [Finset.mem_biUnion, Finset.mem_univ, true_and, iff_true]
  refine ⟨((x 0 : Fin 2), (x 1 : Fin 16)), Rect.mem_set_unit.mpr fun a => ?_⟩
  fin_cases a
  · exact ⟨le_rfl, Nat.lt_succ_self _⟩
  · exact ⟨le_rfl, Nat.lt_succ_self _⟩
  · exact ⟨Nat.zero_le _, by have : (x 2).val < 8 := (x 2).isLt; show (x 2).val < 0 + 8; omega⟩
  · exact ⟨Nat.zero_le _, by have : (x 3).val < 64 := (x 3).isLt; show (x 3).val < 0 + 64; omega⟩

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem bigSep_slots (Ψ : Fin 2 × Fin 16 → sProp 𝕄) :
    bigSep Finset.univ Ψ = iprop((Ψ (0, 0) ∗ Ψ (0, 1) ∗ Ψ (0, 2) ∗ Ψ (0, 3) ∗ Ψ (0, 4) ∗ Ψ (0, 5) ∗ Ψ (0, 6) ∗ Ψ (0, 7) ∗ Ψ (0, 8) ∗ Ψ (0, 9) ∗ Ψ (0, 10) ∗ Ψ (0, 11) ∗ Ψ (0, 12) ∗ Ψ (0, 13) ∗ Ψ (0, 14) ∗ Ψ (0, 15)) ∗ (Ψ (1, 0) ∗ Ψ (1, 1) ∗ Ψ (1, 2) ∗ Ψ (1, 3) ∗ Ψ (1, 4) ∗ Ψ (1, 5) ∗ Ψ (1, 6) ∗ Ψ (1, 7) ∗ Ψ (1, 8) ∗ Ψ (1, 9) ∗ Ψ (1, 10) ∗ Ψ (1, 11) ∗ Ψ (1, 12) ∗ Ψ (1, 13) ∗ Ψ (1, 14) ∗ Ψ (1, 15))) := by
  rw [BI.bigSep_univ_prod, BI.bigSep_fin_two, bigSep_fin16, bigSep_fin16]; rfl

omit [FloatOps F] in
/-- The ring held whole is its blocks held. -/
theorem ring_blocks (f4 : Buf (Elt F) ((thr d L).loc cc0_scratch4)) :
    ((thr d L).loc cc0_scratch4 ↦{fullShare} f4 : sProp 𝕄)
      = bigSep Finset.univ fun p : Fin 2 × Fin 16 => (thr d L).loc cc0_scratch4 ↦[slotSet p]{fullShare} f4 := by
  rw [← pointsTo_biUnion Finset.univ (ℓ := (thr d L).loc cc0_scratch4) slotSet (fun p _ p' _ h => slots_disjoint p p' h), slots_cover]; try rfl

omit [FloatOps F] in
/-- The blocks, each at some contents, are the ring whole at some contents. -/
theorem ring_blocks_join (f₀ : Buf (Elt F) ((thr d L).loc cc0_scratch4)) :
    (bigSep Finset.univ fun p : Fin 2 × Fin 16 => iprop(∃ g, (thr d L).loc cc0_scratch4 ↦[slotSet p]{fullShare} g))
      ⊢ (iprop(∃ f, (thr d L).loc cc0_scratch4 ↦{fullShare} f) : sProp 𝕄) := by
  have : Nonempty (Buf (Elt F) ((thr d L).loc cc0_scratch4)) := ⟨f₀⟩
  refine (bigSep_exists_pi Finset.univ (fun p (g : Buf (Elt F) ((thr d L).loc cc0_scratch4)) => ((thr d L).loc cc0_scratch4 ↦[slotSet p]{fullShare} g : sProp 𝕄))).trans ?_
  iintro ⟨%fs, H⟩
  ihave H' := (pointsTo_biUnion_join (ℓ := (thr d L).loc cc0_scratch4) (q := fullShare) (Val := Elt F) Finset.univ slotSet fs f₀
    (fun p _ p' _ h => slots_disjoint p p' h)) $$ H
  icases H' with ⟨%g, -, Hg⟩
  rw [slots_cover]
  iexists g; iexact Hg

/-- Slot `0` of half `0`, in the program's spelling. -/
theorem pts_slot0_0 (f : Buf (Elt F) ((thr d L).loc cc0_scratch4)) :
    ((slot0_0).view.loc (thr d L) ↦[(slot0_0).view.set]{fullShare} f : sProp 𝕄)
      = (thr d L).loc cc0_scratch4 ↦[slotSet (0, 0)]{fullShare} f := by
  rw [slot_set]; rfl
/-- Slot `1` of half `0`, in the program's spelling. -/
theorem pts_slot0_1 (f : Buf (Elt F) ((thr d L).loc cc0_scratch4)) :
    ((slot0_1).view.loc (thr d L) ↦[(slot0_1).view.set]{fullShare} f : sProp 𝕄)
      = (thr d L).loc cc0_scratch4 ↦[slotSet (0, 1)]{fullShare} f := by
  rw [slot_set]; rfl
/-- Slot `2` of half `0`, in the program's spelling. -/
theorem pts_slot0_2 (f : Buf (Elt F) ((thr d L).loc cc0_scratch4)) :
    ((slot0_2).view.loc (thr d L) ↦[(slot0_2).view.set]{fullShare} f : sProp 𝕄)
      = (thr d L).loc cc0_scratch4 ↦[slotSet (0, 2)]{fullShare} f := by
  rw [slot_set]; rfl
/-- Slot `3` of half `0`, in the program's spelling. -/
theorem pts_slot0_3 (f : Buf (Elt F) ((thr d L).loc cc0_scratch4)) :
    ((slot0_3).view.loc (thr d L) ↦[(slot0_3).view.set]{fullShare} f : sProp 𝕄)
      = (thr d L).loc cc0_scratch4 ↦[slotSet (0, 3)]{fullShare} f := by
  rw [slot_set]; rfl
/-- Slot `4` of half `0`, in the program's spelling. -/
theorem pts_slot0_4 (f : Buf (Elt F) ((thr d L).loc cc0_scratch4)) :
    ((slot0_4).view.loc (thr d L) ↦[(slot0_4).view.set]{fullShare} f : sProp 𝕄)
      = (thr d L).loc cc0_scratch4 ↦[slotSet (0, 4)]{fullShare} f := by
  rw [slot_set]; rfl
/-- Slot `5` of half `0`, in the program's spelling. -/
theorem pts_slot0_5 (f : Buf (Elt F) ((thr d L).loc cc0_scratch4)) :
    ((slot0_5).view.loc (thr d L) ↦[(slot0_5).view.set]{fullShare} f : sProp 𝕄)
      = (thr d L).loc cc0_scratch4 ↦[slotSet (0, 5)]{fullShare} f := by
  rw [slot_set]; rfl
/-- Slot `6` of half `0`, in the program's spelling. -/
theorem pts_slot0_6 (f : Buf (Elt F) ((thr d L).loc cc0_scratch4)) :
    ((slot0_6).view.loc (thr d L) ↦[(slot0_6).view.set]{fullShare} f : sProp 𝕄)
      = (thr d L).loc cc0_scratch4 ↦[slotSet (0, 6)]{fullShare} f := by
  rw [slot_set]; rfl
/-- Slot `7` of half `0`, in the program's spelling. -/
theorem pts_slot0_7 (f : Buf (Elt F) ((thr d L).loc cc0_scratch4)) :
    ((slot0_7).view.loc (thr d L) ↦[(slot0_7).view.set]{fullShare} f : sProp 𝕄)
      = (thr d L).loc cc0_scratch4 ↦[slotSet (0, 7)]{fullShare} f := by
  rw [slot_set]; rfl
/-- Slot `8` of half `0`, in the program's spelling. -/
theorem pts_slot0_8 (f : Buf (Elt F) ((thr d L).loc cc0_scratch4)) :
    ((slot0_8).view.loc (thr d L) ↦[(slot0_8).view.set]{fullShare} f : sProp 𝕄)
      = (thr d L).loc cc0_scratch4 ↦[slotSet (0, 8)]{fullShare} f := by
  rw [slot_set]; rfl
/-- Slot `9` of half `0`, in the program's spelling. -/
theorem pts_slot0_9 (f : Buf (Elt F) ((thr d L).loc cc0_scratch4)) :
    ((slot0_9).view.loc (thr d L) ↦[(slot0_9).view.set]{fullShare} f : sProp 𝕄)
      = (thr d L).loc cc0_scratch4 ↦[slotSet (0, 9)]{fullShare} f := by
  rw [slot_set]; rfl
/-- Slot `10` of half `0`, in the program's spelling. -/
theorem pts_slot0_10 (f : Buf (Elt F) ((thr d L).loc cc0_scratch4)) :
    ((slot0_10).view.loc (thr d L) ↦[(slot0_10).view.set]{fullShare} f : sProp 𝕄)
      = (thr d L).loc cc0_scratch4 ↦[slotSet (0, 10)]{fullShare} f := by
  rw [slot_set]; rfl
/-- Slot `11` of half `0`, in the program's spelling. -/
theorem pts_slot0_11 (f : Buf (Elt F) ((thr d L).loc cc0_scratch4)) :
    ((slot0_11).view.loc (thr d L) ↦[(slot0_11).view.set]{fullShare} f : sProp 𝕄)
      = (thr d L).loc cc0_scratch4 ↦[slotSet (0, 11)]{fullShare} f := by
  rw [slot_set]; rfl
/-- Slot `12` of half `0`, in the program's spelling. -/
theorem pts_slot0_12 (f : Buf (Elt F) ((thr d L).loc cc0_scratch4)) :
    ((slot0_12).view.loc (thr d L) ↦[(slot0_12).view.set]{fullShare} f : sProp 𝕄)
      = (thr d L).loc cc0_scratch4 ↦[slotSet (0, 12)]{fullShare} f := by
  rw [slot_set]; rfl
/-- Slot `13` of half `0`, in the program's spelling. -/
theorem pts_slot0_13 (f : Buf (Elt F) ((thr d L).loc cc0_scratch4)) :
    ((slot0_13).view.loc (thr d L) ↦[(slot0_13).view.set]{fullShare} f : sProp 𝕄)
      = (thr d L).loc cc0_scratch4 ↦[slotSet (0, 13)]{fullShare} f := by
  rw [slot_set]; rfl
/-- Slot `14` of half `0`, in the program's spelling. -/
theorem pts_slot0_14 (f : Buf (Elt F) ((thr d L).loc cc0_scratch4)) :
    ((slot0_14).view.loc (thr d L) ↦[(slot0_14).view.set]{fullShare} f : sProp 𝕄)
      = (thr d L).loc cc0_scratch4 ↦[slotSet (0, 14)]{fullShare} f := by
  rw [slot_set]; rfl
/-- Slot `15` of half `0`, in the program's spelling. -/
theorem pts_slot0_15 (f : Buf (Elt F) ((thr d L).loc cc0_scratch4)) :
    ((slot0_15).view.loc (thr d L) ↦[(slot0_15).view.set]{fullShare} f : sProp 𝕄)
      = (thr d L).loc cc0_scratch4 ↦[slotSet (0, 15)]{fullShare} f := by
  rw [slot_set]; rfl
/-- Slot `0` of half `1`, in the program's spelling. -/
theorem pts_slot1_0 (f : Buf (Elt F) ((thr d L).loc cc0_scratch4)) :
    ((slot1_0).view.loc (thr d L) ↦[(slot1_0).view.set]{fullShare} f : sProp 𝕄)
      = (thr d L).loc cc0_scratch4 ↦[slotSet (1, 0)]{fullShare} f := by
  rw [slot_set]; rfl
/-- Slot `1` of half `1`, in the program's spelling. -/
theorem pts_slot1_1 (f : Buf (Elt F) ((thr d L).loc cc0_scratch4)) :
    ((slot1_1).view.loc (thr d L) ↦[(slot1_1).view.set]{fullShare} f : sProp 𝕄)
      = (thr d L).loc cc0_scratch4 ↦[slotSet (1, 1)]{fullShare} f := by
  rw [slot_set]; rfl
/-- Slot `2` of half `1`, in the program's spelling. -/
theorem pts_slot1_2 (f : Buf (Elt F) ((thr d L).loc cc0_scratch4)) :
    ((slot1_2).view.loc (thr d L) ↦[(slot1_2).view.set]{fullShare} f : sProp 𝕄)
      = (thr d L).loc cc0_scratch4 ↦[slotSet (1, 2)]{fullShare} f := by
  rw [slot_set]; rfl
/-- Slot `3` of half `1`, in the program's spelling. -/
theorem pts_slot1_3 (f : Buf (Elt F) ((thr d L).loc cc0_scratch4)) :
    ((slot1_3).view.loc (thr d L) ↦[(slot1_3).view.set]{fullShare} f : sProp 𝕄)
      = (thr d L).loc cc0_scratch4 ↦[slotSet (1, 3)]{fullShare} f := by
  rw [slot_set]; rfl
/-- Slot `4` of half `1`, in the program's spelling. -/
theorem pts_slot1_4 (f : Buf (Elt F) ((thr d L).loc cc0_scratch4)) :
    ((slot1_4).view.loc (thr d L) ↦[(slot1_4).view.set]{fullShare} f : sProp 𝕄)
      = (thr d L).loc cc0_scratch4 ↦[slotSet (1, 4)]{fullShare} f := by
  rw [slot_set]; rfl
/-- Slot `5` of half `1`, in the program's spelling. -/
theorem pts_slot1_5 (f : Buf (Elt F) ((thr d L).loc cc0_scratch4)) :
    ((slot1_5).view.loc (thr d L) ↦[(slot1_5).view.set]{fullShare} f : sProp 𝕄)
      = (thr d L).loc cc0_scratch4 ↦[slotSet (1, 5)]{fullShare} f := by
  rw [slot_set]; rfl
/-- Slot `6` of half `1`, in the program's spelling. -/
theorem pts_slot1_6 (f : Buf (Elt F) ((thr d L).loc cc0_scratch4)) :
    ((slot1_6).view.loc (thr d L) ↦[(slot1_6).view.set]{fullShare} f : sProp 𝕄)
      = (thr d L).loc cc0_scratch4 ↦[slotSet (1, 6)]{fullShare} f := by
  rw [slot_set]; rfl
/-- Slot `7` of half `1`, in the program's spelling. -/
theorem pts_slot1_7 (f : Buf (Elt F) ((thr d L).loc cc0_scratch4)) :
    ((slot1_7).view.loc (thr d L) ↦[(slot1_7).view.set]{fullShare} f : sProp 𝕄)
      = (thr d L).loc cc0_scratch4 ↦[slotSet (1, 7)]{fullShare} f := by
  rw [slot_set]; rfl
/-- Slot `8` of half `1`, in the program's spelling. -/
theorem pts_slot1_8 (f : Buf (Elt F) ((thr d L).loc cc0_scratch4)) :
    ((slot1_8).view.loc (thr d L) ↦[(slot1_8).view.set]{fullShare} f : sProp 𝕄)
      = (thr d L).loc cc0_scratch4 ↦[slotSet (1, 8)]{fullShare} f := by
  rw [slot_set]; rfl
/-- Slot `9` of half `1`, in the program's spelling. -/
theorem pts_slot1_9 (f : Buf (Elt F) ((thr d L).loc cc0_scratch4)) :
    ((slot1_9).view.loc (thr d L) ↦[(slot1_9).view.set]{fullShare} f : sProp 𝕄)
      = (thr d L).loc cc0_scratch4 ↦[slotSet (1, 9)]{fullShare} f := by
  rw [slot_set]; rfl
/-- Slot `10` of half `1`, in the program's spelling. -/
theorem pts_slot1_10 (f : Buf (Elt F) ((thr d L).loc cc0_scratch4)) :
    ((slot1_10).view.loc (thr d L) ↦[(slot1_10).view.set]{fullShare} f : sProp 𝕄)
      = (thr d L).loc cc0_scratch4 ↦[slotSet (1, 10)]{fullShare} f := by
  rw [slot_set]; rfl
/-- Slot `11` of half `1`, in the program's spelling. -/
theorem pts_slot1_11 (f : Buf (Elt F) ((thr d L).loc cc0_scratch4)) :
    ((slot1_11).view.loc (thr d L) ↦[(slot1_11).view.set]{fullShare} f : sProp 𝕄)
      = (thr d L).loc cc0_scratch4 ↦[slotSet (1, 11)]{fullShare} f := by
  rw [slot_set]; rfl
/-- Slot `12` of half `1`, in the program's spelling. -/
theorem pts_slot1_12 (f : Buf (Elt F) ((thr d L).loc cc0_scratch4)) :
    ((slot1_12).view.loc (thr d L) ↦[(slot1_12).view.set]{fullShare} f : sProp 𝕄)
      = (thr d L).loc cc0_scratch4 ↦[slotSet (1, 12)]{fullShare} f := by
  rw [slot_set]; rfl
/-- Slot `13` of half `1`, in the program's spelling. -/
theorem pts_slot1_13 (f : Buf (Elt F) ((thr d L).loc cc0_scratch4)) :
    ((slot1_13).view.loc (thr d L) ↦[(slot1_13).view.set]{fullShare} f : sProp 𝕄)
      = (thr d L).loc cc0_scratch4 ↦[slotSet (1, 13)]{fullShare} f := by
  rw [slot_set]; rfl
/-- Slot `14` of half `1`, in the program's spelling. -/
theorem pts_slot1_14 (f : Buf (Elt F) ((thr d L).loc cc0_scratch4)) :
    ((slot1_14).view.loc (thr d L) ↦[(slot1_14).view.set]{fullShare} f : sProp 𝕄)
      = (thr d L).loc cc0_scratch4 ↦[slotSet (1, 14)]{fullShare} f := by
  rw [slot_set]; rfl
/-- Slot `15` of half `1`, in the program's spelling. -/
theorem pts_slot1_15 (f : Buf (Elt F) ((thr d L).loc cc0_scratch4)) :
    ((slot1_15).view.loc (thr d L) ↦[(slot1_15).view.set]{fullShare} f : sProp 𝕄)
      = (thr d L).loc cc0_scratch4 ↦[slotSet (1, 15)]{fullShare} f := by
  rw [slot_set]; rfl

end Slots

end Cert.KILaunch

end
-- ==== Proof.Launch.Tile.lean ====
import proofs.«207235_g30958124269674_cont_8to1_b_889_24_alg».proof.Proof.Launch.Slots

/-! One vector subcore's task as the launch theorem asks for it: from what the launch deals the subcore — its task's
    pieces, its own buffers at some contents, its own semaphores at zero — to what `TileSpec` starts from (the ring as
    its slots, the table share as read tokens), through the task, and back. -/

noncomputable section

namespace Cert.KILaunch

open Cert.KernelIdeal Cert.KernelIdeal.Gen
open Cert.KITile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (m : (ℓ : Loc nD τ sig) → Buf (Elt F) ℓ)

section Tile

variable (d : Dev nD) (L : grid0.Coords)

omit [FloatOps F] in
/-- The slots, each at some contents, are the ring whole at some contents. -/
theorem ring_join (f₀ : Buf (Elt F) ((thr d L).loc cc0_scratch4)) :
    iprop(((∃ g, (thr d L).loc cc0_scratch4 ↦[slotSet (0, 0)]{fullShare} g) ∗ (∃ g, (thr d L).loc cc0_scratch4 ↦[slotSet (0, 1)]{fullShare} g) ∗ (∃ g, (thr d L).loc cc0_scratch4 ↦[slotSet (0, 2)]{fullShare} g) ∗ (∃ g, (thr d L).loc cc0_scratch4 ↦[slotSet (0, 3)]{fullShare} g) ∗ (∃ g, (thr d L).loc cc0_scratch4 ↦[slotSet (0, 4)]{fullShare} g) ∗ (∃ g, (thr d L).loc cc0_scratch4 ↦[slotSet (0, 5)]{fullShare} g) ∗ (∃ g, (thr d L).loc cc0_scratch4 ↦[slotSet (0, 6)]{fullShare} g) ∗ (∃ g, (thr d L).loc cc0_scratch4 ↦[slotSet (0, 7)]{fullShare} g) ∗ (∃ g, (thr d L).loc cc0_scratch4 ↦[slotSet (0, 8)]{fullShare} g) ∗ (∃ g, (thr d L).loc cc0_scratch4 ↦[slotSet (0, 9)]{fullShare} g) ∗ (∃ g, (thr d L).loc cc0_scratch4 ↦[slotSet (0, 10)]{fullShare} g) ∗ (∃ g, (thr d L).loc cc0_scratch4 ↦[slotSet (0, 11)]{fullShare} g) ∗ (∃ g, (thr d L).loc cc0_scratch4 ↦[slotSet (0, 12)]{fullShare} g) ∗ (∃ g, (thr d L).loc cc0_scratch4 ↦[slotSet (0, 13)]{fullShare} g) ∗ (∃ g, (thr d L).loc cc0_scratch4 ↦[slotSet (0, 14)]{fullShare} g) ∗ (∃ g, (thr d L).loc cc0_scratch4 ↦[slotSet (0, 15)]{fullShare} g))
          ∗ ((∃ g, (thr d L).loc cc0_scratch4 ↦[slotSet (1, 0)]{fullShare} g) ∗ (∃ g, (thr d L).loc cc0_scratch4 ↦[slotSet (1, 1)]{fullShare} g) ∗ (∃ g, (thr d L).loc cc0_scratch4 ↦[slotSet (1, 2)]{fullShare} g) ∗ (∃ g, (thr d L).loc cc0_scratch4 ↦[slotSet (1, 3)]{fullShare} g) ∗ (∃ g, (thr d L).loc cc0_scratch4 ↦[slotSet (1, 4)]{fullShare} g) ∗ (∃ g, (thr d L).loc cc0_scratch4 ↦[slotSet (1, 5)]{fullShare} g) ∗ (∃ g, (thr d L).loc cc0_scratch4 ↦[slotSet (1, 6)]{fullShare} g) ∗ (∃ g, (thr d L).loc cc0_scratch4 ↦[slotSet (1, 7)]{fullShare} g) ∗ (∃ g, (thr d L).loc cc0_scratch4 ↦[slotSet (1, 8)]{fullShare} g) ∗ (∃ g, (thr d L).loc cc0_scratch4 ↦[slotSet (1, 9)]{fullShare} g) ∗ (∃ g, (thr d L).loc cc0_scratch4 ↦[slotSet (1, 10)]{fullShare} g) ∗ (∃ g, (thr d L).loc cc0_scratch4 ↦[slotSet (1, 11)]{fullShare} g) ∗ (∃ g, (thr d L).loc cc0_scratch4 ↦[slotSet (1, 12)]{fullShare} g) ∗ (∃ g, (thr d L).loc cc0_scratch4 ↦[slotSet (1, 13)]{fullShare} g) ∗ (∃ g, (thr d L).loc cc0_scratch4 ↦[slotSet (1, 14)]{fullShare} g) ∗ (∃ g, (thr d L).loc cc0_scratch4 ↦[slotSet (1, 15)]{fullShare} g)))
      ⊢ (iprop(∃ f, (thr d L).loc cc0_scratch4 ↦{fullShare} f) : sProp 𝕄) := by
  have h := ring_blocks_join (F := F) d L f₀
  rw [bigSep_slots] at h
  exact h

/-! ## The task's share of the table as thirty-two read tokens -/

omit [FloatOps F] in
theorem tToks (q : PosShare TreeShare) (f : Buf (Elt F) (tLoc d)) :
    (tLoc d ↦{q} f : sProp 𝕄) ⊢ iprop((tLoc d ↦{Transfers.shareDrop q 32} f)
      ∗ ((tV).view.loc (thr d L) ↦{Transfers.shareTokN q 0} f)
      ∗ ((tV).view.loc (thr d L) ↦{Transfers.shareTokN q 1} f)
      ∗ ((tV).view.loc (thr d L) ↦{Transfers.shareTokN q 2} f)
      ∗ ((tV).view.loc (thr d L) ↦{Transfers.shareTokN q 3} f)
      ∗ ((tV).view.loc (thr d L) ↦{Transfers.shareTokN q 4} f)
      ∗ ((tV).view.loc (thr d L) ↦{Transfers.shareTokN q 5} f)
      ∗ ((tV).view.loc (thr d L) ↦{Transfers.shareTokN q 6} f)
      ∗ ((tV).view.loc (thr d L) ↦{Transfers.shareTokN q 7} f)
      ∗ ((tV).view.loc (thr d L) ↦{Transfers.shareTokN q 8} f)
      ∗ ((tV).view.loc (thr d L) ↦{Transfers.shareTokN q 9} f)
      ∗ ((tV).view.loc (thr d L) ↦{Transfers.shareTokN q 10} f)
      ∗ ((tV).view.loc (thr d L) ↦{Transfers.shareTokN q 11} f)
      ∗ ((tV).view.loc (thr d L) ↦{Transfers.shareTokN q 12} f)
      ∗ ((tV).view.loc (thr d L) ↦{Transfers.shareTokN q 13} f)
      ∗ ((tV).view.loc (thr d L) ↦{Transfers.shareTokN q 14} f)
      ∗ ((tV).view.loc (thr d L) ↦{Transfers.shareTokN q 15} f)
      ∗ ((tV).view.loc (thr d L) ↦{Transfers.shareTokN q 16} f)
      ∗ ((tV).view.loc (thr d L) ↦{Transfers.shareTokN q 17} f)
      ∗ ((tV).view.loc (thr d L) ↦{Transfers.shareTokN q 18} f)
      ∗ ((tV).view.loc (thr d L) ↦{Transfers.shareTokN q 19} f)
      ∗ ((tV).view.loc (thr d L) ↦{Transfers.shareTokN q 20} f)
      ∗ ((tV).view.loc (thr d L) ↦{Transfers.shareTokN q 21} f)
      ∗ ((tV).view.loc (thr d L) ↦{Transfers.shareTokN q 22} f)
      ∗ ((tV).view.loc (thr d L) ↦{Transfers.shareTokN q 23} f)
      ∗ ((tV).view.loc (thr d L) ↦{Transfers.shareTokN q 24} f)
      ∗ ((tV).view.loc (thr d L) ↦{Transfers.shareTokN q 25} f)
      ∗ ((tV).view.loc (thr d L) ↦{Transfers.shareTokN q 26} f)
      ∗ ((tV).view.loc (thr d L) ↦{Transfers.shareTokN q 27} f)
      ∗ ((tV).view.loc (thr d L) ↦{Transfers.shareTokN q 28} f)
      ∗ ((tV).view.loc (thr d L) ↦{Transfers.shareTokN q 29} f)
      ∗ ((tV).view.loc (thr d L) ↦{Transfers.shareTokN q 30} f)
      ∗ ((tV).view.loc (thr d L) ↦{Transfers.shareTokN q 31} f)) := by
  have h := (Transfers.pointsTo_toks_range (Ix := HIx 1) (Name := ℕ) (U := UU) (Lvl := ℕ) (ℓ := tLoc d) (S := Finset.univ) (f := f) q 32).1
  rw [show Finset.range 32 = {0, 1, 2, 3, 4, 5, 6, 7, 8, 9, 10, 11, 12, 13, 14, 15, 16, 17, 18, 19, 20, 21, 22, 23, 24, 25, 26, 27, 28, 29, 30, 31} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  exact h

/-! ## The task, from what the launch deals it to what it hands back -/

theorem tile_body (hT : TileSpec (F := F)) (hF : (K (F := F)).Facts)
    (hidx : ∀ (d : Dev nD) (j : S16384.Idx), (m (iLoc d) j).toNat ≤ 999999)
    (c : Fin 2) (i : Fin 16) (O : CellTallies nD τ sig (HIx 1)) (W : Waits sig (HIx 1)) (hO : ∀ g, O g none = 0) :
    iprop(levAts (K (F := F)).L (K (F := F)).lev ∗ emp ∗ goF m d c i
        ∗ scopedBufs (thr d (LL c i)) ∗ scopedSems0 (thr d (LL c i)) ∗ owes (thr d (LL c i)) O W)
      ⊢ wp frame (wpE (defs₀ (F := F)) 𝒱₀ (thr d (LL c i)) none) Set.univ (tileProg (F := F) (LL c i))
          fun _ => iprop(tdF m d c i ∗ scopedBufs (thr d (LL c i)) ∗ scopedSems0 (thr d (LL c i))
            ∗ ∃ W', ⌜∀ p ∈ W', p ∈ W ∨ p.2 = none ∨ p.2 = some (0 : Fin 1)⌝ ∗ owes (thr d (LL c i)) O W') := by
  rw [(K (F := F)).scopedBufs_V hF d (cV (LL c i)) (jV (LL c i)), SparseCore.Cfg.scopedSems0_V (Val := Elt F) d (cV (LL c i)) (jV (LL c i)),
    ownSems0_V, ownBufs_V]
  unfold goF tdF
  iintro ⟨#Hlv, -, ⟨Hi, Ht, Ho⟩, ⟨⟨%f0, H0⟩, ⟨%f1, H1⟩, ⟨%f2, H2⟩, ⟨%f3, H3⟩, ⟨%f4, H4⟩, Hbufs⟩, ⟨HsA, HsB, HsC, HsD, Hsems⟩, HO⟩
  ihave Hmw := (show levAts (K (F := F)).L (K (F := F)).lev ⊢ Transfers.MayWaits (thr d (LL c i)) (none : HIx 1) O from
    (K (F := F)).mayWaits_none (thr := thr d (LL c i)) hO) $$ Hlv
  -- the ring as its slots, each in the program's spelling; the table share as read tokens
  ihave H4' := (Entails.of_eq ((ring_blocks (F := F) d (LL c i) f4).trans (bigSep_slots _))) $$ H4
  icases H4' with ⟨⟨A0, A1, A2, A3, A4, A5, A6, A7, A8, A9, A10, A11, A12, A13, A14, A15⟩, ⟨B0, B1, B2, B3, B4, B5, B6, B7, B8, B9, B10, B11, B12, B13, B14, B15⟩⟩
  ihave A0 := (Entails.of_eq (pts_slot0_0 (F := F) d (LL c i) f4).symm) $$ A0
  ihave A1 := (Entails.of_eq (pts_slot0_1 (F := F) d (LL c i) f4).symm) $$ A1
  ihave A2 := (Entails.of_eq (pts_slot0_2 (F := F) d (LL c i) f4).symm) $$ A2
  ihave A3 := (Entails.of_eq (pts_slot0_3 (F := F) d (LL c i) f4).symm) $$ A3
  ihave A4 := (Entails.of_eq (pts_slot0_4 (F := F) d (LL c i) f4).symm) $$ A4
  ihave A5 := (Entails.of_eq (pts_slot0_5 (F := F) d (LL c i) f4).symm) $$ A5
  ihave A6 := (Entails.of_eq (pts_slot0_6 (F := F) d (LL c i) f4).symm) $$ A6
  ihave A7 := (Entails.of_eq (pts_slot0_7 (F := F) d (LL c i) f4).symm) $$ A7
  ihave A8 := (Entails.of_eq (pts_slot0_8 (F := F) d (LL c i) f4).symm) $$ A8
  ihave A9 := (Entails.of_eq (pts_slot0_9 (F := F) d (LL c i) f4).symm) $$ A9
  ihave A10 := (Entails.of_eq (pts_slot0_10 (F := F) d (LL c i) f4).symm) $$ A10
  ihave A11 := (Entails.of_eq (pts_slot0_11 (F := F) d (LL c i) f4).symm) $$ A11
  ihave A12 := (Entails.of_eq (pts_slot0_12 (F := F) d (LL c i) f4).symm) $$ A12
  ihave A13 := (Entails.of_eq (pts_slot0_13 (F := F) d (LL c i) f4).symm) $$ A13
  ihave A14 := (Entails.of_eq (pts_slot0_14 (F := F) d (LL c i) f4).symm) $$ A14
  ihave A15 := (Entails.of_eq (pts_slot0_15 (F := F) d (LL c i) f4).symm) $$ A15
  ihave B0 := (Entails.of_eq (pts_slot1_0 (F := F) d (LL c i) f4).symm) $$ B0
  ihave B1 := (Entails.of_eq (pts_slot1_1 (F := F) d (LL c i) f4).symm) $$ B1
  ihave B2 := (Entails.of_eq (pts_slot1_2 (F := F) d (LL c i) f4).symm) $$ B2
  ihave B3 := (Entails.of_eq (pts_slot1_3 (F := F) d (LL c i) f4).symm) $$ B3
  ihave B4 := (Entails.of_eq (pts_slot1_4 (F := F) d (LL c i) f4).symm) $$ B4
  ihave B5 := (Entails.of_eq (pts_slot1_5 (F := F) d (LL c i) f4).symm) $$ B5
  ihave B6 := (Entails.of_eq (pts_slot1_6 (F := F) d (LL c i) f4).symm) $$ B6
  ihave B7 := (Entails.of_eq (pts_slot1_7 (F := F) d (LL c i) f4).symm) $$ B7
  ihave B8 := (Entails.of_eq (pts_slot1_8 (F := F) d (LL c i) f4).symm) $$ B8
  ihave B9 := (Entails.of_eq (pts_slot1_9 (F := F) d (LL c i) f4).symm) $$ B9
  ihave B10 := (Entails.of_eq (pts_slot1_10 (F := F) d (LL c i) f4).symm) $$ B10
  ihave B11 := (Entails.of_eq (pts_slot1_11 (F := F) d (LL c i) f4).symm) $$ B11
  ihave B12 := (Entails.of_eq (pts_slot1_12 (F := F) d (LL c i) f4).symm) $$ B12
  ihave B13 := (Entails.of_eq (pts_slot1_13 (F := F) d (LL c i) f4).symm) $$ B13
  ihave B14 := (Entails.of_eq (pts_slot1_14 (F := F) d (LL c i) f4).symm) $$ B14
  ihave B15 := (Entails.of_eq (pts_slot1_15 (F := F) d (LL c i) f4).symm) $$ B15
  ihave Ht' := (tToks d (LL c i) (qT c i) (fT m d)) $$ Ht
  icases Ht' with ⟨-, T0, T1, T2, T3, T4, T5, T6, T7, T8, T9, T10, T11, T12, T13, T14, T15, T16, T17, T18, T19, T20, T21, T22, T23, T24, T25, T26, T27, T28, T29, T30, T31⟩
  iapply (wp_wand_r Idealize.ShloMosaic.frame (wpE (defs₀ (F := F)) 𝒱₀ (thr d (LL c i)) none) Set.univ)
  isplitl [Hi Ho H0 H1 H2 H3 A0 A1 A2 A3 A4 A5 A6 A7 A8 A9 A10 A11 A12 A13 A14 A15 B0 B1 B2 B3 B4 B5 B6 B7 B8 B9 B10 B11 B12 B13 B14 B15 T0 T1 T2 T3 T4 T5 T6 T7 T8 T9 T10 T11 T12 T13 T14 T15 T16 T17 T18 T19 T20 T21 T22 T23 T24 T25 T26 T27 T28 T29 T30 T31 HsA HsB HsC HsD HO]
  · iapply (hT d (LL c i) (qT c i) O W hO (fI m d) (fT m d) (fO m d) f0 f1 f2 f3 f4 (hidx d))
    unfold tilePre
    isplitr; · iexact Hmw
    isplitl [Hi]; · iexact Hi
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    isplitl [T25]; · iexact T25
    isplitl [T26]; · iexact T26
    isplitl [T27]; · iexact T27
    isplitl [T28]; · iexact T28
    isplitl [T29]; · iexact T29
    isplitl [T30]; · iexact T30
    isplitl [T31]; · iexact T31
    isplitl [Ho]; · iexact Ho
    isplitl [H0]; · iexact H0
    isplitl [H1]; · iexact H1
    isplitl [H2]; · iexact H2
    isplitl [H3]; · iexact H3
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [HsA]; · iexact HsA
    isplitl [HsB]; · iexact HsB
    isplitl [HsC]; · iexact HsC
    isplitl [HsD]; · iexact HsD
    iexact HO
  unfold tilePost
  iintro %_ ⟨Hi, Ho, ⟨%g0, H0⟩, ⟨%g1, H1⟩, ⟨%g2, H2⟩, ⟨%g3, H3⟩, ⟨%a0, A0⟩, ⟨%a1, A1⟩, ⟨%a2, A2⟩, ⟨%a3, A3⟩, ⟨%a4, A4⟩, ⟨%a5, A5⟩, ⟨%a6, A6⟩, ⟨%a7, A7⟩, ⟨%a8, A8⟩, ⟨%a9, A9⟩, ⟨%a10, A10⟩, ⟨%a11, A11⟩, ⟨%a12, A12⟩, ⟨%a13, A13⟩, ⟨%a14, A14⟩, ⟨%a15, A15⟩, ⟨%b0, B0⟩, ⟨%b1, B1⟩, ⟨%b2, B2⟩, ⟨%b3, B3⟩, ⟨%b4, B4⟩, ⟨%b5, B5⟩, ⟨%b6, B6⟩, ⟨%b7, B7⟩, ⟨%b8, B8⟩, ⟨%b9, B9⟩, ⟨%b10, B10⟩, ⟨%b11, B11⟩, ⟨%b12, B12⟩, ⟨%b13, B13⟩, ⟨%b14, B14⟩, ⟨%b15, B15⟩, HsA, HsB, HsC, HsD, ⟨%W', %hW', HO⟩⟩
  ihave A0 := (Entails.of_eq (pts_slot0_0 (F := F) d (LL c i) a0)) $$ A0
  ihave A1 := (Entails.of_eq (pts_slot0_1 (F := F) d (LL c i) a1)) $$ A1
  ihave A2 := (Entails.of_eq (pts_slot0_2 (F := F) d (LL c i) a2)) $$ A2
  ihave A3 := (Entails.of_eq (pts_slot0_3 (F := F) d (LL c i) a3)) $$ A3
  ihave A4 := (Entails.of_eq (pts_slot0_4 (F := F) d (LL c i) a4)) $$ A4
  ihave A5 := (Entails.of_eq (pts_slot0_5 (F := F) d (LL c i) a5)) $$ A5
  ihave A6 := (Entails.of_eq (pts_slot0_6 (F := F) d (LL c i) a6)) $$ A6
  ihave A7 := (Entails.of_eq (pts_slot0_7 (F := F) d (LL c i) a7)) $$ A7
  ihave A8 := (Entails.of_eq (pts_slot0_8 (F := F) d (LL c i) a8)) $$ A8
  ihave A9 := (Entails.of_eq (pts_slot0_9 (F := F) d (LL c i) a9)) $$ A9
  ihave A10 := (Entails.of_eq (pts_slot0_10 (F := F) d (LL c i) a10)) $$ A10
  ihave A11 := (Entails.of_eq (pts_slot0_11 (F := F) d (LL c i) a11)) $$ A11
  ihave A12 := (Entails.of_eq (pts_slot0_12 (F := F) d (LL c i) a12)) $$ A12
  ihave A13 := (Entails.of_eq (pts_slot0_13 (F := F) d (LL c i) a13)) $$ A13
  ihave A14 := (Entails.of_eq (pts_slot0_14 (F := F) d (LL c i) a14)) $$ A14
  ihave A15 := (Entails.of_eq (pts_slot0_15 (F := F) d (LL c i) a15)) $$ A15
  ihave B0 := (Entails.of_eq (pts_slot1_0 (F := F) d (LL c i) b0)) $$ B0
  ihave B1 := (Entails.of_eq (pts_slot1_1 (F := F) d (LL c i) b1)) $$ B1
  ihave B2 := (Entails.of_eq (pts_slot1_2 (F := F) d (LL c i) b2)) $$ B2
  ihave B3 := (Entails.of_eq (pts_slot1_3 (F := F) d (LL c i) b3)) $$ B3
  ihave B4 := (Entails.of_eq (pts_slot1_4 (F := F) d (LL c i) b4)) $$ B4
  ihave B5 := (Entails.of_eq (pts_slot1_5 (F := F) d (LL c i) b5)) $$ B5
  ihave B6 := (Entails.of_eq (pts_slot1_6 (F := F) d (LL c i) b6)) $$ B6
  ihave B7 := (Entails.of_eq (pts_slot1_7 (F := F) d (LL c i) b7)) $$ B7
  ihave B8 := (Entails.of_eq (pts_slot1_8 (F := F) d (LL c i) b8)) $$ B8
  ihave B9 := (Entails.of_eq (pts_slot1_9 (F := F) d (LL c i) b9)) $$ B9
  ihave B10 := (Entails.of_eq (pts_slot1_10 (F := F) d (LL c i) b10)) $$ B10
  ihave B11 := (Entails.of_eq (pts_slot1_11 (F := F) d (LL c i) b11)) $$ B11
  ihave B12 := (Entails.of_eq (pts_slot1_12 (F := F) d (LL c i) b12)) $$ B12
  ihave B13 := (Entails.of_eq (pts_slot1_13 (F := F) d (LL c i) b13)) $$ B13
  ihave B14 := (Entails.of_eq (pts_slot1_14 (F := F) d (LL c i) b14)) $$ B14
  ihave B15 := (Entails.of_eq (pts_slot1_15 (F := F) d (LL c i) b15)) $$ B15
  isplitl [Hi Ho]
  · isplitl [Hi]; · iexact Hi
    iexact Ho
  isplitl [H0 H1 H2 H3 A0 A1 A2 A3 A4 A5 A6 A7 A8 A9 A10 A11 A12 A13 A14 A15 B0 B1 B2 B3 B4 B5 B6 B7 B8 B9 B10 B11 B12 B13 B14 B15 Hbufs]
  · isplitl [H0]; · iexists _; iexact H0
    isplitl [H1]; · iexists _; iexact H1
    isplitl [H2]; · iexists _; iexact H2
    isplitl [H3]; · iexists _; iexact H3
    isplitl [A0 A1 A2 A3 A4 A5 A6 A7 A8 A9 A10 A11 A12 A13 A14 A15 B0 B1 B2 B3 B4 B5 B6 B7 B8 B9 B10 B11 B12 B13 B14 B15]
    · iapply (ring_join (F := F) d (LL c i) f4)
      isplitl [A0 A1 A2 A3 A4 A5 A6 A7 A8 A9 A10 A11 A12 A13 A14 A15]
      · isplitl [A0]; · iexists _; iexact A0
        isplitl [A1]; · iexists _; iexact A1
        isplitl [A2]; · iexists _; iexact A2
        isplitl [A3]; · iexists _; iexact A3
        isplitl [A4]; · iexists _; iexact A4
        isplitl [A5]; · iexists _; iexact A5
        isplitl [A6]; · iexists _; iexact A6
        isplitl [A7]; · iexists _; iexact A7
        isplitl [A8]; · iexists _; iexact A8
        isplitl [A9]; · iexists _; iexact A9
        isplitl [A10]; · iexists _; iexact A10
        isplitl [A11]; · iexists _; iexact A11
        isplitl [A12]; · iexists _; iexact A12
        isplitl [A13]; · iexists _; iexact A13
        isplitl [A14]; · iexists _; iexact A14
        iexists _; iexact A15
      · isplitl [B0]; · iexists _; iexact B0
        isplitl [B1]; · iexists _; iexact B1
        isplitl [B2]; · iexists _; iexact B2
        isplitl [B3]; · iexists _; iexact B3
        isplitl [B4]; · iexists _; iexact B4
        isplitl [B5]; · iexists _; iexact B5
        isplitl [B6]; · iexists _; iexact B6
        isplitl [B7]; · iexists _; iexact B7
        isplitl [B8]; · iexists _; iexact B8
        isplitl [B9]; · iexists _; iexact B9
        isplitl [B10]; · iexists _; iexact B10
        isplitl [B11]; · iexists _; iexact B11
        isplitl [B12]; · iexists _; iexact B12
        isplitl [B13]; · iexists _; iexact B13
        isplitl [B14]; · iexists _; iexact B14
        iexists _; iexact B15
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists W'; isplitr
  · ipureintro; exact fun p hp => (hW' p hp).imp_right Or.inl
  · iexact HO

end Tile

/-! ## The launch theorem's obligation -/

theorem defs₀_vector (c : Fin τ.nSC) (s : Fin τ.nSub) :
    defs₀ (F := F) (.scVector c s) 0 ()
      = SparseCore.onTile hcore0 hsub0 (fun c s => cc0__body (F := F) (coordsV c s)
          iV (Memref.isWhole_whole _) tV (Memref.isWhole_whole _) oV (Memref.isWhole_whole _)
          s0 (Memref.isWhole_whole _) s1 (Memref.isWhole_whole _) s2 (Memref.isWhole_whole _) s3 (Memref.isWhole_whole _)
          s4 (Memref.isWhole_whole _) cc0_scratch5 cc0_scratch6 cc0_scoped0 cc0_scoped1) ⟨⟩ c s := rfl

theorem tileObl (hT : TileSpec (F := F)) (hF : (K (F := F)).Facts)
    (hidx : ∀ (d : Dev nD) (j : S16384.Idx), (m (iLoc d) j).toNat ≤ 999999) :
    (K (F := F)).TileObl (D (F := F)) 𝒱 (P m) v₀ 0 := by
  intro d c i O W hO _ _
  -- this kernel owes nothing for a protocol of its own
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d hT hF hidx c i O W hO

end Cert.KILaunch

end
-- ==== Proof.Launch.Main.lean ====
import proofs.«207235_g30958124269674_cont_8to1_b_889_24_alg».proof.Proof.Launch.Base

/-! @main on the TensorCore, the launch element, and how the final memory reads the claim.

    @main copies the table twice (two identity host operations), hands the index array, the second copy and the output
    to the two cores — each array cut into the thirty-two tasks' runs, the copy of the table into read shares — and
    takes the runs back: the index array whole at its launch contents, the output whole at contents that hold, in
    every task's run, the rows its indices name. -/

noncomputable section

namespace Cert.KILaunch

open Cert.KernelIdeal Cert.KernelIdeal.Gen
open Cert.KITile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## The thirty-two runs partition the index array and the output -/

omit [FloatOps F] in
theorem runOf_LL (c : Fin 2) (i : Fin 16) : (runOf (LL c i)).val = 2 * i.val + c.val := rfl

omit [FloatOps F] in
theorem runOf_injective : ∀ p p' : Fin 2 × Fin 16, p ≠ p' → runOf (LL p.1 p.2) ≠ runOf (LL p'.1 p'.2) := by
  intro p p' h e
  have e' := congrArg Fin.val e
  rw [runOf_LL, runOf_LL] at e'
  have h1 := p.1.isLt; have h2 := p'.1.isLt
  exact h (Prod.ext (Fin.ext (by omega)) (Fin.ext (by omega)))

omit [FloatOps F] in
theorem runOf_surjective (t : Fin 32) : ∃ p : Fin 2 × Fin 16, runOf (LL p.1 p.2) = t :=
  ⟨(⟨t.val % 2, Nat.mod_lt _ (by decide)⟩, ⟨t.val / 2, by have := t.isLt; omega⟩), Fin.ext (by rw [runOf_LL]; show 2 * (t.val / 2) + t.val % 2 = t.val; omega)⟩

/-- The runs of the index array and of the output, by task. -/
abbrev KI (p : Fin 2 × Fin 16) : Finset S16384.Idx := (iRow (LL p.1 p.2)).view.set
abbrev KO (p : Fin 2 × Fin 16) : Finset S16384x64.Idx := (oRow (LL p.1 p.2)).view.set

theorem KI_disjoint : ∀ p p' : Fin 2 × Fin 16, p ≠ p' → Disjoint (KI p) (KI p') := by
  intro p p' h
  show Disjoint (iRow (LL p.1 p.2)).view.set (iRow (LL p'.1 p'.2)).view.set
  rw [set_iRow, set_iRow]; exact Rect.part_disjoint hdivI (runOf_injective p p' h)
theorem KO_disjoint : ∀ p p' : Fin 2 × Fin 16, p ≠ p' → Disjoint (KO p) (KO p') := by
  intro p p' h
  show Disjoint (oRow (LL p.1 p.2)).view.set (oRow (LL p'.1 p'.2)).view.set
  rw [set_oRow, set_oRow]; exact Rect.part_disjoint hdivO (runOf_injective p p' h)
theorem KI_cover : (Finset.univ : Finset (Fin 2 × Fin 16)).biUnion KI = Finset.univ := by
  ext x
  simp only [Finset.mem_biUnion, Finset.mem_univ, true_and, iff_true]
  obtain ⟨t, ht⟩ := Rect.exists_mem_part hdivI x
  obtain ⟨p, hp⟩ := runOf_surjective t
  refine ⟨p, ?_⟩
  show x ∈ (iRow (LL p.1 p.2)).view.set
  rw [set_iRow, hp]; exact ht
theorem KO_cover : (Finset.univ : Finset (Fin 2 × Fin 16)).biUnion KO = Finset.univ := by
  ext x
  simp only [Finset.mem_biUnion, Finset.mem_univ, true_and, iff_true]
  obtain ⟨t, ht⟩ := Rect.exists_mem_part hdivO x
  obtain ⟨p, hp⟩ := runOf_surjective t
  refine ⟨p, ?_⟩
  show x ∈ (oRow (LL p.1 p.2)).view.set
  rw [set_oRow, hp]; exact ht

/-- The index array held whole is the tasks' runs of it held; -/
theorem iPts_tasks (d : Dev nD) (f : Buf (Elt F) (iLoc d)) :
    (iLoc d ↦{fullShare} f : sProp 𝕄) = bigSep Finset.univ fun p : Fin 2 × Fin 16 => iLoc d ↦[KI p]{fullShare} f := by
  rw [← pointsTo_biUnion Finset.univ (ℓ := iLoc d) KI (fun p _ p' _ h => KI_disjoint p p' h), KI_cover]; try rfl
/-- the output likewise. -/
theorem oPts_tasks (d : Dev nD) (f : Buf (Elt F) (oLoc d)) :
    (oLoc d ↦{fullShare} f : sProp 𝕄) = bigSep Finset.univ fun p : Fin 2 × Fin 16 => oLoc d ↦[KO p]{fullShare} f := by
  rw [← pointsTo_biUnion Finset.univ (ℓ := oLoc d) KO (fun p _ p' _ h => KO_disjoint p p' h), KO_cover]; try rfl

/-- The table held whole gives every task its read share (what is left over is dropped). -/
theorem tPts_tasks (d : Dev nD) (f : Buf (Elt F) (tLoc d)) :
    (tLoc d ↦{fullShare} f : sProp 𝕄) ⊢ bigSep Finset.univ fun p : Fin 2 × Fin 16 => tLoc d ↦{qT p.1 p.2} f := by
  rw [BI.bigSep_univ_prod (fun p : Fin 2 × Fin 16 => (tLoc d ↦{qT p.1 p.2} f : sProp 𝕄))]
  refine (Transfers.pointsTo_toks_split (ℓ := tLoc d) (S := Finset.univ) (f := f) fullShare 2).trans ?_
  iintro ⟨-, H⟩
  iapply (SparseCore.ent (bigSep_mono fun (c : Fin 2) _ =>
    show (tLoc d ↦{qC c} f : sProp 𝕄) ⊢ bigSep Finset.univ fun i : Fin 16 => tLoc d ↦{qT c i} f from
      (Transfers.pointsTo_toks_split (ℓ := tLoc d) (S := Finset.univ) (f := f) (qC c) 16).trans (by iintro ⟨-, H⟩; iexact H)))
  iexact H

/-! ## What the call hands over and takes back -/

theorem st0_eq (d : Dev nD) :
    (bigSep Finset.univ fun c : Fin ((K (F := F)).nCore 0) => (P m).st 0 d c)
      = iprop((bigSep Finset.univ fun p : Fin 2 × Fin 16 => iLoc d ↦[KI p]{fullShare} fI m d)
          ∗ (bigSep Finset.univ fun p : Fin 2 × Fin 16 => tLoc d ↦{qT p.1 p.2} fT m d)
          ∗ (bigSep Finset.univ fun p : Fin 2 × Fin 16 => oLoc d ↦[KO p]{fullShare} fO m d)) := by
  show (bigSep Finset.univ fun c : Fin 2 => bigSep Finset.univ fun i : Fin 16 => goF m d c i) = _
  rw [← BI.bigSep_univ_prod (fun p : Fin 2 × Fin 16 => goF m d p.1 p.2)]
  unfold goF
  rw [bigSep_sep', bigSep_sep']

/-- What every task's run of the output holds when the call is over. -/
def AllOK (d : Dev nD) (g : Buf (Elt F) (oLoc d)) : Prop := ∀ p : Fin 2 × Fin 16, RowsOK (LL p.1 p.2) (fI m d) (fT m d) g

/-- The tasks' runs, handed back, are the index array whole at its launch contents and the output whole at contents
    that hold, in every run, the rows the run's indices name. -/
theorem dn0_join (d : Dev nD) :
    (bigSep Finset.univ fun c : Fin ((K (F := F)).nCore 0) => (P m).dn 0 d c)
      ⊢ iprop((iLoc d ↦{fullShare} fI m d) ∗ ∃ g, ⌜AllOK m d g⌝ ∗ oLoc d ↦{fullShare} g) := by
  show (bigSep Finset.univ fun c : Fin 2 => bigSep Finset.univ fun i : Fin 16 => tdF m d c i) ⊢ _
  rw [← BI.bigSep_univ_prod (fun p : Fin 2 × Fin 16 => tdF m d p.1 p.2)]
  unfold tdF
  rw [bigSep_sep', ← iPts_tasks]
  haveI : Nonempty (Buf (Elt F) (oLoc d)) := ⟨m (oLoc d)⟩
  iintro ⟨Hi, Ho⟩
  isplitl [Hi]; · iexact Hi
  ihave Ho' := (bigSep_exists_pi Finset.univ (fun (p : Fin 2 × Fin 16) (fO' : Buf (Elt F) (oLoc d)) =>
    (iprop(⌜RowsOK (LL p.1 p.2) (fI m d) (fT m d) fO'⌝ ∗ oLoc d ↦[KO p]{fullShare} fO') : sProp 𝕄))) $$ Ho
  icases Ho' with ⟨%fs, Ho⟩
  ihave Ho' := (bigSep_pure_sep Finset.univ (fun p : Fin 2 × Fin 16 => RowsOK (LL p.1 p.2) (fI m d) (fT m d) (fs p))
    (fun p : Fin 2 × Fin 16 => (oLoc d ↦[KO p]{fullShare} fs p : sProp 𝕄))) $$ Ho
  icases Ho' with ⟨%hok, Ho⟩
  ihave Ho' := (pointsTo_biUnion_join (ℓ := oLoc d) (q := fullShare) (Val := Elt F) Finset.univ KO fs (m (oLoc d))
    (fun p _ p' _ h => KO_disjoint p p' h)) $$ Ho
  icases Ho' with ⟨%g, %hg, Ho⟩
  rw [KO_cover]
  iexists g
  isplitr
  · ipureintro
    intro p y h
    rw [hg p (Finset.mem_univ p) _ ((oRow (LL p.1 p.2)).view.emb_mem_set y)]
    exact hok p (Finset.mem_univ p) y h
  · iexact Ho

/-! ## @main on the TensorCore -/

abbrev zLoc (d : Dev nD) : Loc nD τ sig := (SparseCore.T d).loc main_v0

abbrev r0 : DevRef τ sig := Proc.devRef .tc (main_arg0 : Ref sig .tc)
abbrev r1 : DevRef τ sig := Proc.devRef .tc (main_arg1 : Ref sig .tc)
abbrev r2 : DevRef τ sig := Proc.devRef .tc (main_v0 : Ref sig .tc)
abbrev r3 : DevRef τ sig := Proc.devRef .tc (main_v1 : Ref sig .tc)
abbrev r4 : DevRef τ sig := Proc.devRef .tc (main_v2 : Ref sig .tc)
/-- The TensorCore's arrays, all unscoped. -/
abbrev S5 : Finset (DevRef τ sig) := {r0, r1, r2, r3, r4}

abbrev idT : (⟨S1000000x64, .f32⟩ : BufTy).Contents (Elt F) → (⟨S1000000x64, .f32⟩ : BufTy).Contents (Elt F) := id
/-- The two host operations: the table copied, and the copy copied. -/
abbrev op1 : HloOp τ sig (Elt F) := StableHlo.unary main_arg1 main_v0 (idT (F := F))
abbrev op2 : HloOp τ sig (Elt F) := StableHlo.unary main_v0 main_v1 (idT (F := F))

omit [FloatOps F] in
theorem held_S5 (d : Dev nD) (W : Valuation τ sig (Elt F)) :
    (held (T d) S5 W : sProp 𝕄) = iprop((iLoc d ↦{fullShare} W r0) ∗ (aLoc d ↦{fullShare} W r1) ∗ (zLoc d ↦{fullShare} W r2)
      ∗ (tLoc d ↦{fullShare} W r3) ∗ oLoc d ↦{fullShare} W r4) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (aLoc d ↦{fullShare} W main_arg1) ∗ (zLoc d ↦{fullShare} W main_v0)
      ∗ (tLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation, and the valuation after the two copies. -/
def V0 (d : Dev nD) : Valuation τ sig (Elt F) := fun b => m (d, b)
abbrev V1 (d : Dev nD) : Valuation τ sig (Elt F) := (op1 (F := F)).result (V0 m d)
abbrev V2 (d : Dev nD) : Valuation τ sig (Elt F) := (op2 (F := F)).result (V1 m d)

theorem unscoped_held (d : Dev nD) : (unscopedBufs d (fun b => m ((SparseCore.T d).loc b)) : sProp 𝕄) = held (T d) S5 (V0 m d) := by
  rw [unscopedBufs_eq, held_S5]; rfl

theorem V2_r0 (d : Dev nD) : V2 m d r0 = m (iLoc d) :=
  (StableHlo.unary_result_ne main_v0 main_v1 (idT (F := F)) _ _ (V1 m d) (r := main_arg0) (by decide)).trans
    (StableHlo.unary_result_ne main_arg1 main_v0 (idT (F := F)) _ _ (V0 m d) (r := main_arg0) (by decide))
theorem V2_r1 (d : Dev nD) : V2 m d r1 = m (aLoc d) :=
  (StableHlo.unary_result_ne main_v0 main_v1 (idT (F := F)) _ _ (V1 m d) (r := main_arg1) (by decide)).trans
    (StableHlo.unary_result_ne main_arg1 main_v0 (idT (F := F)) _ _ (V0 m d) (r := main_arg1) (by decide))
theorem V2_r3 (d : Dev nD) : V2 m d r3 = fT m d :=
  (StableHlo.unary_result main_v0 main_v1 (idT (F := F)) _ _ (V1 m d)).trans
    (StableHlo.unary_result main_arg1 main_v0 (idT (F := F)) _ _ (V0 m d))
theorem V2_r4 (d : Dev nD) : V2 m d r4 = m (oLoc d) :=
  (StableHlo.unary_result_ne main_v0 main_v1 (idT (F := F)) _ _ (V1 m d) (r := main_v2) (by decide)).trans
    (StableHlo.unary_result_ne main_arg1 main_v0 (idT (F := F)) _ _ (V0 m d) (r := main_v2) (by decide))

theorem hop1 : (op1 (F := F)).bufs ⊆ S5 := show ({r1, r2} : Finset (DevRef τ sig)) ⊆ S5 by decide
theorem hop2 : (op2 (F := F)).bufs ⊆ S5 := show ({r2, r3} : Finset (DevRef τ sig)) ⊆ S5 by decide

/-- What @main leaves the claim: the index array and the table at their launch contents, the output at contents that
    hold, in every task's run, the rows the run's indices name. -/
abbrev FIN (d : Dev nD) : sProp 𝕄 :=
  iprop((iLoc d ↦{fullShare} m (iLoc d)) ∗ (aLoc d ↦{fullShare} m (aLoc d)) ∗ ∃ g, ⌜AllOK m d g⌝ ∗ oLoc d ↦{fullShare} g)

/-- @main on device `d`'s TensorCore: the two copies, then the call — the index array, the second copy and the output
    out by task, the index array and the output back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two copies
  iapply (wp_hlo_within 𝒱 (SparseCore.T d) none Set.univ (op := op1 (F := F)) (S := S5) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2 (F := F)) (S := S5) hop2 (V := V1 m d)) $$ [Hb Hheld]
  · isplitl [Hb]; · iexact Hb
    iexact Hheld
  iintro ⟨Hb, Hheld⟩
  rw [wp_ret]; imodintro
  ihave Hh := (Entails.of_eq (held_S5 (F := F) d (V2 m d))) $$ Hheld
  rw [V2_r0, V2_r1, V2_r3, V2_r4]
  icases Hh with ⟨Hi, Ha, -, Ht, Ho⟩
  -- the call: each array out by task, the index array and the output back
  ihave Hi' := (Entails.of_eq (iPts_tasks (F := F) d (m (iLoc d)))) $$ Hi
  ihave Ht' := (tPts_tasks (F := F) d (fT m d)) $$ Ht
  ihave Ho' := (Entails.of_eq (oPts_tasks (F := F) d (m (oLoc d)))) $$ Ho
  iapply ((K (F := F)).wp_run (D (F := F)) 𝒱 (EH := EH) (P := P m) κ d 0) $$ [Hst Hi' Ht' Ho' Ha]
  isplitr; · iexact Hctx
  isplitl [Hst]; · iexact Hst
  isplitl [Hi' Ht' Ho']
  · rw [st0_eq]
    isplitl [Hi']; · iexact Hi'
    isplitl [Ht']; · iexact Ht'
    iexact Ho'
  iintro ⟨Hst, Hdn⟩
  ihave Hdn' := (dn0_join m d) $$ Hdn
  icases Hdn' with ⟨Hi, Ho⟩
  imodintro
  isplitl [Hst]; · iexact Hst
  isplitl [Hi]; · iexact Hi
  isplitl [Ha]; · iexact Ha
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The final memory reads the claim -/

def fq (d : Dev nD) (s' : Phys nD τ sig (Elt F)) : Prop :=
  s'.mem.mem (iLoc d) = m (iLoc d) ∧ s'.mem.mem (aLoc d) = m (aLoc d) ∧ AllOK m d (s'.mem.mem (oLoc d))

theorem hfin (d : Dev nD) (s' : Phys nD τ sig (Elt F)) : iprop(FIN m d ∗ SI s') ⊢ (⌜fq m d s'⌝ : sProp 𝕄) := by
  iintro ⟨⟨Hi, Ha, %g, %hg, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := g)) $$ [HSI Ho]
  · isplitl [HSI] <;> iassumption
  icases H with %h3
  ipureintro
  have e3 : s'.mem.mem (oLoc d) = g := funext fun i => h3 i (Finset.mem_univ i)
  exact ⟨funext fun i => h1 i (Finset.mem_univ i), funext fun i => h2 i (Finset.mem_univ i), e3 ▸ hg⟩

end Cert.KILaunch

end
-- ==== Proof.Launch.lean ====
import proofs.«207235_g30958124269674_cont_8to1_b_889_24_alg».proof.Proof.Launch.Tile
import proofs.«207235_g30958124269674_cont_8to1_b_889_24_alg».proof.Proof.Launch.Main

/-! The run of the whole program, from the statement of one vector subcore's task: every fair execution of @main, the
    two sequencers and the thirty-two vector subcores ends, nothing faulting; the index array and the table end
    unchanged, and row `j` of the result is row `idx[j]` of the table.

    Row `j` lies in the run of exactly one task — the one numbered `j / 512` — at place `j % 512`; what that task
    leaves there is what the claim says of row `j`. -/

noncomputable section

namespace Cert.KILaunch

open Cert.KernelIdeal Cert.KernelIdeal.Gen
open Cert.KITile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- What a task's run of the output holds, said of the rows of the whole output. -/
theorem row_of_ok (L : grid0.Coords) (fI : S16384.Idx → BitVec 32) (fT : S1000000x64.Idx → Elt F .f32) (g : S16384x64.Idx → Elt F .f32)
    (hok : RowsOK L fI fT g) (j : S16384.Idx) (col : Fin 64) (hj : (j 0).val / 512 = (runOf L).val) (h : (fI j).toNat < 1000000) :
    g (ValueIdx.ix2 (j 0) col) = fT (ValueIdx.ix2 ⟨_, h⟩ col) := by
  have hj' : (j 0).val / 512 = 2 * (L 1).val + (L 0).val := hj
  let y : S512x64.Idx := ValueIdx.ix2 (⟨(j 0).val % 512, Nat.mod_lt _ (by decide)⟩ : Fin 512) col
  have e1 : (iRow L).view.emb (ValueIdx.ix1 (y 0)) = j := by
    funext a; refine Fin.ext ?_
    match a with
    | ⟨0, _⟩ =>
      show (k0_off1 L) 0 + 1 * ((j 0).val % 512) = (j 0).val
      rw [k0_off1_eq]; simp only [Matrix.cons_val_zero]; omega
  have e2 : (oRow L).view.emb y = ValueIdx.ix2 (j 0) col := by
    funext a; refine Fin.ext ?_
    match a with
    | ⟨0, _⟩ =>
      show (k0_off326 L) 0 + 1 * ((j 0).val % 512) = (j 0).val
      rw [k0_off326_eq]; simp only [Matrix.cons_val_zero]; omega
    | ⟨1, _⟩ =>
      show (k0_off326 L) 1 + 1 * col.val = col.val
      rw [k0_off326_eq]; simp
  have key : ∀ (j' : S16384.Idx) (_ : j' = j) (h' : (fI j').toNat < 1000000),
      fT (ValueIdx.ix2 ⟨_, h'⟩ col) = fT (ValueIdx.ix2 ⟨_, h⟩ col) := by
    intro j' e h'; subst e; rfl
  have h0 := hok y (e1.symm ▸ h)
  rw [e2] at h0
  exact h0.trans (key _ e1 _)

variable (m : (ℓ : Loc nD τ sig) → Buf (Elt F) ℓ) (ρ : Dev nD → PrngReg)

/-- The claim: on every device, row `j` of the result is row `idx[j]` of the table, and the index array and the table
    are unchanged. -/
def QC : PUnit × MemSt nD τ sig (Elt F) → Prop := fun r => ∀ c : Dev nD,
  (∀ (j : S16384.Idx) (col : Fin 64) (h : (m ((c.tc : Thread nD τ).loc main_arg0) j).toNat < 1000000),
      r.2.mem ((c.tc : Thread nD τ).loc main_v2) (ValueIdx.ix2 (j 0) col)
        = m ((c.tc : Thread nD τ).loc main_arg1) (ValueIdx.ix2 ⟨_, h⟩ col))
  ∧ r.2.mem ((c.tc : Thread nD τ).loc main_arg0) = m ((c.tc : Thread nD τ).loc main_arg0)
  ∧ r.2.mem ((c.tc : Thread nD τ).loc main_arg1) = m ((c.tc : Thread nD τ).loc main_arg1)

theorem hQ (s' : Phys nD τ sig (Elt F)) (h : ∀ d, fq m d s') : QC m (⟨⟩, s'.mem) := by
  intro c
  obtain ⟨h1, h2, h3⟩ := h c
  refine ⟨fun j col hh => ?_, h1, h2⟩
  obtain ⟨p, hp⟩ := runOf_surjective ⟨(j 0).val / 512, by have : (j 0).val < 16384 := (j 0).isLt; omega⟩
  exact row_of_ok (LL p.1 p.2) _ _ _ (h3 p) j col (by rw [hp]) hh

theorem run_main [∀ e, Nonempty (Elt F e)] (hT : Cert.KITile.TileSpec (F := F))
    (m : (ℓ : Loc nD τ sig) → Buf (Elt F) ℓ) (ρ : Dev nD → PrngReg)
    (hidx : ∀ (c : Dev nD) (j : S16384.Idx), (m ((c.tc : Thread nD τ).loc main_arg0) j).toNat ≤ 999999) :
    θ_run (Cert.KernelIdeal.defs (F := F)) (Cert.KernelIdeal.threads (F := F)) ⟨m, fun _ => 0, ρ⟩ (fun r => ∀ c : Dev nD,
      (∀ (j : S16384.Idx) (col : Fin 64) (h : (m ((c.tc : Thread nD τ).loc main_arg0) j).toNat < 1000000),
          r.2.mem ((c.tc : Thread nD τ).loc main_v2) (ValueIdx.ix2 (j 0) col)
            = m ((c.tc : Thread nD τ).loc main_arg1) (ValueIdx.ix2 ⟨_, h⟩ col))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m hT facts hidx)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (hQ m)

end Cert.KILaunch

end
-- ==== Proof.LaunchK.Base.lean ====
import proofs.«207235_g30958124269674_cont_8to1_b_889_24_alg».proof.Proof.TileSpecK
import Idealize.ShloMosaic.Lib.StableHlo.Run
import Idealize.ShloMosaic.Lib.Ring

/-! The launch of the lookup: from the statement of one vector subcore's task (`TileSpec`) to the run of the whole
    program.

    The thirty-two tasks split the 16384 indices and the 16384 output rows into runs of 512; the table, which every
    task reads whole, goes out as read shares. @main makes two identity copies of the table, hands the index array,
    the copy of the table and the output to the two cores, and takes the index array and the output back; the final
    memory is read off what it then holds. -/

noncomputable section

namespace Cert.KLaunch

open Cert.Kernel Cert.Kernel.Gen
open Cert.KTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

abbrev D [FloatOps F] : Defs nD τ sig (Elt F) (ΛP (F := F)) := Pipeline.defs pcfgs defs₀
abbrev 𝒱 : Variants := 𝒱₀.lift
abbrev v₀ : 𝒱.V := Sum.inl none

/-- The table as @main is given it. -/
abbrev aLoc (d : Dev nD) : Loc nD τ sig := (SparseCore.T d).loc main_arg1

/-! ## The program as the launch theorem sees it -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the left factor of the ghost state; the copies' counters are found in the right. -/
abbrev EH : Emb UH (MT nD τ sig (HIx 1) (Elt F) ℕ UU ℕ) := embL

/-! ## The tasks and their runs -/

/-- The coordinates of the task on subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

abbrev LL (c : Fin 2) (i : Fin 16) : grid0.Coords := coordsV ⟨c.val, c.isLt⟩ ⟨i.val, i.isLt⟩

/-- The number of the run the task at `L` works on: `2 s + c`. -/
def runOf (L : grid0.Coords) : Fin 32 := ⟨2 * (L 1).val + (L 0).val, by
  have h0 : (L 0).val < 2 := (L 0).isLt
  have h1 : (L 1).val < 16 := (L 1).isLt
  omega⟩

theorem hdivI : 32 ∣ S16384.size 0 := ⟨512, rfl⟩
theorem hdivO : 32 ∣ S16384x64.size 0 := ⟨512, rfl⟩
/-- Run `t` of the index array: entries `[512 t, 512 t + 512)`; of the output: the same rows. -/
abbrev partI (t : Fin 32) : Rect S16384 := Rect.part (s := S16384) (a₀ := 0) hdivI t
abbrev partO (t : Fin 32) : Rect S16384x64 := Rect.part (s := S16384x64) (a₀ := 0) hdivO t

theorem iRect_eq (L : grid0.Coords) :
    Rect.unit (s := S16384) (k0_off1 L) S512.size (k0_off1_inb L) = partI (runOf L) := by
  unfold partI Rect.part Rect.block
  congr 1 <;> funext a
  · rw [k0_off1_eq]
    match a with
    | 0 => simp [Shape.partIx, Shape.partSize, runOf]; omega
  · match a with
    | 0 => simp [Shape.partSize]

theorem oRect_eq (L : grid0.Coords) :
    Rect.unit (s := S16384x64) (k0_off326 L) S512x64.size (k0_off326_inb L) = partO (runOf L) := by
  unfold partO Rect.part Rect.block
  congr 1 <;> funext a
  · rw [k0_off326_eq]
    match a with
    | 0 => simp [Shape.partIx, Shape.partSize, runOf]; omega
    | 1 => simp [Shape.partIx, Shape.partSize]
  · match a with
    | 0 => simp [Shape.partSize]
    | 1 => simp [Shape.partSize]

variable [FloatOps F]

theorem set_iRow (L : grid0.Coords) : (iRow L).view.set = (partI (runOf L)).set := by
  show ((iV).view.slice (Rect.unit (s := S16384) (k0_off1 L) S512.size (k0_off1_inb L))).set = _
  rw [iRect_eq, View.set_slice]; exact Finset.map_refl
theorem set_oRow (L : grid0.Coords) : (oRow L).view.set = (partO (runOf L)).set := by
  show ((oV).view.slice (Rect.unit (s := S16384x64) (k0_off326 L) S512x64.size (k0_off326_inb L))).set = _
  rw [oRect_eq, View.set_slice]; exact Finset.map_refl

/-! ## What the handshakes carry -/

variable (m : (ℓ : Loc nD τ sig) → Buf (Elt F) ℓ)

/-- The launch contents of the index array, of the table (which the kernel reads in @main's second copy) and of the
    output. -/
abbrev fI (d : Dev nD) : Buf (Elt F) (iLoc d) := m (iLoc d)
abbrev fT (d : Dev nD) : Buf (Elt F) (tLoc d) := m (aLoc d)
abbrev fO (d : Dev nD) : Buf (Elt F) (oLoc d) := m (oLoc d)

/-- The read share of the table core `c` is handed, and of it the share of its subcore `i`. -/
abbrev qC (c : Fin 2) : PosShare TreeShare := Transfers.shareTokN fullShare c.val
abbrev qT (c : Fin 2) (i : Fin 16) : PosShare TreeShare := Transfers.shareTokN (qC c) i.val

/-- What a task is handed: its run of the index array, its read share of the table, its run of the output. -/
def goF (d : Dev nD) (c : Fin 2) (i : Fin 16) : sProp 𝕄 :=
  iprop((iLoc d ↦[(iRow (LL c i)).view.set]{fullShare} fI m d)
    ∗ (tLoc d ↦{qT c i} fT m d)
    ∗ (oLoc d ↦[(oRow (LL c i)).view.set]{fullShare} fO m d))

/-- What it hands back: the run of the index array, and its run of the output holding the rows the indices name. -/
def tdF (d : Dev nD) (c : Fin 2) (i : Fin 16) : sProp 𝕄 :=
  iprop((iLoc d ↦[(iRow (LL c i)).view.set]{fullShare} fI m d)
    ∗ ∃ fO' : Buf (Elt F) (oLoc d), ⌜RowsOK (LL c i) (fI m d) (fT m d) fO'⌝ ∗ oLoc d ↦[(oRow (LL c i)).view.set]{fullShare} fO')

/-- The one call's payloads: a core is handed its sixteen tasks' pieces and hands back theirs. -/
def P : (K (F := F)).Pay (nD := nD) (Val := Elt F) (Name := ℕ) (U := UU) where
  st := fun q d c => match q with | 0 => bigSep Finset.univ fun i : Fin 16 => goF m d c i
  dn := fun q d c => match q with | 0 => bigSep Finset.univ fun i : Fin 16 => tdF m d c i
  go := fun q d c i => match q with | 0 => goF m d c i
  td := fun q d c i => match q with | 0 => tdF m d c i
  x := fun _ _ => iprop(emp)

instance goF_storable (d : Dev nD) (c : Fin 2) (i : Fin 16) : BI.Storable (upEmb : UEmb _ 𝕄) (goF m d c i) := by
  unfold goF; infer_instance
instance tdF_storable (d : Dev nD) (c : Fin 2) (i : Fin 16) : BI.Storable (upEmb : UEmb _ 𝕄) (tdF m d c i) := by
  unfold tdF; infer_instance

instance P_storable : (P (F := F) m).IsStorable where
  st q d c := match q with
    | 0 => (inferInstance : BI.Storable (upEmb : UEmb _ 𝕄) (bigSep Finset.univ fun i : Fin 16 => goF m d c i))
  dn q d c := match q with
    | 0 => (inferInstance : BI.Storable (upEmb : UEmb _ 𝕄) (bigSep Finset.univ fun i : Fin 16 => tdF m d c i))
  go q d c i := match q with
    | 0 => (inferInstance : BI.Storable (upEmb : UEmb _ 𝕄) (goF m d c i))
  td q d c i := match q with
    | 0 => (inferInstance : BI.Storable (upEmb : UEmb _ 𝕄) (tdF m d c i))

/-! ## A core's pieces are its tasks' -/

theorem vecSplit : (K (F := F)).VecSplit' (P m) 0 := by
  intro d c
  show (bigSep Finset.univ fun i : Fin 16 => goF m d c i) ⊢ |={Set.univ}=> iprop(
      (bigSep Finset.univ fun i : Fin 16 => goF m d c i)
      ∗ ((bigSep Finset.univ fun i : Fin 16 => tdF m d c i) -∗ bigSep Finset.univ fun i : Fin 16 => tdF m d c i))
  iintro H; imodintro
  isplitl [H]; · iexact H
  iintro H; iexact H

/-! ## A subcore's own semaphores and buffers, one by one -/

section Tile

variable (d : Dev nD) (L : grid0.Coords)

abbrev cV (L : grid0.Coords) : Fin τ.nSC := (L 0).castLE hcore0
abbrev jV (L : grid0.Coords) : Fin τ.nSub := (L 1).castLE hsub0

abbrev cellA (d : Dev nD) (L : grid0.Coords) : GSem nD τ sig := (thr d L, SemLoc.dma cc0_scratch5.sem)
abbrev cellB (d : Dev nD) (L : grid0.Coords) : GSem nD τ sig := (thr d L, SemLoc.dma cc0_scratch6.sem)
abbrev cellC (d : Dev nD) (L : grid0.Coords) : GSem nD τ sig := (thr d L, SemLoc.dma cc0_scoped0.sem)
abbrev cellD (d : Dev nD) (L : grid0.Coords) : GSem nD τ sig := (thr d L, SemLoc.dma cc0_scoped1.sem)

omit [FloatOps F] in
theorem dma_mem (s : DmaSem sig) : ((thr d L, SemLoc.dma s) : GSem nD τ sig) ∈ ownCells (thr d L) :=
  mem_ownCells.mpr ⟨rfl, (show ∀ s : DmaSem sig, (SemLoc.dma s : SemLoc sig).isScoped .scVector = true by decide) _⟩

omit [FloatOps F] in
/-- The subcore's own semaphores at zero: the four the task names, and the rest. -/
theorem ownSems0_V :
    (ownSems0 (thr d L) : sProp 𝕄)
      = iprop(semVal (cellA d L) 0 ∗ semVal (cellB d L) 0 ∗ semVal (cellC d L) 0 ∗ semVal (cellD d L) 0
          ∗ bigSep (((((ownCells (thr d L)).erase (cellA d L)).erase (cellB d L)).erase (cellC d L)).erase (cellD d L))
              fun g => semVal g 0) := by
  unfold SparseCore.Cfg.ownSems0
  have hAB : cellB d L ≠ cellA d L := by simp [cellA, cellB]; decide
  have hAC : cellC d L ≠ cellA d L := by simp [cellA, cellC]; decide
  have hAD : cellD d L ≠ cellA d L := by simp [cellA, cellD]; decide
  have hBC : cellC d L ≠ cellB d L := by simp [cellB, cellC]; decide
  have hBD : cellD d L ≠ cellB d L := by simp [cellB, cellD]; decide
  have hCD : cellD d L ≠ cellC d L := by simp [cellC, cellD]; decide
  rw [SparseCore.bigSep_erase' (dma_mem d L cc0_scratch5.sem),
    SparseCore.bigSep_erase' (Finset.mem_erase.mpr ⟨hAB, dma_mem d L cc0_scratch6.sem⟩),
    SparseCore.bigSep_erase' (Finset.mem_erase.mpr ⟨hBC, Finset.mem_erase.mpr ⟨hAC, dma_mem d L cc0_scoped0.sem⟩⟩),
    SparseCore.bigSep_erase' (Finset.mem_erase.mpr ⟨hCD, Finset.mem_erase.mpr ⟨hBD, Finset.mem_erase.mpr ⟨hAD, dma_mem d L cc0_scoped1.sem⟩⟩⟩)]

abbrev pV (L : grid0.Coords) : Proc τ := Proc.scVector (cV L) (jV L)

omit [FloatOps F] in
theorem ref_mem {b : Ref sig .scVector} (h : ((pV L).devRef b : DevRef τ sig).owner = .proc (pV L)) :
    (pV L).devRef b ∈ ownRefs (τ := τ) (sig := sig) (pV L) :=
  SparseCore.Cfg.mem_ownRefs_of_owner (p := pV L) (b := (pV L).devRef b) h

omit [FloatOps F] in
theorem ref_ne {b b' : Ref sig .scVector} (h : b ≠ b') : (pV L).devRef b ≠ (pV L).devRef b' :=
  fun e => h (Proc.devRef_injective _ e)

omit [FloatOps F] in
/-- The five scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f)
          ∗ bigSep ((((((ownRefs (τ := τ) (pV L)).erase ((pV L).devRef cc0_scratch0)).erase ((pV L).devRef cc0_scratch1)).erase
              ((pV L).devRef cc0_scratch2)).erase ((pV L).devRef cc0_scratch3)).erase ((pV L).devRef cc0_scratch4))
              fun b => iprop(∃ f, ((d, b) : Loc nD τ sig) ↦{fullShare} f)) := by
  unfold SparseCore.Cfg.ownBufs
  refine (SparseCore.bigSep_erase' (ref_mem L (b := cc0_scratch0) rfl)).trans ?_
  rw [SparseCore.bigSep_erase' (Finset.mem_erase.mpr ⟨ref_ne L (show (cc0_scratch1 : Ref sig .scVector) ≠ cc0_scratch0 by decide), ref_mem L (b := cc0_scratch1) rfl⟩),
    SparseCore.bigSep_erase' (Finset.mem_erase.mpr ⟨ref_ne L (show (cc0_scratch2 : Ref sig .scVector) ≠ cc0_scratch1 by decide),
      Finset.mem_erase.mpr ⟨ref_ne L (show (cc0_scratch2 : Ref sig .scVector) ≠ cc0_scratch0 by decide), ref_mem L (b := cc0_scratch2) rfl⟩⟩),
    SparseCore.bigSep_erase' (Finset.mem_erase.mpr ⟨ref_ne L (show (cc0_scratch3 : Ref sig .scVector) ≠ cc0_scratch2 by decide),
      Finset.mem_erase.mpr ⟨ref_ne L (show (cc0_scratch3 : Ref sig .scVector) ≠ cc0_scratch1 by decide),
      Finset.mem_erase.mpr ⟨ref_ne L (show (cc0_scratch3 : Ref sig .scVector) ≠ cc0_scratch0 by decide), ref_mem L (b := cc0_scratch3) rfl⟩⟩⟩),
    SparseCore.bigSep_erase' (Finset.mem_erase.mpr ⟨ref_ne L (show (cc0_scratch4 : Ref sig .scVector) ≠ cc0_scratch3 by decide),
      Finset.mem_erase.mpr ⟨ref_ne L (show (cc0_scratch4 : Ref sig .scVector) ≠ cc0_scratch2 by decide),
      Finset.mem_erase.mpr ⟨ref_ne L (show (cc0_scratch4 : Ref sig .scVector) ≠ cc0_scratch1 by decide),
      Finset.mem_erase.mpr ⟨ref_ne L (show (cc0_scratch4 : Ref sig .scVector) ≠ cc0_scratch0 by decide), ref_mem L (b := cc0_scratch4) rfl⟩⟩⟩⟩)]

end Tile

end Cert.KLaunch

end
-- ==== Proof.LaunchK.Slots.lean ====
import proofs.«207235_g30958124269674_cont_8to1_b_889_24_alg».proof.Proof.LaunchK.Base

/-! The ring buffer of a subcore is its thirty-two slots: slot `k` of half `h` is the 8 × 64 block at `(h, k)` on the
    first two axes; the blocks are pairwise apart and cover the buffer. -/

noncomputable section

namespace Cert.KLaunch

open Cert.Kernel Cert.Kernel.Gen
open Cert.KTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

section Slots

variable (d : Dev nD) (L : grid0.Coords)

omit [FloatOps F] in
theorem slot_inb (p : Fin 2 × Fin 16) :
    ∀ a, (![p.1.val, p.2.val, 0, 0] : Fin 4 → Nat) a + S1x1x8x64.size a ≤ S2x16x8x64.size a := by
  have := p.1.isLt; have := p.2.isLt; intro a; fin_cases a
  · show p.1.val + 1 ≤ 2; omega
  · show p.2.val + 1 ≤ 16; omega
  · show 0 + 8 ≤ 8; omega
  · show 0 + 64 ≤ 64; omega

/-- Slot `k` of half `h`: the 8 × 64 block at `(h, k)` on the first two axes. -/
abbrev slotRect (p : Fin 2 × Fin 16) : Rect S2x16x8x64 :=
  Rect.unit (s := S2x16x8x64) ![p.1.val, p.2.val, 0, 0] S1x1x8x64.size (slot_inb p)
abbrev slotSet (p : Fin 2 × Fin 16) : Finset S2x16x8x64.Idx := (slotRect p).set

/-- A slot as the program slices it holds the elements of its block. -/
theorem slot_set (off : Fin 4 → Nat) (inb : ∀ a, off a + S1x1x8x64.size a ≤ S2x16x8x64.size a) :
    (((s4).slice (Rect.unit (s := S2x16x8x64) off S1x1x8x64.size inb) (fun _ => rfl)).squeeze S8x64 squeezes_S1x1x8x64_S8x64).view.set
      = (Rect.unit (s := S2x16x8x64) off S1x1x8x64.size inb).set := by
  show (((s4).view.slice (Rect.unit (s := S2x16x8x64) off S1x1x8x64.size inb)).reshape S8x64 squeezes_S1x1x8x64_S8x64.numel_eq).set = _
  rw [View.set_reshape, View.set_slice]; exact Finset.map_refl

omit [FloatOps F] in
/-- Two slots differ in the half or in the place, and are apart on that axis. -/
theorem slots_disjoint : ∀ p p' : Fin 2 × Fin 16, p ≠ p' → Disjoint (slotSet p) (slotSet p') := by
  intro p p' h
  by_cases h0 : p.1 = p'.1
  · have h1 : p.2.val ≠ p'.2.val := fun e => h (Prod.ext h0 (Fin.ext e))
    refine Rect.unit_disjoint (1 : Fin 4) ?_
    show p.2.val + 1 ≤ p'.2.val ∨ p'.2.val + 1 ≤ p.2.val
    omega
  · have h1 : p.1.val ≠ p'.1.val := fun e => h0 (Fin.ext e)
    refine Rect.unit_disjoint (0 : Fin 4) ?_
    show p.1.val + 1 ≤ p'.1.val ∨ p'.1.val + 1 ≤ p.1.val
    omega

omit [FloatOps F] in
/-- Every element of the ring lies in the slot its first two coordinates name. -/
theorem slots_cover : (Finset.univ : Finset (Fin 2 × Fin 16)).biUnion slotSet = Finset.univ := by
  ext x
  simp only [Finset.mem_biUnion, Finset.mem_univ, true_and, iff_true]
  refine ⟨((x 0 : Fin 2), (x 1 : Fin 16)), Rect.mem_set_unit.mpr fun a => ?_⟩
  fin_cases a
  · exact ⟨le_rfl, Nat.lt_succ_self _⟩
  · exact ⟨le_rfl, Nat.lt_succ_self _⟩
  · exact ⟨Nat.zero_le _, by have : (x 2).val < 8 := (x 2).isLt; show (x 2).val < 0 + 8; omega⟩
  · exact ⟨Nat.zero_le _, by have : (x 3).val < 64 := (x 3).isLt; show (x 3).val < 0 + 64; omega⟩

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem bigSep_slots (Ψ : Fin 2 × Fin 16 → sProp 𝕄) :
    bigSep Finset.univ Ψ = iprop((Ψ (0, 0) ∗ Ψ (0, 1) ∗ Ψ (0, 2) ∗ Ψ (0, 3) ∗ Ψ (0, 4) ∗ Ψ (0, 5) ∗ Ψ (0, 6) ∗ Ψ (0, 7) ∗ Ψ (0, 8) ∗ Ψ (0, 9) ∗ Ψ (0, 10) ∗ Ψ (0, 11) ∗ Ψ (0, 12) ∗ Ψ (0, 13) ∗ Ψ (0, 14) ∗ Ψ (0, 15)) ∗ (Ψ (1, 0) ∗ Ψ (1, 1) ∗ Ψ (1, 2) ∗ Ψ (1, 3) ∗ Ψ (1, 4) ∗ Ψ (1, 5) ∗ Ψ (1, 6) ∗ Ψ (1, 7) ∗ Ψ (1, 8) ∗ Ψ (1, 9) ∗ Ψ (1, 10) ∗ Ψ (1, 11) ∗ Ψ (1, 12) ∗ Ψ (1, 13) ∗ Ψ (1, 14) ∗ Ψ (1, 15))) := by
  rw [BI.bigSep_univ_prod, BI.bigSep_fin_two, bigSep_fin16, bigSep_fin16]; rfl

omit [FloatOps F] in
/-- The ring held whole is its blocks held. -/
theorem ring_blocks (f4 : Buf (Elt F) ((thr d L).loc cc0_scratch4)) :
    ((thr d L).loc cc0_scratch4 ↦{fullShare} f4 : sProp 𝕄)
      = bigSep Finset.univ fun p : Fin 2 × Fin 16 => (thr d L).loc cc0_scratch4 ↦[slotSet p]{fullShare} f4 := by
  rw [← pointsTo_biUnion Finset.univ (ℓ := (thr d L).loc cc0_scratch4) slotSet (fun p _ p' _ h => slots_disjoint p p' h), slots_cover]; try rfl

omit [FloatOps F] in
/-- The blocks, each at some contents, are the ring whole at some contents. -/
theorem ring_blocks_join (f₀ : Buf (Elt F) ((thr d L).loc cc0_scratch4)) :
    (bigSep Finset.univ fun p : Fin 2 × Fin 16 => iprop(∃ g, (thr d L).loc cc0_scratch4 ↦[slotSet p]{fullShare} g))
      ⊢ (iprop(∃ f, (thr d L).loc cc0_scratch4 ↦{fullShare} f) : sProp 𝕄) := by
  have : Nonempty (Buf (Elt F) ((thr d L).loc cc0_scratch4)) := ⟨f₀⟩
  refine (bigSep_exists_pi Finset.univ (fun p (g : Buf (Elt F) ((thr d L).loc cc0_scratch4)) => ((thr d L).loc cc0_scratch4 ↦[slotSet p]{fullShare} g : sProp 𝕄))).trans ?_
  iintro ⟨%fs, H⟩
  ihave H' := (pointsTo_biUnion_join (ℓ := (thr d L).loc cc0_scratch4) (q := fullShare) (Val := Elt F) Finset.univ slotSet fs f₀
    (fun p _ p' _ h => slots_disjoint p p' h)) $$ H
  icases H' with ⟨%g, -, Hg⟩
  rw [slots_cover]
  iexists g; iexact Hg

/-- Slot `0` of half `0`, in the program's spelling. -/
theorem pts_slot0_0 (f : Buf (Elt F) ((thr d L).loc cc0_scratch4)) :
    ((slot0_0).view.loc (thr d L) ↦[(slot0_0).view.set]{fullShare} f : sProp 𝕄)
      = (thr d L).loc cc0_scratch4 ↦[slotSet (0, 0)]{fullShare} f := by
  rw [slot_set]; rfl
/-- Slot `1` of half `0`, in the program's spelling. -/
theorem pts_slot0_1 (f : Buf (Elt F) ((thr d L).loc cc0_scratch4)) :
    ((slot0_1).view.loc (thr d L) ↦[(slot0_1).view.set]{fullShare} f : sProp 𝕄)
      = (thr d L).loc cc0_scratch4 ↦[slotSet (0, 1)]{fullShare} f := by
  rw [slot_set]; rfl
/-- Slot `2` of half `0`, in the program's spelling. -/
theorem pts_slot0_2 (f : Buf (Elt F) ((thr d L).loc cc0_scratch4)) :
    ((slot0_2).view.loc (thr d L) ↦[(slot0_2).view.set]{fullShare} f : sProp 𝕄)
      = (thr d L).loc cc0_scratch4 ↦[slotSet (0, 2)]{fullShare} f := by
  rw [slot_set]; rfl
/-- Slot `3` of half `0`, in the program's spelling. -/
theorem pts_slot0_3 (f : Buf (Elt F) ((thr d L).loc cc0_scratch4)) :
    ((slot0_3).view.loc (thr d L) ↦[(slot0_3).view.set]{fullShare} f : sProp 𝕄)
      = (thr d L).loc cc0_scratch4 ↦[slotSet (0, 3)]{fullShare} f := by
  rw [slot_set]; rfl
/-- Slot `4` of half `0`, in the program's spelling. -/
theorem pts_slot0_4 (f : Buf (Elt F) ((thr d L).loc cc0_scratch4)) :
    ((slot0_4).view.loc (thr d L) ↦[(slot0_4).view.set]{fullShare} f : sProp 𝕄)
      = (thr d L).loc cc0_scratch4 ↦[slotSet (0, 4)]{fullShare} f := by
  rw [slot_set]; rfl
/-- Slot `5` of half `0`, in the program's spelling. -/
theorem pts_slot0_5 (f : Buf (Elt F) ((thr d L).loc cc0_scratch4)) :
    ((slot0_5).view.loc (thr d L) ↦[(slot0_5).view.set]{fullShare} f : sProp 𝕄)
      = (thr d L).loc cc0_scratch4 ↦[slotSet (0, 5)]{fullShare} f := by
  rw [slot_set]; rfl
/-- Slot `6` of half `0`, in the program's spelling. -/
theorem pts_slot0_6 (f : Buf (Elt F) ((thr d L).loc cc0_scratch4)) :
    ((slot0_6).view.loc (thr d L) ↦[(slot0_6).view.set]{fullShare} f : sProp 𝕄)
      = (thr d L).loc cc0_scratch4 ↦[slotSet (0, 6)]{fullShare} f := by
  rw [slot_set]; rfl
/-- Slot `7` of half `0`, in the program's spelling. -/
theorem pts_slot0_7 (f : Buf (Elt F) ((thr d L).loc cc0_scratch4)) :
    ((slot0_7).view.loc (thr d L) ↦[(slot0_7).view.set]{fullShare} f : sProp 𝕄)
      = (thr d L).loc cc0_scratch4 ↦[slotSet (0, 7)]{fullShare} f := by
  rw [slot_set]; rfl
/-- Slot `8` of half `0`, in the program's spelling. -/
theorem pts_slot0_8 (f : Buf (Elt F) ((thr d L).loc cc0_scratch4)) :
    ((slot0_8).view.loc (thr d L) ↦[(slot0_8).view.set]{fullShare} f : sProp 𝕄)
      = (thr d L).loc cc0_scratch4 ↦[slotSet (0, 8)]{fullShare} f := by
  rw [slot_set]; rfl
/-- Slot `9` of half `0`, in the program's spelling. -/
theorem pts_slot0_9 (f : Buf (Elt F) ((thr d L).loc cc0_scratch4)) :
    ((slot0_9).view.loc (thr d L) ↦[(slot0_9).view.set]{fullShare} f : sProp 𝕄)
      = (thr d L).loc cc0_scratch4 ↦[slotSet (0, 9)]{fullShare} f := by
  rw [slot_set]; rfl
/-- Slot `10` of half `0`, in the program's spelling. -/
theorem pts_slot0_10 (f : Buf (Elt F) ((thr d L).loc cc0_scratch4)) :
    ((slot0_10).view.loc (thr d L) ↦[(slot0_10).view.set]{fullShare} f : sProp 𝕄)
      = (thr d L).loc cc0_scratch4 ↦[slotSet (0, 10)]{fullShare} f := by
  rw [slot_set]; rfl
/-- Slot `11` of half `0`, in the program's spelling. -/
theorem pts_slot0_11 (f : Buf (Elt F) ((thr d L).loc cc0_scratch4)) :
    ((slot0_11).view.loc (thr d L) ↦[(slot0_11).view.set]{fullShare} f : sProp 𝕄)
      = (thr d L).loc cc0_scratch4 ↦[slotSet (0, 11)]{fullShare} f := by
  rw [slot_set]; rfl
/-- Slot `12` of half `0`, in the program's spelling. -/
theorem pts_slot0_12 (f : Buf (Elt F) ((thr d L).loc cc0_scratch4)) :
    ((slot0_12).view.loc (thr d L) ↦[(slot0_12).view.set]{fullShare} f : sProp 𝕄)
      = (thr d L).loc cc0_scratch4 ↦[slotSet (0, 12)]{fullShare} f := by
  rw [slot_set]; rfl
/-- Slot `13` of half `0`, in the program's spelling. -/
theorem pts_slot0_13 (f : Buf (Elt F) ((thr d L).loc cc0_scratch4)) :
    ((slot0_13).view.loc (thr d L) ↦[(slot0_13).view.set]{fullShare} f : sProp 𝕄)
      = (thr d L).loc cc0_scratch4 ↦[slotSet (0, 13)]{fullShare} f := by
  rw [slot_set]; rfl
/-- Slot `14` of half `0`, in the program's spelling. -/
theorem pts_slot0_14 (f : Buf (Elt F) ((thr d L).loc cc0_scratch4)) :
    ((slot0_14).view.loc (thr d L) ↦[(slot0_14).view.set]{fullShare} f : sProp 𝕄)
      = (thr d L).loc cc0_scratch4 ↦[slotSet (0, 14)]{fullShare} f := by
  rw [slot_set]; rfl
/-- Slot `15` of half `0`, in the program's spelling. -/
theorem pts_slot0_15 (f : Buf (Elt F) ((thr d L).loc cc0_scratch4)) :
    ((slot0_15).view.loc (thr d L) ↦[(slot0_15).view.set]{fullShare} f : sProp 𝕄)
      = (thr d L).loc cc0_scratch4 ↦[slotSet (0, 15)]{fullShare} f := by
  rw [slot_set]; rfl
/-- Slot `0` of half `1`, in the program's spelling. -/
theorem pts_slot1_0 (f : Buf (Elt F) ((thr d L).loc cc0_scratch4)) :
    ((slot1_0).view.loc (thr d L) ↦[(slot1_0).view.set]{fullShare} f : sProp 𝕄)
      = (thr d L).loc cc0_scratch4 ↦[slotSet (1, 0)]{fullShare} f := by
  rw [slot_set]; rfl
/-- Slot `1` of half `1`, in the program's spelling. -/
theorem pts_slot1_1 (f : Buf (Elt F) ((thr d L).loc cc0_scratch4)) :
    ((slot1_1).view.loc (thr d L) ↦[(slot1_1).view.set]{fullShare} f : sProp 𝕄)
      = (thr d L).loc cc0_scratch4 ↦[slotSet (1, 1)]{fullShare} f := by
  rw [slot_set]; rfl
/-- Slot `2` of half `1`, in the program's spelling. -/
theorem pts_slot1_2 (f : Buf (Elt F) ((thr d L).loc cc0_scratch4)) :
    ((slot1_2).view.loc (thr d L) ↦[(slot1_2).view.set]{fullShare} f : sProp 𝕄)
      = (thr d L).loc cc0_scratch4 ↦[slotSet (1, 2)]{fullShare} f := by
  rw [slot_set]; rfl
/-- Slot `3` of half `1`, in the program's spelling. -/
theorem pts_slot1_3 (f : Buf (Elt F) ((thr d L).loc cc0_scratch4)) :
    ((slot1_3).view.loc (thr d L) ↦[(slot1_3).view.set]{fullShare} f : sProp 𝕄)
      = (thr d L).loc cc0_scratch4 ↦[slotSet (1, 3)]{fullShare} f := by
  rw [slot_set]; rfl
/-- Slot `4` of half `1`, in the program's spelling. -/
theorem pts_slot1_4 (f : Buf (Elt F) ((thr d L).loc cc0_scratch4)) :
    ((slot1_4).view.loc (thr d L) ↦[(slot1_4).view.set]{fullShare} f : sProp 𝕄)
      = (thr d L).loc cc0_scratch4 ↦[slotSet (1, 4)]{fullShare} f := by
  rw [slot_set]; rfl
/-- Slot `5` of half `1`, in the program's spelling. -/
theorem pts_slot1_5 (f : Buf (Elt F) ((thr d L).loc cc0_scratch4)) :
    ((slot1_5).view.loc (thr d L) ↦[(slot1_5).view.set]{fullShare} f : sProp 𝕄)
      = (thr d L).loc cc0_scratch4 ↦[slotSet (1, 5)]{fullShare} f := by
  rw [slot_set]; rfl
/-- Slot `6` of half `1`, in the program's spelling. -/
theorem pts_slot1_6 (f : Buf (Elt F) ((thr d L).loc cc0_scratch4)) :
    ((slot1_6).view.loc (thr d L) ↦[(slot1_6).view.set]{fullShare} f : sProp 𝕄)
      = (thr d L).loc cc0_scratch4 ↦[slotSet (1, 6)]{fullShare} f := by
  rw [slot_set]; rfl
/-- Slot `7` of half `1`, in the program's spelling. -/
theorem pts_slot1_7 (f : Buf (Elt F) ((thr d L).loc cc0_scratch4)) :
    ((slot1_7).view.loc (thr d L) ↦[(slot1_7).view.set]{fullShare} f : sProp 𝕄)
      = (thr d L).loc cc0_scratch4 ↦[slotSet (1, 7)]{fullShare} f := by
  rw [slot_set]; rfl
/-- Slot `8` of half `1`, in the program's spelling. -/
theorem pts_slot1_8 (f : Buf (Elt F) ((thr d L).loc cc0_scratch4)) :
    ((slot1_8).view.loc (thr d L) ↦[(slot1_8).view.set]{fullShare} f : sProp 𝕄)
      = (thr d L).loc cc0_scratch4 ↦[slotSet (1, 8)]{fullShare} f := by
  rw [slot_set]; rfl
/-- Slot `9` of half `1`, in the program's spelling. -/
theorem pts_slot1_9 (f : Buf (Elt F) ((thr d L).loc cc0_scratch4)) :
    ((slot1_9).view.loc (thr d L) ↦[(slot1_9).view.set]{fullShare} f : sProp 𝕄)
      = (thr d L).loc cc0_scratch4 ↦[slotSet (1, 9)]{fullShare} f := by
  rw [slot_set]; rfl
/-- Slot `10` of half `1`, in the program's spelling. -/
theorem pts_slot1_10 (f : Buf (Elt F) ((thr d L).loc cc0_scratch4)) :
    ((slot1_10).view.loc (thr d L) ↦[(slot1_10).view.set]{fullShare} f : sProp 𝕄)
      = (thr d L).loc cc0_scratch4 ↦[slotSet (1, 10)]{fullShare} f := by
  rw [slot_set]; rfl
/-- Slot `11` of half `1`, in the program's spelling. -/
theorem pts_slot1_11 (f : Buf (Elt F) ((thr d L).loc cc0_scratch4)) :
    ((slot1_11).view.loc (thr d L) ↦[(slot1_11).view.set]{fullShare} f : sProp 𝕄)
      = (thr d L).loc cc0_scratch4 ↦[slotSet (1, 11)]{fullShare} f := by
  rw [slot_set]; rfl
/-- Slot `12` of half `1`, in the program's spelling. -/
theorem pts_slot1_12 (f : Buf (Elt F) ((thr d L).loc cc0_scratch4)) :
    ((slot1_12).view.loc (thr d L) ↦[(slot1_12).view.set]{fullShare} f : sProp 𝕄)
      = (thr d L).loc cc0_scratch4 ↦[slotSet (1, 12)]{fullShare} f := by
  rw [slot_set]; rfl
/-- Slot `13` of half `1`, in the program's spelling. -/
theorem pts_slot1_13 (f : Buf (Elt F) ((thr d L).loc cc0_scratch4)) :
    ((slot1_13).view.loc (thr d L) ↦[(slot1_13).view.set]{fullShare} f : sProp 𝕄)
      = (thr d L).loc cc0_scratch4 ↦[slotSet (1, 13)]{fullShare} f := by
  rw [slot_set]; rfl
/-- Slot `14` of half `1`, in the program's spelling. -/
theorem pts_slot1_14 (f : Buf (Elt F) ((thr d L).loc cc0_scratch4)) :
    ((slot1_14).view.loc (thr d L) ↦[(slot1_14).view.set]{fullShare} f : sProp 𝕄)
      = (thr d L).loc cc0_scratch4 ↦[slotSet (1, 14)]{fullShare} f := by
  rw [slot_set]; rfl
/-- Slot `15` of half `1`, in the program's spelling. -/
theorem pts_slot1_15 (f : Buf (Elt F) ((thr d L).loc cc0_scratch4)) :
    ((slot1_15).view.loc (thr d L) ↦[(slot1_15).view.set]{fullShare} f : sProp 𝕄)
      = (thr d L).loc cc0_scratch4 ↦[slotSet (1, 15)]{fullShare} f := by
  rw [slot_set]; rfl

end Slots

end Cert.KLaunch

end
-- ==== Proof.LaunchK.Tile.lean ====
import proofs.«207235_g30958124269674_cont_8to1_b_889_24_alg».proof.Proof.LaunchK.Slots

/-! One vector subcore's task as the launch theorem asks for it: from what the launch deals the subcore — its task's
    pieces, its own buffers at some contents, its own semaphores at zero — to what `TileSpec` starts from (the ring as
    its slots, the table share as read tokens), through the task, and back. -/

noncomputable section

namespace Cert.KLaunch

open Cert.Kernel Cert.Kernel.Gen
open Cert.KTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (m : (ℓ : Loc nD τ sig) → Buf (Elt F) ℓ)

section Tile

variable (d : Dev nD) (L : grid0.Coords)

omit [FloatOps F] in
/-- The slots, each at some contents, are the ring whole at some contents. -/
theorem ring_join (f₀ : Buf (Elt F) ((thr d L).loc cc0_scratch4)) :
    iprop(((∃ g, (thr d L).loc cc0_scratch4 ↦[slotSet (0, 0)]{fullShare} g) ∗ (∃ g, (thr d L).loc cc0_scratch4 ↦[slotSet (0, 1)]{fullShare} g) ∗ (∃ g, (thr d L).loc cc0_scratch4 ↦[slotSet (0, 2)]{fullShare} g) ∗ (∃ g, (thr d L).loc cc0_scratch4 ↦[slotSet (0, 3)]{fullShare} g) ∗ (∃ g, (thr d L).loc cc0_scratch4 ↦[slotSet (0, 4)]{fullShare} g) ∗ (∃ g, (thr d L).loc cc0_scratch4 ↦[slotSet (0, 5)]{fullShare} g) ∗ (∃ g, (thr d L).loc cc0_scratch4 ↦[slotSet (0, 6)]{fullShare} g) ∗ (∃ g, (thr d L).loc cc0_scratch4 ↦[slotSet (0, 7)]{fullShare} g) ∗ (∃ g, (thr d L).loc cc0_scratch4 ↦[slotSet (0, 8)]{fullShare} g) ∗ (∃ g, (thr d L).loc cc0_scratch4 ↦[slotSet (0, 9)]{fullShare} g) ∗ (∃ g, (thr d L).loc cc0_scratch4 ↦[slotSet (0, 10)]{fullShare} g) ∗ (∃ g, (thr d L).loc cc0_scratch4 ↦[slotSet (0, 11)]{fullShare} g) ∗ (∃ g, (thr d L).loc cc0_scratch4 ↦[slotSet (0, 12)]{fullShare} g) ∗ (∃ g, (thr d L).loc cc0_scratch4 ↦[slotSet (0, 13)]{fullShare} g) ∗ (∃ g, (thr d L).loc cc0_scratch4 ↦[slotSet (0, 14)]{fullShare} g) ∗ (∃ g, (thr d L).loc cc0_scratch4 ↦[slotSet (0, 15)]{fullShare} g))
          ∗ ((∃ g, (thr d L).loc cc0_scratch4 ↦[slotSet (1, 0)]{fullShare} g) ∗ (∃ g, (thr d L).loc cc0_scratch4 ↦[slotSet (1, 1)]{fullShare} g) ∗ (∃ g, (thr d L).loc cc0_scratch4 ↦[slotSet (1, 2)]{fullShare} g) ∗ (∃ g, (thr d L).loc cc0_scratch4 ↦[slotSet (1, 3)]{fullShare} g) ∗ (∃ g, (thr d L).loc cc0_scratch4 ↦[slotSet (1, 4)]{fullShare} g) ∗ (∃ g, (thr d L).loc cc0_scratch4 ↦[slotSet (1, 5)]{fullShare} g) ∗ (∃ g, (thr d L).loc cc0_scratch4 ↦[slotSet (1, 6)]{fullShare} g) ∗ (∃ g, (thr d L).loc cc0_scratch4 ↦[slotSet (1, 7)]{fullShare} g) ∗ (∃ g, (thr d L).loc cc0_scratch4 ↦[slotSet (1, 8)]{fullShare} g) ∗ (∃ g, (thr d L).loc cc0_scratch4 ↦[slotSet (1, 9)]{fullShare} g) ∗ (∃ g, (thr d L).loc cc0_scratch4 ↦[slotSet (1, 10)]{fullShare} g) ∗ (∃ g, (thr d L).loc cc0_scratch4 ↦[slotSet (1, 11)]{fullShare} g) ∗ (∃ g, (thr d L).loc cc0_scratch4 ↦[slotSet (1, 12)]{fullShare} g) ∗ (∃ g, (thr d L).loc cc0_scratch4 ↦[slotSet (1, 13)]{fullShare} g) ∗ (∃ g, (thr d L).loc cc0_scratch4 ↦[slotSet (1, 14)]{fullShare} g) ∗ (∃ g, (thr d L).loc cc0_scratch4 ↦[slotSet (1, 15)]{fullShare} g)))
      ⊢ (iprop(∃ f, (thr d L).loc cc0_scratch4 ↦{fullShare} f) : sProp 𝕄) := by
  have h := ring_blocks_join (F := F) d L f₀
  rw [bigSep_slots] at h
  exact h

/-! ## The task's share of the table as thirty-two read tokens -/

omit [FloatOps F] in
theorem tToks (q : PosShare TreeShare) (f : Buf (Elt F) (tLoc d)) :
    (tLoc d ↦{q} f : sProp 𝕄) ⊢ iprop((tLoc d ↦{Transfers.shareDrop q 32} f)
      ∗ ((tV).view.loc (thr d L) ↦{Transfers.shareTokN q 0} f)
      ∗ ((tV).view.loc (thr d L) ↦{Transfers.shareTokN q 1} f)
      ∗ ((tV).view.loc (thr d L) ↦{Transfers.shareTokN q 2} f)
      ∗ ((tV).view.loc (thr d L) ↦{Transfers.shareTokN q 3} f)
      ∗ ((tV).view.loc (thr d L) ↦{Transfers.shareTokN q 4} f)
      ∗ ((tV).view.loc (thr d L) ↦{Transfers.shareTokN q 5} f)
      ∗ ((tV).view.loc (thr d L) ↦{Transfers.shareTokN q 6} f)
      ∗ ((tV).view.loc (thr d L) ↦{Transfers.shareTokN q 7} f)
      ∗ ((tV).view.loc (thr d L) ↦{Transfers.shareTokN q 8} f)
      ∗ ((tV).view.loc (thr d L) ↦{Transfers.shareTokN q 9} f)
      ∗ ((tV).view.loc (thr d L) ↦{Transfers.shareTokN q 10} f)
      ∗ ((tV).view.loc (thr d L) ↦{Transfers.shareTokN q 11} f)
      ∗ ((tV).view.loc (thr d L) ↦{Transfers.shareTokN q 12} f)
      ∗ ((tV).view.loc (thr d L) ↦{Transfers.shareTokN q 13} f)
      ∗ ((tV).view.loc (thr d L) ↦{Transfers.shareTokN q 14} f)
      ∗ ((tV).view.loc (thr d L) ↦{Transfers.shareTokN q 15} f)
      ∗ ((tV).view.loc (thr d L) ↦{Transfers.shareTokN q 16} f)
      ∗ ((tV).view.loc (thr d L) ↦{Transfers.shareTokN q 17} f)
      ∗ ((tV).view.loc (thr d L) ↦{Transfers.shareTokN q 18} f)
      ∗ ((tV).view.loc (thr d L) ↦{Transfers.shareTokN q 19} f)
      ∗ ((tV).view.loc (thr d L) ↦{Transfers.shareTokN q 20} f)
      ∗ ((tV).view.loc (thr d L) ↦{Transfers.shareTokN q 21} f)
      ∗ ((tV).view.loc (thr d L) ↦{Transfers.shareTokN q 22} f)
      ∗ ((tV).view.loc (thr d L) ↦{Transfers.shareTokN q 23} f)
      ∗ ((tV).view.loc (thr d L) ↦{Transfers.shareTokN q 24} f)
      ∗ ((tV).view.loc (thr d L) ↦{Transfers.shareTokN q 25} f)
      ∗ ((tV).view.loc (thr d L) ↦{Transfers.shareTokN q 26} f)
      ∗ ((tV).view.loc (thr d L) ↦{Transfers.shareTokN q 27} f)
      ∗ ((tV).view.loc (thr d L) ↦{Transfers.shareTokN q 28} f)
      ∗ ((tV).view.loc (thr d L) ↦{Transfers.shareTokN q 29} f)
      ∗ ((tV).view.loc (thr d L) ↦{Transfers.shareTokN q 30} f)
      ∗ ((tV).view.loc (thr d L) ↦{Transfers.shareTokN q 31} f)) := by
  have h := (Transfers.pointsTo_toks_range (Ix := HIx 1) (Name := ℕ) (U := UU) (Lvl := ℕ) (ℓ := tLoc d) (S := Finset.univ) (f := f) q 32).1
  rw [show Finset.range 32 = {0, 1, 2, 3, 4, 5, 6, 7, 8, 9, 10, 11, 12, 13, 14, 15, 16, 17, 18, 19, 20, 21, 22, 23, 24, 25, 26, 27, 28, 29, 30, 31} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  exact h

/-! ## The task, from what the launch deals it to what it hands back -/

theorem tile_body (hT : TileSpec (F := F)) (hF : (K (F := F)).Facts)
    (hidx : ∀ (d : Dev nD) (j : S16384.Idx), (m (iLoc d) j).toNat ≤ 999999)
    (c : Fin 2) (i : Fin 16) (O : CellTallies nD τ sig (HIx 1)) (W : Waits sig (HIx 1)) (hO : ∀ g, O g none = 0) :
    iprop(levAts (K (F := F)).L (K (F := F)).lev ∗ emp ∗ goF m d c i
        ∗ scopedBufs (thr d (LL c i)) ∗ scopedSems0 (thr d (LL c i)) ∗ owes (thr d (LL c i)) O W)
      ⊢ wp frame (wpE (defs₀ (F := F)) 𝒱₀ (thr d (LL c i)) none) Set.univ (tileProg (F := F) (LL c i))
          fun _ => iprop(tdF m d c i ∗ scopedBufs (thr d (LL c i)) ∗ scopedSems0 (thr d (LL c i))
            ∗ ∃ W', ⌜∀ p ∈ W', p ∈ W ∨ p.2 = none ∨ p.2 = some (0 : Fin 1)⌝ ∗ owes (thr d (LL c i)) O W') := by
  rw [(K (F := F)).scopedBufs_V hF d (cV (LL c i)) (jV (LL c i)), SparseCore.Cfg.scopedSems0_V (Val := Elt F) d (cV (LL c i)) (jV (LL c i)),
    ownSems0_V, ownBufs_V]
  unfold goF tdF
  iintro ⟨#Hlv, -, ⟨Hi, Ht, Ho⟩, ⟨⟨%f0, H0⟩, ⟨%f1, H1⟩, ⟨%f2, H2⟩, ⟨%f3, H3⟩, ⟨%f4, H4⟩, Hbufs⟩, ⟨HsA, HsB, HsC, HsD, Hsems⟩, HO⟩
  ihave Hmw := (show levAts (K (F := F)).L (K (F := F)).lev ⊢ Transfers.MayWaits (thr d (LL c i)) (none : HIx 1) O from
    (K (F := F)).mayWaits_none (thr := thr d (LL c i)) hO) $$ Hlv
  -- the ring as its slots, each in the program's spelling; the table share as read tokens
  ihave H4' := (Entails.of_eq ((ring_blocks (F := F) d (LL c i) f4).trans (bigSep_slots _))) $$ H4
  icases H4' with ⟨⟨A0, A1, A2, A3, A4, A5, A6, A7, A8, A9, A10, A11, A12, A13, A14, A15⟩, ⟨B0, B1, B2, B3, B4, B5, B6, B7, B8, B9, B10, B11, B12, B13, B14, B15⟩⟩
  ihave A0 := (Entails.of_eq (pts_slot0_0 (F := F) d (LL c i) f4).symm) $$ A0
  ihave A1 := (Entails.of_eq (pts_slot0_1 (F := F) d (LL c i) f4).symm) $$ A1
  ihave A2 := (Entails.of_eq (pts_slot0_2 (F := F) d (LL c i) f4).symm) $$ A2
  ihave A3 := (Entails.of_eq (pts_slot0_3 (F := F) d (LL c i) f4).symm) $$ A3
  ihave A4 := (Entails.of_eq (pts_slot0_4 (F := F) d (LL c i) f4).symm) $$ A4
  ihave A5 := (Entails.of_eq (pts_slot0_5 (F := F) d (LL c i) f4).symm) $$ A5
  ihave A6 := (Entails.of_eq (pts_slot0_6 (F := F) d (LL c i) f4).symm) $$ A6
  ihave A7 := (Entails.of_eq (pts_slot0_7 (F := F) d (LL c i) f4).symm) $$ A7
  ihave A8 := (Entails.of_eq (pts_slot0_8 (F := F) d (LL c i) f4).symm) $$ A8
  ihave A9 := (Entails.of_eq (pts_slot0_9 (F := F) d (LL c i) f4).symm) $$ A9
  ihave A10 := (Entails.of_eq (pts_slot0_10 (F := F) d (LL c i) f4).symm) $$ A10
  ihave A11 := (Entails.of_eq (pts_slot0_11 (F := F) d (LL c i) f4).symm) $$ A11
  ihave A12 := (Entails.of_eq (pts_slot0_12 (F := F) d (LL c i) f4).symm) $$ A12
  ihave A13 := (Entails.of_eq (pts_slot0_13 (F := F) d (LL c i) f4).symm) $$ A13
  ihave A14 := (Entails.of_eq (pts_slot0_14 (F := F) d (LL c i) f4).symm) $$ A14
  ihave A15 := (Entails.of_eq (pts_slot0_15 (F := F) d (LL c i) f4).symm) $$ A15
  ihave B0 := (Entails.of_eq (pts_slot1_0 (F := F) d (LL c i) f4).symm) $$ B0
  ihave B1 := (Entails.of_eq (pts_slot1_1 (F := F) d (LL c i) f4).symm) $$ B1
  ihave B2 := (Entails.of_eq (pts_slot1_2 (F := F) d (LL c i) f4).symm) $$ B2
  ihave B3 := (Entails.of_eq (pts_slot1_3 (F := F) d (LL c i) f4).symm) $$ B3
  ihave B4 := (Entails.of_eq (pts_slot1_4 (F := F) d (LL c i) f4).symm) $$ B4
  ihave B5 := (Entails.of_eq (pts_slot1_5 (F := F) d (LL c i) f4).symm) $$ B5
  ihave B6 := (Entails.of_eq (pts_slot1_6 (F := F) d (LL c i) f4).symm) $$ B6
  ihave B7 := (Entails.of_eq (pts_slot1_7 (F := F) d (LL c i) f4).symm) $$ B7
  ihave B8 := (Entails.of_eq (pts_slot1_8 (F := F) d (LL c i) f4).symm) $$ B8
  ihave B9 := (Entails.of_eq (pts_slot1_9 (F := F) d (LL c i) f4).symm) $$ B9
  ihave B10 := (Entails.of_eq (pts_slot1_10 (F := F) d (LL c i) f4).symm) $$ B10
  ihave B11 := (Entails.of_eq (pts_slot1_11 (F := F) d (LL c i) f4).symm) $$ B11
  ihave B12 := (Entails.of_eq (pts_slot1_12 (F := F) d (LL c i) f4).symm) $$ B12
  ihave B13 := (Entails.of_eq (pts_slot1_13 (F := F) d (LL c i) f4).symm) $$ B13
  ihave B14 := (Entails.of_eq (pts_slot1_14 (F := F) d (LL c i) f4).symm) $$ B14
  ihave B15 := (Entails.of_eq (pts_slot1_15 (F := F) d (LL c i) f4).symm) $$ B15
  ihave Ht' := (tToks d (LL c i) (qT c i) (fT m d)) $$ Ht
  icases Ht' with ⟨-, T0, T1, T2, T3, T4, T5, T6, T7, T8, T9, T10, T11, T12, T13, T14, T15, T16, T17, T18, T19, T20, T21, T22, T23, T24, T25, T26, T27, T28, T29, T30, T31⟩
  iapply (wp_wand_r Idealize.ShloMosaic.frame (wpE (defs₀ (F := F)) 𝒱₀ (thr d (LL c i)) none) Set.univ)
  isplitl [Hi Ho H0 H1 H2 H3 A0 A1 A2 A3 A4 A5 A6 A7 A8 A9 A10 A11 A12 A13 A14 A15 B0 B1 B2 B3 B4 B5 B6 B7 B8 B9 B10 B11 B12 B13 B14 B15 T0 T1 T2 T3 T4 T5 T6 T7 T8 T9 T10 T11 T12 T13 T14 T15 T16 T17 T18 T19 T20 T21 T22 T23 T24 T25 T26 T27 T28 T29 T30 T31 HsA HsB HsC HsD HO]
  · iapply (hT d (LL c i) (qT c i) O W hO (fI m d) (fT m d) (fO m d) f0 f1 f2 f3 f4 (hidx d))
    unfold tilePre
    isplitr; · iexact Hmw
    isplitl [Hi]; · iexact Hi
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    isplitl [T25]; · iexact T25
    isplitl [T26]; · iexact T26
    isplitl [T27]; · iexact T27
    isplitl [T28]; · iexact T28
    isplitl [T29]; · iexact T29
    isplitl [T30]; · iexact T30
    isplitl [T31]; · iexact T31
    isplitl [Ho]; · iexact Ho
    isplitl [H0]; · iexact H0
    isplitl [H1]; · iexact H1
    isplitl [H2]; · iexact H2
    isplitl [H3]; · iexact H3
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [HsA]; · iexact HsA
    isplitl [HsB]; · iexact HsB
    isplitl [HsC]; · iexact HsC
    isplitl [HsD]; · iexact HsD
    iexact HO
  unfold tilePost
  iintro %_ ⟨Hi, Ho, ⟨%g0, H0⟩, ⟨%g1, H1⟩, ⟨%g2, H2⟩, ⟨%g3, H3⟩, ⟨%a0, A0⟩, ⟨%a1, A1⟩, ⟨%a2, A2⟩, ⟨%a3, A3⟩, ⟨%a4, A4⟩, ⟨%a5, A5⟩, ⟨%a6, A6⟩, ⟨%a7, A7⟩, ⟨%a8, A8⟩, ⟨%a9, A9⟩, ⟨%a10, A10⟩, ⟨%a11, A11⟩, ⟨%a12, A12⟩, ⟨%a13, A13⟩, ⟨%a14, A14⟩, ⟨%a15, A15⟩, ⟨%b0, B0⟩, ⟨%b1, B1⟩, ⟨%b2, B2⟩, ⟨%b3, B3⟩, ⟨%b4, B4⟩, ⟨%b5, B5⟩, ⟨%b6, B6⟩, ⟨%b7, B7⟩, ⟨%b8, B8⟩, ⟨%b9, B9⟩, ⟨%b10, B10⟩, ⟨%b11, B11⟩, ⟨%b12, B12⟩, ⟨%b13, B13⟩, ⟨%b14, B14⟩, ⟨%b15, B15⟩, HsA, HsB, HsC, HsD, ⟨%W', %hW', HO⟩⟩
  ihave A0 := (Entails.of_eq (pts_slot0_0 (F := F) d (LL c i) a0)) $$ A0
  ihave A1 := (Entails.of_eq (pts_slot0_1 (F := F) d (LL c i) a1)) $$ A1
  ihave A2 := (Entails.of_eq (pts_slot0_2 (F := F) d (LL c i) a2)) $$ A2
  ihave A3 := (Entails.of_eq (pts_slot0_3 (F := F) d (LL c i) a3)) $$ A3
  ihave A4 := (Entails.of_eq (pts_slot0_4 (F := F) d (LL c i) a4)) $$ A4
  ihave A5 := (Entails.of_eq (pts_slot0_5 (F := F) d (LL c i) a5)) $$ A5
  ihave A6 := (Entails.of_eq (pts_slot0_6 (F := F) d (LL c i) a6)) $$ A6
  ihave A7 := (Entails.of_eq (pts_slot0_7 (F := F) d (LL c i) a7)) $$ A7
  ihave A8 := (Entails.of_eq (pts_slot0_8 (F := F) d (LL c i) a8)) $$ A8
  ihave A9 := (Entails.of_eq (pts_slot0_9 (F := F) d (LL c i) a9)) $$ A9
  ihave A10 := (Entails.of_eq (pts_slot0_10 (F := F) d (LL c i) a10)) $$ A10
  ihave A11 := (Entails.of_eq (pts_slot0_11 (F := F) d (LL c i) a11)) $$ A11
  ihave A12 := (Entails.of_eq (pts_slot0_12 (F := F) d (LL c i) a12)) $$ A12
  ihave A13 := (Entails.of_eq (pts_slot0_13 (F := F) d (LL c i) a13)) $$ A13
  ihave A14 := (Entails.of_eq (pts_slot0_14 (F := F) d (LL c i) a14)) $$ A14
  ihave A15 := (Entails.of_eq (pts_slot0_15 (F := F) d (LL c i) a15)) $$ A15
  ihave B0 := (Entails.of_eq (pts_slot1_0 (F := F) d (LL c i) b0)) $$ B0
  ihave B1 := (Entails.of_eq (pts_slot1_1 (F := F) d (LL c i) b1)) $$ B1
  ihave B2 := (Entails.of_eq (pts_slot1_2 (F := F) d (LL c i) b2)) $$ B2
  ihave B3 := (Entails.of_eq (pts_slot1_3 (F := F) d (LL c i) b3)) $$ B3
  ihave B4 := (Entails.of_eq (pts_slot1_4 (F := F) d (LL c i) b4)) $$ B4
  ihave B5 := (Entails.of_eq (pts_slot1_5 (F := F) d (LL c i) b5)) $$ B5
  ihave B6 := (Entails.of_eq (pts_slot1_6 (F := F) d (LL c i) b6)) $$ B6
  ihave B7 := (Entails.of_eq (pts_slot1_7 (F := F) d (LL c i) b7)) $$ B7
  ihave B8 := (Entails.of_eq (pts_slot1_8 (F := F) d (LL c i) b8)) $$ B8
  ihave B9 := (Entails.of_eq (pts_slot1_9 (F := F) d (LL c i) b9)) $$ B9
  ihave B10 := (Entails.of_eq (pts_slot1_10 (F := F) d (LL c i) b10)) $$ B10
  ihave B11 := (Entails.of_eq (pts_slot1_11 (F := F) d (LL c i) b11)) $$ B11
  ihave B12 := (Entails.of_eq (pts_slot1_12 (F := F) d (LL c i) b12)) $$ B12
  ihave B13 := (Entails.of_eq (pts_slot1_13 (F := F) d (LL c i) b13)) $$ B13
  ihave B14 := (Entails.of_eq (pts_slot1_14 (F := F) d (LL c i) b14)) $$ B14
  ihave B15 := (Entails.of_eq (pts_slot1_15 (F := F) d (LL c i) b15)) $$ B15
  isplitl [Hi Ho]
  · isplitl [Hi]; · iexact Hi
    iexact Ho
  isplitl [H0 H1 H2 H3 A0 A1 A2 A3 A4 A5 A6 A7 A8 A9 A10 A11 A12 A13 A14 A15 B0 B1 B2 B3 B4 B5 B6 B7 B8 B9 B10 B11 B12 B13 B14 B15 Hbufs]
  · isplitl [H0]; · iexists _; iexact H0
    isplitl [H1]; · iexists _; iexact H1
    isplitl [H2]; · iexists _; iexact H2
    isplitl [H3]; · iexists _; iexact H3
    isplitl [A0 A1 A2 A3 A4 A5 A6 A7 A8 A9 A10 A11 A12 A13 A14 A15 B0 B1 B2 B3 B4 B5 B6 B7 B8 B9 B10 B11 B12 B13 B14 B15]
    · iapply (ring_join (F := F) d (LL c i) f4)
      isplitl [A0 A1 A2 A3 A4 A5 A6 A7 A8 A9 A10 A11 A12 A13 A14 A15]
      · isplitl [A0]; · iexists _; iexact A0
        isplitl [A1]; · iexists _; iexact A1
        isplitl [A2]; · iexists _; iexact A2
        isplitl [A3]; · iexists _; iexact A3
        isplitl [A4]; · iexists _; iexact A4
        isplitl [A5]; · iexists _; iexact A5
        isplitl [A6]; · iexists _; iexact A6
        isplitl [A7]; · iexists _; iexact A7
        isplitl [A8]; · iexists _; iexact A8
        isplitl [A9]; · iexists _; iexact A9
        isplitl [A10]; · iexists _; iexact A10
        isplitl [A11]; · iexists _; iexact A11
        isplitl [A12]; · iexists _; iexact A12
        isplitl [A13]; · iexists _; iexact A13
        isplitl [A14]; · iexists _; iexact A14
        iexists _; iexact A15
      · isplitl [B0]; · iexists _; iexact B0
        isplitl [B1]; · iexists _; iexact B1
        isplitl [B2]; · iexists _; iexact B2
        isplitl [B3]; · iexists _; iexact B3
        isplitl [B4]; · iexists _; iexact B4
        isplitl [B5]; · iexists _; iexact B5
        isplitl [B6]; · iexists _; iexact B6
        isplitl [B7]; · iexists _; iexact B7
        isplitl [B8]; · iexists _; iexact B8
        isplitl [B9]; · iexists _; iexact B9
        isplitl [B10]; · iexists _; iexact B10
        isplitl [B11]; · iexists _; iexact B11
        isplitl [B12]; · iexists _; iexact B12
        isplitl [B13]; · iexists _; iexact B13
        isplitl [B14]; · iexists _; iexact B14
        iexists _; iexact B15
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists W'; isplitr
  · ipureintro; exact fun p hp => (hW' p hp).imp_right Or.inl
  · iexact HO

end Tile

/-! ## The launch theorem's obligation -/

theorem defs₀_vector (c : Fin τ.nSC) (s : Fin τ.nSub) :
    defs₀ (F := F) (.scVector c s) 0 ()
      = SparseCore.onTile hcore0 hsub0 (fun c s => cc0__body (F := F) (coordsV c s)
          iV (Memref.isWhole_whole _) tV (Memref.isWhole_whole _) oV (Memref.isWhole_whole _)
          s0 (Memref.isWhole_whole _) s1 (Memref.isWhole_whole _) s2 (Memref.isWhole_whole _) s3 (Memref.isWhole_whole _)
          s4 (Memref.isWhole_whole _) cc0_scratch5 cc0_scratch6 cc0_scoped0 cc0_scoped1) ⟨⟩ c s := rfl

theorem tileObl (hT : TileSpec (F := F)) (hF : (K (F := F)).Facts)
    (hidx : ∀ (d : Dev nD) (j : S16384.Idx), (m (iLoc d) j).toNat ≤ 999999) :
    (K (F := F)).TileObl (D (F := F)) 𝒱 (P m) v₀ 0 := by
  intro d c i O W hO _ _
  -- this kernel owes nothing for a protocol of its own
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d hT hF hidx c i O W hO

end Cert.KLaunch

end
-- ==== Proof.LaunchK.Main.lean ====
import proofs.«207235_g30958124269674_cont_8to1_b_889_24_alg».proof.Proof.LaunchK.Base

/-! @main on the TensorCore, the launch element, and how the final memory reads the claim.

    @main copies the table twice (two identity host operations), hands the index array, the second copy and the output
    to the two cores — each array cut into the thirty-two tasks' runs, the copy of the table into read shares — and
    takes the runs back: the index array whole at its launch contents, the output whole at contents that hold, in
    every task's run, the rows its indices name. -/

noncomputable section

namespace Cert.KLaunch

open Cert.Kernel Cert.Kernel.Gen
open Cert.KTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## The thirty-two runs partition the index array and the output -/

omit [FloatOps F] in
theorem runOf_LL (c : Fin 2) (i : Fin 16) : (runOf (LL c i)).val = 2 * i.val + c.val := rfl

omit [FloatOps F] in
theorem runOf_injective : ∀ p p' : Fin 2 × Fin 16, p ≠ p' → runOf (LL p.1 p.2) ≠ runOf (LL p'.1 p'.2) := by
  intro p p' h e
  have e' := congrArg Fin.val e
  rw [runOf_LL, runOf_LL] at e'
  have h1 := p.1.isLt; have h2 := p'.1.isLt
  exact h (Prod.ext (Fin.ext (by omega)) (Fin.ext (by omega)))

omit [FloatOps F] in
theorem runOf_surjective (t : Fin 32) : ∃ p : Fin 2 × Fin 16, runOf (LL p.1 p.2) = t :=
  ⟨(⟨t.val % 2, Nat.mod_lt _ (by decide)⟩, ⟨t.val / 2, by have := t.isLt; omega⟩), Fin.ext (by rw [runOf_LL]; show 2 * (t.val / 2) + t.val % 2 = t.val; omega)⟩

/-- The runs of the index array and of the output, by task. -/
abbrev KI (p : Fin 2 × Fin 16) : Finset S16384.Idx := (iRow (LL p.1 p.2)).view.set
abbrev KO (p : Fin 2 × Fin 16) : Finset S16384x64.Idx := (oRow (LL p.1 p.2)).view.set

theorem KI_disjoint : ∀ p p' : Fin 2 × Fin 16, p ≠ p' → Disjoint (KI p) (KI p') := by
  intro p p' h
  show Disjoint (iRow (LL p.1 p.2)).view.set (iRow (LL p'.1 p'.2)).view.set
  rw [set_iRow, set_iRow]; exact Rect.part_disjoint hdivI (runOf_injective p p' h)
theorem KO_disjoint : ∀ p p' : Fin 2 × Fin 16, p ≠ p' → Disjoint (KO p) (KO p') := by
  intro p p' h
  show Disjoint (oRow (LL p.1 p.2)).view.set (oRow (LL p'.1 p'.2)).view.set
  rw [set_oRow, set_oRow]; exact Rect.part_disjoint hdivO (runOf_injective p p' h)
theorem KI_cover : (Finset.univ : Finset (Fin 2 × Fin 16)).biUnion KI = Finset.univ := by
  ext x
  simp only [Finset.mem_biUnion, Finset.mem_univ, true_and, iff_true]
  obtain ⟨t, ht⟩ := Rect.exists_mem_part hdivI x
  obtain ⟨p, hp⟩ := runOf_surjective t
  refine ⟨p, ?_⟩
  show x ∈ (iRow (LL p.1 p.2)).view.set
  rw [set_iRow, hp]; exact ht
theorem KO_cover : (Finset.univ : Finset (Fin 2 × Fin 16)).biUnion KO = Finset.univ := by
  ext x
  simp only [Finset.mem_biUnion, Finset.mem_univ, true_and, iff_true]
  obtain ⟨t, ht⟩ := Rect.exists_mem_part hdivO x
  obtain ⟨p, hp⟩ := runOf_surjective t
  refine ⟨p, ?_⟩
  show x ∈ (oRow (LL p.1 p.2)).view.set
  rw [set_oRow, hp]; exact ht

/-- The index array held whole is the tasks' runs of it held; -/
theorem iPts_tasks (d : Dev nD) (f : Buf (Elt F) (iLoc d)) :
    (iLoc d ↦{fullShare} f : sProp 𝕄) = bigSep Finset.univ fun p : Fin 2 × Fin 16 => iLoc d ↦[KI p]{fullShare} f := by
  rw [← pointsTo_biUnion Finset.univ (ℓ := iLoc d) KI (fun p _ p' _ h => KI_disjoint p p' h), KI_cover]; try rfl
/-- the output likewise. -/
theorem oPts_tasks (d : Dev nD) (f : Buf (Elt F) (oLoc d)) :
    (oLoc d ↦{fullShare} f : sProp 𝕄) = bigSep Finset.univ fun p : Fin 2 × Fin 16 => oLoc d ↦[KO p]{fullShare} f := by
  rw [← pointsTo_biUnion Finset.univ (ℓ := oLoc d) KO (fun p _ p' _ h => KO_disjoint p p' h), KO_cover]; try rfl

/-- The table held whole gives every task its read share (what is left over is dropped). -/
theorem tPts_tasks (d : Dev nD) (f : Buf (Elt F) (tLoc d)) :
    (tLoc d ↦{fullShare} f : sProp 𝕄) ⊢ bigSep Finset.univ fun p : Fin 2 × Fin 16 => tLoc d ↦{qT p.1 p.2} f := by
  rw [BI.bigSep_univ_prod (fun p : Fin 2 × Fin 16 => (tLoc d ↦{qT p.1 p.2} f : sProp 𝕄))]
  refine (Transfers.pointsTo_toks_split (ℓ := tLoc d) (S := Finset.univ) (f := f) fullShare 2).trans ?_
  iintro ⟨-, H⟩
  iapply (SparseCore.ent (bigSep_mono fun (c : Fin 2) _ =>
    show (tLoc d ↦{qC c} f : sProp 𝕄) ⊢ bigSep Finset.univ fun i : Fin 16 => tLoc d ↦{qT c i} f from
      (Transfers.pointsTo_toks_split (ℓ := tLoc d) (S := Finset.univ) (f := f) (qC c) 16).trans (by iintro ⟨-, H⟩; iexact H)))
  iexact H

/-! ## What the call hands over and takes back -/

theorem st0_eq (d : Dev nD) :
    (bigSep Finset.univ fun c : Fin ((K (F := F)).nCore 0) => (P m).st 0 d c)
      = iprop((bigSep Finset.univ fun p : Fin 2 × Fin 16 => iLoc d ↦[KI p]{fullShare} fI m d)
          ∗ (bigSep Finset.univ fun p : Fin 2 × Fin 16 => tLoc d ↦{qT p.1 p.2} fT m d)
          ∗ (bigSep Finset.univ fun p : Fin 2 × Fin 16 => oLoc d ↦[KO p]{fullShare} fO m d)) := by
  show (bigSep Finset.univ fun c : Fin 2 => bigSep Finset.univ fun i : Fin 16 => goF m d c i) = _
  rw [← BI.bigSep_univ_prod (fun p : Fin 2 × Fin 16 => goF m d p.1 p.2)]
  unfold goF
  rw [bigSep_sep', bigSep_sep']

/-- What every task's run of the output holds when the call is over. -/
def AllOK (d : Dev nD) (g : Buf (Elt F) (oLoc d)) : Prop := ∀ p : Fin 2 × Fin 16, RowsOK (LL p.1 p.2) (fI m d) (fT m d) g

/-- The tasks' runs, handed back, are the index array whole at its launch contents and the output whole at contents
    that hold, in every run, the rows the run's indices name. -/
theorem dn0_join (d : Dev nD) :
    (bigSep Finset.univ fun c : Fin ((K (F := F)).nCore 0) => (P m).dn 0 d c)
      ⊢ iprop((iLoc d ↦{fullShare} fI m d) ∗ ∃ g, ⌜AllOK m d g⌝ ∗ oLoc d ↦{fullShare} g) := by
  show (bigSep Finset.univ fun c : Fin 2 => bigSep Finset.univ fun i : Fin 16 => tdF m d c i) ⊢ _
  rw [← BI.bigSep_univ_prod (fun p : Fin 2 × Fin 16 => tdF m d p.1 p.2)]
  unfold tdF
  rw [bigSep_sep', ← iPts_tasks]
  haveI : Nonempty (Buf (Elt F) (oLoc d)) := ⟨m (oLoc d)⟩
  iintro ⟨Hi, Ho⟩
  isplitl [Hi]; · iexact Hi
  ihave Ho' := (bigSep_exists_pi Finset.univ (fun (p : Fin 2 × Fin 16) (fO' : Buf (Elt F) (oLoc d)) =>
    (iprop(⌜RowsOK (LL p.1 p.2) (fI m d) (fT m d) fO'⌝ ∗ oLoc d ↦[KO p]{fullShare} fO') : sProp 𝕄))) $$ Ho
  icases Ho' with ⟨%fs, Ho⟩
  ihave Ho' := (bigSep_pure_sep Finset.univ (fun p : Fin 2 × Fin 16 => RowsOK (LL p.1 p.2) (fI m d) (fT m d) (fs p))
    (fun p : Fin 2 × Fin 16 => (oLoc d ↦[KO p]{fullShare} fs p : sProp 𝕄))) $$ Ho
  icases Ho' with ⟨%hok, Ho⟩
  ihave Ho' := (pointsTo_biUnion_join (ℓ := oLoc d) (q := fullShare) (Val := Elt F) Finset.univ KO fs (m (oLoc d))
    (fun p _ p' _ h => KO_disjoint p p' h)) $$ Ho
  icases Ho' with ⟨%g, %hg, Ho⟩
  rw [KO_cover]
  iexists g
  isplitr
  · ipureintro
    intro p y h
    rw [hg p (Finset.mem_univ p) _ ((oRow (LL p.1 p.2)).view.emb_mem_set y)]
    exact hok p (Finset.mem_univ p) y h
  · iexact Ho

/-! ## @main on the TensorCore -/

abbrev zLoc (d : Dev nD) : Loc nD τ sig := (SparseCore.T d).loc main_v0

abbrev r0 : DevRef τ sig := Proc.devRef .tc (main_arg0 : Ref sig .tc)
abbrev r1 : DevRef τ sig := Proc.devRef .tc (main_arg1 : Ref sig .tc)
abbrev r2 : DevRef τ sig := Proc.devRef .tc (main_v0 : Ref sig .tc)
abbrev r3 : DevRef τ sig := Proc.devRef .tc (main_v1 : Ref sig .tc)
abbrev r4 : DevRef τ sig := Proc.devRef .tc (main_v2 : Ref sig .tc)
/-- The TensorCore's arrays, all unscoped. -/
abbrev S5 : Finset (DevRef τ sig) := {r0, r1, r2, r3, r4}

abbrev idT : (⟨S1000000x64, .f32⟩ : BufTy).Contents (Elt F) → (⟨S1000000x64, .f32⟩ : BufTy).Contents (Elt F) := id
/-- The two host operations: the table copied, and the copy copied. -/
abbrev op1 : HloOp τ sig (Elt F) := StableHlo.unary main_arg1 main_v0 (idT (F := F))
abbrev op2 : HloOp τ sig (Elt F) := StableHlo.unary main_v0 main_v1 (idT (F := F))

omit [FloatOps F] in
theorem held_S5 (d : Dev nD) (W : Valuation τ sig (Elt F)) :
    (held (T d) S5 W : sProp 𝕄) = iprop((iLoc d ↦{fullShare} W r0) ∗ (aLoc d ↦{fullShare} W r1) ∗ (zLoc d ↦{fullShare} W r2)
      ∗ (tLoc d ↦{fullShare} W r3) ∗ oLoc d ↦{fullShare} W r4) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (aLoc d ↦{fullShare} W main_arg1) ∗ (zLoc d ↦{fullShare} W main_v0)
      ∗ (tLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation, and the valuation after the two copies. -/
def V0 (d : Dev nD) : Valuation τ sig (Elt F) := fun b => m (d, b)
abbrev V1 (d : Dev nD) : Valuation τ sig (Elt F) := (op1 (F := F)).result (V0 m d)
abbrev V2 (d : Dev nD) : Valuation τ sig (Elt F) := (op2 (F := F)).result (V1 m d)

theorem unscoped_held (d : Dev nD) : (unscopedBufs d (fun b => m ((SparseCore.T d).loc b)) : sProp 𝕄) = held (T d) S5 (V0 m d) := by
  rw [unscopedBufs_eq, held_S5]; rfl

theorem V2_r0 (d : Dev nD) : V2 m d r0 = m (iLoc d) :=
  (StableHlo.unary_result_ne main_v0 main_v1 (idT (F := F)) _ _ (V1 m d) (r := main_arg0) (by decide)).trans
    (StableHlo.unary_result_ne main_arg1 main_v0 (idT (F := F)) _ _ (V0 m d) (r := main_arg0) (by decide))
theorem V2_r1 (d : Dev nD) : V2 m d r1 = m (aLoc d) :=
  (StableHlo.unary_result_ne main_v0 main_v1 (idT (F := F)) _ _ (V1 m d) (r := main_arg1) (by decide)).trans
    (StableHlo.unary_result_ne main_arg1 main_v0 (idT (F := F)) _ _ (V0 m d) (r := main_arg1) (by decide))
theorem V2_r3 (d : Dev nD) : V2 m d r3 = fT m d :=
  (StableHlo.unary_result main_v0 main_v1 (idT (F := F)) _ _ (V1 m d)).trans
    (StableHlo.unary_result main_arg1 main_v0 (idT (F := F)) _ _ (V0 m d))
theorem V2_r4 (d : Dev nD) : V2 m d r4 = m (oLoc d) :=
  (StableHlo.unary_result_ne main_v0 main_v1 (idT (F := F)) _ _ (V1 m d) (r := main_v2) (by decide)).trans
    (StableHlo.unary_result_ne main_arg1 main_v0 (idT (F := F)) _ _ (V0 m d) (r := main_v2) (by decide))

theorem hop1 : (op1 (F := F)).bufs ⊆ S5 := show ({r1, r2} : Finset (DevRef τ sig)) ⊆ S5 by decide
theorem hop2 : (op2 (F := F)).bufs ⊆ S5 := show ({r2, r3} : Finset (DevRef τ sig)) ⊆ S5 by decide

/-- What @main leaves the claim: the index array and the table at their launch contents, the output at contents that
    hold, in every task's run, the rows the run's indices name. -/
abbrev FIN (d : Dev nD) : sProp 𝕄 :=
  iprop((iLoc d ↦{fullShare} m (iLoc d)) ∗ (aLoc d ↦{fullShare} m (aLoc d)) ∗ ∃ g, ⌜AllOK m d g⌝ ∗ oLoc d ↦{fullShare} g)

/-- @main on device `d`'s TensorCore: the two copies, then the call — the index array, the second copy and the output
    out by task, the index array and the output back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two copies
  iapply (wp_hlo_within 𝒱 (SparseCore.T d) none Set.univ (op := op1 (F := F)) (S := S5) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2 (F := F)) (S := S5) hop2 (V := V1 m d)) $$ [Hb Hheld]
  · isplitl [Hb]; · iexact Hb
    iexact Hheld
  iintro ⟨Hb, Hheld⟩
  rw [wp_ret]; imodintro
  ihave Hh := (Entails.of_eq (held_S5 (F := F) d (V2 m d))) $$ Hheld
  rw [V2_r0, V2_r1, V2_r3, V2_r4]
  icases Hh with ⟨Hi, Ha, -, Ht, Ho⟩
  -- the call: each array out by task, the index array and the output back
  ihave Hi' := (Entails.of_eq (iPts_tasks (F := F) d (m (iLoc d)))) $$ Hi
  ihave Ht' := (tPts_tasks (F := F) d (fT m d)) $$ Ht
  ihave Ho' := (Entails.of_eq (oPts_tasks (F := F) d (m (oLoc d)))) $$ Ho
  iapply ((K (F := F)).wp_run (D (F := F)) 𝒱 (EH := EH) (P := P m) κ d 0) $$ [Hst Hi' Ht' Ho' Ha]
  isplitr; · iexact Hctx
  isplitl [Hst]; · iexact Hst
  isplitl [Hi' Ht' Ho']
  · rw [st0_eq]
    isplitl [Hi']; · iexact Hi'
    isplitl [Ht']; · iexact Ht'
    iexact Ho'
  iintro ⟨Hst, Hdn⟩
  ihave Hdn' := (dn0_join m d) $$ Hdn
  icases Hdn' with ⟨Hi, Ho⟩
  imodintro
  isplitl [Hst]; · iexact Hst
  isplitl [Hi]; · iexact Hi
  isplitl [Ha]; · iexact Ha
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The final memory reads the claim -/

def fq (d : Dev nD) (s' : Phys nD τ sig (Elt F)) : Prop :=
  s'.mem.mem (iLoc d) = m (iLoc d) ∧ s'.mem.mem (aLoc d) = m (aLoc d) ∧ AllOK m d (s'.mem.mem (oLoc d))

theorem hfin (d : Dev nD) (s' : Phys nD τ sig (Elt F)) : iprop(FIN m d ∗ SI s') ⊢ (⌜fq m d s'⌝ : sProp 𝕄) := by
  iintro ⟨⟨Hi, Ha, %g, %hg, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := oLoc d) (I := Finset.univ) (q := fullShare) (f := g)) $$ [HSI Ho]
  · isplitl [HSI] <;> iassumption
  icases H with %h3
  ipureintro
  have e3 : s'.mem.mem (oLoc d) = g := funext fun i => h3 i (Finset.mem_univ i)
  exact ⟨funext fun i => h1 i (Finset.mem_univ i), funext fun i => h2 i (Finset.mem_univ i), e3 ▸ hg⟩

end Cert.KLaunch

end
-- ==== Proof.LaunchK.lean ====
import proofs.«207235_g30958124269674_cont_8to1_b_889_24_alg».proof.Proof.LaunchK.Tile
import proofs.«207235_g30958124269674_cont_8to1_b_889_24_alg».proof.Proof.LaunchK.Main

/-! The run of the whole program, from the statement of one vector subcore's task: every fair execution of @main, the
    two sequencers and the thirty-two vector subcores ends, nothing faulting; the index array and the table end
    unchanged, and row `j` of the result is row `idx[j]` of the table.

    Row `j` lies in the run of exactly one task — the one numbered `j / 512` — at place `j % 512`; what that task
    leaves there is what the claim says of row `j`. -/

noncomputable section

namespace Cert.KLaunch

open Cert.Kernel Cert.Kernel.Gen
open Cert.KTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- What a task's run of the output holds, said of the rows of the whole output. -/
theorem row_of_ok (L : grid0.Coords) (fI : S16384.Idx → BitVec 32) (fT : S1000000x64.Idx → Elt F .f32) (g : S16384x64.Idx → Elt F .f32)
    (hok : RowsOK L fI fT g) (j : S16384.Idx) (col : Fin 64) (hj : (j 0).val / 512 = (runOf L).val) (h : (fI j).toNat < 1000000) :
    g (ValueIdx.ix2 (j 0) col) = fT (ValueIdx.ix2 ⟨_, h⟩ col) := by
  have hj' : (j 0).val / 512 = 2 * (L 1).val + (L 0).val := hj
  let y : S512x64.Idx := ValueIdx.ix2 (⟨(j 0).val % 512, Nat.mod_lt _ (by decide)⟩ : Fin 512) col
  have e1 : (iRow L).view.emb (ValueIdx.ix1 (y 0)) = j := by
    funext a; refine Fin.ext ?_
    match a with
    | ⟨0, _⟩ =>
      show (k0_off1 L) 0 + 1 * ((j 0).val % 512) = (j 0).val
      rw [k0_off1_eq]; simp only [Matrix.cons_val_zero]; omega
  have e2 : (oRow L).view.emb y = ValueIdx.ix2 (j 0) col := by
    funext a; refine Fin.ext ?_
    match a with
    | ⟨0, _⟩ =>
      show (k0_off326 L) 0 + 1 * ((j 0).val % 512) = (j 0).val
      rw [k0_off326_eq]; simp only [Matrix.cons_val_zero]; omega
    | ⟨1, _⟩ =>
      show (k0_off326 L) 1 + 1 * col.val = col.val
      rw [k0_off326_eq]; simp
  have key : ∀ (j' : S16384.Idx) (_ : j' = j) (h' : (fI j').toNat < 1000000),
      fT (ValueIdx.ix2 ⟨_, h'⟩ col) = fT (ValueIdx.ix2 ⟨_, h⟩ col) := by
    intro j' e h'; subst e; rfl
  have h0 := hok y (e1.symm ▸ h)
  rw [e2] at h0
  exact h0.trans (key _ e1 _)

variable (m : (ℓ : Loc nD τ sig) → Buf (Elt F) ℓ) (ρ : Dev nD → PrngReg)

/-- The claim: on every device, row `j` of the result is row `idx[j]` of the table, and the index array and the table
    are unchanged. -/
def QC : PUnit × MemSt nD τ sig (Elt F) → Prop := fun r => ∀ c : Dev nD,
  (∀ (j : S16384.Idx) (col : Fin 64) (h : (m ((c.tc : Thread nD τ).loc main_arg0) j).toNat < 1000000),
      r.2.mem ((c.tc : Thread nD τ).loc main_v2) (ValueIdx.ix2 (j 0) col)
        = m ((c.tc : Thread nD τ).loc main_arg1) (ValueIdx.ix2 ⟨_, h⟩ col))
  ∧ r.2.mem ((c.tc : Thread nD τ).loc main_arg0) = m ((c.tc : Thread nD τ).loc main_arg0)
  ∧ r.2.mem ((c.tc : Thread nD τ).loc main_arg1) = m ((c.tc : Thread nD τ).loc main_arg1)

theorem hQ (s' : Phys nD τ sig (Elt F)) (h : ∀ d, fq m d s') : QC m (⟨⟩, s'.mem) := by
  intro c
  obtain ⟨h1, h2, h3⟩ := h c
  refine ⟨fun j col hh => ?_, h1, h2⟩
  obtain ⟨p, hp⟩ := runOf_surjective ⟨(j 0).val / 512, by have : (j 0).val < 16384 := (j 0).isLt; omega⟩
  exact row_of_ok (LL p.1 p.2) _ _ _ (h3 p) j col (by rw [hp]) hh

theorem run_main [∀ e, Nonempty (Elt F e)] (hT : Cert.KTile.TileSpec (F := F))
    (m : (ℓ : Loc nD τ sig) → Buf (Elt F) ℓ) (ρ : Dev nD → PrngReg)
    (hidx : ∀ (c : Dev nD) (j : S16384.Idx), (m ((c.tc : Thread nD τ).loc main_arg0) j).toNat ≤ 999999) :
    θ_run (Cert.Kernel.defs (F := F)) (Cert.Kernel.threads (F := F)) ⟨m, fun _ => 0, ρ⟩ (fun r => ∀ c : Dev nD,
      (∀ (j : S16384.Idx) (col : Fin 64) (h : (m ((c.tc : Thread nD τ).loc main_arg0) j).toNat < 1000000),
          r.2.mem ((c.tc : Thread nD τ).loc main_v2) (ValueIdx.ix2 (j 0) col)
            = m ((c.tc : Thread nD τ).loc main_arg1) (ValueIdx.ix2 ⟨_, h⟩ col))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => tileObl m hT facts hidx)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (hQ m)

end Cert.KLaunch

end
-- ==== Proof.RefRun.lean ====
import proofs.«207235_g30958124269674_cont_8to1_b_889_24_alg».proof.ReferenceIdeal
import Idealize.ShloMosaic.Lib.StableHlo.Run
import proofs.«207235_g30958124269674_cont_8to1_b_889_24_alg».proof.Proof.Gen.ReferenceIdeal

/-! The reference program's run. `jnp.take(table, idx, axis=0)` is one straight line of host operations: a negative
    index has the table's height added to it, the rows are gathered at the adjusted indices, and a row whose adjusted
    index falls outside `[0, 999999]` is replaced by a row of NaNs. Listed here in order, with the two outlined calls
    unfolded; every weakly fair execution of the program ends with each buffer at the fold of that list over the
    launch contents. -/

noncomputable section

namespace Cert.RefRun

open Idealize.ShloMosaic Idealize.ShloMosaic.TcCoe Idealize.ShloMosaic.StableHlo Idealize.SL.Sem
open Cert.ReferenceIdeal Cert.ReferenceIdeal.Gen

variable {F : FTy → Type} [FloatOps F]

/-- The adjusted indices: `idx + 1000000` where `idx < 0`, else `idx`. -/
def adj (idx : IVec S16384 32) : IVec S16384 32 :=
  select (cmpi .slt idx (broadcastInDim S16384 ![] bcast_S_S16384 (constantI S_ 32 0#32)))
    (addi idx (broadcastInDim S16384 ![] bcast_S_S16384 (constantI S_ 32 1000000#32))) idx

/-- The adjusted indices as a column. -/
def adjCol (idx : IVec S16384 32) : IVec S16384x1 32 :=
  broadcastInDim S16384x1 ![0] bcast_S16384_S16384x1_0 (adj idx)

/-- Per row: is the adjusted index inside `[0, 999999]`. -/
def inRange (idx : IVec S16384 32) : IVec S16384 1 :=
  Host.reduce IntOp.andi
    (andi (cmpi .sge (adjCol idx) (broadcastInDim S16384x1 ![] bcast_S_S16384x1 (constantI S_ 32 0#32)))
      (cmpi .sle (adjCol idx) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- What the reference computes from the two arguments' contents. -/
def out (idx : IVec S16384 32) (tab : FVec F S1000000x64 .f32) : FVec F S16384x64 .f32 :=
  select (broadcastInDim S16384x64 ![0] bcast_S16384_S16384x64_0 (inRange idx))
    (Host.gather gather_S1000000x64_S16384x1_S16384x64_1_0_n_n_0_1_164 tab (adjCol idx))
    (broadcastInDim S16384x64 ![] bcast_S_S16384x64 (constant S_ .f32 0x7FC00000#32))

/-- @main's operations in order, the calls unfolded. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select ]

set_option maxRecDepth 1024 in
/-- @main is that straight line. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
set_option maxRecDepth 8192 in
set_option maxHeartbeats 1600000 in
/-- Every weakly fair execution of the reference's @main terminates with the result buffer at `out` of the two
    arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (by unfold out inRange adjCol adj; after_results; rfl),
      (h c main_arg0).trans (by after_results),
      (h c main_arg1).trans (by after_results)⟩)
    (run_seq scopedRefs_eq scopedSems_eq defs main (fun _ => ops) main_eq (fun _ => ops_sub) m ρ)

end Cert.RefRun

end
-- ==== Proof.RefValue.lean ====
import proofs.«207235_g30958124269674_cont_8to1_b_889_24_alg».proof.Proof.RefRun
import Idealize.ShloMosaic.Lib.ValueIdx
import Idealize.ShloMosaic.PureOps.Reduce

/-! The reference's result, read at an index. Under the index range `0 ≤ idx ≤ 999999` nothing is adjusted (an index
    is non-negative as a signed word), every row passes the range test, and the gather reads, at row `j`, row
    `idx[j]` of the table: the start index is its own clamp. -/

noncomputable section

namespace Cert.RefValue

open Idealize.ShloMosaic Idealize.ShloMosaic.ValueIdx
open Cert.ReferenceIdeal Cert.ReferenceIdeal.Gen
open Cert.RefRun

variable {F : FTy → Type} [FloatOps F]

/-! ## Words in the range, compared as signed -/

theorem slt_zero (v : BitVec 32) (hv : v.toNat ≤ 999999) : IntOp.cmpi .slt v 0#32 = 0#1 := by
  have : ¬ v.toInt < (0#32 : BitVec 32).toInt := by
    simp only [BitVec.toInt_eq_toNat_cond, BitVec.toNat_ofNat, Nat.reducePow, Nat.reduceMod]; omega
  simp only [IntOp.cmpi, BitVec.slt_eq_decide, this, decide_false, BitVec.ofBool_false]; rfl
theorem sge_zero (v : BitVec 32) (hv : v.toNat ≤ 999999) : IntOp.cmpi .sge v 0#32 = 1#1 := by
  have : (0#32 : BitVec 32).toInt ≤ v.toInt := by
    simp only [BitVec.toInt_eq_toNat_cond, BitVec.toNat_ofNat, Nat.reducePow, Nat.reduceMod]; omega
  simp only [IntOp.cmpi, BitVec.sle_eq_decide, this, decide_true, BitVec.ofBool_true]; rfl
theorem sle_max (v : BitVec 32) (hv : v.toNat ≤ 999999) : IntOp.cmpi .sle v 999999#32 = 1#1 := by
  have : v.toInt ≤ (999999#32 : BitVec 32).toInt := by
    simp only [BitVec.toInt_eq_toNat_cond, BitVec.toNat_ofNat, Nat.reducePow, Nat.reduceMod]; omega
  simp only [IntOp.cmpi, BitVec.sle_eq_decide, this, decide_true, BitVec.ofBool_true]; rfl
theorem toInt_toNat (v : BitVec 32) (hv : v.toNat ≤ 999999) : v.toInt.toNat = v.toNat := by
  rw [BitVec.toInt_eq_toNat_cond]; simp only [Nat.reducePow]; split <;> omega

/-! ## The stages at an index -/

section Stages

variable (idx : IVec S16384 32) (hidx : ∀ j : S16384.Idx, (idx j).toNat ≤ 999999)

include hidx in
/-- No index is adjusted. -/
theorem adj_eq (k : S16384.Idx) : adj idx k = idx k := by
  unfold adj
  rw [select_apply]
  show Scalar.select (IntOp.cmpi .slt (idx k) 0#32) _ _ = _
  rw [slt_zero _ (hidx k), select_zero]

include hidx in
/-- Every entry of the adjusted column is one of the indices, so in the range. -/
theorem adjCol_le (i : S16384x1.Idx) : (adjCol idx i).toNat ≤ 999999 := by
  unfold adjCol broadcastInDim
  rw [adj_eq idx hidx]; exact hidx _

include hidx in
/-- The adjusted column at row `j` is `idx[j]`. -/
theorem adjCol_row (j : S16384.Idx) (i : S16384x1.Idx) (hi : (i 0).val = (j 0).val) : adjCol idx i = idx j := by
  unfold adjCol broadcastInDim
  rw [adj_eq idx hidx]
  congr 1
  funext a
  match a with
  | ⟨0, _⟩ => exact Fin.ext hi

omit [FloatOps F] in
theorem foldl_andi_one {ι : Type} (x : ι → BitVec 1) (hx : ∀ i, x i = 1#1) :
    ∀ (l : List ι) (init : BitVec 1), init = 1#1 → l.foldl (fun r i => IntOp.andi r (x i)) init = 1#1
  | [], _, h => h
  | a :: l, init, h => by
    rw [List.foldl_cons]
    exact foldl_andi_one x hx l _ (by rw [h, hx a]; decide)

include hidx in
/-- Every row passes the range test. -/
theorem inRange_eq (k : S16384.Idx) : inRange idx k = 1#1 := by
  unfold inRange
  rw [Host.reduce_eq_foldl]
  refine foldl_andi_one _ (fun i => ?_) _ _ rfl
  show IntOp.andi (IntOp.cmpi .sge (adjCol idx i) 0#32) (IntOp.cmpi .sle (adjCol idx i) 999999#32) = 1#1
  rw [sge_zero _ (adjCol_le idx hidx i), sle_max _ (adjCol_le idx hidx i)]; decide

/-! ## The gather at an index -/

/-- The gather at `(r, c)` reads the table at the row the start index `[r, 0]` names, read signed and clamped, and at
    column `c`. -/
theorem gather_apply (tab : FVec F S1000000x64 .f32) (ix : IVec S16384x1 32) (y : S16384x64.Idx) :
    Host.gather gather_S1000000x64_S16384x1_S16384x64_1_0_n_n_0_1_164 tab ix y
      = tab (ix2 ⟨min (ix (ix2 (y 0) (0 : Fin 1))).toInt.toNat 999999, by omega⟩ (y 1)) := by
  unfold Host.gather
  congr 1
  funext a
  refine Fin.ext ?_
  match a with
  | ⟨0, _⟩ =>
    show (gather_S1000000x64_S16384x1_S16384x64_1_0_n_n_0_1_164).start y ix 0
      + (gather_S1000000x64_S16384x1_S16384x64_1_0_n_n_0_1_164).batchCoord y 0
      + (gather_S1000000x64_S16384x1_S16384x64_1_0_n_n_0_1_164).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1000000x64_S16384x1_S16384x64_1_0_n_n_0_1_164).startIndexMap from List.mem_singleton.mpr rfl)]
    have hsi : (gather_S1000000x64_S16384x1_S16384x64_1_0_n_n_0_1_164).siIdx y
        ⟨List.idxOf (0 : Fin 2) (gather_S1000000x64_S16384x1_S16384x64_1_0_n_n_0_1_164).startIndexMap,
          List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (gather_S1000000x64_S16384x1_S16384x64_1_0_n_n_0_1_164).start y ix 1
      + (gather_S1000000x64_S16384x1_S16384x64_1_0_n_n_0_1_164).batchCoord y 1
      + (gather_S1000000x64_S16384x1_S16384x64_1_0_n_n_0_1_164).offCoord y 1 = _
    rw [GatherDims.batchCoord_eq_zero _ _ _ List.not_mem_nil]
    unfold GatherDims.start
    rw [dif_neg (show (1 : Fin 2) ∉ (gather_S1000000x64_S16384x1_S16384x64_1_0_n_n_0_1_164).startIndexMap from by decide)]
    simp only [Nat.add_zero, Nat.zero_add]
    rfl

end Stages

/-! ## The reference's result at an index -/

set_option maxRecDepth 8192 in
/-- Under the index range, row `j` of the reference's result is row `idx[j]` of the table. -/
theorem out_apply (idx : IVec S16384 32) (tab : FVec F S1000000x64 .f32) (hidx : ∀ j : S16384.Idx, (idx j).toNat ≤ 999999)
    (j : S16384.Idx) (col : Fin 64) (h : (idx j).toNat < 1000000) :
    Cert.RefRun.out idx tab (ix2 (j 0) col) = tab (ix2 ⟨_, h⟩ col) := by
  unfold out
  rw [select_apply]
  have hc : broadcastInDim S16384x64 ![0] bcast_S16384_S16384x64_0 (inRange idx) (ix2 (j 0) col) = 1#1 := by
    unfold broadcastInDim; exact inRange_eq idx hidx _
  rw [hc, select_one, gather_apply]
  have hrow : adjCol idx (ix2 ((ix2 (j 0) col : S16384x64.Idx) 0) (0 : Fin 1)) = idx j := adjCol_row idx hidx j _ rfl
  refine congrArg tab (funext fun a => Fin.ext ?_)
  match a with
  | ⟨0, _⟩ =>
    show min (adjCol idx (ix2 ((ix2 (j 0) col : S16384x64.Idx) 0) (0 : Fin 1))).toInt.toNat 999999 = (idx j).toNat
    rw [hrow, toInt_toNat _ (hidx j)]; have := hidx j; omega
  | ⟨1, _⟩ => rfl

end Cert.RefValue

end
-- ==== Proof.lean ====
/- An embedding lookup: row `j` of the result is row `idx[j]` of the table, for indices between 0 and 999999. The
   kernel's thirty-two vector subcores each take a run of 512 indices, fetch for every index the 8-row slab of the
   table that holds its row and pick the row out of the slab; the reference adjusts negative indices (there are
   none), gathers the rows at the indices and keeps the rows whose index is in range (all of them). Both results
   are, at every row, the table's row the index names; both programs leave the index array and the table as they
   were. -/
import proofs.«207235_g30958124269674_cont_8to1_b_889_24_alg».proof.Defs
import proofs.«207235_g30958124269674_cont_8to1_b_889_24_alg».proof.Proof.Gen.Kernel
import proofs.«207235_g30958124269674_cont_8to1_b_889_24_alg».proof.Proof.Gen.Kernel.Skeleton
import proofs.«207235_g30958124269674_cont_8to1_b_889_24_alg».proof.Proof.Gen.KernelIdeal
import proofs.«207235_g30958124269674_cont_8to1_b_889_24_alg».proof.Proof.Gen.KernelIdeal.Skeleton
import proofs.«207235_g30958124269674_cont_8to1_b_889_24_alg».proof.Proof.Gen.ReferenceIdeal
import proofs.«207235_g30958124269674_cont_8to1_b_889_24_alg».proof.Proof.Gen.Pre_input_domain
import Idealize.ShloMosaic.Adequacy
import Idealize.ShloMosaic.Init
import proofs.«207235_g30958124269674_cont_8to1_b_889_24_alg».proof.Proof.Tile
import proofs.«207235_g30958124269674_cont_8to1_b_889_24_alg».proof.Proof.TileK
import proofs.«207235_g30958124269674_cont_8to1_b_889_24_alg».proof.Proof.Launch
import proofs.«207235_g30958124269674_cont_8to1_b_889_24_alg».proof.Proof.LaunchK
import proofs.«207235_g30958124269674_cont_8to1_b_889_24_alg».proof.Proof.RefRun
import proofs.«207235_g30958124269674_cont_8to1_b_889_24_alg».proof.Proof.RefValue
import proofs.«207235_g30958124269674_cont_8to1_b_889_24_alg».proof.Proof.PreDecode

noncomputable section

namespace Cert.Proof

open Idealize.ShloMosaic Idealize.SL.Sem

/-- The kernel as printed runs to the end and leaves its arguments unchanged: its run with the rows' values dropped. -/
theorem frame_k : Cert.frame_Kernel (hKernel := Cert.Kernel.Gen.facts) (hPre_input_domain := Cert.Pre_input_domain.Gen.facts) :=
  fun m g hpre =>
    (θ_run Cert.Kernel.defs _ _).mono (fun _ h c => (h c).2)
      (Cert.KLaunch.run_main (F := Bits) Cert.KTile.tile_spec m g fun c j => Cert.PreDecode.idx_le _ _ (hpre c) j)

/-- The kernel read over the extended reals likewise. -/
theorem frame_ki : Cert.frame_KernelIdeal (hKernelIdeal := Cert.KernelIdeal.Gen.facts) (hPre_input_domain := Cert.Pre_input_domain.Gen.facts) :=
  fun m g hpre =>
    (θ_run Cert.KernelIdeal.defs _ _).mono (fun _ h c => (h c).2)
      (Cert.KILaunch.run_main (F := Ideal) Cert.KITile.tile_spec m g fun c j => Cert.PreDecode.idx_le _ _ (hpre c) j)

/-- The reference runs to the end and leaves its arguments unchanged: its run with the result dropped. -/
theorem frame_ri : Cert.frame_ReferenceIdeal (hReferenceIdeal := Cert.ReferenceIdeal.Gen.facts) (hPre_input_domain := Cert.Pre_input_domain.Gen.facts) :=
  fun m g _ =>
    (θ_run Cert.ReferenceIdeal.defs _ _).mono (fun _ h c => (h c).2) (Cert.RefRun.run (F := Ideal) m g)

/-- Both programs end with, at row `j`, row `idx[j]` of the table: the kernel's subcores leave it there, and it is what
    the reference's gather reads under the index range. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hidx : ∀ (c : Dev Cert.KernelIdeal.nD) (j : Cert.KernelIdeal.S16384.Idx),
      (m ((c.tc : Thread Cert.KernelIdeal.nD Cert.KernelIdeal.τ).loc Cert.KernelIdeal.main_arg0) j).toNat ≤ 999999 :=
    fun c j => Cert.PreDecode.idx_le _ _ (hpre c) j
  refine ⟨fun c => Cert.RefRun.out (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ⟨?_, (h c).2.1, (h c).2.2⟩)
      (Cert.KILaunch.run_main (F := Ideal) Cert.KITile.tile_spec m g hidx)
    funext y
    have hlt : (m ((c.tc : Thread Cert.KernelIdeal.nD Cert.KernelIdeal.τ).loc Cert.KernelIdeal.main_arg0) (ValueIdx.ix1 (y 0))).toNat < 1000000 :=
      Nat.lt_succ_of_le (hidx c _)
    rw [ValueIdx.eq_ix2 y]
    exact ((h c).1 (ValueIdx.ix1 (y 0)) (y 1) hlt).trans
      (Cert.RefValue.out_apply (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (hidx c) (ValueIdx.ix1 (y 0)) (y 1) hlt).symm
  · refine (θ_run Cert.ReferenceIdeal.defs _ _).mono (fun _ h c => ⟨(h c).1.trans ?_, (h c).2.1, (h c).2.2⟩)
      (Cert.RefRun.run (F := Ideal) m' g')
    rw [(hagree c).1, (hagree c).2]

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
